-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v288)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v288) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x320000 : Shape := ⟨2, ![2, 320000]⟩
abbrev S2x64000 : Shape := ⟨2, ![2, 64000]⟩
abbrev S100000 : Shape := ⟨1, ![100000]⟩
abbrev S20000 : Shape := ⟨1, ![20000]⟩
abbrev S128x128 : Shape := ⟨2, ![128, 128]⟩
abbrev S128 : Shape := ⟨1, ![128]⟩
abbrev S256x128 : Shape := ⟨2, ![256, 128]⟩
abbrev S256x10 : Shape := ⟨2, ![256, 10]⟩
abbrev S10 : Shape := ⟨1, ![10]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part5 {F : FTy → Type} [FloatOps F] (main_arg21 : FVec F S4x128 .f32) (main_v83 : IVec S_ 1) (main_v84 : FVec F S4x128 .f32) : IVec S_ 1 :=
  let main_v85 : IVec S4x128 1 := cmpf .oge main_arg21 main_v84
  let main_c_33 : IVec S_ 1 := constantI S_ 1 1#1
  let main_v86 : IVec S_ 1 := (fun x v => Host.reduce IntOp.andi x v reducesTo_S4x128_S_d0_1 h_S_) main_v85 main_c_33
  let main_v87 : IVec S_ 1 := andi main_v83 main_v86
  main_v87

def fn_part4 {F : FTy → Type} [FloatOps F] (main_arg19 : FVec F S4x128 .f32) (main_arg20 : FVec F S4x128 .f32) (main_arg21 : FVec F S4x128 .f32) (main_v63 : IVec S_ 1) (main_v67 : IVec S_ 1) : IVec S_ 1 :=
  let main_v68 : IVec S_ 1 := andi main_v63 main_v67
  let main_v69 : FVec F S4x128 .f32 := Host.absf main_arg19
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S4x128 .f32 := Host.absf main_arg20
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S4x128 .f32 := Host.absf main_arg21
  let main_cst_30 : FVec F S_ .f32 := constant S_ .f32 0x7F800000#32
  let main_v80 : FVec F S4x128 .f32 := broadcastInDim S4x128 ![] bcast_S_S4x128 main_cst_30
  let main_v81 : IVec S4x128 1 := cmpf .olt main_v79 main_v80
  let main_c_31 : IVec S_ 1 := constantI S_ 1 1#1
  let main_v82 : IVec S_ 1 := (fun x v => Host.reduce IntOp.andi x v reducesTo_S4x128_S_d0_1 h_S_) main_v81 main_c_31
  let main_v83 : IVec S_ 1 := andi main_v78 main_v82
  let main_cst_32 : FVec F S_ .f32 := constant S_ .f32 0x00000000#32
  let main_v84 : FVec F S4x128 .f32 := broadcastInDim S4x128 ![] bcast_S_S4x128 main_cst_32
  fn_part5 (F := F) main_arg21 main_v83 main_v84

def fn_part3 {F : FTy → Type} [FloatOps F] (main_arg16 : FVec F S4x128x128 .f32) (main_arg17 : FVec F S4x128 .f32) (main_arg18 : FVec F S4x128 .f32) (main_arg19 : FVec F S4x128 .f32) (main_arg20 : FVec F S4x128 .f32) (main_arg21 : FVec F S4x128 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S4x128x128 .f32 := Host.absf main_arg16
  let main_cst_20 : FVec F S_ .f32 := constant S_ .f32 0x7F800000#32
  let main_v55 : FVec F S4x128x128 .f32 := broadcastInDim S4x128x128 ![] bcast_S_S4x128x128 main_cst_20
  let main_v56 : IVec S4x128x128 1 := cmpf .olt main_v54 main_v55
  let main_c_21 : IVec S_ 1 := constantI S_ 1 1#1
  let main_v57 : IVec S_ 1 := (fun x v => Host.reduce IntOp.andi x v reducesTo_S4x128x128_S_d0_1_2 h_S_) main_v56 main_c_21
  let main_v58 : IVec S_ 1 := andi main_v53 main_v57
  let main_v59 : FVec F S4x128 .f32 := Host.absf main_arg17
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg18
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg19 main_arg20 main_arg21 main_v63 main_v67

def fn_part2 {F : FTy → Type} [FloatOps F] (main_arg12 : FVec F S256x128 .f32) (main_arg13 : FVec F S128 .f32) (main_arg14 : FVec F S256x10 .f32) (main_arg15 : FVec F S10 .f32) (main_arg16 : FVec F S4x128x128 .f32) (main_arg17 : FVec F S4x128 .f32) (main_arg18 : FVec F S4x128 .f32) (main_arg19 : FVec F S4x128 .f32) (main_arg20 : FVec F S4x128 .f32) (main_arg21 : FVec F S4x128 .f32) (main_v33 : IVec S_ 1) : IVec S_ 1 :=
  let main_v34 : FVec F S256x128 .f32 := Host.absf main_arg12
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg13
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x10 .f32 := Host.absf main_arg14
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg15
  let main_cst_18 : FVec F S_ .f32 := constant S_ .f32 0x7F800000#32
  let main_v50 : FVec F S10 .f32 := broadcastInDim S10 ![] bcast_S_S10 main_cst_18
  fn_part3 (F := F) main_arg16 main_arg17 main_arg18 main_arg19 main_arg20 main_arg21 main_v48 main_v49 main_v50

def fn_part1 {F : FTy → Type} [FloatOps F] (main_arg9 : FVec F S128 .f32) (main_arg10 : FVec F S128x128 .f32) (main_arg11 : FVec F S128 .f32) (main_arg12 : FVec F S256x128 .f32) (main_arg13 : FVec F S128 .f32) (main_arg14 : FVec F S256x10 .f32) (main_arg15 : FVec F S10 .f32) (main_arg16 : FVec F S4x128x128 .f32) (main_arg17 : FVec F S4x128 .f32) (main_arg18 : FVec F S4x128 .f32) (main_arg19 : FVec F S4x128 .f32) (main_arg20 : FVec F S4x128 .f32) (main_arg21 : FVec F S4x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg10
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_v33

def fn {F : FTy → Type} [FloatOps F] (main_arg0 : FVec F S100000x128 .f32) (main_arg1 : IVec S2x1600000 32) (main_arg2 : IVec S2x320000 32) (main_arg3 : IVec S2x64000 32) (main_arg4 : IVec S100000 32) (main_arg5 : IVec S20000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x128 .f32) (main_arg13 : FVec F S128 .f32) (main_arg14 : FVec F S256x10 .f32) (main_arg15 : FVec F S10 .f32) (main_arg16 : FVec F S4x128x128 .f32) (main_arg17 : FVec F S4x128 .f32) (main_arg18 : FVec F S4x128 .f32) (main_arg19 : FVec F S4x128 .f32) (main_arg20 : FVec F S4x128 .f32) (main_arg21 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg6
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg8
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1600000 : Shape := ⟨2, ![2, 1600000]⟩
abbrev S2x320000 : Shape := ⟨2, ![2, 320000]⟩
abbrev S2x64000 : Shape := ⟨2, ![2, 64000]⟩
abbrev S100000 : Shape := ⟨1, ![100000]⟩
abbrev S20000 : Shape := ⟨1, ![20000]⟩
abbrev S128x128 : Shape := ⟨2, ![128, 128]⟩
abbrev S128 : Shape := ⟨1, ![128]⟩
abbrev S256x128 : Shape := ⟨2, ![256, 128]⟩
abbrev S256x10 : Shape := ⟨2, ![256, 10]⟩
abbrev S10 : Shape := ⟨1, ![10]⟩
abbrev S4x128x128 : Shape := ⟨3, ![4, 128, 128]⟩
abbrev S4x128 : Shape := ⟨2, ![4, 128]⟩
abbrev S4000x128 : Shape := ⟨2, ![4000, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S20000x128 : Shape := ⟨2, ![20000, 128]⟩
abbrev S100000x1 : Shape := ⟨2, ![100000, 1]⟩
abbrev S1x128x128 : Shape := ⟨3, ![1, 128, 128]⟩
abbrev S1x320000 : Shape := ⟨2, ![1, 320000]⟩
abbrev S320000 : Shape := ⟨1, ![320000]⟩
abbrev S340000 : Shape := ⟨1, ![340000]⟩
abbrev S340000x1 : Shape := ⟨2, ![340000, 1]⟩
abbrev S340000x128 : Shape := ⟨2, ![340000, 128]⟩
abbrev S20000x1 : Shape := ⟨2, ![20000, 1]⟩
abbrev S4000 : Shape := ⟨1, ![4000]⟩
abbrev S1x64000 : Shape := ⟨2, ![1, 64000]⟩
abbrev S64000 : Shape := ⟨1, ![64000]⟩
abbrev S68000 : Shape := ⟨1, ![68000]⟩
abbrev S68000x1 : Shape := ⟨2, ![68000, 1]⟩
abbrev S68000x128 : Shape := ⟨2, ![68000, 128]⟩
abbrev S20000x256 : Shape := ⟨2, ![20000, 256]⟩
abbrev S4000x256 : Shape := ⟨2, ![4000, 256]⟩
abbrev S100000x256 : Shape := ⟨2, ![100000, 256]⟩
abbrev S100000x10 : Shape := ⟨2, ![100000, 10]⟩
abbrev S4000x10 : Shape := ⟨2, ![4000, 10]⟩
abbrev S1700000x10 : Shape := ⟨2, ![1700000, 10]⟩
abbrev S1x10 : Shape := ⟨2, ![1, 10]⟩
abbrev S4000x1 : Shape := ⟨2, ![4000, 1]⟩

abbrev nBuf : Space → Nat
  | .hbm => 367
  | .vmem => 84
  | .smem => 0
  | _ => 0

abbrev hbmTy0_0 (i : Nat) : BufTy := match i % 128 with
  | 0 => ⟨S100000x128, .f32⟩
  | 1 => ⟨S2x1600000, .i32⟩
  | 2 => ⟨S2x320000, .i32⟩
  | 3 => ⟨S2x64000, .i32⟩
  | 4 => ⟨S100000, .i32⟩
  | 5 => ⟨S20000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S256x10, .f32⟩
  | 15 => ⟨S10, .f32⟩
  | 16 => ⟨S4x128x128, .f32⟩
  | 17 => ⟨S4x128, .f32⟩
  | 18 => ⟨S4x128, .f32⟩
  | 19 => ⟨S4x128, .f32⟩
  | 20 => ⟨S4x128, .f32⟩
  | 21 => ⟨S4x128, .f32⟩
  | 22 => ⟨S100000x128, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S100000x128, .f32⟩
  | 75 => ⟨S_, .f32⟩
  | 76 => ⟨S20000x128, .f32⟩
  | 77 => ⟨S100000x1, .i32⟩
  | 78 => ⟨S20000x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S20000x128, .f32⟩
  | 92 => ⟨S20000x128, .f32⟩
  | 93 => ⟨S20000, .i32⟩
  | 94 => ⟨S1x320000, .i32⟩
  | 95 => ⟨S320000, .i32⟩
  | 96 => ⟨S340000, .i32⟩
  | 97 => ⟨S1x320000, .i32⟩
  | 98 => ⟨S320000, .i32⟩
  | 99 => ⟨S340000, .i32⟩
  | 100 => ⟨S_, .f32⟩
  | 101 => ⟨S340000, .f32⟩
  | 102 => ⟨S_, .f32⟩
  | 103 => ⟨S20000, .f32⟩
  | 104 => ⟨S340000x1, .i32⟩
  | 105 => ⟨S20000, .f32⟩
  | 106 => ⟨S_, .f32⟩
  | 107 => ⟨S20000, .f32⟩
  | 108 => ⟨S20000, .f32⟩
  | 109 => ⟨S_, .i32⟩
  | 110 => ⟨S340000, .i32⟩
  | 111 => ⟨S340000, .i1⟩
  | 112 => ⟨S_, .i32⟩
  | 113 => ⟨S340000, .i32⟩
  | 114 => ⟨S340000, .i32⟩
  | 115 => ⟨S340000, .i32⟩
  | 116 => ⟨S340000x1, .i32⟩
  | 117 => ⟨S340000, .f32⟩
  | 118 => ⟨S_, .i32⟩
  | 119 => ⟨S340000, .i32⟩
  | 120 => ⟨S340000, .i1⟩
  | 121 => ⟨S_, .i32⟩
  | 122 => ⟨S340000, .i32⟩
  | 123 => ⟨S340000, .i32⟩
  | 124 => ⟨S340000, .i32⟩
  | 125 => ⟨S340000x1, .i32⟩
  | 126 => ⟨S340000, .f32⟩
  | 127 => ⟨S340000, .f32⟩
  | _ => ⟨S100000x128, .f32⟩

abbrev hbmTy0_1 (i : Nat) : BufTy := match i % 128 with
  | 0 => ⟨S_, .i32⟩
  | 1 => ⟨S340000, .i32⟩
  | 2 => ⟨S340000, .i1⟩
  | 3 => ⟨S_, .i32⟩
  | 4 => ⟨S340000, .i32⟩
  | 5 => ⟨S340000, .i32⟩
  | 6 => ⟨S340000, .i32⟩
  | 7 => ⟨S340000x1, .i32⟩
  | 8 => ⟨S340000x128, .f32⟩
  | 9 => ⟨S340000x1, .f32⟩
  | 10 => ⟨S340000x128, .f32⟩
  | 11 => ⟨S340000x128, .f32⟩
  | 12 => ⟨S_, .f32⟩
  | 13 => ⟨S20000x128, .f32⟩
  | 14 => ⟨S340000x1, .i32⟩
  | 15 => ⟨S20000x128, .f32⟩
  | 16 => ⟨S20000x128, .f32⟩
  | 17 => ⟨S_, .f32⟩
  | 18 => ⟨S4000x128, .f32⟩
  | 19 => ⟨S20000x1, .i32⟩
  | 20 => ⟨S4000x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S4000x128, .f32⟩
  | 34 => ⟨S4000x128, .f32⟩
  | 35 => ⟨S4000, .i32⟩
  | 36 => ⟨S1x64000, .i32⟩
  | 37 => ⟨S64000, .i32⟩
  | 38 => ⟨S68000, .i32⟩
  | 39 => ⟨S1x64000, .i32⟩
  | 40 => ⟨S64000, .i32⟩
  | 41 => ⟨S68000, .i32⟩
  | 42 => ⟨S_, .f32⟩
  | 43 => ⟨S68000, .f32⟩
  | 44 => ⟨S_, .f32⟩
  | 45 => ⟨S4000, .f32⟩
  | 46 => ⟨S68000x1, .i32⟩
  | 47 => ⟨S4000, .f32⟩
  | 48 => ⟨S_, .f32⟩
  | 49 => ⟨S4000, .f32⟩
  | 50 => ⟨S4000, .f32⟩
  | 51 => ⟨S_, .i32⟩
  | 52 => ⟨S68000, .i32⟩
  | 53 => ⟨S68000, .i1⟩
  | 54 => ⟨S_, .i32⟩
  | 55 => ⟨S68000, .i32⟩
  | 56 => ⟨S68000, .i32⟩
  | 57 => ⟨S68000, .i32⟩
  | 58 => ⟨S68000x1, .i32⟩
  | 59 => ⟨S68000, .f32⟩
  | 60 => ⟨S_, .i32⟩
  | 61 => ⟨S68000, .i32⟩
  | 62 => ⟨S68000, .i1⟩
  | 63 => ⟨S_, .i32⟩
  | 64 => ⟨S68000, .i32⟩
  | 65 => ⟨S68000, .i32⟩
  | 66 => ⟨S68000, .i32⟩
  | 67 => ⟨S68000x1, .i32⟩
  | 68 => ⟨S68000, .f32⟩
  | 69 => ⟨S68000, .f32⟩
  | 70 => ⟨S_, .i32⟩
  | 71 => ⟨S68000, .i32⟩
  | 72 => ⟨S68000, .i1⟩
  | 73 => ⟨S_, .i32⟩
  | 74 => ⟨S68000, .i32⟩
  | 75 => ⟨S68000, .i32⟩
  | 76 => ⟨S68000, .i32⟩
  | 77 => ⟨S68000x1, .i32⟩
  | 78 => ⟨S68000x128, .f32⟩
  | 79 => ⟨S68000x1, .f32⟩
  | 80 => ⟨S68000x128, .f32⟩
  | 81 => ⟨S68000x128, .f32⟩
  | 82 => ⟨S_, .f32⟩
  | 83 => ⟨S4000x128, .f32⟩
  | 84 => ⟨S68000x1, .i32⟩
  | 85 => ⟨S4000x128, .f32⟩
  | 86 => ⟨S4000x128, .f32⟩
  | 87 => ⟨S_, .i32⟩
  | 88 => ⟨S20000, .i32⟩
  | 89 => ⟨S20000, .i1⟩
  | 90 => ⟨S_, .i32⟩
  | 91 => ⟨S20000, .i32⟩
  | 92 => ⟨S20000, .i32⟩
  | 93 => ⟨S20000, .i32⟩
  | 94 => ⟨S20000x1, .i32⟩
  | 95 => ⟨S20000x128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S20000x128, .f32⟩
  | 109 => ⟨S20000x256, .f32⟩
  | 110 => ⟨S20000x128, .f32⟩
  | 111 => ⟨S20000, .i32⟩
  | 112 => ⟨S1x320000, .i32⟩
  | 113 => ⟨S320000, .i32⟩
  | 114 => ⟨S340000, .i32⟩
  | 115 => ⟨S1x320000, .i32⟩
  | 116 => ⟨S320000, .i32⟩
  | 117 => ⟨S340000, .i32⟩
  | 118 => ⟨S_, .f32⟩
  | 119 => ⟨S340000, .f32⟩
  | 120 => ⟨S_, .f32⟩
  | 121 => ⟨S20000, .f32⟩
  | 122 => ⟨S340000x1, .i32⟩
  | 123 => ⟨S20000, .f32⟩
  | 124 => ⟨S_, .f32⟩
  | 125 => ⟨S20000, .f32⟩
  | 126 => ⟨S20000, .f32⟩
  | 127 => ⟨S_, .i32⟩
  | _ => ⟨S100000x128, .f32⟩

abbrev hbmTy0_2 (i : Nat) : BufTy := match i % 128 with
  | 0 => ⟨S340000, .i32⟩
  | 1 => ⟨S340000, .i1⟩
  | 2 => ⟨S_, .i32⟩
  | 3 => ⟨S340000, .i32⟩
  | 4 => ⟨S340000, .i32⟩
  | 5 => ⟨S340000, .i32⟩
  | 6 => ⟨S340000x1, .i32⟩
  | 7 => ⟨S340000, .f32⟩
  | 8 => ⟨S_, .i32⟩
  | 9 => ⟨S340000, .i32⟩
  | 10 => ⟨S340000, .i1⟩
  | 11 => ⟨S_, .i32⟩
  | 12 => ⟨S340000, .i32⟩
  | 13 => ⟨S340000, .i32⟩
  | 14 => ⟨S340000, .i32⟩
  | 15 => ⟨S340000x1, .i32⟩
  | 16 => ⟨S340000, .f32⟩
  | 17 => ⟨S340000, .f32⟩
  | 18 => ⟨S_, .i32⟩
  | 19 => ⟨S340000, .i32⟩
  | 20 => ⟨S340000, .i1⟩
  | 21 => ⟨S_, .i32⟩
  | 22 => ⟨S340000, .i32⟩
  | 23 => ⟨S340000, .i32⟩
  | 24 => ⟨S340000, .i32⟩
  | 25 => ⟨S340000x1, .i32⟩
  | 26 => ⟨S340000x128, .f32⟩
  | 27 => ⟨S340000x1, .f32⟩
  | 28 => ⟨S340000x128, .f32⟩
  | 29 => ⟨S340000x128, .f32⟩
  | 30 => ⟨S_, .f32⟩
  | 31 => ⟨S20000x128, .f32⟩
  | 32 => ⟨S340000x1, .i32⟩
  | 33 => ⟨S20000x128, .f32⟩
  | 34 => ⟨S20000x128, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S100000x128, .f32⟩
  | 57 => ⟨S100000x256, .f32⟩
  | 58 => ⟨S100000x10, .f32⟩
  | 59 => ⟨S100000, .i32⟩
  | 60 => ⟨S1x1600000, .i32⟩
  | 61 => ⟨S1600000, .i32⟩
  | 62 => ⟨S1700000, .i32⟩
  | 63 => ⟨S1x1600000, .i32⟩
  | 64 => ⟨S1600000, .i32⟩
  | 65 => ⟨S1700000, .i32⟩
  | 66 => ⟨S_, .f32⟩
  | 67 => ⟨S1700000, .f32⟩
  | 68 => ⟨S_, .f32⟩
  | 69 => ⟨S100000, .f32⟩
  | 70 => ⟨S1700000x1, .i32⟩
  | 71 => ⟨S100000, .f32⟩
  | 72 => ⟨S_, .f32⟩
  | 73 => ⟨S100000, .f32⟩
  | 74 => ⟨S100000, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x10, .f32⟩
  | 103 => ⟨S1700000x1, .f32⟩
  | 104 => ⟨S1700000x10, .f32⟩
  | 105 => ⟨S1700000x10, .f32⟩
  | 106 => ⟨S_, .f32⟩
  | 107 => ⟨S100000x10, .f32⟩
  | 108 => ⟨S1700000x1, .i32⟩
  | 109 => ⟨S100000x10, .f32⟩
  | 110 => ⟨S100000x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S4000x128, .f32⟩
  | .local _ .vmem, ⟨38, _⟩ => ⟨S4000x128, .f32⟩
  | .local _ .vmem, ⟨39, _⟩ => ⟨S128x128, .f32⟩
  | .local _ .vmem, ⟨40, _⟩ => ⟨S4000x128, .f32⟩
  | .local _ .vmem, ⟨41, _⟩ => ⟨S4000x128, .f32⟩
  | .local _ .vmem, ⟨42, _⟩ => ⟨S128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S128x128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S4000x128, .f32⟩
  | .local _ .vmem, ⟨53, _⟩ => ⟨S4000x128, .f32⟩
  | .local _ .vmem, ⟨54, _⟩ => ⟨S4000x256, .f32⟩
  | .local _ .vmem, ⟨55, _⟩ => ⟨S4000x256, .f32⟩
  | .local _ .vmem, ⟨56, _⟩ => ⟨S256x128, .f32⟩
  | .local _ .vmem, ⟨57, _⟩ => ⟨S4000x128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S128, .f32⟩
  | .local _ .vmem, ⟨62, _⟩ => ⟨S4000x128, .f32⟩
  | .local _ .vmem, ⟨63, _⟩ => ⟨S4000x128, .f32⟩
  | .local _ .vmem, ⟨64, _⟩ => ⟨S4000x128, .f32⟩
  | .local _ .vmem, ⟨65, _⟩ => ⟨S4000x128, .f32⟩
  | .local _ .vmem, ⟨66, _⟩ => ⟨S128x128, .f32⟩
  | .local _ .vmem, ⟨67, _⟩ => ⟨S128, .f32⟩
  | .local _ .vmem, ⟨68, _⟩ => ⟨S128, .f32⟩
  | .local _ .vmem, ⟨69, _⟩ => ⟨S128, .f32⟩
  | .local _ .vmem, ⟨70, _⟩ => ⟨S128, .f32⟩
  | .local _ .vmem, ⟨71, _⟩ => ⟨S128, .f32⟩
  | .local _ .vmem, ⟨72, _⟩ => ⟨S4000x128, .f32⟩
  | .local _ .vmem, ⟨73, _⟩ => ⟨S4000x128, .f32⟩
  | .local _ .vmem, ⟨74, _⟩ => ⟨S4000x256, .f32⟩
  | .local _ .vmem, ⟨75, _⟩ => ⟨S4000x256, .f32⟩
  | .local _ .vmem, ⟨76, _⟩ => ⟨S256x10, .f32⟩
  | .local _ .vmem, ⟨77, _⟩ => ⟨S4000x10, .f32⟩
  | .local _ .vmem, ⟨78, _⟩ => ⟨S4000x10, .f32⟩
  | .local _ .vmem, ⟨79, _⟩ => ⟨S4000x10, .f32⟩
  | .local _ .vmem, ⟨80, _⟩ => ⟨S4000x10, .f32⟩
  | .local _ .vmem, ⟨81, _⟩ => ⟨S10, .f32⟩
  | .local _ .vmem, ⟨82, _⟩ => ⟨S4000x10, .f32⟩
  | .local _ .vmem, ⟨83, _⟩ => ⟨S4000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_c_4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_11 : Ref sig .tc := ⟨.hbm, 106, rfl⟩
abbrev main_v71 : Ref sig .tc := ⟨.hbm, 107, rfl⟩
abbrev main_v72 : Ref sig .tc := ⟨.hbm, 108, rfl⟩
abbrev main_c_12 : Ref sig .tc := ⟨.hbm, 109, rfl⟩
abbrev main_v73 : Ref sig .tc := ⟨.hbm, 110, rfl⟩
abbrev main_v74 : Ref sig .tc := ⟨.hbm, 111, rfl⟩
abbrev main_c_13 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_14 : Ref sig .tc := ⟨.hbm, 118, rfl⟩
abbrev main_v80 : Ref sig .tc := ⟨.hbm, 119, rfl⟩
abbrev main_v81 : Ref sig .tc := ⟨.hbm, 120, rfl⟩
abbrev main_c_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_16 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_18 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_19 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_20 : Ref sig .tc := ⟨.hbm, 170, rfl⟩
abbrev main_v126 : Ref sig .tc := ⟨.hbm, 171, rfl⟩
abbrev main_cst_21 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_22 : Ref sig .tc := ⟨.hbm, 176, rfl⟩
abbrev main_v130 : Ref sig .tc := ⟨.hbm, 177, rfl⟩
abbrev main_v131 : Ref sig .tc := ⟨.hbm, 178, rfl⟩
abbrev main_c_23 : Ref sig .tc := ⟨.hbm, 179, rfl⟩
abbrev main_v132 : Ref sig .tc := ⟨.hbm, 180, rfl⟩
abbrev main_v133 : Ref sig .tc := ⟨.hbm, 181, rfl⟩
abbrev main_c_24 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_c_25 : Ref sig .tc := ⟨.hbm, 188, rfl⟩
abbrev main_v139 : Ref sig .tc := ⟨.hbm, 189, rfl⟩
abbrev main_v140 : Ref sig .tc := ⟨.hbm, 190, rfl⟩
abbrev main_c_26 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_c_27 : Ref sig .tc := ⟨.hbm, 198, rfl⟩
abbrev main_v147 : Ref sig .tc := ⟨.hbm, 199, rfl⟩
abbrev main_v148 : Ref sig .tc := ⟨.hbm, 200, rfl⟩
abbrev main_c_28 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_29 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_30 : Ref sig .tc := ⟨.hbm, 215, rfl⟩
abbrev main_v161 : Ref sig .tc := ⟨.hbm, 216, rfl⟩
abbrev main_v162 : Ref sig .tc := ⟨.hbm, 217, rfl⟩
abbrev main_c_31 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_32 : Ref sig .tc := ⟨.hbm, 246, rfl⟩
abbrev main_v190 : Ref sig .tc := ⟨.hbm, 247, rfl⟩
abbrev main_cst_33 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_34 : Ref sig .tc := ⟨.hbm, 252, rfl⟩
abbrev main_v194 : Ref sig .tc := ⟨.hbm, 253, rfl⟩
abbrev main_v195 : Ref sig .tc := ⟨.hbm, 254, rfl⟩
abbrev main_c_35 : Ref sig .tc := ⟨.hbm, 255, rfl⟩
abbrev main_v196 : Ref sig .tc := ⟨.hbm, 256, rfl⟩
abbrev main_v197 : Ref sig .tc := ⟨.hbm, 257, rfl⟩
abbrev main_c_36 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_c_37 : Ref sig .tc := ⟨.hbm, 264, rfl⟩
abbrev main_v203 : Ref sig .tc := ⟨.hbm, 265, rfl⟩
abbrev main_v204 : Ref sig .tc := ⟨.hbm, 266, rfl⟩
abbrev main_c_38 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_c_39 : Ref sig .tc := ⟨.hbm, 274, rfl⟩
abbrev main_v211 : Ref sig .tc := ⟨.hbm, 275, rfl⟩
abbrev main_v212 : Ref sig .tc := ⟨.hbm, 276, rfl⟩
abbrev main_c_40 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_cst_41 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_c_42 : Ref sig .tc := ⟨.hbm, 291, rfl⟩
abbrev main_v225 : Ref sig .tc := ⟨.hbm, 292, rfl⟩
abbrev main_v226 : Ref sig .tc := ⟨.hbm, 293, rfl⟩
abbrev main_c_43 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_cst_44 : Ref sig .tc := ⟨.hbm, 322, rfl⟩
abbrev main_v254 : Ref sig .tc := ⟨.hbm, 323, rfl⟩
abbrev main_cst_45 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_cst_46 : Ref sig .tc := ⟨.hbm, 328, rfl⟩
abbrev main_v258 : Ref sig .tc := ⟨.hbm, 329, rfl⟩
abbrev main_v259 : Ref sig .tc := ⟨.hbm, 330, rfl⟩
abbrev main_c_47 : Ref sig .tc := ⟨.hbm, 331, rfl⟩
abbrev main_v260 : Ref sig .tc := ⟨.hbm, 332, rfl⟩
abbrev main_v261 : Ref sig .tc := ⟨.hbm, 333, rfl⟩
abbrev main_c_48 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_c_49 : Ref sig .tc := ⟨.hbm, 340, rfl⟩
abbrev main_v267 : Ref sig .tc := ⟨.hbm, 341, rfl⟩
abbrev main_v268 : Ref sig .tc := ⟨.hbm, 342, rfl⟩
abbrev main_c_50 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_c_51 : Ref sig .tc := ⟨.hbm, 350, rfl⟩
abbrev main_v275 : Ref sig .tc := ⟨.hbm, 351, rfl⟩
abbrev main_v276 : Ref sig .tc := ⟨.hbm, 352, rfl⟩
abbrev main_c_52 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_cst_53 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg7_0 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg2_0 : Ref sig .tc := ⟨.vmem, 40, rfl⟩
abbrev cc7_stg0_0 : Ref sig .tc := ⟨.vmem, 41, rfl⟩
abbrev cc7_stg1_0 : Ref sig .tc := ⟨.vmem, 42, rfl⟩
abbrev cc7_stg2_0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg4_0 : Ref sig .tc := ⟨.vmem, 49, rfl⟩
abbrev cc8_stg5_0 : Ref sig .tc := ⟨.vmem, 50, rfl⟩
abbrev cc8_stg6_0 : Ref sig .tc := ⟨.vmem, 51, rfl⟩
abbrev cc8_stg7_0 : Ref sig .tc := ⟨.vmem, 52, rfl⟩
abbrev cc8_stg7_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg2_0 : Ref sig .tc := ⟨.vmem, 62, rfl⟩
abbrev cc10_stg2_1 : Ref sig .tc := ⟨.vmem, 63, rfl⟩
abbrev cc11_stg0_0 : Ref sig .tc := ⟨.vmem, 64, rfl⟩
abbrev cc11_stg0_1 : Ref sig .tc := ⟨.vmem, 65, rfl⟩
abbrev cc11_stg1_0 : Ref sig .tc := ⟨.vmem, 66, rfl⟩
abbrev cc11_stg2_0 : Ref sig .tc := ⟨.vmem, 67, rfl⟩
abbrev cc11_stg3_0 : Ref sig .tc := ⟨.vmem, 68, rfl⟩
abbrev cc11_stg4_0 : Ref sig .tc := ⟨.vmem, 69, rfl⟩
abbrev cc11_stg5_0 : Ref sig .tc := ⟨.vmem, 70, rfl⟩
abbrev cc11_stg6_0 : Ref sig .tc := ⟨.vmem, 71, rfl⟩
abbrev cc11_stg7_0 : Ref sig .tc := ⟨.vmem, 72, rfl⟩
abbrev cc11_stg7_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg2_0 : Ref sig .tc := ⟨.vmem, 77, rfl⟩
abbrev cc12_stg2_1 : Ref sig .tc := ⟨.vmem, 78, rfl⟩
abbrev cc13_stg0_0 : Ref sig .tc := ⟨.vmem, 79, rfl⟩
abbrev cc13_stg0_1 : Ref sig .tc := ⟨.vmem, 80, rfl⟩
abbrev cc13_stg1_0 : Ref sig .tc := ⟨.vmem, 81, rfl⟩
abbrev cc13_stg2_0 : Ref sig .tc := ⟨.vmem, 82, rfl⟩
abbrev cc13_stg2_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem7_0 : DmaSem sig := 37
abbrev cc6_sem0_0 : DmaSem sig := 38
abbrev cc6_sem1_0 : DmaSem sig := 39
abbrev cc6_sem2_0 : DmaSem sig := 40
abbrev cc7_sem0_0 : DmaSem sig := 41
abbrev cc7_sem1_0 : DmaSem sig := 42
abbrev cc7_sem2_0 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem4_0 : DmaSem sig := 49
abbrev cc8_sem5_0 : DmaSem sig := 50
abbrev cc8_sem6_0 : DmaSem sig := 51
abbrev cc8_sem7_0 : DmaSem sig := 52
abbrev cc8_sem7_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem2_0 : DmaSem sig := 67
abbrev cc11_sem3_0 : DmaSem sig := 68
abbrev cc11_sem4_0 : DmaSem sig := 69
abbrev cc11_sem5_0 : DmaSem sig := 70
abbrev cc11_sem6_0 : DmaSem sig := 71
abbrev cc11_sem7_0 : DmaSem sig := 72
abbrev cc11_sem7_1 : DmaSem sig := 73
abbrev cc12_sem0_0 : DmaSem sig := 74
abbrev cc12_sem0_1 : DmaSem sig := 75
abbrev cc12_sem1_0 : DmaSem sig := 76
abbrev cc12_sem2_0 : DmaSem sig := 77
abbrev cc12_sem2_1 : DmaSem sig := 78
abbrev cc13_sem0_0 : DmaSem sig := 79
abbrev cc13_sem0_1 : DmaSem sig := 80
abbrev cc13_sem1_0 : DmaSem sig := 81
abbrev cc13_sem2_0 : DmaSem sig := 82
abbrev cc13_sem2_1 : DmaSem sig := 83

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S4000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S4000x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S4000x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S4000x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S4000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S4000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S4000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_6 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S4000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x10 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S4000x10 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x10 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S10 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S4000x10 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S20000x128 : S_.BroadcastsInDim S20000x128 (![] : Fin 0 → Fin S20000x128.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128x128_S128x128 : S128x128.ShapeCasts S128x128
  shapeCasts_S128_S128 : S128.ShapeCasts S128
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x128_0_1 : S340000x1.BroadcastsInDim S340000x128 (![0, 1] : Fin 2 → Fin S340000x128.rank)
  bcast_S_S4000x128 : S_.BroadcastsInDim S4000x128 (![] : Fin 0 → Fin S4000x128.rank)
  bcast_S20000_S20000x1_0 : S20000.BroadcastsInDim S20000x1 (![0] : Fin 1 → Fin S20000x1.rank)
  slices_S4x128x128_S1x128x128_1_0_0 : S4x128x128.Slices ![1, 0, 0] S1x128x128
  slices_S4x128_S1x128_1_0 : S4x128.Slices ![1, 0] S1x128
  slices_S2x64000_S1x64000_0_0 : S2x64000.Slices ![0, 0] S1x64000
  shapeCasts_S1x64000_S64000 : S1x64000.ShapeCasts S64000
  concatenates_S64000_S4000_S68000_d0 : Shape.Concatenates [S64000, S4000] S68000 0
  slices_S2x64000_S1x64000_1_0 : S2x64000.Slices ![1, 0] S1x64000
  bcast_S_S68000 : S_.BroadcastsInDim S68000 (![] : Fin 0 → Fin S68000.rank)
  bcast_S_S4000 : S_.BroadcastsInDim S4000 (![] : Fin 0 → Fin S4000.rank)
  bcast_S68000_S68000x1_0 : S68000.BroadcastsInDim S68000x1 (![0] : Fin 1 → Fin S68000x1.rank)
  bcast_S68000x1_S68000x128_0_1 : S68000x1.BroadcastsInDim S68000x128 (![0, 1] : Fin 2 → Fin S68000x128.rank)
  slices_S4x128x128_S1x128x128_2_0_0 : S4x128x128.Slices ![2, 0, 0] S1x128x128
  slices_S4x128_S1x128_2_0 : S4x128.Slices ![2, 0] S1x128
  concatenates_S20000x128_S20000x128_S20000x256_d1 : Shape.Concatenates [S20000x128, S20000x128] S20000x256 1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  slices_S4x128x128_S1x128x128_3_0_0 : S4x128x128.Slices ![3, 0, 0] S1x128x128
  slices_S4x128_S1x128_3_0 : S4x128.Slices ![3, 0] S1x128
  concatenates_S100000x128_S100000x128_S100000x256_d1 : Shape.Concatenates [S100000x128, S100000x128] S100000x256 1
  inb_S256x10_S256x10_0_0 : ∀ a, (![0, 0] : Fin 2 → Nat) a + S256x10.size a ≤ S256x10.size a
  h_S256x10 : 0 < S256x10.numel
  inb_S4000x10_S4000x10_0_0 : ∀ a, (![0, 0] : Fin 2 → Nat) a + S4000x10.size a ≤ S4000x10.size a
  h_S4000x10 : 0 < S4000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  shapeCasts_S4000x10_S4000x10 : S4000x10.ShapeCasts S4000x10
  inb_S10_S10_0 : ∀ a, (![0] : Fin 1 → Nat) a + S10.size a ≤ S10.size a
  h_S10 : 0 < S10.numel
  shapeCasts_S10_S1x10 : S10.ShapeCasts S1x10
  broadcasts_S1x10_S4000x10 : S1x10.Broadcasts S4000x10
  reduces_S4000x10_S4000 : S4000x10.Reduces [1] S4000
  shapeCasts_S4000_S4000x1 : S4000.ShapeCasts S4000x1
  broadcasts_S4000x1_S4000x10 : S4000x1.Broadcasts S4000x10
  dot_S4000x128_S128x128_S4000x128_1_0_0_1_n_n_wf : DotDims.WF S4000x128 S128x128 S4000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S20000x128_S100000x1_S100000x128_1_0_0_1_wf : ScatterDims.WF S20000x128 S100000x1 S100000x128 [1] [0] [0] 1
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x128_S340000x1_S340000x128_1_0_n_n_0_1_1128_wf : GatherDims.WF S20000x128 S340000x1 S340000x128 [1] [0] [] [0] [] 1 ![1, 128]
  scatter_S20000x128_S340000x1_S340000x128_1_0_0_1_wf : ScatterDims.WF S20000x128 S340000x1 S340000x128 [1] [0] [0] 1
  scatter_S4000x128_S20000x1_S20000x128_1_0_0_1_wf : ScatterDims.WF S4000x128 S20000x1 S20000x128 [1] [0] [0] 1
  scatter_S4000_S68000x1_S68000_n_0_0_1_wf : ScatterDims.WF S4000 S68000x1 S68000 [] [0] [0] 1
  gather_S4000_S68000x1_S68000_n_0_n_n_0_1_1_wf : GatherDims.WF S4000 S68000x1 S68000 [] [0] [] [0] [] 1 ![1]
  gather_S4000x128_S68000x1_S68000x128_1_0_n_n_0_1_1128_wf : GatherDims.WF S4000x128 S68000x1 S68000x128 [1] [0] [] [0] [] 1 ![1, 128]
  scatter_S4000x128_S68000x1_S68000x128_1_0_0_1_wf : ScatterDims.WF S4000x128 S68000x1 S68000x128 [1] [0] [0] 1
  gather_S4000x128_S20000x1_S20000x128_1_0_n_n_0_1_1128_wf : GatherDims.WF S4000x128 S20000x1 S20000x128 [1] [0] [] [0] [] 1 ![1, 128]
  dot_S4000x256_S256x128_S4000x128_1_0_0_1_n_n_wf : DotDims.WF S4000x256 S256x128 S4000x128 [1] [0] [0] [1] [] []
  gather_S20000x128_S100000x1_S100000x128_1_0_n_n_0_1_1128_wf : GatherDims.WF S20000x128 S100000x1 S100000x128 [1] [0] [] [0] [] 1 ![1, 128]
  dot_S4000x256_S256x10_S4000x10_1_0_0_1_n_n_wf : DotDims.WF S4000x256 S256x10 S4000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S20000x128.size a
  hwx2_7 : ∀ i : grid2.Coords, EltTy.bits .f32 = 32 ∨ (Rect.block (s := S20000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S20000x128.size a
  hwx3_2 : ∀ i : grid3.Coords, EltTy.bits .f32 = 32 ∨ (Rect.block (s := S20000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S20000x128.size a
  hwx4_2 : ∀ i : grid4.Coords, EltTy.bits .f32 = 32 ∨ (Rect.block (s := S20000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S4000x128.size a
  hwx5_0 : ∀ i : grid5.Coords, EltTy.bits .f32 = 32 ∨ (Rect.block (s := S4000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 1
  hreads5_7 : ∀ i i' : grid5.Coords, (∀ a, reads5_7 a = true → i a = i' a) → cc5_transform_7 i = cc5_transform_7 i'
  hinb5_7 : ∀ (i : grid5.Coords) a, (cc5_transform_7 i a + 1) * S4000x128.size a ≤ S4000x128.size a
  hwx5_7 : ∀ i : grid5.Coords, EltTy.bits .f32 = 32 ∨ (Rect.block (s := S4000x128) S4000x128.size (cc5_transform_7 i) (hinb5_7 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S4000x128.size a
  hwx6_0 : ∀ i : grid6.Coords, EltTy.bits .f32 = 32 ∨ (Rect.block (s := S4000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S4000x128.size a
  hwx6_2 : ∀ i : grid6.Coords, EltTy.bits .f32 = 32 ∨ (Rect.block (s := S4000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S4000x128.size a
  hwx7_0 : ∀ i : grid7.Coords, EltTy.bits .f32 = 32 ∨ (Rect.block (s := S4000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S4000x128.size a
  hwx7_2 : ∀ i : grid7.Coords, EltTy.bits .f32 = 32 ∨ (Rect.block (s := S4000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S20000x128.size a
  hwx8_0 : ∀ i : grid8.Coords, EltTy.bits .f32 = 32 ∨ (Rect.block (s := S20000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128.size a ≤ S128.size a
  hwx8_5 : ∀ i : grid8.Coords, EltTy.bits .f32 = 32 ∨ (Rect.block (s := S128) S128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128.size a ≤ S128.size a
  hwx8_6 : ∀ i : grid8.Coords, EltTy.bits .f32 = 32 ∨ (Rect.block (s := S128) S128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S4000x128.size a ≤ S20000x128.size a
  hwx8_7 : ∀ i : grid8.Coords, EltTy.bits .f32 = 32 ∨ (Rect.block (s := S20000x128) S4000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x256.size a ≤ S20000x256.size a
  hwx9_0 : ∀ i : grid9.Coords, EltTy.bits .f32 = 32 ∨ (Rect.block (s := S20000x256) S4000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x128.size a ≤ S256x128.size a
  hwx9_1 : ∀ i : grid9.Coords, EltTy.bits .f32 = 32 ∨ (Rect.block (s := S256x128) S256x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x128.size a ≤ S20000x128.size a
  hwx9_2 : ∀ i : grid9.Coords, EltTy.bits .f32 = 32 ∨ (Rect.block (s := S20000x128) S4000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S20000x128.size a
  hwx10_0 : ∀ i : grid10.Coords, EltTy.bits .f32 = 32 ∨ (Rect.block (s := S20000x128) S4000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128.size a ≤ S128.size a
  hwx10_1 : ∀ i : grid10.Coords, EltTy.bits .f32 = 32 ∨ (Rect.block (s := S128) S128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x128.size a ≤ S20000x128.size a
  hwx10_2 : ∀ i : grid10.Coords, EltTy.bits .f32 = 32 ∨ (Rect.block (s := S20000x128) S4000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S100000x128.size a
  hwx11_0 : ∀ i : grid11.Coords, EltTy.bits .f32 = 32 ∨ (Rect.block (s := S100000x128) S4000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128.size a ≤ S128.size a
  hwx11_3 : ∀ i : grid11.Coords, EltTy.bits .f32 = 32 ∨ (Rect.block (s := S128) S128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128.size a ≤ S128.size a
  hwx11_4 : ∀ i : grid11.Coords, EltTy.bits .f32 = 32 ∨ (Rect.block (s := S128) S128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128.size a ≤ S128.size a
  hwx11_5 : ∀ i : grid11.Coords, EltTy.bits .f32 = 32 ∨ (Rect.block (s := S128) S128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S128.size a ≤ S128.size a
  hwx11_6 : ∀ i : grid11.Coords, EltTy.bits .f32 = 32 ∨ (Rect.block (s := S128) S128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S4000x128.size a ≤ S100000x128.size a
  hwx11_7 : ∀ i : grid11.Coords, EltTy.bits .f32 = 32 ∨ (Rect.block (s := S100000x128) S4000x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x256.size a ≤ S100000x256.size a
  hwx12_0 : ∀ i : grid12.Coords, EltTy.bits .f32 = 32 ∨ (Rect.block (s := S100000x256) S4000x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x10.size a ≤ S256x10.size a
  hwx12_1 : ∀ i : grid12.Coords, EltTy.bits .f32 = 32 ∨ (Rect.block (s := S256x10) S256x10.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x10.size a ≤ S100000x10.size a
  hwx12_2 : ∀ i : grid12.Coords, EltTy.bits .f32 = 32 ∨ (Rect.block (s := S100000x10) S4000x10.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x10.size a ≤ S100000x10.size a
  hwx13_0 : ∀ i : grid13.Coords, EltTy.bits .f32 = 32 ∨ (Rect.block (s := S100000x10) S4000x10.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S10.size a ≤ S10.size a
  hwx13_1 : ∀ i : grid13.Coords, EltTy.bits .f32 = 32 ∨ (Rect.block (s := S10) S10.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4000x10.size a ≤ S100000x10.size a
  hwx13_2 : ∀ i : grid13.Coords, EltTy.bits .f32 = 32 ∨ (Rect.block (s := S100000x10) S4000x10.size (cc13_transform_2 i) (hinb13_2 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x128_S340000x1_S340000x128_1_0_n_n_0_1_1128 : GatherDims S20000x128 S340000x1 S340000x128 where
  offsetDims := [1]
  collapsedSliceDims := [0]
  operandBatchingDims := []
  startIndicesBatchingDims := []
  startIndexMap := [0]
  indexVectorDim := 1
  sliceSizes := ![1, 128]
  wf := gather_S20000x128_S340000x1_S340000x128_1_0_n_n_0_1_1128_wf
def scatter_S20000x128_S340000x1_S340000x128_1_0_0_1 : ScatterDims S20000x128 S340000x1 S340000x128 where
  updateWindowDims := [1]
  insertedWindowDims := [0]
  scatterDimsToOperandDims := [0]
  indexVectorDim := 1
  wf := scatter_S20000x128_S340000x1_S340000x128_1_0_0_1_wf
def scatter_S4000x128_S20000x1_S20000x128_1_0_0_1 : ScatterDims S4000x128 S20000x1 S20000x128 where
  updateWindowDims := [1]
  insertedWindowDims := [0]
  scatterDimsToOperandDims := [0]
  indexVectorDim := 1
  wf := scatter_S4000x128_S20000x1_S20000x128_1_0_0_1_wf
def scatter_S4000_S68000x1_S68000_n_0_0_1 : ScatterDims S4000 S68000x1 S68000 where
  updateWindowDims := []
  insertedWindowDims := [0]
  scatterDimsToOperandDims := [0]
  indexVectorDim := 1
  wf := scatter_S4000_S68000x1_S68000_n_0_0_1_wf
def gather_S4000_S68000x1_S68000_n_0_n_n_0_1_1 : GatherDims S4000 S68000x1 S68000 where
  offsetDims := []
  collapsedSliceDims := [0]
  operandBatchingDims := []
  startIndicesBatchingDims := []
  startIndexMap := [0]
  indexVectorDim := 1
  sliceSizes := ![1]
  wf := gather_S4000_S68000x1_S68000_n_0_n_n_0_1_1_wf
def gather_S4000x128_S68000x1_S68000x128_1_0_n_n_0_1_1128 : GatherDims S4000x128 S68000x1 S68000x128 where
  offsetDims := [1]
  collapsedSliceDims := [0]
  operandBatchingDims := []
  startIndicesBatchingDims := []
  startIndexMap := [0]
  indexVectorDim := 1
  sliceSizes := ![1, 128]
  wf := gather_S4000x128_S68000x1_S68000x128_1_0_n_n_0_1_1128_wf
def scatter_S4000x128_S68000x1_S68000x128_1_0_0_1 : ScatterDims S4000x128 S68000x1 S68000x128 where
  updateWindowDims := [1]
  insertedWindowDims := [0]
  scatterDimsToOperandDims := [0]
  indexVectorDim := 1
  wf := scatter_S4000x128_S68000x1_S68000x128_1_0_0_1_wf
def gather_S4000x128_S20000x1_S20000x128_1_0_n_n_0_1_1128 : GatherDims S4000x128 S20000x1 S20000x128 where
  offsetDims := [1]
  collapsedSliceDims := [0]
  operandBatchingDims := []
  startIndicesBatchingDims := []
  startIndexMap := [0]
  indexVectorDim := 1
  sliceSizes := ![1, 128]
  wf := gather_S4000x128_S20000x1_S20000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def dot_S4000x256_S256x10_S4000x10_1_0_0_1_n_n : DotDims S4000x256 S256x10 S4000x10 where
  lhsContracting := [1]
  rhsContracting := [0]
  lhsNonContracting := [0]
  rhsNonContracting := [1]
  lhsBatch := []
  rhsBatch := []
  wf := dot_S4000x256_S256x10_S4000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v100) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v104) S4000x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v106) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v116) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v117) S4000x128.size cc5_transform_7 reads5_7 true false 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v117) S4000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v118) S4000x128.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v159) S4000x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v160) S4000x128.size cc7_transform_2 reads7_2 true false 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v167) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v169) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v171) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v173) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v175) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v177) S128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v179) S128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v180) S4000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v181) S4000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S256x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v182) S4000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v223) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v224) S4000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v231) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v233) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v235) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v237) S128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v239) S128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v241) S128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v243) S128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v244) S4000x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v245) S4000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg14) S256x10.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v246) S4000x10.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v287) S4000x10.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg15) S10.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v288) S4000x10.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x320000 : Shape := ⟨2, ![2, 320000]⟩
abbrev S2x64000 : Shape := ⟨2, ![2, 64000]⟩
abbrev S100000 : Shape := ⟨1, ![100000]⟩
abbrev S20000 : Shape := ⟨1, ![20000]⟩
abbrev S128x128 : Shape := ⟨2, ![128, 128]⟩
abbrev S128 : Shape := ⟨1, ![128]⟩
abbrev S256x128 : Shape := ⟨2, ![256, 128]⟩
abbrev S256x10 : Shape := ⟨2, ![256, 10]⟩
abbrev S10 : Shape := ⟨1, ![10]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S20000x128 : Shape := ⟨2, ![20000, 128]⟩
abbrev S100000x1 : Shape := ⟨2, ![100000, 1]⟩
abbrev S1x128x128 : Shape := ⟨3, ![1, 128, 128]⟩
abbrev S1x320000 : Shape := ⟨2, ![1, 320000]⟩
abbrev S320000 : Shape := ⟨1, ![320000]⟩
abbrev S340000 : Shape := ⟨1, ![340000]⟩
abbrev S340000x1 : Shape := ⟨2, ![340000, 1]⟩
abbrev S340000x128 : Shape := ⟨2, ![340000, 128]⟩
abbrev S4000x128 : Shape := ⟨2, ![4000, 128]⟩
abbrev S20000x1 : Shape := ⟨2, ![20000, 1]⟩
abbrev S4000 : Shape := ⟨1, ![4000]⟩
abbrev S1x64000 : Shape := ⟨2, ![1, 64000]⟩
abbrev S64000 : Shape := ⟨1, ![64000]⟩
abbrev S68000 : Shape := ⟨1, ![68000]⟩
abbrev S68000x1 : Shape := ⟨2, ![68000, 1]⟩
abbrev S68000x128 : Shape := ⟨2, ![68000, 128]⟩
abbrev S20000x256 : Shape := ⟨2, ![20000, 256]⟩
abbrev S100000x256 : Shape := ⟨2, ![100000, 256]⟩
abbrev S100000x10 : Shape := ⟨2, ![100000, 10]⟩
abbrev S1700000x10 : Shape := ⟨2, ![1700000, 10]⟩
abbrev S1x10 : Shape := ⟨2, ![1, 10]⟩

abbrev nBuf : Space → Nat
  | .hbm => 496
  | .vmem => 0
  | .smem => 0
  | _ => 0

abbrev hbmTy0_0 (i : Nat) : BufTy := match i % 128 with
  | 0 => ⟨S100000x128, .f32⟩
  | 1 => ⟨S2x1600000, .i32⟩
  | 2 => ⟨S2x320000, .i32⟩
  | 3 => ⟨S2x64000, .i32⟩
  | 4 => ⟨S100000, .i32⟩
  | 5 => ⟨S20000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S256x10, .f32⟩
  | 15 => ⟨S10, .f32⟩
  | 16 => ⟨S4x128x128, .f32⟩
  | 17 => ⟨S4x128, .f32⟩
  | 18 => ⟨S4x128, .f32⟩
  | 19 => ⟨S4x128, .f32⟩
  | 20 => ⟨S4x128, .f32⟩
  | 21 => ⟨S4x128, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S_, .f32⟩
  | 30 => ⟨S1700000, .f32⟩
  | 31 => ⟨S_, .f32⟩
  | 32 => ⟨S100000, .f32⟩
  | 33 => ⟨S1700000x1, .i32⟩
  | 34 => ⟨S100000, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S20000x128, .f32⟩
  | 82 => ⟨S100000x1, .i32⟩
  | 83 => ⟨S20000x128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S20000x128, .f32⟩
  | 97 => ⟨S1x128, .f32⟩
  | 98 => ⟨S20000x128, .f32⟩
  | 99 => ⟨S20000x128, .f32⟩
  | 100 => ⟨S_, .f32⟩
  | 101 => ⟨S20000x128, .f32⟩
  | 102 => ⟨S20000x128, .f32⟩
  | 103 => ⟨S1x128, .f32⟩
  | 104 => ⟨S20000x128, .f32⟩
  | 105 => ⟨S20000x128, .f32⟩
  | 106 => ⟨S_, .f32⟩
  | 107 => ⟨S128, .f32⟩
  | 108 => ⟨S128, .f32⟩
  | 109 => ⟨S128, .f32⟩
  | 110 => ⟨S128, .f32⟩
  | 111 => ⟨S1x128, .f32⟩
  | 112 => ⟨S20000x128, .f32⟩
  | 113 => ⟨S20000x128, .f32⟩
  | 114 => ⟨S1x128, .f32⟩
  | 115 => ⟨S20000x128, .f32⟩
  | 116 => ⟨S20000x128, .f32⟩
  | 117 => ⟨S_, .f32⟩
  | 118 => ⟨S20000x128, .f32⟩
  | 119 => ⟨S20000x128, .f32⟩
  | 120 => ⟨S20000, .i32⟩
  | 121 => ⟨S1x320000, .i32⟩
  | 122 => ⟨S320000, .i32⟩
  | 123 => ⟨S340000, .i32⟩
  | 124 => ⟨S1x320000, .i32⟩
  | 125 => ⟨S320000, .i32⟩
  | 126 => ⟨S340000, .i32⟩
  | 127 => ⟨S_, .f32⟩
  | _ => ⟨S100000x128, .f32⟩

abbrev hbmTy0_1 (i : Nat) : BufTy := match i % 128 with
  | 0 => ⟨S340000, .f32⟩
  | 1 => ⟨S_, .f32⟩
  | 2 => ⟨S20000, .f32⟩
  | 3 => ⟨S340000x1, .i32⟩
  | 4 => ⟨S20000, .f32⟩
  | 5 => ⟨S_, .f32⟩
  | 6 => ⟨S20000, .f32⟩
  | 7 => ⟨S20000, .f32⟩
  | 8 => ⟨S_, .i32⟩
  | 9 => ⟨S340000, .i32⟩
  | 10 => ⟨S340000, .i1⟩
  | 11 => ⟨S_, .i32⟩
  | 12 => ⟨S340000, .i32⟩
  | 13 => ⟨S340000, .i32⟩
  | 14 => ⟨S340000, .i32⟩
  | 15 => ⟨S340000x1, .i32⟩
  | 16 => ⟨S340000, .f32⟩
  | 17 => ⟨S_, .i32⟩
  | 18 => ⟨S340000, .i32⟩
  | 19 => ⟨S340000, .i1⟩
  | 20 => ⟨S_, .i32⟩
  | 21 => ⟨S340000, .i32⟩
  | 22 => ⟨S340000, .i32⟩
  | 23 => ⟨S340000, .i32⟩
  | 24 => ⟨S340000x1, .i32⟩
  | 25 => ⟨S340000, .f32⟩
  | 26 => ⟨S340000, .f32⟩
  | 27 => ⟨S20000x128, .f32⟩
  | 28 => ⟨S340000x1, .f32⟩
  | 29 => ⟨S_, .i32⟩
  | 30 => ⟨S340000, .i32⟩
  | 31 => ⟨S340000, .i1⟩
  | 32 => ⟨S_, .i32⟩
  | 33 => ⟨S340000, .i32⟩
  | 34 => ⟨S340000, .i32⟩
  | 35 => ⟨S340000, .i32⟩
  | 36 => ⟨S340000x1, .i32⟩
  | 37 => ⟨S340000x128, .f32⟩
  | 38 => ⟨S340000x128, .f32⟩
  | 39 => ⟨S340000x128, .f32⟩
  | 40 => ⟨S_, .f32⟩
  | 41 => ⟨S20000x128, .f32⟩
  | 42 => ⟨S340000x1, .i32⟩
  | 43 => ⟨S20000x128, .f32⟩
  | 44 => ⟨S1x128, .f32⟩
  | 45 => ⟨S20000x128, .f32⟩
  | 46 => ⟨S20000x128, .f32⟩
  | 47 => ⟨S_, .f32⟩
  | 48 => ⟨S20000x128, .f32⟩
  | 49 => ⟨S20000x128, .f32⟩
  | 50 => ⟨S_, .f32⟩
  | 51 => ⟨S4000x128, .f32⟩
  | 52 => ⟨S20000x1, .i32⟩
  | 53 => ⟨S4000x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S4000x128, .f32⟩
  | 67 => ⟨S1x128, .f32⟩
  | 68 => ⟨S4000x128, .f32⟩
  | 69 => ⟨S4000x128, .f32⟩
  | 70 => ⟨S_, .f32⟩
  | 71 => ⟨S4000x128, .f32⟩
  | 72 => ⟨S4000x128, .f32⟩
  | 73 => ⟨S1x128, .f32⟩
  | 74 => ⟨S4000x128, .f32⟩
  | 75 => ⟨S4000x128, .f32⟩
  | 76 => ⟨S_, .f32⟩
  | 77 => ⟨S128, .f32⟩
  | 78 => ⟨S128, .f32⟩
  | 79 => ⟨S128, .f32⟩
  | 80 => ⟨S128, .f32⟩
  | 81 => ⟨S1x128, .f32⟩
  | 82 => ⟨S4000x128, .f32⟩
  | 83 => ⟨S4000x128, .f32⟩
  | 84 => ⟨S1x128, .f32⟩
  | 85 => ⟨S4000x128, .f32⟩
  | 86 => ⟨S4000x128, .f32⟩
  | 87 => ⟨S_, .f32⟩
  | 88 => ⟨S4000x128, .f32⟩
  | 89 => ⟨S4000x128, .f32⟩
  | 90 => ⟨S4000, .i32⟩
  | 91 => ⟨S1x64000, .i32⟩
  | 92 => ⟨S64000, .i32⟩
  | 93 => ⟨S68000, .i32⟩
  | 94 => ⟨S1x64000, .i32⟩
  | 95 => ⟨S64000, .i32⟩
  | 96 => ⟨S68000, .i32⟩
  | 97 => ⟨S_, .f32⟩
  | 98 => ⟨S68000, .f32⟩
  | 99 => ⟨S_, .f32⟩
  | 100 => ⟨S4000, .f32⟩
  | 101 => ⟨S68000x1, .i32⟩
  | 102 => ⟨S4000, .f32⟩
  | 103 => ⟨S_, .f32⟩
  | 104 => ⟨S4000, .f32⟩
  | 105 => ⟨S4000, .f32⟩
  | 106 => ⟨S_, .i32⟩
  | 107 => ⟨S68000, .i32⟩
  | 108 => ⟨S68000, .i1⟩
  | 109 => ⟨S_, .i32⟩
  | 110 => ⟨S68000, .i32⟩
  | 111 => ⟨S68000, .i32⟩
  | 112 => ⟨S68000, .i32⟩
  | 113 => ⟨S68000x1, .i32⟩
  | 114 => ⟨S68000, .f32⟩
  | 115 => ⟨S_, .i32⟩
  | 116 => ⟨S68000, .i32⟩
  | 117 => ⟨S68000, .i1⟩
  | 118 => ⟨S_, .i32⟩
  | 119 => ⟨S68000, .i32⟩
  | 120 => ⟨S68000, .i32⟩
  | 121 => ⟨S68000, .i32⟩
  | 122 => ⟨S68000x1, .i32⟩
  | 123 => ⟨S68000, .f32⟩
  | 124 => ⟨S68000, .f32⟩
  | 125 => ⟨S4000x128, .f32⟩
  | 126 => ⟨S68000x1, .f32⟩
  | 127 => ⟨S_, .i32⟩
  | _ => ⟨S100000x128, .f32⟩

abbrev hbmTy0_2 (i : Nat) : BufTy := match i % 128 with
  | 0 => ⟨S68000, .i32⟩
  | 1 => ⟨S68000, .i1⟩
  | 2 => ⟨S_, .i32⟩
  | 3 => ⟨S68000, .i32⟩
  | 4 => ⟨S68000, .i32⟩
  | 5 => ⟨S68000, .i32⟩
  | 6 => ⟨S68000x1, .i32⟩
  | 7 => ⟨S68000x128, .f32⟩
  | 8 => ⟨S68000x128, .f32⟩
  | 9 => ⟨S68000x128, .f32⟩
  | 10 => ⟨S_, .f32⟩
  | 11 => ⟨S4000x128, .f32⟩
  | 12 => ⟨S68000x1, .i32⟩
  | 13 => ⟨S4000x128, .f32⟩
  | 14 => ⟨S1x128, .f32⟩
  | 15 => ⟨S4000x128, .f32⟩
  | 16 => ⟨S4000x128, .f32⟩
  | 17 => ⟨S_, .f32⟩
  | 18 => ⟨S4000x128, .f32⟩
  | 19 => ⟨S4000x128, .f32⟩
  | 20 => ⟨S_, .i32⟩
  | 21 => ⟨S20000, .i32⟩
  | 22 => ⟨S20000, .i1⟩
  | 23 => ⟨S_, .i32⟩
  | 24 => ⟨S20000, .i32⟩
  | 25 => ⟨S20000, .i32⟩
  | 26 => ⟨S20000, .i32⟩
  | 27 => ⟨S20000x1, .i32⟩
  | 28 => ⟨S20000x128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S20000x128, .f32⟩
  | 42 => ⟨S1x128, .f32⟩
  | 43 => ⟨S20000x128, .f32⟩
  | 44 => ⟨S20000x128, .f32⟩
  | 45 => ⟨S_, .f32⟩
  | 46 => ⟨S20000x128, .f32⟩
  | 47 => ⟨S20000x128, .f32⟩
  | 48 => ⟨S1x128, .f32⟩
  | 49 => ⟨S20000x128, .f32⟩
  | 50 => ⟨S20000x128, .f32⟩
  | 51 => ⟨S_, .f32⟩
  | 52 => ⟨S128, .f32⟩
  | 53 => ⟨S128, .f32⟩
  | 54 => ⟨S128, .f32⟩
  | 55 => ⟨S128, .f32⟩
  | 56 => ⟨S1x128, .f32⟩
  | 57 => ⟨S20000x128, .f32⟩
  | 58 => ⟨S20000x128, .f32⟩
  | 59 => ⟨S1x128, .f32⟩
  | 60 => ⟨S20000x128, .f32⟩
  | 61 => ⟨S20000x128, .f32⟩
  | 62 => ⟨S_, .f32⟩
  | 63 => ⟨S20000x128, .f32⟩
  | 64 => ⟨S20000x128, .f32⟩
  | 65 => ⟨S20000x256, .f32⟩
  | 66 => ⟨S20000, .i32⟩
  | 67 => ⟨S1x320000, .i32⟩
  | 68 => ⟨S320000, .i32⟩
  | 69 => ⟨S340000, .i32⟩
  | 70 => ⟨S1x320000, .i32⟩
  | 71 => ⟨S320000, .i32⟩
  | 72 => ⟨S340000, .i32⟩
  | 73 => ⟨S_, .f32⟩
  | 74 => ⟨S340000, .f32⟩
  | 75 => ⟨S_, .f32⟩
  | 76 => ⟨S20000, .f32⟩
  | 77 => ⟨S340000x1, .i32⟩
  | 78 => ⟨S20000, .f32⟩
  | 79 => ⟨S_, .f32⟩
  | 80 => ⟨S20000, .f32⟩
  | 81 => ⟨S20000, .f32⟩
  | 82 => ⟨S_, .i32⟩
  | 83 => ⟨S340000, .i32⟩
  | 84 => ⟨S340000, .i1⟩
  | 85 => ⟨S_, .i32⟩
  | 86 => ⟨S340000, .i32⟩
  | 87 => ⟨S340000, .i32⟩
  | 88 => ⟨S340000, .i32⟩
  | 89 => ⟨S340000x1, .i32⟩
  | 90 => ⟨S340000, .f32⟩
  | 91 => ⟨S_, .i32⟩
  | 92 => ⟨S340000, .i32⟩
  | 93 => ⟨S340000, .i1⟩
  | 94 => ⟨S_, .i32⟩
  | 95 => ⟨S340000, .i32⟩
  | 96 => ⟨S340000, .i32⟩
  | 97 => ⟨S340000, .i32⟩
  | 98 => ⟨S340000x1, .i32⟩
  | 99 => ⟨S340000, .f32⟩
  | 100 => ⟨S340000, .f32⟩
  | 101 => ⟨S20000x128, .f32⟩
  | 102 => ⟨S340000x1, .f32⟩
  | 103 => ⟨S_, .i32⟩
  | 104 => ⟨S340000, .i32⟩
  | 105 => ⟨S340000, .i1⟩
  | 106 => ⟨S_, .i32⟩
  | 107 => ⟨S340000, .i32⟩
  | 108 => ⟨S340000, .i32⟩
  | 109 => ⟨S340000, .i32⟩
  | 110 => ⟨S340000x1, .i32⟩
  | 111 => ⟨S340000x128, .f32⟩
  | 112 => ⟨S340000x128, .f32⟩
  | 113 => ⟨S340000x128, .f32⟩
  | 114 => ⟨S_, .f32⟩
  | 115 => ⟨S20000x128, .f32⟩
  | 116 => ⟨S340000x1, .i32⟩
  | 117 => ⟨S20000x128, .f32⟩
  | 118 => ⟨S1x128, .f32⟩
  | 119 => ⟨S20000x128, .f32⟩
  | 120 => ⟨S20000x128, .f32⟩
  | 121 => ⟨S_, .f32⟩
  | 122 => ⟨S20000x128, .f32⟩
  | 123 => ⟨S20000x128, .f32⟩
  | 124 => ⟨S_, .i32⟩
  | 125 => ⟨S100000, .i32⟩
  | 126 => ⟨S100000, .i1⟩
  | 127 => ⟨S_, .i32⟩
  | _ => ⟨S100000x128, .f32⟩

abbrev hbmTy0_3 (i : Nat) : BufTy := match i % 128 with
  | 0 => ⟨S100000, .i32⟩
  | 1 => ⟨S100000, .i32⟩
  | 2 => ⟨S100000, .i32⟩
  | 3 => ⟨S100000x1, .i32⟩
  | 4 => ⟨S100000x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x256, .f32⟩
  | 42 => ⟨S100000, .i32⟩
  | 43 => ⟨S1x1600000, .i32⟩
  | 44 => ⟨S1600000, .i32⟩
  | 45 => ⟨S1700000, .i32⟩
  | 46 => ⟨S1x1600000, .i32⟩
  | 47 => ⟨S1600000, .i32⟩
  | 48 => ⟨S1700000, .i32⟩
  | 49 => ⟨S_, .f32⟩
  | 50 => ⟨S1700000, .f32⟩
  | 51 => ⟨S_, .f32⟩
  | 52 => ⟨S100000, .f32⟩
  | 53 => ⟨S1700000x1, .i32⟩
  | 54 => ⟨S100000, .f32⟩
  | 55 => ⟨S_, .f32⟩
  | 56 => ⟨S100000, .f32⟩
  | 57 => ⟨S100000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000, .f32⟩
  | 76 => ⟨S1700000, .f32⟩
  | 77 => ⟨S100000x10, .f32⟩
  | 78 => ⟨S1700000x1, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x10, .f32⟩
  | 88 => ⟨S1700000x10, .f32⟩
  | 89 => ⟨S1700000x10, .f32⟩
  | 90 => ⟨S_, .f32⟩
  | 91 => ⟨S100000x10, .f32⟩
  | 92 => ⟨S1700000x1, .i32⟩
  | 93 => ⟨S100000x10, .f32⟩
  | 94 => ⟨S1x10, .f32⟩
  | 95 => ⟨S100000x10, .f32⟩
  | 96 => ⟨S100000x10, .f32⟩
  | 97 => ⟨S_, .f32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x10, .f32⟩
  | 104 => ⟨S100000x10, .f32⟩
  | 105 => ⟨S100000x10, .f32⟩
  | 106 => ⟨S_, .f32⟩
  | 107 => ⟨S100000, .f32⟩
  | 108 => ⟨S100000x1, .f32⟩
  | 109 => ⟨S100000x1, .f32⟩
  | 110 => ⟨S100000x10, .f32⟩
  | 111 => ⟨S100000x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call0_cst : Ref sig .tc := ⟨.hbm, 77, rfl⟩
abbrev main_call0_v0 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call1_cst : Ref sig .tc := ⟨.hbm, 100, rfl⟩
abbrev main_call1_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_9 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call2_cst : Ref sig .tc := ⟨.hbm, 117, rfl⟩
abbrev main_call2_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_10 : Ref sig .tc := ⟨.hbm, 127, rfl⟩
abbrev main_v87 : Ref sig .tc := ⟨.hbm, 128, rfl⟩
abbrev main_cst_11 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_12 : Ref sig .tc := ⟨.hbm, 133, rfl⟩
abbrev main_v91 : Ref sig .tc := ⟨.hbm, 134, rfl⟩
abbrev main_v92 : Ref sig .tc := ⟨.hbm, 135, rfl⟩
abbrev main_c_13 : Ref sig .tc := ⟨.hbm, 136, rfl⟩
abbrev main_v93 : Ref sig .tc := ⟨.hbm, 137, rfl⟩
abbrev main_v94 : Ref sig .tc := ⟨.hbm, 138, rfl⟩
abbrev main_c_14 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_15 : Ref sig .tc := ⟨.hbm, 145, rfl⟩
abbrev main_v100 : Ref sig .tc := ⟨.hbm, 146, rfl⟩
abbrev main_v101 : Ref sig .tc := ⟨.hbm, 147, rfl⟩
abbrev main_c_16 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_17 : Ref sig .tc := ⟨.hbm, 157, rfl⟩
abbrev main_v110 : Ref sig .tc := ⟨.hbm, 158, rfl⟩
abbrev main_v111 : Ref sig .tc := ⟨.hbm, 159, rfl⟩
abbrev main_c_18 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_19 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_call3_cst : Ref sig .tc := ⟨.hbm, 175, rfl⟩
abbrev main_call3_v0 : Ref sig .tc := ⟨.hbm, 176, rfl⟩
abbrev main_v125 : Ref sig .tc := ⟨.hbm, 177, rfl⟩
abbrev main_cst_20 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_call4_cst : Ref sig .tc := ⟨.hbm, 198, rfl⟩
abbrev main_call4_v0 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_21 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_call5_cst : Ref sig .tc := ⟨.hbm, 215, rfl⟩
abbrev main_call5_v0 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_22 : Ref sig .tc := ⟨.hbm, 225, rfl⟩
abbrev main_v167 : Ref sig .tc := ⟨.hbm, 226, rfl⟩
abbrev main_cst_23 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_24 : Ref sig .tc := ⟨.hbm, 231, rfl⟩
abbrev main_v171 : Ref sig .tc := ⟨.hbm, 232, rfl⟩
abbrev main_v172 : Ref sig .tc := ⟨.hbm, 233, rfl⟩
abbrev main_c_25 : Ref sig .tc := ⟨.hbm, 234, rfl⟩
abbrev main_v173 : Ref sig .tc := ⟨.hbm, 235, rfl⟩
abbrev main_v174 : Ref sig .tc := ⟨.hbm, 236, rfl⟩
abbrev main_c_26 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_c_27 : Ref sig .tc := ⟨.hbm, 243, rfl⟩
abbrev main_v180 : Ref sig .tc := ⟨.hbm, 244, rfl⟩
abbrev main_v181 : Ref sig .tc := ⟨.hbm, 245, rfl⟩
abbrev main_c_28 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_c_29 : Ref sig .tc := ⟨.hbm, 255, rfl⟩
abbrev main_v190 : Ref sig .tc := ⟨.hbm, 256, rfl⟩
abbrev main_v191 : Ref sig .tc := ⟨.hbm, 257, rfl⟩
abbrev main_c_30 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_cst_31 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_call6_cst : Ref sig .tc := ⟨.hbm, 273, rfl⟩
abbrev main_call6_v0 : Ref sig .tc := ⟨.hbm, 274, rfl⟩
abbrev main_v205 : Ref sig .tc := ⟨.hbm, 275, rfl⟩
abbrev main_c_32 : Ref sig .tc := ⟨.hbm, 276, rfl⟩
abbrev main_v206 : Ref sig .tc := ⟨.hbm, 277, rfl⟩
abbrev main_v207 : Ref sig .tc := ⟨.hbm, 278, rfl⟩
abbrev main_c_33 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_call7_cst : Ref sig .tc := ⟨.hbm, 301, rfl⟩
abbrev main_call7_v0 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_cst_34 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_call8_cst : Ref sig .tc := ⟨.hbm, 318, rfl⟩
abbrev main_call8_v0 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_cst_35 : Ref sig .tc := ⟨.hbm, 329, rfl⟩
abbrev main_v252 : Ref sig .tc := ⟨.hbm, 330, rfl⟩
abbrev main_cst_36 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_cst_37 : Ref sig .tc := ⟨.hbm, 335, rfl⟩
abbrev main_v256 : Ref sig .tc := ⟨.hbm, 336, rfl⟩
abbrev main_v257 : Ref sig .tc := ⟨.hbm, 337, rfl⟩
abbrev main_c_38 : Ref sig .tc := ⟨.hbm, 338, rfl⟩
abbrev main_v258 : Ref sig .tc := ⟨.hbm, 339, rfl⟩
abbrev main_v259 : Ref sig .tc := ⟨.hbm, 340, rfl⟩
abbrev main_c_39 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_c_40 : Ref sig .tc := ⟨.hbm, 347, rfl⟩
abbrev main_v265 : Ref sig .tc := ⟨.hbm, 348, rfl⟩
abbrev main_v266 : Ref sig .tc := ⟨.hbm, 349, rfl⟩
abbrev main_c_41 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_c_42 : Ref sig .tc := ⟨.hbm, 359, rfl⟩
abbrev main_v275 : Ref sig .tc := ⟨.hbm, 360, rfl⟩
abbrev main_v276 : Ref sig .tc := ⟨.hbm, 361, rfl⟩
abbrev main_c_43 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_cst_44 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_call9_cst : Ref sig .tc := ⟨.hbm, 377, rfl⟩
abbrev main_call9_v0 : Ref sig .tc := ⟨.hbm, 378, rfl⟩
abbrev main_v290 : Ref sig .tc := ⟨.hbm, 379, rfl⟩
abbrev main_c_45 : Ref sig .tc := ⟨.hbm, 380, rfl⟩
abbrev main_v291 : Ref sig .tc := ⟨.hbm, 381, rfl⟩
abbrev main_v292 : Ref sig .tc := ⟨.hbm, 382, rfl⟩
abbrev main_c_46 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_call10_cst : Ref sig .tc := ⟨.hbm, 405, rfl⟩
abbrev main_call10_v0 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_cst_47 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_call11_cst : Ref sig .tc := ⟨.hbm, 422, rfl⟩
abbrev main_call11_v0 : Ref sig .tc := ⟨.hbm, 423, rfl⟩
abbrev main_v328 : Ref sig .tc := ⟨.hbm, 424, rfl⟩
abbrev main_v329 : Ref sig .tc := ⟨.hbm, 425, rfl⟩
abbrev main_v330 : Ref sig .tc := ⟨.hbm, 426, rfl⟩
abbrev main_v331 : Ref sig .tc := ⟨.hbm, 427, rfl⟩
abbrev main_v332 : Ref sig .tc := ⟨.hbm, 428, rfl⟩
abbrev main_v333 : Ref sig .tc := ⟨.hbm, 429, rfl⟩
abbrev main_v334 : Ref sig .tc := ⟨.hbm, 430, rfl⟩
abbrev main_v335 : Ref sig .tc := ⟨.hbm, 431, rfl⟩
abbrev main_v336 : Ref sig .tc := ⟨.hbm, 432, rfl⟩
abbrev main_cst_48 : Ref sig .tc := ⟨.hbm, 433, rfl⟩
abbrev main_v337 : Ref sig .tc := ⟨.hbm, 434, rfl⟩
abbrev main_cst_49 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_cst_50 : Ref sig .tc := ⟨.hbm, 439, rfl⟩
abbrev main_v341 : Ref sig .tc := ⟨.hbm, 440, rfl⟩
abbrev main_v342 : Ref sig .tc := ⟨.hbm, 441, rfl⟩
abbrev main_c_51 : Ref sig .tc := ⟨.hbm, 442, rfl⟩
abbrev main_v343 : Ref sig .tc := ⟨.hbm, 443, rfl⟩
abbrev main_v344 : Ref sig .tc := ⟨.hbm, 444, rfl⟩
abbrev main_c_52 : Ref sig .tc := ⟨.hbm, 445, rfl⟩
abbrev main_v345 : Ref sig .tc := ⟨.hbm, 446, rfl⟩
abbrev main_v346 : Ref sig .tc := ⟨.hbm, 447, rfl⟩
abbrev main_v347 : Ref sig .tc := ⟨.hbm, 448, rfl⟩
abbrev main_v348 : Ref sig .tc := ⟨.hbm, 449, rfl⟩
abbrev main_v349 : Ref sig .tc := ⟨.hbm, 450, rfl⟩
abbrev main_c_53 : Ref sig .tc := ⟨.hbm, 451, rfl⟩
abbrev main_v350 : Ref sig .tc := ⟨.hbm, 452, rfl⟩
abbrev main_v351 : Ref sig .tc := ⟨.hbm, 453, rfl⟩
abbrev main_c_54 : Ref sig .tc := ⟨.hbm, 454, rfl⟩
abbrev main_v352 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_v356 : Ref sig .tc := ⟨.hbm, 459, rfl⟩
abbrev main_v357 : Ref sig .tc := ⟨.hbm, 460, rfl⟩
abbrev main_v358 : Ref sig .tc := ⟨.hbm, 461, rfl⟩
abbrev main_v359 : Ref sig .tc := ⟨.hbm, 462, rfl⟩
abbrev main_c_55 : Ref sig .tc := ⟨.hbm, 463, rfl⟩
abbrev main_v360 : Ref sig .tc := ⟨.hbm, 464, rfl⟩
abbrev main_v361 : Ref sig .tc := ⟨.hbm, 465, rfl⟩
abbrev main_c_56 : Ref sig .tc := ⟨.hbm, 466, rfl⟩
abbrev main_v362 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_cst_57 : Ref sig .tc := ⟨.hbm, 474, rfl⟩
abbrev main_v369 : Ref sig .tc := ⟨.hbm, 475, rfl⟩
abbrev main_v370 : Ref sig .tc := ⟨.hbm, 476, rfl⟩
abbrev main_v371 : Ref sig .tc := ⟨.hbm, 477, rfl⟩
abbrev main_v372 : Ref sig .tc := ⟨.hbm, 478, rfl⟩
abbrev main_v373 : Ref sig .tc := ⟨.hbm, 479, rfl⟩
abbrev main_v374 : Ref sig .tc := ⟨.hbm, 480, rfl⟩
abbrev main_call12_cst : Ref sig .tc := ⟨.hbm, 481, rfl⟩
abbrev main_call12_v0 : Ref sig .tc := ⟨.hbm, 482, rfl⟩
abbrev main_call12_cst_0 : Ref sig .tc := ⟨.hbm, 483, rfl⟩
abbrev main_call12_v1 : Ref sig .tc := ⟨.hbm, 484, rfl⟩
abbrev main_call12_v2 : Ref sig .tc := ⟨.hbm, 485, rfl⟩
abbrev main_call12_v3 : Ref sig .tc := ⟨.hbm, 486, rfl⟩
abbrev main_call12_v4 : Ref sig .tc := ⟨.hbm, 487, rfl⟩
abbrev main_call12_v5 : Ref sig .tc := ⟨.hbm, 488, rfl⟩
abbrev main_call12_v6 : Ref sig .tc := ⟨.hbm, 489, rfl⟩
abbrev main_call12_cst_1 : Ref sig .tc := ⟨.hbm, 490, rfl⟩
abbrev main_call12_v7 : Ref sig .tc := ⟨.hbm, 491, rfl⟩
abbrev main_call12_v8 : Ref sig .tc := ⟨.hbm, 492, rfl⟩
abbrev main_call12_v9 : Ref sig .tc := ⟨.hbm, 493, rfl⟩
abbrev main_call12_v10 : Ref sig .tc := ⟨.hbm, 494, rfl⟩
abbrev main_v375 : Ref sig .tc := ⟨.hbm, 495, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S20000x128 : S_.BroadcastsInDim S20000x128 (![] : Fin 0 → Fin S20000x128.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S1x128_S20000x128_0_1 : S1x128.BroadcastsInDim S20000x128 (![0, 1] : Fin 2 → Fin S20000x128.rank)
  bcast_S_S128 : S_.BroadcastsInDim S128 (![] : Fin 0 → Fin S128.rank)
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x128_0_1 : S340000x1.BroadcastsInDim S340000x128 (![0, 1] : Fin 2 → Fin S340000x128.rank)
  bcast_S_S4000x128 : S_.BroadcastsInDim S4000x128 (![] : Fin 0 → Fin S4000x128.rank)
  bcast_S20000_S20000x1_0 : S20000.BroadcastsInDim S20000x1 (![0] : Fin 1 → Fin S20000x1.rank)
  slices_S4x128x128_S1x128x128_1_0_0 : S4x128x128.Slices ![1, 0, 0] S1x128x128
  slices_S4x128_S1x128_1_0 : S4x128.Slices ![1, 0] S1x128
  bcast_S1x128_S4000x128_0_1 : S1x128.BroadcastsInDim S4000x128 (![0, 1] : Fin 2 → Fin S4000x128.rank)
  slices_S2x64000_S1x64000_0_0 : S2x64000.Slices ![0, 0] S1x64000
  shapeCasts_S1x64000_S64000 : S1x64000.ShapeCasts S64000
  concatenates_S64000_S4000_S68000_d0 : Shape.Concatenates [S64000, S4000] S68000 0
  slices_S2x64000_S1x64000_1_0 : S2x64000.Slices ![1, 0] S1x64000
  bcast_S_S68000 : S_.BroadcastsInDim S68000 (![] : Fin 0 → Fin S68000.rank)
  bcast_S_S4000 : S_.BroadcastsInDim S4000 (![] : Fin 0 → Fin S4000.rank)
  bcast_S68000_S68000x1_0 : S68000.BroadcastsInDim S68000x1 (![0] : Fin 1 → Fin S68000x1.rank)
  bcast_S68000x1_S68000x128_0_1 : S68000x1.BroadcastsInDim S68000x128 (![0, 1] : Fin 2 → Fin S68000x128.rank)
  slices_S4x128x128_S1x128x128_2_0_0 : S4x128x128.Slices ![2, 0, 0] S1x128x128
  slices_S4x128_S1x128_2_0 : S4x128.Slices ![2, 0] S1x128
  concatenates_S20000x128_S20000x128_S20000x256_d1 : Shape.Concatenates [S20000x128, S20000x128] S20000x256 1
  slices_S4x128x128_S1x128x128_3_0_0 : S4x128x128.Slices ![3, 0, 0] S1x128x128
  slices_S4x128_S1x128_3_0 : S4x128.Slices ![3, 0] S1x128
  concatenates_S100000x128_S100000x128_S100000x256_d1 : Shape.Concatenates [S100000x128, S100000x128] S100000x256 1
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S20000x128_S100000x1_S100000x128_1_0_0_1_wf : ScatterDims.WF S20000x128 S100000x1 S100000x128 [1] [0] [0] 1
  dot_S20000x128_S128x128_S20000x128_1_0_0_1_n_n_wf : DotDims.WF S20000x128 S128x128 S20000x128 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x128_S340000x1_S340000x128_1_0_n_n_0_1_1128_wf : GatherDims.WF S20000x128 S340000x1 S340000x128 [1] [0] [] [0] [] 1 ![1, 128]
  scatter_S20000x128_S340000x1_S340000x128_1_0_0_1_wf : ScatterDims.WF S20000x128 S340000x1 S340000x128 [1] [0] [0] 1
  scatter_S4000x128_S20000x1_S20000x128_1_0_0_1_wf : ScatterDims.WF S4000x128 S20000x1 S20000x128 [1] [0] [0] 1
  dot_S4000x128_S128x128_S4000x128_1_0_0_1_n_n_wf : DotDims.WF S4000x128 S128x128 S4000x128 [1] [0] [0] [1] [] []
  scatter_S4000_S68000x1_S68000_n_0_0_1_wf : ScatterDims.WF S4000 S68000x1 S68000 [] [0] [0] 1
  gather_S4000_S68000x1_S68000_n_0_n_n_0_1_1_wf : GatherDims.WF S4000 S68000x1 S68000 [] [0] [] [0] [] 1 ![1]
  gather_S4000x128_S68000x1_S68000x128_1_0_n_n_0_1_1128_wf : GatherDims.WF S4000x128 S68000x1 S68000x128 [1] [0] [] [0] [] 1 ![1, 128]
  scatter_S4000x128_S68000x1_S68000x128_1_0_0_1_wf : ScatterDims.WF S4000x128 S68000x1 S68000x128 [1] [0] [0] 1
  gather_S4000x128_S20000x1_S20000x128_1_0_n_n_0_1_1128_wf : GatherDims.WF S4000x128 S20000x1 S20000x128 [1] [0] [] [0] [] 1 ![1, 128]
  dot_S20000x256_S256x128_S20000x128_1_0_0_1_n_n_wf : DotDims.WF S20000x256 S256x128 S20000x128 [1] [0] [0] [1] [] []
  gather_S20000x128_S100000x1_S100000x128_1_0_n_n_0_1_1128_wf : GatherDims.WF S20000x128 S100000x1 S100000x128 [1] [0] [] [0] [] 1 ![1, 128]
  dot_S100000x256_S256x10_S100000x10_1_0_0_1_n_n_wf : DotDims.WF S100000x256 S256x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x128_S340000x1_S340000x128_1_0_n_n_0_1_1128 : GatherDims S20000x128 S340000x1 S340000x128 where
  offsetDims := [1]
  collapsedSliceDims := [0]
  operandBatchingDims := []
  startIndicesBatchingDims := []
  startIndexMap := [0]
  indexVectorDim := 1
  sliceSizes := ![1, 128]
  wf := gather_S20000x128_S340000x1_S340000x128_1_0_n_n_0_1_1128_wf
def scatter_S20000x128_S340000x1_S340000x128_1_0_0_1 : ScatterDims S20000x128 S340000x1 S340000x128 where
  updateWindowDims := [1]
  insertedWindowDims := [0]
  scatterDimsToOperandDims := [0]
  indexVectorDim := 1
  wf := scatter_S20000x128_S340000x1_S340000x128_1_0_0_1_wf
def scatter_S4000x128_S20000x1_S20000x128_1_0_0_1 : ScatterDims S4000x128 S20000x1 S20000x128 where
  updateWindowDims := [1]
  insertedWindowDims := [0]
  scatterDimsToOperandDims := [0]
  indexVectorDim := 1
  wf := scatter_S4000x128_S20000x1_S20000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S4000_S68000x1_S68000_n_0_0_1 : ScatterDims S4000 S68000x1 S68000 where
  updateWindowDims := []
  insertedWindowDims := [0]
  scatterDimsToOperandDims := [0]
  indexVectorDim := 1
  wf := scatter_S4000_S68000x1_S68000_n_0_0_1_wf
def gather_S4000_S68000x1_S68000_n_0_n_n_0_1_1 : GatherDims S4000 S68000x1 S68000 where
  offsetDims := []
  collapsedSliceDims := [0]
  operandBatchingDims := []
  startIndicesBatchingDims := []
  startIndexMap := [0]
  indexVectorDim := 1
  sliceSizes := ![1]
  wf := gather_S4000_S68000x1_S68000_n_0_n_n_0_1_1_wf
def gather_S4000x128_S68000x1_S68000x128_1_0_n_n_0_1_1128 : GatherDims S4000x128 S68000x1 S68000x128 where
  offsetDims := [1]
  collapsedSliceDims := [0]
  operandBatchingDims := []
  startIndicesBatchingDims := []
  startIndexMap := [0]
  indexVectorDim := 1
  sliceSizes := ![1, 128]
  wf := gather_S4000x128_S68000x1_S68000x128_1_0_n_n_0_1_1128_wf
def scatter_S4000x128_S68000x1_S68000x128_1_0_0_1 : ScatterDims S4000x128 S68000x1 S68000x128 where
  updateWindowDims := [1]
  insertedWindowDims := [0]
  scatterDimsToOperandDims := [0]
  indexVectorDim := 1
  wf := scatter_S4000x128_S68000x1_S68000x128_1_0_0_1_wf
def gather_S4000x128_S20000x1_S20000x128_1_0_n_n_0_1_1128 : GatherDims S4000x128 S20000x1 S20000x128 where
  offsetDims := [1]
  collapsedSliceDims := [0]
  operandBatchingDims := []
  startIndicesBatchingDims := []
  startIndexMap := [0]
  indexVectorDim := 1
  sliceSizes := ![1, 128]
  wf := gather_S4000x128_S20000x1_S20000x128_1_0_n_n_0_1_1128_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.RefChunks.lean ====
/-
  The reference program's operations in eleven consecutive runs, cut where a dense stage's output is complete: the first
  graph convolution's aggregation, its bias and rectifier, the first pooling layer, the second convolution, the second pooling layer, the third convolution, the
  third pooling layer (on the unpooled features), the fourth convolution (which begins with the concatenation with the
  second skip connection), the fourth pooling layer, and the last convolution with the log-softmax (which begins with the
  concatenation with the first skip connection). The whole list is their concatenation.
-/
import proofs.«124761_j84988812853303_1_alg».proof.Proof.RefOps

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 1 … 48: the first graph convolution up to the scaled gathered rows `main_v38` (and the target-node index `main_v6`). -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0xBF000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (Host.powf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v13 (broadcastInDim S1700000 ![] bcast_S_S1700000 : (⟨S_, .i32⟩ : BufTy).Contents (Elt F) → (⟨S1700000, .i32⟩ : BufTy).Contents (Elt F)),
    binary main_v3 main_v13 main_v14 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v15 (broadcastInDim S1700000 ![] bcast_S_S1700000 : (⟨S_, .i32⟩ : BufTy).Contents (Elt F) → (⟨S1700000, .i32⟩ : BufTy).Contents (Elt F)),
    binary main_v3 main_v15 main_v16 (addi : (⟨S1700000, .i32⟩ : BufTy).Contents (Elt F) → (⟨S1700000, .i32⟩ : BufTy).Contents (Elt F) → (⟨S1700000, .i32⟩ : BufTy).Contents (Elt F)),
    ternary main_v14 main_v16 main_v3 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v17 main_v18 (broadcastInDim S1700000x1 ![0] bcast_S1700000_S1700000x1_0 : (⟨S1700000, .i32⟩ : BufTy).Contents (Elt F) → (⟨S1700000x1, .i32⟩ : BufTy).Contents (Elt F)),
    binary main_v12 main_v18 main_v19 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v20 (broadcastInDim S1700000 ![] bcast_S_S1700000 : (⟨S_, .i32⟩ : BufTy).Contents (Elt F) → (⟨S1700000, .i32⟩ : BufTy).Contents (Elt F)),
    binary main_v6 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v6 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v12 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v19 main_v26 main_v27 (mulf : (⟨S1700000, .f32⟩ : BufTy).Contents (Elt F) → (⟨S1700000, .f32⟩ : BufTy).Contents (Elt F) → (⟨S1700000, .f32⟩ : BufTy).Contents (Elt F)),
    binary main_arg0 main_arg6 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v27 main_v29 (broadcastInDim S1700000x1 ![0] bcast_S1700000_S1700000x1_0 : (⟨S1700000, .f32⟩ : BufTy).Contents (Elt F) → (⟨S1700000x1, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v28 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v37 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v36 main_v38 (mulf : (⟨S1700000x128, .f32⟩ : BufTy).Contents (Elt F) → (⟨S1700000x128, .f32⟩ : BufTy).Contents (Elt F) → (⟨S1700000x128, .f32⟩ : BufTy).Contents (Elt F)) ]

set_option maxHeartbeats 40000000 in
/-- Operations 49 … 58: the first scatter-add by target node, the bias and the rectifier, up to `main_v45`. -/
abbrev ops1 : List (HloOp τ sig (Elt F)) :=
  [ nullary main_cst_7 (constant S_ .f32 0x00000000#32),
    unary main_cst_7 main_v39 (broadcastInDim S100000x128 ![] bcast_S_S100000x128 : (⟨S_, .f32⟩ : BufTy).Contents (Elt F) → (⟨S100000x128, .f32⟩ : BufTy).Contents (Elt F)),
    unary main_v6 main_v40 (broadcastInDim S1700000x1 ![0] bcast_S1700000_S1700000x1_0 : (⟨S1700000, .i32⟩ : BufTy).Contents (Elt F) → (⟨S1700000x1, .i32⟩ : BufTy).Contents (Elt F)),
    ternary main_v39 main_v40 main_v38 main_v41 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v44) (TRef.of (T := ⟨S100000x128, .f32⟩) main_call0_v0) (TRef.of (T := ⟨S100000x128, .f32⟩) main_v45) maximumf ]

set_option maxHeartbeats 40000000 in
/-- Operations 59 … 98, up to the stage whose output is `main_v79`. -/
abbrev ops2 : List (HloOp τ sig (Elt F)) :=
  [ nullary main_cst_8 (constant S_ .f32 0x00000000#32),
    unary main_cst_8 main_v46 (broadcastInDim S20000x128 ![] bcast_S_S20000x128 : (⟨S_, .f32⟩ : BufTy).Contents (Elt F) → (⟨S20000x128, .f32⟩ : BufTy).Contents (Elt F)),
    unary main_arg4 main_v47 (broadcastInDim S100000x1 ![0] bcast_S100000_S100000x1_0 : (⟨S100000, .i32⟩ : BufTy).Contents (Elt F) → (⟨S100000x1, .i32⟩ : BufTy).Contents (Elt F)),
    ternary main_v46 main_v47 main_v45 main_v48 ((fun x i u => Host.scatterAdd scatter_S20000x128_S100000x1_S100000x128_1_0_0_1 x i u) : (⟨S20000x128, .f32⟩ : BufTy).Contents (Elt F) → (⟨S100000x1, .i32⟩ : BufTy).Contents (Elt F) → (⟨S100000x128, .f32⟩ : BufTy).Contents (Elt F) → (⟨S20000x128, .f32⟩ : BufTy).Contents (Elt F)),
    unary main_arg16 main_v49 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v49 main_v50 rfl shapeCasts_S1x128x128_S128x128,
    unary main_arg17 main_v51 ((extractStridedSlice S1x128 ![0, 0] · slices_S4x128_S1x128_0_0) : (⟨S4x128, .f32⟩ : BufTy).Contents (Elt F) → (⟨S1x128, .f32⟩ : BufTy).Contents (Elt F)),
    reshape main_v51 main_v52 rfl shapeCasts_S1x128_S128,
    unary main_arg18 main_v53 ((extractStridedSlice S1x128 ![0, 0] · slices_S4x128_S1x128_0_0) : (⟨S4x128, .f32⟩ : BufTy).Contents (Elt F) → (⟨S1x128, .f32⟩ : BufTy).Contents (Elt F)),
    reshape main_v53 main_v54 rfl shapeCasts_S1x128_S128,
    unary main_arg19 main_v55 ((extractStridedSlice S1x128 ![0, 0] · slices_S4x128_S1x128_0_0) : (⟨S4x128, .f32⟩ : BufTy).Contents (Elt F) → (⟨S1x128, .f32⟩ : BufTy).Contents (Elt F)),
    reshape main_v55 main_v56 rfl shapeCasts_S1x128_S128,
    unary main_arg20 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_arg21 main_v59 ((extractStridedSlice S1x128 ![0, 0] · slices_S4x128_S1x128_0_0) : (⟨S4x128, .f32⟩ : BufTy).Contents (Elt F) → (⟨S1x128, .f32⟩ : BufTy).Contents (Elt F)),
    reshape main_v59 main_v60 rfl shapeCasts_S1x128_S128,
    binary main_v48 main_v50 main_v61 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v52 main_v62 (broadcastInDim S1x128 ![1] bcast_S128_S1x128_1 : (⟨S128, .f32⟩ : BufTy).Contents (Elt F) → (⟨S1x128, .f32⟩ : BufTy).Contents (Elt F)),
    unary main_v62 main_v63 (broadcastInDim S20000x128 ![0, 1] bcast_S1x128_S20000x128_0_1 : (⟨S1x128, .f32⟩ : BufTy).Contents (Elt F) → (⟨S20000x128, .f32⟩ : BufTy).Contents (Elt F)),
    binary main_v61 main_v63 main_v64 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x128, .f32⟩) main_call1_v0) (broadcastInDim S20000x128 ![] bcast_S_S20000x128),
    TRef.binary (TRef.of (T := ⟨S20000x128, .f32⟩) main_v64) (TRef.of (T := ⟨S20000x128, .f32⟩) main_call1_v0) (TRef.of (T := ⟨S20000x128, .f32⟩) main_v65) maximumf,
    unary main_v58 main_v66 (broadcastInDim S1x128 ![1] bcast_S128_S1x128_1 : (⟨S128, .f32⟩ : BufTy).Contents (Elt F) → (⟨S1x128, .f32⟩ : BufTy).Contents (Elt F)),
    unary main_v66 main_v67 (broadcastInDim S20000x128 ![0, 1] bcast_S1x128_S20000x128_0_1 : (⟨S1x128, .f32⟩ : BufTy).Contents (Elt F) → (⟨S20000x128, .f32⟩ : BufTy).Contents (Elt F)),
    binary main_v65 main_v67 main_v68 (subf : (⟨S20000x128, .f32⟩ : BufTy).Contents (Elt F) → (⟨S20000x128, .f32⟩ : BufTy).Contents (Elt F) → (⟨S20000x128, .f32⟩ : BufTy).Contents (Elt F)),
    nullary main_cst_9 (constant S_ .f32 0x3727C5AC#32),
    unary main_cst_9 main_v69 (broadcastInDim S128 ![] bcast_S_S128 : (⟨S_, .f32⟩ : BufTy).Contents (Elt F) → (⟨S128, .f32⟩ : BufTy).Contents (Elt F)),
    binary main_v60 main_v69 main_v70 (addf : (⟨S128, .f32⟩ : BufTy).Contents (Elt F) → (⟨S128, .f32⟩ : BufTy).Contents (Elt F) → (⟨S128, .f32⟩ : BufTy).Contents (Elt F)),
    unary main_v70 main_v71 (Host.sqrt : (⟨S128, .f32⟩ : BufTy).Contents (Elt F) → (⟨S128, .f32⟩ : BufTy).Contents (Elt F)),
    binary main_v54 main_v71 main_v72 (Host.divf : (⟨S128, .f32⟩ : BufTy).Contents (Elt F) → (⟨S128, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S20000x128 ![0, 1] bcast_S1x128_S20000x128_0_1 : (⟨S1x128, .f32⟩ : BufTy).Contents (Elt F) → (⟨S20000x128, .f32⟩ : BufTy).Contents (Elt F)),
    binary main_v68 main_v74 main_v75 (mulf : (⟨S20000x128, .f32⟩ : BufTy).Contents (Elt F) → (⟨S20000x128, .f32⟩ : BufTy).Contents (Elt F) → (⟨S20000x128, .f32⟩ : BufTy).Contents (Elt F)),
    unary main_v56 main_v76 (broadcastInDim S1x128 ![1] bcast_S128_S1x128_1 : (⟨S128, .f32⟩ : BufTy).Contents (Elt F) → (⟨S1x128, .f32⟩ : BufTy).Contents (Elt F)),
    unary main_v76 main_v77 (broadcastInDim S20000x128 ![0, 1] bcast_S1x128_S20000x128_0_1 : (⟨S1x128, .f32⟩ : BufTy).Contents (Elt F) → (⟨S20000x128, .f32⟩ : BufTy).Contents (Elt F)),
    binary main_v75 main_v77 main_v78 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x128, .f32⟩) main_call2_v0) (broadcastInDim S20000x128 ![] bcast_S_S20000x128),
    TRef.binary (TRef.of (T := ⟨S20000x128, .f32⟩) main_v78) (TRef.of (T := ⟨S20000x128, .f32⟩) main_call2_v0) (TRef.of (T := ⟨S20000x128, .f32⟩) main_v79) maximumf ]

set_option maxHeartbeats 40000000 in
/-- Operations 99 … 156, up to the stage whose output is `main_v125`. -/
abbrev ops3 : List (HloOp τ sig (Elt F)) :=
  [ nullary main_v80 (iotaInDim S20000 32 0),
    unary main_arg2 main_v81 ((extractStridedSlice S1x320000 ![0, 0] · slices_S2x320000_S1x320000_0_0) : (⟨S2x320000, .i32⟩ : BufTy).Contents (Elt F) → (⟨S1x320000, .i32⟩ : BufTy).Contents (Elt F)),
    reshape main_v81 main_v82 rfl shapeCasts_S1x320000_S320000,
    binary main_v82 main_v80 main_v83 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    unary main_arg2 main_v84 ((extractStridedSlice S1x320000 ![1, 0] · slices_S2x320000_S1x320000_1_0) : (⟨S2x320000, .i32⟩ : BufTy).Contents (Elt F) → (⟨S1x320000, .i32⟩ : BufTy).Contents (Elt F)),
    reshape main_v84 main_v85 rfl shapeCasts_S1x320000_S320000,
    binary main_v85 main_v80 main_v86 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_10 (constant S_ .f32 0x3F800000#32),
    unary main_cst_10 main_v87 (broadcastInDim S340000 ![] bcast_S_S340000 : (⟨S_, .f32⟩ : BufTy).Contents (Elt F) → (⟨S340000, .f32⟩ : BufTy).Contents (Elt F)),
    nullary main_cst_11 (constant S_ .f32 0x00000000#32),
    unary main_cst_11 main_v88 (broadcastInDim S20000 ![] bcast_S_S20000 : (⟨S_, .f32⟩ : BufTy).Contents (Elt F) → (⟨S20000, .f32⟩ : BufTy).Contents (Elt F)),
    unary main_v86 main_v89 (broadcastInDim S340000x1 ![0] bcast_S340000_S340000x1_0 : (⟨S340000, .i32⟩ : BufTy).Contents (Elt F) → (⟨S340000x1, .i32⟩ : BufTy).Contents (Elt F)),
    ternary main_v88 main_v89 main_v87 main_v90 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_12 (constant S_ .f32 0xBF000000#32),
    unary main_cst_12 main_v91 (broadcastInDim S20000 ![] bcast_S_S20000 : (⟨S_, .f32⟩ : BufTy).Contents (Elt F) → (⟨S20000, .f32⟩ : BufTy).Contents (Elt F)),
    binary main_v90 main_v91 main_v92 (Host.powf : (⟨S20000, .f32⟩ : BufTy).Contents (Elt F) → (⟨S20000, .f32⟩ : BufTy).Contents (Elt F) → (⟨S20000, .f32⟩ : BufTy).Contents (Elt F)),
    nullary main_c_13 (constantI S_ 32 0#32),
    unary main_c_13 main_v93 (broadcastInDim S340000 ![] bcast_S_S340000 : (⟨S_, .i32⟩ : BufTy).Contents (Elt F) → (⟨S340000, .i32⟩ : BufTy).Contents (Elt F)),
    binary main_v83 main_v93 main_v94 (cmpi .slt : (⟨S340000, .i32⟩ : BufTy).Contents (Elt F) → (⟨S340000, .i32⟩ : BufTy).Contents (Elt F) → (⟨S340000, .i1⟩ : BufTy).Contents (Elt F)),
    nullary main_c_14 (constantI S_ 32 20000#32),
    unary main_c_14 main_v95 (broadcastInDim S340000 ![] bcast_S_S340000 : (⟨S_, .i32⟩ : BufTy).Contents (Elt F) → (⟨S340000, .i32⟩ : BufTy).Contents (Elt F)),
    binary main_v83 main_v95 main_v96 (addi : (⟨S340000, .i32⟩ : BufTy).Contents (Elt F) → (⟨S340000, .i32⟩ : BufTy).Contents (Elt F) → (⟨S340000, .i32⟩ : BufTy).Contents (Elt F)),
    ternary main_v94 main_v96 main_v83 main_v97 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v97 main_v98 (broadcastInDim S340000x1 ![0] bcast_S340000_S340000x1_0 : (⟨S340000, .i32⟩ : BufTy).Contents (Elt F) → (⟨S340000x1, .i32⟩ : BufTy).Contents (Elt F)),
    binary main_v92 main_v98 main_v99 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_15 (constantI S_ 32 0#32),
    unary main_c_15 main_v100 (broadcastInDim S340000 ![] bcast_S_S340000 : (⟨S_, .i32⟩ : BufTy).Contents (Elt F) → (⟨S340000, .i32⟩ : BufTy).Contents (Elt F)),
    binary main_v86 main_v100 main_v101 (cmpi .slt : (⟨S340000, .i32⟩ : BufTy).Contents (Elt F) → (⟨S340000, .i32⟩ : BufTy).Contents (Elt F) → (⟨S340000, .i1⟩ : BufTy).Contents (Elt F)),
    nullary main_c_16 (constantI S_ 32 20000#32),
    unary main_c_16 main_v102 (broadcastInDim S340000 ![] bcast_S_S340000 : (⟨S_, .i32⟩ : BufTy).Contents (Elt F) → (⟨S340000, .i32⟩ : BufTy).Contents (Elt F)),
    binary main_v86 main_v102 main_v103 (addi : (⟨S340000, .i32⟩ : BufTy).Contents (Elt F) → (⟨S340000, .i32⟩ : BufTy).Contents (Elt F) → (⟨S340000, .i32⟩ : BufTy).Contents (Elt F)),
    ternary main_v101 main_v103 main_v86 main_v104 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v104 main_v105 (broadcastInDim S340000x1 ![0] bcast_S340000_S340000x1_0 : (⟨S340000, .i32⟩ : BufTy).Contents (Elt F) → (⟨S340000x1, .i32⟩ : BufTy).Contents (Elt F)),
    binary main_v92 main_v105 main_v106 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v99 main_v106 main_v107 (mulf : (⟨S340000, .f32⟩ : BufTy).Contents (Elt F) → (⟨S340000, .f32⟩ : BufTy).Contents (Elt F) → (⟨S340000, .f32⟩ : BufTy).Contents (Elt F)),
    binary main_v79 main_arg8 main_v108 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v107 main_v109 (broadcastInDim S340000x1 ![0] bcast_S340000_S340000x1_0 : (⟨S340000, .f32⟩ : BufTy).Contents (Elt F) → (⟨S340000x1, .f32⟩ : BufTy).Contents (Elt F)),
    nullary main_c_17 (constantI S_ 32 0#32),
    unary main_c_17 main_v110 (broadcastInDim S340000 ![] bcast_S_S340000 : (⟨S_, .i32⟩ : BufTy).Contents (Elt F) → (⟨S340000, .i32⟩ : BufTy).Contents (Elt F)),
    binary main_v83 main_v110 main_v111 (cmpi .slt : (⟨S340000, .i32⟩ : BufTy).Contents (Elt F) → (⟨S340000, .i32⟩ : BufTy).Contents (Elt F) → (⟨S340000, .i1⟩ : BufTy).Contents (Elt F)),
    nullary main_c_18 (constantI S_ 32 20000#32),
    unary main_c_18 main_v112 (broadcastInDim S340000 ![] bcast_S_S340000 : (⟨S_, .i32⟩ : BufTy).Contents (Elt F) → (⟨S340000, .i32⟩ : BufTy).Contents (Elt F)),
    binary main_v83 main_v112 main_v113 (addi : (⟨S340000, .i32⟩ : BufTy).Contents (Elt F) → (⟨S340000, .i32⟩ : BufTy).Contents (Elt F) → (⟨S340000, .i32⟩ : BufTy).Contents (Elt F)),
    ternary main_v111 main_v113 main_v83 main_v114 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v114 main_v115 (broadcastInDim S340000x1 ![0] bcast_S340000_S340000x1_0 : (⟨S340000, .i32⟩ : BufTy).Contents (Elt F) → (⟨S340000x1, .i32⟩ : BufTy).Contents (Elt F)),
    binary main_v108 main_v115 main_v116 ((fun x i => Host.gather gather_S20000x128_S340000x1_S340000x128_1_0_n_n_0_1_1128 x i) : (⟨S20000x128, .f32⟩ : BufTy).Contents (Elt F) → (⟨S340000x1, .i32⟩ : BufTy).Contents (Elt F) → (⟨S340000x128, .f32⟩ : BufTy).Contents (Elt F)),
    unary main_v109 main_v117 (broadcastInDim S340000x128 ![0, 1] bcast_S340000x1_S340000x128_0_1 : (⟨S340000x1, .f32⟩ : BufTy).Contents (Elt F) → (⟨S340000x128, .f32⟩ : BufTy).Contents (Elt F)),
    binary main_v117 main_v116 main_v118 (mulf : (⟨S340000x128, .f32⟩ : BufTy).Contents (Elt F) → (⟨S340000x128, .f32⟩ : BufTy).Contents (Elt F) → (⟨S340000x128, .f32⟩ : BufTy).Contents (Elt F)),
    nullary main_cst_19 (constant S_ .f32 0x00000000#32),
    unary main_cst_19 main_v119 (broadcastInDim S20000x128 ![] bcast_S_S20000x128 : (⟨S_, .f32⟩ : BufTy).Contents (Elt F) → (⟨S20000x128, .f32⟩ : BufTy).Contents (Elt F)),
    unary main_v86 main_v120 (broadcastInDim S340000x1 ![0] bcast_S340000_S340000x1_0 : (⟨S340000, .i32⟩ : BufTy).Contents (Elt F) → (⟨S340000x1, .i32⟩ : BufTy).Contents (Elt F)),
    ternary main_v119 main_v120 main_v118 main_v121 ((fun x i u => Host.scatterAdd scatter_S20000x128_S340000x1_S340000x128_1_0_0_1 x i u) : (⟨S20000x128, .f32⟩ : BufTy).Contents (Elt F) → (⟨S340000x1, .i32⟩ : BufTy).Contents (Elt F) → (⟨S340000x128, .f32⟩ : BufTy).Contents (Elt F) → (⟨S20000x128, .f32⟩ : BufTy).Contents (Elt F)),
    unary main_arg9 main_v122 (broadcastInDim S1x128 ![1] bcast_S128_S1x128_1 : (⟨S128, .f32⟩ : BufTy).Contents (Elt F) → (⟨S1x128, .f32⟩ : BufTy).Contents (Elt F)),
    unary main_v122 main_v123 (broadcastInDim S20000x128 ![0, 1] bcast_S1x128_S20000x128_0_1 : (⟨S1x128, .f32⟩ : BufTy).Contents (Elt F) → (⟨S20000x128, .f32⟩ : BufTy).Contents (Elt F)),
    binary main_v121 main_v123 main_v124 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S20000x128, .f32⟩) main_call3_v0) (broadcastInDim S20000x128 ![] bcast_S_S20000x128),
    TRef.binary (TRef.of (T := ⟨S20000x128, .f32⟩) main_v124) (TRef.of (T := ⟨S20000x128, .f32⟩) main_call3_v0) (TRef.of (T := ⟨S20000x128, .f32⟩) main_v125) maximumf ]

set_option maxHeartbeats 40000000 in
/-- Operations 157 … 196, up to the stage whose output is `main_v159`. -/
abbrev ops4 : List (HloOp τ sig (Elt F)) :=
  [ nullary main_cst_20 (constant S_ .f32 0x00000000#32),
    unary main_cst_20 main_v126 (broadcastInDim S4000x128 ![] bcast_S_S4000x128 : (⟨S_, .f32⟩ : BufTy).Contents (Elt F) → (⟨S4000x128, .f32⟩ : BufTy).Contents (Elt F)),
    unary main_arg5 main_v127 (broadcastInDim S20000x1 ![0] bcast_S20000_S20000x1_0 : (⟨S20000, .i32⟩ : BufTy).Contents (Elt F) → (⟨S20000x1, .i32⟩ : BufTy).Contents (Elt F)),
    ternary main_v126 main_v127 main_v125 main_v128 ((fun x i u => Host.scatterAdd scatter_S4000x128_S20000x1_S20000x128_1_0_0_1 x i u) : (⟨S4000x128, .f32⟩ : BufTy).Contents (Elt F) → (⟨S20000x1, .i32⟩ : BufTy).Contents (Elt F) → (⟨S20000x128, .f32⟩ : BufTy).Contents (Elt F) → (⟨S4000x128, .f32⟩ : BufTy).Contents (Elt F)),
    unary main_arg16 main_v129 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v129 main_v130 rfl shapeCasts_S1x128x128_S128x128,
    unary main_arg17 main_v131 ((extractStridedSlice S1x128 ![1, 0] · slices_S4x128_S1x128_1_0) : (⟨S4x128, .f32⟩ : BufTy).Contents (Elt F) → (⟨S1x128, .f32⟩ : BufTy).Contents (Elt F)),
    reshape main_v131 main_v132 rfl shapeCasts_S1x128_S128,
    unary main_arg18 main_v133 ((extractStridedSlice S1x128 ![1, 0] · slices_S4x128_S1x128_1_0) : (⟨S4x128, .f32⟩ : BufTy).Contents (Elt F) → (⟨S1x128, .f32⟩ : BufTy).Contents (Elt F)),
    reshape main_v133 main_v134 rfl shapeCasts_S1x128_S128,
    unary main_arg19 main_v135 ((extractStridedSlice S1x128 ![1, 0] · slices_S4x128_S1x128_1_0) : (⟨S4x128, .f32⟩ : BufTy).Contents (Elt F) → (⟨S1x128, .f32⟩ : BufTy).Contents (Elt F)),
    reshape main_v135 main_v136 rfl shapeCasts_S1x128_S128,
    unary main_arg20 main_v137 ((extractStridedSlice S1x128 ![1, 0] · slices_S4x128_S1x128_1_0) : (⟨S4x128, .f32⟩ : BufTy).Contents (Elt F) → (⟨S1x128, .f32⟩ : BufTy).Contents (Elt F)),
    reshape main_v137 main_v138 rfl shapeCasts_S1x128_S128,
    unary main_arg21 main_v139 ((extractStridedSlice S1x128 ![1, 0] · slices_S4x128_S1x128_1_0) : (⟨S4x128, .f32⟩ : BufTy).Contents (Elt F) → (⟨S1x128, .f32⟩ : BufTy).Contents (Elt F)),
    reshape main_v139 main_v140 rfl shapeCasts_S1x128_S128,
    binary main_v128 main_v130 main_v141 ((fun l r => Host.dotGeneral dot_S4000x128_S128x128_S4000x128_1_0_0_1_n_n none l r) : (⟨S4000x128, .f32⟩ : BufTy).Contents (Elt F) → (⟨S128x128, .f32⟩ : BufTy).Contents (Elt F) → (⟨S4000x128, .f32⟩ : BufTy).Contents (Elt F)),
    unary main_v132 main_v142 (broadcastInDim S1x128 ![1] bcast_S128_S1x128_1 : (⟨S128, .f32⟩ : BufTy).Contents (Elt F) → (⟨S1x128, .f32⟩ : BufTy).Contents (Elt F)),
    unary main_v142 main_v143 (broadcastInDim S4000x128 ![0, 1] bcast_S1x128_S4000x128_0_1 : (⟨S1x128, .f32⟩ : BufTy).Contents (Elt F) → (⟨S4000x128, .f32⟩ : BufTy).Contents (Elt F)),
    binary main_v141 main_v143 main_v144 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4000x128, .f32⟩) main_call4_v0) (broadcastInDim S4000x128 ![] bcast_S_S4000x128),
    TRef.binary (TRef.of (T := ⟨S4000x128, .f32⟩) main_v144) (TRef.of (T := ⟨S4000x128, .f32⟩) main_call4_v0) (TRef.of (T := ⟨S4000x128, .f32⟩) main_v145) maximumf,
    unary main_v138 main_v146 (broadcastInDim S1x128 ![1] bcast_S128_S1x128_1 : (⟨S128, .f32⟩ : BufTy).Contents (Elt F) → (⟨S1x128, .f32⟩ : BufTy).Contents (Elt F)),
    unary main_v146 main_v147 (broadcastInDim S4000x128 ![0, 1] bcast_S1x128_S4000x128_0_1 : (⟨S1x128, .f32⟩ : BufTy).Contents (Elt F) → (⟨S4000x128, .f32⟩ : BufTy).Contents (Elt F)),
    binary main_v145 main_v147 main_v148 (subf : (⟨S4000x128, .f32⟩ : BufTy).Contents (Elt F) → (⟨S4000x128, .f32⟩ : BufTy).Contents (Elt F) → (⟨S4000x128, .f32⟩ : BufTy).Contents (Elt F)),
    nullary main_cst_21 (constant S_ .f32 0x3727C5AC#32),
    unary main_cst_21 main_v149 (broadcastInDim S128 ![] bcast_S_S128 : (⟨S_, .f32⟩ : BufTy).Contents (Elt F) → (⟨S128, .f32⟩ : BufTy).Contents (Elt F)),
    binary main_v140 main_v149 main_v150 (addf : (⟨S128, .f32⟩ : BufTy).Contents (Elt F) → (⟨S128, .f32⟩ : BufTy).Contents (Elt F) → (⟨S128, .f32⟩ : BufTy).Contents (Elt F)),
    unary main_v150 main_v151 (Host.sqrt : (⟨S128, .f32⟩ : BufTy).Contents (Elt F) → (⟨S128, .f32⟩ : BufTy).Contents (Elt F)),
    binary main_v134 main_v151 main_v152 (Host.divf : (⟨S128, .f32⟩ : BufTy).Contents (Elt F) → (⟨S128, .f32⟩ : BufTy).Contents (Elt F) → (⟨S128, .f32⟩ : BufTy).Contents (Elt F)),
    unary main_v152 main_v153 (broadcastInDim S1x128 ![1] bcast_S128_S1x128_1 : (⟨S128, .f32⟩ : BufTy).Contents (Elt F) → (⟨S1x128, .f32⟩ : BufTy).Contents (Elt F)),
    unary main_v153 main_v154 (broadcastInDim S4000x128 ![0, 1] bcast_S1x128_S4000x128_0_1 : (⟨S1x128, .f32⟩ : BufTy).Contents (Elt F) → (⟨S4000x128, .f32⟩ : BufTy).Contents (Elt F)),
    binary main_v148 main_v154 main_v155 (mulf : (⟨S4000x128, .f32⟩ : BufTy).Contents (Elt F) → (⟨S4000x128, .f32⟩ : BufTy).Contents (Elt F) → (⟨S4000x128, .f32⟩ : BufTy).Contents (Elt F)),
    unary main_v136 main_v156 (broadcastInDim S1x128 ![1] bcast_S128_S1x128_1 : (⟨S128, .f32⟩ : BufTy).Contents (Elt F) → (⟨S1x128, .f32⟩ : BufTy).Contents (Elt F)),
    unary main_v156 main_v157 (broadcastInDim S4000x128 ![0, 1] bcast_S1x128_S4000x128_0_1 : (⟨S1x128, .f32⟩ : BufTy).Contents (Elt F) → (⟨S4000x128, .f32⟩ : BufTy).Contents (Elt F)),
    binary main_v155 main_v157 main_v158 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4000x128, .f32⟩) main_call5_v0) (broadcastInDim S4000x128 ![] bcast_S_S4000x128),
    TRef.binary (TRef.of (T := ⟨S4000x128, .f32⟩) main_v158) (TRef.of (T := ⟨S4000x128, .f32⟩) main_call5_v0) (TRef.of (T := ⟨S4000x128, .f32⟩) main_v159) maximumf ]

set_option maxHeartbeats 40000000 in
/-- Operations 197 … 254, up to the stage whose output is `main_v205`. -/
abbrev ops5 : List (HloOp τ sig (Elt F)) :=
  [ nullary main_v160 (iotaInDim S4000 32 0),
    unary main_arg3 main_v161 ((extractStridedSlice S1x64000 ![0, 0] · slices_S2x64000_S1x64000_0_0) : (⟨S2x64000, .i32⟩ : BufTy).Contents (Elt F) → (⟨S1x64000, .i32⟩ : BufTy).Contents (Elt F)),
    reshape main_v161 main_v162 rfl shapeCasts_S1x64000_S64000,
    binary main_v162 main_v160 main_v163 ((fun a b => concatenate S68000 0 [⟨S64000, a⟩, ⟨S4000, b⟩] concatenates_S64000_S4000_S68000_d0) : (⟨S64000, .i32⟩ : BufTy).Contents (Elt F) → (⟨S4000, .i32⟩ : BufTy).Contents (Elt F) → (⟨S68000, .i32⟩ : BufTy).Contents (Elt F)),
    unary main_arg3 main_v164 ((extractStridedSlice S1x64000 ![1, 0] · slices_S2x64000_S1x64000_1_0) : (⟨S2x64000, .i32⟩ : BufTy).Contents (Elt F) → (⟨S1x64000, .i32⟩ : BufTy).Contents (Elt F)),
    reshape main_v164 main_v165 rfl shapeCasts_S1x64000_S64000,
    binary main_v165 main_v160 main_v166 ((fun a b => concatenate S68000 0 [⟨S64000, a⟩, ⟨S4000, b⟩] concatenates_S64000_S4000_S68000_d0) : (⟨S64000, .i32⟩ : BufTy).Contents (Elt F) → (⟨S4000, .i32⟩ : BufTy).Contents (Elt F) → (⟨S68000, .i32⟩ : BufTy).Contents (Elt F)),
    nullary main_cst_22 (constant S_ .f32 0x3F800000#32),
    unary main_cst_22 main_v167 (broadcastInDim S68000 ![] bcast_S_S68000 : (⟨S_, .f32⟩ : BufTy).Contents (Elt F) → (⟨S68000, .f32⟩ : BufTy).Contents (Elt F)),
    nullary main_cst_23 (constant S_ .f32 0x00000000#32),
    unary main_cst_23 main_v168 (broadcastInDim S4000 ![] bcast_S_S4000 : (⟨S_, .f32⟩ : BufTy).Contents (Elt F) → (⟨S4000, .f32⟩ : BufTy).Contents (Elt F)),
    unary main_v166 main_v169 (broadcastInDim S68000x1 ![0] bcast_S68000_S68000x1_0 : (⟨S68000, .i32⟩ : BufTy).Contents (Elt F) → (⟨S68000x1, .i32⟩ : BufTy).Contents (Elt F)),
    ternary main_v168 main_v169 main_v167 main_v170 ((fun x i u => Host.scatterAdd scatter_S4000_S68000x1_S68000_n_0_0_1 x i u) : (⟨S4000, .f32⟩ : BufTy).Contents (Elt F) → (⟨S68000x1, .i32⟩ : BufTy).Contents (Elt F) → (⟨S68000, .f32⟩ : BufTy).Contents (Elt F) → (⟨S4000, .f32⟩ : BufTy).Contents (Elt F)),
    nullary main_cst_24 (constant S_ .f32 0xBF000000#32),
    unary main_cst_24 main_v171 (broadcastInDim S4000 ![] bcast_S_S4000 : (⟨S_, .f32⟩ : BufTy).Contents (Elt F) → (⟨S4000, .f32⟩ : BufTy).Contents (Elt F)),
    binary main_v170 main_v171 main_v172 (Host.powf : (⟨S4000, .f32⟩ : BufTy).Contents (Elt F) → (⟨S4000, .f32⟩ : BufTy).Contents (Elt F) → (⟨S4000, .f32⟩ : BufTy).Contents (Elt F)),
    nullary main_c_25 (constantI S_ 32 0#32),
    unary main_c_25 main_v173 (broadcastInDim S68000 ![] bcast_S_S68000 : (⟨S_, .i32⟩ : BufTy).Contents (Elt F) → (⟨S68000, .i32⟩ : BufTy).Contents (Elt F)),
    binary main_v163 main_v173 main_v174 (cmpi .slt : (⟨S68000, .i32⟩ : BufTy).Contents (Elt F) → (⟨S68000, .i32⟩ : BufTy).Contents (Elt F) → (⟨S68000, .i1⟩ : BufTy).Contents (Elt F)),
    nullary main_c_26 (constantI S_ 32 4000#32),
    unary main_c_26 main_v175 (broadcastInDim S68000 ![] bcast_S_S68000 : (⟨S_, .i32⟩ : BufTy).Contents (Elt F) → (⟨S68000, .i32⟩ : BufTy).Contents (Elt F)),
    binary main_v163 main_v175 main_v176 (addi : (⟨S68000, .i32⟩ : BufTy).Contents (Elt F) → (⟨S68000, .i32⟩ : BufTy).Contents (Elt F) → (⟨S68000, .i32⟩ : BufTy).Contents (Elt F)),
    ternary main_v174 main_v176 main_v163 main_v177 (select : (⟨S68000, .i1⟩ : BufTy).Contents (Elt F) → (⟨S68000, .i32⟩ : BufTy).Contents (Elt F) → (⟨S68000, .i32⟩ : BufTy).Contents (Elt F) → (⟨S68000, .i32⟩ : BufTy).Contents (Elt F)),
    unary main_v177 main_v178 (broadcastInDim S68000x1 ![0] bcast_S68000_S68000x1_0 : (⟨S68000, .i32⟩ : BufTy).Contents (Elt F) → (⟨S68000x1, .i32⟩ : BufTy).Contents (Elt F)),
    binary main_v172 main_v178 main_v179 ((fun x i => Host.gather gather_S4000_S68000x1_S68000_n_0_n_n_0_1_1 x i) : (⟨S4000, .f32⟩ : BufTy).Contents (Elt F) → (⟨S68000x1, .i32⟩ : BufTy).Contents (Elt F) → (⟨S68000, .f32⟩ : BufTy).Contents (Elt F)),
    nullary main_c_27 (constantI S_ 32 0#32),
    unary main_c_27 main_v180 (broadcastInDim S68000 ![] bcast_S_S68000 : (⟨S_, .i32⟩ : BufTy).Contents (Elt F) → (⟨S68000, .i32⟩ : BufTy).Contents (Elt F)),
    binary main_v166 main_v180 main_v181 (cmpi .slt : (⟨S68000, .i32⟩ : BufTy).Contents (Elt F) → (⟨S68000, .i32⟩ : BufTy).Contents (Elt F) → (⟨S68000, .i1⟩ : BufTy).Contents (Elt F)),
    nullary main_c_28 (constantI S_ 32 4000#32),
    unary main_c_28 main_v182 (broadcastInDim S68000 ![] bcast_S_S68000 : (⟨S_, .i32⟩ : BufTy).Contents (Elt F) → (⟨S68000, .i32⟩ : BufTy).Contents (Elt F)),
    binary main_v166 main_v182 main_v183 (addi : (⟨S68000, .i32⟩ : BufTy).Contents (Elt F) → (⟨S68000, .i32⟩ : BufTy).Contents (Elt F) → (⟨S68000, .i32⟩ : BufTy).Contents (Elt F)),
    ternary main_v181 main_v183 main_v166 main_v184 (select : (⟨S68000, .i1⟩ : BufTy).Contents (Elt F) → (⟨S68000, .i32⟩ : BufTy).Contents (Elt F) → (⟨S68000, .i32⟩ : BufTy).Contents (Elt F) → (⟨S68000, .i32⟩ : BufTy).Contents (Elt F)),
    unary main_v184 main_v185 (broadcastInDim S68000x1 ![0] bcast_S68000_S68000x1_0 : (⟨S68000, .i32⟩ : BufTy).Contents (Elt F) → (⟨S68000x1, .i32⟩ : BufTy).Contents (Elt F)),
    binary main_v172 main_v185 main_v186 ((fun x i => Host.gather gather_S4000_S68000x1_S68000_n_0_n_n_0_1_1 x i) : (⟨S4000, .f32⟩ : BufTy).Contents (Elt F) → (⟨S68000x1, .i32⟩ : BufTy).Contents (Elt F) → (⟨S68000, .f32⟩ : BufTy).Contents (Elt F)),
    binary main_v179 main_v186 main_v187 (mulf : (⟨S68000, .f32⟩ : BufTy).Contents (Elt F) → (⟨S68000, .f32⟩ : BufTy).Contents (Elt F) → (⟨S68000, .f32⟩ : BufTy).Contents (Elt F)),
    binary main_v159 main_arg10 main_v188 ((fun l r => Host.dotGeneral dot_S4000x128_S128x128_S4000x128_1_0_0_1_n_n none l r) : (⟨S4000x128, .f32⟩ : BufTy).Contents (Elt F) → (⟨S128x128, .f32⟩ : BufTy).Contents (Elt F) → (⟨S4000x128, .f32⟩ : BufTy).Contents (Elt F)),
    unary main_v187 main_v189 (broadcastInDim S68000x1 ![0] bcast_S68000_S68000x1_0 : (⟨S68000, .f32⟩ : BufTy).Contents (Elt F) → (⟨S68000x1, .f32⟩ : BufTy).Contents (Elt F)),
    nullary main_c_29 (constantI S_ 32 0#32),
    unary main_c_29 main_v190 (broadcastInDim S68000 ![] bcast_S_S68000 : (⟨S_, .i32⟩ : BufTy).Contents (Elt F) → (⟨S68000, .i32⟩ : BufTy).Contents (Elt F)),
    binary main_v163 main_v190 main_v191 (cmpi .slt : (⟨S68000, .i32⟩ : BufTy).Contents (Elt F) → (⟨S68000, .i32⟩ : BufTy).Contents (Elt F) → (⟨S68000, .i1⟩ : BufTy).Contents (Elt F)),
    nullary main_c_30 (constantI S_ 32 4000#32),
    unary main_c_30 main_v192 (broadcastInDim S68000 ![] bcast_S_S68000 : (⟨S_, .i32⟩ : BufTy).Contents (Elt F) → (⟨S68000, .i32⟩ : BufTy).Contents (Elt F)),
    binary main_v163 main_v192 main_v193 (addi : (⟨S68000, .i32⟩ : BufTy).Contents (Elt F) → (⟨S68000, .i32⟩ : BufTy).Contents (Elt F) → (⟨S68000, .i32⟩ : BufTy).Contents (Elt F)),
    ternary main_v191 main_v193 main_v163 main_v194 (select : (⟨S68000, .i1⟩ : BufTy).Contents (Elt F) → (⟨S68000, .i32⟩ : BufTy).Contents (Elt F) → (⟨S68000, .i32⟩ : BufTy).Contents (Elt F) → (⟨S68000, .i32⟩ : BufTy).Contents (Elt F)),
    unary main_v194 main_v195 (broadcastInDim S68000x1 ![0] bcast_S68000_S68000x1_0 : (⟨S68000, .i32⟩ : BufTy).Contents (Elt F) → (⟨S68000x1, .i32⟩ : BufTy).Contents (Elt F)),
    binary main_v188 main_v195 main_v196 ((fun x i => Host.gather gather_S4000x128_S68000x1_S68000x128_1_0_n_n_0_1_1128 x i) : (⟨S4000x128, .f32⟩ : BufTy).Contents (Elt F) → (⟨S68000x1, .i32⟩ : BufTy).Contents (Elt F) → (⟨S68000x128, .f32⟩ : BufTy).Contents (Elt F)),
    unary main_v189 main_v197 (broadcastInDim S68000x128 ![0, 1] bcast_S68000x1_S68000x128_0_1 : (⟨S68000x1, .f32⟩ : BufTy).Contents (Elt F) → (⟨S68000x128, .f32⟩ : BufTy).Contents (Elt F)),
    binary main_v197 main_v196 main_v198 (mulf : (⟨S68000x128, .f32⟩ : BufTy).Contents (Elt F) → (⟨S68000x128, .f32⟩ : BufTy).Contents (Elt F) → (⟨S68000x128, .f32⟩ : BufTy).Contents (Elt F)),
    nullary main_cst_31 (constant S_ .f32 0x00000000#32),
    unary main_cst_31 main_v199 (broadcastInDim S4000x128 ![] bcast_S_S4000x128 : (⟨S_, .f32⟩ : BufTy).Contents (Elt F) → (⟨S4000x128, .f32⟩ : BufTy).Contents (Elt F)),
    unary main_v166 main_v200 (broadcastInDim S68000x1 ![0] bcast_S68000_S68000x1_0 : (⟨S68000, .i32⟩ : BufTy).Contents (Elt F) → (⟨S68000x1, .i32⟩ : BufTy).Contents (Elt F)),
    ternary main_v199 main_v200 main_v198 main_v201 ((fun x i u => Host.scatterAdd scatter_S4000x128_S68000x1_S68000x128_1_0_0_1 x i u) : (⟨S4000x128, .f32⟩ : BufTy).Contents (Elt F) → (⟨S68000x1, .i32⟩ : BufTy).Contents (Elt F) → (⟨S68000x128, .f32⟩ : BufTy).Contents (Elt F) → (⟨S4000x128, .f32⟩ : BufTy).Contents (Elt F)),
    unary main_arg11 main_v202 (broadcastInDim S1x128 ![1] bcast_S128_S1x128_1 : (⟨S128, .f32⟩ : BufTy).Contents (Elt F) → (⟨S1x128, .f32⟩ : BufTy).Contents (Elt F)),
    unary main_v202 main_v203 (broadcastInDim S4000x128 ![0, 1] bcast_S1x128_S4000x128_0_1 : (⟨S1x128, .f32⟩ : BufTy).Contents (Elt F) → (⟨S4000x128, .f32⟩ : BufTy).Contents (Elt F)),
    binary main_v201 main_v203 main_v204 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S4000x128, .f32⟩) main_call6_v0) (broadcastInDim S4000x128 ![] bcast_S_S4000x128),
    TRef.binary (TRef.of (T := ⟨S4000x128, .f32⟩) main_v204) (TRef.of (T := ⟨S4000x128, .f32⟩) main_call6_v0) (TRef.of (T := ⟨S4000x128, .f32⟩) main_v205) maximumf ]

set_option maxHeartbeats 40000000 in
/-- Operations 255 … 299, up to the stage whose output is `main_v243`. -/
abbrev ops6 : List (HloOp τ sig (Elt F)) :=
  [ nullary main_c_32 (constantI S_ 32 0#32),
    unary main_c_32 main_v206 (broadcastInDim S20000 ![] bcast_S_S20000 : (⟨S_, .i32⟩ : BufTy).Contents (Elt F) → (⟨S20000, .i32⟩ : BufTy).Contents (Elt F)),
    binary main_arg5 main_v206 main_v207 (cmpi .slt : (⟨S20000, .i32⟩ : BufTy).Contents (Elt F) → (⟨S20000, .i32⟩ : BufTy).Contents (Elt F) → (⟨S20000, .i1⟩ : BufTy).Contents (Elt F)),
    nullary main_c_33 (constantI S_ 32 4000#32),
    unary main_c_33 main_v208 (broadcastInDim S20000 ![] bcast_S_S20000 : (⟨S_, .i32⟩ : BufTy).Contents (Elt F) → (⟨S20000, .i32⟩ : BufTy).Contents (Elt F)),
    binary main_arg5 main_v208 main_v209 (addi : (⟨S20000, .i32⟩ : BufTy).Contents (Elt F) → (⟨S20000, .i32⟩ : BufTy).Contents (Elt F) → (⟨S20000, .i32⟩ : BufTy).Contents (Elt F)),
    ternary main_v207 main_v209 main_arg5 main_v210 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v210 main_v211 (broadcastInDim S20000x1 ![0] bcast_S20000_S20000x1_0 : (⟨S20000, .i32⟩ : BufTy).Contents (Elt F) → (⟨S20000x1, .i32⟩ : BufTy).Contents (Elt F)),
    binary main_v205 main_v211 main_v212 ((fun x i => Host.gather gather_S4000x128_S20000x1_S20000x128_1_0_n_n_0_1_1128 x i) : (⟨S4000x128, .f32⟩ : BufTy).Contents (Elt F) → (⟨S20000x1, .i32⟩ : BufTy).Contents (Elt F) → (⟨S20000x128, .f32⟩ : BufTy).Contents (Elt F)),
    unary main_arg16 main_v213 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v213 main_v214 rfl shapeCasts_S1x128x128_S128x128,
    unary main_arg17 main_v215 ((extractStridedSlice S1x128 ![2, 0] · slices_S4x128_S1x128_2_0) : (⟨S4x128, .f32⟩ : BufTy).Contents (Elt F) → (⟨S1x128, .f32⟩ : BufTy).Contents (Elt F)),
    reshape main_v215 main_v216 rfl shapeCasts_S1x128_S128,
    unary main_arg18 main_v217 ((extractStridedSlice S1x128 ![2, 0] · slices_S4x128_S1x128_2_0) : (⟨S4x128, .f32⟩ : BufTy).Contents (Elt F) → (⟨S1x128, .f32⟩ : BufTy).Contents (Elt F)),
    reshape main_v217 main_v218 rfl shapeCasts_S1x128_S128,
    unary main_arg19 main_v219 ((extractStridedSlice S1x128 ![2, 0] · slices_S4x128_S1x128_2_0) : (⟨S4x128, .f32⟩ : BufTy).Contents (Elt F) → (⟨S1x128, .f32⟩ : BufTy).Contents (Elt F)),
    reshape main_v219 main_v220 rfl shapeCasts_S1x128_S128,
    unary main_arg20 main_v221 ((extractStridedSlice S1x128 ![2, 0] · slices_S4x128_S1x128_2_0) : (⟨S4x128, .f32⟩ : BufTy).Contents (Elt F) → (⟨S1x128, .f32⟩ : BufTy).Contents (Elt F)),
    reshape main_v221 main_v222 rfl shapeCasts_S1x128_S128,
    unary main_arg21 main_v223 ((extractStridedSlice S1x128 ![2, 0] · slices_S4x128_S1x128_2_0) : (⟨S4x128, .f32⟩ : BufTy).Contents (Elt F) → (⟨S1x128, .f32⟩ : BufTy).Contents (Elt F)),
    reshape main_v223 main_v224 rfl shapeCasts_S1x128_S128,
    binary main_v212 main_v214 main_v225 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v216 main_v226 (broadcastInDim S1x128 ![1] bcast_S128_S1x128_1 : (⟨S128, .f32⟩ : BufTy).Contents (Elt F) → (⟨S1x128, .f32⟩ : BufTy).Contents (Elt F)),
    unary main_v226 main_v227 (broadcastInDim S20000x128 ![0, 1] bcast_S1x128_S20000x128_0_1 : (⟨S1x128, .f32⟩ : BufTy).Contents (Elt F) → (⟨S20000x128, .f32⟩ : BufTy).Contents (Elt F)),
    binary main_v225 main_v227 main_v228 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S20000x128, .f32⟩) main_call7_v0) (broadcastInDim S20000x128 ![] bcast_S_S20000x128),
    TRef.binary (TRef.of (T := ⟨S20000x128, .f32⟩) main_v228) (TRef.of (T := ⟨S20000x128, .f32⟩) main_call7_v0) (TRef.of (T := ⟨S20000x128, .f32⟩) main_v229) maximumf,
    unary main_v222 main_v230 (broadcastInDim S1x128 ![1] bcast_S128_S1x128_1 : (⟨S128, .f32⟩ : BufTy).Contents (Elt F) → (⟨S1x128, .f32⟩ : BufTy).Contents (Elt F)),
    unary main_v230 main_v231 (broadcastInDim S20000x128 ![0, 1] bcast_S1x128_S20000x128_0_1 : (⟨S1x128, .f32⟩ : BufTy).Contents (Elt F) → (⟨S20000x128, .f32⟩ : BufTy).Contents (Elt F)),
    binary main_v229 main_v231 main_v232 (subf : (⟨S20000x128, .f32⟩ : BufTy).Contents (Elt F) → (⟨S20000x128, .f32⟩ : BufTy).Contents (Elt F) → (⟨S20000x128, .f32⟩ : BufTy).Contents (Elt F)),
    nullary main_cst_34 (constant S_ .f32 0x3727C5AC#32),
    unary main_cst_34 main_v233 (broadcastInDim S128 ![] bcast_S_S128 : (⟨S_, .f32⟩ : BufTy).Contents (Elt F) → (⟨S128, .f32⟩ : BufTy).Contents (Elt F)),
    binary main_v224 main_v233 main_v234 (addf : (⟨S128, .f32⟩ : BufTy).Contents (Elt F) → (⟨S128, .f32⟩ : BufTy).Contents (Elt F) → (⟨S128, .f32⟩ : BufTy).Contents (Elt F)),
    unary main_v234 main_v235 (Host.sqrt : (⟨S128, .f32⟩ : BufTy).Contents (Elt F) → (⟨S128, .f32⟩ : BufTy).Contents (Elt F)),
    binary main_v218 main_v235 main_v236 (Host.divf : (⟨S128, .f32⟩ : BufTy).Contents (Elt F) → (⟨S128, .f32⟩ : BufTy).Contents (Elt F) → (⟨S128, .f32⟩ : BufTy).Contents (Elt F)),
    unary main_v236 main_v237 (broadcastInDim S1x128 ![1] bcast_S128_S1x128_1 : (⟨S128, .f32⟩ : BufTy).Contents (Elt F) → (⟨S1x128, .f32⟩ : BufTy).Contents (Elt F)),
    unary main_v237 main_v238 (broadcastInDim S20000x128 ![0, 1] bcast_S1x128_S20000x128_0_1 : (⟨S1x128, .f32⟩ : BufTy).Contents (Elt F) → (⟨S20000x128, .f32⟩ : BufTy).Contents (Elt F)),
    binary main_v232 main_v238 main_v239 (mulf : (⟨S20000x128, .f32⟩ : BufTy).Contents (Elt F) → (⟨S20000x128, .f32⟩ : BufTy).Contents (Elt F) → (⟨S20000x128, .f32⟩ : BufTy).Contents (Elt F)),
    unary main_v220 main_v240 (broadcastInDim S1x128 ![1] bcast_S128_S1x128_1 : (⟨S128, .f32⟩ : BufTy).Contents (Elt F) → (⟨S1x128, .f32⟩ : BufTy).Contents (Elt F)),
    unary main_v240 main_v241 (broadcastInDim S20000x128 ![0, 1] bcast_S1x128_S20000x128_0_1 : (⟨S1x128, .f32⟩ : BufTy).Contents (Elt F) → (⟨S20000x128, .f32⟩ : BufTy).Contents (Elt F)),
    binary main_v239 main_v241 main_v242 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S20000x128, .f32⟩) main_call8_v0) (broadcastInDim S20000x128 ![] bcast_S_S20000x128),
    TRef.binary (TRef.of (T := ⟨S20000x128, .f32⟩) main_v242) (TRef.of (T := ⟨S20000x128, .f32⟩) main_call8_v0) (TRef.of (T := ⟨S20000x128, .f32⟩) main_v243) maximumf ]

set_option maxHeartbeats 40000000 in
/-- Operations 300 … 358, up to the stage whose output is `main_v290`. -/
abbrev ops7 : List (HloOp τ sig (Elt F)) :=
  [ binary main_v243 main_v125 main_v244 ((fun a b => concatenate S20000x256 1 [⟨S20000x128, a⟩, ⟨S20000x128, b⟩] concatenates_S20000x128_S20000x128_S20000x256_d1) : (⟨S20000x128, .f32⟩ : BufTy).Contents (Elt F) → (⟨S20000x128, .f32⟩ : BufTy).Contents (Elt F) → (⟨S20000x256, .f32⟩ : BufTy).Contents (Elt F)),
    nullary main_v245 (iotaInDim S20000 32 0),
    unary main_arg2 main_v246 ((extractStridedSlice S1x320000 ![0, 0] · slices_S2x320000_S1x320000_0_0) : (⟨S2x320000, .i32⟩ : BufTy).Contents (Elt F) → (⟨S1x320000, .i32⟩ : BufTy).Contents (Elt F)),
    reshape main_v246 main_v247 rfl shapeCasts_S1x320000_S320000,
    binary main_v247 main_v245 main_v248 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    unary main_arg2 main_v249 ((extractStridedSlice S1x320000 ![1, 0] · slices_S2x320000_S1x320000_1_0) : (⟨S2x320000, .i32⟩ : BufTy).Contents (Elt F) → (⟨S1x320000, .i32⟩ : BufTy).Contents (Elt F)),
    reshape main_v249 main_v250 rfl shapeCasts_S1x320000_S320000,
    binary main_v250 main_v245 main_v251 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_35 (constant S_ .f32 0x3F800000#32),
    unary main_cst_35 main_v252 (broadcastInDim S340000 ![] bcast_S_S340000 : (⟨S_, .f32⟩ : BufTy).Contents (Elt F) → (⟨S340000, .f32⟩ : BufTy).Contents (Elt F)),
    nullary main_cst_36 (constant S_ .f32 0x00000000#32),
    unary main_cst_36 main_v253 (broadcastInDim S20000 ![] bcast_S_S20000 : (⟨S_, .f32⟩ : BufTy).Contents (Elt F) → (⟨S20000, .f32⟩ : BufTy).Contents (Elt F)),
    unary main_v251 main_v254 (broadcastInDim S340000x1 ![0] bcast_S340000_S340000x1_0 : (⟨S340000, .i32⟩ : BufTy).Contents (Elt F) → (⟨S340000x1, .i32⟩ : BufTy).Contents (Elt F)),
    ternary main_v253 main_v254 main_v252 main_v255 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_37 (constant S_ .f32 0xBF000000#32),
    unary main_cst_37 main_v256 (broadcastInDim S20000 ![] bcast_S_S20000 : (⟨S_, .f32⟩ : BufTy).Contents (Elt F) → (⟨S20000, .f32⟩ : BufTy).Contents (Elt F)),
    binary main_v255 main_v256 main_v257 (Host.powf : (⟨S20000, .f32⟩ : BufTy).Contents (Elt F) → (⟨S20000, .f32⟩ : BufTy).Contents (Elt F) → (⟨S20000, .f32⟩ : BufTy).Contents (Elt F)),
    nullary main_c_38 (constantI S_ 32 0#32),
    unary main_c_38 main_v258 (broadcastInDim S340000 ![] bcast_S_S340000 : (⟨S_, .i32⟩ : BufTy).Contents (Elt F) → (⟨S340000, .i32⟩ : BufTy).Contents (Elt F)),
    binary main_v248 main_v258 main_v259 (cmpi .slt : (⟨S340000, .i32⟩ : BufTy).Contents (Elt F) → (⟨S340000, .i32⟩ : BufTy).Contents (Elt F) → (⟨S340000, .i1⟩ : BufTy).Contents (Elt F)),
    nullary main_c_39 (constantI S_ 32 20000#32),
    unary main_c_39 main_v260 (broadcastInDim S340000 ![] bcast_S_S340000 : (⟨S_, .i32⟩ : BufTy).Contents (Elt F) → (⟨S340000, .i32⟩ : BufTy).Contents (Elt F)),
    binary main_v248 main_v260 main_v261 (addi : (⟨S340000, .i32⟩ : BufTy).Contents (Elt F) → (⟨S340000, .i32⟩ : BufTy).Contents (Elt F) → (⟨S340000, .i32⟩ : BufTy).Contents (Elt F)),
    ternary main_v259 main_v261 main_v248 main_v262 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v262 main_v263 (broadcastInDim S340000x1 ![0] bcast_S340000_S340000x1_0 : (⟨S340000, .i32⟩ : BufTy).Contents (Elt F) → (⟨S340000x1, .i32⟩ : BufTy).Contents (Elt F)),
    binary main_v257 main_v263 main_v264 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_40 (constantI S_ 32 0#32),
    unary main_c_40 main_v265 (broadcastInDim S340000 ![] bcast_S_S340000 : (⟨S_, .i32⟩ : BufTy).Contents (Elt F) → (⟨S340000, .i32⟩ : BufTy).Contents (Elt F)),
    binary main_v251 main_v265 main_v266 (cmpi .slt : (⟨S340000, .i32⟩ : BufTy).Contents (Elt F) → (⟨S340000, .i32⟩ : BufTy).Contents (Elt F) → (⟨S340000, .i1⟩ : BufTy).Contents (Elt F)),
    nullary main_c_41 (constantI S_ 32 20000#32),
    unary main_c_41 main_v267 (broadcastInDim S340000 ![] bcast_S_S340000 : (⟨S_, .i32⟩ : BufTy).Contents (Elt F) → (⟨S340000, .i32⟩ : BufTy).Contents (Elt F)),
    binary main_v251 main_v267 main_v268 (addi : (⟨S340000, .i32⟩ : BufTy).Contents (Elt F) → (⟨S340000, .i32⟩ : BufTy).Contents (Elt F) → (⟨S340000, .i32⟩ : BufTy).Contents (Elt F)),
    ternary main_v266 main_v268 main_v251 main_v269 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v269 main_v270 (broadcastInDim S340000x1 ![0] bcast_S340000_S340000x1_0 : (⟨S340000, .i32⟩ : BufTy).Contents (Elt F) → (⟨S340000x1, .i32⟩ : BufTy).Contents (Elt F)),
    binary main_v257 main_v270 main_v271 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v264 main_v271 main_v272 (mulf : (⟨S340000, .f32⟩ : BufTy).Contents (Elt F) → (⟨S340000, .f32⟩ : BufTy).Contents (Elt F) → (⟨S340000, .f32⟩ : BufTy).Contents (Elt F)),
    binary main_v244 main_arg12 main_v273 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_v272 main_v274 (broadcastInDim S340000x1 ![0] bcast_S340000_S340000x1_0 : (⟨S340000, .f32⟩ : BufTy).Contents (Elt F) → (⟨S340000x1, .f32⟩ : BufTy).Contents (Elt F)),
    nullary main_c_42 (constantI S_ 32 0#32),
    unary main_c_42 main_v275 (broadcastInDim S340000 ![] bcast_S_S340000 : (⟨S_, .i32⟩ : BufTy).Contents (Elt F) → (⟨S340000, .i32⟩ : BufTy).Contents (Elt F)),
    binary main_v248 main_v275 main_v276 (cmpi .slt : (⟨S340000, .i32⟩ : BufTy).Contents (Elt F) → (⟨S340000, .i32⟩ : BufTy).Contents (Elt F) → (⟨S340000, .i1⟩ : BufTy).Contents (Elt F)),
    nullary main_c_43 (constantI S_ 32 20000#32),
    unary main_c_43 main_v277 (broadcastInDim S340000 ![] bcast_S_S340000 : (⟨S_, .i32⟩ : BufTy).Contents (Elt F) → (⟨S340000, .i32⟩ : BufTy).Contents (Elt F)),
    binary main_v248 main_v277 main_v278 (addi : (⟨S340000, .i32⟩ : BufTy).Contents (Elt F) → (⟨S340000, .i32⟩ : BufTy).Contents (Elt F) → (⟨S340000, .i32⟩ : BufTy).Contents (Elt F)),
    ternary main_v276 main_v278 main_v248 main_v279 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v279 main_v280 (broadcastInDim S340000x1 ![0] bcast_S340000_S340000x1_0 : (⟨S340000, .i32⟩ : BufTy).Contents (Elt F) → (⟨S340000x1, .i32⟩ : BufTy).Contents (Elt F)),
    binary main_v273 main_v280 main_v281 ((fun x i => Host.gather gather_S20000x128_S340000x1_S340000x128_1_0_n_n_0_1_1128 x i) : (⟨S20000x128, .f32⟩ : BufTy).Contents (Elt F) → (⟨S340000x1, .i32⟩ : BufTy).Contents (Elt F) → (⟨S340000x128, .f32⟩ : BufTy).Contents (Elt F)),
    unary main_v274 main_v282 (broadcastInDim S340000x128 ![0, 1] bcast_S340000x1_S340000x128_0_1 : (⟨S340000x1, .f32⟩ : BufTy).Contents (Elt F) → (⟨S340000x128, .f32⟩ : BufTy).Contents (Elt F)),
    binary main_v282 main_v281 main_v283 (mulf : (⟨S340000x128, .f32⟩ : BufTy).Contents (Elt F) → (⟨S340000x128, .f32⟩ : BufTy).Contents (Elt F) → (⟨S340000x128, .f32⟩ : BufTy).Contents (Elt F)),
    nullary main_cst_44 (constant S_ .f32 0x00000000#32),
    unary main_cst_44 main_v284 (broadcastInDim S20000x128 ![] bcast_S_S20000x128 : (⟨S_, .f32⟩ : BufTy).Contents (Elt F) → (⟨S20000x128, .f32⟩ : BufTy).Contents (Elt F)),
    unary main_v251 main_v285 (broadcastInDim S340000x1 ![0] bcast_S340000_S340000x1_0 : (⟨S340000, .i32⟩ : BufTy).Contents (Elt F) → (⟨S340000x1, .i32⟩ : BufTy).Contents (Elt F)),
    ternary main_v284 main_v285 main_v283 main_v286 ((fun x i u => Host.scatterAdd scatter_S20000x128_S340000x1_S340000x128_1_0_0_1 x i u) : (⟨S20000x128, .f32⟩ : BufTy).Contents (Elt F) → (⟨S340000x1, .i32⟩ : BufTy).Contents (Elt F) → (⟨S340000x128, .f32⟩ : BufTy).Contents (Elt F) → (⟨S20000x128, .f32⟩ : BufTy).Contents (Elt F)),
    unary main_arg13 main_v287 (broadcastInDim S1x128 ![1] bcast_S128_S1x128_1 : (⟨S128, .f32⟩ : BufTy).Contents (Elt F) → (⟨S1x128, .f32⟩ : BufTy).Contents (Elt F)),
    unary main_v287 main_v288 (broadcastInDim S20000x128 ![0, 1] bcast_S1x128_S20000x128_0_1 : (⟨S1x128, .f32⟩ : BufTy).Contents (Elt F) → (⟨S20000x128, .f32⟩ : BufTy).Contents (Elt F)),
    binary main_v286 main_v288 main_v289 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S20000x128, .f32⟩) main_call9_v0) (broadcastInDim S20000x128 ![] bcast_S_S20000x128),
    TRef.binary (TRef.of (T := ⟨S20000x128, .f32⟩) main_v289) (TRef.of (T := ⟨S20000x128, .f32⟩) main_call9_v0) (TRef.of (T := ⟨S20000x128, .f32⟩) main_v290) maximumf ]

set_option maxHeartbeats 40000000 in
/-- Operations 359 … 403, up to the stage whose output is `main_v328`. -/
abbrev ops8 : List (HloOp τ sig (Elt F)) :=
  [ nullary main_c_45 (constantI S_ 32 0#32),
    unary main_c_45 main_v291 (broadcastInDim S100000 ![] bcast_S_S100000 : (⟨S_, .i32⟩ : BufTy).Contents (Elt F) → (⟨S100000, .i32⟩ : BufTy).Contents (Elt F)),
    binary main_arg4 main_v291 main_v292 (cmpi .slt : (⟨S100000, .i32⟩ : BufTy).Contents (Elt F) → (⟨S100000, .i32⟩ : BufTy).Contents (Elt F) → (⟨S100000, .i1⟩ : BufTy).Contents (Elt F)),
    nullary main_c_46 (constantI S_ 32 20000#32),
    unary main_c_46 main_v293 (broadcastInDim S100000 ![] bcast_S_S100000 : (⟨S_, .i32⟩ : BufTy).Contents (Elt F) → (⟨S100000, .i32⟩ : BufTy).Contents (Elt F)),
    binary main_arg4 main_v293 main_v294 (addi : (⟨S100000, .i32⟩ : BufTy).Contents (Elt F) → (⟨S100000, .i32⟩ : BufTy).Contents (Elt F) → (⟨S100000, .i32⟩ : BufTy).Contents (Elt F)),
    ternary main_v292 main_v294 main_arg4 main_v295 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v295 main_v296 (broadcastInDim S100000x1 ![0] bcast_S100000_S100000x1_0 : (⟨S100000, .i32⟩ : BufTy).Contents (Elt F) → (⟨S100000x1, .i32⟩ : BufTy).Contents (Elt F)),
    binary main_v290 main_v296 main_v297 ((fun x i => Host.gather gather_S20000x128_S100000x1_S100000x128_1_0_n_n_0_1_1128 x i) : (⟨S20000x128, .f32⟩ : BufTy).Contents (Elt F) → (⟨S100000x1, .i32⟩ : BufTy).Contents (Elt F) → (⟨S100000x128, .f32⟩ : BufTy).Contents (Elt F)),
    unary main_arg16 main_v298 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v298 main_v299 rfl shapeCasts_S1x128x128_S128x128,
    unary main_arg17 main_v300 ((extractStridedSlice S1x128 ![3, 0] · slices_S4x128_S1x128_3_0) : (⟨S4x128, .f32⟩ : BufTy).Contents (Elt F) → (⟨S1x128, .f32⟩ : BufTy).Contents (Elt F)),
    reshape main_v300 main_v301 rfl shapeCasts_S1x128_S128,
    unary main_arg18 main_v302 ((extractStridedSlice S1x128 ![3, 0] · slices_S4x128_S1x128_3_0) : (⟨S4x128, .f32⟩ : BufTy).Contents (Elt F) → (⟨S1x128, .f32⟩ : BufTy).Contents (Elt F)),
    reshape main_v302 main_v303 rfl shapeCasts_S1x128_S128,
    unary main_arg19 main_v304 ((extractStridedSlice S1x128 ![3, 0] · slices_S4x128_S1x128_3_0) : (⟨S4x128, .f32⟩ : BufTy).Contents (Elt F) → (⟨S1x128, .f32⟩ : BufTy).Contents (Elt F)),
    reshape main_v304 main_v305 rfl shapeCasts_S1x128_S128,
    unary main_arg20 main_v306 ((extractStridedSlice S1x128 ![3, 0] · slices_S4x128_S1x128_3_0) : (⟨S4x128, .f32⟩ : BufTy).Contents (Elt F) → (⟨S1x128, .f32⟩ : BufTy).Contents (Elt F)),
    reshape main_v306 main_v307 rfl shapeCasts_S1x128_S128,
    unary main_arg21 main_v308 ((extractStridedSlice S1x128 ![3, 0] · slices_S4x128_S1x128_3_0) : (⟨S4x128, .f32⟩ : BufTy).Contents (Elt F) → (⟨S1x128, .f32⟩ : BufTy).Contents (Elt F)),
    reshape main_v308 main_v309 rfl shapeCasts_S1x128_S128,
    binary main_v297 main_v299 main_v310 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v301 main_v311 (broadcastInDim S1x128 ![1] bcast_S128_S1x128_1 : (⟨S128, .f32⟩ : BufTy).Contents (Elt F) → (⟨S1x128, .f32⟩ : BufTy).Contents (Elt F)),
    unary main_v311 main_v312 (broadcastInDim S100000x128 ![0, 1] bcast_S1x128_S100000x128_0_1 : (⟨S1x128, .f32⟩ : BufTy).Contents (Elt F) → (⟨S100000x128, .f32⟩ : BufTy).Contents (Elt F)),
    binary main_v310 main_v312 main_v313 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v313) (TRef.of (T := ⟨S100000x128, .f32⟩) main_call10_v0) (TRef.of (T := ⟨S100000x128, .f32⟩) main_v314) maximumf,
    unary main_v307 main_v315 (broadcastInDim S1x128 ![1] bcast_S128_S1x128_1 : (⟨S128, .f32⟩ : BufTy).Contents (Elt F) → (⟨S1x128, .f32⟩ : BufTy).Contents (Elt F)),
    unary main_v315 main_v316 (broadcastInDim S100000x128 ![0, 1] bcast_S1x128_S100000x128_0_1 : (⟨S1x128, .f32⟩ : BufTy).Contents (Elt F) → (⟨S100000x128, .f32⟩ : BufTy).Contents (Elt F)),
    binary main_v314 main_v316 main_v317 (subf : (⟨S100000x128, .f32⟩ : BufTy).Contents (Elt F) → (⟨S100000x128, .f32⟩ : BufTy).Contents (Elt F) → (⟨S100000x128, .f32⟩ : BufTy).Contents (Elt F)),
    nullary main_cst_47 (constant S_ .f32 0x3727C5AC#32),
    unary main_cst_47 main_v318 (broadcastInDim S128 ![] bcast_S_S128 : (⟨S_, .f32⟩ : BufTy).Contents (Elt F) → (⟨S128, .f32⟩ : BufTy).Contents (Elt F)),
    binary main_v309 main_v318 main_v319 (addf : (⟨S128, .f32⟩ : BufTy).Contents (Elt F) → (⟨S128, .f32⟩ : BufTy).Contents (Elt F) → (⟨S128, .f32⟩ : BufTy).Contents (Elt F)),
    unary main_v319 main_v320 (Host.sqrt : (⟨S128, .f32⟩ : BufTy).Contents (Elt F) → (⟨S128, .f32⟩ : BufTy).Contents (Elt F)),
    binary main_v303 main_v320 main_v321 (Host.divf : (⟨S128, .f32⟩ : BufTy).Contents (Elt F) → (⟨S128, .f32⟩ : BufTy).Contents (Elt F) → (⟨S128, .f32⟩ : BufTy).Contents (Elt F)),
    unary main_v321 main_v322 (broadcastInDim S1x128 ![1] bcast_S128_S1x128_1 : (⟨S128, .f32⟩ : BufTy).Contents (Elt F) → (⟨S1x128, .f32⟩ : BufTy).Contents (Elt F)),
    unary main_v322 main_v323 (broadcastInDim S100000x128 ![0, 1] bcast_S1x128_S100000x128_0_1 : (⟨S1x128, .f32⟩ : BufTy).Contents (Elt F) → (⟨S100000x128, .f32⟩ : BufTy).Contents (Elt F)),
    binary main_v317 main_v323 main_v324 (mulf : (⟨S100000x128, .f32⟩ : BufTy).Contents (Elt F) → (⟨S100000x128, .f32⟩ : BufTy).Contents (Elt F) → (⟨S100000x128, .f32⟩ : BufTy).Contents (Elt F)),
    unary main_v305 main_v325 (broadcastInDim S1x128 ![1] bcast_S128_S1x128_1 : (⟨S128, .f32⟩ : BufTy).Contents (Elt F) → (⟨S1x128, .f32⟩ : BufTy).Contents (Elt F)),
    unary main_v325 main_v326 (broadcastInDim S100000x128 ![0, 1] bcast_S1x128_S100000x128_0_1 : (⟨S1x128, .f32⟩ : BufTy).Contents (Elt F) → (⟨S100000x128, .f32⟩ : BufTy).Contents (Elt F)),
    binary main_v324 main_v326 main_v327 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x128, .f32⟩) main_call11_v0) (broadcastInDim S100000x128 ![] bcast_S_S100000x128),
    TRef.binary (TRef.of (T := ⟨S100000x128, .f32⟩) main_v327) (TRef.of (T := ⟨S100000x128, .f32⟩) main_call11_v0) (TRef.of (T := ⟨S100000x128, .f32⟩) main_v328) maximumf ]

set_option maxHeartbeats 40000000 in
/-- Operations 404 … 452: the last graph convolution up to the scaled gathered rows `main_v368` (and the target-node index `main_v336`). -/
abbrev ops9 : List (HloOp τ sig (Elt F)) :=
  [ binary main_v328 main_v45 main_v329 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    nullary main_v330 (iotaInDim S100000 32 0),
    unary main_arg1 main_v331 ((extractStridedSlice S1x1600000 ![0, 0] · slices_S2x1600000_S1x1600000_0_0) : (⟨S2x1600000, .i32⟩ : BufTy).Contents (Elt F) → (⟨S1x1600000, .i32⟩ : BufTy).Contents (Elt F)),
    reshape main_v331 main_v332 rfl shapeCasts_S1x1600000_S1600000,
    binary main_v332 main_v330 main_v333 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v334 ((extractStridedSlice S1x1600000 ![1, 0] · slices_S2x1600000_S1x1600000_1_0) : (⟨S2x1600000, .i32⟩ : BufTy).Contents (Elt F) → (⟨S1x1600000, .i32⟩ : BufTy).Contents (Elt F)),
    reshape main_v334 main_v335 rfl shapeCasts_S1x1600000_S1600000,
    binary main_v335 main_v330 main_v336 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_48 (constant S_ .f32 0x3F800000#32),
    unary main_cst_48 main_v337 (broadcastInDim S1700000 ![] bcast_S_S1700000 : (⟨S_, .f32⟩ : BufTy).Contents (Elt F) → (⟨S1700000, .f32⟩ : BufTy).Contents (Elt F)),
    nullary main_cst_49 (constant S_ .f32 0x00000000#32),
    unary main_cst_49 main_v338 (broadcastInDim S100000 ![] bcast_S_S100000 : (⟨S_, .f32⟩ : BufTy).Contents (Elt F) → (⟨S100000, .f32⟩ : BufTy).Contents (Elt F)),
    unary main_v336 main_v339 (broadcastInDim S1700000x1 ![0] bcast_S1700000_S1700000x1_0 : (⟨S1700000, .i32⟩ : BufTy).Contents (Elt F) → (⟨S1700000x1, .i32⟩ : BufTy).Contents (Elt F)),
    ternary main_v338 main_v339 main_v337 main_v340 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_50 (constant S_ .f32 0xBF000000#32),
    unary main_cst_50 main_v341 (broadcastInDim S100000 ![] bcast_S_S100000 : (⟨S_, .f32⟩ : BufTy).Contents (Elt F) → (⟨S100000, .f32⟩ : BufTy).Contents (Elt F)),
    binary main_v340 main_v341 main_v342 (Host.powf : (⟨S100000, .f32⟩ : BufTy).Contents (Elt F) → (⟨S100000, .f32⟩ : BufTy).Contents (Elt F) → (⟨S100000, .f32⟩ : BufTy).Contents (Elt F)),
    nullary main_c_51 (constantI S_ 32 0#32),
    unary main_c_51 main_v343 (broadcastInDim S1700000 ![] bcast_S_S1700000 : (⟨S_, .i32⟩ : BufTy).Contents (Elt F) → (⟨S1700000, .i32⟩ : BufTy).Contents (Elt F)),
    binary main_v333 main_v343 main_v344 (cmpi .slt : (⟨S1700000, .i32⟩ : BufTy).Contents (Elt F) → (⟨S1700000, .i32⟩ : BufTy).Contents (Elt F) → (⟨S1700000, .i1⟩ : BufTy).Contents (Elt F)),
    nullary main_c_52 (constantI S_ 32 100000#32),
    unary main_c_52 main_v345 (broadcastInDim S1700000 ![] bcast_S_S1700000 : (⟨S_, .i32⟩ : BufTy).Contents (Elt F) → (⟨S1700000, .i32⟩ : BufTy).Contents (Elt F)),
    binary main_v333 main_v345 main_v346 (addi : (⟨S1700000, .i32⟩ : BufTy).Contents (Elt F) → (⟨S1700000, .i32⟩ : BufTy).Contents (Elt F) → (⟨S1700000, .i32⟩ : BufTy).Contents (Elt F)),
    ternary main_v344 main_v346 main_v333 main_v347 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v347 main_v348 (broadcastInDim S1700000x1 ![0] bcast_S1700000_S1700000x1_0 : (⟨S1700000, .i32⟩ : BufTy).Contents (Elt F) → (⟨S1700000x1, .i32⟩ : BufTy).Contents (Elt F)),
    binary main_v342 main_v348 main_v349 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_53 (constantI S_ 32 0#32),
    unary main_c_53 main_v350 (broadcastInDim S1700000 ![] bcast_S_S1700000 : (⟨S_, .i32⟩ : BufTy).Contents (Elt F) → (⟨S1700000, .i32⟩ : BufTy).Contents (Elt F)),
    binary main_v336 main_v350 main_v351 (cmpi .slt : (⟨S1700000, .i32⟩ : BufTy).Contents (Elt F) → (⟨S1700000, .i32⟩ : BufTy).Contents (Elt F) → (⟨S1700000, .i1⟩ : BufTy).Contents (Elt F)),
    nullary main_c_54 (constantI S_ 32 100000#32),
    unary main_c_54 main_v352 (broadcastInDim S1700000 ![] bcast_S_S1700000 : (⟨S_, .i32⟩ : BufTy).Contents (Elt F) → (⟨S1700000, .i32⟩ : BufTy).Contents (Elt F)),
    binary main_v336 main_v352 main_v353 (addi : (⟨S1700000, .i32⟩ : BufTy).Contents (Elt F) → (⟨S1700000, .i32⟩ : BufTy).Contents (Elt F) → (⟨S1700000, .i32⟩ : BufTy).Contents (Elt F)),
    ternary main_v351 main_v353 main_v336 main_v354 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v354 main_v355 (broadcastInDim S1700000x1 ![0] bcast_S1700000_S1700000x1_0 : (⟨S1700000, .i32⟩ : BufTy).Contents (Elt F) → (⟨S1700000x1, .i32⟩ : BufTy).Contents (Elt F)),
    binary main_v342 main_v355 main_v356 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v349 main_v356 main_v357 (mulf : (⟨S1700000, .f32⟩ : BufTy).Contents (Elt F) → (⟨S1700000, .f32⟩ : BufTy).Contents (Elt F) → (⟨S1700000, .f32⟩ : BufTy).Contents (Elt F)),
    binary main_v329 main_arg14 main_v358 ((fun l r => Host.dotGeneral dot_S100000x256_S256x10_S100000x10_1_0_0_1_n_n none l r) : (⟨S100000x256, .f32⟩ : BufTy).Contents (Elt F) → (⟨S256x10, .f32⟩ : BufTy).Contents (Elt F) → (⟨S100000x10, .f32⟩ : BufTy).Contents (Elt F)),
    unary main_v357 main_v359 (broadcastInDim S1700000x1 ![0] bcast_S1700000_S1700000x1_0 : (⟨S1700000, .f32⟩ : BufTy).Contents (Elt F) → (⟨S1700000x1, .f32⟩ : BufTy).Contents (Elt F)),
    nullary main_c_55 (constantI S_ 32 0#32),
    unary main_c_55 main_v360 (broadcastInDim S1700000 ![] bcast_S_S1700000 : (⟨S_, .i32⟩ : BufTy).Contents (Elt F) → (⟨S1700000, .i32⟩ : BufTy).Contents (Elt F)),
    binary main_v333 main_v360 main_v361 (cmpi .slt : (⟨S1700000, .i32⟩ : BufTy).Contents (Elt F) → (⟨S1700000, .i32⟩ : BufTy).Contents (Elt F) → (⟨S1700000, .i1⟩ : BufTy).Contents (Elt F)),
    nullary main_c_56 (constantI S_ 32 100000#32),
    unary main_c_56 main_v362 (broadcastInDim S1700000 ![] bcast_S_S1700000 : (⟨S_, .i32⟩ : BufTy).Contents (Elt F) → (⟨S1700000, .i32⟩ : BufTy).Contents (Elt F)),
    binary main_v333 main_v362 main_v363 (addi : (⟨S1700000, .i32⟩ : BufTy).Contents (Elt F) → (⟨S1700000, .i32⟩ : BufTy).Contents (Elt F) → (⟨S1700000, .i32⟩ : BufTy).Contents (Elt F)),
    ternary main_v361 main_v363 main_v333 main_v364 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v364 main_v365 (broadcastInDim S1700000x1 ![0] bcast_S1700000_S1700000x1_0 : (⟨S1700000, .i32⟩ : BufTy).Contents (Elt F) → (⟨S1700000x1, .i32⟩ : BufTy).Contents (Elt F)),
    binary main_v358 main_v365 main_v366 ((fun x i => Host.gather gather_S100000x10_S1700000x1_S1700000x10_1_0_n_n_0_1_110 x i) : (⟨S100000x10, .f32⟩ : BufTy).Contents (Elt F) → (⟨S1700000x1, .i32⟩ : BufTy).Contents (Elt F) → (⟨S1700000x10, .f32⟩ : BufTy).Contents (Elt F)),
    unary main_v359 main_v367 (broadcastInDim S1700000x10 ![0, 1] bcast_S1700000x1_S1700000x10_0_1 : (⟨S1700000x1, .f32⟩ : BufTy).Contents (Elt F) → (⟨S1700000x10, .f32⟩ : BufTy).Contents (Elt F)),
    binary main_v367 main_v366 main_v368 (mulf : (⟨S1700000x10, .f32⟩ : BufTy).Contents (Elt F) → (⟨S1700000x10, .f32⟩ : BufTy).Contents (Elt F) → (⟨S1700000x10, .f32⟩ : BufTy).Contents (Elt F)) ]

set_option maxHeartbeats 40000000 in
/-- Operations 453 … 474: the last scatter-add, the last bias and the log-softmax, up to the result `main_v375`. -/
abbrev ops10 : List (HloOp τ sig (Elt F)) :=
  [ nullary main_cst_57 (constant S_ .f32 0x00000000#32),
    unary main_cst_57 main_v369 (broadcastInDim S100000x10 ![] bcast_S_S100000x10 : (⟨S_, .f32⟩ : BufTy).Contents (Elt F) → (⟨S100000x10, .f32⟩ : BufTy).Contents (Elt F)),
    unary main_v336 main_v370 (broadcastInDim S1700000x1 ![0] bcast_S1700000_S1700000x1_0 : (⟨S1700000, .i32⟩ : BufTy).Contents (Elt F) → (⟨S1700000x1, .i32⟩ : BufTy).Contents (Elt F)),
    ternary main_v369 main_v370 main_v368 main_v371 ((fun x i u => Host.scatterAdd scatter_S100000x10_S1700000x1_S1700000x10_1_0_0_1 x i u) : (⟨S100000x10, .f32⟩ : BufTy).Contents (Elt F) → (⟨S1700000x1, .i32⟩ : BufTy).Contents (Elt F) → (⟨S1700000x10, .f32⟩ : BufTy).Contents (Elt F) → (⟨S100000x10, .f32⟩ : BufTy).Contents (Elt F)),
    unary main_arg15 main_v372 (broadcastInDim S1x10 ![1] bcast_S10_S1x10_1 : (⟨S10, .f32⟩ : BufTy).Contents (Elt F) → (⟨S1x10, .f32⟩ : BufTy).Contents (Elt F)),
    unary main_v372 main_v373 (broadcastInDim S100000x10 ![0, 1] bcast_S1x10_S100000x10_0_1 : (⟨S1x10, .f32⟩ : BufTy).Contents (Elt F) → (⟨S100000x10, .f32⟩ : BufTy).Contents (Elt F)),
    binary main_v371 main_v373 main_v374 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call12_cst) (constant S_ .f32 0xFF800000#32),
    TRef.binary (TRef.of (T := ⟨S100000x10, .f32⟩) main_v374) (TRef.of (T := ⟨S_, .f32⟩) main_call12_cst) (TRef.of (T := ⟨S100000, .f32⟩) main_call12_v0) (fun x v => Host.reduce FloatOps.maximumf x v reducesTo_S100000x10_S100000_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S100000, .f32⟩) main_call12_v1) (broadcastInDim S100000 ![] bcast_S_S100000),
    TRef.binary (TRef.of (T := ⟨S100000, .f32⟩) main_call12_v1) (TRef.of (T := ⟨S100000, .f32⟩) main_call12_v0) (TRef.of (T := ⟨S100000, .f32⟩) main_call12_v2) maximumf,
    TRef.unary (TRef.of (T := ⟨S100000, .f32⟩) main_call12_v2) (TRef.of (T := ⟨S100000x1, .f32⟩) main_call12_v3) (broadcastInDim S100000x1 ![0] bcast_S100000_S100000x1_0),
    TRef.unary (TRef.of (T := ⟨S100000x1, .f32⟩) main_call12_v3) (TRef.of (T := ⟨S100000x10, .f32⟩) main_call12_v4) (broadcastInDim S100000x10 ![0, 1] bcast_S100000x1_S100000x10_0_1),
    TRef.binary (TRef.of (T := ⟨S100000x10, .f32⟩) main_v374) (TRef.of (T := ⟨S100000x10, .f32⟩) main_call12_v4) (TRef.of (T := ⟨S100000x10, .f32⟩) main_call12_v5) subf,
    TRef.unary (TRef.of (T := ⟨S100000x10, .f32⟩) main_call12_v5) (TRef.of (T := ⟨S100000x10, .f32⟩) main_call12_v6) Host.exp,
    TRef.nullary (TRef.of (T := ⟨S_, .f32⟩) main_call12_cst_1) (constant S_ .f32 0x00000000#32),
    TRef.binary (TRef.of (T := ⟨S100000x10, .f32⟩) main_call12_v6) (TRef.of (T := ⟨S_, .f32⟩) main_call12_cst_1) (TRef.of (T := ⟨S100000, .f32⟩) main_call12_v7) (fun x v => Host.reduceAdd x v reducesTo_S100000x10_S100000_d1 h_S_),
    TRef.unary (TRef.of (T := ⟨S100000, .f32⟩) main_call12_v7) (TRef.of (T := ⟨S100000x1, .f32⟩) main_call12_v8) (broadcastInDim S100000x1 ![0] bcast_S100000_S100000x1_0),
    TRef.unary (TRef.of (T := ⟨S100000x1, .f32⟩) main_call12_v8) (TRef.of (T := ⟨S100000x1, .f32⟩) main_call12_v9) Host.log,
    TRef.unary (TRef.of (T := ⟨S100000x1, .f32⟩) main_call12_v9) (TRef.of (T := ⟨S100000x10, .f32⟩) main_call12_v10) (broadcastInDim S100000x10 ![0, 1] bcast_S100000x1_S100000x10_0_1),
    TRef.binary (TRef.of (T := ⟨S100000x10, .f32⟩) main_call12_v5) (TRef.of (T := ⟨S100000x10, .f32⟩) main_call12_v10) (TRef.of (T := ⟨S100000x10, .f32⟩) main_v375) subf ]

set_option maxRecDepth 1000000 in
set_option maxHeartbeats 40000000 in
/-- The program's operation list is the eleven runs in order. -/
theorem ops_split : (Cert.ReferenceIdeal.Value.ops : List (HloOp τ sig (Elt F))) =
    ops0 ++ (ops1 ++ (ops2 ++ (ops3 ++ (ops4 ++ (ops5 ++ (ops6 ++ (ops7 ++ (ops8 ++ (ops9 ++ ops10))))))))) := rfl

end Cert.ReferenceIdeal.Chunks

end
-- ==== Proof.KeepTac.lean ====
/-
  A buffer that no operation of a stretch writes: the stretch's operations each write one buffer, and the
  buffer in question is none of them, decided reference by reference.
-/
import Idealize.ShloMosaic.Lib.StableHlo.Run

open Idealize.ShloMosaic

/-- No operation of the listed stretch writes the buffer: each operation's written buffer is another one. -/
macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefChunk0.lean ====
/-
  The first run of the reference's operations: the first graph convolution's matrix product and the gathered rows scaled by the edge normalisation. From any buffer contents `W`: each stage it completes is the stage's function of the
  argument buffers as `W` has them; the argument buffers
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk0

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- A stage this run completes: `main_v38`. -/
theorem out38 (W : Valuation τ sig (Elt Ideal)) :
    (after (ops0 (F := Ideal)) W (Proc.devRef .tc main_v38) : (⟨S1700000x128, .f32⟩ : BufTy).Contents (Elt Ideal)) = val_main_v38 (F := Ideal) (W (Proc.devRef .tc main_arg0)) (W (Proc.devRef .tc main_arg1)) (W (Proc.devRef .tc main_arg6)) := by
  after_results_simp
  rfl

set_option maxHeartbeats 40000000 in
/-- A stage this run completes: `main_v6`. -/
theorem out6 (W : Valuation τ sig (Elt Ideal)) :
    (after (ops0 (F := Ideal)) W (Proc.devRef .tc main_v6) : (⟨S1700000, .i32⟩ : BufTy).Contents (Elt Ideal)) = val_main_v6 (F := Ideal) (W (Proc.devRef .tc main_arg1)) := by
  after_results_simp
  rfl

/-! The buffers this run does not write. -/
theorem arg0 (W : Valuation τ sig (Elt Ideal)) : after (ops0 (F := Ideal)) W (Proc.devRef .tc main_arg0) = W (Proc.devRef .tc main_arg0) :=
  after_of_forall_not_mem (b := Proc.devRef .tc main_arg0) _ _ (by not_written ops0)
theorem arg1 (W : Valuation τ sig (Elt Ideal)) : after (ops0 (F := Ideal)) W (Proc.devRef .tc main_arg1) = W (Proc.devRef .tc main_arg1) :=
  after_of_forall_not_mem (b := Proc.devRef .tc main_arg1) _ _ (by not_written ops0)
theorem arg2 (W : Valuation τ sig (Elt Ideal)) : after (ops0 (F := Ideal)) W (Proc.devRef .tc main_arg2) = W (Proc.devRef .tc main_arg2) :=
  after_of_forall_not_mem (b := Proc.devRef .tc main_arg2) _ _ (by not_written ops0)
theorem arg3 (W : Valuation τ sig (Elt Ideal)) : after (ops0 (F := Ideal)) W (Proc.devRef .tc main_arg3) = W (Proc.devRef .tc main_arg3) :=
  after_of_forall_not_mem (b := Proc.devRef .tc main_arg3) _ _ (by not_written ops0)
theorem arg4 (W : Valuation τ sig (Elt Ideal)) : after (ops0 (F := Ideal)) W (Proc.devRef .tc main_arg4) = W (Proc.devRef .tc main_arg4) :=
  after_of_forall_not_mem (b := Proc.devRef .tc main_arg4) _ _ (by not_written ops0)
theorem arg5 (W : Valuation τ sig (Elt Ideal)) : after (ops0 (F := Ideal)) W (Proc.devRef .tc main_arg5) = W (Proc.devRef .tc main_arg5) :=
  after_of_forall_not_mem (b := Proc.devRef .tc main_arg5) _ _ (by not_written ops0)
theorem arg6 (W : Valuation τ sig (Elt Ideal)) : after (ops0 (F := Ideal)) W (Proc.devRef .tc main_arg6) = W (Proc.devRef .tc main_arg6) :=
  after_of_forall_not_mem (b := Proc.devRef .tc main_arg6) _ _ (by not_written ops0)
theorem arg7 (W : Valuation τ sig (Elt Ideal)) : after (ops0 (F := Ideal)) W (Proc.devRef .tc main_arg7) = W (Proc.devRef .tc main_arg7) :=
  after_of_forall_not_mem (b := Proc.devRef .tc main_arg7) _ _ (by not_written ops0)
theorem arg8 (W : Valuation τ sig (Elt Ideal)) : after (ops0 (F := Ideal)) W (Proc.devRef .tc main_arg8) = W (Proc.devRef .tc main_arg8) :=
  after_of_forall_not_mem (b := Proc.devRef .tc main_arg8) _ _ (by not_written ops0)
theorem arg9 (W : Valuation τ sig (Elt Ideal)) : after (ops0 (F := Ideal)) W (Proc.devRef .tc main_arg9) = W (Proc.devRef .tc main_arg9) :=
  after_of_forall_not_mem (b := Proc.devRef .tc main_arg9) _ _ (by not_written ops0)
theorem arg10 (W : Valuation τ sig (Elt Ideal)) : after (ops0 (F := Ideal)) W (Proc.devRef .tc main_arg10) = W (Proc.devRef .tc main_arg10) :=
  after_of_forall_not_mem (b := Proc.devRef .tc main_arg10) _ _ (by not_written ops0)
theorem arg11 (W : Valuation τ sig (Elt Ideal)) : after (ops0 (F := Ideal)) W (Proc.devRef .tc main_arg11) = W (Proc.devRef .tc main_arg11) :=
  after_of_forall_not_mem (b := Proc.devRef .tc main_arg11) _ _ (by not_written ops0)
theorem arg12 (W : Valuation τ sig (Elt Ideal)) : after (ops0 (F := Ideal)) W (Proc.devRef .tc main_arg12) = W (Proc.devRef .tc main_arg12) :=
  after_of_forall_not_mem (b := Proc.devRef .tc main_arg12) _ _ (by not_written ops0)
theorem arg13 (W : Valuation τ sig (Elt Ideal)) : after (ops0 (F := Ideal)) W (Proc.devRef .tc main_arg13) = W (Proc.devRef .tc main_arg13) :=
  after_of_forall_not_mem (b := Proc.devRef .tc main_arg13) _ _ (by not_written ops0)
theorem arg14 (W : Valuation τ sig (Elt Ideal)) : after (ops0 (F := Ideal)) W (Proc.devRef .tc main_arg14) = W (Proc.devRef .tc main_arg14) :=
  after_of_forall_not_mem (b := Proc.devRef .tc main_arg14) _ _ (by not_written ops0)
theorem arg15 (W : Valuation τ sig (Elt Ideal)) : after (ops0 (F := Ideal)) W (Proc.devRef .tc main_arg15) = W (Proc.devRef .tc main_arg15) :=
  after_of_forall_not_mem (b := Proc.devRef .tc main_arg15) _ _ (by not_written ops0)
theorem arg16 (W : Valuation τ sig (Elt Ideal)) : after (ops0 (F := Ideal)) W (Proc.devRef .tc main_arg16) = W (Proc.devRef .tc main_arg16) :=
  after_of_forall_not_mem (b := Proc.devRef .tc main_arg16) _ _ (by not_written ops0)
theorem arg17 (W : Valuation τ sig (Elt Ideal)) : after (ops0 (F := Ideal)) W (Proc.devRef .tc main_arg17) = W (Proc.devRef .tc main_arg17) :=
  after_of_forall_not_mem (b := Proc.devRef .tc main_arg17) _ _ (by not_written ops0)
theorem arg18 (W : Valuation τ sig (Elt Ideal)) : after (ops0 (F := Ideal)) W (Proc.devRef .tc main_arg18) = W (Proc.devRef .tc main_arg18) :=
  after_of_forall_not_mem (b := Proc.devRef .tc main_arg18) _ _ (by not_written ops0)
theorem arg19 (W : Valuation τ sig (Elt Ideal)) : after (ops0 (F := Ideal)) W (Proc.devRef .tc main_arg19) = W (Proc.devRef .tc main_arg19) :=
  after_of_forall_not_mem (b := Proc.devRef .tc main_arg19) _ _ (by not_written ops0)
theorem arg20 (W : Valuation τ sig (Elt Ideal)) : after (ops0 (F := Ideal)) W (Proc.devRef .tc main_arg20) = W (Proc.devRef .tc main_arg20) :=
  after_of_forall_not_mem (b := Proc.devRef .tc main_arg20) _ _ (by not_written ops0)
theorem arg21 (W : Valuation τ sig (Elt Ideal)) : after (ops0 (F := Ideal)) W (Proc.devRef .tc main_arg21) = W (Proc.devRef .tc main_arg21) :=
  after_of_forall_not_mem (b := Proc.devRef .tc main_arg21) _ _ (by not_written ops0)

/-- Every operation of the run determines its result. -/
theorem fresh : (ops0 : List (HloOp τ sig (Elt Ideal))).Forall fun op => op.fresh = ∅ := by
  all_fresh ops0

end Cert.ReferenceIdeal.Chunk0

end
-- ==== Proof.RefChunk1.lean ====
/-
  The second run of the reference's operations: the first graph convolution's scatter-add by target node, bias and rectifier. From any buffer contents `W`: each stage it completes is the stage's function of the
  argument buffers as `W` has them, given that the earlier stages it reads are already there; the argument buffers
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk1

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

-- the comparison below is structural: the big array operations are not to be opened
seal Host.scatterAdd val_main_v38 val_main_v6

/-- Contents moved to a typed reference's buffer and back are unchanged. -/
theorem ofBuf_toBuf {T : BufTy} (x : TRef sig T) (v : T.Contents (Elt Ideal)) : x.ofBuf (x.toBuf v) = v := by
  simp only [TRef.ofBuf, TRef.toBuf, cast_cast, cast_eq]

set_option maxHeartbeats 40000000 in
/-- A stage this run completes: `main_v45`. -/
theorem out (W : Valuation τ sig (Elt Ideal))
    (h38 : (W (Proc.devRef .tc main_v38) : (⟨S1700000x128, .f32⟩ : BufTy).Contents (Elt Ideal)) = val_main_v38 (F := Ideal) (W (Proc.devRef .tc main_arg0)) (W (Proc.devRef .tc main_arg1)) (W (Proc.devRef .tc main_arg6)))
    (h6 : (W (Proc.devRef .tc main_v6) : (⟨S1700000, .i32⟩ : BufTy).Contents (Elt Ideal)) = val_main_v6 (F := Ideal) (W (Proc.devRef .tc main_arg1))) :
    (after (ops1 (F := Ideal)) W (Proc.devRef .tc main_v45) : (⟨S100000x128, .f32⟩ : BufTy).Contents (Elt Ideal)) = val_main_v45 (F := Ideal) (W (Proc.devRef .tc main_arg0)) (W (Proc.devRef .tc main_arg1)) (W (Proc.devRef .tc main_arg6)) (W (Proc.devRef .tc main_arg7)) := by
  after_results_simp
  rw [h38, h6]
  -- the call's values pass through their buffers and back unchanged
  simp only [ofBuf_toBuf]
  -- the stage on the right, written out down to the stages this run starts from: the same operations of the same operands
  unfold val_main_v45 val_main_v44 val_main_v41 val_main_v39 val_main_cst_7 val_main_v40 val_main_v43 val_main_v42 val_main_call0_v0 val_main_call0_cst
  -- the two remaining moves between a value's type and its buffer's type are the identity
  refine cast_eq_iff_heq.mpr (heq_of_eq ?_)
  refine congrArg (fun a => maximumf a _) ?_
  exact cast_eq_iff_heq.mpr HEq.rfl

/-! The buffers this run does not write. -/
theorem arg0 (W : Valuation τ sig (Elt Ideal)) : after (ops1 (F := Ideal)) W (Proc.devRef .tc main_arg0) = W (Proc.devRef .tc main_arg0) :=
  after_of_forall_not_mem (b := Proc.devRef .tc main_arg0) _ _ (by not_written ops1)
theorem arg1 (W : Valuation τ sig (Elt Ideal)) : after (ops1 (F := Ideal)) W (Proc.devRef .tc main_arg1) = W (Proc.devRef .tc main_arg1) :=
  after_of_forall_not_mem (b := Proc.devRef .tc main_arg1) _ _ (by not_written ops1)
theorem arg2 (W : Valuation τ sig (Elt Ideal)) : after (ops1 (F := Ideal)) W (Proc.devRef .tc main_arg2) = W (Proc.devRef .tc main_arg2) :=
  after_of_forall_not_mem (b := Proc.devRef .tc main_arg2) _ _ (by not_written ops1)
theorem arg3 (W : Valuation τ sig (Elt Ideal)) : after (ops1 (F := Ideal)) W (Proc.devRef .tc main_arg3) = W (Proc.devRef .tc main_arg3) :=
  after_of_forall_not_mem (b := Proc.devRef .tc main_arg3) _ _ (by not_written ops1)
theorem arg4 (W : Valuation τ sig (Elt Ideal)) : after (ops1 (F := Ideal)) W (Proc.devRef .tc main_arg4) = W (Proc.devRef .tc main_arg4) :=
  after_of_forall_not_mem (b := Proc.devRef .tc main_arg4) _ _ (by not_written ops1)
theorem arg5 (W : Valuation τ sig (Elt Ideal)) : after (ops1 (F := Ideal)) W (Proc.devRef .tc main_arg5) = W (Proc.devRef .tc main_arg5) :=
  after_of_forall_not_mem (b := Proc.devRef .tc main_arg5) _ _ (by not_written ops1)
theorem arg6 (W : Valuation τ sig (Elt Ideal)) : after (ops1 (F := Ideal)) W (Proc.devRef .tc main_arg6) = W (Proc.devRef .tc main_arg6) :=
  after_of_forall_not_mem (b := Proc.devRef .tc main_arg6) _ _ (by not_written ops1)
theorem arg7 (W : Valuation τ sig (Elt Ideal)) : after (ops1 (F := Ideal)) W (Proc.devRef .tc main_arg7) = W (Proc.devRef .tc main_arg7) :=
  after_of_forall_not_mem (b := Proc.devRef .tc main_arg7) _ _ (by not_written ops1)
theorem arg8 (W : Valuation τ sig (Elt Ideal)) : after (ops1 (F := Ideal)) W (Proc.devRef .tc main_arg8) = W (Proc.devRef .tc main_arg8) :=
  after_of_forall_not_mem (b := Proc.devRef .tc main_arg8) _ _ (by not_written ops1)
theorem arg9 (W : Valuation τ sig (Elt Ideal)) : after (ops1 (F := Ideal)) W (Proc.devRef .tc main_arg9) = W (Proc.devRef .tc main_arg9) :=
  after_of_forall_not_mem (b := Proc.devRef .tc main_arg9) _ _ (by not_written ops1)
theorem arg10 (W : Valuation τ sig (Elt Ideal)) : after (ops1 (F := Ideal)) W (Proc.devRef .tc main_arg10) = W (Proc.devRef .tc main_arg10) :=
  after_of_forall_not_mem (b := Proc.devRef .tc main_arg10) _ _ (by not_written ops1)
theorem arg11 (W : Valuation τ sig (Elt Ideal)) : after (ops1 (F := Ideal)) W (Proc.devRef .tc main_arg11) = W (Proc.devRef .tc main_arg11) :=
  after_of_forall_not_mem (b := Proc.devRef .tc main_arg11) _ _ (by not_written ops1)
theorem arg12 (W : Valuation τ sig (Elt Ideal)) : after (ops1 (F := Ideal)) W (Proc.devRef .tc main_arg12) = W (Proc.devRef .tc main_arg12) :=
  after_of_forall_not_mem (b := Proc.devRef .tc main_arg12) _ _ (by not_written ops1)
theorem arg13 (W : Valuation τ sig (Elt Ideal)) : after (ops1 (F := Ideal)) W (Proc.devRef .tc main_arg13) = W (Proc.devRef .tc main_arg13) :=
  after_of_forall_not_mem (b := Proc.devRef .tc main_arg13) _ _ (by not_written ops1)
theorem arg14 (W : Valuation τ sig (Elt Ideal)) : after (ops1 (F := Ideal)) W (Proc.devRef .tc main_arg14) = W (Proc.devRef .tc main_arg14) :=
  after_of_forall_not_mem (b := Proc.devRef .tc main_arg14) _ _ (by not_written ops1)
theorem arg15 (W : Valuation τ sig (Elt Ideal)) : after (ops1 (F := Ideal)) W (Proc.devRef .tc main_arg15) = W (Proc.devRef .tc main_arg15) :=
  after_of_forall_not_mem (b := Proc.devRef .tc main_arg15) _ _ (by not_written ops1)
theorem arg16 (W : Valuation τ sig (Elt Ideal)) : after (ops1 (F := Ideal)) W (Proc.devRef .tc main_arg16) = W (Proc.devRef .tc main_arg16) :=
  after_of_forall_not_mem (b := Proc.devRef .tc main_arg16) _ _ (by not_written ops1)
theorem arg17 (W : Valuation τ sig (Elt Ideal)) : after (ops1 (F := Ideal)) W (Proc.devRef .tc main_arg17) = W (Proc.devRef .tc main_arg17) :=
  after_of_forall_not_mem (b := Proc.devRef .tc main_arg17) _ _ (by not_written ops1)
theorem arg18 (W : Valuation τ sig (Elt Ideal)) : after (ops1 (F := Ideal)) W (Proc.devRef .tc main_arg18) = W (Proc.devRef .tc main_arg18) :=
  after_of_forall_not_mem (b := Proc.devRef .tc main_arg18) _ _ (by not_written ops1)
theorem arg19 (W : Valuation τ sig (Elt Ideal)) : after (ops1 (F := Ideal)) W (Proc.devRef .tc main_arg19) = W (Proc.devRef .tc main_arg19) :=
  after_of_forall_not_mem (b := Proc.devRef .tc main_arg19) _ _ (by not_written ops1)
theorem arg20 (W : Valuation τ sig (Elt Ideal)) : after (ops1 (F := Ideal)) W (Proc.devRef .tc main_arg20) = W (Proc.devRef .tc main_arg20) :=
  after_of_forall_not_mem (b := Proc.devRef .tc main_arg20) _ _ (by not_written ops1)
theorem arg21 (W : Valuation τ sig (Elt Ideal)) : after (ops1 (F := Ideal)) W (Proc.devRef .tc main_arg21) = W (Proc.devRef .tc main_arg21) :=
  after_of_forall_not_mem (b := Proc.devRef .tc main_arg21) _ _ (by not_written ops1)

/-- Every operation of the run determines its result. -/
theorem fresh : (ops1 : List (HloOp τ sig (Elt Ideal))).Forall fun op => op.fresh = ∅ := by
  all_fresh ops1

end Cert.ReferenceIdeal.Chunk1

end
-- ==== Proof.RefChunk2.lean ====
/-
  Run 2 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk2

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h45 : (W (Proc.devRef .tc main_v45) : FVec Ideal S100000x128 .f32) = val_main_v45 (F := Ideal) (W (Proc.devRef .tc main_arg0)) (W (Proc.devRef .tc main_arg1)) (W (Proc.devRef .tc main_arg6)) (W (Proc.devRef .tc main_arg7))) :
    (after (ops2 (F := Ideal)) W (Proc.devRef .tc main_v79) : FVec Ideal S20000x128 .f32) = val_main_v79 (F := Ideal) (W (Proc.devRef .tc main_arg0)) (W (Proc.devRef .tc main_arg1)) (W (Proc.devRef .tc main_arg4)) (W (Proc.devRef .tc main_arg6)) (W (Proc.devRef .tc main_arg7)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h45]
  rfl

/-! The buffers this run does not write. -/
theorem arg0 (W : Valuation τ sig (Elt Ideal)) : after (ops2 (F := Ideal)) W (Proc.devRef .tc main_arg0) = W (Proc.devRef .tc main_arg0) :=
  after_of_forall_not_mem (b := Proc.devRef .tc main_arg0) _ _ (by not_written ops2)
theorem arg1 (W : Valuation τ sig (Elt Ideal)) : after (ops2 (F := Ideal)) W (Proc.devRef .tc main_arg1) = W (Proc.devRef .tc main_arg1) :=
  after_of_forall_not_mem (b := Proc.devRef .tc main_arg1) _ _ (by not_written ops2)
theorem arg2 (W : Valuation τ sig (Elt Ideal)) : after (ops2 (F := Ideal)) W (Proc.devRef .tc main_arg2) = W (Proc.devRef .tc main_arg2) :=
  after_of_forall_not_mem (b := Proc.devRef .tc main_arg2) _ _ (by not_written ops2)
theorem arg3 (W : Valuation τ sig (Elt Ideal)) : after (ops2 (F := Ideal)) W (Proc.devRef .tc main_arg3) = W (Proc.devRef .tc main_arg3) :=
  after_of_forall_not_mem (b := Proc.devRef .tc main_arg3) _ _ (by not_written ops2)
theorem arg4 (W : Valuation τ sig (Elt Ideal)) : after (ops2 (F := Ideal)) W (Proc.devRef .tc main_arg4) = W (Proc.devRef .tc main_arg4) :=
  after_of_forall_not_mem (b := Proc.devRef .tc main_arg4) _ _ (by not_written ops2)
theorem arg5 (W : Valuation τ sig (Elt Ideal)) : after (ops2 (F := Ideal)) W (Proc.devRef .tc main_arg5) = W (Proc.devRef .tc main_arg5) :=
  after_of_forall_not_mem (b := Proc.devRef .tc main_arg5) _ _ (by not_written ops2)
theorem arg6 (W : Valuation τ sig (Elt Ideal)) : after (ops2 (F := Ideal)) W (Proc.devRef .tc main_arg6) = W (Proc.devRef .tc main_arg6) :=
  after_of_forall_not_mem (b := Proc.devRef .tc main_arg6) _ _ (by not_written ops2)
theorem arg7 (W : Valuation τ sig (Elt Ideal)) : after (ops2 (F := Ideal)) W (Proc.devRef .tc main_arg7) = W (Proc.devRef .tc main_arg7) :=
  after_of_forall_not_mem (b := Proc.devRef .tc main_arg7) _ _ (by not_written ops2)
theorem arg8 (W : Valuation τ sig (Elt Ideal)) : after (ops2 (F := Ideal)) W (Proc.devRef .tc main_arg8) = W (Proc.devRef .tc main_arg8) :=
  after_of_forall_not_mem (b := Proc.devRef .tc main_arg8) _ _ (by not_written ops2)
theorem arg9 (W : Valuation τ sig (Elt Ideal)) : after (ops2 (F := Ideal)) W (Proc.devRef .tc main_arg9) = W (Proc.devRef .tc main_arg9) :=
  after_of_forall_not_mem (b := Proc.devRef .tc main_arg9) _ _ (by not_written ops2)
theorem arg10 (W : Valuation τ sig (Elt Ideal)) : after (ops2 (F := Ideal)) W (Proc.devRef .tc main_arg10) = W (Proc.devRef .tc main_arg10) :=
  after_of_forall_not_mem (b := Proc.devRef .tc main_arg10) _ _ (by not_written ops2)
theorem arg11 (W : Valuation τ sig (Elt Ideal)) : after (ops2 (F := Ideal)) W (Proc.devRef .tc main_arg11) = W (Proc.devRef .tc main_arg11) :=
  after_of_forall_not_mem (b := Proc.devRef .tc main_arg11) _ _ (by not_written ops2)
theorem arg12 (W : Valuation τ sig (Elt Ideal)) : after (ops2 (F := Ideal)) W (Proc.devRef .tc main_arg12) = W (Proc.devRef .tc main_arg12) :=
  after_of_forall_not_mem (b := Proc.devRef .tc main_arg12) _ _ (by not_written ops2)
theorem arg13 (W : Valuation τ sig (Elt Ideal)) : after (ops2 (F := Ideal)) W (Proc.devRef .tc main_arg13) = W (Proc.devRef .tc main_arg13) :=
  after_of_forall_not_mem (b := Proc.devRef .tc main_arg13) _ _ (by not_written ops2)
theorem arg14 (W : Valuation τ sig (Elt Ideal)) : after (ops2 (F := Ideal)) W (Proc.devRef .tc main_arg14) = W (Proc.devRef .tc main_arg14) :=
  after_of_forall_not_mem (b := Proc.devRef .tc main_arg14) _ _ (by not_written ops2)
theorem arg15 (W : Valuation τ sig (Elt Ideal)) : after (ops2 (F := Ideal)) W (Proc.devRef .tc main_arg15) = W (Proc.devRef .tc main_arg15) :=
  after_of_forall_not_mem (b := Proc.devRef .tc main_arg15) _ _ (by not_written ops2)
theorem arg16 (W : Valuation τ sig (Elt Ideal)) : after (ops2 (F := Ideal)) W (Proc.devRef .tc main_arg16) = W (Proc.devRef .tc main_arg16) :=
  after_of_forall_not_mem (b := Proc.devRef .tc main_arg16) _ _ (by not_written ops2)
theorem arg17 (W : Valuation τ sig (Elt Ideal)) : after (ops2 (F := Ideal)) W (Proc.devRef .tc main_arg17) = W (Proc.devRef .tc main_arg17) :=
  after_of_forall_not_mem (b := Proc.devRef .tc main_arg17) _ _ (by not_written ops2)
theorem arg18 (W : Valuation τ sig (Elt Ideal)) : after (ops2 (F := Ideal)) W (Proc.devRef .tc main_arg18) = W (Proc.devRef .tc main_arg18) :=
  after_of_forall_not_mem (b := Proc.devRef .tc main_arg18) _ _ (by not_written ops2)
theorem arg19 (W : Valuation τ sig (Elt Ideal)) : after (ops2 (F := Ideal)) W (Proc.devRef .tc main_arg19) = W (Proc.devRef .tc main_arg19) :=
  after_of_forall_not_mem (b := Proc.devRef .tc main_arg19) _ _ (by not_written ops2)
theorem arg20 (W : Valuation τ sig (Elt Ideal)) : after (ops2 (F := Ideal)) W (Proc.devRef .tc main_arg20) = W (Proc.devRef .tc main_arg20) :=
  after_of_forall_not_mem (b := Proc.devRef .tc main_arg20) _ _ (by not_written ops2)
theorem arg21 (W : Valuation τ sig (Elt Ideal)) : after (ops2 (F := Ideal)) W (Proc.devRef .tc main_arg21) = W (Proc.devRef .tc main_arg21) :=
  after_of_forall_not_mem (b := Proc.devRef .tc main_arg21) _ _ (by not_written ops2)
theorem keep45 (W : Valuation τ sig (Elt Ideal)) : after (ops2 (F := Ideal)) W (Proc.devRef .tc main_v45) = W (Proc.devRef .tc main_v45) :=
  after_of_forall_not_mem (b := Proc.devRef .tc main_v45) _ _ (by not_written ops2)

/-- Every operation of the run determines its result. -/
theorem fresh : (ops2 : List (HloOp τ sig (Elt Ideal))).Forall fun op => op.fresh = ∅ := by
  all_fresh ops2

end Cert.ReferenceIdeal.Chunk2

end
-- ==== Proof.RefChunk3.lean ====
/-
  Run 3 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk3

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h79 : (W (Proc.devRef .tc main_v79) : FVec Ideal S20000x128 .f32) = val_main_v79 (F := Ideal) (W (Proc.devRef .tc main_arg0)) (W (Proc.devRef .tc main_arg1)) (W (Proc.devRef .tc main_arg4)) (W (Proc.devRef .tc main_arg6)) (W (Proc.devRef .tc main_arg7)) (W (Proc.devRef .tc main_arg16)) (W (Proc.devRef .tc main_arg17)) (W (Proc.devRef .tc main_arg18)) (W (Proc.devRef .tc main_arg19)) (W (Proc.devRef .tc main_arg20)) (W (Proc.devRef .tc main_arg21))) :
    (after (ops3 (F := Ideal)) W (Proc.devRef .tc main_v125) : FVec Ideal S20000x128 .f32) = val_main_v125 (F := Ideal) (W (Proc.devRef .tc main_arg0)) (W (Proc.devRef .tc main_arg1)) (W (Proc.devRef .tc main_arg2)) (W (Proc.devRef .tc main_arg4)) (W (Proc.devRef .tc main_arg6)) (W (Proc.devRef .tc main_arg7)) (W (Proc.devRef .tc main_arg8)) (W (Proc.devRef .tc main_arg9)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h79]
  rfl

/-! The buffers this run does not write. -/
theorem arg0 (W : Valuation τ sig (Elt Ideal)) : after (ops3 (F := Ideal)) W (Proc.devRef .tc main_arg0) = W (Proc.devRef .tc main_arg0) :=
  after_of_forall_not_mem (b := Proc.devRef .tc main_arg0) _ _ (by not_written ops3)
theorem arg1 (W : Valuation τ sig (Elt Ideal)) : after (ops3 (F := Ideal)) W (Proc.devRef .tc main_arg1) = W (Proc.devRef .tc main_arg1) :=
  after_of_forall_not_mem (b := Proc.devRef .tc main_arg1) _ _ (by not_written ops3)
theorem arg2 (W : Valuation τ sig (Elt Ideal)) : after (ops3 (F := Ideal)) W (Proc.devRef .tc main_arg2) = W (Proc.devRef .tc main_arg2) :=
  after_of_forall_not_mem (b := Proc.devRef .tc main_arg2) _ _ (by not_written ops3)
theorem arg3 (W : Valuation τ sig (Elt Ideal)) : after (ops3 (F := Ideal)) W (Proc.devRef .tc main_arg3) = W (Proc.devRef .tc main_arg3) :=
  after_of_forall_not_mem (b := Proc.devRef .tc main_arg3) _ _ (by not_written ops3)
theorem arg4 (W : Valuation τ sig (Elt Ideal)) : after (ops3 (F := Ideal)) W (Proc.devRef .tc main_arg4) = W (Proc.devRef .tc main_arg4) :=
  after_of_forall_not_mem (b := Proc.devRef .tc main_arg4) _ _ (by not_written ops3)
theorem arg5 (W : Valuation τ sig (Elt Ideal)) : after (ops3 (F := Ideal)) W (Proc.devRef .tc main_arg5) = W (Proc.devRef .tc main_arg5) :=
  after_of_forall_not_mem (b := Proc.devRef .tc main_arg5) _ _ (by not_written ops3)
theorem arg6 (W : Valuation τ sig (Elt Ideal)) : after (ops3 (F := Ideal)) W (Proc.devRef .tc main_arg6) = W (Proc.devRef .tc main_arg6) :=
  after_of_forall_not_mem (b := Proc.devRef .tc main_arg6) _ _ (by not_written ops3)
theorem arg7 (W : Valuation τ sig (Elt Ideal)) : after (ops3 (F := Ideal)) W (Proc.devRef .tc main_arg7) = W (Proc.devRef .tc main_arg7) :=
  after_of_forall_not_mem (b := Proc.devRef .tc main_arg7) _ _ (by not_written ops3)
theorem arg8 (W : Valuation τ sig (Elt Ideal)) : after (ops3 (F := Ideal)) W (Proc.devRef .tc main_arg8) = W (Proc.devRef .tc main_arg8) :=
  after_of_forall_not_mem (b := Proc.devRef .tc main_arg8) _ _ (by not_written ops3)
theorem arg9 (W : Valuation τ sig (Elt Ideal)) : after (ops3 (F := Ideal)) W (Proc.devRef .tc main_arg9) = W (Proc.devRef .tc main_arg9) :=
  after_of_forall_not_mem (b := Proc.devRef .tc main_arg9) _ _ (by not_written ops3)
theorem arg10 (W : Valuation τ sig (Elt Ideal)) : after (ops3 (F := Ideal)) W (Proc.devRef .tc main_arg10) = W (Proc.devRef .tc main_arg10) :=
  after_of_forall_not_mem (b := Proc.devRef .tc main_arg10) _ _ (by not_written ops3)
theorem arg11 (W : Valuation τ sig (Elt Ideal)) : after (ops3 (F := Ideal)) W (Proc.devRef .tc main_arg11) = W (Proc.devRef .tc main_arg11) :=
  after_of_forall_not_mem (b := Proc.devRef .tc main_arg11) _ _ (by not_written ops3)
theorem arg12 (W : Valuation τ sig (Elt Ideal)) : after (ops3 (F := Ideal)) W (Proc.devRef .tc main_arg12) = W (Proc.devRef .tc main_arg12) :=
  after_of_forall_not_mem (b := Proc.devRef .tc main_arg12) _ _ (by not_written ops3)
theorem arg13 (W : Valuation τ sig (Elt Ideal)) : after (ops3 (F := Ideal)) W (Proc.devRef .tc main_arg13) = W (Proc.devRef .tc main_arg13) :=
  after_of_forall_not_mem (b := Proc.devRef .tc main_arg13) _ _ (by not_written ops3)
theorem arg14 (W : Valuation τ sig (Elt Ideal)) : after (ops3 (F := Ideal)) W (Proc.devRef .tc main_arg14) = W (Proc.devRef .tc main_arg14) :=
  after_of_forall_not_mem (b := Proc.devRef .tc main_arg14) _ _ (by not_written ops3)
theorem arg15 (W : Valuation τ sig (Elt Ideal)) : after (ops3 (F := Ideal)) W (Proc.devRef .tc main_arg15) = W (Proc.devRef .tc main_arg15) :=
  after_of_forall_not_mem (b := Proc.devRef .tc main_arg15) _ _ (by not_written ops3)
theorem arg16 (W : Valuation τ sig (Elt Ideal)) : after (ops3 (F := Ideal)) W (Proc.devRef .tc main_arg16) = W (Proc.devRef .tc main_arg16) :=
  after_of_forall_not_mem (b := Proc.devRef .tc main_arg16) _ _ (by not_written ops3)
theorem arg17 (W : Valuation τ sig (Elt Ideal)) : after (ops3 (F := Ideal)) W (Proc.devRef .tc main_arg17) = W (Proc.devRef .tc main_arg17) :=
  after_of_forall_not_mem (b := Proc.devRef .tc main_arg17) _ _ (by not_written ops3)
theorem arg18 (W : Valuation τ sig (Elt Ideal)) : after (ops3 (F := Ideal)) W (Proc.devRef .tc main_arg18) = W (Proc.devRef .tc main_arg18) :=
  after_of_forall_not_mem (b := Proc.devRef .tc main_arg18) _ _ (by not_written ops3)
theorem arg19 (W : Valuation τ sig (Elt Ideal)) : after (ops3 (F := Ideal)) W (Proc.devRef .tc main_arg19) = W (Proc.devRef .tc main_arg19) :=
  after_of_forall_not_mem (b := Proc.devRef .tc main_arg19) _ _ (by not_written ops3)
theorem arg20 (W : Valuation τ sig (Elt Ideal)) : after (ops3 (F := Ideal)) W (Proc.devRef .tc main_arg20) = W (Proc.devRef .tc main_arg20) :=
  after_of_forall_not_mem (b := Proc.devRef .tc main_arg20) _ _ (by not_written ops3)
theorem arg21 (W : Valuation τ sig (Elt Ideal)) : after (ops3 (F := Ideal)) W (Proc.devRef .tc main_arg21) = W (Proc.devRef .tc main_arg21) :=
  after_of_forall_not_mem (b := Proc.devRef .tc main_arg21) _ _ (by not_written ops3)
theorem keep45 (W : Valuation τ sig (Elt Ideal)) : after (ops3 (F := Ideal)) W (Proc.devRef .tc main_v45) = W (Proc.devRef .tc main_v45) :=
  after_of_forall_not_mem (b := Proc.devRef .tc main_v45) _ _ (by not_written ops3)

/-- Every operation of the run determines its result. -/
theorem fresh : (ops3 : List (HloOp τ sig (Elt Ideal))).Forall fun op => op.fresh = ∅ := by
  all_fresh ops3

end Cert.ReferenceIdeal.Chunk3

end
-- ==== Proof.RefChunk4.lean ====
/-
  Run 4 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk4

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h125 : (W (Proc.devRef .tc main_v125) : FVec Ideal S20000x128 .f32) = val_main_v125 (F := Ideal) (W (Proc.devRef .tc main_arg0)) (W (Proc.devRef .tc main_arg1)) (W (Proc.devRef .tc main_arg2)) (W (Proc.devRef .tc main_arg4)) (W (Proc.devRef .tc main_arg6)) (W (Proc.devRef .tc main_arg7)) (W (Proc.devRef .tc main_arg8)) (W (Proc.devRef .tc main_arg9)) (W (Proc.devRef .tc main_arg16)) (W (Proc.devRef .tc main_arg17)) (W (Proc.devRef .tc main_arg18)) (W (Proc.devRef .tc main_arg19)) (W (Proc.devRef .tc main_arg20)) (W (Proc.devRef .tc main_arg21))) :
    (after (ops4 (F := Ideal)) W (Proc.devRef .tc main_v159) : FVec Ideal S4000x128 .f32) = val_main_v159 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h125]
  rfl

/-! The buffers this run does not write. -/
theorem arg0 (W : Valuation τ sig (Elt Ideal)) : after (ops4 (F := Ideal)) W (Proc.devRef .tc main_arg0) = W (Proc.devRef .tc main_arg0) :=
  after_of_forall_not_mem (b := Proc.devRef .tc main_arg0) _ _ (by not_written ops4)
theorem arg1 (W : Valuation τ sig (Elt Ideal)) : after (ops4 (F := Ideal)) W (Proc.devRef .tc main_arg1) = W (Proc.devRef .tc main_arg1) :=
  after_of_forall_not_mem (b := Proc.devRef .tc main_arg1) _ _ (by not_written ops4)
theorem arg2 (W : Valuation τ sig (Elt Ideal)) : after (ops4 (F := Ideal)) W (Proc.devRef .tc main_arg2) = W (Proc.devRef .tc main_arg2) :=
  after_of_forall_not_mem (b := Proc.devRef .tc main_arg2) _ _ (by not_written ops4)
theorem arg3 (W : Valuation τ sig (Elt Ideal)) : after (ops4 (F := Ideal)) W (Proc.devRef .tc main_arg3) = W (Proc.devRef .tc main_arg3) :=
  after_of_forall_not_mem (b := Proc.devRef .tc main_arg3) _ _ (by not_written ops4)
theorem arg4 (W : Valuation τ sig (Elt Ideal)) : after (ops4 (F := Ideal)) W (Proc.devRef .tc main_arg4) = W (Proc.devRef .tc main_arg4) :=
  after_of_forall_not_mem (b := Proc.devRef .tc main_arg4) _ _ (by not_written ops4)
theorem arg5 (W : Valuation τ sig (Elt Ideal)) : after (ops4 (F := Ideal)) W (Proc.devRef .tc main_arg5) = W (Proc.devRef .tc main_arg5) :=
  after_of_forall_not_mem (b := Proc.devRef .tc main_arg5) _ _ (by not_written ops4)
theorem arg6 (W : Valuation τ sig (Elt Ideal)) : after (ops4 (F := Ideal)) W (Proc.devRef .tc main_arg6) = W (Proc.devRef .tc main_arg6) :=
  after_of_forall_not_mem (b := Proc.devRef .tc main_arg6) _ _ (by not_written ops4)
theorem arg7 (W : Valuation τ sig (Elt Ideal)) : after (ops4 (F := Ideal)) W (Proc.devRef .tc main_arg7) = W (Proc.devRef .tc main_arg7) :=
  after_of_forall_not_mem (b := Proc.devRef .tc main_arg7) _ _ (by not_written ops4)
theorem arg8 (W : Valuation τ sig (Elt Ideal)) : after (ops4 (F := Ideal)) W (Proc.devRef .tc main_arg8) = W (Proc.devRef .tc main_arg8) :=
  after_of_forall_not_mem (b := Proc.devRef .tc main_arg8) _ _ (by not_written ops4)
theorem arg9 (W : Valuation τ sig (Elt Ideal)) : after (ops4 (F := Ideal)) W (Proc.devRef .tc main_arg9) = W (Proc.devRef .tc main_arg9) :=
  after_of_forall_not_mem (b := Proc.devRef .tc main_arg9) _ _ (by not_written ops4)
theorem arg10 (W : Valuation τ sig (Elt Ideal)) : after (ops4 (F := Ideal)) W (Proc.devRef .tc main_arg10) = W (Proc.devRef .tc main_arg10) :=
  after_of_forall_not_mem (b := Proc.devRef .tc main_arg10) _ _ (by not_written ops4)
theorem arg11 (W : Valuation τ sig (Elt Ideal)) : after (ops4 (F := Ideal)) W (Proc.devRef .tc main_arg11) = W (Proc.devRef .tc main_arg11) :=
  after_of_forall_not_mem (b := Proc.devRef .tc main_arg11) _ _ (by not_written ops4)
theorem arg12 (W : Valuation τ sig (Elt Ideal)) : after (ops4 (F := Ideal)) W (Proc.devRef .tc main_arg12) = W (Proc.devRef .tc main_arg12) :=
  after_of_forall_not_mem (b := Proc.devRef .tc main_arg12) _ _ (by not_written ops4)
theorem arg13 (W : Valuation τ sig (Elt Ideal)) : after (ops4 (F := Ideal)) W (Proc.devRef .tc main_arg13) = W (Proc.devRef .tc main_arg13) :=
  after_of_forall_not_mem (b := Proc.devRef .tc main_arg13) _ _ (by not_written ops4)
theorem arg14 (W : Valuation τ sig (Elt Ideal)) : after (ops4 (F := Ideal)) W (Proc.devRef .tc main_arg14) = W (Proc.devRef .tc main_arg14) :=
  after_of_forall_not_mem (b := Proc.devRef .tc main_arg14) _ _ (by not_written ops4)
theorem arg15 (W : Valuation τ sig (Elt Ideal)) : after (ops4 (F := Ideal)) W (Proc.devRef .tc main_arg15) = W (Proc.devRef .tc main_arg15) :=
  after_of_forall_not_mem (b := Proc.devRef .tc main_arg15) _ _ (by not_written ops4)
theorem arg16 (W : Valuation τ sig (Elt Ideal)) : after (ops4 (F := Ideal)) W (Proc.devRef .tc main_arg16) = W (Proc.devRef .tc main_arg16) :=
  after_of_forall_not_mem (b := Proc.devRef .tc main_arg16) _ _ (by not_written ops4)
theorem arg17 (W : Valuation τ sig (Elt Ideal)) : after (ops4 (F := Ideal)) W (Proc.devRef .tc main_arg17) = W (Proc.devRef .tc main_arg17) :=
  after_of_forall_not_mem (b := Proc.devRef .tc main_arg17) _ _ (by not_written ops4)
theorem arg18 (W : Valuation τ sig (Elt Ideal)) : after (ops4 (F := Ideal)) W (Proc.devRef .tc main_arg18) = W (Proc.devRef .tc main_arg18) :=
  after_of_forall_not_mem (b := Proc.devRef .tc main_arg18) _ _ (by not_written ops4)
theorem arg19 (W : Valuation τ sig (Elt Ideal)) : after (ops4 (F := Ideal)) W (Proc.devRef .tc main_arg19) = W (Proc.devRef .tc main_arg19) :=
  after_of_forall_not_mem (b := Proc.devRef .tc main_arg19) _ _ (by not_written ops4)
theorem arg20 (W : Valuation τ sig (Elt Ideal)) : after (ops4 (F := Ideal)) W (Proc.devRef .tc main_arg20) = W (Proc.devRef .tc main_arg20) :=
  after_of_forall_not_mem (b := Proc.devRef .tc main_arg20) _ _ (by not_written ops4)
theorem arg21 (W : Valuation τ sig (Elt Ideal)) : after (ops4 (F := Ideal)) W (Proc.devRef .tc main_arg21) = W (Proc.devRef .tc main_arg21) :=
  after_of_forall_not_mem (b := Proc.devRef .tc main_arg21) _ _ (by not_written ops4)
theorem keep45 (W : Valuation τ sig (Elt Ideal)) : after (ops4 (F := Ideal)) W (Proc.devRef .tc main_v45) = W (Proc.devRef .tc main_v45) :=
  after_of_forall_not_mem (b := Proc.devRef .tc main_v45) _ _ (by not_written ops4)
theorem keep125 (W : Valuation τ sig (Elt Ideal)) : after (ops4 (F := Ideal)) W (Proc.devRef .tc main_v125) = W (Proc.devRef .tc main_v125) :=
  after_of_forall_not_mem (b := Proc.devRef .tc main_v125) _ _ (by not_written ops4)

/-- Every operation of the run determines its result. -/
theorem fresh : (ops4 : List (HloOp τ sig (Elt Ideal))).Forall fun op => op.fresh = ∅ := by
  all_fresh ops4

end Cert.ReferenceIdeal.Chunk4

end
-- ==== Proof.RefChunk5.lean ====
/-
  Run 5 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk5

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h159 : (W (Proc.devRef .tc main_v159) : FVec Ideal S4000x128 .f32) = val_main_v159 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg16)) (W (Proc.devRef .tc main_arg17)) (W (Proc.devRef .tc main_arg18)) (W (Proc.devRef .tc main_arg19)) (W (Proc.devRef .tc main_arg20)) (W (Proc.devRef .tc main_arg21))) :
    (after (ops5 (F := Ideal)) W (Proc.devRef .tc main_v205) : FVec Ideal S4000x128 .f32) = val_main_v205 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h159]
  rfl

/-! The buffers this run does not write. -/
theorem arg0 (W : Valuation τ sig (Elt Ideal)) : after (ops5 (F := Ideal)) W (Proc.devRef .tc main_arg0) = W (Proc.devRef .tc main_arg0) :=
  after_of_forall_not_mem (b := Proc.devRef .tc main_arg0) _ _ (by not_written ops5)
theorem arg1 (W : Valuation τ sig (Elt Ideal)) : after (ops5 (F := Ideal)) W (Proc.devRef .tc main_arg1) = W (Proc.devRef .tc main_arg1) :=
  after_of_forall_not_mem (b := Proc.devRef .tc main_arg1) _ _ (by not_written ops5)
theorem arg2 (W : Valuation τ sig (Elt Ideal)) : after (ops5 (F := Ideal)) W (Proc.devRef .tc main_arg2) = W (Proc.devRef .tc main_arg2) :=
  after_of_forall_not_mem (b := Proc.devRef .tc main_arg2) _ _ (by not_written ops5)
theorem arg3 (W : Valuation τ sig (Elt Ideal)) : after (ops5 (F := Ideal)) W (Proc.devRef .tc main_arg3) = W (Proc.devRef .tc main_arg3) :=
  after_of_forall_not_mem (b := Proc.devRef .tc main_arg3) _ _ (by not_written ops5)
theorem arg4 (W : Valuation τ sig (Elt Ideal)) : after (ops5 (F := Ideal)) W (Proc.devRef .tc main_arg4) = W (Proc.devRef .tc main_arg4) :=
  after_of_forall_not_mem (b := Proc.devRef .tc main_arg4) _ _ (by not_written ops5)
theorem arg5 (W : Valuation τ sig (Elt Ideal)) : after (ops5 (F := Ideal)) W (Proc.devRef .tc main_arg5) = W (Proc.devRef .tc main_arg5) :=
  after_of_forall_not_mem (b := Proc.devRef .tc main_arg5) _ _ (by not_written ops5)
theorem arg6 (W : Valuation τ sig (Elt Ideal)) : after (ops5 (F := Ideal)) W (Proc.devRef .tc main_arg6) = W (Proc.devRef .tc main_arg6) :=
  after_of_forall_not_mem (b := Proc.devRef .tc main_arg6) _ _ (by not_written ops5)
theorem arg7 (W : Valuation τ sig (Elt Ideal)) : after (ops5 (F := Ideal)) W (Proc.devRef .tc main_arg7) = W (Proc.devRef .tc main_arg7) :=
  after_of_forall_not_mem (b := Proc.devRef .tc main_arg7) _ _ (by not_written ops5)
theorem arg8 (W : Valuation τ sig (Elt Ideal)) : after (ops5 (F := Ideal)) W (Proc.devRef .tc main_arg8) = W (Proc.devRef .tc main_arg8) :=
  after_of_forall_not_mem (b := Proc.devRef .tc main_arg8) _ _ (by not_written ops5)
theorem arg9 (W : Valuation τ sig (Elt Ideal)) : after (ops5 (F := Ideal)) W (Proc.devRef .tc main_arg9) = W (Proc.devRef .tc main_arg9) :=
  after_of_forall_not_mem (b := Proc.devRef .tc main_arg9) _ _ (by not_written ops5)
theorem arg10 (W : Valuation τ sig (Elt Ideal)) : after (ops5 (F := Ideal)) W (Proc.devRef .tc main_arg10) = W (Proc.devRef .tc main_arg10) :=
  after_of_forall_not_mem (b := Proc.devRef .tc main_arg10) _ _ (by not_written ops5)
theorem arg11 (W : Valuation τ sig (Elt Ideal)) : after (ops5 (F := Ideal)) W (Proc.devRef .tc main_arg11) = W (Proc.devRef .tc main_arg11) :=
  after_of_forall_not_mem (b := Proc.devRef .tc main_arg11) _ _ (by not_written ops5)
theorem arg12 (W : Valuation τ sig (Elt Ideal)) : after (ops5 (F := Ideal)) W (Proc.devRef .tc main_arg12) = W (Proc.devRef .tc main_arg12) :=
  after_of_forall_not_mem (b := Proc.devRef .tc main_arg12) _ _ (by not_written ops5)
theorem arg13 (W : Valuation τ sig (Elt Ideal)) : after (ops5 (F := Ideal)) W (Proc.devRef .tc main_arg13) = W (Proc.devRef .tc main_arg13) :=
  after_of_forall_not_mem (b := Proc.devRef .tc main_arg13) _ _ (by not_written ops5)
theorem arg14 (W : Valuation τ sig (Elt Ideal)) : after (ops5 (F := Ideal)) W (Proc.devRef .tc main_arg14) = W (Proc.devRef .tc main_arg14) :=
  after_of_forall_not_mem (b := Proc.devRef .tc main_arg14) _ _ (by not_written ops5)
theorem arg15 (W : Valuation τ sig (Elt Ideal)) : after (ops5 (F := Ideal)) W (Proc.devRef .tc main_arg15) = W (Proc.devRef .tc main_arg15) :=
  after_of_forall_not_mem (b := Proc.devRef .tc main_arg15) _ _ (by not_written ops5)
theorem arg16 (W : Valuation τ sig (Elt Ideal)) : after (ops5 (F := Ideal)) W (Proc.devRef .tc main_arg16) = W (Proc.devRef .tc main_arg16) :=
  after_of_forall_not_mem (b := Proc.devRef .tc main_arg16) _ _ (by not_written ops5)
theorem arg17 (W : Valuation τ sig (Elt Ideal)) : after (ops5 (F := Ideal)) W (Proc.devRef .tc main_arg17) = W (Proc.devRef .tc main_arg17) :=
  after_of_forall_not_mem (b := Proc.devRef .tc main_arg17) _ _ (by not_written ops5)
theorem arg18 (W : Valuation τ sig (Elt Ideal)) : after (ops5 (F := Ideal)) W (Proc.devRef .tc main_arg18) = W (Proc.devRef .tc main_arg18) :=
  after_of_forall_not_mem (b := Proc.devRef .tc main_arg18) _ _ (by not_written ops5)
theorem arg19 (W : Valuation τ sig (Elt Ideal)) : after (ops5 (F := Ideal)) W (Proc.devRef .tc main_arg19) = W (Proc.devRef .tc main_arg19) :=
  after_of_forall_not_mem (b := Proc.devRef .tc main_arg19) _ _ (by not_written ops5)
theorem arg20 (W : Valuation τ sig (Elt Ideal)) : after (ops5 (F := Ideal)) W (Proc.devRef .tc main_arg20) = W (Proc.devRef .tc main_arg20) :=
  after_of_forall_not_mem (b := Proc.devRef .tc main_arg20) _ _ (by not_written ops5)
theorem arg21 (W : Valuation τ sig (Elt Ideal)) : after (ops5 (F := Ideal)) W (Proc.devRef .tc main_arg21) = W (Proc.devRef .tc main_arg21) :=
  after_of_forall_not_mem (b := Proc.devRef .tc main_arg21) _ _ (by not_written ops5)
theorem keep45 (W : Valuation τ sig (Elt Ideal)) : after (ops5 (F := Ideal)) W (Proc.devRef .tc main_v45) = W (Proc.devRef .tc main_v45) :=
  after_of_forall_not_mem (b := Proc.devRef .tc main_v45) _ _ (by not_written ops5)
theorem keep125 (W : Valuation τ sig (Elt Ideal)) : after (ops5 (F := Ideal)) W (Proc.devRef .tc main_v125) = W (Proc.devRef .tc main_v125) :=
  after_of_forall_not_mem (b := Proc.devRef .tc main_v125) _ _ (by not_written ops5)

/-- Every operation of the run determines its result. -/
theorem fresh : (ops5 : List (HloOp τ sig (Elt Ideal))).Forall fun op => op.fresh = ∅ := by
  all_fresh ops5

end Cert.ReferenceIdeal.Chunk5

end
-- ==== Proof.RefChunk6.lean ====
/-
  Run 6 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk6

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h205 : (W (Proc.devRef .tc main_v205) : FVec Ideal S4000x128 .f32) = val_main_v205 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg16)) (W (Proc.devRef .tc main_arg17)) (W (Proc.devRef .tc main_arg18)) (W (Proc.devRef .tc main_arg19)) (W (Proc.devRef .tc main_arg20)) (W (Proc.devRef .tc main_arg21))) :
    (after (ops6 (F := Ideal)) W (Proc.devRef .tc main_v243) : FVec Ideal S20000x128 .f32) = val_main_v243 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h205]
  rfl

/-! The buffers this run does not write. -/
theorem arg0 (W : Valuation τ sig (Elt Ideal)) : after (ops6 (F := Ideal)) W (Proc.devRef .tc main_arg0) = W (Proc.devRef .tc main_arg0) :=
  after_of_forall_not_mem (b := Proc.devRef .tc main_arg0) _ _ (by not_written ops6)
theorem arg1 (W : Valuation τ sig (Elt Ideal)) : after (ops6 (F := Ideal)) W (Proc.devRef .tc main_arg1) = W (Proc.devRef .tc main_arg1) :=
  after_of_forall_not_mem (b := Proc.devRef .tc main_arg1) _ _ (by not_written ops6)
theorem arg2 (W : Valuation τ sig (Elt Ideal)) : after (ops6 (F := Ideal)) W (Proc.devRef .tc main_arg2) = W (Proc.devRef .tc main_arg2) :=
  after_of_forall_not_mem (b := Proc.devRef .tc main_arg2) _ _ (by not_written ops6)
theorem arg3 (W : Valuation τ sig (Elt Ideal)) : after (ops6 (F := Ideal)) W (Proc.devRef .tc main_arg3) = W (Proc.devRef .tc main_arg3) :=
  after_of_forall_not_mem (b := Proc.devRef .tc main_arg3) _ _ (by not_written ops6)
theorem arg4 (W : Valuation τ sig (Elt Ideal)) : after (ops6 (F := Ideal)) W (Proc.devRef .tc main_arg4) = W (Proc.devRef .tc main_arg4) :=
  after_of_forall_not_mem (b := Proc.devRef .tc main_arg4) _ _ (by not_written ops6)
theorem arg5 (W : Valuation τ sig (Elt Ideal)) : after (ops6 (F := Ideal)) W (Proc.devRef .tc main_arg5) = W (Proc.devRef .tc main_arg5) :=
  after_of_forall_not_mem (b := Proc.devRef .tc main_arg5) _ _ (by not_written ops6)
theorem arg6 (W : Valuation τ sig (Elt Ideal)) : after (ops6 (F := Ideal)) W (Proc.devRef .tc main_arg6) = W (Proc.devRef .tc main_arg6) :=
  after_of_forall_not_mem (b := Proc.devRef .tc main_arg6) _ _ (by not_written ops6)
theorem arg7 (W : Valuation τ sig (Elt Ideal)) : after (ops6 (F := Ideal)) W (Proc.devRef .tc main_arg7) = W (Proc.devRef .tc main_arg7) :=
  after_of_forall_not_mem (b := Proc.devRef .tc main_arg7) _ _ (by not_written ops6)
theorem arg8 (W : Valuation τ sig (Elt Ideal)) : after (ops6 (F := Ideal)) W (Proc.devRef .tc main_arg8) = W (Proc.devRef .tc main_arg8) :=
  after_of_forall_not_mem (b := Proc.devRef .tc main_arg8) _ _ (by not_written ops6)
theorem arg9 (W : Valuation τ sig (Elt Ideal)) : after (ops6 (F := Ideal)) W (Proc.devRef .tc main_arg9) = W (Proc.devRef .tc main_arg9) :=
  after_of_forall_not_mem (b := Proc.devRef .tc main_arg9) _ _ (by not_written ops6)
theorem arg10 (W : Valuation τ sig (Elt Ideal)) : after (ops6 (F := Ideal)) W (Proc.devRef .tc main_arg10) = W (Proc.devRef .tc main_arg10) :=
  after_of_forall_not_mem (b := Proc.devRef .tc main_arg10) _ _ (by not_written ops6)
theorem arg11 (W : Valuation τ sig (Elt Ideal)) : after (ops6 (F := Ideal)) W (Proc.devRef .tc main_arg11) = W (Proc.devRef .tc main_arg11) :=
  after_of_forall_not_mem (b := Proc.devRef .tc main_arg11) _ _ (by not_written ops6)
theorem arg12 (W : Valuation τ sig (Elt Ideal)) : after (ops6 (F := Ideal)) W (Proc.devRef .tc main_arg12) = W (Proc.devRef .tc main_arg12) :=
  after_of_forall_not_mem (b := Proc.devRef .tc main_arg12) _ _ (by not_written ops6)
theorem arg13 (W : Valuation τ sig (Elt Ideal)) : after (ops6 (F := Ideal)) W (Proc.devRef .tc main_arg13) = W (Proc.devRef .tc main_arg13) :=
  after_of_forall_not_mem (b := Proc.devRef .tc main_arg13) _ _ (by not_written ops6)
theorem arg14 (W : Valuation τ sig (Elt Ideal)) : after (ops6 (F := Ideal)) W (Proc.devRef .tc main_arg14) = W (Proc.devRef .tc main_arg14) :=
  after_of_forall_not_mem (b := Proc.devRef .tc main_arg14) _ _ (by not_written ops6)
theorem arg15 (W : Valuation τ sig (Elt Ideal)) : after (ops6 (F := Ideal)) W (Proc.devRef .tc main_arg15) = W (Proc.devRef .tc main_arg15) :=
  after_of_forall_not_mem (b := Proc.devRef .tc main_arg15) _ _ (by not_written ops6)
theorem arg16 (W : Valuation τ sig (Elt Ideal)) : after (ops6 (F := Ideal)) W (Proc.devRef .tc main_arg16) = W (Proc.devRef .tc main_arg16) :=
  after_of_forall_not_mem (b := Proc.devRef .tc main_arg16) _ _ (by not_written ops6)
theorem arg17 (W : Valuation τ sig (Elt Ideal)) : after (ops6 (F := Ideal)) W (Proc.devRef .tc main_arg17) = W (Proc.devRef .tc main_arg17) :=
  after_of_forall_not_mem (b := Proc.devRef .tc main_arg17) _ _ (by not_written ops6)
theorem arg18 (W : Valuation τ sig (Elt Ideal)) : after (ops6 (F := Ideal)) W (Proc.devRef .tc main_arg18) = W (Proc.devRef .tc main_arg18) :=
  after_of_forall_not_mem (b := Proc.devRef .tc main_arg18) _ _ (by not_written ops6)
theorem arg19 (W : Valuation τ sig (Elt Ideal)) : after (ops6 (F := Ideal)) W (Proc.devRef .tc main_arg19) = W (Proc.devRef .tc main_arg19) :=
  after_of_forall_not_mem (b := Proc.devRef .tc main_arg19) _ _ (by not_written ops6)
theorem arg20 (W : Valuation τ sig (Elt Ideal)) : after (ops6 (F := Ideal)) W (Proc.devRef .tc main_arg20) = W (Proc.devRef .tc main_arg20) :=
  after_of_forall_not_mem (b := Proc.devRef .tc main_arg20) _ _ (by not_written ops6)
theorem arg21 (W : Valuation τ sig (Elt Ideal)) : after (ops6 (F := Ideal)) W (Proc.devRef .tc main_arg21) = W (Proc.devRef .tc main_arg21) :=
  after_of_forall_not_mem (b := Proc.devRef .tc main_arg21) _ _ (by not_written ops6)
theorem keep45 (W : Valuation τ sig (Elt Ideal)) : after (ops6 (F := Ideal)) W (Proc.devRef .tc main_v45) = W (Proc.devRef .tc main_v45) :=
  after_of_forall_not_mem (b := Proc.devRef .tc main_v45) _ _ (by not_written ops6)
theorem keep125 (W : Valuation τ sig (Elt Ideal)) : after (ops6 (F := Ideal)) W (Proc.devRef .tc main_v125) = W (Proc.devRef .tc main_v125) :=
  after_of_forall_not_mem (b := Proc.devRef .tc main_v125) _ _ (by not_written ops6)

/-- Every operation of the run determines its result. -/
theorem fresh : (ops6 : List (HloOp τ sig (Elt Ideal))).Forall fun op => op.fresh = ∅ := by
  all_fresh ops6

end Cert.ReferenceIdeal.Chunk6

end
-- ==== Proof.RefChunk7.lean ====
/-
  Run 7 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk7

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h243 : (W (Proc.devRef .tc main_v243) : FVec Ideal S20000x128 .f32) = val_main_v243 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg16)) (W (Proc.devRef .tc main_arg17)) (W (Proc.devRef .tc main_arg18)) (W (Proc.devRef .tc main_arg19)) (W (Proc.devRef .tc main_arg20)) (W (Proc.devRef .tc main_arg21)))
    (h125 : (W (Proc.devRef .tc main_v125) : FVec Ideal S20000x128 .f32) = val_main_v125 (F := Ideal) (W (Proc.devRef .tc main_arg0)) (W (Proc.devRef .tc main_arg1)) (W (Proc.devRef .tc main_arg2)) (W (Proc.devRef .tc main_arg4)) (W (Proc.devRef .tc main_arg6)) (W (Proc.devRef .tc main_arg7)) (W (Proc.devRef .tc main_arg8)) (W (Proc.devRef .tc main_arg9)) (W (Proc.devRef .tc main_arg16)) (W (Proc.devRef .tc main_arg17)) (W (Proc.devRef .tc main_arg18)) (W (Proc.devRef .tc main_arg19)) (W (Proc.devRef .tc main_arg20)) (W (Proc.devRef .tc main_arg21))) :
    (after (ops7 (F := Ideal)) W (Proc.devRef .tc main_v290) : FVec Ideal S20000x128 .f32) = val_main_v290 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h243, h125]
  rfl

/-! The buffers this run does not write. -/
theorem arg0 (W : Valuation τ sig (Elt Ideal)) : after (ops7 (F := Ideal)) W (Proc.devRef .tc main_arg0) = W (Proc.devRef .tc main_arg0) :=
  after_of_forall_not_mem (b := Proc.devRef .tc main_arg0) _ _ (by not_written ops7)
theorem arg1 (W : Valuation τ sig (Elt Ideal)) : after (ops7 (F := Ideal)) W (Proc.devRef .tc main_arg1) = W (Proc.devRef .tc main_arg1) :=
  after_of_forall_not_mem (b := Proc.devRef .tc main_arg1) _ _ (by not_written ops7)
theorem arg2 (W : Valuation τ sig (Elt Ideal)) : after (ops7 (F := Ideal)) W (Proc.devRef .tc main_arg2) = W (Proc.devRef .tc main_arg2) :=
  after_of_forall_not_mem (b := Proc.devRef .tc main_arg2) _ _ (by not_written ops7)
theorem arg3 (W : Valuation τ sig (Elt Ideal)) : after (ops7 (F := Ideal)) W (Proc.devRef .tc main_arg3) = W (Proc.devRef .tc main_arg3) :=
  after_of_forall_not_mem (b := Proc.devRef .tc main_arg3) _ _ (by not_written ops7)
theorem arg4 (W : Valuation τ sig (Elt Ideal)) : after (ops7 (F := Ideal)) W (Proc.devRef .tc main_arg4) = W (Proc.devRef .tc main_arg4) :=
  after_of_forall_not_mem (b := Proc.devRef .tc main_arg4) _ _ (by not_written ops7)
theorem arg5 (W : Valuation τ sig (Elt Ideal)) : after (ops7 (F := Ideal)) W (Proc.devRef .tc main_arg5) = W (Proc.devRef .tc main_arg5) :=
  after_of_forall_not_mem (b := Proc.devRef .tc main_arg5) _ _ (by not_written ops7)
theorem arg6 (W : Valuation τ sig (Elt Ideal)) : after (ops7 (F := Ideal)) W (Proc.devRef .tc main_arg6) = W (Proc.devRef .tc main_arg6) :=
  after_of_forall_not_mem (b := Proc.devRef .tc main_arg6) _ _ (by not_written ops7)
theorem arg7 (W : Valuation τ sig (Elt Ideal)) : after (ops7 (F := Ideal)) W (Proc.devRef .tc main_arg7) = W (Proc.devRef .tc main_arg7) :=
  after_of_forall_not_mem (b := Proc.devRef .tc main_arg7) _ _ (by not_written ops7)
theorem arg8 (W : Valuation τ sig (Elt Ideal)) : after (ops7 (F := Ideal)) W (Proc.devRef .tc main_arg8) = W (Proc.devRef .tc main_arg8) :=
  after_of_forall_not_mem (b := Proc.devRef .tc main_arg8) _ _ (by not_written ops7)
theorem arg9 (W : Valuation τ sig (Elt Ideal)) : after (ops7 (F := Ideal)) W (Proc.devRef .tc main_arg9) = W (Proc.devRef .tc main_arg9) :=
  after_of_forall_not_mem (b := Proc.devRef .tc main_arg9) _ _ (by not_written ops7)
theorem arg10 (W : Valuation τ sig (Elt Ideal)) : after (ops7 (F := Ideal)) W (Proc.devRef .tc main_arg10) = W (Proc.devRef .tc main_arg10) :=
  after_of_forall_not_mem (b := Proc.devRef .tc main_arg10) _ _ (by not_written ops7)
theorem arg11 (W : Valuation τ sig (Elt Ideal)) : after (ops7 (F := Ideal)) W (Proc.devRef .tc main_arg11) = W (Proc.devRef .tc main_arg11) :=
  after_of_forall_not_mem (b := Proc.devRef .tc main_arg11) _ _ (by not_written ops7)
theorem arg12 (W : Valuation τ sig (Elt Ideal)) : after (ops7 (F := Ideal)) W (Proc.devRef .tc main_arg12) = W (Proc.devRef .tc main_arg12) :=
  after_of_forall_not_mem (b := Proc.devRef .tc main_arg12) _ _ (by not_written ops7)
theorem arg13 (W : Valuation τ sig (Elt Ideal)) : after (ops7 (F := Ideal)) W (Proc.devRef .tc main_arg13) = W (Proc.devRef .tc main_arg13) :=
  after_of_forall_not_mem (b := Proc.devRef .tc main_arg13) _ _ (by not_written ops7)
theorem arg14 (W : Valuation τ sig (Elt Ideal)) : after (ops7 (F := Ideal)) W (Proc.devRef .tc main_arg14) = W (Proc.devRef .tc main_arg14) :=
  after_of_forall_not_mem (b := Proc.devRef .tc main_arg14) _ _ (by not_written ops7)
theorem arg15 (W : Valuation τ sig (Elt Ideal)) : after (ops7 (F := Ideal)) W (Proc.devRef .tc main_arg15) = W (Proc.devRef .tc main_arg15) :=
  after_of_forall_not_mem (b := Proc.devRef .tc main_arg15) _ _ (by not_written ops7)
theorem arg16 (W : Valuation τ sig (Elt Ideal)) : after (ops7 (F := Ideal)) W (Proc.devRef .tc main_arg16) = W (Proc.devRef .tc main_arg16) :=
  after_of_forall_not_mem (b := Proc.devRef .tc main_arg16) _ _ (by not_written ops7)
theorem arg17 (W : Valuation τ sig (Elt Ideal)) : after (ops7 (F := Ideal)) W (Proc.devRef .tc main_arg17) = W (Proc.devRef .tc main_arg17) :=
  after_of_forall_not_mem (b := Proc.devRef .tc main_arg17) _ _ (by not_written ops7)
theorem arg18 (W : Valuation τ sig (Elt Ideal)) : after (ops7 (F := Ideal)) W (Proc.devRef .tc main_arg18) = W (Proc.devRef .tc main_arg18) :=
  after_of_forall_not_mem (b := Proc.devRef .tc main_arg18) _ _ (by not_written ops7)
theorem arg19 (W : Valuation τ sig (Elt Ideal)) : after (ops7 (F := Ideal)) W (Proc.devRef .tc main_arg19) = W (Proc.devRef .tc main_arg19) :=
  after_of_forall_not_mem (b := Proc.devRef .tc main_arg19) _ _ (by not_written ops7)
theorem arg20 (W : Valuation τ sig (Elt Ideal)) : after (ops7 (F := Ideal)) W (Proc.devRef .tc main_arg20) = W (Proc.devRef .tc main_arg20) :=
  after_of_forall_not_mem (b := Proc.devRef .tc main_arg20) _ _ (by not_written ops7)
theorem arg21 (W : Valuation τ sig (Elt Ideal)) : after (ops7 (F := Ideal)) W (Proc.devRef .tc main_arg21) = W (Proc.devRef .tc main_arg21) :=
  after_of_forall_not_mem (b := Proc.devRef .tc main_arg21) _ _ (by not_written ops7)
theorem keep45 (W : Valuation τ sig (Elt Ideal)) : after (ops7 (F := Ideal)) W (Proc.devRef .tc main_v45) = W (Proc.devRef .tc main_v45) :=
  after_of_forall_not_mem (b := Proc.devRef .tc main_v45) _ _ (by not_written ops7)

/-- Every operation of the run determines its result. -/
theorem fresh : (ops7 : List (HloOp τ sig (Elt Ideal))).Forall fun op => op.fresh = ∅ := by
  all_fresh ops7

end Cert.ReferenceIdeal.Chunk7

end
-- ==== Proof.RefChunk8.lean ====
/-
  Run 8 of the reference's operations, from any buffer contents `W`: the stage it completes is the stage's function of the
  argument buffers as `W` has them, given that the earlier stages it reads are already there; the argument buffers and the earlier stages that later runs read
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk8

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- The stage this run completes. -/
theorem out (W : Valuation τ sig (Elt Ideal))
    (h290 : (W (Proc.devRef .tc main_v290) : FVec Ideal S20000x128 .f32) = val_main_v290 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_arg18)) (W (Proc.devRef .tc main_arg19)) (W (Proc.devRef .tc main_arg20)) (W (Proc.devRef .tc main_arg21))) :
    (after (ops8 (F := Ideal)) W (Proc.devRef .tc main_v328) : FVec Ideal S100000x128 .f32) = val_main_v328 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h290]
  rfl

/-! The buffers this run does not write. -/
theorem arg0 (W : Valuation τ sig (Elt Ideal)) : after (ops8 (F := Ideal)) W (Proc.devRef .tc main_arg0) = W (Proc.devRef .tc main_arg0) :=
  after_of_forall_not_mem (b := Proc.devRef .tc main_arg0) _ _ (by not_written ops8)
theorem arg1 (W : Valuation τ sig (Elt Ideal)) : after (ops8 (F := Ideal)) W (Proc.devRef .tc main_arg1) = W (Proc.devRef .tc main_arg1) :=
  after_of_forall_not_mem (b := Proc.devRef .tc main_arg1) _ _ (by not_written ops8)
theorem arg2 (W : Valuation τ sig (Elt Ideal)) : after (ops8 (F := Ideal)) W (Proc.devRef .tc main_arg2) = W (Proc.devRef .tc main_arg2) :=
  after_of_forall_not_mem (b := Proc.devRef .tc main_arg2) _ _ (by not_written ops8)
theorem arg3 (W : Valuation τ sig (Elt Ideal)) : after (ops8 (F := Ideal)) W (Proc.devRef .tc main_arg3) = W (Proc.devRef .tc main_arg3) :=
  after_of_forall_not_mem (b := Proc.devRef .tc main_arg3) _ _ (by not_written ops8)
theorem arg4 (W : Valuation τ sig (Elt Ideal)) : after (ops8 (F := Ideal)) W (Proc.devRef .tc main_arg4) = W (Proc.devRef .tc main_arg4) :=
  after_of_forall_not_mem (b := Proc.devRef .tc main_arg4) _ _ (by not_written ops8)
theorem arg5 (W : Valuation τ sig (Elt Ideal)) : after (ops8 (F := Ideal)) W (Proc.devRef .tc main_arg5) = W (Proc.devRef .tc main_arg5) :=
  after_of_forall_not_mem (b := Proc.devRef .tc main_arg5) _ _ (by not_written ops8)
theorem arg6 (W : Valuation τ sig (Elt Ideal)) : after (ops8 (F := Ideal)) W (Proc.devRef .tc main_arg6) = W (Proc.devRef .tc main_arg6) :=
  after_of_forall_not_mem (b := Proc.devRef .tc main_arg6) _ _ (by not_written ops8)
theorem arg7 (W : Valuation τ sig (Elt Ideal)) : after (ops8 (F := Ideal)) W (Proc.devRef .tc main_arg7) = W (Proc.devRef .tc main_arg7) :=
  after_of_forall_not_mem (b := Proc.devRef .tc main_arg7) _ _ (by not_written ops8)
theorem arg8 (W : Valuation τ sig (Elt Ideal)) : after (ops8 (F := Ideal)) W (Proc.devRef .tc main_arg8) = W (Proc.devRef .tc main_arg8) :=
  after_of_forall_not_mem (b := Proc.devRef .tc main_arg8) _ _ (by not_written ops8)
theorem arg9 (W : Valuation τ sig (Elt Ideal)) : after (ops8 (F := Ideal)) W (Proc.devRef .tc main_arg9) = W (Proc.devRef .tc main_arg9) :=
  after_of_forall_not_mem (b := Proc.devRef .tc main_arg9) _ _ (by not_written ops8)
theorem arg10 (W : Valuation τ sig (Elt Ideal)) : after (ops8 (F := Ideal)) W (Proc.devRef .tc main_arg10) = W (Proc.devRef .tc main_arg10) :=
  after_of_forall_not_mem (b := Proc.devRef .tc main_arg10) _ _ (by not_written ops8)
theorem arg11 (W : Valuation τ sig (Elt Ideal)) : after (ops8 (F := Ideal)) W (Proc.devRef .tc main_arg11) = W (Proc.devRef .tc main_arg11) :=
  after_of_forall_not_mem (b := Proc.devRef .tc main_arg11) _ _ (by not_written ops8)
theorem arg12 (W : Valuation τ sig (Elt Ideal)) : after (ops8 (F := Ideal)) W (Proc.devRef .tc main_arg12) = W (Proc.devRef .tc main_arg12) :=
  after_of_forall_not_mem (b := Proc.devRef .tc main_arg12) _ _ (by not_written ops8)
theorem arg13 (W : Valuation τ sig (Elt Ideal)) : after (ops8 (F := Ideal)) W (Proc.devRef .tc main_arg13) = W (Proc.devRef .tc main_arg13) :=
  after_of_forall_not_mem (b := Proc.devRef .tc main_arg13) _ _ (by not_written ops8)
theorem arg14 (W : Valuation τ sig (Elt Ideal)) : after (ops8 (F := Ideal)) W (Proc.devRef .tc main_arg14) = W (Proc.devRef .tc main_arg14) :=
  after_of_forall_not_mem (b := Proc.devRef .tc main_arg14) _ _ (by not_written ops8)
theorem arg15 (W : Valuation τ sig (Elt Ideal)) : after (ops8 (F := Ideal)) W (Proc.devRef .tc main_arg15) = W (Proc.devRef .tc main_arg15) :=
  after_of_forall_not_mem (b := Proc.devRef .tc main_arg15) _ _ (by not_written ops8)
theorem arg16 (W : Valuation τ sig (Elt Ideal)) : after (ops8 (F := Ideal)) W (Proc.devRef .tc main_arg16) = W (Proc.devRef .tc main_arg16) :=
  after_of_forall_not_mem (b := Proc.devRef .tc main_arg16) _ _ (by not_written ops8)
theorem arg17 (W : Valuation τ sig (Elt Ideal)) : after (ops8 (F := Ideal)) W (Proc.devRef .tc main_arg17) = W (Proc.devRef .tc main_arg17) :=
  after_of_forall_not_mem (b := Proc.devRef .tc main_arg17) _ _ (by not_written ops8)
theorem arg18 (W : Valuation τ sig (Elt Ideal)) : after (ops8 (F := Ideal)) W (Proc.devRef .tc main_arg18) = W (Proc.devRef .tc main_arg18) :=
  after_of_forall_not_mem (b := Proc.devRef .tc main_arg18) _ _ (by not_written ops8)
theorem arg19 (W : Valuation τ sig (Elt Ideal)) : after (ops8 (F := Ideal)) W (Proc.devRef .tc main_arg19) = W (Proc.devRef .tc main_arg19) :=
  after_of_forall_not_mem (b := Proc.devRef .tc main_arg19) _ _ (by not_written ops8)
theorem arg20 (W : Valuation τ sig (Elt Ideal)) : after (ops8 (F := Ideal)) W (Proc.devRef .tc main_arg20) = W (Proc.devRef .tc main_arg20) :=
  after_of_forall_not_mem (b := Proc.devRef .tc main_arg20) _ _ (by not_written ops8)
theorem arg21 (W : Valuation τ sig (Elt Ideal)) : after (ops8 (F := Ideal)) W (Proc.devRef .tc main_arg21) = W (Proc.devRef .tc main_arg21) :=
  after_of_forall_not_mem (b := Proc.devRef .tc main_arg21) _ _ (by not_written ops8)
theorem keep45 (W : Valuation τ sig (Elt Ideal)) : after (ops8 (F := Ideal)) W (Proc.devRef .tc main_v45) = W (Proc.devRef .tc main_v45) :=
  after_of_forall_not_mem (b := Proc.devRef .tc main_v45) _ _ (by not_written ops8)

/-- Every operation of the run determines its result. -/
theorem fresh : (ops8 : List (HloOp τ sig (Elt Ideal))).Forall fun op => op.fresh = ∅ := by
  all_fresh ops8

end Cert.ReferenceIdeal.Chunk8

end
-- ==== Proof.RefChunk9.lean ====
/-
  The tenth run of the reference's operations: the concatenation with the first skip connection, the last matrix product and the gathered rows scaled by the edge normalisation. From any buffer contents `W`: each stage it completes is the stage's function of the
  argument buffers as `W` has them, given that the earlier stages it reads are already there; the argument buffers
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk9

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

set_option maxHeartbeats 40000000 in
/-- A stage this run completes: `main_v368`. -/
theorem out368 (W : Valuation τ sig (Elt Ideal))
    (h328 : (W (Proc.devRef .tc main_v328) : (⟨S100000x128, .f32⟩ : BufTy).Contents (Elt Ideal)) = val_main_v328 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_arg18)) (W (Proc.devRef .tc main_arg19)) (W (Proc.devRef .tc main_arg20)) (W (Proc.devRef .tc main_arg21)))
    (h45 : (W (Proc.devRef .tc main_v45) : (⟨S100000x128, .f32⟩ : BufTy).Contents (Elt Ideal)) = val_main_v45 (F := Ideal) (W (Proc.devRef .tc main_arg0)) (W (Proc.devRef .tc main_arg1)) (W (Proc.devRef .tc main_arg6)) (W (Proc.devRef .tc main_arg7))) :
    (after (ops9 (F := Ideal)) W (Proc.devRef .tc main_v368) : (⟨S1700000x10, .f32⟩ : BufTy).Contents (Elt Ideal)) = val_main_v368 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h328, h45]
  rfl

set_option maxHeartbeats 40000000 in
/-- A stage this run completes: `main_v336`. -/
theorem out336 (W : Valuation τ sig (Elt Ideal))
    (h328 : (W (Proc.devRef .tc main_v328) : (⟨S100000x128, .f32⟩ : BufTy).Contents (Elt Ideal)) = val_main_v328 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_arg18)) (W (Proc.devRef .tc main_arg19)) (W (Proc.devRef .tc main_arg20)) (W (Proc.devRef .tc main_arg21)))
    (h45 : (W (Proc.devRef .tc main_v45) : (⟨S100000x128, .f32⟩ : BufTy).Contents (Elt Ideal)) = val_main_v45 (F := Ideal) (W (Proc.devRef .tc main_arg0)) (W (Proc.devRef .tc main_arg1)) (W (Proc.devRef .tc main_arg6)) (W (Proc.devRef .tc main_arg7))) :
    (after (ops9 (F := Ideal)) W (Proc.devRef .tc main_v336) : (⟨S1700000, .i32⟩ : BufTy).Contents (Elt Ideal)) = val_main_v336 (F := Ideal) (W (Proc.devRef .tc main_arg1)) := by
  after_results_simp
  rfl

/-! The buffers this run does not write. -/
theorem arg0 (W : Valuation τ sig (Elt Ideal)) : after (ops9 (F := Ideal)) W (Proc.devRef .tc main_arg0) = W (Proc.devRef .tc main_arg0) :=
  after_of_forall_not_mem (b := Proc.devRef .tc main_arg0) _ _ (by not_written ops9)
theorem arg1 (W : Valuation τ sig (Elt Ideal)) : after (ops9 (F := Ideal)) W (Proc.devRef .tc main_arg1) = W (Proc.devRef .tc main_arg1) :=
  after_of_forall_not_mem (b := Proc.devRef .tc main_arg1) _ _ (by not_written ops9)
theorem arg2 (W : Valuation τ sig (Elt Ideal)) : after (ops9 (F := Ideal)) W (Proc.devRef .tc main_arg2) = W (Proc.devRef .tc main_arg2) :=
  after_of_forall_not_mem (b := Proc.devRef .tc main_arg2) _ _ (by not_written ops9)
theorem arg3 (W : Valuation τ sig (Elt Ideal)) : after (ops9 (F := Ideal)) W (Proc.devRef .tc main_arg3) = W (Proc.devRef .tc main_arg3) :=
  after_of_forall_not_mem (b := Proc.devRef .tc main_arg3) _ _ (by not_written ops9)
theorem arg4 (W : Valuation τ sig (Elt Ideal)) : after (ops9 (F := Ideal)) W (Proc.devRef .tc main_arg4) = W (Proc.devRef .tc main_arg4) :=
  after_of_forall_not_mem (b := Proc.devRef .tc main_arg4) _ _ (by not_written ops9)
theorem arg5 (W : Valuation τ sig (Elt Ideal)) : after (ops9 (F := Ideal)) W (Proc.devRef .tc main_arg5) = W (Proc.devRef .tc main_arg5) :=
  after_of_forall_not_mem (b := Proc.devRef .tc main_arg5) _ _ (by not_written ops9)
theorem arg6 (W : Valuation τ sig (Elt Ideal)) : after (ops9 (F := Ideal)) W (Proc.devRef .tc main_arg6) = W (Proc.devRef .tc main_arg6) :=
  after_of_forall_not_mem (b := Proc.devRef .tc main_arg6) _ _ (by not_written ops9)
theorem arg7 (W : Valuation τ sig (Elt Ideal)) : after (ops9 (F := Ideal)) W (Proc.devRef .tc main_arg7) = W (Proc.devRef .tc main_arg7) :=
  after_of_forall_not_mem (b := Proc.devRef .tc main_arg7) _ _ (by not_written ops9)
theorem arg8 (W : Valuation τ sig (Elt Ideal)) : after (ops9 (F := Ideal)) W (Proc.devRef .tc main_arg8) = W (Proc.devRef .tc main_arg8) :=
  after_of_forall_not_mem (b := Proc.devRef .tc main_arg8) _ _ (by not_written ops9)
theorem arg9 (W : Valuation τ sig (Elt Ideal)) : after (ops9 (F := Ideal)) W (Proc.devRef .tc main_arg9) = W (Proc.devRef .tc main_arg9) :=
  after_of_forall_not_mem (b := Proc.devRef .tc main_arg9) _ _ (by not_written ops9)
theorem arg10 (W : Valuation τ sig (Elt Ideal)) : after (ops9 (F := Ideal)) W (Proc.devRef .tc main_arg10) = W (Proc.devRef .tc main_arg10) :=
  after_of_forall_not_mem (b := Proc.devRef .tc main_arg10) _ _ (by not_written ops9)
theorem arg11 (W : Valuation τ sig (Elt Ideal)) : after (ops9 (F := Ideal)) W (Proc.devRef .tc main_arg11) = W (Proc.devRef .tc main_arg11) :=
  after_of_forall_not_mem (b := Proc.devRef .tc main_arg11) _ _ (by not_written ops9)
theorem arg12 (W : Valuation τ sig (Elt Ideal)) : after (ops9 (F := Ideal)) W (Proc.devRef .tc main_arg12) = W (Proc.devRef .tc main_arg12) :=
  after_of_forall_not_mem (b := Proc.devRef .tc main_arg12) _ _ (by not_written ops9)
theorem arg13 (W : Valuation τ sig (Elt Ideal)) : after (ops9 (F := Ideal)) W (Proc.devRef .tc main_arg13) = W (Proc.devRef .tc main_arg13) :=
  after_of_forall_not_mem (b := Proc.devRef .tc main_arg13) _ _ (by not_written ops9)
theorem arg14 (W : Valuation τ sig (Elt Ideal)) : after (ops9 (F := Ideal)) W (Proc.devRef .tc main_arg14) = W (Proc.devRef .tc main_arg14) :=
  after_of_forall_not_mem (b := Proc.devRef .tc main_arg14) _ _ (by not_written ops9)
theorem arg15 (W : Valuation τ sig (Elt Ideal)) : after (ops9 (F := Ideal)) W (Proc.devRef .tc main_arg15) = W (Proc.devRef .tc main_arg15) :=
  after_of_forall_not_mem (b := Proc.devRef .tc main_arg15) _ _ (by not_written ops9)
theorem arg16 (W : Valuation τ sig (Elt Ideal)) : after (ops9 (F := Ideal)) W (Proc.devRef .tc main_arg16) = W (Proc.devRef .tc main_arg16) :=
  after_of_forall_not_mem (b := Proc.devRef .tc main_arg16) _ _ (by not_written ops9)
theorem arg17 (W : Valuation τ sig (Elt Ideal)) : after (ops9 (F := Ideal)) W (Proc.devRef .tc main_arg17) = W (Proc.devRef .tc main_arg17) :=
  after_of_forall_not_mem (b := Proc.devRef .tc main_arg17) _ _ (by not_written ops9)
theorem arg18 (W : Valuation τ sig (Elt Ideal)) : after (ops9 (F := Ideal)) W (Proc.devRef .tc main_arg18) = W (Proc.devRef .tc main_arg18) :=
  after_of_forall_not_mem (b := Proc.devRef .tc main_arg18) _ _ (by not_written ops9)
theorem arg19 (W : Valuation τ sig (Elt Ideal)) : after (ops9 (F := Ideal)) W (Proc.devRef .tc main_arg19) = W (Proc.devRef .tc main_arg19) :=
  after_of_forall_not_mem (b := Proc.devRef .tc main_arg19) _ _ (by not_written ops9)
theorem arg20 (W : Valuation τ sig (Elt Ideal)) : after (ops9 (F := Ideal)) W (Proc.devRef .tc main_arg20) = W (Proc.devRef .tc main_arg20) :=
  after_of_forall_not_mem (b := Proc.devRef .tc main_arg20) _ _ (by not_written ops9)
theorem arg21 (W : Valuation τ sig (Elt Ideal)) : after (ops9 (F := Ideal)) W (Proc.devRef .tc main_arg21) = W (Proc.devRef .tc main_arg21) :=
  after_of_forall_not_mem (b := Proc.devRef .tc main_arg21) _ _ (by not_written ops9)

/-- Every operation of the run determines its result. -/
theorem fresh : (ops9 : List (HloOp τ sig (Elt Ideal))).Forall fun op => op.fresh = ∅ := by
  all_fresh ops9

end Cert.ReferenceIdeal.Chunk9

end
-- ==== Proof.RefChunk10.lean ====
/-
  The last run of the reference's operations: the last scatter-add by target node, the last bias and the row-wise log-softmax. From any buffer contents `W`: each stage it completes is the stage's function of the
  argument buffers as `W` has them, given that the earlier stages it reads are already there; the argument buffers
  are not written; and every operation determines its result.
-/
import proofs.«124761_j84988812853303_1_alg».proof.Proof.RefChunks
import proofs.«124761_j84988812853303_1_alg».proof.Proof.RefRead
import proofs.«124761_j84988812853303_1_alg».proof.Proof.KeepTac
import proofs.«124761_j84988812853303_1_alg».proof.Proof.LibAfter
import Idealize.ShloMosaic.PureOps.Ideal

set_option maxRecDepth 65536

noncomputable section

namespace Cert.ReferenceIdeal.Chunk10

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

-- the comparison below is structural: the big array operations are not to be opened
seal Host.scatterAdd Host.reduce Host.reduceAdd val_main_v368 val_main_v336

/-- Contents moved to a typed reference's buffer and back are unchanged. -/
theorem ofBuf_toBuf {T : BufTy} (x : TRef sig T) (v : T.Contents (Elt Ideal)) : x.ofBuf (x.toBuf v) = v := by
  simp only [TRef.ofBuf, TRef.toBuf, cast_cast, cast_eq]

/-- The buffer of the biased scores holds a [100000, 10] array of floats: reading it at that type changes nothing. -/
theorem ofBuf_v374 (Z : (⟨S100000x10, .f32⟩ : BufTy).Contents (Elt Ideal)) :
    (TRef.of (T := ⟨S100000x10, .f32⟩) main_v374).ofBuf Z = Z :=
  cast_eq_iff_heq.mpr HEq.rfl

set_option maxHeartbeats 40000000 in
set_option maxRecDepth 10000000 in
/-- A stage this run completes: `main_v375`. -/
theorem out (W : Valuation τ sig (Elt Ideal))
    (h368 : (W (Proc.devRef .tc main_v368) : (⟨S1700000x10, .f32⟩ : BufTy).Contents (Elt Ideal)) = val_main_v368 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg16)) (W (Proc.devRef .tc main_arg17)) (W (Proc.devRef .tc main_arg18)) (W (Proc.devRef .tc main_arg19)) (W (Proc.devRef .tc main_arg20)) (W (Proc.devRef .tc main_arg21)))
    (h336 : (W (Proc.devRef .tc main_v336) : (⟨S1700000, .i32⟩ : BufTy).Contents (Elt Ideal)) = val_main_v336 (F := Ideal) (W (Proc.devRef .tc main_arg1))) :
    (after (ops10 (F := Ideal)) W (Proc.devRef .tc main_v375) : (⟨S100000x10, .f32⟩ : BufTy).Contents (Elt Ideal)) = val_main_v375 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  after_results_simp
  rw [h368, h336]
  -- the call's values pass through their buffers and back unchanged, and it reads the biased scores as they are
  simp only [ofBuf_toBuf, ofBuf_v374]
  -- the stage on the right, written out down to the stages this run starts from: the same operations of the same operands
  unfold val_main_v375 val_main_call12_v10 val_main_call12_v9 val_main_call12_v8 val_main_call12_v7 val_main_call12_cst_1 val_main_call12_v6 val_main_call12_v5 val_main_call12_v4 val_main_call12_v3 val_main_call12_v2 val_main_call12_v1 val_main_call12_cst_0 val_main_call12_v0 val_main_call12_cst val_main_v374 val_main_v373 val_main_v372 val_main_v371 val_main_v370 val_main_v369 val_main_cst_57
  -- the one remaining move, from the result's type to its buffer's type, is the identity
  exact cast_eq_iff_heq.mpr HEq.rfl

/-! The buffers this run does not write. -/
theorem arg0 (W : Valuation τ sig (Elt Ideal)) : after (ops10 (F := Ideal)) W (Proc.devRef .tc main_arg0) = W (Proc.devRef .tc main_arg0) :=
  after_of_forall_not_mem (b := Proc.devRef .tc main_arg0) _ _ (by not_written ops10)
theorem arg1 (W : Valuation τ sig (Elt Ideal)) : after (ops10 (F := Ideal)) W (Proc.devRef .tc main_arg1) = W (Proc.devRef .tc main_arg1) :=
  after_of_forall_not_mem (b := Proc.devRef .tc main_arg1) _ _ (by not_written ops10)
theorem arg2 (W : Valuation τ sig (Elt Ideal)) : after (ops10 (F := Ideal)) W (Proc.devRef .tc main_arg2) = W (Proc.devRef .tc main_arg2) :=
  after_of_forall_not_mem (b := Proc.devRef .tc main_arg2) _ _ (by not_written ops10)
theorem arg3 (W : Valuation τ sig (Elt Ideal)) : after (ops10 (F := Ideal)) W (Proc.devRef .tc main_arg3) = W (Proc.devRef .tc main_arg3) :=
  after_of_forall_not_mem (b := Proc.devRef .tc main_arg3) _ _ (by not_written ops10)
theorem arg4 (W : Valuation τ sig (Elt Ideal)) : after (ops10 (F := Ideal)) W (Proc.devRef .tc main_arg4) = W (Proc.devRef .tc main_arg4) :=
  after_of_forall_not_mem (b := Proc.devRef .tc main_arg4) _ _ (by not_written ops10)
theorem arg5 (W : Valuation τ sig (Elt Ideal)) : after (ops10 (F := Ideal)) W (Proc.devRef .tc main_arg5) = W (Proc.devRef .tc main_arg5) :=
  after_of_forall_not_mem (b := Proc.devRef .tc main_arg5) _ _ (by not_written ops10)
theorem arg6 (W : Valuation τ sig (Elt Ideal)) : after (ops10 (F := Ideal)) W (Proc.devRef .tc main_arg6) = W (Proc.devRef .tc main_arg6) :=
  after_of_forall_not_mem (b := Proc.devRef .tc main_arg6) _ _ (by not_written ops10)
theorem arg7 (W : Valuation τ sig (Elt Ideal)) : after (ops10 (F := Ideal)) W (Proc.devRef .tc main_arg7) = W (Proc.devRef .tc main_arg7) :=
  after_of_forall_not_mem (b := Proc.devRef .tc main_arg7) _ _ (by not_written ops10)
theorem arg8 (W : Valuation τ sig (Elt Ideal)) : after (ops10 (F := Ideal)) W (Proc.devRef .tc main_arg8) = W (Proc.devRef .tc main_arg8) :=
  after_of_forall_not_mem (b := Proc.devRef .tc main_arg8) _ _ (by not_written ops10)
theorem arg9 (W : Valuation τ sig (Elt Ideal)) : after (ops10 (F := Ideal)) W (Proc.devRef .tc main_arg9) = W (Proc.devRef .tc main_arg9) :=
  after_of_forall_not_mem (b := Proc.devRef .tc main_arg9) _ _ (by not_written ops10)
theorem arg10 (W : Valuation τ sig (Elt Ideal)) : after (ops10 (F := Ideal)) W (Proc.devRef .tc main_arg10) = W (Proc.devRef .tc main_arg10) :=
  after_of_forall_not_mem (b := Proc.devRef .tc main_arg10) _ _ (by not_written ops10)
theorem arg11 (W : Valuation τ sig (Elt Ideal)) : after (ops10 (F := Ideal)) W (Proc.devRef .tc main_arg11) = W (Proc.devRef .tc main_arg11) :=
  after_of_forall_not_mem (b := Proc.devRef .tc main_arg11) _ _ (by not_written ops10)
theorem arg12 (W : Valuation τ sig (Elt Ideal)) : after (ops10 (F := Ideal)) W (Proc.devRef .tc main_arg12) = W (Proc.devRef .tc main_arg12) :=
  after_of_forall_not_mem (b := Proc.devRef .tc main_arg12) _ _ (by not_written ops10)
theorem arg13 (W : Valuation τ sig (Elt Ideal)) : after (ops10 (F := Ideal)) W (Proc.devRef .tc main_arg13) = W (Proc.devRef .tc main_arg13) :=
  after_of_forall_not_mem (b := Proc.devRef .tc main_arg13) _ _ (by not_written ops10)
theorem arg14 (W : Valuation τ sig (Elt Ideal)) : after (ops10 (F := Ideal)) W (Proc.devRef .tc main_arg14) = W (Proc.devRef .tc main_arg14) :=
  after_of_forall_not_mem (b := Proc.devRef .tc main_arg14) _ _ (by not_written ops10)
theorem arg15 (W : Valuation τ sig (Elt Ideal)) : after (ops10 (F := Ideal)) W (Proc.devRef .tc main_arg15) = W (Proc.devRef .tc main_arg15) :=
  after_of_forall_not_mem (b := Proc.devRef .tc main_arg15) _ _ (by not_written ops10)
theorem arg16 (W : Valuation τ sig (Elt Ideal)) : after (ops10 (F := Ideal)) W (Proc.devRef .tc main_arg16) = W (Proc.devRef .tc main_arg16) :=
  after_of_forall_not_mem (b := Proc.devRef .tc main_arg16) _ _ (by not_written ops10)
theorem arg17 (W : Valuation τ sig (Elt Ideal)) : after (ops10 (F := Ideal)) W (Proc.devRef .tc main_arg17) = W (Proc.devRef .tc main_arg17) :=
  after_of_forall_not_mem (b := Proc.devRef .tc main_arg17) _ _ (by not_written ops10)
theorem arg18 (W : Valuation τ sig (Elt Ideal)) : after (ops10 (F := Ideal)) W (Proc.devRef .tc main_arg18) = W (Proc.devRef .tc main_arg18) :=
  after_of_forall_not_mem (b := Proc.devRef .tc main_arg18) _ _ (by not_written ops10)
theorem arg19 (W : Valuation τ sig (Elt Ideal)) : after (ops10 (F := Ideal)) W (Proc.devRef .tc main_arg19) = W (Proc.devRef .tc main_arg19) :=
  after_of_forall_not_mem (b := Proc.devRef .tc main_arg19) _ _ (by not_written ops10)
theorem arg20 (W : Valuation τ sig (Elt Ideal)) : after (ops10 (F := Ideal)) W (Proc.devRef .tc main_arg20) = W (Proc.devRef .tc main_arg20) :=
  after_of_forall_not_mem (b := Proc.devRef .tc main_arg20) _ _ (by not_written ops10)
theorem arg21 (W : Valuation τ sig (Elt Ideal)) : after (ops10 (F := Ideal)) W (Proc.devRef .tc main_arg21) = W (Proc.devRef .tc main_arg21) :=
  after_of_forall_not_mem (b := Proc.devRef .tc main_arg21) _ _ (by not_written ops10)

/-- Every operation of the run determines its result. -/
theorem fresh : (ops10 : List (HloOp τ sig (Elt Ideal))).Forall fun op => op.fresh = ∅ := by
  all_fresh ops10

end Cert.ReferenceIdeal.Chunk10

end
-- ==== Proof.RefRunSeg.lean ====
/-
  The reference program's run, read in eleven steps.

  The program is a straight line of array operations; every weakly fair execution ends with each buffer at the fold of the
  operations' results over the launch contents. The fold over the whole list is the fold over its eleven consecutive runs,
  each started from what the previous ones leave. Run by run, the stage a run completes is the reference's stage function
  of the argument buffers — which no operation writes, so they are the launch contents at every step — given the earlier
  stages it reads, which are where earlier runs left them. The last run completes the result.
-/
import proofs.«124761_j84988812853303_1_alg».proof.Proof.RefChunk0
import proofs.«124761_j84988812853303_1_alg».proof.Proof.RefChunk1
import proofs.«124761_j84988812853303_1_alg».proof.Proof.RefChunk2
import proofs.«124761_j84988812853303_1_alg».proof.Proof.RefChunk3
import proofs.«124761_j84988812853303_1_alg».proof.Proof.RefChunk4
import proofs.«124761_j84988812853303_1_alg».proof.Proof.RefChunk5
import proofs.«124761_j84988812853303_1_alg».proof.Proof.RefChunk6
import proofs.«124761_j84988812853303_1_alg».proof.Proof.RefChunk7
import proofs.«124761_j84988812853303_1_alg».proof.Proof.RefChunk8
import proofs.«124761_j84988812853303_1_alg».proof.Proof.RefChunk9
import proofs.«124761_j84988812853303_1_alg».proof.Proof.RefChunk10
import proofs.«124761_j84988812853303_1_alg».proof.Proof.RefOps
import proofs.«124761_j84988812853303_1_alg».proof.Proof.LibAfter

set_option maxRecDepth 65536

noncomputable section

namespace Cert.ReferenceIdeal.RunSeg

open Cert.ReferenceIdeal Cert.ReferenceIdeal.Gen Idealize.ShloMosaic Idealize.ShloMosaic.TcCoe Idealize.SL.Sem Idealize.ShloMosaic.StableHlo
open Cert.ReferenceIdeal.Chunks Cert.ReferenceIdeal.Read

variable (V : Valuation τ sig (Elt Ideal))

/-! The buffer contents after each run. -/
abbrev U0 : Valuation τ sig (Elt Ideal) := after (ops0 (F := Ideal)) V
abbrev U1 : Valuation τ sig (Elt Ideal) := after (ops1 (F := Ideal)) (U0 V)
abbrev U2 : Valuation τ sig (Elt Ideal) := after (ops2 (F := Ideal)) (U1 V)
abbrev U3 : Valuation τ sig (Elt Ideal) := after (ops3 (F := Ideal)) (U2 V)
abbrev U4 : Valuation τ sig (Elt Ideal) := after (ops4 (F := Ideal)) (U3 V)
abbrev U5 : Valuation τ sig (Elt Ideal) := after (ops5 (F := Ideal)) (U4 V)
abbrev U6 : Valuation τ sig (Elt Ideal) := after (ops6 (F := Ideal)) (U5 V)
abbrev U7 : Valuation τ sig (Elt Ideal) := after (ops7 (F := Ideal)) (U6 V)
abbrev U8 : Valuation τ sig (Elt Ideal) := after (ops8 (F := Ideal)) (U7 V)
abbrev U9 : Valuation τ sig (Elt Ideal) := after (ops9 (F := Ideal)) (U8 V)
abbrev U10 : Valuation τ sig (Elt Ideal) := after (ops10 (F := Ideal)) (U9 V)

/-! The argument buffers after each run are the launch contents. -/
theorem a0_0 : U0 V (Proc.devRef .tc main_arg0) = V (Proc.devRef .tc main_arg0) :=
  Cert.ReferenceIdeal.Chunk0.arg0 V
theorem a0_1 : U0 V (Proc.devRef .tc main_arg1) = V (Proc.devRef .tc main_arg1) :=
  Cert.ReferenceIdeal.Chunk0.arg1 V
theorem a0_2 : U0 V (Proc.devRef .tc main_arg2) = V (Proc.devRef .tc main_arg2) :=
  Cert.ReferenceIdeal.Chunk0.arg2 V
theorem a0_3 : U0 V (Proc.devRef .tc main_arg3) = V (Proc.devRef .tc main_arg3) :=
  Cert.ReferenceIdeal.Chunk0.arg3 V
theorem a0_4 : U0 V (Proc.devRef .tc main_arg4) = V (Proc.devRef .tc main_arg4) :=
  Cert.ReferenceIdeal.Chunk0.arg4 V
theorem a0_5 : U0 V (Proc.devRef .tc main_arg5) = V (Proc.devRef .tc main_arg5) :=
  Cert.ReferenceIdeal.Chunk0.arg5 V
theorem a0_6 : U0 V (Proc.devRef .tc main_arg6) = V (Proc.devRef .tc main_arg6) :=
  Cert.ReferenceIdeal.Chunk0.arg6 V
theorem a0_7 : U0 V (Proc.devRef .tc main_arg7) = V (Proc.devRef .tc main_arg7) :=
  Cert.ReferenceIdeal.Chunk0.arg7 V
theorem a0_8 : U0 V (Proc.devRef .tc main_arg8) = V (Proc.devRef .tc main_arg8) :=
  Cert.ReferenceIdeal.Chunk0.arg8 V
theorem a0_9 : U0 V (Proc.devRef .tc main_arg9) = V (Proc.devRef .tc main_arg9) :=
  Cert.ReferenceIdeal.Chunk0.arg9 V
theorem a0_10 : U0 V (Proc.devRef .tc main_arg10) = V (Proc.devRef .tc main_arg10) :=
  Cert.ReferenceIdeal.Chunk0.arg10 V
theorem a0_11 : U0 V (Proc.devRef .tc main_arg11) = V (Proc.devRef .tc main_arg11) :=
  Cert.ReferenceIdeal.Chunk0.arg11 V
theorem a0_12 : U0 V (Proc.devRef .tc main_arg12) = V (Proc.devRef .tc main_arg12) :=
  Cert.ReferenceIdeal.Chunk0.arg12 V
theorem a0_13 : U0 V (Proc.devRef .tc main_arg13) = V (Proc.devRef .tc main_arg13) :=
  Cert.ReferenceIdeal.Chunk0.arg13 V
theorem a0_14 : U0 V (Proc.devRef .tc main_arg14) = V (Proc.devRef .tc main_arg14) :=
  Cert.ReferenceIdeal.Chunk0.arg14 V
theorem a0_15 : U0 V (Proc.devRef .tc main_arg15) = V (Proc.devRef .tc main_arg15) :=
  Cert.ReferenceIdeal.Chunk0.arg15 V
theorem a0_16 : U0 V (Proc.devRef .tc main_arg16) = V (Proc.devRef .tc main_arg16) :=
  Cert.ReferenceIdeal.Chunk0.arg16 V
theorem a0_17 : U0 V (Proc.devRef .tc main_arg17) = V (Proc.devRef .tc main_arg17) :=
  Cert.ReferenceIdeal.Chunk0.arg17 V
theorem a0_18 : U0 V (Proc.devRef .tc main_arg18) = V (Proc.devRef .tc main_arg18) :=
  Cert.ReferenceIdeal.Chunk0.arg18 V
theorem a0_19 : U0 V (Proc.devRef .tc main_arg19) = V (Proc.devRef .tc main_arg19) :=
  Cert.ReferenceIdeal.Chunk0.arg19 V
theorem a0_20 : U0 V (Proc.devRef .tc main_arg20) = V (Proc.devRef .tc main_arg20) :=
  Cert.ReferenceIdeal.Chunk0.arg20 V
theorem a0_21 : U0 V (Proc.devRef .tc main_arg21) = V (Proc.devRef .tc main_arg21) :=
  Cert.ReferenceIdeal.Chunk0.arg21 V
theorem a1_0 : U1 V (Proc.devRef .tc main_arg0) = V (Proc.devRef .tc main_arg0) :=
  (Cert.ReferenceIdeal.Chunk1.arg0 (U0 V)).trans (a0_0 V)
theorem a1_1 : U1 V (Proc.devRef .tc main_arg1) = V (Proc.devRef .tc main_arg1) :=
  (Cert.ReferenceIdeal.Chunk1.arg1 (U0 V)).trans (a0_1 V)
theorem a1_2 : U1 V (Proc.devRef .tc main_arg2) = V (Proc.devRef .tc main_arg2) :=
  (Cert.ReferenceIdeal.Chunk1.arg2 (U0 V)).trans (a0_2 V)
theorem a1_3 : U1 V (Proc.devRef .tc main_arg3) = V (Proc.devRef .tc main_arg3) :=
  (Cert.ReferenceIdeal.Chunk1.arg3 (U0 V)).trans (a0_3 V)
theorem a1_4 : U1 V (Proc.devRef .tc main_arg4) = V (Proc.devRef .tc main_arg4) :=
  (Cert.ReferenceIdeal.Chunk1.arg4 (U0 V)).trans (a0_4 V)
theorem a1_5 : U1 V (Proc.devRef .tc main_arg5) = V (Proc.devRef .tc main_arg5) :=
  (Cert.ReferenceIdeal.Chunk1.arg5 (U0 V)).trans (a0_5 V)
theorem a1_6 : U1 V (Proc.devRef .tc main_arg6) = V (Proc.devRef .tc main_arg6) :=
  (Cert.ReferenceIdeal.Chunk1.arg6 (U0 V)).trans (a0_6 V)
theorem a1_7 : U1 V (Proc.devRef .tc main_arg7) = V (Proc.devRef .tc main_arg7) :=
  (Cert.ReferenceIdeal.Chunk1.arg7 (U0 V)).trans (a0_7 V)
theorem a1_8 : U1 V (Proc.devRef .tc main_arg8) = V (Proc.devRef .tc main_arg8) :=
  (Cert.ReferenceIdeal.Chunk1.arg8 (U0 V)).trans (a0_8 V)
theorem a1_9 : U1 V (Proc.devRef .tc main_arg9) = V (Proc.devRef .tc main_arg9) :=
  (Cert.ReferenceIdeal.Chunk1.arg9 (U0 V)).trans (a0_9 V)
theorem a1_10 : U1 V (Proc.devRef .tc main_arg10) = V (Proc.devRef .tc main_arg10) :=
  (Cert.ReferenceIdeal.Chunk1.arg10 (U0 V)).trans (a0_10 V)
theorem a1_11 : U1 V (Proc.devRef .tc main_arg11) = V (Proc.devRef .tc main_arg11) :=
  (Cert.ReferenceIdeal.Chunk1.arg11 (U0 V)).trans (a0_11 V)
theorem a1_12 : U1 V (Proc.devRef .tc main_arg12) = V (Proc.devRef .tc main_arg12) :=
  (Cert.ReferenceIdeal.Chunk1.arg12 (U0 V)).trans (a0_12 V)
theorem a1_13 : U1 V (Proc.devRef .tc main_arg13) = V (Proc.devRef .tc main_arg13) :=
  (Cert.ReferenceIdeal.Chunk1.arg13 (U0 V)).trans (a0_13 V)
theorem a1_14 : U1 V (Proc.devRef .tc main_arg14) = V (Proc.devRef .tc main_arg14) :=
  (Cert.ReferenceIdeal.Chunk1.arg14 (U0 V)).trans (a0_14 V)
theorem a1_15 : U1 V (Proc.devRef .tc main_arg15) = V (Proc.devRef .tc main_arg15) :=
  (Cert.ReferenceIdeal.Chunk1.arg15 (U0 V)).trans (a0_15 V)
theorem a1_16 : U1 V (Proc.devRef .tc main_arg16) = V (Proc.devRef .tc main_arg16) :=
  (Cert.ReferenceIdeal.Chunk1.arg16 (U0 V)).trans (a0_16 V)
theorem a1_17 : U1 V (Proc.devRef .tc main_arg17) = V (Proc.devRef .tc main_arg17) :=
  (Cert.ReferenceIdeal.Chunk1.arg17 (U0 V)).trans (a0_17 V)
theorem a1_18 : U1 V (Proc.devRef .tc main_arg18) = V (Proc.devRef .tc main_arg18) :=
  (Cert.ReferenceIdeal.Chunk1.arg18 (U0 V)).trans (a0_18 V)
theorem a1_19 : U1 V (Proc.devRef .tc main_arg19) = V (Proc.devRef .tc main_arg19) :=
  (Cert.ReferenceIdeal.Chunk1.arg19 (U0 V)).trans (a0_19 V)
theorem a1_20 : U1 V (Proc.devRef .tc main_arg20) = V (Proc.devRef .tc main_arg20) :=
  (Cert.ReferenceIdeal.Chunk1.arg20 (U0 V)).trans (a0_20 V)
theorem a1_21 : U1 V (Proc.devRef .tc main_arg21) = V (Proc.devRef .tc main_arg21) :=
  (Cert.ReferenceIdeal.Chunk1.arg21 (U0 V)).trans (a0_21 V)
theorem a2_0 : U2 V (Proc.devRef .tc main_arg0) = V (Proc.devRef .tc main_arg0) :=
  (Cert.ReferenceIdeal.Chunk2.arg0 (U1 V)).trans (a1_0 V)
theorem a2_1 : U2 V (Proc.devRef .tc main_arg1) = V (Proc.devRef .tc main_arg1) :=
  (Cert.ReferenceIdeal.Chunk2.arg1 (U1 V)).trans (a1_1 V)
theorem a2_2 : U2 V (Proc.devRef .tc main_arg2) = V (Proc.devRef .tc main_arg2) :=
  (Cert.ReferenceIdeal.Chunk2.arg2 (U1 V)).trans (a1_2 V)
theorem a2_3 : U2 V (Proc.devRef .tc main_arg3) = V (Proc.devRef .tc main_arg3) :=
  (Cert.ReferenceIdeal.Chunk2.arg3 (U1 V)).trans (a1_3 V)
theorem a2_4 : U2 V (Proc.devRef .tc main_arg4) = V (Proc.devRef .tc main_arg4) :=
  (Cert.ReferenceIdeal.Chunk2.arg4 (U1 V)).trans (a1_4 V)
theorem a2_5 : U2 V (Proc.devRef .tc main_arg5) = V (Proc.devRef .tc main_arg5) :=
  (Cert.ReferenceIdeal.Chunk2.arg5 (U1 V)).trans (a1_5 V)
theorem a2_6 : U2 V (Proc.devRef .tc main_arg6) = V (Proc.devRef .tc main_arg6) :=
  (Cert.ReferenceIdeal.Chunk2.arg6 (U1 V)).trans (a1_6 V)
theorem a2_7 : U2 V (Proc.devRef .tc main_arg7) = V (Proc.devRef .tc main_arg7) :=
  (Cert.ReferenceIdeal.Chunk2.arg7 (U1 V)).trans (a1_7 V)
theorem a2_8 : U2 V (Proc.devRef .tc main_arg8) = V (Proc.devRef .tc main_arg8) :=
  (Cert.ReferenceIdeal.Chunk2.arg8 (U1 V)).trans (a1_8 V)
theorem a2_9 : U2 V (Proc.devRef .tc main_arg9) = V (Proc.devRef .tc main_arg9) :=
  (Cert.ReferenceIdeal.Chunk2.arg9 (U1 V)).trans (a1_9 V)
theorem a2_10 : U2 V (Proc.devRef .tc main_arg10) = V (Proc.devRef .tc main_arg10) :=
  (Cert.ReferenceIdeal.Chunk2.arg10 (U1 V)).trans (a1_10 V)
theorem a2_11 : U2 V (Proc.devRef .tc main_arg11) = V (Proc.devRef .tc main_arg11) :=
  (Cert.ReferenceIdeal.Chunk2.arg11 (U1 V)).trans (a1_11 V)
theorem a2_12 : U2 V (Proc.devRef .tc main_arg12) = V (Proc.devRef .tc main_arg12) :=
  (Cert.ReferenceIdeal.Chunk2.arg12 (U1 V)).trans (a1_12 V)
theorem a2_13 : U2 V (Proc.devRef .tc main_arg13) = V (Proc.devRef .tc main_arg13) :=
  (Cert.ReferenceIdeal.Chunk2.arg13 (U1 V)).trans (a1_13 V)
theorem a2_14 : U2 V (Proc.devRef .tc main_arg14) = V (Proc.devRef .tc main_arg14) :=
  (Cert.ReferenceIdeal.Chunk2.arg14 (U1 V)).trans (a1_14 V)
theorem a2_15 : U2 V (Proc.devRef .tc main_arg15) = V (Proc.devRef .tc main_arg15) :=
  (Cert.ReferenceIdeal.Chunk2.arg15 (U1 V)).trans (a1_15 V)
theorem a2_16 : U2 V (Proc.devRef .tc main_arg16) = V (Proc.devRef .tc main_arg16) :=
  (Cert.ReferenceIdeal.Chunk2.arg16 (U1 V)).trans (a1_16 V)
theorem a2_17 : U2 V (Proc.devRef .tc main_arg17) = V (Proc.devRef .tc main_arg17) :=
  (Cert.ReferenceIdeal.Chunk2.arg17 (U1 V)).trans (a1_17 V)
theorem a2_18 : U2 V (Proc.devRef .tc main_arg18) = V (Proc.devRef .tc main_arg18) :=
  (Cert.ReferenceIdeal.Chunk2.arg18 (U1 V)).trans (a1_18 V)
theorem a2_19 : U2 V (Proc.devRef .tc main_arg19) = V (Proc.devRef .tc main_arg19) :=
  (Cert.ReferenceIdeal.Chunk2.arg19 (U1 V)).trans (a1_19 V)
theorem a2_20 : U2 V (Proc.devRef .tc main_arg20) = V (Proc.devRef .tc main_arg20) :=
  (Cert.ReferenceIdeal.Chunk2.arg20 (U1 V)).trans (a1_20 V)
theorem a2_21 : U2 V (Proc.devRef .tc main_arg21) = V (Proc.devRef .tc main_arg21) :=
  (Cert.ReferenceIdeal.Chunk2.arg21 (U1 V)).trans (a1_21 V)
theorem a3_0 : U3 V (Proc.devRef .tc main_arg0) = V (Proc.devRef .tc main_arg0) :=
  (Cert.ReferenceIdeal.Chunk3.arg0 (U2 V)).trans (a2_0 V)
theorem a3_1 : U3 V (Proc.devRef .tc main_arg1) = V (Proc.devRef .tc main_arg1) :=
  (Cert.ReferenceIdeal.Chunk3.arg1 (U2 V)).trans (a2_1 V)
theorem a3_2 : U3 V (Proc.devRef .tc main_arg2) = V (Proc.devRef .tc main_arg2) :=
  (Cert.ReferenceIdeal.Chunk3.arg2 (U2 V)).trans (a2_2 V)
theorem a3_3 : U3 V (Proc.devRef .tc main_arg3) = V (Proc.devRef .tc main_arg3) :=
  (Cert.ReferenceIdeal.Chunk3.arg3 (U2 V)).trans (a2_3 V)
theorem a3_4 : U3 V (Proc.devRef .tc main_arg4) = V (Proc.devRef .tc main_arg4) :=
  (Cert.ReferenceIdeal.Chunk3.arg4 (U2 V)).trans (a2_4 V)
theorem a3_5 : U3 V (Proc.devRef .tc main_arg5) = V (Proc.devRef .tc main_arg5) :=
  (Cert.ReferenceIdeal.Chunk3.arg5 (U2 V)).trans (a2_5 V)
theorem a3_6 : U3 V (Proc.devRef .tc main_arg6) = V (Proc.devRef .tc main_arg6) :=
  (Cert.ReferenceIdeal.Chunk3.arg6 (U2 V)).trans (a2_6 V)
theorem a3_7 : U3 V (Proc.devRef .tc main_arg7) = V (Proc.devRef .tc main_arg7) :=
  (Cert.ReferenceIdeal.Chunk3.arg7 (U2 V)).trans (a2_7 V)
theorem a3_8 : U3 V (Proc.devRef .tc main_arg8) = V (Proc.devRef .tc main_arg8) :=
  (Cert.ReferenceIdeal.Chunk3.arg8 (U2 V)).trans (a2_8 V)
theorem a3_9 : U3 V (Proc.devRef .tc main_arg9) = V (Proc.devRef .tc main_arg9) :=
  (Cert.ReferenceIdeal.Chunk3.arg9 (U2 V)).trans (a2_9 V)
theorem a3_10 : U3 V (Proc.devRef .tc main_arg10) = V (Proc.devRef .tc main_arg10) :=
  (Cert.ReferenceIdeal.Chunk3.arg10 (U2 V)).trans (a2_10 V)
theorem a3_11 : U3 V (Proc.devRef .tc main_arg11) = V (Proc.devRef .tc main_arg11) :=
  (Cert.ReferenceIdeal.Chunk3.arg11 (U2 V)).trans (a2_11 V)
theorem a3_12 : U3 V (Proc.devRef .tc main_arg12) = V (Proc.devRef .tc main_arg12) :=
  (Cert.ReferenceIdeal.Chunk3.arg12 (U2 V)).trans (a2_12 V)
theorem a3_13 : U3 V (Proc.devRef .tc main_arg13) = V (Proc.devRef .tc main_arg13) :=
  (Cert.ReferenceIdeal.Chunk3.arg13 (U2 V)).trans (a2_13 V)
theorem a3_14 : U3 V (Proc.devRef .tc main_arg14) = V (Proc.devRef .tc main_arg14) :=
  (Cert.ReferenceIdeal.Chunk3.arg14 (U2 V)).trans (a2_14 V)
theorem a3_15 : U3 V (Proc.devRef .tc main_arg15) = V (Proc.devRef .tc main_arg15) :=
  (Cert.ReferenceIdeal.Chunk3.arg15 (U2 V)).trans (a2_15 V)
theorem a3_16 : U3 V (Proc.devRef .tc main_arg16) = V (Proc.devRef .tc main_arg16) :=
  (Cert.ReferenceIdeal.Chunk3.arg16 (U2 V)).trans (a2_16 V)
theorem a3_17 : U3 V (Proc.devRef .tc main_arg17) = V (Proc.devRef .tc main_arg17) :=
  (Cert.ReferenceIdeal.Chunk3.arg17 (U2 V)).trans (a2_17 V)
theorem a3_18 : U3 V (Proc.devRef .tc main_arg18) = V (Proc.devRef .tc main_arg18) :=
  (Cert.ReferenceIdeal.Chunk3.arg18 (U2 V)).trans (a2_18 V)
theorem a3_19 : U3 V (Proc.devRef .tc main_arg19) = V (Proc.devRef .tc main_arg19) :=
  (Cert.ReferenceIdeal.Chunk3.arg19 (U2 V)).trans (a2_19 V)
theorem a3_20 : U3 V (Proc.devRef .tc main_arg20) = V (Proc.devRef .tc main_arg20) :=
  (Cert.ReferenceIdeal.Chunk3.arg20 (U2 V)).trans (a2_20 V)
theorem a3_21 : U3 V (Proc.devRef .tc main_arg21) = V (Proc.devRef .tc main_arg21) :=
  (Cert.ReferenceIdeal.Chunk3.arg21 (U2 V)).trans (a2_21 V)
theorem a4_0 : U4 V (Proc.devRef .tc main_arg0) = V (Proc.devRef .tc main_arg0) :=
  (Cert.ReferenceIdeal.Chunk4.arg0 (U3 V)).trans (a3_0 V)
theorem a4_1 : U4 V (Proc.devRef .tc main_arg1) = V (Proc.devRef .tc main_arg1) :=
  (Cert.ReferenceIdeal.Chunk4.arg1 (U3 V)).trans (a3_1 V)
theorem a4_2 : U4 V (Proc.devRef .tc main_arg2) = V (Proc.devRef .tc main_arg2) :=
  (Cert.ReferenceIdeal.Chunk4.arg2 (U3 V)).trans (a3_2 V)
theorem a4_3 : U4 V (Proc.devRef .tc main_arg3) = V (Proc.devRef .tc main_arg3) :=
  (Cert.ReferenceIdeal.Chunk4.arg3 (U3 V)).trans (a3_3 V)
theorem a4_4 : U4 V (Proc.devRef .tc main_arg4) = V (Proc.devRef .tc main_arg4) :=
  (Cert.ReferenceIdeal.Chunk4.arg4 (U3 V)).trans (a3_4 V)
theorem a4_5 : U4 V (Proc.devRef .tc main_arg5) = V (Proc.devRef .tc main_arg5) :=
  (Cert.ReferenceIdeal.Chunk4.arg5 (U3 V)).trans (a3_5 V)
theorem a4_6 : U4 V (Proc.devRef .tc main_arg6) = V (Proc.devRef .tc main_arg6) :=
  (Cert.ReferenceIdeal.Chunk4.arg6 (U3 V)).trans (a3_6 V)
theorem a4_7 : U4 V (Proc.devRef .tc main_arg7) = V (Proc.devRef .tc main_arg7) :=
  (Cert.ReferenceIdeal.Chunk4.arg7 (U3 V)).trans (a3_7 V)
theorem a4_8 : U4 V (Proc.devRef .tc main_arg8) = V (Proc.devRef .tc main_arg8) :=
  (Cert.ReferenceIdeal.Chunk4.arg8 (U3 V)).trans (a3_8 V)
theorem a4_9 : U4 V (Proc.devRef .tc main_arg9) = V (Proc.devRef .tc main_arg9) :=
  (Cert.ReferenceIdeal.Chunk4.arg9 (U3 V)).trans (a3_9 V)
theorem a4_10 : U4 V (Proc.devRef .tc main_arg10) = V (Proc.devRef .tc main_arg10) :=
  (Cert.ReferenceIdeal.Chunk4.arg10 (U3 V)).trans (a3_10 V)
theorem a4_11 : U4 V (Proc.devRef .tc main_arg11) = V (Proc.devRef .tc main_arg11) :=
  (Cert.ReferenceIdeal.Chunk4.arg11 (U3 V)).trans (a3_11 V)
theorem a4_12 : U4 V (Proc.devRef .tc main_arg12) = V (Proc.devRef .tc main_arg12) :=
  (Cert.ReferenceIdeal.Chunk4.arg12 (U3 V)).trans (a3_12 V)
theorem a4_13 : U4 V (Proc.devRef .tc main_arg13) = V (Proc.devRef .tc main_arg13) :=
  (Cert.ReferenceIdeal.Chunk4.arg13 (U3 V)).trans (a3_13 V)
theorem a4_14 : U4 V (Proc.devRef .tc main_arg14) = V (Proc.devRef .tc main_arg14) :=
  (Cert.ReferenceIdeal.Chunk4.arg14 (U3 V)).trans (a3_14 V)
theorem a4_15 : U4 V (Proc.devRef .tc main_arg15) = V (Proc.devRef .tc main_arg15) :=
  (Cert.ReferenceIdeal.Chunk4.arg15 (U3 V)).trans (a3_15 V)
theorem a4_16 : U4 V (Proc.devRef .tc main_arg16) = V (Proc.devRef .tc main_arg16) :=
  (Cert.ReferenceIdeal.Chunk4.arg16 (U3 V)).trans (a3_16 V)
theorem a4_17 : U4 V (Proc.devRef .tc main_arg17) = V (Proc.devRef .tc main_arg17) :=
  (Cert.ReferenceIdeal.Chunk4.arg17 (U3 V)).trans (a3_17 V)
theorem a4_18 : U4 V (Proc.devRef .tc main_arg18) = V (Proc.devRef .tc main_arg18) :=
  (Cert.ReferenceIdeal.Chunk4.arg18 (U3 V)).trans (a3_18 V)
theorem a4_19 : U4 V (Proc.devRef .tc main_arg19) = V (Proc.devRef .tc main_arg19) :=
  (Cert.ReferenceIdeal.Chunk4.arg19 (U3 V)).trans (a3_19 V)
theorem a4_20 : U4 V (Proc.devRef .tc main_arg20) = V (Proc.devRef .tc main_arg20) :=
  (Cert.ReferenceIdeal.Chunk4.arg20 (U3 V)).trans (a3_20 V)
theorem a4_21 : U4 V (Proc.devRef .tc main_arg21) = V (Proc.devRef .tc main_arg21) :=
  (Cert.ReferenceIdeal.Chunk4.arg21 (U3 V)).trans (a3_21 V)
theorem a5_0 : U5 V (Proc.devRef .tc main_arg0) = V (Proc.devRef .tc main_arg0) :=
  (Cert.ReferenceIdeal.Chunk5.arg0 (U4 V)).trans (a4_0 V)
theorem a5_1 : U5 V (Proc.devRef .tc main_arg1) = V (Proc.devRef .tc main_arg1) :=
  (Cert.ReferenceIdeal.Chunk5.arg1 (U4 V)).trans (a4_1 V)
theorem a5_2 : U5 V (Proc.devRef .tc main_arg2) = V (Proc.devRef .tc main_arg2) :=
  (Cert.ReferenceIdeal.Chunk5.arg2 (U4 V)).trans (a4_2 V)
theorem a5_3 : U5 V (Proc.devRef .tc main_arg3) = V (Proc.devRef .tc main_arg3) :=
  (Cert.ReferenceIdeal.Chunk5.arg3 (U4 V)).trans (a4_3 V)
theorem a5_4 : U5 V (Proc.devRef .tc main_arg4) = V (Proc.devRef .tc main_arg4) :=
  (Cert.ReferenceIdeal.Chunk5.arg4 (U4 V)).trans (a4_4 V)
theorem a5_5 : U5 V (Proc.devRef .tc main_arg5) = V (Proc.devRef .tc main_arg5) :=
  (Cert.ReferenceIdeal.Chunk5.arg5 (U4 V)).trans (a4_5 V)
theorem a5_6 : U5 V (Proc.devRef .tc main_arg6) = V (Proc.devRef .tc main_arg6) :=
  (Cert.ReferenceIdeal.Chunk5.arg6 (U4 V)).trans (a4_6 V)
theorem a5_7 : U5 V (Proc.devRef .tc main_arg7) = V (Proc.devRef .tc main_arg7) :=
  (Cert.ReferenceIdeal.Chunk5.arg7 (U4 V)).trans (a4_7 V)
theorem a5_8 : U5 V (Proc.devRef .tc main_arg8) = V (Proc.devRef .tc main_arg8) :=
  (Cert.ReferenceIdeal.Chunk5.arg8 (U4 V)).trans (a4_8 V)
theorem a5_9 : U5 V (Proc.devRef .tc main_arg9) = V (Proc.devRef .tc main_arg9) :=
  (Cert.ReferenceIdeal.Chunk5.arg9 (U4 V)).trans (a4_9 V)
theorem a5_10 : U5 V (Proc.devRef .tc main_arg10) = V (Proc.devRef .tc main_arg10) :=
  (Cert.ReferenceIdeal.Chunk5.arg10 (U4 V)).trans (a4_10 V)
theorem a5_11 : U5 V (Proc.devRef .tc main_arg11) = V (Proc.devRef .tc main_arg11) :=
  (Cert.ReferenceIdeal.Chunk5.arg11 (U4 V)).trans (a4_11 V)
theorem a5_12 : U5 V (Proc.devRef .tc main_arg12) = V (Proc.devRef .tc main_arg12) :=
  (Cert.ReferenceIdeal.Chunk5.arg12 (U4 V)).trans (a4_12 V)
theorem a5_13 : U5 V (Proc.devRef .tc main_arg13) = V (Proc.devRef .tc main_arg13) :=
  (Cert.ReferenceIdeal.Chunk5.arg13 (U4 V)).trans (a4_13 V)
theorem a5_14 : U5 V (Proc.devRef .tc main_arg14) = V (Proc.devRef .tc main_arg14) :=
  (Cert.ReferenceIdeal.Chunk5.arg14 (U4 V)).trans (a4_14 V)
theorem a5_15 : U5 V (Proc.devRef .tc main_arg15) = V (Proc.devRef .tc main_arg15) :=
  (Cert.ReferenceIdeal.Chunk5.arg15 (U4 V)).trans (a4_15 V)
theorem a5_16 : U5 V (Proc.devRef .tc main_arg16) = V (Proc.devRef .tc main_arg16) :=
  (Cert.ReferenceIdeal.Chunk5.arg16 (U4 V)).trans (a4_16 V)
theorem a5_17 : U5 V (Proc.devRef .tc main_arg17) = V (Proc.devRef .tc main_arg17) :=
  (Cert.ReferenceIdeal.Chunk5.arg17 (U4 V)).trans (a4_17 V)
theorem a5_18 : U5 V (Proc.devRef .tc main_arg18) = V (Proc.devRef .tc main_arg18) :=
  (Cert.ReferenceIdeal.Chunk5.arg18 (U4 V)).trans (a4_18 V)
theorem a5_19 : U5 V (Proc.devRef .tc main_arg19) = V (Proc.devRef .tc main_arg19) :=
  (Cert.ReferenceIdeal.Chunk5.arg19 (U4 V)).trans (a4_19 V)
theorem a5_20 : U5 V (Proc.devRef .tc main_arg20) = V (Proc.devRef .tc main_arg20) :=
  (Cert.ReferenceIdeal.Chunk5.arg20 (U4 V)).trans (a4_20 V)
theorem a5_21 : U5 V (Proc.devRef .tc main_arg21) = V (Proc.devRef .tc main_arg21) :=
  (Cert.ReferenceIdeal.Chunk5.arg21 (U4 V)).trans (a4_21 V)
theorem a6_0 : U6 V (Proc.devRef .tc main_arg0) = V (Proc.devRef .tc main_arg0) :=
  (Cert.ReferenceIdeal.Chunk6.arg0 (U5 V)).trans (a5_0 V)
theorem a6_1 : U6 V (Proc.devRef .tc main_arg1) = V (Proc.devRef .tc main_arg1) :=
  (Cert.ReferenceIdeal.Chunk6.arg1 (U5 V)).trans (a5_1 V)
theorem a6_2 : U6 V (Proc.devRef .tc main_arg2) = V (Proc.devRef .tc main_arg2) :=
  (Cert.ReferenceIdeal.Chunk6.arg2 (U5 V)).trans (a5_2 V)
theorem a6_3 : U6 V (Proc.devRef .tc main_arg3) = V (Proc.devRef .tc main_arg3) :=
  (Cert.ReferenceIdeal.Chunk6.arg3 (U5 V)).trans (a5_3 V)
theorem a6_4 : U6 V (Proc.devRef .tc main_arg4) = V (Proc.devRef .tc main_arg4) :=
  (Cert.ReferenceIdeal.Chunk6.arg4 (U5 V)).trans (a5_4 V)
theorem a6_5 : U6 V (Proc.devRef .tc main_arg5) = V (Proc.devRef .tc main_arg5) :=
  (Cert.ReferenceIdeal.Chunk6.arg5 (U5 V)).trans (a5_5 V)
theorem a6_6 : U6 V (Proc.devRef .tc main_arg6) = V (Proc.devRef .tc main_arg6) :=
  (Cert.ReferenceIdeal.Chunk6.arg6 (U5 V)).trans (a5_6 V)
theorem a6_7 : U6 V (Proc.devRef .tc main_arg7) = V (Proc.devRef .tc main_arg7) :=
  (Cert.ReferenceIdeal.Chunk6.arg7 (U5 V)).trans (a5_7 V)
theorem a6_8 : U6 V (Proc.devRef .tc main_arg8) = V (Proc.devRef .tc main_arg8) :=
  (Cert.ReferenceIdeal.Chunk6.arg8 (U5 V)).trans (a5_8 V)
theorem a6_9 : U6 V (Proc.devRef .tc main_arg9) = V (Proc.devRef .tc main_arg9) :=
  (Cert.ReferenceIdeal.Chunk6.arg9 (U5 V)).trans (a5_9 V)
theorem a6_10 : U6 V (Proc.devRef .tc main_arg10) = V (Proc.devRef .tc main_arg10) :=
  (Cert.ReferenceIdeal.Chunk6.arg10 (U5 V)).trans (a5_10 V)
theorem a6_11 : U6 V (Proc.devRef .tc main_arg11) = V (Proc.devRef .tc main_arg11) :=
  (Cert.ReferenceIdeal.Chunk6.arg11 (U5 V)).trans (a5_11 V)
theorem a6_12 : U6 V (Proc.devRef .tc main_arg12) = V (Proc.devRef .tc main_arg12) :=
  (Cert.ReferenceIdeal.Chunk6.arg12 (U5 V)).trans (a5_12 V)
theorem a6_13 : U6 V (Proc.devRef .tc main_arg13) = V (Proc.devRef .tc main_arg13) :=
  (Cert.ReferenceIdeal.Chunk6.arg13 (U5 V)).trans (a5_13 V)
theorem a6_14 : U6 V (Proc.devRef .tc main_arg14) = V (Proc.devRef .tc main_arg14) :=
  (Cert.ReferenceIdeal.Chunk6.arg14 (U5 V)).trans (a5_14 V)
theorem a6_15 : U6 V (Proc.devRef .tc main_arg15) = V (Proc.devRef .tc main_arg15) :=
  (Cert.ReferenceIdeal.Chunk6.arg15 (U5 V)).trans (a5_15 V)
theorem a6_16 : U6 V (Proc.devRef .tc main_arg16) = V (Proc.devRef .tc main_arg16) :=
  (Cert.ReferenceIdeal.Chunk6.arg16 (U5 V)).trans (a5_16 V)
theorem a6_17 : U6 V (Proc.devRef .tc main_arg17) = V (Proc.devRef .tc main_arg17) :=
  (Cert.ReferenceIdeal.Chunk6.arg17 (U5 V)).trans (a5_17 V)
theorem a6_18 : U6 V (Proc.devRef .tc main_arg18) = V (Proc.devRef .tc main_arg18) :=
  (Cert.ReferenceIdeal.Chunk6.arg18 (U5 V)).trans (a5_18 V)
theorem a6_19 : U6 V (Proc.devRef .tc main_arg19) = V (Proc.devRef .tc main_arg19) :=
  (Cert.ReferenceIdeal.Chunk6.arg19 (U5 V)).trans (a5_19 V)
theorem a6_20 : U6 V (Proc.devRef .tc main_arg20) = V (Proc.devRef .tc main_arg20) :=
  (Cert.ReferenceIdeal.Chunk6.arg20 (U5 V)).trans (a5_20 V)
theorem a6_21 : U6 V (Proc.devRef .tc main_arg21) = V (Proc.devRef .tc main_arg21) :=
  (Cert.ReferenceIdeal.Chunk6.arg21 (U5 V)).trans (a5_21 V)
theorem a7_0 : U7 V (Proc.devRef .tc main_arg0) = V (Proc.devRef .tc main_arg0) :=
  (Cert.ReferenceIdeal.Chunk7.arg0 (U6 V)).trans (a6_0 V)
theorem a7_1 : U7 V (Proc.devRef .tc main_arg1) = V (Proc.devRef .tc main_arg1) :=
  (Cert.ReferenceIdeal.Chunk7.arg1 (U6 V)).trans (a6_1 V)
theorem a7_2 : U7 V (Proc.devRef .tc main_arg2) = V (Proc.devRef .tc main_arg2) :=
  (Cert.ReferenceIdeal.Chunk7.arg2 (U6 V)).trans (a6_2 V)
theorem a7_3 : U7 V (Proc.devRef .tc main_arg3) = V (Proc.devRef .tc main_arg3) :=
  (Cert.ReferenceIdeal.Chunk7.arg3 (U6 V)).trans (a6_3 V)
theorem a7_4 : U7 V (Proc.devRef .tc main_arg4) = V (Proc.devRef .tc main_arg4) :=
  (Cert.ReferenceIdeal.Chunk7.arg4 (U6 V)).trans (a6_4 V)
theorem a7_5 : U7 V (Proc.devRef .tc main_arg5) = V (Proc.devRef .tc main_arg5) :=
  (Cert.ReferenceIdeal.Chunk7.arg5 (U6 V)).trans (a6_5 V)
theorem a7_6 : U7 V (Proc.devRef .tc main_arg6) = V (Proc.devRef .tc main_arg6) :=
  (Cert.ReferenceIdeal.Chunk7.arg6 (U6 V)).trans (a6_6 V)
theorem a7_7 : U7 V (Proc.devRef .tc main_arg7) = V (Proc.devRef .tc main_arg7) :=
  (Cert.ReferenceIdeal.Chunk7.arg7 (U6 V)).trans (a6_7 V)
theorem a7_8 : U7 V (Proc.devRef .tc main_arg8) = V (Proc.devRef .tc main_arg8) :=
  (Cert.ReferenceIdeal.Chunk7.arg8 (U6 V)).trans (a6_8 V)
theorem a7_9 : U7 V (Proc.devRef .tc main_arg9) = V (Proc.devRef .tc main_arg9) :=
  (Cert.ReferenceIdeal.Chunk7.arg9 (U6 V)).trans (a6_9 V)
theorem a7_10 : U7 V (Proc.devRef .tc main_arg10) = V (Proc.devRef .tc main_arg10) :=
  (Cert.ReferenceIdeal.Chunk7.arg10 (U6 V)).trans (a6_10 V)
theorem a7_11 : U7 V (Proc.devRef .tc main_arg11) = V (Proc.devRef .tc main_arg11) :=
  (Cert.ReferenceIdeal.Chunk7.arg11 (U6 V)).trans (a6_11 V)
theorem a7_12 : U7 V (Proc.devRef .tc main_arg12) = V (Proc.devRef .tc main_arg12) :=
  (Cert.ReferenceIdeal.Chunk7.arg12 (U6 V)).trans (a6_12 V)
theorem a7_13 : U7 V (Proc.devRef .tc main_arg13) = V (Proc.devRef .tc main_arg13) :=
  (Cert.ReferenceIdeal.Chunk7.arg13 (U6 V)).trans (a6_13 V)
theorem a7_14 : U7 V (Proc.devRef .tc main_arg14) = V (Proc.devRef .tc main_arg14) :=
  (Cert.ReferenceIdeal.Chunk7.arg14 (U6 V)).trans (a6_14 V)
theorem a7_15 : U7 V (Proc.devRef .tc main_arg15) = V (Proc.devRef .tc main_arg15) :=
  (Cert.ReferenceIdeal.Chunk7.arg15 (U6 V)).trans (a6_15 V)
theorem a7_16 : U7 V (Proc.devRef .tc main_arg16) = V (Proc.devRef .tc main_arg16) :=
  (Cert.ReferenceIdeal.Chunk7.arg16 (U6 V)).trans (a6_16 V)
theorem a7_17 : U7 V (Proc.devRef .tc main_arg17) = V (Proc.devRef .tc main_arg17) :=
  (Cert.ReferenceIdeal.Chunk7.arg17 (U6 V)).trans (a6_17 V)
theorem a7_18 : U7 V (Proc.devRef .tc main_arg18) = V (Proc.devRef .tc main_arg18) :=
  (Cert.ReferenceIdeal.Chunk7.arg18 (U6 V)).trans (a6_18 V)
theorem a7_19 : U7 V (Proc.devRef .tc main_arg19) = V (Proc.devRef .tc main_arg19) :=
  (Cert.ReferenceIdeal.Chunk7.arg19 (U6 V)).trans (a6_19 V)
theorem a7_20 : U7 V (Proc.devRef .tc main_arg20) = V (Proc.devRef .tc main_arg20) :=
  (Cert.ReferenceIdeal.Chunk7.arg20 (U6 V)).trans (a6_20 V)
theorem a7_21 : U7 V (Proc.devRef .tc main_arg21) = V (Proc.devRef .tc main_arg21) :=
  (Cert.ReferenceIdeal.Chunk7.arg21 (U6 V)).trans (a6_21 V)
theorem a8_0 : U8 V (Proc.devRef .tc main_arg0) = V (Proc.devRef .tc main_arg0) :=
  (Cert.ReferenceIdeal.Chunk8.arg0 (U7 V)).trans (a7_0 V)
theorem a8_1 : U8 V (Proc.devRef .tc main_arg1) = V (Proc.devRef .tc main_arg1) :=
  (Cert.ReferenceIdeal.Chunk8.arg1 (U7 V)).trans (a7_1 V)
theorem a8_2 : U8 V (Proc.devRef .tc main_arg2) = V (Proc.devRef .tc main_arg2) :=
  (Cert.ReferenceIdeal.Chunk8.arg2 (U7 V)).trans (a7_2 V)
theorem a8_3 : U8 V (Proc.devRef .tc main_arg3) = V (Proc.devRef .tc main_arg3) :=
  (Cert.ReferenceIdeal.Chunk8.arg3 (U7 V)).trans (a7_3 V)
theorem a8_4 : U8 V (Proc.devRef .tc main_arg4) = V (Proc.devRef .tc main_arg4) :=
  (Cert.ReferenceIdeal.Chunk8.arg4 (U7 V)).trans (a7_4 V)
theorem a8_5 : U8 V (Proc.devRef .tc main_arg5) = V (Proc.devRef .tc main_arg5) :=
  (Cert.ReferenceIdeal.Chunk8.arg5 (U7 V)).trans (a7_5 V)
theorem a8_6 : U8 V (Proc.devRef .tc main_arg6) = V (Proc.devRef .tc main_arg6) :=
  (Cert.ReferenceIdeal.Chunk8.arg6 (U7 V)).trans (a7_6 V)
theorem a8_7 : U8 V (Proc.devRef .tc main_arg7) = V (Proc.devRef .tc main_arg7) :=
  (Cert.ReferenceIdeal.Chunk8.arg7 (U7 V)).trans (a7_7 V)
theorem a8_8 : U8 V (Proc.devRef .tc main_arg8) = V (Proc.devRef .tc main_arg8) :=
  (Cert.ReferenceIdeal.Chunk8.arg8 (U7 V)).trans (a7_8 V)
theorem a8_9 : U8 V (Proc.devRef .tc main_arg9) = V (Proc.devRef .tc main_arg9) :=
  (Cert.ReferenceIdeal.Chunk8.arg9 (U7 V)).trans (a7_9 V)
theorem a8_10 : U8 V (Proc.devRef .tc main_arg10) = V (Proc.devRef .tc main_arg10) :=
  (Cert.ReferenceIdeal.Chunk8.arg10 (U7 V)).trans (a7_10 V)
theorem a8_11 : U8 V (Proc.devRef .tc main_arg11) = V (Proc.devRef .tc main_arg11) :=
  (Cert.ReferenceIdeal.Chunk8.arg11 (U7 V)).trans (a7_11 V)
theorem a8_12 : U8 V (Proc.devRef .tc main_arg12) = V (Proc.devRef .tc main_arg12) :=
  (Cert.ReferenceIdeal.Chunk8.arg12 (U7 V)).trans (a7_12 V)
theorem a8_13 : U8 V (Proc.devRef .tc main_arg13) = V (Proc.devRef .tc main_arg13) :=
  (Cert.ReferenceIdeal.Chunk8.arg13 (U7 V)).trans (a7_13 V)
theorem a8_14 : U8 V (Proc.devRef .tc main_arg14) = V (Proc.devRef .tc main_arg14) :=
  (Cert.ReferenceIdeal.Chunk8.arg14 (U7 V)).trans (a7_14 V)
theorem a8_15 : U8 V (Proc.devRef .tc main_arg15) = V (Proc.devRef .tc main_arg15) :=
  (Cert.ReferenceIdeal.Chunk8.arg15 (U7 V)).trans (a7_15 V)
theorem a8_16 : U8 V (Proc.devRef .tc main_arg16) = V (Proc.devRef .tc main_arg16) :=
  (Cert.ReferenceIdeal.Chunk8.arg16 (U7 V)).trans (a7_16 V)
theorem a8_17 : U8 V (Proc.devRef .tc main_arg17) = V (Proc.devRef .tc main_arg17) :=
  (Cert.ReferenceIdeal.Chunk8.arg17 (U7 V)).trans (a7_17 V)
theorem a8_18 : U8 V (Proc.devRef .tc main_arg18) = V (Proc.devRef .tc main_arg18) :=
  (Cert.ReferenceIdeal.Chunk8.arg18 (U7 V)).trans (a7_18 V)
theorem a8_19 : U8 V (Proc.devRef .tc main_arg19) = V (Proc.devRef .tc main_arg19) :=
  (Cert.ReferenceIdeal.Chunk8.arg19 (U7 V)).trans (a7_19 V)
theorem a8_20 : U8 V (Proc.devRef .tc main_arg20) = V (Proc.devRef .tc main_arg20) :=
  (Cert.ReferenceIdeal.Chunk8.arg20 (U7 V)).trans (a7_20 V)
theorem a8_21 : U8 V (Proc.devRef .tc main_arg21) = V (Proc.devRef .tc main_arg21) :=
  (Cert.ReferenceIdeal.Chunk8.arg21 (U7 V)).trans (a7_21 V)
theorem a9_0 : U9 V (Proc.devRef .tc main_arg0) = V (Proc.devRef .tc main_arg0) :=
  (Cert.ReferenceIdeal.Chunk9.arg0 (U8 V)).trans (a8_0 V)
theorem a9_1 : U9 V (Proc.devRef .tc main_arg1) = V (Proc.devRef .tc main_arg1) :=
  (Cert.ReferenceIdeal.Chunk9.arg1 (U8 V)).trans (a8_1 V)
theorem a9_2 : U9 V (Proc.devRef .tc main_arg2) = V (Proc.devRef .tc main_arg2) :=
  (Cert.ReferenceIdeal.Chunk9.arg2 (U8 V)).trans (a8_2 V)
theorem a9_3 : U9 V (Proc.devRef .tc main_arg3) = V (Proc.devRef .tc main_arg3) :=
  (Cert.ReferenceIdeal.Chunk9.arg3 (U8 V)).trans (a8_3 V)
theorem a9_4 : U9 V (Proc.devRef .tc main_arg4) = V (Proc.devRef .tc main_arg4) :=
  (Cert.ReferenceIdeal.Chunk9.arg4 (U8 V)).trans (a8_4 V)
theorem a9_5 : U9 V (Proc.devRef .tc main_arg5) = V (Proc.devRef .tc main_arg5) :=
  (Cert.ReferenceIdeal.Chunk9.arg5 (U8 V)).trans (a8_5 V)
theorem a9_6 : U9 V (Proc.devRef .tc main_arg6) = V (Proc.devRef .tc main_arg6) :=
  (Cert.ReferenceIdeal.Chunk9.arg6 (U8 V)).trans (a8_6 V)
theorem a9_7 : U9 V (Proc.devRef .tc main_arg7) = V (Proc.devRef .tc main_arg7) :=
  (Cert.ReferenceIdeal.Chunk9.arg7 (U8 V)).trans (a8_7 V)
theorem a9_8 : U9 V (Proc.devRef .tc main_arg8) = V (Proc.devRef .tc main_arg8) :=
  (Cert.ReferenceIdeal.Chunk9.arg8 (U8 V)).trans (a8_8 V)
theorem a9_9 : U9 V (Proc.devRef .tc main_arg9) = V (Proc.devRef .tc main_arg9) :=
  (Cert.ReferenceIdeal.Chunk9.arg9 (U8 V)).trans (a8_9 V)
theorem a9_10 : U9 V (Proc.devRef .tc main_arg10) = V (Proc.devRef .tc main_arg10) :=
  (Cert.ReferenceIdeal.Chunk9.arg10 (U8 V)).trans (a8_10 V)
theorem a9_11 : U9 V (Proc.devRef .tc main_arg11) = V (Proc.devRef .tc main_arg11) :=
  (Cert.ReferenceIdeal.Chunk9.arg11 (U8 V)).trans (a8_11 V)
theorem a9_12 : U9 V (Proc.devRef .tc main_arg12) = V (Proc.devRef .tc main_arg12) :=
  (Cert.ReferenceIdeal.Chunk9.arg12 (U8 V)).trans (a8_12 V)
theorem a9_13 : U9 V (Proc.devRef .tc main_arg13) = V (Proc.devRef .tc main_arg13) :=
  (Cert.ReferenceIdeal.Chunk9.arg13 (U8 V)).trans (a8_13 V)
theorem a9_14 : U9 V (Proc.devRef .tc main_arg14) = V (Proc.devRef .tc main_arg14) :=
  (Cert.ReferenceIdeal.Chunk9.arg14 (U8 V)).trans (a8_14 V)
theorem a9_15 : U9 V (Proc.devRef .tc main_arg15) = V (Proc.devRef .tc main_arg15) :=
  (Cert.ReferenceIdeal.Chunk9.arg15 (U8 V)).trans (a8_15 V)
theorem a9_16 : U9 V (Proc.devRef .tc main_arg16) = V (Proc.devRef .tc main_arg16) :=
  (Cert.ReferenceIdeal.Chunk9.arg16 (U8 V)).trans (a8_16 V)
theorem a9_17 : U9 V (Proc.devRef .tc main_arg17) = V (Proc.devRef .tc main_arg17) :=
  (Cert.ReferenceIdeal.Chunk9.arg17 (U8 V)).trans (a8_17 V)
theorem a9_18 : U9 V (Proc.devRef .tc main_arg18) = V (Proc.devRef .tc main_arg18) :=
  (Cert.ReferenceIdeal.Chunk9.arg18 (U8 V)).trans (a8_18 V)
theorem a9_19 : U9 V (Proc.devRef .tc main_arg19) = V (Proc.devRef .tc main_arg19) :=
  (Cert.ReferenceIdeal.Chunk9.arg19 (U8 V)).trans (a8_19 V)
theorem a9_20 : U9 V (Proc.devRef .tc main_arg20) = V (Proc.devRef .tc main_arg20) :=
  (Cert.ReferenceIdeal.Chunk9.arg20 (U8 V)).trans (a8_20 V)
theorem a9_21 : U9 V (Proc.devRef .tc main_arg21) = V (Proc.devRef .tc main_arg21) :=
  (Cert.ReferenceIdeal.Chunk9.arg21 (U8 V)).trans (a8_21 V)
theorem a10_0 : U10 V (Proc.devRef .tc main_arg0) = V (Proc.devRef .tc main_arg0) :=
  (Cert.ReferenceIdeal.Chunk10.arg0 (U9 V)).trans (a9_0 V)
theorem a10_1 : U10 V (Proc.devRef .tc main_arg1) = V (Proc.devRef .tc main_arg1) :=
  (Cert.ReferenceIdeal.Chunk10.arg1 (U9 V)).trans (a9_1 V)
theorem a10_2 : U10 V (Proc.devRef .tc main_arg2) = V (Proc.devRef .tc main_arg2) :=
  (Cert.ReferenceIdeal.Chunk10.arg2 (U9 V)).trans (a9_2 V)
theorem a10_3 : U10 V (Proc.devRef .tc main_arg3) = V (Proc.devRef .tc main_arg3) :=
  (Cert.ReferenceIdeal.Chunk10.arg3 (U9 V)).trans (a9_3 V)
theorem a10_4 : U10 V (Proc.devRef .tc main_arg4) = V (Proc.devRef .tc main_arg4) :=
  (Cert.ReferenceIdeal.Chunk10.arg4 (U9 V)).trans (a9_4 V)
theorem a10_5 : U10 V (Proc.devRef .tc main_arg5) = V (Proc.devRef .tc main_arg5) :=
  (Cert.ReferenceIdeal.Chunk10.arg5 (U9 V)).trans (a9_5 V)
theorem a10_6 : U10 V (Proc.devRef .tc main_arg6) = V (Proc.devRef .tc main_arg6) :=
  (Cert.ReferenceIdeal.Chunk10.arg6 (U9 V)).trans (a9_6 V)
theorem a10_7 : U10 V (Proc.devRef .tc main_arg7) = V (Proc.devRef .tc main_arg7) :=
  (Cert.ReferenceIdeal.Chunk10.arg7 (U9 V)).trans (a9_7 V)
theorem a10_8 : U10 V (Proc.devRef .tc main_arg8) = V (Proc.devRef .tc main_arg8) :=
  (Cert.ReferenceIdeal.Chunk10.arg8 (U9 V)).trans (a9_8 V)
theorem a10_9 : U10 V (Proc.devRef .tc main_arg9) = V (Proc.devRef .tc main_arg9) :=
  (Cert.ReferenceIdeal.Chunk10.arg9 (U9 V)).trans (a9_9 V)
theorem a10_10 : U10 V (Proc.devRef .tc main_arg10) = V (Proc.devRef .tc main_arg10) :=
  (Cert.ReferenceIdeal.Chunk10.arg10 (U9 V)).trans (a9_10 V)
theorem a10_11 : U10 V (Proc.devRef .tc main_arg11) = V (Proc.devRef .tc main_arg11) :=
  (Cert.ReferenceIdeal.Chunk10.arg11 (U9 V)).trans (a9_11 V)
theorem a10_12 : U10 V (Proc.devRef .tc main_arg12) = V (Proc.devRef .tc main_arg12) :=
  (Cert.ReferenceIdeal.Chunk10.arg12 (U9 V)).trans (a9_12 V)
theorem a10_13 : U10 V (Proc.devRef .tc main_arg13) = V (Proc.devRef .tc main_arg13) :=
  (Cert.ReferenceIdeal.Chunk10.arg13 (U9 V)).trans (a9_13 V)
theorem a10_14 : U10 V (Proc.devRef .tc main_arg14) = V (Proc.devRef .tc main_arg14) :=
  (Cert.ReferenceIdeal.Chunk10.arg14 (U9 V)).trans (a9_14 V)
theorem a10_15 : U10 V (Proc.devRef .tc main_arg15) = V (Proc.devRef .tc main_arg15) :=
  (Cert.ReferenceIdeal.Chunk10.arg15 (U9 V)).trans (a9_15 V)
theorem a10_16 : U10 V (Proc.devRef .tc main_arg16) = V (Proc.devRef .tc main_arg16) :=
  (Cert.ReferenceIdeal.Chunk10.arg16 (U9 V)).trans (a9_16 V)
theorem a10_17 : U10 V (Proc.devRef .tc main_arg17) = V (Proc.devRef .tc main_arg17) :=
  (Cert.ReferenceIdeal.Chunk10.arg17 (U9 V)).trans (a9_17 V)
theorem a10_18 : U10 V (Proc.devRef .tc main_arg18) = V (Proc.devRef .tc main_arg18) :=
  (Cert.ReferenceIdeal.Chunk10.arg18 (U9 V)).trans (a9_18 V)
theorem a10_19 : U10 V (Proc.devRef .tc main_arg19) = V (Proc.devRef .tc main_arg19) :=
  (Cert.ReferenceIdeal.Chunk10.arg19 (U9 V)).trans (a9_19 V)
theorem a10_20 : U10 V (Proc.devRef .tc main_arg20) = V (Proc.devRef .tc main_arg20) :=
  (Cert.ReferenceIdeal.Chunk10.arg20 (U9 V)).trans (a9_20 V)
theorem a10_21 : U10 V (Proc.devRef .tc main_arg21) = V (Proc.devRef .tc main_arg21) :=
  (Cert.ReferenceIdeal.Chunk10.arg21 (U9 V)).trans (a9_21 V)

/-- After the first run: `main_v38`. -/
theorem o0_38 : (U0 V (Proc.devRef .tc main_v38) : (⟨S1700000x128, .f32⟩ : BufTy).Contents (Elt Ideal)) = val_main_v38 (F := Ideal) (V (Proc.devRef .tc main_arg0)) (V (Proc.devRef .tc main_arg1)) (V (Proc.devRef .tc main_arg6)) :=
  Cert.ReferenceIdeal.Chunk0.out38 V

/-- After the first run: `main_v6`. -/
theorem o0_6 : (U0 V (Proc.devRef .tc main_v6) : (⟨S1700000, .i32⟩ : BufTy).Contents (Elt Ideal)) = val_main_v6 (F := Ideal) (V (Proc.devRef .tc main_arg1)) :=
  Cert.ReferenceIdeal.Chunk0.out6 V

/-- After run 2: the stage `main_v45`. -/
theorem o1_45 : (U1 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) := by
  have h := Cert.ReferenceIdeal.Chunk1.out (U0 V) (by rw [a0_0 V, a0_1 V, a0_6 V]; exact o0_38 V) (by rw [a0_1 V]; exact o0_6 V)
  rw [a0_0 V, a0_1 V, a0_6 V, a0_7 V] at h
  exact h

/-- After run 3: the stage `main_v79`. -/
theorem o2_79 : (U2 V (Proc.devRef .tc main_v79) : FVec Ideal S20000x128 .f32) = val_main_v79 (F := Ideal) (V (Proc.devRef .tc main_arg0)) (V (Proc.devRef .tc main_arg1)) (V (Proc.devRef .tc main_arg4)) (V (Proc.devRef .tc main_arg6)) (V (Proc.devRef .tc main_arg7)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk2.out (U1 V) (by rw [a1_0 V, a1_1 V, a1_6 V, a1_7 V]; exact o1_45 V)
  rw [a1_0 V, a1_1 V, a1_4 V, a1_6 V, a1_7 V, a1_16 V, a1_17 V, a1_18 V, a1_19 V, a1_20 V, a1_21 V] at h
  exact h
theorem k45_2 : (U2 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk2.keep45 (U1 V)).trans (o1_45 V)

/-- After run 4: the stage `main_v125`. -/
theorem o3_125 : (U3 V (Proc.devRef .tc main_v125) : FVec Ideal S20000x128 .f32) = val_main_v125 (F := Ideal) (V (Proc.devRef .tc main_arg0)) (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk3.out (U2 V) (by rw [a2_0 V, a2_1 V, a2_4 V, a2_6 V, a2_7 V, a2_16 V, a2_17 V, a2_18 V, a2_19 V, a2_20 V, a2_21 V]; exact o2_79 V)
  rw [a2_0 V, a2_1 V, a2_2 V, a2_4 V, a2_6 V, a2_7 V, a2_8 V, a2_9 V, a2_16 V, a2_17 V, a2_18 V, a2_19 V, a2_20 V, a2_21 V] at h
  exact h
theorem k45_3 : (U3 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk3.keep45 (U2 V)).trans (k45_2 V)

/-- After run 5: the stage `main_v159`. -/
theorem o4_159 : (U4 V (Proc.devRef .tc main_v159) : FVec Ideal S4000x128 .f32) = val_main_v159 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk4.out (U3 V) (by rw [a3_0 V, a3_1 V, a3_2 V, a3_4 V, a3_6 V, a3_7 V, a3_8 V, a3_9 V, a3_16 V, a3_17 V, a3_18 V, a3_19 V, a3_20 V, a3_21 V]; exact o3_125 V)
  rw [a3_0 V, a3_1 V, a3_2 V, a3_4 V, a3_5 V, a3_6 V, a3_7 V, a3_8 V, a3_9 V, a3_16 V, a3_17 V, a3_18 V, a3_19 V, a3_20 V, a3_21 V] at h
  exact h
theorem k45_4 : (U4 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk4.keep45 (U3 V)).trans (k45_3 V)
theorem k125_4 : (U4 V (Proc.devRef .tc main_v125) : FVec Ideal S20000x128 .f32) = val_main_v125 (F := Ideal) (V (Proc.devRef .tc main_arg0)) (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg16)) (V (Proc.devRef .tc main_arg17)) (V (Proc.devRef .tc main_arg18)) (V (Proc.devRef .tc main_arg19)) (V (Proc.devRef .tc main_arg20)) (V (Proc.devRef .tc main_arg21)) :=
  (Cert.ReferenceIdeal.Chunk4.keep125 (U3 V)).trans (o3_125 V)

/-- After run 6: the stage `main_v205`. -/
theorem o5_205 : (U5 V (Proc.devRef .tc main_v205) : FVec Ideal S4000x128 .f32) = val_main_v205 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk5.out (U4 V) (by rw [a4_0 V, a4_1 V, a4_2 V, a4_4 V, a4_5 V, a4_6 V, a4_7 V, a4_8 V, a4_9 V, a4_16 V, a4_17 V, a4_18 V, a4_19 V, a4_20 V, a4_21 V]; exact o4_159 V)
  rw [a4_0 V, a4_1 V, a4_2 V, a4_3 V, a4_4 V, a4_5 V, a4_6 V, a4_7 V, a4_8 V, a4_9 V, a4_10 V, a4_11 V, a4_16 V, a4_17 V, a4_18 V, a4_19 V, a4_20 V, a4_21 V] at h
  exact h
theorem k45_5 : (U5 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk5.keep45 (U4 V)).trans (k45_4 V)
theorem k125_5 : (U5 V (Proc.devRef .tc main_v125) : FVec Ideal S20000x128 .f32) = val_main_v125 (F := Ideal) (V (Proc.devRef .tc main_arg0)) (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg16)) (V (Proc.devRef .tc main_arg17)) (V (Proc.devRef .tc main_arg18)) (V (Proc.devRef .tc main_arg19)) (V (Proc.devRef .tc main_arg20)) (V (Proc.devRef .tc main_arg21)) :=
  (Cert.ReferenceIdeal.Chunk5.keep125 (U4 V)).trans (k125_4 V)

/-- After run 7: the stage `main_v243`. -/
theorem o6_243 : (U6 V (Proc.devRef .tc main_v243) : FVec Ideal S20000x128 .f32) = val_main_v243 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk6.out (U5 V) (by rw [a5_0 V, a5_1 V, a5_2 V, a5_3 V, a5_4 V, a5_5 V, a5_6 V, a5_7 V, a5_8 V, a5_9 V, a5_10 V, a5_11 V, a5_16 V, a5_17 V, a5_18 V, a5_19 V, a5_20 V, a5_21 V]; exact o5_205 V)
  rw [a5_0 V, a5_1 V, a5_2 V, a5_3 V, a5_4 V, a5_5 V, a5_6 V, a5_7 V, a5_8 V, a5_9 V, a5_10 V, a5_11 V, a5_16 V, a5_17 V, a5_18 V, a5_19 V, a5_20 V, a5_21 V] at h
  exact h
theorem k45_6 : (U6 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk6.keep45 (U5 V)).trans (k45_5 V)
theorem k125_6 : (U6 V (Proc.devRef .tc main_v125) : FVec Ideal S20000x128 .f32) = val_main_v125 (F := Ideal) (V (Proc.devRef .tc main_arg0)) (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg16)) (V (Proc.devRef .tc main_arg17)) (V (Proc.devRef .tc main_arg18)) (V (Proc.devRef .tc main_arg19)) (V (Proc.devRef .tc main_arg20)) (V (Proc.devRef .tc main_arg21)) :=
  (Cert.ReferenceIdeal.Chunk6.keep125 (U5 V)).trans (k125_5 V)

/-- After run 8: the stage `main_v290`. -/
theorem o7_290 : (U7 V (Proc.devRef .tc main_v290) : FVec Ideal S20000x128 .f32) = val_main_v290 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk7.out (U6 V) (by rw [a6_0 V, a6_1 V, a6_2 V, a6_3 V, a6_4 V, a6_5 V, a6_6 V, a6_7 V, a6_8 V, a6_9 V, a6_10 V, a6_11 V, a6_16 V, a6_17 V, a6_18 V, a6_19 V, a6_20 V, a6_21 V]; exact o6_243 V) (by rw [a6_0 V, a6_1 V, a6_2 V, a6_4 V, a6_6 V, a6_7 V, a6_8 V, a6_9 V, a6_16 V, a6_17 V, a6_18 V, a6_19 V, a6_20 V, a6_21 V]; exact k125_6 V)
  rw [a6_0 V, a6_1 V, a6_2 V, a6_3 V, a6_4 V, a6_5 V, a6_6 V, a6_7 V, a6_8 V, a6_9 V, a6_10 V, a6_11 V, a6_12 V, a6_13 V, a6_16 V, a6_17 V, a6_18 V, a6_19 V, a6_20 V, a6_21 V] at h
  exact h
theorem k45_7 : (U7 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk7.keep45 (U6 V)).trans (k45_6 V)

/-- After run 9: the stage `main_v328`. -/
theorem o8_328 : (U8 V (Proc.devRef .tc main_v328) : FVec Ideal S100000x128 .f32) = val_main_v328 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk8.out (U7 V) (by rw [a7_0 V, a7_1 V, a7_2 V, a7_3 V, a7_4 V, a7_5 V, a7_6 V, a7_7 V, a7_8 V, a7_9 V, a7_10 V, a7_11 V, a7_12 V, a7_13 V, a7_16 V, a7_17 V, a7_18 V, a7_19 V, a7_20 V, a7_21 V]; exact o7_290 V)
  rw [a7_0 V, a7_1 V, a7_2 V, a7_3 V, a7_4 V, a7_5 V, a7_6 V, a7_7 V, a7_8 V, a7_9 V, a7_10 V, a7_11 V, a7_12 V, a7_13 V, a7_16 V, a7_17 V, a7_18 V, a7_19 V, a7_20 V, a7_21 V] at h
  exact h
theorem k45_8 : (U8 V (Proc.devRef .tc main_v45) : FVec Ideal S100000x128 .f32) = val_main_v45 (F := Ideal) (V (Proc.devRef .tc main_arg0)) (V (Proc.devRef .tc main_arg1)) (V (Proc.devRef .tc main_arg6)) (V (Proc.devRef .tc main_arg7)) :=
  (Cert.ReferenceIdeal.Chunk8.keep45 (U7 V)).trans (k45_7 V)

/-- After run 10: the stage `main_v368`. -/
theorem o9_368 : (U9 V (Proc.devRef .tc main_v368) : (⟨S1700000x10, .f32⟩ : BufTy).Contents (Elt Ideal)) = val_main_v368 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk9.out368 (U8 V) (by rw [a8_0 V, a8_1 V, a8_2 V, a8_3 V, a8_4 V, a8_5 V, a8_6 V, a8_7 V, a8_8 V, a8_9 V, a8_10 V, a8_11 V, a8_12 V, a8_13 V, a8_16 V, a8_17 V, a8_18 V, a8_19 V, a8_20 V, a8_21 V]; exact o8_328 V) (by rw [a8_0 V, a8_1 V, a8_6 V, a8_7 V]; exact k45_8 V)
  rw [a8_0 V, a8_1 V, a8_2 V, a8_3 V, a8_4 V, a8_5 V, a8_6 V, a8_7 V, a8_8 V, a8_9 V, a8_10 V, a8_11 V, a8_12 V, a8_13 V, a8_14 V, a8_16 V, a8_17 V, a8_18 V, a8_19 V, a8_20 V, a8_21 V] at h
  exact h

/-- After run 10: the stage `main_v336`. -/
theorem o9_336 : (U9 V (Proc.devRef .tc main_v336) : (⟨S1700000, .i32⟩ : BufTy).Contents (Elt Ideal)) = val_main_v336 (F := Ideal) (V (Proc.devRef .tc main_arg1)) := by
  have h := Cert.ReferenceIdeal.Chunk9.out336 (U8 V) (by rw [a8_0 V, a8_1 V, a8_2 V, a8_3 V, a8_4 V, a8_5 V, a8_6 V, a8_7 V, a8_8 V, a8_9 V, a8_10 V, a8_11 V, a8_12 V, a8_13 V, a8_16 V, a8_17 V, a8_18 V, a8_19 V, a8_20 V, a8_21 V]; exact o8_328 V) (by rw [a8_0 V, a8_1 V, a8_6 V, a8_7 V]; exact k45_8 V)
  rw [a8_1 V] at h
  exact h

/-- After run 11: the stage `main_v375`. -/
theorem o10_375 : (U10 V (Proc.devRef .tc main_v375) : FVec Ideal S100000x10 .f32) = val_main_v375 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  have h := Cert.ReferenceIdeal.Chunk10.out (U9 V) (by rw [a9_0 V, a9_1 V, a9_2 V, a9_3 V, a9_4 V, a9_5 V, a9_6 V, a9_7 V, a9_8 V, a9_9 V, a9_10 V, a9_11 V, a9_12 V, a9_13 V, a9_14 V, a9_16 V, a9_17 V, a9_18 V, a9_19 V, a9_20 V, a9_21 V]; exact o9_368 V) (by rw [a9_1 V]; exact o9_336 V)
  rw [a9_0 V, a9_1 V, a9_2 V, a9_3 V, a9_4 V, a9_5 V, a9_6 V, a9_7 V, a9_8 V, a9_9 V, a9_10 V, a9_11 V, a9_12 V, a9_13 V, a9_14 V, a9_15 V, a9_16 V, a9_17 V, a9_18 V, a9_19 V, a9_20 V, a9_21 V] at h
  exact h

/-- The fold over the whole list is the fold over the eleven runs. -/
theorem after_ops : after (Cert.ReferenceIdeal.Value.ops (F := Ideal)) V = U10 V := by
  rw [ops_split]
  simp only [Cert.LibAfter.after_append]

/-- The result buffer after the whole program: the reference's result stage of the launch contents of the arguments. -/
theorem result : (after (Cert.ReferenceIdeal.Value.ops (F := Ideal)) V (Proc.devRef .tc main_v375) : FVec Ideal S100000x10 .f32) = val_main_v375 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_ops]; exact o10_375 V

theorem kept0 : after (Cert.ReferenceIdeal.Value.ops (F := Ideal)) V (Proc.devRef .tc main_arg0) = V (Proc.devRef .tc main_arg0) := by
  rw [after_ops]; exact a10_0 V
theorem kept1 : after (Cert.ReferenceIdeal.Value.ops (F := Ideal)) V (Proc.devRef .tc main_arg1) = V (Proc.devRef .tc main_arg1) := by
  rw [after_ops]; exact a10_1 V
theorem kept2 : after (Cert.ReferenceIdeal.Value.ops (F := Ideal)) V (Proc.devRef .tc main_arg2) = V (Proc.devRef .tc main_arg2) := by
  rw [after_ops]; exact a10_2 V
theorem kept3 : after (Cert.ReferenceIdeal.Value.ops (F := Ideal)) V (Proc.devRef .tc main_arg3) = V (Proc.devRef .tc main_arg3) := by
  rw [after_ops]; exact a10_3 V
theorem kept4 : after (Cert.ReferenceIdeal.Value.ops (F := Ideal)) V (Proc.devRef .tc main_arg4) = V (Proc.devRef .tc main_arg4) := by
  rw [after_ops]; exact a10_4 V
theorem kept5 : after (Cert.ReferenceIdeal.Value.ops (F := Ideal)) V (Proc.devRef .tc main_arg5) = V (Proc.devRef .tc main_arg5) := by
  rw [after_ops]; exact a10_5 V
theorem kept6 : after (Cert.ReferenceIdeal.Value.ops (F := Ideal)) V (Proc.devRef .tc main_arg6) = V (Proc.devRef .tc main_arg6) := by
  rw [after_ops]; exact a10_6 V
theorem kept7 : after (Cert.ReferenceIdeal.Value.ops (F := Ideal)) V (Proc.devRef .tc main_arg7) = V (Proc.devRef .tc main_arg7) := by
  rw [after_ops]; exact a10_7 V
theorem kept8 : after (Cert.ReferenceIdeal.Value.ops (F := Ideal)) V (Proc.devRef .tc main_arg8) = V (Proc.devRef .tc main_arg8) := by
  rw [after_ops]; exact a10_8 V
theorem kept9 : after (Cert.ReferenceIdeal.Value.ops (F := Ideal)) V (Proc.devRef .tc main_arg9) = V (Proc.devRef .tc main_arg9) := by
  rw [after_ops]; exact a10_9 V
theorem kept10 : after (Cert.ReferenceIdeal.Value.ops (F := Ideal)) V (Proc.devRef .tc main_arg10) = V (Proc.devRef .tc main_arg10) := by
  rw [after_ops]; exact a10_10 V
theorem kept11 : after (Cert.ReferenceIdeal.Value.ops (F := Ideal)) V (Proc.devRef .tc main_arg11) = V (Proc.devRef .tc main_arg11) := by
  rw [after_ops]; exact a10_11 V
theorem kept12 : after (Cert.ReferenceIdeal.Value.ops (F := Ideal)) V (Proc.devRef .tc main_arg12) = V (Proc.devRef .tc main_arg12) := by
  rw [after_ops]; exact a10_12 V
theorem kept13 : after (Cert.ReferenceIdeal.Value.ops (F := Ideal)) V (Proc.devRef .tc main_arg13) = V (Proc.devRef .tc main_arg13) := by
  rw [after_ops]; exact a10_13 V
theorem kept14 : after (Cert.ReferenceIdeal.Value.ops (F := Ideal)) V (Proc.devRef .tc main_arg14) = V (Proc.devRef .tc main_arg14) := by
  rw [after_ops]; exact a10_14 V
theorem kept15 : after (Cert.ReferenceIdeal.Value.ops (F := Ideal)) V (Proc.devRef .tc main_arg15) = V (Proc.devRef .tc main_arg15) := by
  rw [after_ops]; exact a10_15 V
theorem kept16 : after (Cert.ReferenceIdeal.Value.ops (F := Ideal)) V (Proc.devRef .tc main_arg16) = V (Proc.devRef .tc main_arg16) := by
  rw [after_ops]; exact a10_16 V
theorem kept17 : after (Cert.ReferenceIdeal.Value.ops (F := Ideal)) V (Proc.devRef .tc main_arg17) = V (Proc.devRef .tc main_arg17) := by
  rw [after_ops]; exact a10_17 V
theorem kept18 : after (Cert.ReferenceIdeal.Value.ops (F := Ideal)) V (Proc.devRef .tc main_arg18) = V (Proc.devRef .tc main_arg18) := by
  rw [after_ops]; exact a10_18 V
theorem kept19 : after (Cert.ReferenceIdeal.Value.ops (F := Ideal)) V (Proc.devRef .tc main_arg19) = V (Proc.devRef .tc main_arg19) := by
  rw [after_ops]; exact a10_19 V
theorem kept20 : after (Cert.ReferenceIdeal.Value.ops (F := Ideal)) V (Proc.devRef .tc main_arg20) = V (Proc.devRef .tc main_arg20) := by
  rw [after_ops]; exact a10_20 V
theorem kept21 : after (Cert.ReferenceIdeal.Value.ops (F := Ideal)) V (Proc.devRef .tc main_arg21) = V (Proc.devRef .tc main_arg21) := by
  rw [after_ops]; exact a10_21 V

/-- Every operation of the program determines its result. -/
theorem ops_fresh : (Cert.ReferenceIdeal.Value.ops : List (HloOp τ sig (Elt Ideal))).Forall fun op => op.fresh = ∅ := by
  rw [ops_split]
  exact Cert.LibAfter.Forall.append Cert.ReferenceIdeal.Chunk0.fresh (Cert.LibAfter.Forall.append Cert.ReferenceIdeal.Chunk1.fresh (Cert.LibAfter.Forall.append Cert.ReferenceIdeal.Chunk2.fresh (Cert.LibAfter.Forall.append Cert.ReferenceIdeal.Chunk3.fresh
    (Cert.LibAfter.Forall.append Cert.ReferenceIdeal.Chunk4.fresh (Cert.LibAfter.Forall.append Cert.ReferenceIdeal.Chunk5.fresh (Cert.LibAfter.Forall.append Cert.ReferenceIdeal.Chunk6.fresh
    (Cert.LibAfter.Forall.append Cert.ReferenceIdeal.Chunk7.fresh (Cert.LibAfter.Forall.append Cert.ReferenceIdeal.Chunk8.fresh (Cert.LibAfter.Forall.append Cert.ReferenceIdeal.Chunk9.fresh Cert.ReferenceIdeal.Chunk10.fresh)))))))))

/-- THE RUN: every weakly fair execution of the reference terminates without a fault, with the result buffer at the reference's
    result stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v375) = val_main_v375 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v375).trans (result (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c)),
      (h c main_arg8).trans (kept8 (launchContents m c)),
      (h c main_arg9).trans (kept9 (launchContents m c)),
      (h c main_arg10).trans (kept10 (launchContents m c)),
      (h c main_arg11).trans (kept11 (launchContents m c)),
      (h c main_arg12).trans (kept12 (launchContents m c)),
      (h c main_arg13).trans (kept13 (launchContents m c)),
      (h c main_arg14).trans (kept14 (launchContents m c)),
      (h c main_arg15).trans (kept15 (launchContents m c)),
      (h c main_arg16).trans (kept16 (launchContents m c)),
      (h c main_arg17).trans (kept17 (launchContents m c)),
      (h c main_arg18).trans (kept18 (launchContents m c)),
      (h c main_arg19).trans (kept19 (launchContents m c)),
      (h c main_arg20).trans (kept20 (launchContents m c)),
      (h c main_arg21).trans (kept21 (launchContents m c))⟩)
    (run_seq Cert.ReferenceIdeal.Value.scopedRefs_eq Cert.ReferenceIdeal.Value.scopedSems_eq defs main (fun _ => Cert.ReferenceIdeal.Value.ops) Cert.ReferenceIdeal.Value.main_eq
      (fun _ => Cert.ReferenceIdeal.Value.ops_sub) m ρ (hfresh := fun _ => Cert.LibAfter.fresh_of_forall ops_fresh))

end Cert.ReferenceIdeal.RunSeg

end
-- ==== Proof.KernelRun.lean ====
/-
  The idealized kernel's run with its result named.

  Every weakly fair execution of the kernel's program terminates without a fault; in the final memory the result
  buffer holds what the last of the program's segments leaves there — the contents `Gen.W25 m ρ c` that the
  sequence of tiled regions and array operations folds from the launch memory — and the argument arrays are as
  launched. The run is the composition of the program's segments, region by region, and the final memory is read
  off the last segment's state, the result buffer like the arguments.
-/
import proofs.«124761_j84988812853303_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment's contents, the arguments as launched. -/
theorem run : θ_run defs (onTc (τ := τ) (main (F := F))) ⟨m, fun _ => 0, ρ⟩ (fun r => ∀ c : Dev nD,
      r.2.mem ((c.tc : Thread nD τ).loc main_v288) = W25 m ρ c (Proc.devRef .tc main_v288)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v288 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c),
       (h c _ (mem_uc main_arg17 (by decide))).trans (W25_main_arg17 m ρ c),
       (h c _ (mem_uc main_arg18 (by decide))).trans (W25_main_arg18 m ρ c),
       (h c _ (mem_uc main_arg19 (by decide))).trans (W25_main_arg19 m ρ c),
       (h c _ (mem_uc main_arg20 (by decide))).trans (W25_main_arg20 m ρ c),
       (h c _ (mem_uc main_arg21 (by decide))).trans (W25_main_arg21 m ρ c)⟩)

end Cert.KernelIdeal.RunValue

end
-- ==== Proof.HostsA.lean ====
/-
  What each stretch of array operations between two tiled regions of the kernel's program leaves in the buffers that
  later segments read, as a term of the buffers it found.

  The kernel's program and the reference compute the graph structure the same way: the edge list with self loops
  appended, each node's degree by a scatter-add of ones, the symmetric normalisation `deg^(-1/2)` gathered at both
  endpoints, the gathered rows scaled by it and scattered back by target node; and the pooling glue (a scatter-add or
  a gather by parent index, and the slices of the stacked pooling parameters). The index parts depend on the integer
  arguments alone and are named here by the reference's own stage functions of those arguments; what enters from the
  kernel's regions (a matrix product's or a rectifier's output) stays a buffer read.
-/
import proofs.«124761_j84988812853303_1_alg».proof.Proof.Gen.KernelIdeal.Frame
import proofs.«124761_j84988812853303_1_alg».proof.Proof.RefRead
import Idealize.ShloMosaic.Lib.StableHlo.Run
import Idealize.ShloMosaic.PureOps.Ideal

set_option maxRecDepth 16384

noncomputable section

namespace Cert.KernelIdeal.Hosts

open Idealize.ShloMosaic Idealize.ShloMosaic.TcCoe Idealize.ShloMosaic.Tactic
open Idealize.SL Idealize.SL.Sem
open Idealize.ShloMosaic.StableHlo
open Cert.KernelIdeal Cert.KernelIdeal.Gen
open Cert.ReferenceIdeal.Read

variable (m : (ℓ : Loc nD τ sig) → Buf (Elt Ideal) ℓ) (ρ : Dev nD → PrngReg)

set_option maxHeartbeats 40000000 in
set_option maxRecDepth 65536 in
/-- The graph convolution's aggregation after region 0: rows of the product gathered by source node, scaled by the edge normalisation, scattered by target node. -/
theorem host1 (c : Dev nD) :
    (V2 (F := Ideal) m ρ c main_v41 : FVec Ideal S100000x128 .f32) =
      Host.scatterAdd (F := Ideal) (φ := .f32) scatter_S100000x128_S1700000x1_S1700000x128_1_0_0_1 (val_main_v39 (F := Ideal))
        (val_main_v40 (F := Ideal) (V1 m ρ c main_arg1))
        (mulf (F := Ideal) (φ := .f32) (Host.gather (α := Ideal .f32) gather_S100000x128_S1700000x1_S1700000x128_1_0_n_n_0_1_1128 (V1 m ρ c main_v0 : FVec Ideal S100000x128 .f32)
                (val_main_v35 (F := Ideal) (V1 m ρ c main_arg1)))
              (val_main_v37 (F := Ideal) (V1 m ρ c main_arg1))) := by
  show StableHlo.after hostOps1 (W1 m ρ c) (Proc.devRef .tc main_v41) = _
  after_results_simp <;> rfl

set_option maxHeartbeats 40000000 in
set_option maxRecDepth 65536 in
/-- Children's features summed into their parents (level 0 → 1). -/
theorem host2 (c : Dev nD) :
    (V4 (F := Ideal) m ρ c main_v45 : FVec Ideal S20000x128 .f32) =
      Host.scatterAdd (F := Ideal) (φ := .f32) scatter_S20000x128_S100000x1_S100000x128_1_0_0_1 (val_main_v46 (F := Ideal)) (val_main_v47 (F := Ideal) (V3 m ρ c main_arg4)) (V3 m ρ c main_v42 : FVec Ideal S100000x128 .f32) := by
  show StableHlo.after hostOps2 (W3 m ρ c) (Proc.devRef .tc main_v45) = _
  after_results_simp <;> rfl

set_option maxHeartbeats 40000000 in
set_option maxRecDepth 65536 in
theorem host2_v47 (c : Dev nD) : (V4 (F := Ideal) m ρ c main_v47 : FVec Ideal S128x128 .f32) = val_main_v50 (F := Ideal) (V3 m ρ c main_arg16) := by
  show StableHlo.after hostOps2 (W3 m ρ c) (Proc.devRef .tc main_v47) = _
  after_results_simp <;> rfl

set_option maxHeartbeats 40000000 in
set_option maxRecDepth 65536 in
theorem host2_v49 (c : Dev nD) : (V4 (F := Ideal) m ρ c main_v49 : FVec Ideal S128 .f32) = val_main_v52 (F := Ideal) (V3 m ρ c main_arg17) := by
  show StableHlo.after hostOps2 (W3 m ρ c) (Proc.devRef .tc main_v49) = _
  after_results_simp <;> rfl

set_option maxHeartbeats 40000000 in
set_option maxRecDepth 65536 in
theorem host2_v51 (c : Dev nD) : (V4 (F := Ideal) m ρ c main_v51 : FVec Ideal S128 .f32) = val_main_v54 (F := Ideal) (V3 m ρ c main_arg18) := by
  show StableHlo.after hostOps2 (W3 m ρ c) (Proc.devRef .tc main_v51) = _
  after_results_simp <;> rfl

set_option maxHeartbeats 40000000 in
set_option maxRecDepth 65536 in
theorem host2_v53 (c : Dev nD) : (V4 (F := Ideal) m ρ c main_v53 : FVec Ideal S128 .f32) = val_main_v56 (F := Ideal) (V3 m ρ c main_arg19) := by
  show StableHlo.after hostOps2 (W3 m ρ c) (Proc.devRef .tc main_v53) = _
  after_results_simp <;> rfl

set_option maxHeartbeats 40000000 in
set_option maxRecDepth 65536 in
theorem host2_v55 (c : Dev nD) : (V4 (F := Ideal) m ρ c main_v55 : FVec Ideal S128 .f32) = val_main_v58 (F := Ideal) (V3 m ρ c main_arg20) := by
  show StableHlo.after hostOps2 (W3 m ρ c) (Proc.devRef .tc main_v55) = _
  after_results_simp <;> rfl

set_option maxHeartbeats 40000000 in
set_option maxRecDepth 65536 in
theorem host2_v57 (c : Dev nD) : (V4 (F := Ideal) m ρ c main_v57 : FVec Ideal S128 .f32) = val_main_v60 (F := Ideal) (V3 m ρ c main_arg21) := by
  show StableHlo.after hostOps2 (W3 m ρ c) (Proc.devRef .tc main_v57) = _
  after_results_simp <;> rfl

end Cert.KernelIdeal.Hosts

end
-- ==== Proof.HostsB.lean ====
/-
  What each stretch of array operations between two tiled regions of the kernel's program leaves in the buffers that
  later segments read, as a term of the buffers it found.

  The kernel's program and the reference compute the graph structure the same way: the edge list with self loops
  appended, each node's degree by a scatter-add of ones, the symmetric normalisation `deg^(-1/2)` gathered at both
  endpoints, the gathered rows scaled by it and scattered back by target node; and the pooling glue (a scatter-add or
  a gather by parent index, and the slices of the stacked pooling parameters). The index parts depend on the integer
  arguments alone and are named here by the reference's own stage functions of those arguments; what enters from the
  kernel's regions (a matrix product's or a rectifier's output) stays a buffer read.
-/
import proofs.«124761_j84988812853303_1_alg».proof.Proof.Gen.KernelIdeal.Frame
import proofs.«124761_j84988812853303_1_alg».proof.Proof.RefRead
import Idealize.ShloMosaic.Lib.StableHlo.Run
import Idealize.ShloMosaic.PureOps.Ideal

set_option maxRecDepth 16384

noncomputable section

namespace Cert.KernelIdeal.Hosts

open Idealize.ShloMosaic Idealize.ShloMosaic.TcCoe Idealize.ShloMosaic.Tactic
open Idealize.SL Idealize.SL.Sem
open Idealize.ShloMosaic.StableHlo
open Cert.KernelIdeal Cert.KernelIdeal.Gen
open Cert.ReferenceIdeal.Read

variable (m : (ℓ : Loc nD τ sig) → Buf (Elt Ideal) ℓ) (ρ : Dev nD → PrngReg)

set_option maxHeartbeats 40000000 in
set_option maxRecDepth 65536 in
/-- The graph convolution's aggregation: rows of the product gathered by source node, scaled by the edge normalisation, scattered by target node. -/
theorem host4 (c : Dev nD) :
    (V7 (F := Ideal) m ρ c main_v100 : FVec Ideal S20000x128 .f32) =
      Host.scatterAdd (F := Ideal) (φ := .f32) scatter_S20000x128_S340000x1_S340000x128_1_0_0_1 (val_main_v119 (F := Ideal))
        (val_main_v120 (F := Ideal) (V6 m ρ c main_arg2))
        (mulf (F := Ideal) (φ := .f32) (Host.gather (α := Ideal .f32) gather_S20000x128_S340000x1_S340000x128_1_0_n_n_0_1_1128 (V6 m ρ c main_v59 : FVec Ideal S20000x128 .f32)
                (val_main_v115 (F := Ideal) (V6 m ρ c main_arg2)))
              (val_main_v117 (F := Ideal) (V6 m ρ c main_arg2))) := by
  show StableHlo.after hostOps4 (W6 m ρ c) (Proc.devRef .tc main_v100) = _
  after_results_simp <;> rfl

set_option maxHeartbeats 40000000 in
set_option maxRecDepth 65536 in
/-- Children's features summed into their parents (level 1 → 2). -/
theorem host5 (c : Dev nD) :
    (V9 (F := Ideal) m ρ c main_v104 : FVec Ideal S4000x128 .f32) =
      Host.scatterAdd (F := Ideal) (φ := .f32) scatter_S4000x128_S20000x1_S20000x128_1_0_0_1 (val_main_v126 (F := Ideal)) (val_main_v127 (F := Ideal) (V8 m ρ c main_arg5)) (V8 m ρ c main_v101 : FVec Ideal S20000x128 .f32) := by
  show StableHlo.after hostOps5 (W8 m ρ c) (Proc.devRef .tc main_v104) = _
  after_results_simp <;> rfl

set_option maxHeartbeats 40000000 in
set_option maxRecDepth 65536 in
theorem host5_v106 (c : Dev nD) : (V9 (F := Ideal) m ρ c main_v106 : FVec Ideal S128x128 .f32) = val_main_v130 (F := Ideal) (V8 m ρ c main_arg16) := by
  show StableHlo.after hostOps5 (W8 m ρ c) (Proc.devRef .tc main_v106) = _
  after_results_simp <;> rfl

set_option maxHeartbeats 40000000 in
set_option maxRecDepth 65536 in
theorem host5_v108 (c : Dev nD) : (V9 (F := Ideal) m ρ c main_v108 : FVec Ideal S128 .f32) = val_main_v132 (F := Ideal) (V8 m ρ c main_arg17) := by
  show StableHlo.after hostOps5 (W8 m ρ c) (Proc.devRef .tc main_v108) = _
  after_results_simp <;> rfl

set_option maxHeartbeats 40000000 in
set_option maxRecDepth 65536 in
theorem host5_v110 (c : Dev nD) : (V9 (F := Ideal) m ρ c main_v110 : FVec Ideal S128 .f32) = val_main_v134 (F := Ideal) (V8 m ρ c main_arg18) := by
  show StableHlo.after hostOps5 (W8 m ρ c) (Proc.devRef .tc main_v110) = _
  after_results_simp <;> rfl

set_option maxHeartbeats 40000000 in
set_option maxRecDepth 65536 in
theorem host5_v112 (c : Dev nD) : (V9 (F := Ideal) m ρ c main_v112 : FVec Ideal S128 .f32) = val_main_v136 (F := Ideal) (V8 m ρ c main_arg19) := by
  show StableHlo.after hostOps5 (W8 m ρ c) (Proc.devRef .tc main_v112) = _
  after_results_simp <;> rfl

set_option maxHeartbeats 40000000 in
set_option maxRecDepth 65536 in
theorem host5_v114 (c : Dev nD) : (V9 (F := Ideal) m ρ c main_v114 : FVec Ideal S128 .f32) = val_main_v138 (F := Ideal) (V8 m ρ c main_arg20) := by
  show StableHlo.after hostOps5 (W8 m ρ c) (Proc.devRef .tc main_v114) = _
  after_results_simp <;> rfl

set_option maxHeartbeats 40000000 in
set_option maxRecDepth 65536 in
theorem host5_v116 (c : Dev nD) : (V9 (F := Ideal) m ρ c main_v116 : FVec Ideal S128 .f32) = val_main_v140 (F := Ideal) (V8 m ρ c main_arg21) := by
  show StableHlo.after hostOps5 (W8 m ρ c) (Proc.devRef .tc main_v116) = _
  after_results_simp <;> rfl

end Cert.KernelIdeal.Hosts

end
-- ==== Proof.HostsC.lean ====
/-
  What each stretch of array operations between two tiled regions of the kernel's program leaves in the buffers that
  later segments read, as a term of the buffers it found.

  The kernel's program and the reference compute the graph structure the same way: the edge list with self loops
  appended, each node's degree by a scatter-add of ones, the symmetric normalisation `deg^(-1/2)` gathered at both
  endpoints, the gathered rows scaled by it and scattered back by target node; and the pooling glue (a scatter-add or
  a gather by parent index, and the slices of the stacked pooling parameters). The index parts depend on the integer
  arguments alone and are named here by the reference's own stage functions of those arguments; what enters from the
  kernel's regions (a matrix product's or a rectifier's output) stays a buffer read.
-/
import proofs.«124761_j84988812853303_1_alg».proof.Proof.Gen.KernelIdeal.Frame
import proofs.«124761_j84988812853303_1_alg».proof.Proof.RefRead
import Idealize.ShloMosaic.Lib.StableHlo.Run
import Idealize.ShloMosaic.PureOps.Ideal

set_option maxRecDepth 16384

noncomputable section

namespace Cert.KernelIdeal.Hosts

open Idealize.ShloMosaic Idealize.ShloMosaic.TcCoe Idealize.ShloMosaic.Tactic
open Idealize.SL Idealize.SL.Sem
open Idealize.ShloMosaic.StableHlo
open Cert.KernelIdeal Cert.KernelIdeal.Gen
open Cert.ReferenceIdeal.Read

variable (m : (ℓ : Loc nD τ sig) → Buf (Elt Ideal) ℓ) (ρ : Dev nD → PrngReg)

set_option maxHeartbeats 40000000 in
set_option maxRecDepth 65536 in
/-- The graph convolution's aggregation: rows of the product gathered by source node, scaled by the edge normalisation, scattered by target node. -/
theorem host7 (c : Dev nD) :
    (V12 (F := Ideal) m ρ c main_v159 : FVec Ideal S4000x128 .f32) =
      Host.scatterAdd (F := Ideal) (φ := .f32) scatter_S4000x128_S68000x1_S68000x128_1_0_0_1 (val_main_v199 (F := Ideal))
        (val_main_v200 (F := Ideal) (V11 m ρ c main_arg3))
        (mulf (F := Ideal) (φ := .f32) (Host.gather (α := Ideal .f32) gather_S4000x128_S68000x1_S68000x128_1_0_n_n_0_1_1128 (V11 m ρ c main_v118 : FVec Ideal S4000x128 .f32)
                (val_main_v195 (F := Ideal) (V11 m ρ c main_arg3)))
              (val_main_v197 (F := Ideal) (V11 m ρ c main_arg3))) := by
  show StableHlo.after hostOps7 (W11 m ρ c) (Proc.devRef .tc main_v159) = _
  after_results_simp <;> rfl

set_option maxHeartbeats 40000000 in
set_option maxRecDepth 65536 in
/-- Each child takes its parent's features (level 2 → 1). -/
theorem host8 (c : Dev nD) :
    (V14 (F := Ideal) m ρ c main_v167 : FVec Ideal S20000x128 .f32) =
      Host.gather (α := Ideal .f32) gather_S4000x128_S20000x1_S20000x128_1_0_n_n_0_1_1128 (V13 m ρ c main_v160 : FVec Ideal S4000x128 .f32) (val_main_v211 (F := Ideal) (V13 m ρ c main_arg5)) := by
  show StableHlo.after hostOps8 (W13 m ρ c) (Proc.devRef .tc main_v167) = _
  after_results_simp <;> rfl

set_option maxHeartbeats 40000000 in
set_option maxRecDepth 65536 in
theorem host8_v169 (c : Dev nD) : (V14 (F := Ideal) m ρ c main_v169 : FVec Ideal S128x128 .f32) = val_main_v214 (F := Ideal) (V13 m ρ c main_arg16) := by
  show StableHlo.after hostOps8 (W13 m ρ c) (Proc.devRef .tc main_v169) = _
  after_results_simp <;> rfl

set_option maxHeartbeats 40000000 in
set_option maxRecDepth 65536 in
theorem host8_v171 (c : Dev nD) : (V14 (F := Ideal) m ρ c main_v171 : FVec Ideal S128 .f32) = val_main_v216 (F := Ideal) (V13 m ρ c main_arg17) := by
  show StableHlo.after hostOps8 (W13 m ρ c) (Proc.devRef .tc main_v171) = _
  after_results_simp <;> rfl

set_option maxHeartbeats 40000000 in
set_option maxRecDepth 65536 in
theorem host8_v173 (c : Dev nD) : (V14 (F := Ideal) m ρ c main_v173 : FVec Ideal S128 .f32) = val_main_v218 (F := Ideal) (V13 m ρ c main_arg18) := by
  show StableHlo.after hostOps8 (W13 m ρ c) (Proc.devRef .tc main_v173) = _
  after_results_simp <;> rfl

set_option maxHeartbeats 40000000 in
set_option maxRecDepth 65536 in
theorem host8_v175 (c : Dev nD) : (V14 (F := Ideal) m ρ c main_v175 : FVec Ideal S128 .f32) = val_main_v220 (F := Ideal) (V13 m ρ c main_arg19) := by
  show StableHlo.after hostOps8 (W13 m ρ c) (Proc.devRef .tc main_v175) = _
  after_results_simp <;> rfl

set_option maxHeartbeats 40000000 in
set_option maxRecDepth 65536 in
theorem host8_v177 (c : Dev nD) : (V14 (F := Ideal) m ρ c main_v177 : FVec Ideal S128 .f32) = val_main_v222 (F := Ideal) (V13 m ρ c main_arg20) := by
  show StableHlo.after hostOps8 (W13 m ρ c) (Proc.devRef .tc main_v177) = _
  after_results_simp <;> rfl

set_option maxHeartbeats 40000000 in
set_option maxRecDepth 65536 in
theorem host8_v179 (c : Dev nD) : (V14 (F := Ideal) m ρ c main_v179 : FVec Ideal S128 .f32) = val_main_v224 (F := Ideal) (V13 m ρ c main_arg21) := by
  show StableHlo.after hostOps8 (W13 m ρ c) (Proc.devRef .tc main_v179) = _
  after_results_simp <;> rfl

set_option maxHeartbeats 40000000 in
set_option maxRecDepth 65536 in
/-- The unpooled features beside the skip connection (level 1). -/
theorem host9 (c : Dev nD) :
    (V16 (F := Ideal) m ρ c main_v181 : FVec Ideal S20000x256 .f32) =
      concatenate (α := Ideal .f32) S20000x256 1 [⟨S20000x128, (V15 m ρ c main_v180 : FVec Ideal S20000x128 .f32)⟩, ⟨S20000x128, (V15 m ρ c main_v101 : FVec Ideal S20000x128 .f32)⟩] concatenates_S20000x128_S20000x128_S20000x256_d1 := by
  show StableHlo.after hostOps9 (W15 m ρ c) (Proc.devRef .tc main_v181) = _
  after_results_simp <;> rfl

end Cert.KernelIdeal.Hosts

end
-- ==== Proof.HostsD.lean ====
/-
  What each stretch of array operations between two tiled regions of the kernel's program leaves in the buffers that
  later segments read, as a term of the buffers it found.

  The kernel's program and the reference compute the graph structure the same way: the edge list with self loops
  appended, each node's degree by a scatter-add of ones, the symmetric normalisation `deg^(-1/2)` gathered at both
  endpoints, the gathered rows scaled by it and scattered back by target node; and the pooling glue (a scatter-add or
  a gather by parent index, and the slices of the stacked pooling parameters). The index parts depend on the integer
  arguments alone and are named here by the reference's own stage functions of those arguments; what enters from the
  kernel's regions (a matrix product's or a rectifier's output) stays a buffer read.
-/
import proofs.«124761_j84988812853303_1_alg».proof.Proof.Gen.KernelIdeal.Frame
import proofs.«124761_j84988812853303_1_alg».proof.Proof.RefRead
import Idealize.ShloMosaic.Lib.StableHlo.Run
import Idealize.ShloMosaic.PureOps.Ideal

set_option maxRecDepth 16384

noncomputable section

namespace Cert.KernelIdeal.Hosts

open Idealize.ShloMosaic Idealize.ShloMosaic.TcCoe Idealize.ShloMosaic.Tactic
open Idealize.SL Idealize.SL.Sem
open Idealize.ShloMosaic.StableHlo
open Cert.KernelIdeal Cert.KernelIdeal.Gen
open Cert.ReferenceIdeal.Read

variable (m : (ℓ : Loc nD τ sig) → Buf (Elt Ideal) ℓ) (ρ : Dev nD → PrngReg)

set_option maxHeartbeats 40000000 in
set_option maxRecDepth 65536 in
/-- The graph convolution's aggregation: rows of the product gathered by source node, scaled by the edge normalisation, scattered by target node. -/
theorem host10 (c : Dev nD) :
    (V18 (F := Ideal) m ρ c main_v223 : FVec Ideal S20000x128 .f32) =
      Host.scatterAdd (F := Ideal) (φ := .f32) scatter_S20000x128_S340000x1_S340000x128_1_0_0_1 (val_main_v284 (F := Ideal))
        (val_main_v285 (F := Ideal) (V17 m ρ c main_arg2))
        (mulf (F := Ideal) (φ := .f32) (Host.gather (α := Ideal .f32) gather_S20000x128_S340000x1_S340000x128_1_0_n_n_0_1_1128 (V17 m ρ c main_v182 : FVec Ideal S20000x128 .f32)
                (val_main_v280 (F := Ideal) (V17 m ρ c main_arg2)))
              (val_main_v282 (F := Ideal) (V17 m ρ c main_arg2))) := by
  show StableHlo.after hostOps10 (W17 m ρ c) (Proc.devRef .tc main_v223) = _
  after_results_simp <;> rfl

set_option maxHeartbeats 40000000 in
set_option maxRecDepth 65536 in
/-- The graph convolution's aggregation: rows of the product gathered by source node, scaled by the edge normalisation, scattered by target node. -/
theorem host13 (c : Dev nD) :
    (V24 (F := Ideal) m ρ c main_v287 : FVec Ideal S100000x10 .f32) =
      Host.scatterAdd (F := Ideal) (φ := .f32) scatter_S100000x10_S1700000x1_S1700000x10_1_0_0_1 (val_main_v369 (F := Ideal))
        (val_main_v370 (F := Ideal) (V23 m ρ c main_arg1))
        (mulf (F := Ideal) (φ := .f32) (Host.gather (α := Ideal .f32) gather_S100000x10_S1700000x1_S1700000x10_1_0_n_n_0_1_110 (V23 m ρ c main_v246 : FVec Ideal S100000x10 .f32)
                (val_main_v365 (F := Ideal) (V23 m ρ c main_arg1)))
              (val_main_v367 (F := Ideal) (V23 m ρ c main_arg1))) := by
  show StableHlo.after hostOps13 (W23 m ρ c) (Proc.devRef .tc main_v287) = _
  after_results_simp <;> rfl

set_option maxHeartbeats 40000000 in
set_option maxRecDepth 65536 in
/-- Each child takes its parent's features (level 1 → 0). -/
theorem host11 (c : Dev nD) :
    (V20 (F := Ideal) m ρ c main_v231 : FVec Ideal S100000x128 .f32) =
      Host.gather (α := Ideal .f32) gather_S20000x128_S100000x1_S100000x128_1_0_n_n_0_1_1128 (V19 m ρ c main_v224 : FVec Ideal S20000x128 .f32) (val_main_v296 (F := Ideal) (V19 m ρ c main_arg4)) := by
  show StableHlo.after hostOps11 (W19 m ρ c) (Proc.devRef .tc main_v231) = _
  after_results_simp <;> rfl

set_option maxHeartbeats 40000000 in
set_option maxRecDepth 65536 in
theorem host11_v233 (c : Dev nD) : (V20 (F := Ideal) m ρ c main_v233 : FVec Ideal S128x128 .f32) = val_main_v299 (F := Ideal) (V19 m ρ c main_arg16) := by
  show StableHlo.after hostOps11 (W19 m ρ c) (Proc.devRef .tc main_v233) = _
  after_results_simp <;> rfl

set_option maxHeartbeats 40000000 in
set_option maxRecDepth 65536 in
theorem host11_v235 (c : Dev nD) : (V20 (F := Ideal) m ρ c main_v235 : FVec Ideal S128 .f32) = val_main_v301 (F := Ideal) (V19 m ρ c main_arg17) := by
  show StableHlo.after hostOps11 (W19 m ρ c) (Proc.devRef .tc main_v235) = _
  after_results_simp <;> rfl

set_option maxHeartbeats 40000000 in
set_option maxRecDepth 65536 in
theorem host11_v237 (c : Dev nD) : (V20 (F := Ideal) m ρ c main_v237 : FVec Ideal S128 .f32) = val_main_v303 (F := Ideal) (V19 m ρ c main_arg18) := by
  show StableHlo.after hostOps11 (W19 m ρ c) (Proc.devRef .tc main_v237) = _
  after_results_simp <;> rfl

set_option maxHeartbeats 40000000 in
set_option maxRecDepth 65536 in
theorem host11_v239 (c : Dev nD) : (V20 (F := Ideal) m ρ c main_v239 : FVec Ideal S128 .f32) = val_main_v305 (F := Ideal) (V19 m ρ c main_arg19) := by
  show StableHlo.after hostOps11 (W19 m ρ c) (Proc.devRef .tc main_v239) = _
  after_results_simp <;> rfl

set_option maxHeartbeats 40000000 in
set_option maxRecDepth 65536 in
theorem host11_v241 (c : Dev nD) : (V20 (F := Ideal) m ρ c main_v241 : FVec Ideal S128 .f32) = val_main_v307 (F := Ideal) (V19 m ρ c main_arg20) := by
  show StableHlo.after hostOps11 (W19 m ρ c) (Proc.devRef .tc main_v241) = _
  after_results_simp <;> rfl

set_option maxHeartbeats 40000000 in
set_option maxRecDepth 65536 in
theorem host11_v243 (c : Dev nD) : (V20 (F := Ideal) m ρ c main_v243 : FVec Ideal S128 .f32) = val_main_v309 (F := Ideal) (V19 m ρ c main_arg21) := by
  show StableHlo.after hostOps11 (W19 m ρ c) (Proc.devRef .tc main_v243) = _
  after_results_simp <;> rfl

set_option maxHeartbeats 40000000 in
set_option maxRecDepth 65536 in
/-- The unpooled features beside the skip connection (level 0). -/
theorem host12 (c : Dev nD) :
    (V22 (F := Ideal) m ρ c main_v245 : FVec Ideal S100000x256 .f32) =
      concatenate (α := Ideal .f32) S100000x256 1 [⟨S100000x128, (V21 m ρ c main_v244 : FVec Ideal S100000x128 .f32)⟩, ⟨S100000x128, (V21 m ρ c main_v42 : FVec Ideal S100000x128 .f32)⟩] concatenates_S100000x128_S100000x128_S100000x256_d1 := by
  show StableHlo.after hostOps12 (W21 m ρ c) (Proc.devRef .tc main_v245) = _
  after_results_simp <;> rfl

end Cert.KernelIdeal.Hosts

end
-- ==== Proof.KeepA.lean ====
/-
  Buffers that a stretch of the program does not write keep their contents across it.

  The kernel's program is a sequence of tiled regions and stretches of array operations; the memory at each
  boundary is a fold from the launch memory. A tiled region changes only its output arrays, and a stretch of
  array operations only the buffers its operations write, so an argument array, or an intermediate array that a
  later stretch reads again, is found at a later boundary with the contents it had when it was last written.
-/
import proofs.«124761_j84988812853303_1_alg».proof.Proof.Gen.KernelIdeal.Frame
import proofs.«124761_j84988812853303_1_alg».proof.Proof.KeepTac
import Idealize.ShloMosaic.Lib.StableHlo.Run

set_option maxRecDepth 16384

noncomputable section

namespace Cert.KernelIdeal.KeepA

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ### Boundary 1 -/
theorem W1_arg1 (c : Dev nD) : W1 m ρ c (Proc.devRef .tc main_arg1) = W0 m ρ c (Proc.devRef .tc main_arg1) :=
  W1_of_ne m ρ c main_arg1 (by decide)
theorem W1_arg2 (c : Dev nD) : W1 m ρ c (Proc.devRef .tc main_arg2) = W0 m ρ c (Proc.devRef .tc main_arg2) :=
  W1_of_ne m ρ c main_arg2 (by decide)
theorem W1_arg3 (c : Dev nD) : W1 m ρ c (Proc.devRef .tc main_arg3) = W0 m ρ c (Proc.devRef .tc main_arg3) :=
  W1_of_ne m ρ c main_arg3 (by decide)
theorem W1_arg4 (c : Dev nD) : W1 m ρ c (Proc.devRef .tc main_arg4) = W0 m ρ c (Proc.devRef .tc main_arg4) :=
  W1_of_ne m ρ c main_arg4 (by decide)
theorem W1_arg5 (c : Dev nD) : W1 m ρ c (Proc.devRef .tc main_arg5) = W0 m ρ c (Proc.devRef .tc main_arg5) :=
  W1_of_ne m ρ c main_arg5 (by decide)
theorem W1_arg7 (c : Dev nD) : W1 m ρ c (Proc.devRef .tc main_arg7) = W0 m ρ c (Proc.devRef .tc main_arg7) :=
  W1_of_ne m ρ c main_arg7 (by decide)
theorem W1_arg8 (c : Dev nD) : W1 m ρ c (Proc.devRef .tc main_arg8) = W0 m ρ c (Proc.devRef .tc main_arg8) :=
  W1_of_ne m ρ c main_arg8 (by decide)
theorem W1_arg9 (c : Dev nD) : W1 m ρ c (Proc.devRef .tc main_arg9) = W0 m ρ c (Proc.devRef .tc main_arg9) :=
  W1_of_ne m ρ c main_arg9 (by decide)
theorem W1_arg10 (c : Dev nD) : W1 m ρ c (Proc.devRef .tc main_arg10) = W0 m ρ c (Proc.devRef .tc main_arg10) :=
  W1_of_ne m ρ c main_arg10 (by decide)
theorem W1_arg11 (c : Dev nD) : W1 m ρ c (Proc.devRef .tc main_arg11) = W0 m ρ c (Proc.devRef .tc main_arg11) :=
  W1_of_ne m ρ c main_arg11 (by decide)
theorem W1_arg12 (c : Dev nD) : W1 m ρ c (Proc.devRef .tc main_arg12) = W0 m ρ c (Proc.devRef .tc main_arg12) :=
  W1_of_ne m ρ c main_arg12 (by decide)
theorem W1_arg13 (c : Dev nD) : W1 m ρ c (Proc.devRef .tc main_arg13) = W0 m ρ c (Proc.devRef .tc main_arg13) :=
  W1_of_ne m ρ c main_arg13 (by decide)
theorem W1_arg14 (c : Dev nD) : W1 m ρ c (Proc.devRef .tc main_arg14) = W0 m ρ c (Proc.devRef .tc main_arg14) :=
  W1_of_ne m ρ c main_arg14 (by decide)
theorem W1_arg15 (c : Dev nD) : W1 m ρ c (Proc.devRef .tc main_arg15) = W0 m ρ c (Proc.devRef .tc main_arg15) :=
  W1_of_ne m ρ c main_arg15 (by decide)
theorem W1_arg16 (c : Dev nD) : W1 m ρ c (Proc.devRef .tc main_arg16) = W0 m ρ c (Proc.devRef .tc main_arg16) :=
  W1_of_ne m ρ c main_arg16 (by decide)
theorem W1_arg17 (c : Dev nD) : W1 m ρ c (Proc.devRef .tc main_arg17) = W0 m ρ c (Proc.devRef .tc main_arg17) :=
  W1_of_ne m ρ c main_arg17 (by decide)
theorem W1_arg18 (c : Dev nD) : W1 m ρ c (Proc.devRef .tc main_arg18) = W0 m ρ c (Proc.devRef .tc main_arg18) :=
  W1_of_ne m ρ c main_arg18 (by decide)
theorem W1_arg19 (c : Dev nD) : W1 m ρ c (Proc.devRef .tc main_arg19) = W0 m ρ c (Proc.devRef .tc main_arg19) :=
  W1_of_ne m ρ c main_arg19 (by decide)
theorem W1_arg20 (c : Dev nD) : W1 m ρ c (Proc.devRef .tc main_arg20) = W0 m ρ c (Proc.devRef .tc main_arg20) :=
  W1_of_ne m ρ c main_arg20 (by decide)
theorem W1_arg21 (c : Dev nD) : W1 m ρ c (Proc.devRef .tc main_arg21) = W0 m ρ c (Proc.devRef .tc main_arg21) :=
  W1_of_ne m ρ c main_arg21 (by decide)

/-! ### Boundary 2 -/
theorem W2_arg1 (c : Dev nD) : W2 m ρ c (Proc.devRef .tc main_arg1) = W1 m ρ c (Proc.devRef .tc main_arg1) :=
  StableHlo.after_of_forall_not_mem (b := Proc.devRef .tc main_arg1) _ _ (by not_written hostOps1)
theorem W2_arg2 (c : Dev nD) : W2 m ρ c (Proc.devRef .tc main_arg2) = W1 m ρ c (Proc.devRef .tc main_arg2) :=
  StableHlo.after_of_forall_not_mem (b := Proc.devRef .tc main_arg2) _ _ (by not_written hostOps1)
theorem W2_arg3 (c : Dev nD) : W2 m ρ c (Proc.devRef .tc main_arg3) = W1 m ρ c (Proc.devRef .tc main_arg3) :=
  StableHlo.after_of_forall_not_mem (b := Proc.devRef .tc main_arg3) _ _ (by not_written hostOps1)
theorem W2_arg4 (c : Dev nD) : W2 m ρ c (Proc.devRef .tc main_arg4) = W1 m ρ c (Proc.devRef .tc main_arg4) :=
  StableHlo.after_of_forall_not_mem (b := Proc.devRef .tc main_arg4) _ _ (by not_written hostOps1)
theorem W2_arg5 (c : Dev nD) : W2 m ρ c (Proc.devRef .tc main_arg5) = W1 m ρ c (Proc.devRef .tc main_arg5) :=
  StableHlo.after_of_forall_not_mem (b := Proc.devRef .tc main_arg5) _ _ (by not_written hostOps1)
theorem W2_arg7 (c : Dev nD) : W2 m ρ c (Proc.devRef .tc main_arg7) = W1 m ρ c (Proc.devRef .tc main_arg7) :=
  StableHlo.after_of_forall_not_mem (b := Proc.devRef .tc main_arg7) _ _ (by not_written hostOps1)
theorem W2_arg8 (c : Dev nD) : W2 m ρ c (Proc.devRef .tc main_arg8) = W1 m ρ c (Proc.devRef .tc main_arg8) :=
  StableHlo.after_of_forall_not_mem (b := Proc.devRef .tc main_arg8) _ _ (by not_written hostOps1)
theorem W2_arg9 (c : Dev nD) : W2 m ρ c (Proc.devRef .tc main_arg9) = W1 m ρ c (Proc.devRef .tc main_arg9) :=
  StableHlo.after_of_forall_not_mem (b := Proc.devRef .tc main_arg9) _ _ (by not_written hostOps1)
theorem W2_arg10 (c : Dev nD) : W2 m ρ c (Proc.devRef .tc main_arg10) = W1 m ρ c (Proc.devRef .tc main_arg10) :=
  StableHlo.after_of_forall_not_mem (b := Proc.devRef .tc main_arg10) _ _ (by not_written hostOps1)
theorem W2_arg11 (c : Dev nD) : W2 m ρ c (Proc.devRef .tc main_arg11) = W1 m ρ c (Proc.devRef .tc main_arg11) :=
  StableHlo.after_of_forall_not_mem (b := Proc.devRef .tc main_arg11) _ _ (by not_written hostOps1)
theorem W2_arg12 (c : Dev nD) : W2 m ρ c (Proc.devRef .tc main_arg12) = W1 m ρ c (Proc.devRef .tc main_arg12) :=
  StableHlo.after_of_forall_not_mem (b := Proc.devRef .tc main_arg12) _ _ (by not_written hostOps1)
theorem W2_arg13 (c : Dev nD) : W2 m ρ c (Proc.devRef .tc main_arg13) = W1 m ρ c (Proc.devRef .tc main_arg13) :=
  StableHlo.after_of_forall_not_mem (b := Proc.devRef .tc main_arg13) _ _ (by not_written hostOps1)
theorem W2_arg14 (c : Dev nD) : W2 m ρ c (Proc.devRef .tc main_arg14) = W1 m ρ c (Proc.devRef .tc main_arg14) :=
  StableHlo.after_of_forall_not_mem (b := Proc.devRef .tc main_arg14) _ _ (by not_written hostOps1)
theorem W2_arg15 (c : Dev nD) : W2 m ρ c (Proc.devRef .tc main_arg15) = W1 m ρ c (Proc.devRef .tc main_arg15) :=
  StableHlo.after_of_forall_not_mem (b := Proc.devRef .tc main_arg15) _ _ (by not_written hostOps1)
theorem W2_arg16 (c : Dev nD) : W2 m ρ c (Proc.devRef .tc main_arg16) = W1 m ρ c (Proc.devRef .tc main_arg16) :=
  StableHlo.after_of_forall_not_mem (b := Proc.devRef .tc main_arg16) _ _ (by not_written hostOps1)
theorem W2_arg17 (c : Dev nD) : W2 m ρ c (Proc.devRef .tc main_arg17) = W1 m ρ c (Proc.devRef .tc main_arg17) :=
  StableHlo.after_of_forall_not_mem (b := Proc.devRef .tc main_arg17) _ _ (by not_written hostOps1)
theorem W2_arg18 (c : Dev nD) : W2 m ρ c (Proc.devRef .tc main_arg18) = W1 m ρ c (Proc.devRef .tc main_arg18) :=
  StableHlo.after_of_forall_not_mem (b := Proc.devRef .tc main_arg18) _ _ (by not_written hostOps1)
theorem W2_arg19 (c : Dev nD) : W2 m ρ c (Proc.devRef .tc main_arg19) = W1 m ρ c (Proc.devRef .tc main_arg19) :=
  StableHlo.after_of_forall_not_mem (b := Proc.devRef .tc main_arg19) _ _ (by not_written hostOps1)
theorem W2_arg20 (c : Dev nD) : W2 m ρ c (Proc.devRef .tc main_arg20) = W1 m ρ c (Proc.devRef .tc main_arg20) :=
  StableHlo.after_of_forall_not_mem (b := Proc.devRef .tc main_arg20) _ _ (by not_written hostOps1)
theorem W2_arg21 (c : Dev nD) : W2 m ρ c (Proc.devRef .tc main_arg21) = W1 m ρ c (Proc.devRef .tc main_arg21) :=
  StableHlo.after_of_forall_not_mem (b := Proc.devRef .tc main_arg21) _ _ (by not_written hostOps1)

/-! ### Boundary 3 -/
theorem W3_arg1 (c : Dev nD) : W3 m ρ c (Proc.devRef .tc main_arg1) = W2 m ρ c (Proc.devRef .tc main_arg1) :=
  W3_of_ne m ρ c main_arg1 (by decide)
theorem W3_arg2 (c : Dev nD) : W3 m ρ c (Proc.devRef .tc main_arg2) = W2 m ρ c (Proc.devRef .tc main_arg2) :=
  W3_of_ne m ρ c main_arg2 (by decide)
theorem W3_arg3 (c : Dev nD) : W3 m ρ c (Proc.devRef .tc main_arg3) = W2 m ρ c (Proc.devRef .tc main_arg3) :=
  W3_of_ne m ρ c main_arg3 (by decide)
theorem W3_arg4 (c : Dev nD) : W3 m ρ c (Proc.devRef .tc main_arg4) = W2 m ρ c (Proc.devRef .tc main_arg4) :=
  W3_of_ne m ρ c main_arg4 (by decide)
theorem W3_arg5 (c : Dev nD) : W3 m ρ c (Proc.devRef .tc main_arg5) = W2 m ρ c (Proc.devRef .tc main_arg5) :=
  W3_of_ne m ρ c main_arg5 (by decide)
theorem W3_arg8 (c : Dev nD) : W3 m ρ c (Proc.devRef .tc main_arg8) = W2 m ρ c (Proc.devRef .tc main_arg8) :=
  W3_of_ne m ρ c main_arg8 (by decide)
theorem W3_arg9 (c : Dev nD) : W3 m ρ c (Proc.devRef .tc main_arg9) = W2 m ρ c (Proc.devRef .tc main_arg9) :=
  W3_of_ne m ρ c main_arg9 (by decide)
theorem W3_arg10 (c : Dev nD) : W3 m ρ c (Proc.devRef .tc main_arg10) = W2 m ρ c (Proc.devRef .tc main_arg10) :=
  W3_of_ne m ρ c main_arg10 (by decide)
theorem W3_arg11 (c : Dev nD) : W3 m ρ c (Proc.devRef .tc main_arg11) = W2 m ρ c (Proc.devRef .tc main_arg11) :=
  W3_of_ne m ρ c main_arg11 (by decide)
theorem W3_arg12 (c : Dev nD) : W3 m ρ c (Proc.devRef .tc main_arg12) = W2 m ρ c (Proc.devRef .tc main_arg12) :=
  W3_of_ne m ρ c main_arg12 (by decide)
theorem W3_arg13 (c : Dev nD) : W3 m ρ c (Proc.devRef .tc main_arg13) = W2 m ρ c (Proc.devRef .tc main_arg13) :=
  W3_of_ne m ρ c main_arg13 (by decide)
theorem W3_arg14 (c : Dev nD) : W3 m ρ c (Proc.devRef .tc main_arg14) = W2 m ρ c (Proc.devRef .tc main_arg14) :=
  W3_of_ne m ρ c main_arg14 (by decide)
theorem W3_arg15 (c : Dev nD) : W3 m ρ c (Proc.devRef .tc main_arg15) = W2 m ρ c (Proc.devRef .tc main_arg15) :=
  W3_of_ne m ρ c main_arg15 (by decide)
theorem W3_arg16 (c : Dev nD) : W3 m ρ c (Proc.devRef .tc main_arg16) = W2 m ρ c (Proc.devRef .tc main_arg16) :=
  W3_of_ne m ρ c main_arg16 (by decide)
theorem W3_arg17 (c : Dev nD) : W3 m ρ c (Proc.devRef .tc main_arg17) = W2 m ρ c (Proc.devRef .tc main_arg17) :=
  W3_of_ne m ρ c main_arg17 (by decide)
theorem W3_arg18 (c : Dev nD) : W3 m ρ c (Proc.devRef .tc main_arg18) = W2 m ρ c (Proc.devRef .tc main_arg18) :=
  W3_of_ne m ρ c main_arg18 (by decide)
theorem W3_arg19 (c : Dev nD) : W3 m ρ c (Proc.devRef .tc main_arg19) = W2 m ρ c (Proc.devRef .tc main_arg19) :=
  W3_of_ne m ρ c main_arg19 (by decide)
theorem W3_arg20 (c : Dev nD) : W3 m ρ c (Proc.devRef .tc main_arg20) = W2 m ρ c (Proc.devRef .tc main_arg20) :=
  W3_of_ne m ρ c main_arg20 (by decide)
theorem W3_arg21 (c : Dev nD) : W3 m ρ c (Proc.devRef .tc main_arg21) = W2 m ρ c (Proc.devRef .tc main_arg21) :=
  W3_of_ne m ρ c main_arg21 (by decide)

/-! ### Boundary 4 -/
theorem W4_arg1 (c : Dev nD) : W4 m ρ c (Proc.devRef .tc main_arg1) = W3 m ρ c (Proc.devRef .tc main_arg1) :=
  StableHlo.after_of_forall_not_mem (b := Proc.devRef .tc main_arg1) _ _ (by not_written hostOps2)
theorem W4_arg2 (c : Dev nD) : W4 m ρ c (Proc.devRef .tc main_arg2) = W3 m ρ c (Proc.devRef .tc main_arg2) :=
  StableHlo.after_of_forall_not_mem (b := Proc.devRef .tc main_arg2) _ _ (by not_written hostOps2)
theorem W4_arg3 (c : Dev nD) : W4 m ρ c (Proc.devRef .tc main_arg3) = W3 m ρ c (Proc.devRef .tc main_arg3) :=
  StableHlo.after_of_forall_not_mem (b := Proc.devRef .tc main_arg3) _ _ (by not_written hostOps2)
theorem W4_arg4 (c : Dev nD) : W4 m ρ c (Proc.devRef .tc main_arg4) = W3 m ρ c (Proc.devRef .tc main_arg4) :=
  StableHlo.after_of_forall_not_mem (b := Proc.devRef .tc main_arg4) _ _ (by not_written hostOps2)
theorem W4_arg5 (c : Dev nD) : W4 m ρ c (Proc.devRef .tc main_arg5) = W3 m ρ c (Proc.devRef .tc main_arg5) :=
  StableHlo.after_of_forall_not_mem (b := Proc.devRef .tc main_arg5) _ _ (by not_written hostOps2)
theorem W4_arg8 (c : Dev nD) : W4 m ρ c (Proc.devRef .tc main_arg8) = W3 m ρ c (Proc.devRef .tc main_arg8) :=
  StableHlo.after_of_forall_not_mem (b := Proc.devRef .tc main_arg8) _ _ (by not_written hostOps2)
theorem W4_arg9 (c : Dev nD) : W4 m ρ c (Proc.devRef .tc main_arg9) = W3 m ρ c (Proc.devRef .tc main_arg9) :=
  StableHlo.after_of_forall_not_mem (b := Proc.devRef .tc main_arg9) _ _ (by not_written hostOps2)
theorem W4_arg10 (c : Dev nD) : W4 m ρ c (Proc.devRef .tc main_arg10) = W3 m ρ c (Proc.devRef .tc main_arg10) :=
  StableHlo.after_of_forall_not_mem (b := Proc.devRef .tc main_arg10) _ _ (by not_written hostOps2)
theorem W4_arg11 (c : Dev nD) : W4 m ρ c (Proc.devRef .tc main_arg11) = W3 m ρ c (Proc.devRef .tc main_arg11) :=
  StableHlo.after_of_forall_not_mem (b := Proc.devRef .tc main_arg11) _ _ (by not_written hostOps2)
theorem W4_arg12 (c : Dev nD) : W4 m ρ c (Proc.devRef .tc main_arg12) = W3 m ρ c (Proc.devRef .tc main_arg12) :=
  StableHlo.after_of_forall_not_mem (b := Proc.devRef .tc main_arg12) _ _ (by not_written hostOps2)
theorem W4_arg13 (c : Dev nD) : W4 m ρ c (Proc.devRef .tc main_arg13) = W3 m ρ c (Proc.devRef .tc main_arg13) :=
  StableHlo.after_of_forall_not_mem (b := Proc.devRef .tc main_arg13) _ _ (by not_written hostOps2)
theorem W4_arg14 (c : Dev nD) : W4 m ρ c (Proc.devRef .tc main_arg14) = W3 m ρ c (Proc.devRef .tc main_arg14) :=
  StableHlo.after_of_forall_not_mem (b := Proc.devRef .tc main_arg14) _ _ (by not_written hostOps2)
theorem W4_arg15 (c : Dev nD) : W4 m ρ c (Proc.devRef .tc main_arg15) = W3 m ρ c (Proc.devRef .tc main_arg15) :=
  StableHlo.after_of_forall_not_mem (b := Proc.devRef .tc main_arg15) _ _ (by not_written hostOps2)
theorem W4_arg16 (c : Dev nD) : W4 m ρ c (Proc.devRef .tc main_arg16) = W3 m ρ c (Proc.devRef .tc main_arg16) :=
  StableHlo.after_of_forall_not_mem (b := Proc.devRef .tc main_arg16) _ _ (by not_written hostOps2)
theorem W4_arg17 (c : Dev nD) : W4 m ρ c (Proc.devRef .tc main_arg17) = W3 m ρ c (Proc.devRef .tc main_arg17) :=
  StableHlo.after_of_forall_not_mem (b := Proc.devRef .tc main_arg17) _ _ (by not_written hostOps2)
theorem W4_arg18 (c : Dev nD) : W4 m ρ c (Proc.devRef .tc main_arg18) = W3 m ρ c (Proc.devRef .tc main_arg18) :=
  StableHlo.after_of_forall_not_mem (b := Proc.devRef .tc main_arg18) _ _ (by not_written hostOps2)
theorem W4_arg19 (c : Dev nD) : W4 m ρ c (Proc.devRef .tc main_arg19) = W3 m ρ c (Proc.devRef .tc main_arg19) :=
  StableHlo.after_of_forall_not_mem (b := Proc.devRef .tc main_arg19) _ _ (by not_written hostOps2)
theorem W4_arg20 (c : Dev nD) : W4 m ρ c (Proc.devRef .tc main_arg20) = W3 m ρ c (Proc.devRef .tc main_arg20) :=
  StableHlo.after_of_forall_not_mem (b := Proc.devRef .tc main_arg20) _ _ (by not_written hostOps2)
theorem W4_arg21 (c : Dev nD) : W4 m ρ c (Proc.devRef .tc main_arg21) = W3 m ρ c (Proc.devRef .tc main_arg21) :=
  StableHlo.after_of_forall_not_mem (b := Proc.devRef .tc main_arg21) _ _ (by not_written hostOps2)
theorem W4_v42 (c : Dev nD) : W4 m ρ c (Proc.devRef .tc main_v42) = W3 m ρ c (Proc.devRef .tc main_v42) :=
  StableHlo.after_of_forall_not_mem (b := Proc.devRef .tc main_v42) _ _ (by not_written hostOps2)

/-! ### Boundary 5 -/
theorem W5_arg1 (c : Dev nD) : W5 m ρ c (Proc.devRef .tc main_arg1) = W4 m ρ c (Proc.devRef .tc main_arg1) :=
  W5_of_ne m ρ c main_arg1 (by decide)
theorem W5_arg2 (c : Dev nD) : W5 m ρ c (Proc.devRef .tc main_arg2) = W4 m ρ c (Proc.devRef .tc main_arg2) :=
  W5_of_ne m ρ c main_arg2 (by decide)
theorem W5_arg3 (c : Dev nD) : W5 m ρ c (Proc.devRef .tc main_arg3) = W4 m ρ c (Proc.devRef .tc main_arg3) :=
  W5_of_ne m ρ c main_arg3 (by decide)
theorem W5_arg4 (c : Dev nD) : W5 m ρ c (Proc.devRef .tc main_arg4) = W4 m ρ c (Proc.devRef .tc main_arg4) :=
  W5_of_ne m ρ c main_arg4 (by decide)
theorem W5_arg5 (c : Dev nD) : W5 m ρ c (Proc.devRef .tc main_arg5) = W4 m ρ c (Proc.devRef .tc main_arg5) :=
  W5_of_ne m ρ c main_arg5 (by decide)
theorem W5_arg8 (c : Dev nD) : W5 m ρ c (Proc.devRef .tc main_arg8) = W4 m ρ c (Proc.devRef .tc main_arg8) :=
  W5_of_ne m ρ c main_arg8 (by decide)
theorem W5_arg9 (c : Dev nD) : W5 m ρ c (Proc.devRef .tc main_arg9) = W4 m ρ c (Proc.devRef .tc main_arg9) :=
  W5_of_ne m ρ c main_arg9 (by decide)
theorem W5_arg10 (c : Dev nD) : W5 m ρ c (Proc.devRef .tc main_arg10) = W4 m ρ c (Proc.devRef .tc main_arg10) :=
  W5_of_ne m ρ c main_arg10 (by decide)
theorem W5_arg11 (c : Dev nD) : W5 m ρ c (Proc.devRef .tc main_arg11) = W4 m ρ c (Proc.devRef .tc main_arg11) :=
  W5_of_ne m ρ c main_arg11 (by decide)
theorem W5_arg12 (c : Dev nD) : W5 m ρ c (Proc.devRef .tc main_arg12) = W4 m ρ c (Proc.devRef .tc main_arg12) :=
  W5_of_ne m ρ c main_arg12 (by decide)
theorem W5_arg13 (c : Dev nD) : W5 m ρ c (Proc.devRef .tc main_arg13) = W4 m ρ c (Proc.devRef .tc main_arg13) :=
  W5_of_ne m ρ c main_arg13 (by decide)
theorem W5_arg14 (c : Dev nD) : W5 m ρ c (Proc.devRef .tc main_arg14) = W4 m ρ c (Proc.devRef .tc main_arg14) :=
  W5_of_ne m ρ c main_arg14 (by decide)
theorem W5_arg15 (c : Dev nD) : W5 m ρ c (Proc.devRef .tc main_arg15) = W4 m ρ c (Proc.devRef .tc main_arg15) :=
  W5_of_ne m ρ c main_arg15 (by decide)
theorem W5_arg16 (c : Dev nD) : W5 m ρ c (Proc.devRef .tc main_arg16) = W4 m ρ c (Proc.devRef .tc main_arg16) :=
  W5_of_ne m ρ c main_arg16 (by decide)
theorem W5_arg17 (c : Dev nD) : W5 m ρ c (Proc.devRef .tc main_arg17) = W4 m ρ c (Proc.devRef .tc main_arg17) :=
  W5_of_ne m ρ c main_arg17 (by decide)
theorem W5_arg18 (c : Dev nD) : W5 m ρ c (Proc.devRef .tc main_arg18) = W4 m ρ c (Proc.devRef .tc main_arg18) :=
  W5_of_ne m ρ c main_arg18 (by decide)
theorem W5_arg19 (c : Dev nD) : W5 m ρ c (Proc.devRef .tc main_arg19) = W4 m ρ c (Proc.devRef .tc main_arg19) :=
  W5_of_ne m ρ c main_arg19 (by decide)
theorem W5_arg20 (c : Dev nD) : W5 m ρ c (Proc.devRef .tc main_arg20) = W4 m ρ c (Proc.devRef .tc main_arg20) :=
  W5_of_ne m ρ c main_arg20 (by decide)
theorem W5_arg21 (c : Dev nD) : W5 m ρ c (Proc.devRef .tc main_arg21) = W4 m ρ c (Proc.devRef .tc main_arg21) :=
  W5_of_ne m ρ c main_arg21 (by decide)
theorem W5_v42 (c : Dev nD) : W5 m ρ c (Proc.devRef .tc main_v42) = W4 m ρ c (Proc.devRef .tc main_v42) :=
  W5_of_ne m ρ c main_v42 (by decide)

/-! ### Boundary 6 -/
theorem W6_arg1 (c : Dev nD) : W6 m ρ c (Proc.devRef .tc main_arg1) = W5 m ρ c (Proc.devRef .tc main_arg1) :=
  W6_of_ne m ρ c main_arg1 (by decide)
theorem W6_arg2 (c : Dev nD) : W6 m ρ c (Proc.devRef .tc main_arg2) = W5 m ρ c (Proc.devRef .tc main_arg2) :=
  W6_of_ne m ρ c main_arg2 (by decide)
theorem W6_arg3 (c : Dev nD) : W6 m ρ c (Proc.devRef .tc main_arg3) = W5 m ρ c (Proc.devRef .tc main_arg3) :=
  W6_of_ne m ρ c main_arg3 (by decide)
theorem W6_arg4 (c : Dev nD) : W6 m ρ c (Proc.devRef .tc main_arg4) = W5 m ρ c (Proc.devRef .tc main_arg4) :=
  W6_of_ne m ρ c main_arg4 (by decide)
theorem W6_arg5 (c : Dev nD) : W6 m ρ c (Proc.devRef .tc main_arg5) = W5 m ρ c (Proc.devRef .tc main_arg5) :=
  W6_of_ne m ρ c main_arg5 (by decide)
theorem W6_arg9 (c : Dev nD) : W6 m ρ c (Proc.devRef .tc main_arg9) = W5 m ρ c (Proc.devRef .tc main_arg9) :=
  W6_of_ne m ρ c main_arg9 (by decide)
theorem W6_arg10 (c : Dev nD) : W6 m ρ c (Proc.devRef .tc main_arg10) = W5 m ρ c (Proc.devRef .tc main_arg10) :=
  W6_of_ne m ρ c main_arg10 (by decide)
theorem W6_arg11 (c : Dev nD) : W6 m ρ c (Proc.devRef .tc main_arg11) = W5 m ρ c (Proc.devRef .tc main_arg11) :=
  W6_of_ne m ρ c main_arg11 (by decide)
theorem W6_arg12 (c : Dev nD) : W6 m ρ c (Proc.devRef .tc main_arg12) = W5 m ρ c (Proc.devRef .tc main_arg12) :=
  W6_of_ne m ρ c main_arg12 (by decide)
theorem W6_arg13 (c : Dev nD) : W6 m ρ c (Proc.devRef .tc main_arg13) = W5 m ρ c (Proc.devRef .tc main_arg13) :=
  W6_of_ne m ρ c main_arg13 (by decide)
theorem W6_arg14 (c : Dev nD) : W6 m ρ c (Proc.devRef .tc main_arg14) = W5 m ρ c (Proc.devRef .tc main_arg14) :=
  W6_of_ne m ρ c main_arg14 (by decide)
theorem W6_arg15 (c : Dev nD) : W6 m ρ c (Proc.devRef .tc main_arg15) = W5 m ρ c (Proc.devRef .tc main_arg15) :=
  W6_of_ne m ρ c main_arg15 (by decide)
theorem W6_arg16 (c : Dev nD) : W6 m ρ c (Proc.devRef .tc main_arg16) = W5 m ρ c (Proc.devRef .tc main_arg16) :=
  W6_of_ne m ρ c main_arg16 (by decide)
theorem W6_arg17 (c : Dev nD) : W6 m ρ c (Proc.devRef .tc main_arg17) = W5 m ρ c (Proc.devRef .tc main_arg17) :=
  W6_of_ne m ρ c main_arg17 (by decide)
theorem W6_arg18 (c : Dev nD) : W6 m ρ c (Proc.devRef .tc main_arg18) = W5 m ρ c (Proc.devRef .tc main_arg18) :=
  W6_of_ne m ρ c main_arg18 (by decide)
theorem W6_arg19 (c : Dev nD) : W6 m ρ c (Proc.devRef .tc main_arg19) = W5 m ρ c (Proc.devRef .tc main_arg19) :=
  W6_of_ne m ρ c main_arg19 (by decide)
theorem W6_arg20 (c : Dev nD) : W6 m ρ c (Proc.devRef .tc main_arg20) = W5 m ρ c (Proc.devRef .tc main_arg20) :=
  W6_of_ne m ρ c main_arg20 (by decide)
theorem W6_arg21 (c : Dev nD) : W6 m ρ c (Proc.devRef .tc main_arg21) = W5 m ρ c (Proc.devRef .tc main_arg21) :=
  W6_of_ne m ρ c main_arg21 (by decide)
theorem W6_v42 (c : Dev nD) : W6 m ρ c (Proc.devRef .tc main_v42) = W5 m ρ c (Proc.devRef .tc main_v42) :=
  W6_of_ne m ρ c main_v42 (by decide)

/-! ### Boundary 7 -/
theorem W7_arg1 (c : Dev nD) : W7 m ρ c (Proc.devRef .tc main_arg1) = W6 m ρ c (Proc.devRef .tc main_arg1) :=
  StableHlo.after_of_forall_not_mem (b := Proc.devRef .tc main_arg1) _ _ (by not_written hostOps4)
theorem W7_arg2 (c : Dev nD) : W7 m ρ c (Proc.devRef .tc main_arg2) = W6 m ρ c (Proc.devRef .tc main_arg2) :=
  StableHlo.after_of_forall_not_mem (b := Proc.devRef .tc main_arg2) _ _ (by not_written hostOps4)
theorem W7_arg3 (c : Dev nD) : W7 m ρ c (Proc.devRef .tc main_arg3) = W6 m ρ c (Proc.devRef .tc main_arg3) :=
  StableHlo.after_of_forall_not_mem (b := Proc.devRef .tc main_arg3) _ _ (by not_written hostOps4)
theorem W7_arg4 (c : Dev nD) : W7 m ρ c (Proc.devRef .tc main_arg4) = W6 m ρ c (Proc.devRef .tc main_arg4) :=
  StableHlo.after_of_forall_not_mem (b := Proc.devRef .tc main_arg4) _ _ (by not_written hostOps4)
theorem W7_arg5 (c : Dev nD) : W7 m ρ c (Proc.devRef .tc main_arg5) = W6 m ρ c (Proc.devRef .tc main_arg5) :=
  StableHlo.after_of_forall_not_mem (b := Proc.devRef .tc main_arg5) _ _ (by not_written hostOps4)
theorem W7_arg9 (c : Dev nD) : W7 m ρ c (Proc.devRef .tc main_arg9) = W6 m ρ c (Proc.devRef .tc main_arg9) :=
  StableHlo.after_of_forall_not_mem (b := Proc.devRef .tc main_arg9) _ _ (by not_written hostOps4)
theorem W7_arg10 (c : Dev nD) : W7 m ρ c (Proc.devRef .tc main_arg10) = W6 m ρ c (Proc.devRef .tc main_arg10) :=
  StableHlo.after_of_forall_not_mem (b := Proc.devRef .tc main_arg10) _ _ (by not_written hostOps4)
theorem W7_arg11 (c : Dev nD) : W7 m ρ c (Proc.devRef .tc main_arg11) = W6 m ρ c (Proc.devRef .tc main_arg11) :=
  StableHlo.after_of_forall_not_mem (b := Proc.devRef .tc main_arg11) _ _ (by not_written hostOps4)
theorem W7_arg12 (c : Dev nD) : W7 m ρ c (Proc.devRef .tc main_arg12) = W6 m ρ c (Proc.devRef .tc main_arg12) :=
  StableHlo.after_of_forall_not_mem (b := Proc.devRef .tc main_arg12) _ _ (by not_written hostOps4)
theorem W7_arg13 (c : Dev nD) : W7 m ρ c (Proc.devRef .tc main_arg13) = W6 m ρ c (Proc.devRef .tc main_arg13) :=
  StableHlo.after_of_forall_not_mem (b := Proc.devRef .tc main_arg13) _ _ (by not_written hostOps4)
theorem W7_arg14 (c : Dev nD) : W7 m ρ c (Proc.devRef .tc main_arg14) = W6 m ρ c (Proc.devRef .tc main_arg14) :=
  StableHlo.after_of_forall_not_mem (b := Proc.devRef .tc main_arg14) _ _ (by not_written hostOps4)
theorem W7_arg15 (c : Dev nD) : W7 m ρ c (Proc.devRef .tc main_arg15) = W6 m ρ c (Proc.devRef .tc main_arg15) :=
  StableHlo.after_of_forall_not_mem (b := Proc.devRef .tc main_arg15) _ _ (by not_written hostOps4)
theorem W7_arg16 (c : Dev nD) : W7 m ρ c (Proc.devRef .tc main_arg16) = W6 m ρ c (Proc.devRef .tc main_arg16) :=
  StableHlo.after_of_forall_not_mem (b := Proc.devRef .tc main_arg16) _ _ (by not_written hostOps4)
theorem W7_arg17 (c : Dev nD) : W7 m ρ c (Proc.devRef .tc main_arg17) = W6 m ρ c (Proc.devRef .tc main_arg17) :=
  StableHlo.after_of_forall_not_mem (b := Proc.devRef .tc main_arg17) _ _ (by not_written hostOps4)
theorem W7_arg18 (c : Dev nD) : W7 m ρ c (Proc.devRef .tc main_arg18) = W6 m ρ c (Proc.devRef .tc main_arg18) :=
  StableHlo.after_of_forall_not_mem (b := Proc.devRef .tc main_arg18) _ _ (by not_written hostOps4)
theorem W7_arg19 (c : Dev nD) : W7 m ρ c (Proc.devRef .tc main_arg19) = W6 m ρ c (Proc.devRef .tc main_arg19) :=
  StableHlo.after_of_forall_not_mem (b := Proc.devRef .tc main_arg19) _ _ (by not_written hostOps4)
theorem W7_arg20 (c : Dev nD) : W7 m ρ c (Proc.devRef .tc main_arg20) = W6 m ρ c (Proc.devRef .tc main_arg20) :=
  StableHlo.after_of_forall_not_mem (b := Proc.devRef .tc main_arg20) _ _ (by not_written hostOps4)
theorem W7_arg21 (c : Dev nD) : W7 m ρ c (Proc.devRef .tc main_arg21) = W6 m ρ c (Proc.devRef .tc main_arg21) :=
  StableHlo.after_of_forall_not_mem (b := Proc.devRef .tc main_arg21) _ _ (by not_written hostOps4)
theorem W7_v42 (c : Dev nD) : W7 m ρ c (Proc.devRef .tc main_v42) = W6 m ρ c (Proc.devRef .tc main_v42) :=
  StableHlo.after_of_forall_not_mem (b := Proc.devRef .tc main_v42) _ _ (by not_written hostOps4)

/-! ### Boundary 8 -/
theorem W8_arg1 (c : Dev nD) : W8 m ρ c (Proc.devRef .tc main_arg1) = W7 m ρ c (Proc.devRef .tc main_arg1) :=
  W8_of_ne m ρ c main_arg1 (by decide)
theorem W8_arg2 (c : Dev nD) : W8 m ρ c (Proc.devRef .tc main_arg2) = W7 m ρ c (Proc.devRef .tc main_arg2) :=
  W8_of_ne m ρ c main_arg2 (by decide)
theorem W8_arg3 (c : Dev nD) : W8 m ρ c (Proc.devRef .tc main_arg3) = W7 m ρ c (Proc.devRef .tc main_arg3) :=
  W8_of_ne m ρ c main_arg3 (by decide)
theorem W8_arg4 (c : Dev nD) : W8 m ρ c (Proc.devRef .tc main_arg4) = W7 m ρ c (Proc.devRef .tc main_arg4) :=
  W8_of_ne m ρ c main_arg4 (by decide)
theorem W8_arg5 (c : Dev nD) : W8 m ρ c (Proc.devRef .tc main_arg5) = W7 m ρ c (Proc.devRef .tc main_arg5) :=
  W8_of_ne m ρ c main_arg5 (by decide)
theorem W8_arg10 (c : Dev nD) : W8 m ρ c (Proc.devRef .tc main_arg10) = W7 m ρ c (Proc.devRef .tc main_arg10) :=
  W8_of_ne m ρ c main_arg10 (by decide)
theorem W8_arg11 (c : Dev nD) : W8 m ρ c (Proc.devRef .tc main_arg11) = W7 m ρ c (Proc.devRef .tc main_arg11) :=
  W8_of_ne m ρ c main_arg11 (by decide)
theorem W8_arg12 (c : Dev nD) : W8 m ρ c (Proc.devRef .tc main_arg12) = W7 m ρ c (Proc.devRef .tc main_arg12) :=
  W8_of_ne m ρ c main_arg12 (by decide)
theorem W8_arg13 (c : Dev nD) : W8 m ρ c (Proc.devRef .tc main_arg13) = W7 m ρ c (Proc.devRef .tc main_arg13) :=
  W8_of_ne m ρ c main_arg13 (by decide)
theorem W8_arg14 (c : Dev nD) : W8 m ρ c (Proc.devRef .tc main_arg14) = W7 m ρ c (Proc.devRef .tc main_arg14) :=
  W8_of_ne m ρ c main_arg14 (by decide)
theorem W8_arg15 (c : Dev nD) : W8 m ρ c (Proc.devRef .tc main_arg15) = W7 m ρ c (Proc.devRef .tc main_arg15) :=
  W8_of_ne m ρ c main_arg15 (by decide)
theorem W8_arg16 (c : Dev nD) : W8 m ρ c (Proc.devRef .tc main_arg16) = W7 m ρ c (Proc.devRef .tc main_arg16) :=
  W8_of_ne m ρ c main_arg16 (by decide)
theorem W8_arg17 (c : Dev nD) : W8 m ρ c (Proc.devRef .tc main_arg17) = W7 m ρ c (Proc.devRef .tc main_arg17) :=
  W8_of_ne m ρ c main_arg17 (by decide)
theorem W8_arg18 (c : Dev nD) : W8 m ρ c (Proc.devRef .tc main_arg18) = W7 m ρ c (Proc.devRef .tc main_arg18) :=
  W8_of_ne m ρ c main_arg18 (by decide)
theorem W8_arg19 (c : Dev nD) : W8 m ρ c (Proc.devRef .tc main_arg19) = W7 m ρ c (Proc.devRef .tc main_arg19) :=
  W8_of_ne m ρ c main_arg19 (by decide)
theorem W8_arg20 (c : Dev nD) : W8 m ρ c (Proc.devRef .tc main_arg20) = W7 m ρ c (Proc.devRef .tc main_arg20) :=
  W8_of_ne m ρ c main_arg20 (by decide)
theorem W8_arg21 (c : Dev nD) : W8 m ρ c (Proc.devRef .tc main_arg21) = W7 m ρ c (Proc.devRef .tc main_arg21) :=
  W8_of_ne m ρ c main_arg21 (by decide)
theorem W8_v42 (c : Dev nD) : W8 m ρ c (Proc.devRef .tc main_v42) = W7 m ρ c (Proc.devRef .tc main_v42) :=
  W8_of_ne m ρ c main_v42 (by decide)

end Cert.KernelIdeal.KeepA

end
-- ==== Proof.KeepB.lean ====
/-
  Buffers that a stretch of the program does not write keep their contents across it.

  The kernel's program is a sequence of tiled regions and stretches of array operations; the memory at each
  boundary is a fold from the launch memory. A tiled region changes only its output arrays, and a stretch of
  array operations only the buffers its operations write, so an argument array, or an intermediate array that a
  later stretch reads again, is found at a later boundary with the contents it had when it was last written.
-/
import proofs.«124761_j84988812853303_1_alg».proof.Proof.Gen.KernelIdeal.Frame
import proofs.«124761_j84988812853303_1_alg».proof.Proof.KeepTac
import Idealize.ShloMosaic.Lib.StableHlo.Run

set_option maxRecDepth 16384

noncomputable section

namespace Cert.KernelIdeal.KeepB

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ### Boundary 9 -/
theorem W9_arg1 (c : Dev nD) : W9 m ρ c (Proc.devRef .tc main_arg1) = W8 m ρ c (Proc.devRef .tc main_arg1) :=
  StableHlo.after_of_forall_not_mem (b := Proc.devRef .tc main_arg1) _ _ (by not_written hostOps5)
theorem W9_arg2 (c : Dev nD) : W9 m ρ c (Proc.devRef .tc main_arg2) = W8 m ρ c (Proc.devRef .tc main_arg2) :=
  StableHlo.after_of_forall_not_mem (b := Proc.devRef .tc main_arg2) _ _ (by not_written hostOps5)
theorem W9_arg3 (c : Dev nD) : W9 m ρ c (Proc.devRef .tc main_arg3) = W8 m ρ c (Proc.devRef .tc main_arg3) :=
  StableHlo.after_of_forall_not_mem (b := Proc.devRef .tc main_arg3) _ _ (by not_written hostOps5)
theorem W9_arg4 (c : Dev nD) : W9 m ρ c (Proc.devRef .tc main_arg4) = W8 m ρ c (Proc.devRef .tc main_arg4) :=
  StableHlo.after_of_forall_not_mem (b := Proc.devRef .tc main_arg4) _ _ (by not_written hostOps5)
theorem W9_arg5 (c : Dev nD) : W9 m ρ c (Proc.devRef .tc main_arg5) = W8 m ρ c (Proc.devRef .tc main_arg5) :=
  StableHlo.after_of_forall_not_mem (b := Proc.devRef .tc main_arg5) _ _ (by not_written hostOps5)
theorem W9_arg10 (c : Dev nD) : W9 m ρ c (Proc.devRef .tc main_arg10) = W8 m ρ c (Proc.devRef .tc main_arg10) :=
  StableHlo.after_of_forall_not_mem (b := Proc.devRef .tc main_arg10) _ _ (by not_written hostOps5)
theorem W9_arg11 (c : Dev nD) : W9 m ρ c (Proc.devRef .tc main_arg11) = W8 m ρ c (Proc.devRef .tc main_arg11) :=
  StableHlo.after_of_forall_not_mem (b := Proc.devRef .tc main_arg11) _ _ (by not_written hostOps5)
theorem W9_arg12 (c : Dev nD) : W9 m ρ c (Proc.devRef .tc main_arg12) = W8 m ρ c (Proc.devRef .tc main_arg12) :=
  StableHlo.after_of_forall_not_mem (b := Proc.devRef .tc main_arg12) _ _ (by not_written hostOps5)
theorem W9_arg13 (c : Dev nD) : W9 m ρ c (Proc.devRef .tc main_arg13) = W8 m ρ c (Proc.devRef .tc main_arg13) :=
  StableHlo.after_of_forall_not_mem (b := Proc.devRef .tc main_arg13) _ _ (by not_written hostOps5)
theorem W9_arg14 (c : Dev nD) : W9 m ρ c (Proc.devRef .tc main_arg14) = W8 m ρ c (Proc.devRef .tc main_arg14) :=
  StableHlo.after_of_forall_not_mem (b := Proc.devRef .tc main_arg14) _ _ (by not_written hostOps5)
theorem W9_arg15 (c : Dev nD) : W9 m ρ c (Proc.devRef .tc main_arg15) = W8 m ρ c (Proc.devRef .tc main_arg15) :=
  StableHlo.after_of_forall_not_mem (b := Proc.devRef .tc main_arg15) _ _ (by not_written hostOps5)
theorem W9_arg16 (c : Dev nD) : W9 m ρ c (Proc.devRef .tc main_arg16) = W8 m ρ c (Proc.devRef .tc main_arg16) :=
  StableHlo.after_of_forall_not_mem (b := Proc.devRef .tc main_arg16) _ _ (by not_written hostOps5)
theorem W9_arg17 (c : Dev nD) : W9 m ρ c (Proc.devRef .tc main_arg17) = W8 m ρ c (Proc.devRef .tc main_arg17) :=
  StableHlo.after_of_forall_not_mem (b := Proc.devRef .tc main_arg17) _ _ (by not_written hostOps5)
theorem W9_arg18 (c : Dev nD) : W9 m ρ c (Proc.devRef .tc main_arg18) = W8 m ρ c (Proc.devRef .tc main_arg18) :=
  StableHlo.after_of_forall_not_mem (b := Proc.devRef .tc main_arg18) _ _ (by not_written hostOps5)
theorem W9_arg19 (c : Dev nD) : W9 m ρ c (Proc.devRef .tc main_arg19) = W8 m ρ c (Proc.devRef .tc main_arg19) :=
  StableHlo.after_of_forall_not_mem (b := Proc.devRef .tc main_arg19) _ _ (by not_written hostOps5)
theorem W9_arg20 (c : Dev nD) : W9 m ρ c (Proc.devRef .tc main_arg20) = W8 m ρ c (Proc.devRef .tc main_arg20) :=
  StableHlo.after_of_forall_not_mem (b := Proc.devRef .tc main_arg20) _ _ (by not_written hostOps5)
theorem W9_arg21 (c : Dev nD) : W9 m ρ c (Proc.devRef .tc main_arg21) = W8 m ρ c (Proc.devRef .tc main_arg21) :=
  StableHlo.after_of_forall_not_mem (b := Proc.devRef .tc main_arg21) _ _ (by not_written hostOps5)
theorem W9_v42 (c : Dev nD) : W9 m ρ c (Proc.devRef .tc main_v42) = W8 m ρ c (Proc.devRef .tc main_v42) :=
  StableHlo.after_of_forall_not_mem (b := Proc.devRef .tc main_v42) _ _ (by not_written hostOps5)
theorem W9_v101 (c : Dev nD) : W9 m ρ c (Proc.devRef .tc main_v101) = W8 m ρ c (Proc.devRef .tc main_v101) :=
  StableHlo.after_of_forall_not_mem (b := Proc.devRef .tc main_v101) _ _ (by not_written hostOps5)

/-! ### Boundary 10 -/
theorem W10_arg1 (c : Dev nD) : W10 m ρ c (Proc.devRef .tc main_arg1) = W9 m ρ c (Proc.devRef .tc main_arg1) :=
  W10_of_ne m ρ c main_arg1 (by decide)
theorem W10_arg2 (c : Dev nD) : W10 m ρ c (Proc.devRef .tc main_arg2) = W9 m ρ c (Proc.devRef .tc main_arg2) :=
  W10_of_ne m ρ c main_arg2 (by decide)
theorem W10_arg3 (c : Dev nD) : W10 m ρ c (Proc.devRef .tc main_arg3) = W9 m ρ c (Proc.devRef .tc main_arg3) :=
  W10_of_ne m ρ c main_arg3 (by decide)
theorem W10_arg4 (c : Dev nD) : W10 m ρ c (Proc.devRef .tc main_arg4) = W9 m ρ c (Proc.devRef .tc main_arg4) :=
  W10_of_ne m ρ c main_arg4 (by decide)
theorem W10_arg5 (c : Dev nD) : W10 m ρ c (Proc.devRef .tc main_arg5) = W9 m ρ c (Proc.devRef .tc main_arg5) :=
  W10_of_ne m ρ c main_arg5 (by decide)
theorem W10_arg10 (c : Dev nD) : W10 m ρ c (Proc.devRef .tc main_arg10) = W9 m ρ c (Proc.devRef .tc main_arg10) :=
  W10_of_ne m ρ c main_arg10 (by decide)
theorem W10_arg11 (c : Dev nD) : W10 m ρ c (Proc.devRef .tc main_arg11) = W9 m ρ c (Proc.devRef .tc main_arg11) :=
  W10_of_ne m ρ c main_arg11 (by decide)
theorem W10_arg12 (c : Dev nD) : W10 m ρ c (Proc.devRef .tc main_arg12) = W9 m ρ c (Proc.devRef .tc main_arg12) :=
  W10_of_ne m ρ c main_arg12 (by decide)
theorem W10_arg13 (c : Dev nD) : W10 m ρ c (Proc.devRef .tc main_arg13) = W9 m ρ c (Proc.devRef .tc main_arg13) :=
  W10_of_ne m ρ c main_arg13 (by decide)
theorem W10_arg14 (c : Dev nD) : W10 m ρ c (Proc.devRef .tc main_arg14) = W9 m ρ c (Proc.devRef .tc main_arg14) :=
  W10_of_ne m ρ c main_arg14 (by decide)
theorem W10_arg15 (c : Dev nD) : W10 m ρ c (Proc.devRef .tc main_arg15) = W9 m ρ c (Proc.devRef .tc main_arg15) :=
  W10_of_ne m ρ c main_arg15 (by decide)
theorem W10_arg16 (c : Dev nD) : W10 m ρ c (Proc.devRef .tc main_arg16) = W9 m ρ c (Proc.devRef .tc main_arg16) :=
  W10_of_ne m ρ c main_arg16 (by decide)
theorem W10_arg17 (c : Dev nD) : W10 m ρ c (Proc.devRef .tc main_arg17) = W9 m ρ c (Proc.devRef .tc main_arg17) :=
  W10_of_ne m ρ c main_arg17 (by decide)
theorem W10_arg18 (c : Dev nD) : W10 m ρ c (Proc.devRef .tc main_arg18) = W9 m ρ c (Proc.devRef .tc main_arg18) :=
  W10_of_ne m ρ c main_arg18 (by decide)
theorem W10_arg19 (c : Dev nD) : W10 m ρ c (Proc.devRef .tc main_arg19) = W9 m ρ c (Proc.devRef .tc main_arg19) :=
  W10_of_ne m ρ c main_arg19 (by decide)
theorem W10_arg20 (c : Dev nD) : W10 m ρ c (Proc.devRef .tc main_arg20) = W9 m ρ c (Proc.devRef .tc main_arg20) :=
  W10_of_ne m ρ c main_arg20 (by decide)
theorem W10_arg21 (c : Dev nD) : W10 m ρ c (Proc.devRef .tc main_arg21) = W9 m ρ c (Proc.devRef .tc main_arg21) :=
  W10_of_ne m ρ c main_arg21 (by decide)
theorem W10_v42 (c : Dev nD) : W10 m ρ c (Proc.devRef .tc main_v42) = W9 m ρ c (Proc.devRef .tc main_v42) :=
  W10_of_ne m ρ c main_v42 (by decide)
theorem W10_v101 (c : Dev nD) : W10 m ρ c (Proc.devRef .tc main_v101) = W9 m ρ c (Proc.devRef .tc main_v101) :=
  W10_of_ne m ρ c main_v101 (by decide)

/-! ### Boundary 11 -/
theorem W11_arg1 (c : Dev nD) : W11 m ρ c (Proc.devRef .tc main_arg1) = W10 m ρ c (Proc.devRef .tc main_arg1) :=
  W11_of_ne m ρ c main_arg1 (by decide)
theorem W11_arg2 (c : Dev nD) : W11 m ρ c (Proc.devRef .tc main_arg2) = W10 m ρ c (Proc.devRef .tc main_arg2) :=
  W11_of_ne m ρ c main_arg2 (by decide)
theorem W11_arg3 (c : Dev nD) : W11 m ρ c (Proc.devRef .tc main_arg3) = W10 m ρ c (Proc.devRef .tc main_arg3) :=
  W11_of_ne m ρ c main_arg3 (by decide)
theorem W11_arg4 (c : Dev nD) : W11 m ρ c (Proc.devRef .tc main_arg4) = W10 m ρ c (Proc.devRef .tc main_arg4) :=
  W11_of_ne m ρ c main_arg4 (by decide)
theorem W11_arg5 (c : Dev nD) : W11 m ρ c (Proc.devRef .tc main_arg5) = W10 m ρ c (Proc.devRef .tc main_arg5) :=
  W11_of_ne m ρ c main_arg5 (by decide)
theorem W11_arg11 (c : Dev nD) : W11 m ρ c (Proc.devRef .tc main_arg11) = W10 m ρ c (Proc.devRef .tc main_arg11) :=
  W11_of_ne m ρ c main_arg11 (by decide)
theorem W11_arg12 (c : Dev nD) : W11 m ρ c (Proc.devRef .tc main_arg12) = W10 m ρ c (Proc.devRef .tc main_arg12) :=
  W11_of_ne m ρ c main_arg12 (by decide)
theorem W11_arg13 (c : Dev nD) : W11 m ρ c (Proc.devRef .tc main_arg13) = W10 m ρ c (Proc.devRef .tc main_arg13) :=
  W11_of_ne m ρ c main_arg13 (by decide)
theorem W11_arg14 (c : Dev nD) : W11 m ρ c (Proc.devRef .tc main_arg14) = W10 m ρ c (Proc.devRef .tc main_arg14) :=
  W11_of_ne m ρ c main_arg14 (by decide)
theorem W11_arg15 (c : Dev nD) : W11 m ρ c (Proc.devRef .tc main_arg15) = W10 m ρ c (Proc.devRef .tc main_arg15) :=
  W11_of_ne m ρ c main_arg15 (by decide)
theorem W11_arg16 (c : Dev nD) : W11 m ρ c (Proc.devRef .tc main_arg16) = W10 m ρ c (Proc.devRef .tc main_arg16) :=
  W11_of_ne m ρ c main_arg16 (by decide)
theorem W11_arg17 (c : Dev nD) : W11 m ρ c (Proc.devRef .tc main_arg17) = W10 m ρ c (Proc.devRef .tc main_arg17) :=
  W11_of_ne m ρ c main_arg17 (by decide)
theorem W11_arg18 (c : Dev nD) : W11 m ρ c (Proc.devRef .tc main_arg18) = W10 m ρ c (Proc.devRef .tc main_arg18) :=
  W11_of_ne m ρ c main_arg18 (by decide)
theorem W11_arg19 (c : Dev nD) : W11 m ρ c (Proc.devRef .tc main_arg19) = W10 m ρ c (Proc.devRef .tc main_arg19) :=
  W11_of_ne m ρ c main_arg19 (by decide)
theorem W11_arg20 (c : Dev nD) : W11 m ρ c (Proc.devRef .tc main_arg20) = W10 m ρ c (Proc.devRef .tc main_arg20) :=
  W11_of_ne m ρ c main_arg20 (by decide)
theorem W11_arg21 (c : Dev nD) : W11 m ρ c (Proc.devRef .tc main_arg21) = W10 m ρ c (Proc.devRef .tc main_arg21) :=
  W11_of_ne m ρ c main_arg21 (by decide)
theorem W11_v42 (c : Dev nD) : W11 m ρ c (Proc.devRef .tc main_v42) = W10 m ρ c (Proc.devRef .tc main_v42) :=
  W11_of_ne m ρ c main_v42 (by decide)
theorem W11_v101 (c : Dev nD) : W11 m ρ c (Proc.devRef .tc main_v101) = W10 m ρ c (Proc.devRef .tc main_v101) :=
  W11_of_ne m ρ c main_v101 (by decide)

/-! ### Boundary 12 -/
theorem W12_arg1 (c : Dev nD) : W12 m ρ c (Proc.devRef .tc main_arg1) = W11 m ρ c (Proc.devRef .tc main_arg1) :=
  StableHlo.after_of_forall_not_mem (b := Proc.devRef .tc main_arg1) _ _ (by not_written hostOps7)
theorem W12_arg2 (c : Dev nD) : W12 m ρ c (Proc.devRef .tc main_arg2) = W11 m ρ c (Proc.devRef .tc main_arg2) :=
  StableHlo.after_of_forall_not_mem (b := Proc.devRef .tc main_arg2) _ _ (by not_written hostOps7)
theorem W12_arg4 (c : Dev nD) : W12 m ρ c (Proc.devRef .tc main_arg4) = W11 m ρ c (Proc.devRef .tc main_arg4) :=
  StableHlo.after_of_forall_not_mem (b := Proc.devRef .tc main_arg4) _ _ (by not_written hostOps7)
theorem W12_arg5 (c : Dev nD) : W12 m ρ c (Proc.devRef .tc main_arg5) = W11 m ρ c (Proc.devRef .tc main_arg5) :=
  StableHlo.after_of_forall_not_mem (b := Proc.devRef .tc main_arg5) _ _ (by not_written hostOps7)
theorem W12_arg11 (c : Dev nD) : W12 m ρ c (Proc.devRef .tc main_arg11) = W11 m ρ c (Proc.devRef .tc main_arg11) :=
  StableHlo.after_of_forall_not_mem (b := Proc.devRef .tc main_arg11) _ _ (by not_written hostOps7)
theorem W12_arg12 (c : Dev nD) : W12 m ρ c (Proc.devRef .tc main_arg12) = W11 m ρ c (Proc.devRef .tc main_arg12) :=
  StableHlo.after_of_forall_not_mem (b := Proc.devRef .tc main_arg12) _ _ (by not_written hostOps7)
theorem W12_arg13 (c : Dev nD) : W12 m ρ c (Proc.devRef .tc main_arg13) = W11 m ρ c (Proc.devRef .tc main_arg13) :=
  StableHlo.after_of_forall_not_mem (b := Proc.devRef .tc main_arg13) _ _ (by not_written hostOps7)
theorem W12_arg14 (c : Dev nD) : W12 m ρ c (Proc.devRef .tc main_arg14) = W11 m ρ c (Proc.devRef .tc main_arg14) :=
  StableHlo.after_of_forall_not_mem (b := Proc.devRef .tc main_arg14) _ _ (by not_written hostOps7)
theorem W12_arg15 (c : Dev nD) : W12 m ρ c (Proc.devRef .tc main_arg15) = W11 m ρ c (Proc.devRef .tc main_arg15) :=
  StableHlo.after_of_forall_not_mem (b := Proc.devRef .tc main_arg15) _ _ (by not_written hostOps7)
theorem W12_arg16 (c : Dev nD) : W12 m ρ c (Proc.devRef .tc main_arg16) = W11 m ρ c (Proc.devRef .tc main_arg16) :=
  StableHlo.after_of_forall_not_mem (b := Proc.devRef .tc main_arg16) _ _ (by not_written hostOps7)
theorem W12_arg17 (c : Dev nD) : W12 m ρ c (Proc.devRef .tc main_arg17) = W11 m ρ c (Proc.devRef .tc main_arg17) :=
  StableHlo.after_of_forall_not_mem (b := Proc.devRef .tc main_arg17) _ _ (by not_written hostOps7)
theorem W12_arg18 (c : Dev nD) : W12 m ρ c (Proc.devRef .tc main_arg18) = W11 m ρ c (Proc.devRef .tc main_arg18) :=
  StableHlo.after_of_forall_not_mem (b := Proc.devRef .tc main_arg18) _ _ (by not_written hostOps7)
theorem W12_arg19 (c : Dev nD) : W12 m ρ c (Proc.devRef .tc main_arg19) = W11 m ρ c (Proc.devRef .tc main_arg19) :=
  StableHlo.after_of_forall_not_mem (b := Proc.devRef .tc main_arg19) _ _ (by not_written hostOps7)
theorem W12_arg20 (c : Dev nD) : W12 m ρ c (Proc.devRef .tc main_arg20) = W11 m ρ c (Proc.devRef .tc main_arg20) :=
  StableHlo.after_of_forall_not_mem (b := Proc.devRef .tc main_arg20) _ _ (by not_written hostOps7)
theorem W12_arg21 (c : Dev nD) : W12 m ρ c (Proc.devRef .tc main_arg21) = W11 m ρ c (Proc.devRef .tc main_arg21) :=
  StableHlo.after_of_forall_not_mem (b := Proc.devRef .tc main_arg21) _ _ (by not_written hostOps7)
theorem W12_v42 (c : Dev nD) : W12 m ρ c (Proc.devRef .tc main_v42) = W11 m ρ c (Proc.devRef .tc main_v42) :=
  StableHlo.after_of_forall_not_mem (b := Proc.devRef .tc main_v42) _ _ (by not_written hostOps7)
theorem W12_v101 (c : Dev nD) : W12 m ρ c (Proc.devRef .tc main_v101) = W11 m ρ c (Proc.devRef .tc main_v101) :=
  StableHlo.after_of_forall_not_mem (b := Proc.devRef .tc main_v101) _ _ (by not_written hostOps7)

/-! ### Boundary 13 -/
theorem W13_arg1 (c : Dev nD) : W13 m ρ c (Proc.devRef .tc main_arg1) = W12 m ρ c (Proc.devRef .tc main_arg1) :=
  W13_of_ne m ρ c main_arg1 (by decide)
theorem W13_arg2 (c : Dev nD) : W13 m ρ c (Proc.devRef .tc main_arg2) = W12 m ρ c (Proc.devRef .tc main_arg2) :=
  W13_of_ne m ρ c main_arg2 (by decide)
theorem W13_arg4 (c : Dev nD) : W13 m ρ c (Proc.devRef .tc main_arg4) = W12 m ρ c (Proc.devRef .tc main_arg4) :=
  W13_of_ne m ρ c main_arg4 (by decide)
theorem W13_arg5 (c : Dev nD) : W13 m ρ c (Proc.devRef .tc main_arg5) = W12 m ρ c (Proc.devRef .tc main_arg5) :=
  W13_of_ne m ρ c main_arg5 (by decide)
theorem W13_arg12 (c : Dev nD) : W13 m ρ c (Proc.devRef .tc main_arg12) = W12 m ρ c (Proc.devRef .tc main_arg12) :=
  W13_of_ne m ρ c main_arg12 (by decide)
theorem W13_arg13 (c : Dev nD) : W13 m ρ c (Proc.devRef .tc main_arg13) = W12 m ρ c (Proc.devRef .tc main_arg13) :=
  W13_of_ne m ρ c main_arg13 (by decide)
theorem W13_arg14 (c : Dev nD) : W13 m ρ c (Proc.devRef .tc main_arg14) = W12 m ρ c (Proc.devRef .tc main_arg14) :=
  W13_of_ne m ρ c main_arg14 (by decide)
theorem W13_arg15 (c : Dev nD) : W13 m ρ c (Proc.devRef .tc main_arg15) = W12 m ρ c (Proc.devRef .tc main_arg15) :=
  W13_of_ne m ρ c main_arg15 (by decide)
theorem W13_arg16 (c : Dev nD) : W13 m ρ c (Proc.devRef .tc main_arg16) = W12 m ρ c (Proc.devRef .tc main_arg16) :=
  W13_of_ne m ρ c main_arg16 (by decide)
theorem W13_arg17 (c : Dev nD) : W13 m ρ c (Proc.devRef .tc main_arg17) = W12 m ρ c (Proc.devRef .tc main_arg17) :=
  W13_of_ne m ρ c main_arg17 (by decide)
theorem W13_arg18 (c : Dev nD) : W13 m ρ c (Proc.devRef .tc main_arg18) = W12 m ρ c (Proc.devRef .tc main_arg18) :=
  W13_of_ne m ρ c main_arg18 (by decide)
theorem W13_arg19 (c : Dev nD) : W13 m ρ c (Proc.devRef .tc main_arg19) = W12 m ρ c (Proc.devRef .tc main_arg19) :=
  W13_of_ne m ρ c main_arg19 (by decide)
theorem W13_arg20 (c : Dev nD) : W13 m ρ c (Proc.devRef .tc main_arg20) = W12 m ρ c (Proc.devRef .tc main_arg20) :=
  W13_of_ne m ρ c main_arg20 (by decide)
theorem W13_arg21 (c : Dev nD) : W13 m ρ c (Proc.devRef .tc main_arg21) = W12 m ρ c (Proc.devRef .tc main_arg21) :=
  W13_of_ne m ρ c main_arg21 (by decide)
theorem W13_v42 (c : Dev nD) : W13 m ρ c (Proc.devRef .tc main_v42) = W12 m ρ c (Proc.devRef .tc main_v42) :=
  W13_of_ne m ρ c main_v42 (by decide)
theorem W13_v101 (c : Dev nD) : W13 m ρ c (Proc.devRef .tc main_v101) = W12 m ρ c (Proc.devRef .tc main_v101) :=
  W13_of_ne m ρ c main_v101 (by decide)

/-! ### Boundary 14 -/
theorem W14_arg1 (c : Dev nD) : W14 m ρ c (Proc.devRef .tc main_arg1) = W13 m ρ c (Proc.devRef .tc main_arg1) :=
  StableHlo.after_of_forall_not_mem (b := Proc.devRef .tc main_arg1) _ _ (by not_written hostOps8)
theorem W14_arg2 (c : Dev nD) : W14 m ρ c (Proc.devRef .tc main_arg2) = W13 m ρ c (Proc.devRef .tc main_arg2) :=
  StableHlo.after_of_forall_not_mem (b := Proc.devRef .tc main_arg2) _ _ (by not_written hostOps8)
theorem W14_arg4 (c : Dev nD) : W14 m ρ c (Proc.devRef .tc main_arg4) = W13 m ρ c (Proc.devRef .tc main_arg4) :=
  StableHlo.after_of_forall_not_mem (b := Proc.devRef .tc main_arg4) _ _ (by not_written hostOps8)
theorem W14_arg12 (c : Dev nD) : W14 m ρ c (Proc.devRef .tc main_arg12) = W13 m ρ c (Proc.devRef .tc main_arg12) :=
  StableHlo.after_of_forall_not_mem (b := Proc.devRef .tc main_arg12) _ _ (by not_written hostOps8)
theorem W14_arg13 (c : Dev nD) : W14 m ρ c (Proc.devRef .tc main_arg13) = W13 m ρ c (Proc.devRef .tc main_arg13) :=
  StableHlo.after_of_forall_not_mem (b := Proc.devRef .tc main_arg13) _ _ (by not_written hostOps8)
theorem W14_arg14 (c : Dev nD) : W14 m ρ c (Proc.devRef .tc main_arg14) = W13 m ρ c (Proc.devRef .tc main_arg14) :=
  StableHlo.after_of_forall_not_mem (b := Proc.devRef .tc main_arg14) _ _ (by not_written hostOps8)
theorem W14_arg15 (c : Dev nD) : W14 m ρ c (Proc.devRef .tc main_arg15) = W13 m ρ c (Proc.devRef .tc main_arg15) :=
  StableHlo.after_of_forall_not_mem (b := Proc.devRef .tc main_arg15) _ _ (by not_written hostOps8)
theorem W14_arg16 (c : Dev nD) : W14 m ρ c (Proc.devRef .tc main_arg16) = W13 m ρ c (Proc.devRef .tc main_arg16) :=
  StableHlo.after_of_forall_not_mem (b := Proc.devRef .tc main_arg16) _ _ (by not_written hostOps8)
theorem W14_arg17 (c : Dev nD) : W14 m ρ c (Proc.devRef .tc main_arg17) = W13 m ρ c (Proc.devRef .tc main_arg17) :=
  StableHlo.after_of_forall_not_mem (b := Proc.devRef .tc main_arg17) _ _ (by not_written hostOps8)
theorem W14_arg18 (c : Dev nD) : W14 m ρ c (Proc.devRef .tc main_arg18) = W13 m ρ c (Proc.devRef .tc main_arg18) :=
  StableHlo.after_of_forall_not_mem (b := Proc.devRef .tc main_arg18) _ _ (by not_written hostOps8)
theorem W14_arg19 (c : Dev nD) : W14 m ρ c (Proc.devRef .tc main_arg19) = W13 m ρ c (Proc.devRef .tc main_arg19) :=
  StableHlo.after_of_forall_not_mem (b := Proc.devRef .tc main_arg19) _ _ (by not_written hostOps8)
theorem W14_arg20 (c : Dev nD) : W14 m ρ c (Proc.devRef .tc main_arg20) = W13 m ρ c (Proc.devRef .tc main_arg20) :=
  StableHlo.after_of_forall_not_mem (b := Proc.devRef .tc main_arg20) _ _ (by not_written hostOps8)
theorem W14_arg21 (c : Dev nD) : W14 m ρ c (Proc.devRef .tc main_arg21) = W13 m ρ c (Proc.devRef .tc main_arg21) :=
  StableHlo.after_of_forall_not_mem (b := Proc.devRef .tc main_arg21) _ _ (by not_written hostOps8)
theorem W14_v42 (c : Dev nD) : W14 m ρ c (Proc.devRef .tc main_v42) = W13 m ρ c (Proc.devRef .tc main_v42) :=
  StableHlo.after_of_forall_not_mem (b := Proc.devRef .tc main_v42) _ _ (by not_written hostOps8)
theorem W14_v101 (c : Dev nD) : W14 m ρ c (Proc.devRef .tc main_v101) = W13 m ρ c (Proc.devRef .tc main_v101) :=
  StableHlo.after_of_forall_not_mem (b := Proc.devRef .tc main_v101) _ _ (by not_written hostOps8)

/-! ### Boundary 15 -/
theorem W15_arg1 (c : Dev nD) : W15 m ρ c (Proc.devRef .tc main_arg1) = W14 m ρ c (Proc.devRef .tc main_arg1) :=
  W15_of_ne m ρ c main_arg1 (by decide)
theorem W15_arg2 (c : Dev nD) : W15 m ρ c (Proc.devRef .tc main_arg2) = W14 m ρ c (Proc.devRef .tc main_arg2) :=
  W15_of_ne m ρ c main_arg2 (by decide)
theorem W15_arg4 (c : Dev nD) : W15 m ρ c (Proc.devRef .tc main_arg4) = W14 m ρ c (Proc.devRef .tc main_arg4) :=
  W15_of_ne m ρ c main_arg4 (by decide)
theorem W15_arg12 (c : Dev nD) : W15 m ρ c (Proc.devRef .tc main_arg12) = W14 m ρ c (Proc.devRef .tc main_arg12) :=
  W15_of_ne m ρ c main_arg12 (by decide)
theorem W15_arg13 (c : Dev nD) : W15 m ρ c (Proc.devRef .tc main_arg13) = W14 m ρ c (Proc.devRef .tc main_arg13) :=
  W15_of_ne m ρ c main_arg13 (by decide)
theorem W15_arg14 (c : Dev nD) : W15 m ρ c (Proc.devRef .tc main_arg14) = W14 m ρ c (Proc.devRef .tc main_arg14) :=
  W15_of_ne m ρ c main_arg14 (by decide)
theorem W15_arg15 (c : Dev nD) : W15 m ρ c (Proc.devRef .tc main_arg15) = W14 m ρ c (Proc.devRef .tc main_arg15) :=
  W15_of_ne m ρ c main_arg15 (by decide)
theorem W15_arg16 (c : Dev nD) : W15 m ρ c (Proc.devRef .tc main_arg16) = W14 m ρ c (Proc.devRef .tc main_arg16) :=
  W15_of_ne m ρ c main_arg16 (by decide)
theorem W15_arg17 (c : Dev nD) : W15 m ρ c (Proc.devRef .tc main_arg17) = W14 m ρ c (Proc.devRef .tc main_arg17) :=
  W15_of_ne m ρ c main_arg17 (by decide)
theorem W15_arg18 (c : Dev nD) : W15 m ρ c (Proc.devRef .tc main_arg18) = W14 m ρ c (Proc.devRef .tc main_arg18) :=
  W15_of_ne m ρ c main_arg18 (by decide)
theorem W15_arg19 (c : Dev nD) : W15 m ρ c (Proc.devRef .tc main_arg19) = W14 m ρ c (Proc.devRef .tc main_arg19) :=
  W15_of_ne m ρ c main_arg19 (by decide)
theorem W15_arg20 (c : Dev nD) : W15 m ρ c (Proc.devRef .tc main_arg20) = W14 m ρ c (Proc.devRef .tc main_arg20) :=
  W15_of_ne m ρ c main_arg20 (by decide)
theorem W15_arg21 (c : Dev nD) : W15 m ρ c (Proc.devRef .tc main_arg21) = W14 m ρ c (Proc.devRef .tc main_arg21) :=
  W15_of_ne m ρ c main_arg21 (by decide)
theorem W15_v42 (c : Dev nD) : W15 m ρ c (Proc.devRef .tc main_v42) = W14 m ρ c (Proc.devRef .tc main_v42) :=
  W15_of_ne m ρ c main_v42 (by decide)
theorem W15_v101 (c : Dev nD) : W15 m ρ c (Proc.devRef .tc main_v101) = W14 m ρ c (Proc.devRef .tc main_v101) :=
  W15_of_ne m ρ c main_v101 (by decide)

/-! ### Boundary 16 -/
theorem W16_arg1 (c : Dev nD) : W16 m ρ c (Proc.devRef .tc main_arg1) = W15 m ρ c (Proc.devRef .tc main_arg1) :=
  StableHlo.after_of_forall_not_mem (b := Proc.devRef .tc main_arg1) _ _ (by not_written hostOps9)
theorem W16_arg2 (c : Dev nD) : W16 m ρ c (Proc.devRef .tc main_arg2) = W15 m ρ c (Proc.devRef .tc main_arg2) :=
  StableHlo.after_of_forall_not_mem (b := Proc.devRef .tc main_arg2) _ _ (by not_written hostOps9)
theorem W16_arg4 (c : Dev nD) : W16 m ρ c (Proc.devRef .tc main_arg4) = W15 m ρ c (Proc.devRef .tc main_arg4) :=
  StableHlo.after_of_forall_not_mem (b := Proc.devRef .tc main_arg4) _ _ (by not_written hostOps9)
theorem W16_arg12 (c : Dev nD) : W16 m ρ c (Proc.devRef .tc main_arg12) = W15 m ρ c (Proc.devRef .tc main_arg12) :=
  StableHlo.after_of_forall_not_mem (b := Proc.devRef .tc main_arg12) _ _ (by not_written hostOps9)
theorem W16_arg13 (c : Dev nD) : W16 m ρ c (Proc.devRef .tc main_arg13) = W15 m ρ c (Proc.devRef .tc main_arg13) :=
  StableHlo.after_of_forall_not_mem (b := Proc.devRef .tc main_arg13) _ _ (by not_written hostOps9)
theorem W16_arg14 (c : Dev nD) : W16 m ρ c (Proc.devRef .tc main_arg14) = W15 m ρ c (Proc.devRef .tc main_arg14) :=
  StableHlo.after_of_forall_not_mem (b := Proc.devRef .tc main_arg14) _ _ (by not_written hostOps9)
theorem W16_arg15 (c : Dev nD) : W16 m ρ c (Proc.devRef .tc main_arg15) = W15 m ρ c (Proc.devRef .tc main_arg15) :=
  StableHlo.after_of_forall_not_mem (b := Proc.devRef .tc main_arg15) _ _ (by not_written hostOps9)
theorem W16_arg16 (c : Dev nD) : W16 m ρ c (Proc.devRef .tc main_arg16) = W15 m ρ c (Proc.devRef .tc main_arg16) :=
  StableHlo.after_of_forall_not_mem (b := Proc.devRef .tc main_arg16) _ _ (by not_written hostOps9)
theorem W16_arg17 (c : Dev nD) : W16 m ρ c (Proc.devRef .tc main_arg17) = W15 m ρ c (Proc.devRef .tc main_arg17) :=
  StableHlo.after_of_forall_not_mem (b := Proc.devRef .tc main_arg17) _ _ (by not_written hostOps9)
theorem W16_arg18 (c : Dev nD) : W16 m ρ c (Proc.devRef .tc main_arg18) = W15 m ρ c (Proc.devRef .tc main_arg18) :=
  StableHlo.after_of_forall_not_mem (b := Proc.devRef .tc main_arg18) _ _ (by not_written hostOps9)
theorem W16_arg19 (c : Dev nD) : W16 m ρ c (Proc.devRef .tc main_arg19) = W15 m ρ c (Proc.devRef .tc main_arg19) :=
  StableHlo.after_of_forall_not_mem (b := Proc.devRef .tc main_arg19) _ _ (by not_written hostOps9)
theorem W16_arg20 (c : Dev nD) : W16 m ρ c (Proc.devRef .tc main_arg20) = W15 m ρ c (Proc.devRef .tc main_arg20) :=
  StableHlo.after_of_forall_not_mem (b := Proc.devRef .tc main_arg20) _ _ (by not_written hostOps9)
theorem W16_arg21 (c : Dev nD) : W16 m ρ c (Proc.devRef .tc main_arg21) = W15 m ρ c (Proc.devRef .tc main_arg21) :=
  StableHlo.after_of_forall_not_mem (b := Proc.devRef .tc main_arg21) _ _ (by not_written hostOps9)
theorem W16_v42 (c : Dev nD) : W16 m ρ c (Proc.devRef .tc main_v42) = W15 m ρ c (Proc.devRef .tc main_v42) :=
  StableHlo.after_of_forall_not_mem (b := Proc.devRef .tc main_v42) _ _ (by not_written hostOps9)

end Cert.KernelIdeal.KeepB

end
-- ==== Proof.KeepC.lean ====
/-
  Buffers that a stretch of the program does not write keep their contents across it.

  The kernel's program is a sequence of tiled regions and stretches of array operations; the memory at each
  boundary is a fold from the launch memory. A tiled region changes only its output arrays, and a stretch of
  array operations only the buffers its operations write, so an argument array, or an intermediate array that a
  later stretch reads again, is found at a later boundary with the contents it had when it was last written.
-/
import proofs.«124761_j84988812853303_1_alg».proof.Proof.Gen.KernelIdeal.Frame
import proofs.«124761_j84988812853303_1_alg».proof.Proof.KeepTac
import Idealize.ShloMosaic.Lib.StableHlo.Run

set_option maxRecDepth 16384

noncomputable section

namespace Cert.KernelIdeal.KeepC

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ### Boundary 17 -/
theorem W17_arg1 (c : Dev nD) : W17 m ρ c (Proc.devRef .tc main_arg1) = W16 m ρ c (Proc.devRef .tc main_arg1) :=
  W17_of_ne m ρ c main_arg1 (by decide)
theorem W17_arg2 (c : Dev nD) : W17 m ρ c (Proc.devRef .tc main_arg2) = W16 m ρ c (Proc.devRef .tc main_arg2) :=
  W17_of_ne m ρ c main_arg2 (by decide)
theorem W17_arg4 (c : Dev nD) : W17 m ρ c (Proc.devRef .tc main_arg4) = W16 m ρ c (Proc.devRef .tc main_arg4) :=
  W17_of_ne m ρ c main_arg4 (by decide)
theorem W17_arg13 (c : Dev nD) : W17 m ρ c (Proc.devRef .tc main_arg13) = W16 m ρ c (Proc.devRef .tc main_arg13) :=
  W17_of_ne m ρ c main_arg13 (by decide)
theorem W17_arg14 (c : Dev nD) : W17 m ρ c (Proc.devRef .tc main_arg14) = W16 m ρ c (Proc.devRef .tc main_arg14) :=
  W17_of_ne m ρ c main_arg14 (by decide)
theorem W17_arg15 (c : Dev nD) : W17 m ρ c (Proc.devRef .tc main_arg15) = W16 m ρ c (Proc.devRef .tc main_arg15) :=
  W17_of_ne m ρ c main_arg15 (by decide)
theorem W17_arg16 (c : Dev nD) : W17 m ρ c (Proc.devRef .tc main_arg16) = W16 m ρ c (Proc.devRef .tc main_arg16) :=
  W17_of_ne m ρ c main_arg16 (by decide)
theorem W17_arg17 (c : Dev nD) : W17 m ρ c (Proc.devRef .tc main_arg17) = W16 m ρ c (Proc.devRef .tc main_arg17) :=
  W17_of_ne m ρ c main_arg17 (by decide)
theorem W17_arg18 (c : Dev nD) : W17 m ρ c (Proc.devRef .tc main_arg18) = W16 m ρ c (Proc.devRef .tc main_arg18) :=
  W17_of_ne m ρ c main_arg18 (by decide)
theorem W17_arg19 (c : Dev nD) : W17 m ρ c (Proc.devRef .tc main_arg19) = W16 m ρ c (Proc.devRef .tc main_arg19) :=
  W17_of_ne m ρ c main_arg19 (by decide)
theorem W17_arg20 (c : Dev nD) : W17 m ρ c (Proc.devRef .tc main_arg20) = W16 m ρ c (Proc.devRef .tc main_arg20) :=
  W17_of_ne m ρ c main_arg20 (by decide)
theorem W17_arg21 (c : Dev nD) : W17 m ρ c (Proc.devRef .tc main_arg21) = W16 m ρ c (Proc.devRef .tc main_arg21) :=
  W17_of_ne m ρ c main_arg21 (by decide)
theorem W17_v42 (c : Dev nD) : W17 m ρ c (Proc.devRef .tc main_v42) = W16 m ρ c (Proc.devRef .tc main_v42) :=
  W17_of_ne m ρ c main_v42 (by decide)

/-! ### Boundary 18 -/
theorem W18_arg1 (c : Dev nD) : W18 m ρ c (Proc.devRef .tc main_arg1) = W17 m ρ c (Proc.devRef .tc main_arg1) :=
  StableHlo.after_of_forall_not_mem (b := Proc.devRef .tc main_arg1) _ _ (by not_written hostOps10)
theorem W18_arg4 (c : Dev nD) : W18 m ρ c (Proc.devRef .tc main_arg4) = W17 m ρ c (Proc.devRef .tc main_arg4) :=
  StableHlo.after_of_forall_not_mem (b := Proc.devRef .tc main_arg4) _ _ (by not_written hostOps10)
theorem W18_arg13 (c : Dev nD) : W18 m ρ c (Proc.devRef .tc main_arg13) = W17 m ρ c (Proc.devRef .tc main_arg13) :=
  StableHlo.after_of_forall_not_mem (b := Proc.devRef .tc main_arg13) _ _ (by not_written hostOps10)
theorem W18_arg14 (c : Dev nD) : W18 m ρ c (Proc.devRef .tc main_arg14) = W17 m ρ c (Proc.devRef .tc main_arg14) :=
  StableHlo.after_of_forall_not_mem (b := Proc.devRef .tc main_arg14) _ _ (by not_written hostOps10)
theorem W18_arg15 (c : Dev nD) : W18 m ρ c (Proc.devRef .tc main_arg15) = W17 m ρ c (Proc.devRef .tc main_arg15) :=
  StableHlo.after_of_forall_not_mem (b := Proc.devRef .tc main_arg15) _ _ (by not_written hostOps10)
theorem W18_arg16 (c : Dev nD) : W18 m ρ c (Proc.devRef .tc main_arg16) = W17 m ρ c (Proc.devRef .tc main_arg16) :=
  StableHlo.after_of_forall_not_mem (b := Proc.devRef .tc main_arg16) _ _ (by not_written hostOps10)
theorem W18_arg17 (c : Dev nD) : W18 m ρ c (Proc.devRef .tc main_arg17) = W17 m ρ c (Proc.devRef .tc main_arg17) :=
  StableHlo.after_of_forall_not_mem (b := Proc.devRef .tc main_arg17) _ _ (by not_written hostOps10)
theorem W18_arg18 (c : Dev nD) : W18 m ρ c (Proc.devRef .tc main_arg18) = W17 m ρ c (Proc.devRef .tc main_arg18) :=
  StableHlo.after_of_forall_not_mem (b := Proc.devRef .tc main_arg18) _ _ (by not_written hostOps10)
theorem W18_arg19 (c : Dev nD) : W18 m ρ c (Proc.devRef .tc main_arg19) = W17 m ρ c (Proc.devRef .tc main_arg19) :=
  StableHlo.after_of_forall_not_mem (b := Proc.devRef .tc main_arg19) _ _ (by not_written hostOps10)
theorem W18_arg20 (c : Dev nD) : W18 m ρ c (Proc.devRef .tc main_arg20) = W17 m ρ c (Proc.devRef .tc main_arg20) :=
  StableHlo.after_of_forall_not_mem (b := Proc.devRef .tc main_arg20) _ _ (by not_written hostOps10)
theorem W18_arg21 (c : Dev nD) : W18 m ρ c (Proc.devRef .tc main_arg21) = W17 m ρ c (Proc.devRef .tc main_arg21) :=
  StableHlo.after_of_forall_not_mem (b := Proc.devRef .tc main_arg21) _ _ (by not_written hostOps10)
theorem W18_v42 (c : Dev nD) : W18 m ρ c (Proc.devRef .tc main_v42) = W17 m ρ c (Proc.devRef .tc main_v42) :=
  StableHlo.after_of_forall_not_mem (b := Proc.devRef .tc main_v42) _ _ (by not_written hostOps10)

/-! ### Boundary 19 -/
theorem W19_arg1 (c : Dev nD) : W19 m ρ c (Proc.devRef .tc main_arg1) = W18 m ρ c (Proc.devRef .tc main_arg1) :=
  W19_of_ne m ρ c main_arg1 (by decide)
theorem W19_arg4 (c : Dev nD) : W19 m ρ c (Proc.devRef .tc main_arg4) = W18 m ρ c (Proc.devRef .tc main_arg4) :=
  W19_of_ne m ρ c main_arg4 (by decide)
theorem W19_arg14 (c : Dev nD) : W19 m ρ c (Proc.devRef .tc main_arg14) = W18 m ρ c (Proc.devRef .tc main_arg14) :=
  W19_of_ne m ρ c main_arg14 (by decide)
theorem W19_arg15 (c : Dev nD) : W19 m ρ c (Proc.devRef .tc main_arg15) = W18 m ρ c (Proc.devRef .tc main_arg15) :=
  W19_of_ne m ρ c main_arg15 (by decide)
theorem W19_arg16 (c : Dev nD) : W19 m ρ c (Proc.devRef .tc main_arg16) = W18 m ρ c (Proc.devRef .tc main_arg16) :=
  W19_of_ne m ρ c main_arg16 (by decide)
theorem W19_arg17 (c : Dev nD) : W19 m ρ c (Proc.devRef .tc main_arg17) = W18 m ρ c (Proc.devRef .tc main_arg17) :=
  W19_of_ne m ρ c main_arg17 (by decide)
theorem W19_arg18 (c : Dev nD) : W19 m ρ c (Proc.devRef .tc main_arg18) = W18 m ρ c (Proc.devRef .tc main_arg18) :=
  W19_of_ne m ρ c main_arg18 (by decide)
theorem W19_arg19 (c : Dev nD) : W19 m ρ c (Proc.devRef .tc main_arg19) = W18 m ρ c (Proc.devRef .tc main_arg19) :=
  W19_of_ne m ρ c main_arg19 (by decide)
theorem W19_arg20 (c : Dev nD) : W19 m ρ c (Proc.devRef .tc main_arg20) = W18 m ρ c (Proc.devRef .tc main_arg20) :=
  W19_of_ne m ρ c main_arg20 (by decide)
theorem W19_arg21 (c : Dev nD) : W19 m ρ c (Proc.devRef .tc main_arg21) = W18 m ρ c (Proc.devRef .tc main_arg21) :=
  W19_of_ne m ρ c main_arg21 (by decide)
theorem W19_v42 (c : Dev nD) : W19 m ρ c (Proc.devRef .tc main_v42) = W18 m ρ c (Proc.devRef .tc main_v42) :=
  W19_of_ne m ρ c main_v42 (by decide)

/-! ### Boundary 20 -/
theorem W20_arg1 (c : Dev nD) : W20 m ρ c (Proc.devRef .tc main_arg1) = W19 m ρ c (Proc.devRef .tc main_arg1) :=
  StableHlo.after_of_forall_not_mem (b := Proc.devRef .tc main_arg1) _ _ (by not_written hostOps11)
theorem W20_arg14 (c : Dev nD) : W20 m ρ c (Proc.devRef .tc main_arg14) = W19 m ρ c (Proc.devRef .tc main_arg14) :=
  StableHlo.after_of_forall_not_mem (b := Proc.devRef .tc main_arg14) _ _ (by not_written hostOps11)
theorem W20_arg15 (c : Dev nD) : W20 m ρ c (Proc.devRef .tc main_arg15) = W19 m ρ c (Proc.devRef .tc main_arg15) :=
  StableHlo.after_of_forall_not_mem (b := Proc.devRef .tc main_arg15) _ _ (by not_written hostOps11)
theorem W20_v42 (c : Dev nD) : W20 m ρ c (Proc.devRef .tc main_v42) = W19 m ρ c (Proc.devRef .tc main_v42) :=
  StableHlo.after_of_forall_not_mem (b := Proc.devRef .tc main_v42) _ _ (by not_written hostOps11)

/-! ### Boundary 21 -/
theorem W21_arg1 (c : Dev nD) : W21 m ρ c (Proc.devRef .tc main_arg1) = W20 m ρ c (Proc.devRef .tc main_arg1) :=
  W21_of_ne m ρ c main_arg1 (by decide)
theorem W21_arg14 (c : Dev nD) : W21 m ρ c (Proc.devRef .tc main_arg14) = W20 m ρ c (Proc.devRef .tc main_arg14) :=
  W21_of_ne m ρ c main_arg14 (by decide)
theorem W21_arg15 (c : Dev nD) : W21 m ρ c (Proc.devRef .tc main_arg15) = W20 m ρ c (Proc.devRef .tc main_arg15) :=
  W21_of_ne m ρ c main_arg15 (by decide)
theorem W21_v42 (c : Dev nD) : W21 m ρ c (Proc.devRef .tc main_v42) = W20 m ρ c (Proc.devRef .tc main_v42) :=
  W21_of_ne m ρ c main_v42 (by decide)

/-! ### Boundary 22 -/
theorem W22_arg1 (c : Dev nD) : W22 m ρ c (Proc.devRef .tc main_arg1) = W21 m ρ c (Proc.devRef .tc main_arg1) :=
  StableHlo.after_of_forall_not_mem (b := Proc.devRef .tc main_arg1) _ _ (by not_written hostOps12)
theorem W22_arg14 (c : Dev nD) : W22 m ρ c (Proc.devRef .tc main_arg14) = W21 m ρ c (Proc.devRef .tc main_arg14) :=
  StableHlo.after_of_forall_not_mem (b := Proc.devRef .tc main_arg14) _ _ (by not_written hostOps12)
theorem W22_arg15 (c : Dev nD) : W22 m ρ c (Proc.devRef .tc main_arg15) = W21 m ρ c (Proc.devRef .tc main_arg15) :=
  StableHlo.after_of_forall_not_mem (b := Proc.devRef .tc main_arg15) _ _ (by not_written hostOps12)

/-! ### Boundary 23 -/
theorem W23_arg1 (c : Dev nD) : W23 m ρ c (Proc.devRef .tc main_arg1) = W22 m ρ c (Proc.devRef .tc main_arg1) :=
  W23_of_ne m ρ c main_arg1 (by decide)
theorem W23_arg15 (c : Dev nD) : W23 m ρ c (Proc.devRef .tc main_arg15) = W22 m ρ c (Proc.devRef .tc main_arg15) :=
  W23_of_ne m ρ c main_arg15 (by decide)

/-! ### Boundary 24 -/
theorem W24_arg15 (c : Dev nD) : W24 m ρ c (Proc.devRef .tc main_arg15) = W23 m ρ c (Proc.devRef .tc main_arg15) :=
  StableHlo.after_of_forall_not_mem (b := Proc.devRef .tc main_arg15) _ _ (by not_written hostOps13)

end Cert.KernelIdeal.KeepC

end
-- ==== Proof.Keep.lean ====
/-
  Buffers that a stretch of the program does not write keep their contents across it.

  The kernel's program is a sequence of tiled regions and stretches of array operations; the memory at each
  boundary is a fold from the launch memory. A tiled region changes only its output arrays, and a stretch of
  array operations only the buffers its operations write, so an argument array, or an intermediate array that a
  later stretch reads again, is found at a later boundary with the contents it had when it was last written.
-/
import proofs.«124761_j84988812853303_1_alg».proof.Proof.KeepA
import proofs.«124761_j84988812853303_1_alg».proof.Proof.KeepB
import proofs.«124761_j84988812853303_1_alg».proof.Proof.KeepC

set_option maxRecDepth 16384

noncomputable section

namespace Cert.KernelIdeal.Keep

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

open Cert.KernelIdeal.KeepA Cert.KernelIdeal.KeepB Cert.KernelIdeal.KeepC

/-- Argument 1 at boundary 1 is the launch memory's. -/
theorem arg1_W1 (c : Dev nD) : W1 m ρ c (Proc.devRef .tc main_arg1) = m ((c : Thread nD τ).loc main_arg1) :=
  (W1_arg1 m ρ c)

/-- Argument 1 at boundary 23 is the launch memory's. -/
theorem arg1_W23 (c : Dev nD) : W23 m ρ c (Proc.devRef .tc main_arg1) = m ((c : Thread nD τ).loc main_arg1) :=
  (((((((((((((((((((((((W23_arg1 m ρ c).trans (W22_arg1 m ρ c)).trans (W21_arg1 m ρ c)).trans (W20_arg1 m ρ c)).trans (W19_arg1 m ρ c)).trans (W18_arg1 m ρ c)).trans (W17_arg1 m ρ c)).trans (W16_arg1 m ρ c)).trans (W15_arg1 m ρ c)).trans (W14_arg1 m ρ c)).trans (W13_arg1 m ρ c)).trans (W12_arg1 m ρ c)).trans (W11_arg1 m ρ c)).trans (W10_arg1 m ρ c)).trans (W9_arg1 m ρ c)).trans (W8_arg1 m ρ c)).trans (W7_arg1 m ρ c)).trans (W6_arg1 m ρ c)).trans (W5_arg1 m ρ c)).trans (W4_arg1 m ρ c)).trans (W3_arg1 m ρ c)).trans (W2_arg1 m ρ c)).trans (W1_arg1 m ρ c))

/-- Argument 2 at boundary 6 is the launch memory's. -/
theorem arg2_W6 (c : Dev nD) : W6 m ρ c (Proc.devRef .tc main_arg2) = m ((c : Thread nD τ).loc main_arg2) :=
  ((((((W6_arg2 m ρ c).trans (W5_arg2 m ρ c)).trans (W4_arg2 m ρ c)).trans (W3_arg2 m ρ c)).trans (W2_arg2 m ρ c)).trans (W1_arg2 m ρ c))

/-- Argument 2 at boundary 17 is the launch memory's. -/
theorem arg2_W17 (c : Dev nD) : W17 m ρ c (Proc.devRef .tc main_arg2) = m ((c : Thread nD τ).loc main_arg2) :=
  (((((((((((((((((W17_arg2 m ρ c).trans (W16_arg2 m ρ c)).trans (W15_arg2 m ρ c)).trans (W14_arg2 m ρ c)).trans (W13_arg2 m ρ c)).trans (W12_arg2 m ρ c)).trans (W11_arg2 m ρ c)).trans (W10_arg2 m ρ c)).trans (W9_arg2 m ρ c)).trans (W8_arg2 m ρ c)).trans (W7_arg2 m ρ c)).trans (W6_arg2 m ρ c)).trans (W5_arg2 m ρ c)).trans (W4_arg2 m ρ c)).trans (W3_arg2 m ρ c)).trans (W2_arg2 m ρ c)).trans (W1_arg2 m ρ c))

/-- Argument 3 at boundary 11 is the launch memory's. -/
theorem arg3_W11 (c : Dev nD) : W11 m ρ c (Proc.devRef .tc main_arg3) = m ((c : Thread nD τ).loc main_arg3) :=
  (((((((((((W11_arg3 m ρ c).trans (W10_arg3 m ρ c)).trans (W9_arg3 m ρ c)).trans (W8_arg3 m ρ c)).trans (W7_arg3 m ρ c)).trans (W6_arg3 m ρ c)).trans (W5_arg3 m ρ c)).trans (W4_arg3 m ρ c)).trans (W3_arg3 m ρ c)).trans (W2_arg3 m ρ c)).trans (W1_arg3 m ρ c))

/-- Argument 4 at boundary 3 is the launch memory's. -/
theorem arg4_W3 (c : Dev nD) : W3 m ρ c (Proc.devRef .tc main_arg4) = m ((c : Thread nD τ).loc main_arg4) :=
  (((W3_arg4 m ρ c).trans (W2_arg4 m ρ c)).trans (W1_arg4 m ρ c))

/-- Argument 4 at boundary 19 is the launch memory's. -/
theorem arg4_W19 (c : Dev nD) : W19 m ρ c (Proc.devRef .tc main_arg4) = m ((c : Thread nD τ).loc main_arg4) :=
  (((((((((((((((((((W19_arg4 m ρ c).trans (W18_arg4 m ρ c)).trans (W17_arg4 m ρ c)).trans (W16_arg4 m ρ c)).trans (W15_arg4 m ρ c)).trans (W14_arg4 m ρ c)).trans (W13_arg4 m ρ c)).trans (W12_arg4 m ρ c)).trans (W11_arg4 m ρ c)).trans (W10_arg4 m ρ c)).trans (W9_arg4 m ρ c)).trans (W8_arg4 m ρ c)).trans (W7_arg4 m ρ c)).trans (W6_arg4 m ρ c)).trans (W5_arg4 m ρ c)).trans (W4_arg4 m ρ c)).trans (W3_arg4 m ρ c)).trans (W2_arg4 m ρ c)).trans (W1_arg4 m ρ c))

/-- Argument 5 at boundary 8 is the launch memory's. -/
theorem arg5_W8 (c : Dev nD) : W8 m ρ c (Proc.devRef .tc main_arg5) = m ((c : Thread nD τ).loc main_arg5) :=
  ((((((((W8_arg5 m ρ c).trans (W7_arg5 m ρ c)).trans (W6_arg5 m ρ c)).trans (W5_arg5 m ρ c)).trans (W4_arg5 m ρ c)).trans (W3_arg5 m ρ c)).trans (W2_arg5 m ρ c)).trans (W1_arg5 m ρ c))

/-- Argument 5 at boundary 13 is the launch memory's. -/
theorem arg5_W13 (c : Dev nD) : W13 m ρ c (Proc.devRef .tc main_arg5) = m ((c : Thread nD τ).loc main_arg5) :=
  (((((((((((((W13_arg5 m ρ c).trans (W12_arg5 m ρ c)).trans (W11_arg5 m ρ c)).trans (W10_arg5 m ρ c)).trans (W9_arg5 m ρ c)).trans (W8_arg5 m ρ c)).trans (W7_arg5 m ρ c)).trans (W6_arg5 m ρ c)).trans (W5_arg5 m ρ c)).trans (W4_arg5 m ρ c)).trans (W3_arg5 m ρ c)).trans (W2_arg5 m ρ c)).trans (W1_arg5 m ρ c))

/-- Argument 7 at boundary 2 is the launch memory's. -/
theorem arg7_W2 (c : Dev nD) : W2 m ρ c (Proc.devRef .tc main_arg7) = m ((c : Thread nD τ).loc main_arg7) :=
  ((W2_arg7 m ρ c).trans (W1_arg7 m ρ c))

/-- Argument 8 at boundary 5 is the launch memory's. -/
theorem arg8_W5 (c : Dev nD) : W5 m ρ c (Proc.devRef .tc main_arg8) = m ((c : Thread nD τ).loc main_arg8) :=
  (((((W5_arg8 m ρ c).trans (W4_arg8 m ρ c)).trans (W3_arg8 m ρ c)).trans (W2_arg8 m ρ c)).trans (W1_arg8 m ρ c))

/-- Argument 9 at boundary 7 is the launch memory's. -/
theorem arg9_W7 (c : Dev nD) : W7 m ρ c (Proc.devRef .tc main_arg9) = m ((c : Thread nD τ).loc main_arg9) :=
  (((((((W7_arg9 m ρ c).trans (W6_arg9 m ρ c)).trans (W5_arg9 m ρ c)).trans (W4_arg9 m ρ c)).trans (W3_arg9 m ρ c)).trans (W2_arg9 m ρ c)).trans (W1_arg9 m ρ c))

/-- Argument 10 at boundary 10 is the launch memory's. -/
theorem arg10_W10 (c : Dev nD) : W10 m ρ c (Proc.devRef .tc main_arg10) = m ((c : Thread nD τ).loc main_arg10) :=
  ((((((((((W10_arg10 m ρ c).trans (W9_arg10 m ρ c)).trans (W8_arg10 m ρ c)).trans (W7_arg10 m ρ c)).trans (W6_arg10 m ρ c)).trans (W5_arg10 m ρ c)).trans (W4_arg10 m ρ c)).trans (W3_arg10 m ρ c)).trans (W2_arg10 m ρ c)).trans (W1_arg10 m ρ c))

/-- Argument 11 at boundary 12 is the launch memory's. -/
theorem arg11_W12 (c : Dev nD) : W12 m ρ c (Proc.devRef .tc main_arg11) = m ((c : Thread nD τ).loc main_arg11) :=
  ((((((((((((W12_arg11 m ρ c).trans (W11_arg11 m ρ c)).trans (W10_arg11 m ρ c)).trans (W9_arg11 m ρ c)).trans (W8_arg11 m ρ c)).trans (W7_arg11 m ρ c)).trans (W6_arg11 m ρ c)).trans (W5_arg11 m ρ c)).trans (W4_arg11 m ρ c)).trans (W3_arg11 m ρ c)).trans (W2_arg11 m ρ c)).trans (W1_arg11 m ρ c))

/-- Argument 12 at boundary 16 is the launch memory's. -/
theorem arg12_W16 (c : Dev nD) : W16 m ρ c (Proc.devRef .tc main_arg12) = m ((c : Thread nD τ).loc main_arg12) :=
  ((((((((((((((((W16_arg12 m ρ c).trans (W15_arg12 m ρ c)).trans (W14_arg12 m ρ c)).trans (W13_arg12 m ρ c)).trans (W12_arg12 m ρ c)).trans (W11_arg12 m ρ c)).trans (W10_arg12 m ρ c)).trans (W9_arg12 m ρ c)).trans (W8_arg12 m ρ c)).trans (W7_arg12 m ρ c)).trans (W6_arg12 m ρ c)).trans (W5_arg12 m ρ c)).trans (W4_arg12 m ρ c)).trans (W3_arg12 m ρ c)).trans (W2_arg12 m ρ c)).trans (W1_arg12 m ρ c))

/-- Argument 13 at boundary 18 is the launch memory's. -/
theorem arg13_W18 (c : Dev nD) : W18 m ρ c (Proc.devRef .tc main_arg13) = m ((c : Thread nD τ).loc main_arg13) :=
  ((((((((((((((((((W18_arg13 m ρ c).trans (W17_arg13 m ρ c)).trans (W16_arg13 m ρ c)).trans (W15_arg13 m ρ c)).trans (W14_arg13 m ρ c)).trans (W13_arg13 m ρ c)).trans (W12_arg13 m ρ c)).trans (W11_arg13 m ρ c)).trans (W10_arg13 m ρ c)).trans (W9_arg13 m ρ c)).trans (W8_arg13 m ρ c)).trans (W7_arg13 m ρ c)).trans (W6_arg13 m ρ c)).trans (W5_arg13 m ρ c)).trans (W4_arg13 m ρ c)).trans (W3_arg13 m ρ c)).trans (W2_arg13 m ρ c)).trans (W1_arg13 m ρ c))

/-- Argument 14 at boundary 22 is the launch memory's. -/
theorem arg14_W22 (c : Dev nD) : W22 m ρ c (Proc.devRef .tc main_arg14) = m ((c : Thread nD τ).loc main_arg14) :=
  ((((((((((((((((((((((W22_arg14 m ρ c).trans (W21_arg14 m ρ c)).trans (W20_arg14 m ρ c)).trans (W19_arg14 m ρ c)).trans (W18_arg14 m ρ c)).trans (W17_arg14 m ρ c)).trans (W16_arg14 m ρ c)).trans (W15_arg14 m ρ c)).trans (W14_arg14 m ρ c)).trans (W13_arg14 m ρ c)).trans (W12_arg14 m ρ c)).trans (W11_arg14 m ρ c)).trans (W10_arg14 m ρ c)).trans (W9_arg14 m ρ c)).trans (W8_arg14 m ρ c)).trans (W7_arg14 m ρ c)).trans (W6_arg14 m ρ c)).trans (W5_arg14 m ρ c)).trans (W4_arg14 m ρ c)).trans (W3_arg14 m ρ c)).trans (W2_arg14 m ρ c)).trans (W1_arg14 m ρ c))

/-- Argument 15 at boundary 24 is the launch memory's. -/
theorem arg15_W24 (c : Dev nD) : W24 m ρ c (Proc.devRef .tc main_arg15) = m ((c : Thread nD τ).loc main_arg15) :=
  ((((((((((((((((((((((((W24_arg15 m ρ c).trans (W23_arg15 m ρ c)).trans (W22_arg15 m ρ c)).trans (W21_arg15 m ρ c)).trans (W20_arg15 m ρ c)).trans (W19_arg15 m ρ c)).trans (W18_arg15 m ρ c)).trans (W17_arg15 m ρ c)).trans (W16_arg15 m ρ c)).trans (W15_arg15 m ρ c)).trans (W14_arg15 m ρ c)).trans (W13_arg15 m ρ c)).trans (W12_arg15 m ρ c)).trans (W11_arg15 m ρ c)).trans (W10_arg15 m ρ c)).trans (W9_arg15 m ρ c)).trans (W8_arg15 m ρ c)).trans (W7_arg15 m ρ c)).trans (W6_arg15 m ρ c)).trans (W5_arg15 m ρ c)).trans (W4_arg15 m ρ c)).trans (W3_arg15 m ρ c)).trans (W2_arg15 m ρ c)).trans (W1_arg15 m ρ c))

/-- Argument 16 at boundary 3 is the launch memory's. -/
theorem arg16_W3 (c : Dev nD) : W3 m ρ c (Proc.devRef .tc main_arg16) = m ((c : Thread nD τ).loc main_arg16) :=
  (((W3_arg16 m ρ c).trans (W2_arg16 m ρ c)).trans (W1_arg16 m ρ c))

/-- Argument 16 at boundary 8 is the launch memory's. -/
theorem arg16_W8 (c : Dev nD) : W8 m ρ c (Proc.devRef .tc main_arg16) = m ((c : Thread nD τ).loc main_arg16) :=
  ((((((((W8_arg16 m ρ c).trans (W7_arg16 m ρ c)).trans (W6_arg16 m ρ c)).trans (W5_arg16 m ρ c)).trans (W4_arg16 m ρ c)).trans (W3_arg16 m ρ c)).trans (W2_arg16 m ρ c)).trans (W1_arg16 m ρ c))

/-- Argument 16 at boundary 13 is the launch memory's. -/
theorem arg16_W13 (c : Dev nD) : W13 m ρ c (Proc.devRef .tc main_arg16) = m ((c : Thread nD τ).loc main_arg16) :=
  (((((((((((((W13_arg16 m ρ c).trans (W12_arg16 m ρ c)).trans (W11_arg16 m ρ c)).trans (W10_arg16 m ρ c)).trans (W9_arg16 m ρ c)).trans (W8_arg16 m ρ c)).trans (W7_arg16 m ρ c)).trans (W6_arg16 m ρ c)).trans (W5_arg16 m ρ c)).trans (W4_arg16 m ρ c)).trans (W3_arg16 m ρ c)).trans (W2_arg16 m ρ c)).trans (W1_arg16 m ρ c))

/-- Argument 16 at boundary 19 is the launch memory's. -/
theorem arg16_W19 (c : Dev nD) : W19 m ρ c (Proc.devRef .tc main_arg16) = m ((c : Thread nD τ).loc main_arg16) :=
  (((((((((((((((((((W19_arg16 m ρ c).trans (W18_arg16 m ρ c)).trans (W17_arg16 m ρ c)).trans (W16_arg16 m ρ c)).trans (W15_arg16 m ρ c)).trans (W14_arg16 m ρ c)).trans (W13_arg16 m ρ c)).trans (W12_arg16 m ρ c)).trans (W11_arg16 m ρ c)).trans (W10_arg16 m ρ c)).trans (W9_arg16 m ρ c)).trans (W8_arg16 m ρ c)).trans (W7_arg16 m ρ c)).trans (W6_arg16 m ρ c)).trans (W5_arg16 m ρ c)).trans (W4_arg16 m ρ c)).trans (W3_arg16 m ρ c)).trans (W2_arg16 m ρ c)).trans (W1_arg16 m ρ c))

/-- Argument 17 at boundary 3 is the launch memory's. -/
theorem arg17_W3 (c : Dev nD) : W3 m ρ c (Proc.devRef .tc main_arg17) = m ((c : Thread nD τ).loc main_arg17) :=
  (((W3_arg17 m ρ c).trans (W2_arg17 m ρ c)).trans (W1_arg17 m ρ c))

/-- Argument 17 at boundary 8 is the launch memory's. -/
theorem arg17_W8 (c : Dev nD) : W8 m ρ c (Proc.devRef .tc main_arg17) = m ((c : Thread nD τ).loc main_arg17) :=
  ((((((((W8_arg17 m ρ c).trans (W7_arg17 m ρ c)).trans (W6_arg17 m ρ c)).trans (W5_arg17 m ρ c)).trans (W4_arg17 m ρ c)).trans (W3_arg17 m ρ c)).trans (W2_arg17 m ρ c)).trans (W1_arg17 m ρ c))

/-- Argument 17 at boundary 13 is the launch memory's. -/
theorem arg17_W13 (c : Dev nD) : W13 m ρ c (Proc.devRef .tc main_arg17) = m ((c : Thread nD τ).loc main_arg17) :=
  (((((((((((((W13_arg17 m ρ c).trans (W12_arg17 m ρ c)).trans (W11_arg17 m ρ c)).trans (W10_arg17 m ρ c)).trans (W9_arg17 m ρ c)).trans (W8_arg17 m ρ c)).trans (W7_arg17 m ρ c)).trans (W6_arg17 m ρ c)).trans (W5_arg17 m ρ c)).trans (W4_arg17 m ρ c)).trans (W3_arg17 m ρ c)).trans (W2_arg17 m ρ c)).trans (W1_arg17 m ρ c))

/-- Argument 17 at boundary 19 is the launch memory's. -/
theorem arg17_W19 (c : Dev nD) : W19 m ρ c (Proc.devRef .tc main_arg17) = m ((c : Thread nD τ).loc main_arg17) :=
  (((((((((((((((((((W19_arg17 m ρ c).trans (W18_arg17 m ρ c)).trans (W17_arg17 m ρ c)).trans (W16_arg17 m ρ c)).trans (W15_arg17 m ρ c)).trans (W14_arg17 m ρ c)).trans (W13_arg17 m ρ c)).trans (W12_arg17 m ρ c)).trans (W11_arg17 m ρ c)).trans (W10_arg17 m ρ c)).trans (W9_arg17 m ρ c)).trans (W8_arg17 m ρ c)).trans (W7_arg17 m ρ c)).trans (W6_arg17 m ρ c)).trans (W5_arg17 m ρ c)).trans (W4_arg17 m ρ c)).trans (W3_arg17 m ρ c)).trans (W2_arg17 m ρ c)).trans (W1_arg17 m ρ c))

/-- Argument 18 at boundary 3 is the launch memory's. -/
theorem arg18_W3 (c : Dev nD) : W3 m ρ c (Proc.devRef .tc main_arg18) = m ((c : Thread nD τ).loc main_arg18) :=
  (((W3_arg18 m ρ c).trans (W2_arg18 m ρ c)).trans (W1_arg18 m ρ c))

/-- Argument 18 at boundary 8 is the launch memory's. -/
theorem arg18_W8 (c : Dev nD) : W8 m ρ c (Proc.devRef .tc main_arg18) = m ((c : Thread nD τ).loc main_arg18) :=
  ((((((((W8_arg18 m ρ c).trans (W7_arg18 m ρ c)).trans (W6_arg18 m ρ c)).trans (W5_arg18 m ρ c)).trans (W4_arg18 m ρ c)).trans (W3_arg18 m ρ c)).trans (W2_arg18 m ρ c)).trans (W1_arg18 m ρ c))

/-- Argument 18 at boundary 13 is the launch memory's. -/
theorem arg18_W13 (c : Dev nD) : W13 m ρ c (Proc.devRef .tc main_arg18) = m ((c : Thread nD τ).loc main_arg18) :=
  (((((((((((((W13_arg18 m ρ c).trans (W12_arg18 m ρ c)).trans (W11_arg18 m ρ c)).trans (W10_arg18 m ρ c)).trans (W9_arg18 m ρ c)).trans (W8_arg18 m ρ c)).trans (W7_arg18 m ρ c)).trans (W6_arg18 m ρ c)).trans (W5_arg18 m ρ c)).trans (W4_arg18 m ρ c)).trans (W3_arg18 m ρ c)).trans (W2_arg18 m ρ c)).trans (W1_arg18 m ρ c))

/-- Argument 18 at boundary 19 is the launch memory's. -/
theorem arg18_W19 (c : Dev nD) : W19 m ρ c (Proc.devRef .tc main_arg18) = m ((c : Thread nD τ).loc main_arg18) :=
  (((((((((((((((((((W19_arg18 m ρ c).trans (W18_arg18 m ρ c)).trans (W17_arg18 m ρ c)).trans (W16_arg18 m ρ c)).trans (W15_arg18 m ρ c)).trans (W14_arg18 m ρ c)).trans (W13_arg18 m ρ c)).trans (W12_arg18 m ρ c)).trans (W11_arg18 m ρ c)).trans (W10_arg18 m ρ c)).trans (W9_arg18 m ρ c)).trans (W8_arg18 m ρ c)).trans (W7_arg18 m ρ c)).trans (W6_arg18 m ρ c)).trans (W5_arg18 m ρ c)).trans (W4_arg18 m ρ c)).trans (W3_arg18 m ρ c)).trans (W2_arg18 m ρ c)).trans (W1_arg18 m ρ c))

/-- Argument 19 at boundary 3 is the launch memory's. -/
theorem arg19_W3 (c : Dev nD) : W3 m ρ c (Proc.devRef .tc main_arg19) = m ((c : Thread nD τ).loc main_arg19) :=
  (((W3_arg19 m ρ c).trans (W2_arg19 m ρ c)).trans (W1_arg19 m ρ c))

/-- Argument 19 at boundary 8 is the launch memory's. -/
theorem arg19_W8 (c : Dev nD) : W8 m ρ c (Proc.devRef .tc main_arg19) = m ((c : Thread nD τ).loc main_arg19) :=
  ((((((((W8_arg19 m ρ c).trans (W7_arg19 m ρ c)).trans (W6_arg19 m ρ c)).trans (W5_arg19 m ρ c)).trans (W4_arg19 m ρ c)).trans (W3_arg19 m ρ c)).trans (W2_arg19 m ρ c)).trans (W1_arg19 m ρ c))

/-- Argument 19 at boundary 13 is the launch memory's. -/
theorem arg19_W13 (c : Dev nD) : W13 m ρ c (Proc.devRef .tc main_arg19) = m ((c : Thread nD τ).loc main_arg19) :=
  (((((((((((((W13_arg19 m ρ c).trans (W12_arg19 m ρ c)).trans (W11_arg19 m ρ c)).trans (W10_arg19 m ρ c)).trans (W9_arg19 m ρ c)).trans (W8_arg19 m ρ c)).trans (W7_arg19 m ρ c)).trans (W6_arg19 m ρ c)).trans (W5_arg19 m ρ c)).trans (W4_arg19 m ρ c)).trans (W3_arg19 m ρ c)).trans (W2_arg19 m ρ c)).trans (W1_arg19 m ρ c))

/-- Argument 19 at boundary 19 is the launch memory's. -/
theorem arg19_W19 (c : Dev nD) : W19 m ρ c (Proc.devRef .tc main_arg19) = m ((c : Thread nD τ).loc main_arg19) :=
  (((((((((((((((((((W19_arg19 m ρ c).trans (W18_arg19 m ρ c)).trans (W17_arg19 m ρ c)).trans (W16_arg19 m ρ c)).trans (W15_arg19 m ρ c)).trans (W14_arg19 m ρ c)).trans (W13_arg19 m ρ c)).trans (W12_arg19 m ρ c)).trans (W11_arg19 m ρ c)).trans (W10_arg19 m ρ c)).trans (W9_arg19 m ρ c)).trans (W8_arg19 m ρ c)).trans (W7_arg19 m ρ c)).trans (W6_arg19 m ρ c)).trans (W5_arg19 m ρ c)).trans (W4_arg19 m ρ c)).trans (W3_arg19 m ρ c)).trans (W2_arg19 m ρ c)).trans (W1_arg19 m ρ c))

/-- Argument 20 at boundary 3 is the launch memory's. -/
theorem arg20_W3 (c : Dev nD) : W3 m ρ c (Proc.devRef .tc main_arg20) = m ((c : Thread nD τ).loc main_arg20) :=
  (((W3_arg20 m ρ c).trans (W2_arg20 m ρ c)).trans (W1_arg20 m ρ c))

/-- Argument 20 at boundary 8 is the launch memory's. -/
theorem arg20_W8 (c : Dev nD) : W8 m ρ c (Proc.devRef .tc main_arg20) = m ((c : Thread nD τ).loc main_arg20) :=
  ((((((((W8_arg20 m ρ c).trans (W7_arg20 m ρ c)).trans (W6_arg20 m ρ c)).trans (W5_arg20 m ρ c)).trans (W4_arg20 m ρ c)).trans (W3_arg20 m ρ c)).trans (W2_arg20 m ρ c)).trans (W1_arg20 m ρ c))

/-- Argument 20 at boundary 13 is the launch memory's. -/
theorem arg20_W13 (c : Dev nD) : W13 m ρ c (Proc.devRef .tc main_arg20) = m ((c : Thread nD τ).loc main_arg20) :=
  (((((((((((((W13_arg20 m ρ c).trans (W12_arg20 m ρ c)).trans (W11_arg20 m ρ c)).trans (W10_arg20 m ρ c)).trans (W9_arg20 m ρ c)).trans (W8_arg20 m ρ c)).trans (W7_arg20 m ρ c)).trans (W6_arg20 m ρ c)).trans (W5_arg20 m ρ c)).trans (W4_arg20 m ρ c)).trans (W3_arg20 m ρ c)).trans (W2_arg20 m ρ c)).trans (W1_arg20 m ρ c))

/-- Argument 20 at boundary 19 is the launch memory's. -/
theorem arg20_W19 (c : Dev nD) : W19 m ρ c (Proc.devRef .tc main_arg20) = m ((c : Thread nD τ).loc main_arg20) :=
  (((((((((((((((((((W19_arg20 m ρ c).trans (W18_arg20 m ρ c)).trans (W17_arg20 m ρ c)).trans (W16_arg20 m ρ c)).trans (W15_arg20 m ρ c)).trans (W14_arg20 m ρ c)).trans (W13_arg20 m ρ c)).trans (W12_arg20 m ρ c)).trans (W11_arg20 m ρ c)).trans (W10_arg20 m ρ c)).trans (W9_arg20 m ρ c)).trans (W8_arg20 m ρ c)).trans (W7_arg20 m ρ c)).trans (W6_arg20 m ρ c)).trans (W5_arg20 m ρ c)).trans (W4_arg20 m ρ c)).trans (W3_arg20 m ρ c)).trans (W2_arg20 m ρ c)).trans (W1_arg20 m ρ c))

/-- Argument 21 at boundary 3 is the launch memory's. -/
theorem arg21_W3 (c : Dev nD) : W3 m ρ c (Proc.devRef .tc main_arg21) = m ((c : Thread nD τ).loc main_arg21) :=
  (((W3_arg21 m ρ c).trans (W2_arg21 m ρ c)).trans (W1_arg21 m ρ c))

/-- Argument 21 at boundary 8 is the launch memory's. -/
theorem arg21_W8 (c : Dev nD) : W8 m ρ c (Proc.devRef .tc main_arg21) = m ((c : Thread nD τ).loc main_arg21) :=
  ((((((((W8_arg21 m ρ c).trans (W7_arg21 m ρ c)).trans (W6_arg21 m ρ c)).trans (W5_arg21 m ρ c)).trans (W4_arg21 m ρ c)).trans (W3_arg21 m ρ c)).trans (W2_arg21 m ρ c)).trans (W1_arg21 m ρ c))

/-- Argument 21 at boundary 13 is the launch memory's. -/
theorem arg21_W13 (c : Dev nD) : W13 m ρ c (Proc.devRef .tc main_arg21) = m ((c : Thread nD τ).loc main_arg21) :=
  (((((((((((((W13_arg21 m ρ c).trans (W12_arg21 m ρ c)).trans (W11_arg21 m ρ c)).trans (W10_arg21 m ρ c)).trans (W9_arg21 m ρ c)).trans (W8_arg21 m ρ c)).trans (W7_arg21 m ρ c)).trans (W6_arg21 m ρ c)).trans (W5_arg21 m ρ c)).trans (W4_arg21 m ρ c)).trans (W3_arg21 m ρ c)).trans (W2_arg21 m ρ c)).trans (W1_arg21 m ρ c))

/-- Argument 21 at boundary 19 is the launch memory's. -/
theorem arg21_W19 (c : Dev nD) : W19 m ρ c (Proc.devRef .tc main_arg21) = m ((c : Thread nD τ).loc main_arg21) :=
  (((((((((((((((((((W19_arg21 m ρ c).trans (W18_arg21 m ρ c)).trans (W17_arg21 m ρ c)).trans (W16_arg21 m ρ c)).trans (W15_arg21 m ρ c)).trans (W14_arg21 m ρ c)).trans (W13_arg21 m ρ c)).trans (W12_arg21 m ρ c)).trans (W11_arg21 m ρ c)).trans (W10_arg21 m ρ c)).trans (W9_arg21 m ρ c)).trans (W8_arg21 m ρ c)).trans (W7_arg21 m ρ c)).trans (W6_arg21 m ρ c)).trans (W5_arg21 m ρ c)).trans (W4_arg21 m ρ c)).trans (W3_arg21 m ρ c)).trans (W2_arg21 m ρ c)).trans (W1_arg21 m ρ c))

/-- The first level's rectified features, written by the second region, are still in place when the last concatenation reads them. -/
theorem v42_W21 (c : Dev nD) : W21 m ρ c (Proc.devRef .tc main_v42) = W3 m ρ c (Proc.devRef .tc main_v42) :=
  ((((((((((((((((((W21_v42 m ρ c).trans (W20_v42 m ρ c)).trans (W19_v42 m ρ c)).trans (W18_v42 m ρ c)).trans (W17_v42 m ρ c)).trans (W16_v42 m ρ c)).trans (W15_v42 m ρ c)).trans (W14_v42 m ρ c)).trans (W13_v42 m ρ c)).trans (W12_v42 m ρ c)).trans (W11_v42 m ρ c)).trans (W10_v42 m ρ c)).trans (W9_v42 m ρ c)).trans (W8_v42 m ρ c)).trans (W7_v42 m ρ c)).trans (W6_v42 m ρ c)).trans (W5_v42 m ρ c)).trans (W4_v42 m ρ c))

/-- The second level's rectified features are still in place when the first concatenation reads them. -/
theorem v101_W15 (c : Dev nD) : W15 m ρ c (Proc.devRef .tc main_v101) = W8 m ρ c (Proc.devRef .tc main_v101) :=
  (((((((W15_v101 m ρ c).trans (W14_v101 m ρ c)).trans (W13_v101 m ρ c)).trans (W12_v101 m ρ c)).trans (W11_v101 m ρ c)).trans (W10_v101 m ρ c)).trans (W9_v101 m ρ c))

end Cert.KernelIdeal.Keep

end
-- ==== Proof.Spec.lean ====
/-
  The network's dense stages as functions of whole arrays, index by index, on the extended reals.

  Every stage that one program computes in a tiled kernel and the other with array operations is stated here
  once, as a function of the arrays it reads:
  * `mm A W`: the matrix product, `(A·W)[r, c] = ∑ₖ A[r, k] · W[k, c]`;
  * `biasRelu s b`: `max (s[r, c] + b[c]) 0`;
  * `poolK` / `poolR`: a linear layer, a rectifier, a batch normalisation with running statistics and a second
    rectifier, `max ((max ((y·w)[r, c] + b[c]) 0 − μ[c]) · scale[c] + β[c]) 0`, where the scale is
    `g[c] · (var[c] + ε)^(-1/2)` in one program (`poolK`) and `g[c] / √(var[c] + ε)` in the other (`poolR`);
  * `lsmK` / `lsmR`: the row-wise log-softmax of `z[r, c] = s[r, c] + b[c]` with row maximum `m` and
    `L = log ∑ⱼ exp (z[r, j] − m)`: `z − (m + L)` in one program and `(z − m) − L` in the other.

  The two scales agree when `g` and `var` are real with `var ≥ 0` and `ε > 0` real (`poolK_eq_poolR`); the two
  log-softmax forms agree on a row of real numbers (`lsmK_eq_lsmR`): then `m` is the largest of finitely many reals
  and the sum of exponentials is a positive real, so `m` and `L` are real.
-/
import Idealize.ShloMosaic.PureOps.Ideal
import Idealize.ShloMosaic.Lib.ValueIdx

noncomputable section

open scoped BigOperators

namespace Cert.Net

open Idealize.ShloMosaic Idealize.ShloMosaic.ValueIdx

/-- A rank-2 array of extended reals. -/
abbrev Arr2 (a b : Nat) := (⟨2, ![a, b]⟩ : Shape).Idx → EReal
/-- A rank-1 array of extended reals. -/
abbrev Arr1 (a : Nat) := (⟨1, ![a]⟩ : Shape).Idx → EReal

/-- For a real `g` and a real `v > 0`: `g · v^(-1/2) = g / √v` on the extended reals. -/
theorem scale_eq (g v : ℝ) (hv : 0 < v) :
    (g : EReal) * Ideal.rsqrt (v : EReal) = Ideal.div (g : EReal) (Ideal.sqrt (v : EReal)) := by
  have hs : Real.sqrt v ≠ 0 := (Real.sqrt_pos.mpr hv).ne'
  rw [Ideal.rsqrt_coe, Ideal.sqrt_coe, if_neg (not_lt.mpr hv.le), if_neg hv.ne', if_neg (not_lt.mpr hv.le),
    Ideal.div_coe hs, one_div]

/-- `z − (m + L) = (z − m) − L` for every extended real `z` when `m` and `L` are real. -/
theorem sub_add_real (z : EReal) (m L : ℝ) :
    z - ((m : EReal) + (L : EReal)) = (z - (m : EReal)) - (L : EReal) := by
  induction z using EReal.rec with
  | bot => simp
  | top => simp [← EReal.coe_add]
  | coe r => norm_cast; ring

/-- A finite sum of reals, taken in the extended reals, is the real sum. -/
theorem coe_sum {ι : Type} (S : Finset ι) (f : ι → ℝ) :
    (∑ i ∈ S, (f i : EReal)) = ((∑ i ∈ S, f i : ℝ) : EReal) := by
  classical
  induction S using Finset.induction_on with
  | empty => simp
  | insert x S hx ih => rw [Finset.sum_insert hx, Finset.sum_insert hx, ih, EReal.coe_add]

/-- Every entry is a real number. -/
def AllReal {s : Shape} (v : s.Idx → EReal) : Prop := ∀ i, ∃ r : ℝ, v i = (r : EReal)

/-- The matrix product. -/
def mm {M K N : Nat} (A : Arr2 M K) (W : Arr2 K N) : Arr2 M N :=
  fun i => ∑ k : Fin K, A (ix2 (i 0) k) * W (ix2 k (i 1))

/-- Bias, then the rectifier. -/
def biasRelu {M N : Nat} (s : Arr2 M N) (b : Arr1 N) : Arr2 M N :=
  fun i => max (s i + b (ix1 (i 1))) 0

/-- The pooling layer with a given per-column scale. -/
def poolWith {M K N : Nat} (scale : Fin N → EReal) (y : Arr2 M K) (w : Arr2 K N) (b beta mean : Arr1 N) : Arr2 M N :=
  fun i => max ((max (mm y w i + b (ix1 (i 1))) 0 - mean (ix1 (i 1))) * scale (i 1) + beta (ix1 (i 1))) 0

/-- The scale as a product with the reciprocal square root. -/
def scaleK {N : Nat} (g var : Arr1 N) (eps : EReal) : Fin N → EReal :=
  fun c => g (ix1 c) * Ideal.rsqrt (var (ix1 c) + eps)

/-- The scale as a quotient by the square root. -/
def scaleR {N : Nat} (g var : Arr1 N) (eps : EReal) : Fin N → EReal :=
  fun c => Ideal.div (g (ix1 c)) (Ideal.sqrt (var (ix1 c) + eps))

/-- The pooling layer, scale by the reciprocal square root. -/
def poolK {M K N : Nat} (y : Arr2 M K) (w : Arr2 K N) (b g beta mean var : Arr1 N) (eps : EReal) : Arr2 M N :=
  poolWith (scaleK g var eps) y w b beta mean

/-- The pooling layer, scale by the quotient. -/
def poolR {M K N : Nat} (y : Arr2 M K) (w : Arr2 K N) (b g beta mean var : Arr1 N) (eps : EReal) : Arr2 M N :=
  poolWith (scaleR g var eps) y w b beta mean

/-- The two scales agree where `g` is real, `var` is a nonnegative real and `ε` a positive real. -/
theorem scaleK_eq_scaleR {N : Nat} (g var : Arr1 N) (eps : EReal)
    (hg : AllReal g) (hv : ∀ i, ∃ r : ℝ, 0 ≤ r ∧ var i = (r : EReal)) (he : ∃ e : ℝ, 0 < e ∧ eps = (e : EReal)) :
    scaleK g var eps = scaleR g var eps := by
  funext c
  obtain ⟨gr, hgr⟩ := hg (ix1 c)
  obtain ⟨vr, hv0, hvr⟩ := hv (ix1 c)
  obtain ⟨e, he0, rfl⟩ := he
  unfold scaleK scaleR
  rw [hgr, hvr, ← EReal.coe_add]
  exact scale_eq gr (vr + e) (by linarith)

theorem poolK_eq_poolR {M K N : Nat} (y : Arr2 M K) (w : Arr2 K N) (b g beta mean var : Arr1 N) (eps : EReal)
    (hg : AllReal g) (hv : ∀ i, ∃ r : ℝ, 0 ≤ r ∧ var i = (r : EReal)) (he : ∃ e : ℝ, 0 < e ∧ eps = (e : EReal)) :
    poolK y w b g beta mean var eps = poolR y w b g beta mean var eps := by
  unfold poolK poolR
  rw [scaleK_eq_scaleR g var eps hg hv he]

/-- The largest entry of a finite row, `-∞` for the empty row. -/
def rowMax {N : Nat} (z : Fin N → EReal) : EReal := (Finset.univ : Finset (Fin N)).fold max ⊥ z

/-- The logarithm of the sum of the shifted exponentials. -/
def rowLse {N : Nat} (z : Fin N → EReal) (m : EReal) : EReal := Ideal.log (∑ j : Fin N, Ideal.exp (z j - m))

/-- The biased row `z[r, ·]`. -/
def biasedRow {M N : Nat} (s : Arr2 M N) (b : Arr1 N) (r : Fin M) : Fin N → EReal :=
  fun j => s (ix2 r j) + b (ix1 j)

/-- The log-softmax, subtracting `m + L`. -/
def lsmK {M N : Nat} (s : Arr2 M N) (b : Arr1 N) : Arr2 M N :=
  fun i => biasedRow s b (i 0) (i 1) - (rowMax (biasedRow s b (i 0)) + rowLse (biasedRow s b (i 0)) (rowMax (biasedRow s b (i 0))))

/-- The log-softmax, subtracting `m` and then `L`. -/
def lsmR {M N : Nat} (s : Arr2 M N) (b : Arr1 N) : Arr2 M N :=
  fun i => (biasedRow s b (i 0) (i 1) - rowMax (biasedRow s b (i 0))) - rowLse (biasedRow s b (i 0)) (rowMax (biasedRow s b (i 0)))

/-- A fold of `max` from `-∞` over reals is real unless the index set is empty. -/
theorem fold_max_bot_real {N : Nat} (z : Fin N → EReal) (hz : ∀ j, ∃ r : ℝ, z j = (r : EReal)) (S : Finset (Fin N)) :
    S = ∅ ∨ ∃ r : ℝ, S.fold max ⊥ z = (r : EReal) := by
  induction S using Finset.induction_on with
  | empty => exact Or.inl rfl
  | insert x S hx ih =>
    right
    obtain ⟨zx, hzx⟩ := hz x
    rw [Finset.fold_insert hx, hzx]
    rcases ih with rfl | ⟨r, hr⟩
    · exact ⟨zx, by simp⟩
    · exact ⟨max zx r, by rw [hr]; exact (EReal.coe_strictMono.monotone.map_max).symm⟩

/-- The maximum of a nonempty row of reals is real. -/
theorem rowMax_real {N : Nat} (hN : 0 < N) (z : Fin N → EReal) (hz : ∀ j, ∃ r : ℝ, z j = (r : EReal)) :
    ∃ r : ℝ, rowMax z = (r : EReal) := by
  rcases fold_max_bot_real z hz Finset.univ with h | h
  · exact absurd h (Finset.univ_nonempty_iff.mpr ⟨⟨0, hN⟩⟩).ne_empty
  · exact h

/-- For a nonempty row of reals and a real shift, the sum of the shifted exponentials is a positive real, so its
    logarithm is real. -/
theorem rowLse_real {N : Nat} (hN : 0 < N) (z : Fin N → EReal) (hz : ∀ j, ∃ r : ℝ, z j = (r : EReal)) (m : ℝ) :
    ∃ L : ℝ, rowLse z (m : EReal) = (L : EReal) := by
  choose zr hzr using hz
  unfold rowLse
  have h : ∀ j, Ideal.exp (z j - (m : EReal)) = ((Real.exp (zr j - m) : ℝ) : EReal) := fun j => by
    rw [hzr j, ← EReal.coe_sub, Ideal.exp_coe]
  rw [Finset.sum_congr rfl (fun j _ => h j), coe_sum, Ideal.log_coe, if_neg]
  · exact ⟨_, rfl⟩
  · exact not_le.mpr (Finset.sum_pos (fun j _ => Real.exp_pos _) ⟨⟨0, hN⟩, Finset.mem_univ _⟩)

/-- On rows of real numbers the two log-softmax forms agree. -/
theorem lsmK_eq_lsmR {M N : Nat} (hN : 0 < N) (s : Arr2 M N) (b : Arr1 N)
    (hz : ∀ r j, ∃ x : ℝ, biasedRow s b r j = (x : EReal)) : lsmK s b = lsmR s b := by
  funext i
  obtain ⟨m, hm⟩ := rowMax_real hN _ (hz (i 0))
  obtain ⟨L, hL⟩ := rowLse_real hN _ (hz (i 0)) m
  unfold lsmK lsmR
  rw [hm, hL]
  exact sub_add_real _ m L

end Cert.Net

end
-- ==== Proof.RefStages.lean ====
/-
  The reference program's dense stages are the specification's functions.

  Each theorem reads one stage of the reference (a matrix product; a bias followed by the rectifier; the pooling
  layer: linear map, rectifier, batch normalisation with running statistics, rectifier; the row-wise log-softmax)
  at an index and finds there the corresponding function of `Cert.Net` applied to the arrays the stage reads.
-/
import proofs.«124761_j84988812853303_1_alg».proof.Proof.RefRead
import proofs.«124761_j84988812853303_1_alg».proof.Proof.Spec
import Idealize.ShloMosaic.PureOps.Ideal.Laws
import Idealize.ShloMosaic.PureOps.Reduce
import Idealize.ShloMosaic.Lib.ValueIdx

noncomputable section

open scoped BigOperators

namespace Cert.RefStages

open Cert.ReferenceIdeal Cert.ReferenceIdeal.Gen Cert.ReferenceIdeal.Read Idealize.ShloMosaic Idealize.ShloMosaic.StableHlo
  Idealize.ShloMosaic.ValueIdx Cert.Net

/-- %28: a matrix product. -/
theorem v28_eq (x0 : (⟨S100000x128, .f32⟩ : BufTy).Contents (Elt Ideal)) (x6 : (⟨S128x128, .f32⟩ : BufTy).Contents (Elt Ideal)) :
    val_main_v28 (F := Ideal) x0 x6 = mm (M := 100000) (K := 128) (N := 128) (x0) (x6) := by
  funext i
  obtain ⟨p, q, rfl⟩ : ∃ (p : Fin 100000) (q : Fin 128), i = ix2 p q := ⟨i 0, i 1, eq_ix2 i⟩
  have el : ∀ k : Fin 128, lidx_main_v28 (ix2 p q) k = ix2 p k := fun k =>
    funext fun a => Fin.ext (by match a with | ⟨0, _⟩ => rfl | ⟨1, _⟩ => rfl)
  have er : ∀ k : Fin 128, ridx_main_v28 (ix2 p q) k = ix2 k q := fun k =>
    funext fun a => Fin.ext (by match a with | ⟨0, _⟩ => rfl | ⟨1, _⟩ => rfl)
  rw [val_main_v28_apply]
  simp only [el, er]
  rfl

/-- %45: a bias and the rectifier. -/
theorem v45_eq (x0 : (⟨S100000x128, .f32⟩ : BufTy).Contents (Elt Ideal)) (x1 : (⟨S2x1600000, .i32⟩ : BufTy).Contents (Elt Ideal)) (x6 : (⟨S128x128, .f32⟩ : BufTy).Contents (Elt Ideal)) (x7 : (⟨S128, .f32⟩ : BufTy).Contents (Elt Ideal)) :
    val_main_v45 (F := Ideal) x0 x1 x6 x7 = biasRelu (M := 100000) (N := 128) (val_main_v41 (F := Ideal) x0 x1 x6) x7 := by
  funext i
  obtain ⟨p, q, rfl⟩ : ∃ (p : Fin 100000) (q : Fin 128), i = ix2 p q := ⟨i 0, i 1, eq_ix2 i⟩
  have eb : idx_main_v42 (idx_main_v43 (ix2 p q)) = ix1 q :=
    funext fun a => Fin.ext (by match a with | ⟨0, _⟩ => rfl)
  rw [val_main_v45_apply, val_main_v44_apply, val_main_v43_apply, val_main_v42_apply, val_main_call0_v0_apply, val_main_call0_cst_apply, eb]
  simp only [Ideal.maximumf_def, Ideal.addf_def, Ideal.ofBits_def, Ideal.ofBits_zero_f32]
  rfl

/-- %79: a pooling layer (linear map, rectifier, batch normalisation with running statistics, rectifier). -/
theorem v79_eq (x0 : (⟨S100000x128, .f32⟩ : BufTy).Contents (Elt Ideal)) (x1 : (⟨S2x1600000, .i32⟩ : BufTy).Contents (Elt Ideal)) (x4 : (⟨S100000, .i32⟩ : BufTy).Contents (Elt Ideal)) (x6 : (⟨S128x128, .f32⟩ : BufTy).Contents (Elt Ideal)) (x7 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v79 (F := Ideal) x0 x1 x4 x6 x7 x16 x17 x18 x19 x20 x21 = poolR (M := 20000) (K := 128) (N := 128) (val_main_v48 (F := Ideal) x0 x1 x4 x6 x7) (val_main_v50 (F := Ideal) x16) (val_main_v52 (F := Ideal) x17) (val_main_v54 (F := Ideal) x18)
      (val_main_v56 (F := Ideal) x19) (val_main_v58 (F := Ideal) x20) (val_main_v60 (F := Ideal) x21) (Ideal.ofBits .f32 0x3727C5AC#32) := by
  funext i
  obtain ⟨p, q, rfl⟩ : ∃ (p : Fin 20000) (q : Fin 128), i = ix2 p q := ⟨i 0, i 1, eq_ix2 i⟩
  have el : ∀ k : Fin 128, lidx_main_v61 (ix2 p q) k = ix2 p k := fun k =>
    funext fun a => Fin.ext (by match a with | ⟨0, _⟩ => rfl | ⟨1, _⟩ => rfl)
  have er : ∀ k : Fin 128, ridx_main_v61 (ix2 p q) k = ix2 k q := fun k =>
    funext fun a => Fin.ext (by match a with | ⟨0, _⟩ => rfl | ⟨1, _⟩ => rfl)
  have eb : idx_main_v62 (idx_main_v63 (ix2 p q)) = ix1 q :=
    funext fun a => Fin.ext (by match a with | ⟨0, _⟩ => rfl)
  have em : idx_main_v66 (idx_main_v67 (ix2 p q)) = ix1 q :=
    funext fun a => Fin.ext (by match a with | ⟨0, _⟩ => rfl)
  have es : idx_main_v73 (idx_main_v74 (ix2 p q)) = ix1 q :=
    funext fun a => Fin.ext (by match a with | ⟨0, _⟩ => rfl)
  have et : idx_main_v76 (idx_main_v77 (ix2 p q)) = ix1 q :=
    funext fun a => Fin.ext (by match a with | ⟨0, _⟩ => rfl)
  rw [val_main_v79_apply, val_main_v78_apply, val_main_v75_apply, val_main_v68_apply, val_main_v65_apply,
    val_main_v64_apply, val_main_v61_apply, val_main_v63_apply, val_main_v62_apply, val_main_call1_v0_apply,
    val_main_call1_cst_apply, val_main_v67_apply, val_main_v66_apply, val_main_v74_apply, val_main_v73_apply,
    val_main_v72_apply, val_main_v71_apply, val_main_v70_apply, val_main_v69_apply, val_main_cst_9_apply,
    val_main_v77_apply, val_main_v76_apply, val_main_call2_v0_apply, val_main_call2_cst_apply, eb, em, es, et]
  simp only [el, er, Ideal.maximumf_def, Ideal.addf_def, Ideal.subf_def, Ideal.mulf_def, Ideal.hostDivf_def,
    Ideal.hostUnary_sqrt_def, Ideal.ofBits_def, Ideal.ofBits_zero_f32]
  rfl

/-- %108: a matrix product. -/
theorem v108_eq (x0 : (⟨S100000x128, .f32⟩ : BufTy).Contents (Elt Ideal)) (x1 : (⟨S2x1600000, .i32⟩ : BufTy).Contents (Elt Ideal)) (x4 : (⟨S100000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v108 (F := Ideal) x0 x1 x4 x6 x7 x8 x16 x17 x18 x19 x20 x21 = mm (M := 20000) (K := 128) (N := 128) (val_main_v79 (F := Ideal) x0 x1 x4 x6 x7 x16 x17 x18 x19 x20 x21) (x8) := by
  funext i
  obtain ⟨p, q, rfl⟩ : ∃ (p : Fin 20000) (q : Fin 128), i = ix2 p q := ⟨i 0, i 1, eq_ix2 i⟩
  have el : ∀ k : Fin 128, lidx_main_v108 (ix2 p q) k = ix2 p k := fun k =>
    funext fun a => Fin.ext (by match a with | ⟨0, _⟩ => rfl | ⟨1, _⟩ => rfl)
  have er : ∀ k : Fin 128, ridx_main_v108 (ix2 p q) k = ix2 k q := fun k =>
    funext fun a => Fin.ext (by match a with | ⟨0, _⟩ => rfl | ⟨1, _⟩ => rfl)
  rw [val_main_v108_apply]
  simp only [el, er]
  rfl

/-- %125: a bias and the rectifier. -/
theorem v125_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x4 : (⟨S100000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v125 (F := Ideal) x0 x1 x2 x4 x6 x7 x8 x9 x16 x17 x18 x19 x20 x21 = biasRelu (M := 20000) (N := 128) (val_main_v121 (F := Ideal) x0 x1 x2 x4 x6 x7 x8 x16 x17 x18 x19 x20 x21) x9 := by
  funext i
  obtain ⟨p, q, rfl⟩ : ∃ (p : Fin 20000) (q : Fin 128), i = ix2 p q := ⟨i 0, i 1, eq_ix2 i⟩
  have eb : idx_main_v122 (idx_main_v123 (ix2 p q)) = ix1 q :=
    funext fun a => Fin.ext (by match a with | ⟨0, _⟩ => rfl)
  rw [val_main_v125_apply, val_main_v124_apply, val_main_v123_apply, val_main_v122_apply, val_main_call3_v0_apply, val_main_call3_cst_apply, eb]
  simp only [Ideal.maximumf_def, Ideal.addf_def, Ideal.ofBits_def, Ideal.ofBits_zero_f32]
  rfl

/-- %159: a pooling layer (linear map, rectifier, batch normalisation with running statistics, rectifier). -/
theorem v159_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v159 (F := Ideal) x0 x1 x2 x4 x5 x6 x7 x8 x9 x16 x17 x18 x19 x20 x21 = poolR (M := 4000) (K := 128) (N := 128) (val_main_v128 (F := Ideal) x0 x1 x2 x4 x5 x6 x7 x8 x9 x16 x17 x18 x19 x20 x21) (val_main_v130 (F := Ideal) x16) (val_main_v132 (F := Ideal) x17) (val_main_v134 (F := Ideal) x18)
      (val_main_v136 (F := Ideal) x19) (val_main_v138 (F := Ideal) x20) (val_main_v140 (F := Ideal) x21) (Ideal.ofBits .f32 0x3727C5AC#32) := by
  funext i
  obtain ⟨p, q, rfl⟩ : ∃ (p : Fin 4000) (q : Fin 128), i = ix2 p q := ⟨i 0, i 1, eq_ix2 i⟩
  have el : ∀ k : Fin 128, lidx_main_v141 (ix2 p q) k = ix2 p k := fun k =>
    funext fun a => Fin.ext (by match a with | ⟨0, _⟩ => rfl | ⟨1, _⟩ => rfl)
  have er : ∀ k : Fin 128, ridx_main_v141 (ix2 p q) k = ix2 k q := fun k =>
    funext fun a => Fin.ext (by match a with | ⟨0, _⟩ => rfl | ⟨1, _⟩ => rfl)
  have eb : idx_main_v142 (idx_main_v143 (ix2 p q)) = ix1 q :=
    funext fun a => Fin.ext (by match a with | ⟨0, _⟩ => rfl)
  have em : idx_main_v146 (idx_main_v147 (ix2 p q)) = ix1 q :=
    funext fun a => Fin.ext (by match a with | ⟨0, _⟩ => rfl)
  have es : idx_main_v153 (idx_main_v154 (ix2 p q)) = ix1 q :=
    funext fun a => Fin.ext (by match a with | ⟨0, _⟩ => rfl)
  have et : idx_main_v156 (idx_main_v157 (ix2 p q)) = ix1 q :=
    funext fun a => Fin.ext (by match a with | ⟨0, _⟩ => rfl)
  rw [val_main_v159_apply, val_main_v158_apply, val_main_v155_apply, val_main_v148_apply, val_main_v145_apply,
    val_main_v144_apply, val_main_v141_apply, val_main_v143_apply, val_main_v142_apply, val_main_call4_v0_apply,
    val_main_call4_cst_apply, val_main_v147_apply, val_main_v146_apply, val_main_v154_apply, val_main_v153_apply,
    val_main_v152_apply, val_main_v151_apply, val_main_v150_apply, val_main_v149_apply, val_main_cst_21_apply,
    val_main_v157_apply, val_main_v156_apply, val_main_call5_v0_apply, val_main_call5_cst_apply, eb, em, es, et]
  simp only [el, er, Ideal.maximumf_def, Ideal.addf_def, Ideal.subf_def, Ideal.mulf_def, Ideal.hostDivf_def,
    Ideal.hostUnary_sqrt_def, Ideal.ofBits_def, Ideal.ofBits_zero_f32]
  rfl

/-- %188: a matrix product. -/
theorem v188_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v188 (F := Ideal) x0 x1 x2 x4 x5 x6 x7 x8 x9 x10 x16 x17 x18 x19 x20 x21 = mm (M := 4000) (K := 128) (N := 128) (val_main_v159 (F := Ideal) x0 x1 x2 x4 x5 x6 x7 x8 x9 x16 x17 x18 x19 x20 x21) (x10) := by
  funext i
  obtain ⟨p, q, rfl⟩ : ∃ (p : Fin 4000) (q : Fin 128), i = ix2 p q := ⟨i 0, i 1, eq_ix2 i⟩
  have el : ∀ k : Fin 128, lidx_main_v188 (ix2 p q) k = ix2 p k := fun k =>
    funext fun a => Fin.ext (by match a with | ⟨0, _⟩ => rfl | ⟨1, _⟩ => rfl)
  have er : ∀ k : Fin 128, ridx_main_v188 (ix2 p q) k = ix2 k q := fun k =>
    funext fun a => Fin.ext (by match a with | ⟨0, _⟩ => rfl | ⟨1, _⟩ => rfl)
  rw [val_main_v188_apply]
  simp only [el, er]
  rfl

/-- %205: a bias and the rectifier. -/
theorem v205_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v205 (F := Ideal) x0 x1 x2 x3 x4 x5 x6 x7 x8 x9 x10 x11 x16 x17 x18 x19 x20 x21 = biasRelu (M := 4000) (N := 128) (val_main_v201 (F := Ideal) x0 x1 x2 x3 x4 x5 x6 x7 x8 x9 x10 x16 x17 x18 x19 x20 x21) x11 := by
  funext i
  obtain ⟨p, q, rfl⟩ : ∃ (p : Fin 4000) (q : Fin 128), i = ix2 p q := ⟨i 0, i 1, eq_ix2 i⟩
  have eb : idx_main_v202 (idx_main_v203 (ix2 p q)) = ix1 q :=
    funext fun a => Fin.ext (by match a with | ⟨0, _⟩ => rfl)
  rw [val_main_v205_apply, val_main_v204_apply, val_main_v203_apply, val_main_v202_apply, val_main_call6_v0_apply, val_main_call6_cst_apply, eb]
  simp only [Ideal.maximumf_def, Ideal.addf_def, Ideal.ofBits_def, Ideal.ofBits_zero_f32]
  rfl

/-- %243: a pooling layer (linear map, rectifier, batch normalisation with running statistics, rectifier). -/
theorem v243_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v243 (F := Ideal) x0 x1 x2 x3 x4 x5 x6 x7 x8 x9 x10 x11 x16 x17 x18 x19 x20 x21 = poolR (M := 20000) (K := 128) (N := 128) (val_main_v212 (F := Ideal) x0 x1 x2 x3 x4 x5 x6 x7 x8 x9 x10 x11 x16 x17 x18 x19 x20 x21) (val_main_v214 (F := Ideal) x16) (val_main_v216 (F := Ideal) x17) (val_main_v218 (F := Ideal) x18)
      (val_main_v220 (F := Ideal) x19) (val_main_v222 (F := Ideal) x20) (val_main_v224 (F := Ideal) x21) (Ideal.ofBits .f32 0x3727C5AC#32) := by
  funext i
  obtain ⟨p, q, rfl⟩ : ∃ (p : Fin 20000) (q : Fin 128), i = ix2 p q := ⟨i 0, i 1, eq_ix2 i⟩
  have el : ∀ k : Fin 128, lidx_main_v225 (ix2 p q) k = ix2 p k := fun k =>
    funext fun a => Fin.ext (by match a with | ⟨0, _⟩ => rfl | ⟨1, _⟩ => rfl)
  have er : ∀ k : Fin 128, ridx_main_v225 (ix2 p q) k = ix2 k q := fun k =>
    funext fun a => Fin.ext (by match a with | ⟨0, _⟩ => rfl | ⟨1, _⟩ => rfl)
  have eb : idx_main_v226 (idx_main_v227 (ix2 p q)) = ix1 q :=
    funext fun a => Fin.ext (by match a with | ⟨0, _⟩ => rfl)
  have em : idx_main_v230 (idx_main_v231 (ix2 p q)) = ix1 q :=
    funext fun a => Fin.ext (by match a with | ⟨0, _⟩ => rfl)
  have es : idx_main_v237 (idx_main_v238 (ix2 p q)) = ix1 q :=
    funext fun a => Fin.ext (by match a with | ⟨0, _⟩ => rfl)
  have et : idx_main_v240 (idx_main_v241 (ix2 p q)) = ix1 q :=
    funext fun a => Fin.ext (by match a with | ⟨0, _⟩ => rfl)
  rw [val_main_v243_apply, val_main_v242_apply, val_main_v239_apply, val_main_v232_apply, val_main_v229_apply,
    val_main_v228_apply, val_main_v225_apply, val_main_v227_apply, val_main_v226_apply, val_main_call7_v0_apply,
    val_main_call7_cst_apply, val_main_v231_apply, val_main_v230_apply, val_main_v238_apply, val_main_v237_apply,
    val_main_v236_apply, val_main_v235_apply, val_main_v234_apply, val_main_v233_apply, val_main_cst_34_apply,
    val_main_v241_apply, val_main_v240_apply, val_main_call8_v0_apply, val_main_call8_cst_apply, eb, em, es, et]
  simp only [el, er, Ideal.maximumf_def, Ideal.addf_def, Ideal.subf_def, Ideal.mulf_def, Ideal.hostDivf_def,
    Ideal.hostUnary_sqrt_def, Ideal.ofBits_def, Ideal.ofBits_zero_f32]
  rfl

/-- %273: a matrix product. -/
theorem v273_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v273 (F := Ideal) x0 x1 x2 x3 x4 x5 x6 x7 x8 x9 x10 x11 x12 x16 x17 x18 x19 x20 x21 = mm (M := 20000) (K := 256) (N := 128) (val_main_v244 (F := Ideal) x0 x1 x2 x3 x4 x5 x6 x7 x8 x9 x10 x11 x16 x17 x18 x19 x20 x21) (x12) := by
  funext i
  obtain ⟨p, q, rfl⟩ : ∃ (p : Fin 20000) (q : Fin 128), i = ix2 p q := ⟨i 0, i 1, eq_ix2 i⟩
  have el : ∀ k : Fin 256, lidx_main_v273 (ix2 p q) k = ix2 p k := fun k =>
    funext fun a => Fin.ext (by match a with | ⟨0, _⟩ => rfl | ⟨1, _⟩ => rfl)
  have er : ∀ k : Fin 256, ridx_main_v273 (ix2 p q) k = ix2 k q := fun k =>
    funext fun a => Fin.ext (by match a with | ⟨0, _⟩ => rfl | ⟨1, _⟩ => rfl)
  rw [val_main_v273_apply]
  simp only [el, er]
  rfl

/-- %290: a bias and the rectifier. -/
theorem v290_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v290 (F := Ideal) x0 x1 x2 x3 x4 x5 x6 x7 x8 x9 x10 x11 x12 x13 x16 x17 x18 x19 x20 x21 = biasRelu (M := 20000) (N := 128) (val_main_v286 (F := Ideal) x0 x1 x2 x3 x4 x5 x6 x7 x8 x9 x10 x11 x12 x16 x17 x18 x19 x20 x21) x13 := by
  funext i
  obtain ⟨p, q, rfl⟩ : ∃ (p : Fin 20000) (q : Fin 128), i = ix2 p q := ⟨i 0, i 1, eq_ix2 i⟩
  have eb : idx_main_v287 (idx_main_v288 (ix2 p q)) = ix1 q :=
    funext fun a => Fin.ext (by match a with | ⟨0, _⟩ => rfl)
  rw [val_main_v290_apply, val_main_v289_apply, val_main_v288_apply, val_main_v287_apply, val_main_call9_v0_apply, val_main_call9_cst_apply, eb]
  simp only [Ideal.maximumf_def, Ideal.addf_def, Ideal.ofBits_def, Ideal.ofBits_zero_f32]
  rfl

/-- %328: a pooling layer (linear map, rectifier, batch normalisation with running statistics, rectifier). -/
theorem v328_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v328 (F := Ideal) x0 x1 x2 x3 x4 x5 x6 x7 x8 x9 x10 x11 x12 x13 x16 x17 x18 x19 x20 x21 = poolR (M := 100000) (K := 128) (N := 128) (val_main_v297 (F := Ideal) x0 x1 x2 x3 x4 x5 x6 x7 x8 x9 x10 x11 x12 x13 x16 x17 x18 x19 x20 x21) (val_main_v299 (F := Ideal) x16) (val_main_v301 (F := Ideal) x17) (val_main_v303 (F := Ideal) x18)
      (val_main_v305 (F := Ideal) x19) (val_main_v307 (F := Ideal) x20) (val_main_v309 (F := Ideal) x21) (Ideal.ofBits .f32 0x3727C5AC#32) := by
  funext i
  obtain ⟨p, q, rfl⟩ : ∃ (p : Fin 100000) (q : Fin 128), i = ix2 p q := ⟨i 0, i 1, eq_ix2 i⟩
  have el : ∀ k : Fin 128, lidx_main_v310 (ix2 p q) k = ix2 p k := fun k =>
    funext fun a => Fin.ext (by match a with | ⟨0, _⟩ => rfl | ⟨1, _⟩ => rfl)
  have er : ∀ k : Fin 128, ridx_main_v310 (ix2 p q) k = ix2 k q := fun k =>
    funext fun a => Fin.ext (by match a with | ⟨0, _⟩ => rfl | ⟨1, _⟩ => rfl)
  have eb : idx_main_v311 (idx_main_v312 (ix2 p q)) = ix1 q :=
    funext fun a => Fin.ext (by match a with | ⟨0, _⟩ => rfl)
  have em : idx_main_v315 (idx_main_v316 (ix2 p q)) = ix1 q :=
    funext fun a => Fin.ext (by match a with | ⟨0, _⟩ => rfl)
  have es : idx_main_v322 (idx_main_v323 (ix2 p q)) = ix1 q :=
    funext fun a => Fin.ext (by match a with | ⟨0, _⟩ => rfl)
  have et : idx_main_v325 (idx_main_v326 (ix2 p q)) = ix1 q :=
    funext fun a => Fin.ext (by match a with | ⟨0, _⟩ => rfl)
  rw [val_main_v328_apply, val_main_v327_apply, val_main_v324_apply, val_main_v317_apply, val_main_v314_apply,
    val_main_v313_apply, val_main_v310_apply, val_main_v312_apply, val_main_v311_apply, val_main_call10_v0_apply,
    val_main_call10_cst_apply, val_main_v316_apply, val_main_v315_apply, val_main_v323_apply, val_main_v322_apply,
    val_main_v321_apply, val_main_v320_apply, val_main_v319_apply, val_main_v318_apply, val_main_cst_47_apply,
    val_main_v326_apply, val_main_v325_apply, val_main_call11_v0_apply, val_main_call11_cst_apply, eb, em, es, et]
  simp only [el, er, Ideal.maximumf_def, Ideal.addf_def, Ideal.subf_def, Ideal.mulf_def, Ideal.hostDivf_def,
    Ideal.hostUnary_sqrt_def, Ideal.ofBits_def, Ideal.ofBits_zero_f32]
  rfl

/-- %358: a matrix product. -/
theorem v358_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x10, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v358 (F := Ideal) x0 x1 x2 x3 x4 x5 x6 x7 x8 x9 x10 x11 x12 x13 x14 x16 x17 x18 x19 x20 x21 = mm (M := 100000) (K := 256) (N := 10) (val_main_v329 (F := Ideal) x0 x1 x2 x3 x4 x5 x6 x7 x8 x9 x10 x11 x12 x13 x16 x17 x18 x19 x20 x21) (x14) := by
  funext i
  obtain ⟨p, q, rfl⟩ : ∃ (p : Fin 100000) (q : Fin 10), i = ix2 p q := ⟨i 0, i 1, eq_ix2 i⟩
  have el : ∀ k : Fin 256, lidx_main_v358 (ix2 p q) k = ix2 p k := fun k =>
    funext fun a => Fin.ext (by match a with | ⟨0, _⟩ => rfl | ⟨1, _⟩ => rfl)
  have er : ∀ k : Fin 256, ridx_main_v358 (ix2 p q) k = ix2 k q := fun k =>
    funext fun a => Fin.ext (by match a with | ⟨0, _⟩ => rfl | ⟨1, _⟩ => rfl)
  rw [val_main_v358_apply]
  simp only [el, er]
  rfl

end Cert.RefStages

end
-- ==== Proof.RefStagesLsm.lean ====
/-
  The reference program's last stage is the specification's log-softmax.

  The stage adds a bias to the logits, takes each row's maximum `m` (a maximum reduction started from `-∞`, then
  a maximum with `-∞`), subtracts it, and subtracts the logarithm of the row's sum of exponentials: at the index
  `(p, q)` this is `(z[p, q] − m) − log ∑ⱼ exp (z[p, j] − m)`, which is `Cert.Net.lsmR` of the logits and the bias.
  The row `z[p, ·]`, its maximum and the shifted exponentials are read at an index by separate lemmas, each for
  the logits as an arbitrary array; the theorem then assembles them.
-/
import proofs.«124761_j84988812853303_1_alg».proof.Proof.RefRead
import proofs.«124761_j84988812853303_1_alg».proof.Proof.Spec
import Idealize.ShloMosaic.PureOps.Ideal.Laws
import Idealize.ShloMosaic.PureOps.Reduce
import Idealize.ShloMosaic.Lib.ValueIdx

noncomputable section

open scoped BigOperators

namespace Cert.RefStages

open Cert.ReferenceIdeal Cert.ReferenceIdeal.Gen Cert.ReferenceIdeal.Read Idealize.ShloMosaic Idealize.ShloMosaic.StableHlo
  Idealize.ShloMosaic.ValueIdx Cert.Net

/-- The constant the row maximum starts from is `-∞`. -/
theorem ofBits_neg_inf : Ideal.ofBits .f32 0xFF800000#32 = (⊥ : EReal) := by simp [Ideal.ofBits, Ideal.ieee]

/-- The biased row at a column. -/
theorem biasedRow_apply {M N : Nat} (s : Arr2 M N) (b : Arr1 N) (r : Fin M) (j : Fin N) :
    biasedRow s b r j = s (ix2 r j) + b (ix1 j) := rfl

/-- The specification's log-softmax at the index `(p, q)`, for arbitrary arrays. -/
theorem lsmR_ix2 {M N : Nat} (s : Arr2 M N) (b : Arr1 N) (p : Fin M) (q : Fin N) :
    lsmR s b (ix2 p q) = (biasedRow s b p q - rowMax (biasedRow s b p))
      - Ideal.log (∑ j : Fin N, Ideal.exp (biasedRow s b p j - rowMax (biasedRow s b p))) := rfl

/-- A maximum reduction of a 100000×10 array along its rows, started from `-∞`, read at row `p`: the largest
    entry of the row. -/
theorem rowmax_100000x10 (z : (⟨S100000x10, .f32⟩ : BufTy).Contents (Elt Ideal)) (p : Fin 100000) :
    Host.reduce (FloatOps.maximumf (F := Ideal) (φ := .f32)) z (val_main_call12_cst (F := Ideal))
        reducesTo_S100000x10_S100000_d1 h_S_ (ix1 p)
      = rowMax (N := 10) (fun k => z (ix2 p k)) := by
  rw [Host.reduce_eq_fold_single (FloatOps.maximumf (F := Ideal) (φ := .f32)) z (val_main_call12_cst (F := Ideal)) reducesTo_S100000x10_S100000_d1
    (by decide) h_S_ (ix1 p), val_main_call12_cst_apply, Ideal.ofBits_def, ofBits_neg_inf]
  unfold rowMax
  refine congrArg (Finset.fold _ _ · _) (funext fun k => ?_)
  exact congrArg z (funext fun a => Fin.ext (by match a with | ⟨0, _⟩ => rfl | ⟨1, _⟩ => rfl))

/-- The biased logits at `(p, k)`. -/
theorem z375 (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x10, .f32⟩ : BufTy).Contents (Elt Ideal)) (x15 : (⟨S10, .f32⟩ : BufTy).Contents (Elt Ideal)) (x16 : (⟨S4x128x128, .f32⟩ : BufTy).Contents (Elt Ideal)) (x17 x18 x19 x20 x21 : (⟨S4x128, .f32⟩ : BufTy).Contents (Elt Ideal)) (p : Fin 100000) (k : Fin 10) :
    val_main_v374 (F := Ideal) x0 x1 x2 x3 x4 x5 x6 x7 x8 x9 x10 x11 x12 x13 x14 x15 x16 x17 x18 x19 x20 x21 (ix2 p k) = biasedRow (M := 100000) (N := 10) (val_main_v371 (F := Ideal) x0 x1 x2 x3 x4 x5 x6 x7 x8 x9 x10 x11 x12 x13 x14 x16 x17 x18 x19 x20 x21) x15 p k := by
  have eb : idx_main_v372 (idx_main_v373 (ix2 p k)) = ix1 k :=
    funext fun a => Fin.ext (by match a with | ⟨0, _⟩ => rfl)
  rw [val_main_v374_apply, val_main_v373_apply, val_main_v372_apply, eb, Ideal.addf_def, biasedRow_apply]

/-- The row maximum, broadcast back to `(p, k)`. -/
theorem m375 (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x10, .f32⟩ : BufTy).Contents (Elt Ideal)) (x15 : (⟨S10, .f32⟩ : BufTy).Contents (Elt Ideal)) (x16 : (⟨S4x128x128, .f32⟩ : BufTy).Contents (Elt Ideal)) (x17 x18 x19 x20 x21 : (⟨S4x128, .f32⟩ : BufTy).Contents (Elt Ideal)) (p : Fin 100000) (k : Fin 10) :
    val_main_call12_v4 (F := Ideal) x0 x1 x2 x3 x4 x5 x6 x7 x8 x9 x10 x11 x12 x13 x14 x15 x16 x17 x18 x19 x20 x21 (ix2 p k)
      = rowMax (biasedRow (M := 100000) (N := 10) (val_main_v371 (F := Ideal) x0 x1 x2 x3 x4 x5 x6 x7 x8 x9 x10 x11 x12 x13 x14 x16 x17 x18 x19 x20 x21) x15 p) := by
  have em : idx_main_call12_v3 (idx_main_call12_v4 (ix2 p k)) = ix1 p :=
    funext fun a => Fin.ext (by match a with | ⟨0, _⟩ => rfl)
  rw [val_main_call12_v4_apply, val_main_call12_v3_apply, val_main_call12_v2_apply, val_main_call12_v1_apply,
    val_main_call12_cst_0_apply, em]
  unfold val_main_call12_v0
  rw [rowmax_100000x10, Ideal.maximumf_def, Ideal.ofBits_def, ofBits_neg_inf, max_bot_left]
  exact congrArg rowMax (funext fun j => z375 x0 x1 x2 x3 x4 x5 x6 x7 x8 x9 x10 x11 x12 x13 x14 x15 x16 x17 x18 x19 x20 x21 p j)

/-- The shifted exponential at `(p, k)`. -/
theorem e375 (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x10, .f32⟩ : BufTy).Contents (Elt Ideal)) (x15 : (⟨S10, .f32⟩ : BufTy).Contents (Elt Ideal)) (x16 : (⟨S4x128x128, .f32⟩ : BufTy).Contents (Elt Ideal)) (x17 x18 x19 x20 x21 : (⟨S4x128, .f32⟩ : BufTy).Contents (Elt Ideal)) (p : Fin 100000) (k : Fin 10) :
    val_main_call12_v6 (F := Ideal) x0 x1 x2 x3 x4 x5 x6 x7 x8 x9 x10 x11 x12 x13 x14 x15 x16 x17 x18 x19 x20 x21 (ix2 p k)
      = Ideal.exp (biasedRow (M := 100000) (N := 10) (val_main_v371 (F := Ideal) x0 x1 x2 x3 x4 x5 x6 x7 x8 x9 x10 x11 x12 x13 x14 x16 x17 x18 x19 x20 x21) x15 p k
          - rowMax (biasedRow (M := 100000) (N := 10) (val_main_v371 (F := Ideal) x0 x1 x2 x3 x4 x5 x6 x7 x8 x9 x10 x11 x12 x13 x14 x16 x17 x18 x19 x20 x21) x15 p)) := by
  rw [val_main_call12_v6_apply, val_main_call12_v5_apply, z375, m375, Ideal.hostUnary_exp_def, Ideal.subf_def]

/-- %375: the log-softmax of the biased logits. -/
theorem v375_eq (x0 : (⟨S100000x128, .f32⟩ : BufTy).Contents (Elt Ideal)) (x1 : (⟨S2x1600000, .i32⟩ : BufTy).Contents (Elt Ideal)) (x2 : (⟨S2x320000, .i32⟩ : BufTy).Contents (Elt Ideal)) (x3 : (⟨S2x64000, .i32⟩ : BufTy).Contents (Elt Ideal)) (x4 : (⟨S100000, .i32⟩ : BufTy).Contents (Elt Ideal)) (x5 : (⟨S20000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x10, .f32⟩ : BufTy).Contents (Elt Ideal)) (x15 : (⟨S10, .f32⟩ : BufTy).Contents (Elt Ideal)) (x16 : (⟨S4x128x128, .f32⟩ : BufTy).Contents (Elt Ideal)) (x17 x18 x19 x20 x21 : (⟨S4x128, .f32⟩ : BufTy).Contents (Elt Ideal)) :
    val_main_v375 (F := Ideal) x0 x1 x2 x3 x4 x5 x6 x7 x8 x9 x10 x11 x12 x13 x14 x15 x16 x17 x18 x19 x20 x21 = lsmR (M := 100000) (N := 10) (val_main_v371 (F := Ideal) x0 x1 x2 x3 x4 x5 x6 x7 x8 x9 x10 x11 x12 x13 x14 x16 x17 x18 x19 x20 x21) x15 := by
  funext i
  obtain ⟨p, q, rfl⟩ : ∃ (p : Fin 100000) (q : Fin 10), i = ix2 p q := ⟨i 0, i 1, eq_ix2 i⟩
  have es : ∀ k : Fin 10, idx_main_call12_v7 (idx_main_call12_v8 (idx_main_call12_v10 (ix2 p q))) k = ix2 p k := fun k =>
    funext fun a => Fin.ext (by match a with | ⟨0, _⟩ => rfl | ⟨1, _⟩ => rfl)
  have hs : (∑ k : Fin 10, val_main_call12_v6 (F := Ideal) x0 x1 x2 x3 x4 x5 x6 x7 x8 x9 x10 x11 x12 x13 x14 x15 x16 x17 x18 x19 x20 x21
        (idx_main_call12_v7 (idx_main_call12_v8 (idx_main_call12_v10 (ix2 p q))) k))
      = ∑ k : Fin 10, Ideal.exp (biasedRow (M := 100000) (N := 10) (val_main_v371 (F := Ideal) x0 x1 x2 x3 x4 x5 x6 x7 x8 x9 x10 x11 x12 x13 x14 x16 x17 x18 x19 x20 x21) x15 p k
          - rowMax (biasedRow (M := 100000) (N := 10) (val_main_v371 (F := Ideal) x0 x1 x2 x3 x4 x5 x6 x7 x8 x9 x10 x11 x12 x13 x14 x16 x17 x18 x19 x20 x21) x15 p)) :=
    Finset.sum_congr rfl fun k _ => by rw [es k, e375]
  rw [val_main_v375_apply, val_main_call12_v5_apply, val_main_call12_v10_apply, val_main_call12_v9_apply,
    val_main_call12_v8_apply, val_main_call12_v7_apply, val_main_call12_cst_1_apply, hs, z375, m375, lsmR_ix2]
  simp only [Ideal.subf_def, Ideal.hostUnary_log_def, Ideal.ofBits_def, Ideal.ofBits_zero_f32, zero_add]

end Cert.RefStages

end
-- ==== Proof.LibReal.lean ====
/-
  Real-valuedness of array operations on the extended reals.

  An array of extended reals is REAL when every entry is a real number (`Cert.Net.AllReal`). This module
  collects, for the operations a host program is made of, the facts by which realness (or any other property
  of the entries) passes from the operands of an operation to its result:

  * operations that only MOVE entries (broadcast, reshape, slice, gather, concatenate): every entry of the result
    is an entry of an operand (`*_mem`), so every property of all the operand's entries holds of all the
    result's (`*_forall`);
  * entrywise arithmetic (sum, difference, product, maximum, power, square root, quotient, exponential): the
    result of real operands is real, the square root and the quotient away from the corners of their domains;
  * contractions and accumulating scatters: a finite sum of products, or of entries, of reals is real;
  * the single-precision constants `0`, `1`, `-1/2` as reals and `1e-5` as a positive real.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract
import proofs.«124761_j84988812853303_1_alg».proof.Proof.Spec

noncomputable section

open scoped BigOperators

namespace Cert.LibReal

open Idealize.ShloMosaic Cert.Net

/-! ### Operations that move entries -/

section Move
variable {α : Type} {s t : Shape}

/-- If every entry of `y` is an entry of `x`, whatever holds of all entries of `x` holds of all of `y`. -/
theorem forall_of_mem {ι κ : Type} {x : ι → α} {y : κ → α} (hm : ∀ j, ∃ i, y j = x i) {P : α → Prop}
    (hx : ∀ i, P (x i)) : ∀ j, P (y j) := fun j => by
  obtain ⟨i, hi⟩ := hm j
  rw [hi]; exact hx i

/-- Every entry of a broadcast is an entry of its operand. -/
theorem broadcastInDim_mem (dims : Fin s.rank → Fin t.rank) (h : s.BroadcastsInDim t dims) (x : s.Idx → α) :
    ∀ j, ∃ i, broadcastInDim t dims h x j = x i := fun _ => ⟨_, rfl⟩

/-- Every entry of a reshaped array is an entry of its operand. -/
theorem shapeCast_mem (x : s.Idx → α) (h : s.ShapeCasts t) : ∀ j, ∃ i, shapeCast t x h j = x i :=
  fun _ => ⟨_, rfl⟩

/-- Every entry of a slice is an entry of its operand. -/
theorem extractStridedSlice_mem (off : Fin s.rank → Nat) (x : s.Idx → α) (h : s.Slices off t) :
    ∀ j, ∃ i, extractStridedSlice t off x h j = x i := fun _ => ⟨_, rfl⟩

/-- Every entry of a gather is an entry of its operand (the start indices are clamped into the operand). -/
theorem gather_mem {si : Shape} {w : Nat} (d : GatherDims s si t) (x : s.Idx → α) (idx : IVec si w) :
    ∀ j, ∃ i, Host.gather d x idx j = x i := fun _ => ⟨_, rfl⟩

/-- Every entry of a concatenation is an entry of one of the concatenated arrays. -/
theorem concatenate_mem (a : Fin t.rank) (xs : List ((s : Shape) × (s.Idx → α)))
    (h : Shape.Concatenates (xs.map (·.1)) t a) :
    ∀ j, ∃ p ∈ xs, ∃ i, concatenate t a xs h j = p.2 i := fun _ => ⟨_, List.getElem_mem _, _, rfl⟩

/-- What holds of all entries of the operand holds of all entries of its broadcast. -/
theorem broadcastInDim_forall (dims : Fin s.rank → Fin t.rank) (h : s.BroadcastsInDim t dims) (x : s.Idx → α)
    {P : α → Prop} (hx : ∀ i, P (x i)) : ∀ j, P (broadcastInDim t dims h x j) :=
  forall_of_mem (broadcastInDim_mem dims h x) hx

/-- What holds of all entries of the operand holds of all entries of its reshape. -/
theorem shapeCast_forall (x : s.Idx → α) (h : s.ShapeCasts t) {P : α → Prop} (hx : ∀ i, P (x i)) :
    ∀ j, P (shapeCast t x h j) :=
  forall_of_mem (shapeCast_mem x h) hx

/-- What holds of all entries of the operand holds of all entries of a slice of it. -/
theorem extractStridedSlice_forall (off : Fin s.rank → Nat) (x : s.Idx → α) (h : s.Slices off t) {P : α → Prop}
    (hx : ∀ i, P (x i)) : ∀ j, P (extractStridedSlice t off x h j) :=
  forall_of_mem (extractStridedSlice_mem off x h) hx

/-- What holds of all entries of the operand holds of all entries gathered from it. -/
theorem gather_forall {si : Shape} {w : Nat} (d : GatherDims s si t) (x : s.Idx → α) (idx : IVec si w)
    {P : α → Prop} (hx : ∀ i, P (x i)) : ∀ j, P (Host.gather d x idx j) :=
  forall_of_mem (gather_mem d x idx) hx

/-- What holds of all entries of two arrays holds of all entries of their concatenation. -/
theorem concatenate2_forall (a : Fin t.rank) {s₁ s₂ : Shape} (x₁ : s₁.Idx → α) (x₂ : s₂.Idx → α)
    (h : Shape.Concatenates (([⟨s₁, x₁⟩, ⟨s₂, x₂⟩] : List ((s : Shape) × (s.Idx → α))).map (·.1)) t a) {P : α → Prop}
    (h₁ : ∀ i, P (x₁ i)) (h₂ : ∀ i, P (x₂ i)) : ∀ j, P (concatenate t a [⟨s₁, x₁⟩, ⟨s₂, x₂⟩] h j) := fun j => by
  obtain ⟨p, hp, i, hi⟩ := concatenate_mem a [⟨s₁, x₁⟩, ⟨s₂, x₂⟩] h j
  rw [hi]
  rcases List.mem_pair.mp hp with rfl | rfl
  · exact h₁ i
  · exact h₂ i

end Move

/-! ### Constants -/

/-- The pattern of `+0.0` denotes the real `0`. -/
theorem ofBits_zero : Ideal.ofBits .f32 0x00000000#32 = ((0 : ℝ) : EReal) := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of the single-precision `1e-5` denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ### Entrywise arithmetic -/

section Pointwise
variable {s : Shape} {φ : FTy}

/-- An array whose entries are all one real constant is real. -/
theorem allReal_constant (b : BitVec φ.bits) (h : ∃ r : ℝ, Ideal.ofBits φ b = (r : EReal)) :
    AllReal (constant (F := Ideal) s φ b) := fun _ => h

/-- The sum of two real arrays is real. -/
theorem allReal_addf {x y : FVec Ideal s φ} (hx : AllReal x) (hy : AllReal y) : AllReal (addf x y) := fun i => by
  obtain ⟨a, ha⟩ := hx i
  obtain ⟨b, hb⟩ := hy i
  exact ⟨a + b, by show x i + y i = _; rw [ha, hb, EReal.coe_add]⟩

/-- The difference of two real arrays is real. -/
theorem allReal_subf {x y : FVec Ideal s φ} (hx : AllReal x) (hy : AllReal y) : AllReal (subf x y) := fun i => by
  obtain ⟨a, ha⟩ := hx i
  obtain ⟨b, hb⟩ := hy i
  exact ⟨a - b, by show x i - y i = _; rw [ha, hb, EReal.coe_sub]⟩

/-- The product of two real arrays is real. -/
theorem allReal_mulf {x y : FVec Ideal s φ} (hx : AllReal x) (hy : AllReal y) : AllReal (mulf x y) := fun i => by
  obtain ⟨a, ha⟩ := hx i
  obtain ⟨b, hb⟩ := hy i
  exact ⟨a * b, by show x i * y i = _; rw [ha, hb, EReal.coe_mul]⟩

/-- The entrywise maximum of two real arrays is real. -/
theorem allReal_maximumf {x y : FVec Ideal s φ} (hx : AllReal x) (hy : AllReal y) : AllReal (maximumf x y) :=
  fun i => by
    obtain ⟨a, ha⟩ := hx i
    obtain ⟨b, hb⟩ := hy i
    exact ⟨max a b, by show max (x i) (y i) = _; rw [ha, hb]; exact (EReal.coe_strictMono.monotone.map_max).symm⟩

/-- A real array raised entrywise to a real array of exponents is real. -/
theorem allReal_powf {x y : FVec Ideal s φ} (hx : AllReal x) (hy : AllReal y) : AllReal (Host.powf x y) := fun i => by
  obtain ⟨a, ha⟩ := hx i
  obtain ⟨b, hb⟩ := hy i
  exact ⟨Real.rpow a b, by show Ideal.pow (x i) (y i) = _; rw [ha, hb]; rfl⟩

/-- The exponential of a real array is real. -/
theorem allReal_exp {x : FVec Ideal s φ} (hx : AllReal x) : AllReal (Host.exp x) := fun i => by
  obtain ⟨a, ha⟩ := hx i
  exact ⟨Real.exp a, by show Ideal.exp (x i) = _; rw [ha]; rfl⟩

/-- Every entry is a nonnegative real. -/
def AllNonneg (v : s.Idx → EReal) : Prop := ∀ i, ∃ r : ℝ, 0 ≤ r ∧ v i = (r : EReal)

/-- Every entry is a positive real. -/
def AllPos (v : s.Idx → EReal) : Prop := ∀ i, ∃ r : ℝ, 0 < r ∧ v i = (r : EReal)

/-- A nonnegative array is real. -/
theorem AllNonneg.allReal {v : s.Idx → EReal} (h : AllNonneg v) : AllReal v := fun i => by
  obtain ⟨r, _, hr⟩ := h i
  exact ⟨r, hr⟩

/-- A positive array is real. -/
theorem AllPos.allReal {v : s.Idx → EReal} (h : AllPos v) : AllReal v := fun i => by
  obtain ⟨r, _, hr⟩ := h i
  exact ⟨r, hr⟩

/-- An array whose entries are all one positive constant is positive. -/
theorem allPos_constant (b : BitVec φ.bits) (h : ∃ r : ℝ, 0 < r ∧ Ideal.ofBits φ b = (r : EReal)) :
    AllPos (constant (F := Ideal) s φ b) := fun _ => h

/-- A nonnegative array plus a positive array is positive. -/
theorem allPos_addf {x y : FVec Ideal s φ} (hx : AllNonneg x) (hy : AllPos y) : AllPos (addf x y) := fun i => by
  obtain ⟨a, ha0, ha⟩ := hx i
  obtain ⟨b, hb0, hb⟩ := hy i
  exact ⟨a + b, by linarith, by show x i + y i = _; rw [ha, hb, EReal.coe_add]⟩

/-- The square root of a positive array is positive. -/
theorem allPos_sqrt {x : FVec Ideal s φ} (hx : AllPos x) : AllPos (Host.sqrt x) := fun i => by
  obtain ⟨a, ha0, ha⟩ := hx i
  refine ⟨Real.sqrt a, Real.sqrt_pos.mpr ha0, ?_⟩
  show Ideal.sqrt (x i) = _
  rw [ha, Ideal.sqrt_coe, if_neg (not_lt.mpr ha0.le)]

/-- A real array divided entrywise by a positive array is real. -/
theorem allReal_divf {x y : FVec Ideal s φ} (hx : AllReal x) (hy : AllPos y) : AllReal (Host.divf x y) := fun i => by
  obtain ⟨a, ha⟩ := hx i
  obtain ⟨b, hb0, hb⟩ := hy i
  exact ⟨a * (1 / b), by show Ideal.div (x i) (y i) = _; rw [ha, hb, Ideal.div_coe hb0.ne', EReal.coe_mul]⟩

end Pointwise

/-! ### Moving entries keeps realness, nonnegativity and positivity -/

section MoveReal
variable {s t : Shape}

/-- A broadcast of a real array is real. -/
theorem allReal_broadcastInDim (dims : Fin s.rank → Fin t.rank) (h : s.BroadcastsInDim t dims) {x : s.Idx → EReal}
    (hx : AllReal x) : AllReal (broadcastInDim t dims h x) :=
  broadcastInDim_forall dims h x (P := fun v => ∃ r : ℝ, v = (r : EReal)) hx

/-- A broadcast of a nonnegative array is nonnegative. -/
theorem allNonneg_broadcastInDim (dims : Fin s.rank → Fin t.rank) (h : s.BroadcastsInDim t dims) {x : s.Idx → EReal}
    (hx : AllNonneg x) : AllNonneg (broadcastInDim t dims h x) :=
  broadcastInDim_forall dims h x (P := fun v => ∃ r : ℝ, 0 ≤ r ∧ v = (r : EReal)) hx

/-- A broadcast of a positive array is positive. -/
theorem allPos_broadcastInDim (dims : Fin s.rank → Fin t.rank) (h : s.BroadcastsInDim t dims) {x : s.Idx → EReal}
    (hx : AllPos x) : AllPos (broadcastInDim t dims h x) :=
  broadcastInDim_forall dims h x (P := fun v => ∃ r : ℝ, 0 < r ∧ v = (r : EReal)) hx

/-- A reshape of a real array is real. -/
theorem allReal_shapeCast {x : s.Idx → EReal} (h : s.ShapeCasts t) (hx : AllReal x) : AllReal (shapeCast t x h) :=
  shapeCast_forall x h (P := fun v => ∃ r : ℝ, v = (r : EReal)) hx

/-- A reshape of a nonnegative array is nonnegative. -/
theorem allNonneg_shapeCast {x : s.Idx → EReal} (h : s.ShapeCasts t) (hx : AllNonneg x) :
    AllNonneg (shapeCast t x h) :=
  shapeCast_forall x h (P := fun v => ∃ r : ℝ, 0 ≤ r ∧ v = (r : EReal)) hx

/-- A reshape of a positive array is positive. -/
theorem allPos_shapeCast {x : s.Idx → EReal} (h : s.ShapeCasts t) (hx : AllPos x) : AllPos (shapeCast t x h) :=
  shapeCast_forall x h (P := fun v => ∃ r : ℝ, 0 < r ∧ v = (r : EReal)) hx

/-- A slice of a real array is real. -/
theorem allReal_slice (off : Fin s.rank → Nat) {x : s.Idx → EReal} (h : s.Slices off t) (hx : AllReal x) :
    AllReal (extractStridedSlice t off x h) :=
  extractStridedSlice_forall off x h (P := fun v => ∃ r : ℝ, v = (r : EReal)) hx

/-- A slice of a nonnegative array is nonnegative. -/
theorem allNonneg_slice (off : Fin s.rank → Nat) {x : s.Idx → EReal} (h : s.Slices off t) (hx : AllNonneg x) :
    AllNonneg (extractStridedSlice t off x h) :=
  extractStridedSlice_forall off x h (P := fun v => ∃ r : ℝ, 0 ≤ r ∧ v = (r : EReal)) hx

/-- A slice of a positive array is positive. -/
theorem allPos_slice (off : Fin s.rank → Nat) {x : s.Idx → EReal} (h : s.Slices off t) (hx : AllPos x) :
    AllPos (extractStridedSlice t off x h) :=
  extractStridedSlice_forall off x h (P := fun v => ∃ r : ℝ, 0 < r ∧ v = (r : EReal)) hx

/-- Entries gathered from a real array are real. -/
theorem allReal_gather {si : Shape} {w : Nat} (d : GatherDims s si t) {x : s.Idx → EReal} (idx : IVec si w)
    (hx : AllReal x) : AllReal (Host.gather d x idx) :=
  gather_forall d x idx (P := fun v => ∃ r : ℝ, v = (r : EReal)) hx

/-- Entries gathered from a nonnegative array are nonnegative. -/
theorem allNonneg_gather {si : Shape} {w : Nat} (d : GatherDims s si t) {x : s.Idx → EReal} (idx : IVec si w)
    (hx : AllNonneg x) : AllNonneg (Host.gather d x idx) :=
  gather_forall d x idx (P := fun v => ∃ r : ℝ, 0 ≤ r ∧ v = (r : EReal)) hx

/-- The concatenation of two real arrays is real. -/
theorem allReal_concatenate2 (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllReal x₁) (h₂ : AllReal x₂) : AllReal (concatenate t a [⟨s₁, x₁⟩, ⟨s₂, x₂⟩] h) :=
  concatenate2_forall a x₁ x₂ h (P := fun v => ∃ r : ℝ, v = (r : EReal)) h₁ h₂

end MoveReal

/-! ### Contractions and accumulating scatters -/

/-- A finite sum of real extended reals is real. -/
theorem sum_real {ι : Type} (S : Finset ι) (f : ι → EReal) (hf : ∀ i ∈ S, ∃ r : ℝ, f i = (r : EReal)) :
    ∃ r : ℝ, (∑ i ∈ S, f i) = (r : EReal) := by
  classical
  induction S using Finset.induction_on with
  | empty => exact ⟨0, by simp⟩
  | insert x S hx ih =>
    obtain ⟨a, ha⟩ := hf x (Finset.mem_insert_self x S)
    obtain ⟨b, hb⟩ := ih fun i hi => hf i (Finset.mem_insert_of_mem hi)
    exact ⟨a + b, by rw [Finset.sum_insert hx, ha, hb, EReal.coe_add]⟩

/-- The host's contraction of two real arrays is real: each entry is a finite sum of products of reals. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show ∃ r : ℝ, FloatOps.dotGeneral d prec .single lhs rhs j = (r : EReal)
  rw [Ideal.dotGeneral_apply]
  refine sum_real _ _ fun k _ => ?_
  obtain ⟨a, ha⟩ := hl (d.lhsIdx j k)
  obtain ⟨b, hb⟩ := hr (d.rhsIdx j k)
  exact ⟨a * b, by rw [ha, hb, EReal.coe_mul]⟩

/-- The host's accumulating scatter of real updates into a real array is real: each entry is the operand's plus a
    finite sum of updates. -/
theorem allReal_scatterAdd {s si u : Shape} {w : Nat} {φ : FTy} (d : ScatterDims s si u) {x : FVec Ideal s φ}
    (idx : IVec si w) {upd : FVec Ideal u φ} (hx : AllReal x) (hu : AllReal upd) :
    AllReal (Host.scatterAdd d x idx upd) := fun i => by
  show ∃ r : ℝ, Ideal.hostScatterAdd d x idx upd i = (r : EReal)
  unfold Ideal.hostScatterAdd
  obtain ⟨a, ha⟩ := hx i
  obtain ⟨b, hb⟩ := sum_real (Finset.univ.filter fun j => d.resultIdx? j idx = some i) upd fun j _ => hu j
  exact ⟨a + b, by rw [ha, hb, EReal.coe_add]⟩

end Cert.LibReal

end
-- ==== Proof.RefReal.lean ====
/-
  Real-valuedness of the reference network's stages.

  The reference computes five graph convolutions and four pooling layers. When every float argument is an array of
  real numbers and the running variance is nonnegative, every float stage up to the input of the final bias and
  log-softmax is an array of real numbers. The proof follows the program one operation at a time:

  * a constant is one of the reals `0`, `1`, `-1/2` or the positive `1e-5`;
  * broadcasts, reshapes, slices, gathers and concatenations only move entries;
  * sums, differences, products, maxima and real powers of reals are real (a degree raised to `-1/2` is the real
    power, whatever the degree);
  * a contraction is a finite sum of products and an accumulating scatter a finite sum of entries;
  * the variance plus `1e-5` is a positive real, so is its square root, and a real divided by it is real.

  Each theorem is named after the stage it speaks of: `real_vN` says stage `%N` is real, `nonneg_vN` that its entries
  are nonnegative reals, `pos_vN` that they are positive reals.
-/
import proofs.«124761_j84988812853303_1_alg».proof.Proof.RefRead
import proofs.«124761_j84988812853303_1_alg».proof.Proof.Spec
import proofs.«124761_j84988812853303_1_alg».proof.Proof.LibReal

noncomputable section

namespace Cert.RefReal

open Cert.ReferenceIdeal Cert.ReferenceIdeal.Read Idealize.ShloMosaic Idealize.ShloMosaic.TcCoe
open Idealize.SL.Sem Idealize.ShloMosaic.StableHlo Cert.Net Cert.LibReal

variable (x0 : (⟨S100000x128, .f32⟩ : BufTy).Contents (Elt Ideal))
  (x1 : (⟨S2x1600000, .i32⟩ : BufTy).Contents (Elt Ideal))
  (x2 : (⟨S2x320000, .i32⟩ : BufTy).Contents (Elt Ideal))
  (x3 : (⟨S2x64000, .i32⟩ : BufTy).Contents (Elt Ideal))
  (x4 : (⟨S100000, .i32⟩ : BufTy).Contents (Elt Ideal))
  (x5 : (⟨S20000, .i32⟩ : BufTy).Contents (Elt Ideal))
  (x6 : (⟨S128x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))
  (x12 : (⟨S256x128, .f32⟩ : BufTy).Contents (Elt Ideal))
  (x13 : (⟨S128, .f32⟩ : BufTy).Contents (Elt Ideal))
  (x14 : (⟨S256x10, .f32⟩ : BufTy).Contents (Elt Ideal))
  (x15 : (⟨S10, .f32⟩ : BufTy).Contents (Elt Ideal))
  (x16 : (⟨S4x128x128, .f32⟩ : BufTy).Contents (Elt Ideal))
  (x17 : (⟨S4x128, .f32⟩ : BufTy).Contents (Elt Ideal))
  (x18 : (⟨S4x128, .f32⟩ : BufTy).Contents (Elt Ideal))
  (x19 : (⟨S4x128, .f32⟩ : BufTy).Contents (Elt Ideal))
  (x20 : (⟨S4x128, .f32⟩ : BufTy).Contents (Elt Ideal))
  (x21 : (⟨S4x128, .f32⟩ : BufTy).Contents (Elt Ideal))

/-- Stage %cst, the constant 1, is real. -/
theorem real_cst :
    AllReal (s := S_) (val_main_cst (F := Ideal)) := by
  unfold val_main_cst
  exact allReal_constant _ ⟨_, ofBits_one⟩

/-- Stage %7, a broadcast of %cst, is real. -/
theorem real_v7 :
    AllReal (s := S1700000) (val_main_v7 (F := Ideal)) := by
  unfold val_main_v7
  exact allReal_broadcastInDim _ _ real_cst

/-- Stage %cst_0, the constant 0, is real. -/
theorem real_cst_0 :
    AllReal (s := S_) (val_main_cst_0 (F := Ideal)) := by
  unfold val_main_cst_0
  exact allReal_constant _ ⟨_, ofBits_zero⟩

/-- Stage %8, a broadcast of %cst_0, is real. -/
theorem real_v8 :
    AllReal (s := S100000) (val_main_v8 (F := Ideal)) := by
  unfold val_main_v8
  exact allReal_broadcastInDim _ _ real_cst_0

/-- Stage %10, %8 plus scattered sums of entries of %7, is real. -/
theorem real_v10 :
    AllReal (s := S100000) (val_main_v10 (F := Ideal) x1) := by
  unfold val_main_v10
  exact allReal_scatterAdd _ _ real_v8 real_v7

/-- Stage %cst_1, the constant -1/2, is real. -/
theorem real_cst_1 :
    AllReal (s := S_) (val_main_cst_1 (F := Ideal)) := by
  unfold val_main_cst_1
  exact allReal_constant _ ⟨_, ofBits_neg_half⟩

/-- Stage %11, a broadcast of %cst_1, is real. -/
theorem real_v11 :
    AllReal (s := S100000) (val_main_v11 (F := Ideal)) := by
  unfold val_main_v11
  exact allReal_broadcastInDim _ _ real_cst_1

/-- Stage %12, %10 to the power %11, is real. -/
theorem real_v12 :
    AllReal (s := S100000) (val_main_v12 (F := Ideal) x1) := by
  unfold val_main_v12
  exact allReal_powf (real_v10 x1) real_v11

/-- Stage %19, entries gathered from %12, is real. -/
theorem real_v19 :
    AllReal (s := S1700000) (val_main_v19 (F := Ideal) x1) := by
  unfold val_main_v19
  exact allReal_gather _ _ (real_v12 x1)

/-- Stage %26, entries gathered from %12, is real. -/
theorem real_v26 :
    AllReal (s := S1700000) (val_main_v26 (F := Ideal) x1) := by
  unfold val_main_v26
  exact allReal_gather _ _ (real_v12 x1)

/-- Stage %27, %19 times %26, is real. -/
theorem real_v27 :
    AllReal (s := S1700000) (val_main_v27 (F := Ideal) x1) := by
  unfold val_main_v27
  exact allReal_mulf (real_v19 x1) (real_v26 x1)

/-- Stage %28, the contraction of argument 0 with argument 6, is real. -/
theorem real_v28 (h0 : AllReal (s := S100000x128) x0) (h6 : AllReal (s := S128x128) x6) :
    AllReal (s := S100000x128) (val_main_v28 (F := Ideal) x0 x6) := by
  unfold val_main_v28
  exact allReal_dotGeneral _ _ h0 h6

/-- Stage %29, a broadcast of %27, is real. -/
theorem real_v29 :
    AllReal (s := S1700000x1) (val_main_v29 (F := Ideal) x1) := by
  unfold val_main_v29
  exact allReal_broadcastInDim _ _ (real_v27 x1)

/-- Stage %36, entries gathered from %28, is real. -/
theorem real_v36 (h0 : AllReal (s := S100000x128) x0) (h6 : AllReal (s := S128x128) x6) :
    AllReal (s := S1700000x128) (val_main_v36 (F := Ideal) x0 x1 x6) := by
  unfold val_main_v36
  exact allReal_gather _ _ (real_v28 x0 x6 h0 h6)

/-- Stage %37, a broadcast of %29, is real. -/
theorem real_v37 :
    AllReal (s := S1700000x128) (val_main_v37 (F := Ideal) x1) := by
  unfold val_main_v37
  exact allReal_broadcastInDim _ _ (real_v29 x1)

/-- Stage %38, %37 times %36, is real. -/
theorem real_v38 (h0 : AllReal (s := S100000x128) x0) (h6 : AllReal (s := S128x128) x6) :
    AllReal (s := S1700000x128) (val_main_v38 (F := Ideal) x0 x1 x6) := by
  unfold val_main_v38
  exact allReal_mulf (real_v37 x1) (real_v36 x0 x1 x6 h0 h6)

/-- Stage %cst_7, the constant 0, is real. -/
theorem real_cst_7 :
    AllReal (s := S_) (val_main_cst_7 (F := Ideal)) := by
  unfold val_main_cst_7
  exact allReal_constant _ ⟨_, ofBits_zero⟩

/-- Stage %39, a broadcast of %cst_7, is real. -/
theorem real_v39 :
    AllReal (s := S100000x128) (val_main_v39 (F := Ideal)) := by
  unfold val_main_v39
  exact allReal_broadcastInDim _ _ real_cst_7

/-- Stage %41, %39 plus scattered sums of entries of %38, is real. -/
theorem real_v41 (h0 : AllReal (s := S100000x128) x0) (h6 : AllReal (s := S128x128) x6) :
    AllReal (s := S100000x128) (val_main_v41 (F := Ideal) x0 x1 x6) := by
  unfold val_main_v41
  exact allReal_scatterAdd _ _ real_v39 (real_v38 x0 x1 x6 h0 h6)

/-- Stage %42, a broadcast of argument 7, is real. -/
theorem real_v42 (h7 : AllReal (s := S128) x7) :
    AllReal (s := S1x128) (val_main_v42 (F := Ideal) x7) := by
  unfold val_main_v42
  exact allReal_broadcastInDim _ _ h7

/-- Stage %43, a broadcast of %42, is real. -/
theorem real_v43 (h7 : AllReal (s := S128) x7) :
    AllReal (s := S100000x128) (val_main_v43 (F := Ideal) x7) := by
  unfold val_main_v43
  exact allReal_broadcastInDim _ _ (real_v42 x7 h7)

/-- Stage %44, %41 plus %43, is real. -/
theorem real_v44 (h0 : AllReal (s := S100000x128) x0) (h6 : AllReal (s := S128x128) x6)
    (h7 : AllReal (s := S128) x7) :
    AllReal (s := S100000x128) (val_main_v44 (F := Ideal) x0 x1 x6 x7) := by
  unfold val_main_v44
  exact allReal_addf (real_v41 x0 x1 x6 h0 h6) (real_v43 x7 h7)

/-- The zero constant of rectifier call 0, the constant 0, is real. -/
theorem real_call0_cst :
    AllReal (s := S_) (val_main_call0_cst (F := Ideal)) := by
  unfold val_main_call0_cst
  exact allReal_constant _ ⟨_, ofBits_zero⟩

/-- The zero array of rectifier call 0, a broadcast of the zero constant of rectifier call 0, is real. -/
theorem real_call0_v0 :
    AllReal (s := S100000x128) (val_main_call0_v0 (F := Ideal)) := by
  unfold val_main_call0_v0
  exact allReal_broadcastInDim _ _ real_call0_cst

/-- Stage %45, the maximum of %44 and the zero array of rectifier call 0, is real. -/
theorem real_v45 (h0 : AllReal (s := S100000x128) x0) (h6 : AllReal (s := S128x128) x6)
    (h7 : AllReal (s := S128) x7) :
    AllReal (s := S100000x128) (val_main_v45 (F := Ideal) x0 x1 x6 x7) := by
  unfold val_main_v45
  exact allReal_maximumf (real_v44 x0 x1 x6 x7 h0 h6 h7) real_call0_v0

/-- Stage %cst_8, the constant 0, is real. -/
theorem real_cst_8 :
    AllReal (s := S_) (val_main_cst_8 (F := Ideal)) := by
  unfold val_main_cst_8
  exact allReal_constant _ ⟨_, ofBits_zero⟩

/-- Stage %46, a broadcast of %cst_8, is real. -/
theorem real_v46 :
    AllReal (s := S20000x128) (val_main_v46 (F := Ideal)) := by
  unfold val_main_v46
  exact allReal_broadcastInDim _ _ real_cst_8

/-- Stage %48, %46 plus scattered sums of entries of %45, is real. -/
theorem real_v48 (h0 : AllReal (s := S100000x128) x0) (h6 : AllReal (s := S128x128) x6)
    (h7 : AllReal (s := S128) x7) :
    AllReal (s := S20000x128) (val_main_v48 (F := Ideal) x0 x1 x4 x6 x7) := by
  unfold val_main_v48
  exact allReal_scatterAdd _ _ real_v46 (real_v45 x0 x1 x6 x7 h0 h6 h7)

/-- Stage %49, a slice of argument 16, is real. -/
theorem real_v49 (h16 : AllReal (s := S4x128x128) x16) :
    AllReal (s := S1x128x128) (val_main_v49 (F := Ideal) x16) := by
  unfold val_main_v49
  exact allReal_slice _ _ h16

/-- Stage %50, a reshape of %49, is real. -/
theorem real_v50 (h16 : AllReal (s := S4x128x128) x16) :
    AllReal (s := S128x128) (val_main_v50 (F := Ideal) x16) := by
  unfold val_main_v50
  exact allReal_shapeCast _ (real_v49 x16 h16)

/-- Stage %51, a slice of argument 17, is real. -/
theorem real_v51 (h17 : AllReal (s := S4x128) x17) :
    AllReal (s := S1x128) (val_main_v51 (F := Ideal) x17) := by
  unfold val_main_v51
  exact allReal_slice _ _ h17

/-- Stage %52, a reshape of %51, is real. -/
theorem real_v52 (h17 : AllReal (s := S4x128) x17) :
    AllReal (s := S128) (val_main_v52 (F := Ideal) x17) := by
  unfold val_main_v52
  exact allReal_shapeCast _ (real_v51 x17 h17)

/-- Stage %53, a slice of argument 18, is real. -/
theorem real_v53 (h18 : AllReal (s := S4x128) x18) :
    AllReal (s := S1x128) (val_main_v53 (F := Ideal) x18) := by
  unfold val_main_v53
  exact allReal_slice _ _ h18

/-- Stage %54, a reshape of %53, is real. -/
theorem real_v54 (h18 : AllReal (s := S4x128) x18) :
    AllReal (s := S128) (val_main_v54 (F := Ideal) x18) := by
  unfold val_main_v54
  exact allReal_shapeCast _ (real_v53 x18 h18)

/-- Stage %55, a slice of argument 19, is real. -/
theorem real_v55 (h19 : AllReal (s := S4x128) x19) :
    AllReal (s := S1x128) (val_main_v55 (F := Ideal) x19) := by
  unfold val_main_v55
  exact allReal_slice _ _ h19

/-- Stage %56, a reshape of %55, is real. -/
theorem real_v56 (h19 : AllReal (s := S4x128) x19) :
    AllReal (s := S128) (val_main_v56 (F := Ideal) x19) := by
  unfold val_main_v56
  exact allReal_shapeCast _ (real_v55 x19 h19)

/-- Stage %57, a slice of argument 20, is real. -/
theorem real_v57 (h20 : AllReal (s := S4x128) x20) :
    AllReal (s := S1x128) (val_main_v57 (F := Ideal) x20) := by
  unfold val_main_v57
  exact allReal_slice _ _ h20

/-- Stage %58, a reshape of %57, is real. -/
theorem real_v58 (h20 : AllReal (s := S4x128) x20) :
    AllReal (s := S128) (val_main_v58 (F := Ideal) x20) := by
  unfold val_main_v58
  exact allReal_shapeCast _ (real_v57 x20 h20)

/-- Stage %59, a slice of argument 21, is nonnegative. -/
theorem nonneg_v59 (h21 : AllNonneg (s := S4x128) x21) :
    AllNonneg (s := S1x128) (val_main_v59 (F := Ideal) x21) := by
  unfold val_main_v59
  exact allNonneg_slice _ _ h21

/-- Stage %60, a reshape of %59, is nonnegative. -/
theorem nonneg_v60 (h21 : AllNonneg (s := S4x128) x21) :
    AllNonneg (s := S128) (val_main_v60 (F := Ideal) x21) := by
  unfold val_main_v60
  exact allNonneg_shapeCast _ (nonneg_v59 x21 h21)

/-- Stage %61, the contraction of %48 with %50, is real. -/
theorem real_v61 (h0 : AllReal (s := S100000x128) x0) (h6 : AllReal (s := S128x128) x6)
    (h7 : AllReal (s := S128) x7) (h16 : AllReal (s := S4x128x128) x16) :
    AllReal (s := S20000x128) (val_main_v61 (F := Ideal) x0 x1 x4 x6 x7 x16) := by
  unfold val_main_v61
  exact allReal_dotGeneral _ _ (real_v48 x0 x1 x4 x6 x7 h0 h6 h7) (real_v50 x16 h16)

/-- Stage %62, a broadcast of %52, is real. -/
theorem real_v62 (h17 : AllReal (s := S4x128) x17) :
    AllReal (s := S1x128) (val_main_v62 (F := Ideal) x17) := by
  unfold val_main_v62
  exact allReal_broadcastInDim _ _ (real_v52 x17 h17)

/-- Stage %63, a broadcast of %62, is real. -/
theorem real_v63 (h17 : AllReal (s := S4x128) x17) :
    AllReal (s := S20000x128) (val_main_v63 (F := Ideal) x17) := by
  unfold val_main_v63
  exact allReal_broadcastInDim _ _ (real_v62 x17 h17)

/-- Stage %64, %61 plus %63, is real. -/
theorem real_v64 (h0 : AllReal (s := S100000x128) x0) (h6 : AllReal (s := S128x128) x6)
    (h7 : AllReal (s := S128) x7) (h16 : AllReal (s := S4x128x128) x16) (h17 : AllReal (s := S4x128) x17) :
    AllReal (s := S20000x128) (val_main_v64 (F := Ideal) x0 x1 x4 x6 x7 x16 x17) := by
  unfold val_main_v64
  exact allReal_addf (real_v61 x0 x1 x4 x6 x7 x16 h0 h6 h7 h16) (real_v63 x17 h17)

/-- The zero constant of rectifier call 1, the constant 0, is real. -/
theorem real_call1_cst :
    AllReal (s := S_) (val_main_call1_cst (F := Ideal)) := by
  unfold val_main_call1_cst
  exact allReal_constant _ ⟨_, ofBits_zero⟩

/-- The zero array of rectifier call 1, a broadcast of the zero constant of rectifier call 1, is real. -/
theorem real_call1_v0 :
    AllReal (s := S20000x128) (val_main_call1_v0 (F := Ideal)) := by
  unfold val_main_call1_v0
  exact allReal_broadcastInDim _ _ real_call1_cst

/-- Stage %65, the maximum of %64 and the zero array of rectifier call 1, is real. -/
theorem real_v65 (h0 : AllReal (s := S100000x128) x0) (h6 : AllReal (s := S128x128) x6)
    (h7 : AllReal (s := S128) x7) (h16 : AllReal (s := S4x128x128) x16) (h17 : AllReal (s := S4x128) x17) :
    AllReal (s := S20000x128) (val_main_v65 (F := Ideal) x0 x1 x4 x6 x7 x16 x17) := by
  unfold val_main_v65
  exact allReal_maximumf (real_v64 x0 x1 x4 x6 x7 x16 x17 h0 h6 h7 h16 h17) real_call1_v0

/-- Stage %66, a broadcast of %58, is real. -/
theorem real_v66 (h20 : AllReal (s := S4x128) x20) :
    AllReal (s := S1x128) (val_main_v66 (F := Ideal) x20) := by
  unfold val_main_v66
  exact allReal_broadcastInDim _ _ (real_v58 x20 h20)

/-- Stage %67, a broadcast of %66, is real. -/
theorem real_v67 (h20 : AllReal (s := S4x128) x20) :
    AllReal (s := S20000x128) (val_main_v67 (F := Ideal) x20) := by
  unfold val_main_v67
  exact allReal_broadcastInDim _ _ (real_v66 x20 h20)

/-- Stage %68, %65 minus %67, is real. -/
theorem real_v68 (h0 : AllReal (s := S100000x128) x0) (h6 : AllReal (s := S128x128) x6)
    (h7 : AllReal (s := S128) x7) (h16 : AllReal (s := S4x128x128) x16) (h17 : AllReal (s := S4x128) x17)
    (h20 : AllReal (s := S4x128) x20) :
    AllReal (s := S20000x128) (val_main_v68 (F := Ideal) x0 x1 x4 x6 x7 x16 x17 x20) := by
  unfold val_main_v68
  exact allReal_subf (real_v65 x0 x1 x4 x6 x7 x16 x17 h0 h6 h7 h16 h17) (real_v67 x20 h20)

/-- Stage %cst_9, the constant 1e-5 (single precision), is positive. -/
theorem pos_cst_9 :
    AllPos (s := S_) (val_main_cst_9 (F := Ideal)) := by
  unfold val_main_cst_9
  exact allPos_constant _ ofBits_eps

/-- Stage %69, a broadcast of %cst_9, is positive. -/
theorem pos_v69 :
    AllPos (s := S128) (val_main_v69 (F := Ideal)) := by
  unfold val_main_v69
  exact allPos_broadcastInDim _ _ pos_cst_9

/-- Stage %70, %60 plus %69, is positive. -/
theorem pos_v70 (h21 : AllNonneg (s := S4x128) x21) :
    AllPos (s := S128) (val_main_v70 (F := Ideal) x21) := by
  unfold val_main_v70
  exact allPos_addf (nonneg_v60 x21 h21) pos_v69

/-- Stage %71, the square root of %70, is positive. -/
theorem pos_v71 (h21 : AllNonneg (s := S4x128) x21) :
    AllPos (s := S128) (val_main_v71 (F := Ideal) x21) := by
  unfold val_main_v71
  exact allPos_sqrt (pos_v70 x21 h21)

/-- Stage %72, %54 divided by %71, is real. -/
theorem real_v72 (h18 : AllReal (s := S4x128) x18) (h21 : AllNonneg (s := S4x128) x21) :
    AllReal (s := S128) (val_main_v72 (F := Ideal) x18 x21) := by
  unfold val_main_v72
  exact allReal_divf (real_v54 x18 h18) (pos_v71 x21 h21)

/-- Stage %73, a broadcast of %72, is real. -/
theorem real_v73 (h18 : AllReal (s := S4x128) x18) (h21 : AllNonneg (s := S4x128) x21) :
    AllReal (s := S1x128) (val_main_v73 (F := Ideal) x18 x21) := by
  unfold val_main_v73
  exact allReal_broadcastInDim _ _ (real_v72 x18 x21 h18 h21)

/-- Stage %74, a broadcast of %73, is real. -/
theorem real_v74 (h18 : AllReal (s := S4x128) x18) (h21 : AllNonneg (s := S4x128) x21) :
    AllReal (s := S20000x128) (val_main_v74 (F := Ideal) x18 x21) := by
  unfold val_main_v74
  exact allReal_broadcastInDim _ _ (real_v73 x18 x21 h18 h21)

/-- Stage %75, %68 times %74, is real. -/
theorem real_v75 (h0 : AllReal (s := S100000x128) x0) (h6 : AllReal (s := S128x128) x6)
    (h7 : AllReal (s := S128) x7) (h16 : AllReal (s := S4x128x128) x16) (h17 : AllReal (s := S4x128) x17)
    (h18 : AllReal (s := S4x128) x18) (h20 : AllReal (s := S4x128) x20) (h21 : AllNonneg (s := S4x128) x21) :
    AllReal (s := S20000x128) (val_main_v75 (F := Ideal) x0 x1 x4 x6 x7 x16 x17 x18 x20 x21) := by
  unfold val_main_v75
  exact allReal_mulf (real_v68 x0 x1 x4 x6 x7 x16 x17 x20 h0 h6 h7 h16 h17 h20) (real_v74 x18 x21 h18 h21)

/-- Stage %76, a broadcast of %56, is real. -/
theorem real_v76 (h19 : AllReal (s := S4x128) x19) :
    AllReal (s := S1x128) (val_main_v76 (F := Ideal) x19) := by
  unfold val_main_v76
  exact allReal_broadcastInDim _ _ (real_v56 x19 h19)

/-- Stage %77, a broadcast of %76, is real. -/
theorem real_v77 (h19 : AllReal (s := S4x128) x19) :
    AllReal (s := S20000x128) (val_main_v77 (F := Ideal) x19) := by
  unfold val_main_v77
  exact allReal_broadcastInDim _ _ (real_v76 x19 h19)

/-- Stage %78, %75 plus %77, is real. -/
theorem real_v78 (h0 : AllReal (s := S100000x128) x0) (h6 : AllReal (s := S128x128) x6)
    (h7 : AllReal (s := S128) x7) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S20000x128) (val_main_v78 (F := Ideal) x0 x1 x4 x6 x7 x16 x17 x18 x19 x20 x21) := by
  unfold val_main_v78
  exact allReal_addf (real_v75 x0 x1 x4 x6 x7 x16 x17 x18 x20 x21 h0 h6 h7 h16 h17 h18 h20 h21) (real_v77 x19 h19)

/-- The zero constant of rectifier call 2, the constant 0, is real. -/
theorem real_call2_cst :
    AllReal (s := S_) (val_main_call2_cst (F := Ideal)) := by
  unfold val_main_call2_cst
  exact allReal_constant _ ⟨_, ofBits_zero⟩

/-- The zero array of rectifier call 2, a broadcast of the zero constant of rectifier call 2, is real. -/
theorem real_call2_v0 :
    AllReal (s := S20000x128) (val_main_call2_v0 (F := Ideal)) := by
  unfold val_main_call2_v0
  exact allReal_broadcastInDim _ _ real_call2_cst

/-- Stage %79, the maximum of %78 and the zero array of rectifier call 2, is real. -/
theorem real_v79 (h0 : AllReal (s := S100000x128) x0) (h6 : AllReal (s := S128x128) x6)
    (h7 : AllReal (s := S128) x7) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S20000x128) (val_main_v79 (F := Ideal) x0 x1 x4 x6 x7 x16 x17 x18 x19 x20 x21) := by
  unfold val_main_v79
  exact allReal_maximumf (real_v78 x0 x1 x4 x6 x7 x16 x17 x18 x19 x20 x21 h0 h6 h7 h16 h17 h18 h19 h20 h21) real_call2_v0

/-- Stage %cst_10, the constant 1, is real. -/
theorem real_cst_10 :
    AllReal (s := S_) (val_main_cst_10 (F := Ideal)) := by
  unfold val_main_cst_10
  exact allReal_constant _ ⟨_, ofBits_one⟩

/-- Stage %87, a broadcast of %cst_10, is real. -/
theorem real_v87 :
    AllReal (s := S340000) (val_main_v87 (F := Ideal)) := by
  unfold val_main_v87
  exact allReal_broadcastInDim _ _ real_cst_10

/-- Stage %cst_11, the constant 0, is real. -/
theorem real_cst_11 :
    AllReal (s := S_) (val_main_cst_11 (F := Ideal)) := by
  unfold val_main_cst_11
  exact allReal_constant _ ⟨_, ofBits_zero⟩

/-- Stage %88, a broadcast of %cst_11, is real. -/
theorem real_v88 :
    AllReal (s := S20000) (val_main_v88 (F := Ideal)) := by
  unfold val_main_v88
  exact allReal_broadcastInDim _ _ real_cst_11

/-- Stage %90, %88 plus scattered sums of entries of %87, is real. -/
theorem real_v90 :
    AllReal (s := S20000) (val_main_v90 (F := Ideal) x2) := by
  unfold val_main_v90
  exact allReal_scatterAdd _ _ real_v88 real_v87

/-- Stage %cst_12, the constant -1/2, is real. -/
theorem real_cst_12 :
    AllReal (s := S_) (val_main_cst_12 (F := Ideal)) := by
  unfold val_main_cst_12
  exact allReal_constant _ ⟨_, ofBits_neg_half⟩

/-- Stage %91, a broadcast of %cst_12, is real. -/
theorem real_v91 :
    AllReal (s := S20000) (val_main_v91 (F := Ideal)) := by
  unfold val_main_v91
  exact allReal_broadcastInDim _ _ real_cst_12

/-- Stage %92, %90 to the power %91, is real. -/
theorem real_v92 :
    AllReal (s := S20000) (val_main_v92 (F := Ideal) x2) := by
  unfold val_main_v92
  exact allReal_powf (real_v90 x2) real_v91

/-- Stage %99, entries gathered from %92, is real. -/
theorem real_v99 :
    AllReal (s := S340000) (val_main_v99 (F := Ideal) x2) := by
  unfold val_main_v99
  exact allReal_gather _ _ (real_v92 x2)

/-- Stage %106, entries gathered from %92, is real. -/
theorem real_v106 :
    AllReal (s := S340000) (val_main_v106 (F := Ideal) x2) := by
  unfold val_main_v106
  exact allReal_gather _ _ (real_v92 x2)

/-- Stage %107, %99 times %106, is real. -/
theorem real_v107 :
    AllReal (s := S340000) (val_main_v107 (F := Ideal) x2) := by
  unfold val_main_v107
  exact allReal_mulf (real_v99 x2) (real_v106 x2)

/-- Stage %108, the contraction of %79 with argument 8, is real. -/
theorem real_v108 (h0 : AllReal (s := S100000x128) x0) (h6 : AllReal (s := S128x128) x6)
    (h7 : AllReal (s := S128) x7) (h8 : AllReal (s := S128x128) x8) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v108 (F := Ideal) x0 x1 x4 x6 x7 x8 x16 x17 x18 x19 x20 x21) := by
  unfold val_main_v108
  exact allReal_dotGeneral _ _ (real_v79 x0 x1 x4 x6 x7 x16 x17 x18 x19 x20 x21 h0 h6 h7 h16 h17 h18 h19 h20 h21) h8

/-- Stage %109, a broadcast of %107, is real. -/
theorem real_v109 :
    AllReal (s := S340000x1) (val_main_v109 (F := Ideal) x2) := by
  unfold val_main_v109
  exact allReal_broadcastInDim _ _ (real_v107 x2)

/-- Stage %116, entries gathered from %108, is real. -/
theorem real_v116 (h0 : AllReal (s := S100000x128) x0) (h6 : AllReal (s := S128x128) x6)
    (h7 : AllReal (s := S128) x7) (h8 : AllReal (s := S128x128) x8) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S340000x128) (val_main_v116 (F := Ideal) x0 x1 x2 x4 x6 x7 x8 x16 x17 x18 x19 x20 x21) := by
  unfold val_main_v116
  exact allReal_gather _ _ (real_v108 x0 x1 x4 x6 x7 x8 x16 x17 x18 x19 x20 x21 h0 h6 h7 h8 h16 h17 h18 h19 h20 h21)

/-- Stage %117, a broadcast of %109, is real. -/
theorem real_v117 :
    AllReal (s := S340000x128) (val_main_v117 (F := Ideal) x2) := by
  unfold val_main_v117
  exact allReal_broadcastInDim _ _ (real_v109 x2)

/-- Stage %118, %117 times %116, is real. -/
theorem real_v118 (h0 : AllReal (s := S100000x128) x0) (h6 : AllReal (s := S128x128) x6)
    (h7 : AllReal (s := S128) x7) (h8 : AllReal (s := S128x128) x8) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S340000x128) (val_main_v118 (F := Ideal) x0 x1 x2 x4 x6 x7 x8 x16 x17 x18 x19 x20 x21) := by
  unfold val_main_v118
  exact allReal_mulf (real_v117 x2)
    (real_v116 x0 x1 x2 x4 x6 x7 x8 x16 x17 x18 x19 x20 x21 h0 h6 h7 h8 h16 h17 h18 h19 h20 h21)

/-- Stage %cst_19, the constant 0, is real. -/
theorem real_cst_19 :
    AllReal (s := S_) (val_main_cst_19 (F := Ideal)) := by
  unfold val_main_cst_19
  exact allReal_constant _ ⟨_, ofBits_zero⟩

/-- Stage %119, a broadcast of %cst_19, is real. -/
theorem real_v119 :
    AllReal (s := S20000x128) (val_main_v119 (F := Ideal)) := by
  unfold val_main_v119
  exact allReal_broadcastInDim _ _ real_cst_19

/-- Stage %121, %119 plus scattered sums of entries of %118, is real. -/
theorem real_v121 (h0 : AllReal (s := S100000x128) x0) (h6 : AllReal (s := S128x128) x6)
    (h7 : AllReal (s := S128) x7) (h8 : AllReal (s := S128x128) x8) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v121 (F := Ideal) x0 x1 x2 x4 x6 x7 x8 x16 x17 x18 x19 x20 x21) := by
  unfold val_main_v121
  exact allReal_scatterAdd _ _ real_v119
    (real_v118 x0 x1 x2 x4 x6 x7 x8 x16 x17 x18 x19 x20 x21 h0 h6 h7 h8 h16 h17 h18 h19 h20 h21)

/-- Stage %122, a broadcast of argument 9, is real. -/
theorem real_v122 (h9 : AllReal (s := S128) x9) :
    AllReal (s := S1x128) (val_main_v122 (F := Ideal) x9) := by
  unfold val_main_v122
  exact allReal_broadcastInDim _ _ h9

/-- Stage %123, a broadcast of %122, is real. -/
theorem real_v123 (h9 : AllReal (s := S128) x9) :
    AllReal (s := S20000x128) (val_main_v123 (F := Ideal) x9) := by
  unfold val_main_v123
  exact allReal_broadcastInDim _ _ (real_v122 x9 h9)

/-- Stage %124, %121 plus %123, is real. -/
theorem real_v124 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S20000x128) (val_main_v124 (F := Ideal) x0 x1 x2 x4 x6 x7 x8 x9 x16 x17 x18 x19 x20 x21) := by
  unfold val_main_v124
  exact allReal_addf (real_v121 x0 x1 x2 x4 x6 x7 x8 x16 x17 x18 x19 x20 x21 h0 h6 h7 h8 h16 h17 h18 h19 h20 h21)
    (real_v123 x9 h9)

/-- The zero constant of rectifier call 3, the constant 0, is real. -/
theorem real_call3_cst :
    AllReal (s := S_) (val_main_call3_cst (F := Ideal)) := by
  unfold val_main_call3_cst
  exact allReal_constant _ ⟨_, ofBits_zero⟩

/-- The zero array of rectifier call 3, a broadcast of the zero constant of rectifier call 3, is real. -/
theorem real_call3_v0 :
    AllReal (s := S20000x128) (val_main_call3_v0 (F := Ideal)) := by
  unfold val_main_call3_v0
  exact allReal_broadcastInDim _ _ real_call3_cst

/-- Stage %125, the maximum of %124 and the zero array of rectifier call 3, is real. -/
theorem real_v125 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S20000x128) (val_main_v125 (F := Ideal) x0 x1 x2 x4 x6 x7 x8 x9 x16 x17 x18 x19 x20 x21) := by
  unfold val_main_v125
  exact allReal_maximumf (real_v124 x0 x1 x2 x4 x6 x7 x8 x9 x16 x17 x18 x19 x20 x21 h0 h6 h7 h8 h9 h16 h17 h18 h19 h20 h21)
    real_call3_v0

/-- Stage %cst_20, the constant 0, is real. -/
theorem real_cst_20 :
    AllReal (s := S_) (val_main_cst_20 (F := Ideal)) := by
  unfold val_main_cst_20
  exact allReal_constant _ ⟨_, ofBits_zero⟩

/-- Stage %126, a broadcast of %cst_20, is real. -/
theorem real_v126 :
    AllReal (s := S4000x128) (val_main_v126 (F := Ideal)) := by
  unfold val_main_v126
  exact allReal_broadcastInDim _ _ real_cst_20

/-- Stage %128, %126 plus scattered sums of entries of %125, is real. -/
theorem real_v128 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v128 (F := Ideal) x0 x1 x2 x4 x5 x6 x7 x8 x9 x16 x17 x18 x19 x20 x21) := by
  unfold val_main_v128
  exact allReal_scatterAdd _ _ real_v126
    (real_v125 x0 x1 x2 x4 x6 x7 x8 x9 x16 x17 x18 x19 x20 x21 h0 h6 h7 h8 h9 h16 h17 h18 h19 h20 h21)

/-- Stage %129, a slice of argument 16, is real. -/
theorem real_v129 (h16 : AllReal (s := S4x128x128) x16) :
    AllReal (s := S1x128x128) (val_main_v129 (F := Ideal) x16) := by
  unfold val_main_v129
  exact allReal_slice _ _ h16

/-- Stage %130, a reshape of %129, is real. -/
theorem real_v130 (h16 : AllReal (s := S4x128x128) x16) :
    AllReal (s := S128x128) (val_main_v130 (F := Ideal) x16) := by
  unfold val_main_v130
  exact allReal_shapeCast _ (real_v129 x16 h16)

/-- Stage %131, a slice of argument 17, is real. -/
theorem real_v131 (h17 : AllReal (s := S4x128) x17) :
    AllReal (s := S1x128) (val_main_v131 (F := Ideal) x17) := by
  unfold val_main_v131
  exact allReal_slice _ _ h17

/-- Stage %132, a reshape of %131, is real. -/
theorem real_v132 (h17 : AllReal (s := S4x128) x17) :
    AllReal (s := S128) (val_main_v132 (F := Ideal) x17) := by
  unfold val_main_v132
  exact allReal_shapeCast _ (real_v131 x17 h17)

/-- Stage %133, a slice of argument 18, is real. -/
theorem real_v133 (h18 : AllReal (s := S4x128) x18) :
    AllReal (s := S1x128) (val_main_v133 (F := Ideal) x18) := by
  unfold val_main_v133
  exact allReal_slice _ _ h18

/-- Stage %134, a reshape of %133, is real. -/
theorem real_v134 (h18 : AllReal (s := S4x128) x18) :
    AllReal (s := S128) (val_main_v134 (F := Ideal) x18) := by
  unfold val_main_v134
  exact allReal_shapeCast _ (real_v133 x18 h18)

/-- Stage %135, a slice of argument 19, is real. -/
theorem real_v135 (h19 : AllReal (s := S4x128) x19) :
    AllReal (s := S1x128) (val_main_v135 (F := Ideal) x19) := by
  unfold val_main_v135
  exact allReal_slice _ _ h19

/-- Stage %136, a reshape of %135, is real. -/
theorem real_v136 (h19 : AllReal (s := S4x128) x19) :
    AllReal (s := S128) (val_main_v136 (F := Ideal) x19) := by
  unfold val_main_v136
  exact allReal_shapeCast _ (real_v135 x19 h19)

/-- Stage %137, a slice of argument 20, is real. -/
theorem real_v137 (h20 : AllReal (s := S4x128) x20) :
    AllReal (s := S1x128) (val_main_v137 (F := Ideal) x20) := by
  unfold val_main_v137
  exact allReal_slice _ _ h20

/-- Stage %138, a reshape of %137, is real. -/
theorem real_v138 (h20 : AllReal (s := S4x128) x20) :
    AllReal (s := S128) (val_main_v138 (F := Ideal) x20) := by
  unfold val_main_v138
  exact allReal_shapeCast _ (real_v137 x20 h20)

/-- Stage %139, a slice of argument 21, is nonnegative. -/
theorem nonneg_v139 (h21 : AllNonneg (s := S4x128) x21) :
    AllNonneg (s := S1x128) (val_main_v139 (F := Ideal) x21) := by
  unfold val_main_v139
  exact allNonneg_slice _ _ h21

/-- Stage %140, a reshape of %139, is nonnegative. -/
theorem nonneg_v140 (h21 : AllNonneg (s := S4x128) x21) :
    AllNonneg (s := S128) (val_main_v140 (F := Ideal) x21) := by
  unfold val_main_v140
  exact allNonneg_shapeCast _ (nonneg_v139 x21 h21)

/-- Stage %141, the contraction of %128 with %130, is real. -/
theorem real_v141 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v141 (F := Ideal) x0 x1 x2 x4 x5 x6 x7 x8 x9 x16 x17 x18 x19 x20 x21) := by
  unfold val_main_v141
  exact allReal_dotGeneral _ _
    (real_v128 x0 x1 x2 x4 x5 x6 x7 x8 x9 x16 x17 x18 x19 x20 x21 h0 h6 h7 h8 h9 h16 h17 h18 h19 h20 h21)
    (real_v130 x16 h16)

/-- Stage %142, a broadcast of %132, is real. -/
theorem real_v142 (h17 : AllReal (s := S4x128) x17) :
    AllReal (s := S1x128) (val_main_v142 (F := Ideal) x17) := by
  unfold val_main_v142
  exact allReal_broadcastInDim _ _ (real_v132 x17 h17)

/-- Stage %143, a broadcast of %142, is real. -/
theorem real_v143 (h17 : AllReal (s := S4x128) x17) :
    AllReal (s := S4000x128) (val_main_v143 (F := Ideal) x17) := by
  unfold val_main_v143
  exact allReal_broadcastInDim _ _ (real_v142 x17 h17)

/-- Stage %144, %141 plus %143, is real. -/
theorem real_v144 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v144 (F := Ideal) x0 x1 x2 x4 x5 x6 x7 x8 x9 x16 x17 x18 x19 x20 x21) := by
  unfold val_main_v144
  exact allReal_addf (real_v141 x0 x1 x2 x4 x5 x6 x7 x8 x9 x16 x17 x18 x19 x20 x21 h0 h6 h7 h8 h9 h16 h17 h18 h19 h20 h21)
    (real_v143 x17 h17)

/-- The zero constant of rectifier call 4, the constant 0, is real. -/
theorem real_call4_cst :
    AllReal (s := S_) (val_main_call4_cst (F := Ideal)) := by
  unfold val_main_call4_cst
  exact allReal_constant _ ⟨_, ofBits_zero⟩

/-- The zero array of rectifier call 4, a broadcast of the zero constant of rectifier call 4, is real. -/
theorem real_call4_v0 :
    AllReal (s := S4000x128) (val_main_call4_v0 (F := Ideal)) := by
  unfold val_main_call4_v0
  exact allReal_broadcastInDim _ _ real_call4_cst

/-- Stage %145, the maximum of %144 and the zero array of rectifier call 4, is real. -/
theorem real_v145 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v145 (F := Ideal) x0 x1 x2 x4 x5 x6 x7 x8 x9 x16 x17 x18 x19 x20 x21) := by
  unfold val_main_v145
  exact allReal_maximumf
    (real_v144 x0 x1 x2 x4 x5 x6 x7 x8 x9 x16 x17 x18 x19 x20 x21 h0 h6 h7 h8 h9 h16 h17 h18 h19 h20 h21)
    real_call4_v0

/-- Stage %146, a broadcast of %138, is real. -/
theorem real_v146 (h20 : AllReal (s := S4x128) x20) :
    AllReal (s := S1x128) (val_main_v146 (F := Ideal) x20) := by
  unfold val_main_v146
  exact allReal_broadcastInDim _ _ (real_v138 x20 h20)

/-- Stage %147, a broadcast of %146, is real. -/
theorem real_v147 (h20 : AllReal (s := S4x128) x20) :
    AllReal (s := S4000x128) (val_main_v147 (F := Ideal) x20) := by
  unfold val_main_v147
  exact allReal_broadcastInDim _ _ (real_v146 x20 h20)

/-- Stage %148, %145 minus %147, is real. -/
theorem real_v148 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v148 (F := Ideal) x0 x1 x2 x4 x5 x6 x7 x8 x9 x16 x17 x18 x19 x20 x21) := by
  unfold val_main_v148
  exact allReal_subf (real_v145 x0 x1 x2 x4 x5 x6 x7 x8 x9 x16 x17 x18 x19 x20 x21 h0 h6 h7 h8 h9 h16 h17 h18 h19 h20 h21)
    (real_v147 x20 h20)

/-- Stage %cst_21, the constant 1e-5 (single precision), is positive. -/
theorem pos_cst_21 :
    AllPos (s := S_) (val_main_cst_21 (F := Ideal)) := by
  unfold val_main_cst_21
  exact allPos_constant _ ofBits_eps

/-- Stage %149, a broadcast of %cst_21, is positive. -/
theorem pos_v149 :
    AllPos (s := S128) (val_main_v149 (F := Ideal)) := by
  unfold val_main_v149
  exact allPos_broadcastInDim _ _ pos_cst_21

/-- Stage %150, %140 plus %149, is positive. -/
theorem pos_v150 (h21 : AllNonneg (s := S4x128) x21) :
    AllPos (s := S128) (val_main_v150 (F := Ideal) x21) := by
  unfold val_main_v150
  exact allPos_addf (nonneg_v140 x21 h21) pos_v149

/-- Stage %151, the square root of %150, is positive. -/
theorem pos_v151 (h21 : AllNonneg (s := S4x128) x21) :
    AllPos (s := S128) (val_main_v151 (F := Ideal) x21) := by
  unfold val_main_v151
  exact allPos_sqrt (pos_v150 x21 h21)

/-- Stage %152, %134 divided by %151, is real. -/
theorem real_v152 (h18 : AllReal (s := S4x128) x18) (h21 : AllNonneg (s := S4x128) x21) :
    AllReal (s := S128) (val_main_v152 (F := Ideal) x18 x21) := by
  unfold val_main_v152
  exact allReal_divf (real_v134 x18 h18) (pos_v151 x21 h21)

/-- Stage %153, a broadcast of %152, is real. -/
theorem real_v153 (h18 : AllReal (s := S4x128) x18) (h21 : AllNonneg (s := S4x128) x21) :
    AllReal (s := S1x128) (val_main_v153 (F := Ideal) x18 x21) := by
  unfold val_main_v153
  exact allReal_broadcastInDim _ _ (real_v152 x18 x21 h18 h21)

/-- Stage %154, a broadcast of %153, is real. -/
theorem real_v154 (h18 : AllReal (s := S4x128) x18) (h21 : AllNonneg (s := S4x128) x21) :
    AllReal (s := S4000x128) (val_main_v154 (F := Ideal) x18 x21) := by
  unfold val_main_v154
  exact allReal_broadcastInDim _ _ (real_v153 x18 x21 h18 h21)

/-- Stage %155, %148 times %154, is real. -/
theorem real_v155 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v155 (F := Ideal) x0 x1 x2 x4 x5 x6 x7 x8 x9 x16 x17 x18 x19 x20 x21) := by
  unfold val_main_v155
  exact allReal_mulf (real_v148 x0 x1 x2 x4 x5 x6 x7 x8 x9 x16 x17 x18 x19 x20 x21 h0 h6 h7 h8 h9 h16 h17 h18 h19 h20 h21)
    (real_v154 x18 x21 h18 h21)

/-- Stage %156, a broadcast of %136, is real. -/
theorem real_v156 (h19 : AllReal (s := S4x128) x19) :
    AllReal (s := S1x128) (val_main_v156 (F := Ideal) x19) := by
  unfold val_main_v156
  exact allReal_broadcastInDim _ _ (real_v136 x19 h19)

/-- Stage %157, a broadcast of %156, is real. -/
theorem real_v157 (h19 : AllReal (s := S4x128) x19) :
    AllReal (s := S4000x128) (val_main_v157 (F := Ideal) x19) := by
  unfold val_main_v157
  exact allReal_broadcastInDim _ _ (real_v156 x19 h19)

/-- Stage %158, %155 plus %157, is real. -/
theorem real_v158 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v158 (F := Ideal) x0 x1 x2 x4 x5 x6 x7 x8 x9 x16 x17 x18 x19 x20 x21) := by
  unfold val_main_v158
  exact allReal_addf (real_v155 x0 x1 x2 x4 x5 x6 x7 x8 x9 x16 x17 x18 x19 x20 x21 h0 h6 h7 h8 h9 h16 h17 h18 h19 h20 h21)
    (real_v157 x19 h19)

/-- The zero constant of rectifier call 5, the constant 0, is real. -/
theorem real_call5_cst :
    AllReal (s := S_) (val_main_call5_cst (F := Ideal)) := by
  unfold val_main_call5_cst
  exact allReal_constant _ ⟨_, ofBits_zero⟩

/-- The zero array of rectifier call 5, a broadcast of the zero constant of rectifier call 5, is real. -/
theorem real_call5_v0 :
    AllReal (s := S4000x128) (val_main_call5_v0 (F := Ideal)) := by
  unfold val_main_call5_v0
  exact allReal_broadcastInDim _ _ real_call5_cst

/-- Stage %159, the maximum of %158 and the zero array of rectifier call 5, is real. -/
theorem real_v159 (h0 : AllReal (s := S100000x128) x0) (h6 : AllReal (s := S128x128) x6)
    (h7 : AllReal (s := S128) x7) (h8 : AllReal (s := S128x128) x8) (h9 : AllReal (s := S128) x9)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S4000x128) (val_main_v159 (F := Ideal) x0 x1 x2 x4 x5 x6 x7 x8 x9 x16 x17 x18 x19 x20 x21) := by
  unfold val_main_v159
  exact allReal_maximumf
    (real_v158 x0 x1 x2 x4 x5 x6 x7 x8 x9 x16 x17 x18 x19 x20 x21 h0 h6 h7 h8 h9 h16 h17 h18 h19 h20 h21)
    real_call5_v0

/-- Stage %cst_22, the constant 1, is real. -/
theorem real_cst_22 :
    AllReal (s := S_) (val_main_cst_22 (F := Ideal)) := by
  unfold val_main_cst_22
  exact allReal_constant _ ⟨_, ofBits_one⟩

/-- Stage %167, a broadcast of %cst_22, is real. -/
theorem real_v167 :
    AllReal (s := S68000) (val_main_v167 (F := Ideal)) := by
  unfold val_main_v167
  exact allReal_broadcastInDim _ _ real_cst_22

/-- Stage %cst_23, the constant 0, is real. -/
theorem real_cst_23 :
    AllReal (s := S_) (val_main_cst_23 (F := Ideal)) := by
  unfold val_main_cst_23
  exact allReal_constant _ ⟨_, ofBits_zero⟩

/-- Stage %168, a broadcast of %cst_23, is real. -/
theorem real_v168 :
    AllReal (s := S4000) (val_main_v168 (F := Ideal)) := by
  unfold val_main_v168
  exact allReal_broadcastInDim _ _ real_cst_23

/-- Stage %170, %168 plus scattered sums of entries of %167, is real. -/
theorem real_v170 :
    AllReal (s := S4000) (val_main_v170 (F := Ideal) x3) := by
  unfold val_main_v170
  exact allReal_scatterAdd _ _ real_v168 real_v167

/-- Stage %cst_24, the constant -1/2, is real. -/
theorem real_cst_24 :
    AllReal (s := S_) (val_main_cst_24 (F := Ideal)) := by
  unfold val_main_cst_24
  exact allReal_constant _ ⟨_, ofBits_neg_half⟩

/-- Stage %171, a broadcast of %cst_24, is real. -/
theorem real_v171 :
    AllReal (s := S4000) (val_main_v171 (F := Ideal)) := by
  unfold val_main_v171
  exact allReal_broadcastInDim _ _ real_cst_24

/-- Stage %172, %170 to the power %171, is real. -/
theorem real_v172 :
    AllReal (s := S4000) (val_main_v172 (F := Ideal) x3) := by
  unfold val_main_v172
  exact allReal_powf (real_v170 x3) real_v171

/-- Stage %179, entries gathered from %172, is real. -/
theorem real_v179 :
    AllReal (s := S68000) (val_main_v179 (F := Ideal) x3) := by
  unfold val_main_v179
  exact allReal_gather _ _ (real_v172 x3)

/-- Stage %186, entries gathered from %172, is real. -/
theorem real_v186 :
    AllReal (s := S68000) (val_main_v186 (F := Ideal) x3) := by
  unfold val_main_v186
  exact allReal_gather _ _ (real_v172 x3)

/-- Stage %187, %179 times %186, is real. -/
theorem real_v187 :
    AllReal (s := S68000) (val_main_v187 (F := Ideal) x3) := by
  unfold val_main_v187
  exact allReal_mulf (real_v179 x3) (real_v186 x3)

/-- Stage %188, the contraction of %159 with argument 10, is real. -/
theorem real_v188 (h0 : AllReal (s := S100000x128) x0) (h6 : AllReal (s := S128x128) x6)
    (h7 : AllReal (s := S128) x7) (h8 : AllReal (s := S128x128) x8) (h9 : AllReal (s := S128) x9)
    (h10 : AllReal (s := S128x128) x10) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S4000x128) (val_main_v188 (F := Ideal) x0 x1 x2 x4 x5 x6 x7 x8 x9 x10 x16 x17 x18 x19 x20 x21) := by
  unfold val_main_v188
  exact allReal_dotGeneral _ _
    (real_v159 x0 x1 x2 x4 x5 x6 x7 x8 x9 x16 x17 x18 x19 x20 x21 h0 h6 h7 h8 h9 h16 h17 h18 h19 h20 h21) h10

/-- Stage %189, a broadcast of %187, is real. -/
theorem real_v189 :
    AllReal (s := S68000x1) (val_main_v189 (F := Ideal) x3) := by
  unfold val_main_v189
  exact allReal_broadcastInDim _ _ (real_v187 x3)

/-- Stage %196, entries gathered from %188, is real. -/
theorem real_v196 (h0 : AllReal (s := S100000x128) x0) (h6 : AllReal (s := S128x128) x6)
    (h7 : AllReal (s := S128) x7) (h8 : AllReal (s := S128x128) x8) (h9 : AllReal (s := S128) x9)
    (h10 : AllReal (s := S128x128) x10) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S68000x128) (val_main_v196 (F := Ideal) x0 x1 x2 x3 x4 x5 x6 x7 x8 x9 x10 x16 x17 x18 x19 x20 x21) := by
  unfold val_main_v196
  exact allReal_gather _ _
    (real_v188 x0 x1 x2 x4 x5 x6 x7 x8 x9 x10 x16 x17 x18 x19 x20 x21 h0 h6 h7 h8 h9 h10 h16 h17 h18 h19 h20 h21)

/-- Stage %197, a broadcast of %189, is real. -/
theorem real_v197 :
    AllReal (s := S68000x128) (val_main_v197 (F := Ideal) x3) := by
  unfold val_main_v197
  exact allReal_broadcastInDim _ _ (real_v189 x3)

/-- Stage %198, %197 times %196, is real. -/
theorem real_v198 (h0 : AllReal (s := S100000x128) x0) (h6 : AllReal (s := S128x128) x6)
    (h7 : AllReal (s := S128) x7) (h8 : AllReal (s := S128x128) x8) (h9 : AllReal (s := S128) x9)
    (h10 : AllReal (s := S128x128) x10) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S68000x128) (val_main_v198 (F := Ideal) x0 x1 x2 x3 x4 x5 x6 x7 x8 x9 x10 x16 x17 x18 x19 x20 x21) := by
  unfold val_main_v198
  exact allReal_mulf (real_v197 x3)
    (real_v196 x0 x1 x2 x3 x4 x5 x6 x7 x8 x9 x10 x16 x17 x18 x19 x20 x21 h0 h6 h7 h8 h9 h10 h16 h17 h18 h19 h20 h21)

/-- Stage %cst_31, the constant 0, is real. -/
theorem real_cst_31 :
    AllReal (s := S_) (val_main_cst_31 (F := Ideal)) := by
  unfold val_main_cst_31
  exact allReal_constant _ ⟨_, ofBits_zero⟩

/-- Stage %199, a broadcast of %cst_31, is real. -/
theorem real_v199 :
    AllReal (s := S4000x128) (val_main_v199 (F := Ideal)) := by
  unfold val_main_v199
  exact allReal_broadcastInDim _ _ real_cst_31

/-- Stage %201, %199 plus scattered sums of entries of %198, is real. -/
theorem real_v201 (h0 : AllReal (s := S100000x128) x0) (h6 : AllReal (s := S128x128) x6)
    (h7 : AllReal (s := S128) x7) (h8 : AllReal (s := S128x128) x8) (h9 : AllReal (s := S128) x9)
    (h10 : AllReal (s := S128x128) x10) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S4000x128) (val_main_v201 (F := Ideal) x0 x1 x2 x3 x4 x5 x6 x7 x8 x9 x10 x16 x17 x18 x19 x20 x21) := by
  unfold val_main_v201
  exact allReal_scatterAdd _ _ real_v199
    (real_v198 x0 x1 x2 x3 x4 x5 x6 x7 x8 x9 x10 x16 x17 x18 x19 x20 x21 h0 h6 h7 h8 h9 h10 h16 h17 h18 h19 h20 h21)

/-- Stage %202, a broadcast of argument 11, is real. -/
theorem real_v202 (h11 : AllReal (s := S128) x11) :
    AllReal (s := S1x128) (val_main_v202 (F := Ideal) x11) := by
  unfold val_main_v202
  exact allReal_broadcastInDim _ _ h11

/-- Stage %203, a broadcast of %202, is real. -/
theorem real_v203 (h11 : AllReal (s := S128) x11) :
    AllReal (s := S4000x128) (val_main_v203 (F := Ideal) x11) := by
  unfold val_main_v203
  exact allReal_broadcastInDim _ _ (real_v202 x11 h11)

/-- Stage %204, %201 plus %203, is real. -/
theorem real_v204 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S4000x128) (val_main_v204 (F := Ideal) x0 x1 x2 x3 x4 x5 x6 x7 x8 x9 x10 x11 x16 x17 x18 x19 x20
      x21) := by
  unfold val_main_v204
  exact allReal_addf
    (real_v201 x0 x1 x2 x3 x4 x5 x6 x7 x8 x9 x10 x16 x17 x18 x19 x20 x21 h0 h6 h7 h8 h9 h10 h16 h17 h18 h19 h20 h21)
    (real_v203 x11 h11)

/-- The zero constant of rectifier call 6, the constant 0, is real. -/
theorem real_call6_cst :
    AllReal (s := S_) (val_main_call6_cst (F := Ideal)) := by
  unfold val_main_call6_cst
  exact allReal_constant _ ⟨_, ofBits_zero⟩

/-- The zero array of rectifier call 6, a broadcast of the zero constant of rectifier call 6, is real. -/
theorem real_call6_v0 :
    AllReal (s := S4000x128) (val_main_call6_v0 (F := Ideal)) := by
  unfold val_main_call6_v0
  exact allReal_broadcastInDim _ _ real_call6_cst

/-- Stage %205, the maximum of %204 and the zero array of rectifier call 6, is real. -/
theorem real_v205 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S4000x128) (val_main_v205 (F := Ideal) x0 x1 x2 x3 x4 x5 x6 x7 x8 x9 x10 x11 x16 x17 x18 x19 x20
      x21) := by
  unfold val_main_v205
  exact allReal_maximumf
    (real_v204 x0 x1 x2 x3 x4 x5 x6 x7 x8 x9 x10 x11 x16 x17 x18 x19 x20 x21 h0 h6 h7 h8 h9 h10 h11 h16 h17 h18 h19
      h20 h21)
    real_call6_v0

/-- Stage %212, entries gathered from %205, is real. -/
theorem real_v212 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v212 (F := Ideal) x0 x1 x2 x3 x4 x5 x6 x7 x8 x9 x10 x11 x16 x17 x18 x19 x20
      x21) := by
  unfold val_main_v212
  exact allReal_gather _ _
    (real_v205 x0 x1 x2 x3 x4 x5 x6 x7 x8 x9 x10 x11 x16 x17 x18 x19 x20 x21 h0 h6 h7 h8 h9 h10 h11 h16 h17 h18 h19
      h20 h21)

/-- Stage %213, a slice of argument 16, is real. -/
theorem real_v213 (h16 : AllReal (s := S4x128x128) x16) :
    AllReal (s := S1x128x128) (val_main_v213 (F := Ideal) x16) := by
  unfold val_main_v213
  exact allReal_slice _ _ h16

/-- Stage %214, a reshape of %213, is real. -/
theorem real_v214 (h16 : AllReal (s := S4x128x128) x16) :
    AllReal (s := S128x128) (val_main_v214 (F := Ideal) x16) := by
  unfold val_main_v214
  exact allReal_shapeCast _ (real_v213 x16 h16)

/-- Stage %215, a slice of argument 17, is real. -/
theorem real_v215 (h17 : AllReal (s := S4x128) x17) :
    AllReal (s := S1x128) (val_main_v215 (F := Ideal) x17) := by
  unfold val_main_v215
  exact allReal_slice _ _ h17

/-- Stage %216, a reshape of %215, is real. -/
theorem real_v216 (h17 : AllReal (s := S4x128) x17) :
    AllReal (s := S128) (val_main_v216 (F := Ideal) x17) := by
  unfold val_main_v216
  exact allReal_shapeCast _ (real_v215 x17 h17)

/-- Stage %217, a slice of argument 18, is real. -/
theorem real_v217 (h18 : AllReal (s := S4x128) x18) :
    AllReal (s := S1x128) (val_main_v217 (F := Ideal) x18) := by
  unfold val_main_v217
  exact allReal_slice _ _ h18

/-- Stage %218, a reshape of %217, is real. -/
theorem real_v218 (h18 : AllReal (s := S4x128) x18) :
    AllReal (s := S128) (val_main_v218 (F := Ideal) x18) := by
  unfold val_main_v218
  exact allReal_shapeCast _ (real_v217 x18 h18)

/-- Stage %219, a slice of argument 19, is real. -/
theorem real_v219 (h19 : AllReal (s := S4x128) x19) :
    AllReal (s := S1x128) (val_main_v219 (F := Ideal) x19) := by
  unfold val_main_v219
  exact allReal_slice _ _ h19

/-- Stage %220, a reshape of %219, is real. -/
theorem real_v220 (h19 : AllReal (s := S4x128) x19) :
    AllReal (s := S128) (val_main_v220 (F := Ideal) x19) := by
  unfold val_main_v220
  exact allReal_shapeCast _ (real_v219 x19 h19)

/-- Stage %221, a slice of argument 20, is real. -/
theorem real_v221 (h20 : AllReal (s := S4x128) x20) :
    AllReal (s := S1x128) (val_main_v221 (F := Ideal) x20) := by
  unfold val_main_v221
  exact allReal_slice _ _ h20

/-- Stage %222, a reshape of %221, is real. -/
theorem real_v222 (h20 : AllReal (s := S4x128) x20) :
    AllReal (s := S128) (val_main_v222 (F := Ideal) x20) := by
  unfold val_main_v222
  exact allReal_shapeCast _ (real_v221 x20 h20)

/-- Stage %223, a slice of argument 21, is nonnegative. -/
theorem nonneg_v223 (h21 : AllNonneg (s := S4x128) x21) :
    AllNonneg (s := S1x128) (val_main_v223 (F := Ideal) x21) := by
  unfold val_main_v223
  exact allNonneg_slice _ _ h21

/-- Stage %224, a reshape of %223, is nonnegative. -/
theorem nonneg_v224 (h21 : AllNonneg (s := S4x128) x21) :
    AllNonneg (s := S128) (val_main_v224 (F := Ideal) x21) := by
  unfold val_main_v224
  exact allNonneg_shapeCast _ (nonneg_v223 x21 h21)

/-- Stage %225, the contraction of %212 with %214, is real. -/
theorem real_v225 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v225 (F := Ideal) x0 x1 x2 x3 x4 x5 x6 x7 x8 x9 x10 x11 x16 x17 x18 x19 x20
      x21) := by
  unfold val_main_v225
  exact allReal_dotGeneral _ _
    (real_v212 x0 x1 x2 x3 x4 x5 x6 x7 x8 x9 x10 x11 x16 x17 x18 x19 x20 x21 h0 h6 h7 h8 h9 h10 h11 h16 h17 h18 h19
      h20 h21)
    (real_v214 x16 h16)

/-- Stage %226, a broadcast of %216, is real. -/
theorem real_v226 (h17 : AllReal (s := S4x128) x17) :
    AllReal (s := S1x128) (val_main_v226 (F := Ideal) x17) := by
  unfold val_main_v226
  exact allReal_broadcastInDim _ _ (real_v216 x17 h17)

/-- Stage %227, a broadcast of %226, is real. -/
theorem real_v227 (h17 : AllReal (s := S4x128) x17) :
    AllReal (s := S20000x128) (val_main_v227 (F := Ideal) x17) := by
  unfold val_main_v227
  exact allReal_broadcastInDim _ _ (real_v226 x17 h17)

/-- Stage %228, %225 plus %227, is real. -/
theorem real_v228 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v228 (F := Ideal) x0 x1 x2 x3 x4 x5 x6 x7 x8 x9 x10 x11 x16 x17 x18 x19 x20
      x21) := by
  unfold val_main_v228
  exact allReal_addf
    (real_v225 x0 x1 x2 x3 x4 x5 x6 x7 x8 x9 x10 x11 x16 x17 x18 x19 x20 x21 h0 h6 h7 h8 h9 h10 h11 h16 h17 h18 h19
      h20 h21)
    (real_v227 x17 h17)

/-- The zero constant of rectifier call 7, the constant 0, is real. -/
theorem real_call7_cst :
    AllReal (s := S_) (val_main_call7_cst (F := Ideal)) := by
  unfold val_main_call7_cst
  exact allReal_constant _ ⟨_, ofBits_zero⟩

/-- The zero array of rectifier call 7, a broadcast of the zero constant of rectifier call 7, is real. -/
theorem real_call7_v0 :
    AllReal (s := S20000x128) (val_main_call7_v0 (F := Ideal)) := by
  unfold val_main_call7_v0
  exact allReal_broadcastInDim _ _ real_call7_cst

/-- Stage %229, the maximum of %228 and the zero array of rectifier call 7, is real. -/
theorem real_v229 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v229 (F := Ideal) x0 x1 x2 x3 x4 x5 x6 x7 x8 x9 x10 x11 x16 x17 x18 x19 x20
      x21) := by
  unfold val_main_v229
  exact allReal_maximumf
    (real_v228 x0 x1 x2 x3 x4 x5 x6 x7 x8 x9 x10 x11 x16 x17 x18 x19 x20 x21 h0 h6 h7 h8 h9 h10 h11 h16 h17 h18 h19
      h20 h21)
    real_call7_v0

/-- Stage %230, a broadcast of %222, is real. -/
theorem real_v230 (h20 : AllReal (s := S4x128) x20) :
    AllReal (s := S1x128) (val_main_v230 (F := Ideal) x20) := by
  unfold val_main_v230
  exact allReal_broadcastInDim _ _ (real_v222 x20 h20)

/-- Stage %231, a broadcast of %230, is real. -/
theorem real_v231 (h20 : AllReal (s := S4x128) x20) :
    AllReal (s := S20000x128) (val_main_v231 (F := Ideal) x20) := by
  unfold val_main_v231
  exact allReal_broadcastInDim _ _ (real_v230 x20 h20)

/-- Stage %232, %229 minus %231, is real. -/
theorem real_v232 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v232 (F := Ideal) x0 x1 x2 x3 x4 x5 x6 x7 x8 x9 x10 x11 x16 x17 x18 x19 x20
      x21) := by
  unfold val_main_v232
  exact allReal_subf
    (real_v229 x0 x1 x2 x3 x4 x5 x6 x7 x8 x9 x10 x11 x16 x17 x18 x19 x20 x21 h0 h6 h7 h8 h9 h10 h11 h16 h17 h18 h19
      h20 h21)
    (real_v231 x20 h20)

/-- Stage %cst_34, the constant 1e-5 (single precision), is positive. -/
theorem pos_cst_34 :
    AllPos (s := S_) (val_main_cst_34 (F := Ideal)) := by
  unfold val_main_cst_34
  exact allPos_constant _ ofBits_eps

/-- Stage %233, a broadcast of %cst_34, is positive. -/
theorem pos_v233 :
    AllPos (s := S128) (val_main_v233 (F := Ideal)) := by
  unfold val_main_v233
  exact allPos_broadcastInDim _ _ pos_cst_34

/-- Stage %234, %224 plus %233, is positive. -/
theorem pos_v234 (h21 : AllNonneg (s := S4x128) x21) :
    AllPos (s := S128) (val_main_v234 (F := Ideal) x21) := by
  unfold val_main_v234
  exact allPos_addf (nonneg_v224 x21 h21) pos_v233

/-- Stage %235, the square root of %234, is positive. -/
theorem pos_v235 (h21 : AllNonneg (s := S4x128) x21) :
    AllPos (s := S128) (val_main_v235 (F := Ideal) x21) := by
  unfold val_main_v235
  exact allPos_sqrt (pos_v234 x21 h21)

/-- Stage %236, %218 divided by %235, is real. -/
theorem real_v236 (h18 : AllReal (s := S4x128) x18) (h21 : AllNonneg (s := S4x128) x21) :
    AllReal (s := S128) (val_main_v236 (F := Ideal) x18 x21) := by
  unfold val_main_v236
  exact allReal_divf (real_v218 x18 h18) (pos_v235 x21 h21)

/-- Stage %237, a broadcast of %236, is real. -/
theorem real_v237 (h18 : AllReal (s := S4x128) x18) (h21 : AllNonneg (s := S4x128) x21) :
    AllReal (s := S1x128) (val_main_v237 (F := Ideal) x18 x21) := by
  unfold val_main_v237
  exact allReal_broadcastInDim _ _ (real_v236 x18 x21 h18 h21)

/-- Stage %238, a broadcast of %237, is real. -/
theorem real_v238 (h18 : AllReal (s := S4x128) x18) (h21 : AllNonneg (s := S4x128) x21) :
    AllReal (s := S20000x128) (val_main_v238 (F := Ideal) x18 x21) := by
  unfold val_main_v238
  exact allReal_broadcastInDim _ _ (real_v237 x18 x21 h18 h21)

/-- Stage %239, %232 times %238, is real. -/
theorem real_v239 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v239 (F := Ideal) x0 x1 x2 x3 x4 x5 x6 x7 x8 x9 x10 x11 x16 x17 x18 x19 x20
      x21) := by
  unfold val_main_v239
  exact allReal_mulf
    (real_v232 x0 x1 x2 x3 x4 x5 x6 x7 x8 x9 x10 x11 x16 x17 x18 x19 x20 x21 h0 h6 h7 h8 h9 h10 h11 h16 h17 h18 h19
      h20 h21)
    (real_v238 x18 x21 h18 h21)

/-- Stage %240, a broadcast of %220, is real. -/
theorem real_v240 (h19 : AllReal (s := S4x128) x19) :
    AllReal (s := S1x128) (val_main_v240 (F := Ideal) x19) := by
  unfold val_main_v240
  exact allReal_broadcastInDim _ _ (real_v220 x19 h19)

/-- Stage %241, a broadcast of %240, is real. -/
theorem real_v241 (h19 : AllReal (s := S4x128) x19) :
    AllReal (s := S20000x128) (val_main_v241 (F := Ideal) x19) := by
  unfold val_main_v241
  exact allReal_broadcastInDim _ _ (real_v240 x19 h19)

/-- Stage %242, %239 plus %241, is real. -/
theorem real_v242 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v242 (F := Ideal) x0 x1 x2 x3 x4 x5 x6 x7 x8 x9 x10 x11 x16 x17 x18 x19 x20
      x21) := by
  unfold val_main_v242
  exact allReal_addf
    (real_v239 x0 x1 x2 x3 x4 x5 x6 x7 x8 x9 x10 x11 x16 x17 x18 x19 x20 x21 h0 h6 h7 h8 h9 h10 h11 h16 h17 h18 h19
      h20 h21)
    (real_v241 x19 h19)

/-- The zero constant of rectifier call 8, the constant 0, is real. -/
theorem real_call8_cst :
    AllReal (s := S_) (val_main_call8_cst (F := Ideal)) := by
  unfold val_main_call8_cst
  exact allReal_constant _ ⟨_, ofBits_zero⟩

/-- The zero array of rectifier call 8, a broadcast of the zero constant of rectifier call 8, is real. -/
theorem real_call8_v0 :
    AllReal (s := S20000x128) (val_main_call8_v0 (F := Ideal)) := by
  unfold val_main_call8_v0
  exact allReal_broadcastInDim _ _ real_call8_cst

/-- Stage %243, the maximum of %242 and the zero array of rectifier call 8, is real. -/
theorem real_v243 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x128) (val_main_v243 (F := Ideal) x0 x1 x2 x3 x4 x5 x6 x7 x8 x9 x10 x11 x16 x17 x18 x19 x20
      x21) := by
  unfold val_main_v243
  exact allReal_maximumf
    (real_v242 x0 x1 x2 x3 x4 x5 x6 x7 x8 x9 x10 x11 x16 x17 x18 x19 x20 x21 h0 h6 h7 h8 h9 h10 h11 h16 h17 h18 h19
      h20 h21)
    real_call8_v0

/-- Stage %244, %243 joined with %125, is real. -/
theorem real_v244 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S20000x256) (val_main_v244 (F := Ideal) x0 x1 x2 x3 x4 x5 x6 x7 x8 x9 x10 x11 x16 x17 x18 x19 x20
      x21) := by
  unfold val_main_v244
  exact allReal_concatenate2 _ _
    (real_v243 x0 x1 x2 x3 x4 x5 x6 x7 x8 x9 x10 x11 x16 x17 x18 x19 x20 x21 h0 h6 h7 h8 h9 h10 h11 h16 h17 h18 h19
      h20 h21)
    (real_v125 x0 x1 x2 x4 x6 x7 x8 x9 x16 x17 x18 x19 x20 x21 h0 h6 h7 h8 h9 h16 h17 h18 h19 h20 h21)

/-- Stage %cst_35, the constant 1, is real. -/
theorem real_cst_35 :
    AllReal (s := S_) (val_main_cst_35 (F := Ideal)) := by
  unfold val_main_cst_35
  exact allReal_constant _ ⟨_, ofBits_one⟩

/-- Stage %252, a broadcast of %cst_35, is real. -/
theorem real_v252 :
    AllReal (s := S340000) (val_main_v252 (F := Ideal)) := by
  unfold val_main_v252
  exact allReal_broadcastInDim _ _ real_cst_35

/-- Stage %cst_36, the constant 0, is real. -/
theorem real_cst_36 :
    AllReal (s := S_) (val_main_cst_36 (F := Ideal)) := by
  unfold val_main_cst_36
  exact allReal_constant _ ⟨_, ofBits_zero⟩

/-- Stage %253, a broadcast of %cst_36, is real. -/
theorem real_v253 :
    AllReal (s := S20000) (val_main_v253 (F := Ideal)) := by
  unfold val_main_v253
  exact allReal_broadcastInDim _ _ real_cst_36

/-- Stage %255, %253 plus scattered sums of entries of %252, is real. -/
theorem real_v255 :
    AllReal (s := S20000) (val_main_v255 (F := Ideal) x2) := by
  unfold val_main_v255
  exact allReal_scatterAdd _ _ real_v253 real_v252

/-- Stage %cst_37, the constant -1/2, is real. -/
theorem real_cst_37 :
    AllReal (s := S_) (val_main_cst_37 (F := Ideal)) := by
  unfold val_main_cst_37
  exact allReal_constant _ ⟨_, ofBits_neg_half⟩

/-- Stage %256, a broadcast of %cst_37, is real. -/
theorem real_v256 :
    AllReal (s := S20000) (val_main_v256 (F := Ideal)) := by
  unfold val_main_v256
  exact allReal_broadcastInDim _ _ real_cst_37

/-- Stage %257, %255 to the power %256, is real. -/
theorem real_v257 :
    AllReal (s := S20000) (val_main_v257 (F := Ideal) x2) := by
  unfold val_main_v257
  exact allReal_powf (real_v255 x2) real_v256

/-- Stage %264, entries gathered from %257, is real. -/
theorem real_v264 :
    AllReal (s := S340000) (val_main_v264 (F := Ideal) x2) := by
  unfold val_main_v264
  exact allReal_gather _ _ (real_v257 x2)

/-- Stage %271, entries gathered from %257, is real. -/
theorem real_v271 :
    AllReal (s := S340000) (val_main_v271 (F := Ideal) x2) := by
  unfold val_main_v271
  exact allReal_gather _ _ (real_v257 x2)

/-- Stage %272, %264 times %271, is real. -/
theorem real_v272 :
    AllReal (s := S340000) (val_main_v272 (F := Ideal) x2) := by
  unfold val_main_v272
  exact allReal_mulf (real_v264 x2) (real_v271 x2)

/-- Stage %273, the contraction of %244 with argument 12, is real. -/
theorem real_v273 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S20000x128) (val_main_v273 (F := Ideal) x0 x1 x2 x3 x4 x5 x6 x7 x8 x9 x10 x11 x12 x16 x17 x18 x19
      x20 x21) := by
  unfold val_main_v273
  exact allReal_dotGeneral _ _
    (real_v244 x0 x1 x2 x3 x4 x5 x6 x7 x8 x9 x10 x11 x16 x17 x18 x19 x20 x21 h0 h6 h7 h8 h9 h10 h11 h16 h17 h18 h19
      h20 h21)
    h12

/-- Stage %274, a broadcast of %272, is real. -/
theorem real_v274 :
    AllReal (s := S340000x1) (val_main_v274 (F := Ideal) x2) := by
  unfold val_main_v274
  exact allReal_broadcastInDim _ _ (real_v272 x2)

/-- Stage %281, entries gathered from %273, is real. -/
theorem real_v281 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S340000x128) (val_main_v281 (F := Ideal) x0 x1 x2 x3 x4 x5 x6 x7 x8 x9 x10 x11 x12 x16 x17 x18 x19
      x20 x21) := by
  unfold val_main_v281
  exact allReal_gather _ _
    (real_v273 x0 x1 x2 x3 x4 x5 x6 x7 x8 x9 x10 x11 x12 x16 x17 x18 x19 x20 x21 h0 h6 h7 h8 h9 h10 h11 h12 h16 h17
      h18 h19 h20 h21)

/-- Stage %282, a broadcast of %274, is real. -/
theorem real_v282 :
    AllReal (s := S340000x128) (val_main_v282 (F := Ideal) x2) := by
  unfold val_main_v282
  exact allReal_broadcastInDim _ _ (real_v274 x2)

/-- Stage %283, %282 times %281, is real. -/
theorem real_v283 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S340000x128) (val_main_v283 (F := Ideal) x0 x1 x2 x3 x4 x5 x6 x7 x8 x9 x10 x11 x12 x16 x17 x18 x19
      x20 x21) := by
  unfold val_main_v283
  exact allReal_mulf (real_v282 x2)
    (real_v281 x0 x1 x2 x3 x4 x5 x6 x7 x8 x9 x10 x11 x12 x16 x17 x18 x19 x20 x21 h0 h6 h7 h8 h9 h10 h11 h12 h16 h17
      h18 h19 h20 h21)

/-- Stage %cst_44, the constant 0, is real. -/
theorem real_cst_44 :
    AllReal (s := S_) (val_main_cst_44 (F := Ideal)) := by
  unfold val_main_cst_44
  exact allReal_constant _ ⟨_, ofBits_zero⟩

/-- Stage %284, a broadcast of %cst_44, is real. -/
theorem real_v284 :
    AllReal (s := S20000x128) (val_main_v284 (F := Ideal)) := by
  unfold val_main_v284
  exact allReal_broadcastInDim _ _ real_cst_44

/-- Stage %286, %284 plus scattered sums of entries of %283, is real. -/
theorem real_v286 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h16 : AllReal (s := S4x128x128) x16) (h17 : AllReal (s := S4x128) x17) (h18 : AllReal (s := S4x128) x18)
    (h19 : AllReal (s := S4x128) x19) (h20 : AllReal (s := S4x128) x20) (h21 : AllNonneg (s := S4x128) x21) :
    AllReal (s := S20000x128) (val_main_v286 (F := Ideal) x0 x1 x2 x3 x4 x5 x6 x7 x8 x9 x10 x11 x12 x16 x17 x18 x19
      x20 x21) := by
  unfold val_main_v286
  exact allReal_scatterAdd _ _ real_v284
    (real_v283 x0 x1 x2 x3 x4 x5 x6 x7 x8 x9 x10 x11 x12 x16 x17 x18 x19 x20 x21 h0 h6 h7 h8 h9 h10 h11 h12 h16 h17
      h18 h19 h20 h21)

/-- Stage %287, a broadcast of argument 13, is real. -/
theorem real_v287 (h13 : AllReal (s := S128) x13) :
    AllReal (s := S1x128) (val_main_v287 (F := Ideal) x13) := by
  unfold val_main_v287
  exact allReal_broadcastInDim _ _ h13

/-- Stage %288, a broadcast of %287, is real. -/
theorem real_v288 (h13 : AllReal (s := S128) x13) :
    AllReal (s := S20000x128) (val_main_v288 (F := Ideal) x13) := by
  unfold val_main_v288
  exact allReal_broadcastInDim _ _ (real_v287 x13 h13)

/-- Stage %289, %286 plus %288, is real. -/
theorem real_v289 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S20000x128) (val_main_v289 (F := Ideal) x0 x1 x2 x3 x4 x5 x6 x7 x8 x9 x10 x11 x12 x13 x16 x17 x18
      x19 x20 x21) := by
  unfold val_main_v289
  exact allReal_addf
    (real_v286 x0 x1 x2 x3 x4 x5 x6 x7 x8 x9 x10 x11 x12 x16 x17 x18 x19 x20 x21 h0 h6 h7 h8 h9 h10 h11 h12 h16 h17
      h18 h19 h20 h21)
    (real_v288 x13 h13)

/-- The zero constant of rectifier call 9, the constant 0, is real. -/
theorem real_call9_cst :
    AllReal (s := S_) (val_main_call9_cst (F := Ideal)) := by
  unfold val_main_call9_cst
  exact allReal_constant _ ⟨_, ofBits_zero⟩

/-- The zero array of rectifier call 9, a broadcast of the zero constant of rectifier call 9, is real. -/
theorem real_call9_v0 :
    AllReal (s := S20000x128) (val_main_call9_v0 (F := Ideal)) := by
  unfold val_main_call9_v0
  exact allReal_broadcastInDim _ _ real_call9_cst

/-- Stage %290, the maximum of %289 and the zero array of rectifier call 9, is real. -/
theorem real_v290 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S20000x128) (val_main_v290 (F := Ideal) x0 x1 x2 x3 x4 x5 x6 x7 x8 x9 x10 x11 x12 x13 x16 x17 x18
      x19 x20 x21) := by
  unfold val_main_v290
  exact allReal_maximumf
    (real_v289 x0 x1 x2 x3 x4 x5 x6 x7 x8 x9 x10 x11 x12 x13 x16 x17 x18 x19 x20 x21 h0 h6 h7 h8 h9 h10 h11 h12 h13
      h16 h17 h18 h19 h20 h21)
    real_call9_v0

/-- Stage %297, entries gathered from %290, is real. -/
theorem real_v297 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v297 (F := Ideal) x0 x1 x2 x3 x4 x5 x6 x7 x8 x9 x10 x11 x12 x13 x16 x17 x18
      x19 x20 x21) := by
  unfold val_main_v297
  exact allReal_gather _ _
    (real_v290 x0 x1 x2 x3 x4 x5 x6 x7 x8 x9 x10 x11 x12 x13 x16 x17 x18 x19 x20 x21 h0 h6 h7 h8 h9 h10 h11 h12 h13
      h16 h17 h18 h19 h20 h21)

/-- Stage %298, a slice of argument 16, is real. -/
theorem real_v298 (h16 : AllReal (s := S4x128x128) x16) :
    AllReal (s := S1x128x128) (val_main_v298 (F := Ideal) x16) := by
  unfold val_main_v298
  exact allReal_slice _ _ h16

/-- Stage %299, a reshape of %298, is real. -/
theorem real_v299 (h16 : AllReal (s := S4x128x128) x16) :
    AllReal (s := S128x128) (val_main_v299 (F := Ideal) x16) := by
  unfold val_main_v299
  exact allReal_shapeCast _ (real_v298 x16 h16)

/-- Stage %300, a slice of argument 17, is real. -/
theorem real_v300 (h17 : AllReal (s := S4x128) x17) :
    AllReal (s := S1x128) (val_main_v300 (F := Ideal) x17) := by
  unfold val_main_v300
  exact allReal_slice _ _ h17

/-- Stage %301, a reshape of %300, is real. -/
theorem real_v301 (h17 : AllReal (s := S4x128) x17) :
    AllReal (s := S128) (val_main_v301 (F := Ideal) x17) := by
  unfold val_main_v301
  exact allReal_shapeCast _ (real_v300 x17 h17)

/-- Stage %302, a slice of argument 18, is real. -/
theorem real_v302 (h18 : AllReal (s := S4x128) x18) :
    AllReal (s := S1x128) (val_main_v302 (F := Ideal) x18) := by
  unfold val_main_v302
  exact allReal_slice _ _ h18

/-- Stage %303, a reshape of %302, is real. -/
theorem real_v303 (h18 : AllReal (s := S4x128) x18) :
    AllReal (s := S128) (val_main_v303 (F := Ideal) x18) := by
  unfold val_main_v303
  exact allReal_shapeCast _ (real_v302 x18 h18)

/-- Stage %304, a slice of argument 19, is real. -/
theorem real_v304 (h19 : AllReal (s := S4x128) x19) :
    AllReal (s := S1x128) (val_main_v304 (F := Ideal) x19) := by
  unfold val_main_v304
  exact allReal_slice _ _ h19

/-- Stage %305, a reshape of %304, is real. -/
theorem real_v305 (h19 : AllReal (s := S4x128) x19) :
    AllReal (s := S128) (val_main_v305 (F := Ideal) x19) := by
  unfold val_main_v305
  exact allReal_shapeCast _ (real_v304 x19 h19)

/-- Stage %306, a slice of argument 20, is real. -/
theorem real_v306 (h20 : AllReal (s := S4x128) x20) :
    AllReal (s := S1x128) (val_main_v306 (F := Ideal) x20) := by
  unfold val_main_v306
  exact allReal_slice _ _ h20

/-- Stage %307, a reshape of %306, is real. -/
theorem real_v307 (h20 : AllReal (s := S4x128) x20) :
    AllReal (s := S128) (val_main_v307 (F := Ideal) x20) := by
  unfold val_main_v307
  exact allReal_shapeCast _ (real_v306 x20 h20)

/-- Stage %308, a slice of argument 21, is nonnegative. -/
theorem nonneg_v308 (h21 : AllNonneg (s := S4x128) x21) :
    AllNonneg (s := S1x128) (val_main_v308 (F := Ideal) x21) := by
  unfold val_main_v308
  exact allNonneg_slice _ _ h21

/-- Stage %309, a reshape of %308, is nonnegative. -/
theorem nonneg_v309 (h21 : AllNonneg (s := S4x128) x21) :
    AllNonneg (s := S128) (val_main_v309 (F := Ideal) x21) := by
  unfold val_main_v309
  exact allNonneg_shapeCast _ (nonneg_v308 x21 h21)

/-- Stage %310, the contraction of %297 with %299, is real. -/
theorem real_v310 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v310 (F := Ideal) x0 x1 x2 x3 x4 x5 x6 x7 x8 x9 x10 x11 x12 x13 x16 x17 x18
      x19 x20 x21) := by
  unfold val_main_v310
  exact allReal_dotGeneral _ _
    (real_v297 x0 x1 x2 x3 x4 x5 x6 x7 x8 x9 x10 x11 x12 x13 x16 x17 x18 x19 x20 x21 h0 h6 h7 h8 h9 h10 h11 h12 h13
      h16 h17 h18 h19 h20 h21)
    (real_v299 x16 h16)

/-- Stage %311, a broadcast of %301, is real. -/
theorem real_v311 (h17 : AllReal (s := S4x128) x17) :
    AllReal (s := S1x128) (val_main_v311 (F := Ideal) x17) := by
  unfold val_main_v311
  exact allReal_broadcastInDim _ _ (real_v301 x17 h17)

/-- Stage %312, a broadcast of %311, is real. -/
theorem real_v312 (h17 : AllReal (s := S4x128) x17) :
    AllReal (s := S100000x128) (val_main_v312 (F := Ideal) x17) := by
  unfold val_main_v312
  exact allReal_broadcastInDim _ _ (real_v311 x17 h17)

/-- Stage %313, %310 plus %312, is real. -/
theorem real_v313 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v313 (F := Ideal) x0 x1 x2 x3 x4 x5 x6 x7 x8 x9 x10 x11 x12 x13 x16 x17 x18
      x19 x20 x21) := by
  unfold val_main_v313
  exact allReal_addf
    (real_v310 x0 x1 x2 x3 x4 x5 x6 x7 x8 x9 x10 x11 x12 x13 x16 x17 x18 x19 x20 x21 h0 h6 h7 h8 h9 h10 h11 h12 h13
      h16 h17 h18 h19 h20 h21)
    (real_v312 x17 h17)

/-- The zero constant of rectifier call 10, the constant 0, is real. -/
theorem real_call10_cst :
    AllReal (s := S_) (val_main_call10_cst (F := Ideal)) := by
  unfold val_main_call10_cst
  exact allReal_constant _ ⟨_, ofBits_zero⟩

/-- The zero array of rectifier call 10, a broadcast of the zero constant of rectifier call 10, is real. -/
theorem real_call10_v0 :
    AllReal (s := S100000x128) (val_main_call10_v0 (F := Ideal)) := by
  unfold val_main_call10_v0
  exact allReal_broadcastInDim _ _ real_call10_cst

/-- Stage %314, the maximum of %313 and the zero array of rectifier call 10, is real. -/
theorem real_v314 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v314 (F := Ideal) x0 x1 x2 x3 x4 x5 x6 x7 x8 x9 x10 x11 x12 x13 x16 x17 x18
      x19 x20 x21) := by
  unfold val_main_v314
  exact allReal_maximumf
    (real_v313 x0 x1 x2 x3 x4 x5 x6 x7 x8 x9 x10 x11 x12 x13 x16 x17 x18 x19 x20 x21 h0 h6 h7 h8 h9 h10 h11 h12 h13
      h16 h17 h18 h19 h20 h21)
    real_call10_v0

/-- Stage %315, a broadcast of %307, is real. -/
theorem real_v315 (h20 : AllReal (s := S4x128) x20) :
    AllReal (s := S1x128) (val_main_v315 (F := Ideal) x20) := by
  unfold val_main_v315
  exact allReal_broadcastInDim _ _ (real_v307 x20 h20)

/-- Stage %316, a broadcast of %315, is real. -/
theorem real_v316 (h20 : AllReal (s := S4x128) x20) :
    AllReal (s := S100000x128) (val_main_v316 (F := Ideal) x20) := by
  unfold val_main_v316
  exact allReal_broadcastInDim _ _ (real_v315 x20 h20)

/-- Stage %317, %314 minus %316, is real. -/
theorem real_v317 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v317 (F := Ideal) x0 x1 x2 x3 x4 x5 x6 x7 x8 x9 x10 x11 x12 x13 x16 x17 x18
      x19 x20 x21) := by
  unfold val_main_v317
  exact allReal_subf
    (real_v314 x0 x1 x2 x3 x4 x5 x6 x7 x8 x9 x10 x11 x12 x13 x16 x17 x18 x19 x20 x21 h0 h6 h7 h8 h9 h10 h11 h12 h13
      h16 h17 h18 h19 h20 h21)
    (real_v316 x20 h20)

/-- Stage %cst_47, the constant 1e-5 (single precision), is positive. -/
theorem pos_cst_47 :
    AllPos (s := S_) (val_main_cst_47 (F := Ideal)) := by
  unfold val_main_cst_47
  exact allPos_constant _ ofBits_eps

/-- Stage %318, a broadcast of %cst_47, is positive. -/
theorem pos_v318 :
    AllPos (s := S128) (val_main_v318 (F := Ideal)) := by
  unfold val_main_v318
  exact allPos_broadcastInDim _ _ pos_cst_47

/-- Stage %319, %309 plus %318, is positive. -/
theorem pos_v319 (h21 : AllNonneg (s := S4x128) x21) :
    AllPos (s := S128) (val_main_v319 (F := Ideal) x21) := by
  unfold val_main_v319
  exact allPos_addf (nonneg_v309 x21 h21) pos_v318

/-- Stage %320, the square root of %319, is positive. -/
theorem pos_v320 (h21 : AllNonneg (s := S4x128) x21) :
    AllPos (s := S128) (val_main_v320 (F := Ideal) x21) := by
  unfold val_main_v320
  exact allPos_sqrt (pos_v319 x21 h21)

/-- Stage %321, %303 divided by %320, is real. -/
theorem real_v321 (h18 : AllReal (s := S4x128) x18) (h21 : AllNonneg (s := S4x128) x21) :
    AllReal (s := S128) (val_main_v321 (F := Ideal) x18 x21) := by
  unfold val_main_v321
  exact allReal_divf (real_v303 x18 h18) (pos_v320 x21 h21)

/-- Stage %322, a broadcast of %321, is real. -/
theorem real_v322 (h18 : AllReal (s := S4x128) x18) (h21 : AllNonneg (s := S4x128) x21) :
    AllReal (s := S1x128) (val_main_v322 (F := Ideal) x18 x21) := by
  unfold val_main_v322
  exact allReal_broadcastInDim _ _ (real_v321 x18 x21 h18 h21)

/-- Stage %323, a broadcast of %322, is real. -/
theorem real_v323 (h18 : AllReal (s := S4x128) x18) (h21 : AllNonneg (s := S4x128) x21) :
    AllReal (s := S100000x128) (val_main_v323 (F := Ideal) x18 x21) := by
  unfold val_main_v323
  exact allReal_broadcastInDim _ _ (real_v322 x18 x21 h18 h21)

/-- Stage %324, %317 times %323, is real. -/
theorem real_v324 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v324 (F := Ideal) x0 x1 x2 x3 x4 x5 x6 x7 x8 x9 x10 x11 x12 x13 x16 x17 x18
      x19 x20 x21) := by
  unfold val_main_v324
  exact allReal_mulf
    (real_v317 x0 x1 x2 x3 x4 x5 x6 x7 x8 x9 x10 x11 x12 x13 x16 x17 x18 x19 x20 x21 h0 h6 h7 h8 h9 h10 h11 h12 h13
      h16 h17 h18 h19 h20 h21)
    (real_v323 x18 x21 h18 h21)

/-- Stage %325, a broadcast of %305, is real. -/
theorem real_v325 (h19 : AllReal (s := S4x128) x19) :
    AllReal (s := S1x128) (val_main_v325 (F := Ideal) x19) := by
  unfold val_main_v325
  exact allReal_broadcastInDim _ _ (real_v305 x19 h19)

/-- Stage %326, a broadcast of %325, is real. -/
theorem real_v326 (h19 : AllReal (s := S4x128) x19) :
    AllReal (s := S100000x128) (val_main_v326 (F := Ideal) x19) := by
  unfold val_main_v326
  exact allReal_broadcastInDim _ _ (real_v325 x19 h19)

/-- Stage %327, %324 plus %326, is real. -/
theorem real_v327 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v327 (F := Ideal) x0 x1 x2 x3 x4 x5 x6 x7 x8 x9 x10 x11 x12 x13 x16 x17 x18
      x19 x20 x21) := by
  unfold val_main_v327
  exact allReal_addf
    (real_v324 x0 x1 x2 x3 x4 x5 x6 x7 x8 x9 x10 x11 x12 x13 x16 x17 x18 x19 x20 x21 h0 h6 h7 h8 h9 h10 h11 h12 h13
      h16 h17 h18 h19 h20 h21)
    (real_v326 x19 h19)

/-- The zero constant of rectifier call 11, the constant 0, is real. -/
theorem real_call11_cst :
    AllReal (s := S_) (val_main_call11_cst (F := Ideal)) := by
  unfold val_main_call11_cst
  exact allReal_constant _ ⟨_, ofBits_zero⟩

/-- The zero array of rectifier call 11, a broadcast of the zero constant of rectifier call 11, is real. -/
theorem real_call11_v0 :
    AllReal (s := S100000x128) (val_main_call11_v0 (F := Ideal)) := by
  unfold val_main_call11_v0
  exact allReal_broadcastInDim _ _ real_call11_cst

/-- Stage %328, the maximum of %327 and the zero array of rectifier call 11, is real. -/
theorem real_v328 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x128) (val_main_v328 (F := Ideal) x0 x1 x2 x3 x4 x5 x6 x7 x8 x9 x10 x11 x12 x13 x16 x17 x18
      x19 x20 x21) := by
  unfold val_main_v328
  exact allReal_maximumf
    (real_v327 x0 x1 x2 x3 x4 x5 x6 x7 x8 x9 x10 x11 x12 x13 x16 x17 x18 x19 x20 x21 h0 h6 h7 h8 h9 h10 h11 h12 h13
      h16 h17 h18 h19 h20 h21)
    real_call11_v0

/-- Stage %329, %328 joined with %45, is real. -/
theorem real_v329 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h16 : AllReal (s := S4x128x128) x16) (h17 : AllReal (s := S4x128) x17)
    (h18 : AllReal (s := S4x128) x18) (h19 : AllReal (s := S4x128) x19) (h20 : AllReal (s := S4x128) x20)
    (h21 : AllNonneg (s := S4x128) x21) :
    AllReal (s := S100000x256) (val_main_v329 (F := Ideal) x0 x1 x2 x3 x4 x5 x6 x7 x8 x9 x10 x11 x12 x13 x16 x17 x18
      x19 x20 x21) := by
  unfold val_main_v329
  exact allReal_concatenate2 _ _
    (real_v328 x0 x1 x2 x3 x4 x5 x6 x7 x8 x9 x10 x11 x12 x13 x16 x17 x18 x19 x20 x21 h0 h6 h7 h8 h9 h10 h11 h12 h13
      h16 h17 h18 h19 h20 h21)
    (real_v45 x0 x1 x6 x7 h0 h6 h7)

/-- Stage %cst_48, the constant 1, is real. -/
theorem real_cst_48 :
    AllReal (s := S_) (val_main_cst_48 (F := Ideal)) := by
  unfold val_main_cst_48
  exact allReal_constant _ ⟨_, ofBits_one⟩

/-- Stage %337, a broadcast of %cst_48, is real. -/
theorem real_v337 :
    AllReal (s := S1700000) (val_main_v337 (F := Ideal)) := by
  unfold val_main_v337
  exact allReal_broadcastInDim _ _ real_cst_48

/-- Stage %cst_49, the constant 0, is real. -/
theorem real_cst_49 :
    AllReal (s := S_) (val_main_cst_49 (F := Ideal)) := by
  unfold val_main_cst_49
  exact allReal_constant _ ⟨_, ofBits_zero⟩

/-- Stage %338, a broadcast of %cst_49, is real. -/
theorem real_v338 :
    AllReal (s := S100000) (val_main_v338 (F := Ideal)) := by
  unfold val_main_v338
  exact allReal_broadcastInDim _ _ real_cst_49

/-- Stage %340, %338 plus scattered sums of entries of %337, is real. -/
theorem real_v340 :
    AllReal (s := S100000) (val_main_v340 (F := Ideal) x1) := by
  unfold val_main_v340
  exact allReal_scatterAdd _ _ real_v338 real_v337

/-- Stage %cst_50, the constant -1/2, is real. -/
theorem real_cst_50 :
    AllReal (s := S_) (val_main_cst_50 (F := Ideal)) := by
  unfold val_main_cst_50
  exact allReal_constant _ ⟨_, ofBits_neg_half⟩

/-- Stage %341, a broadcast of %cst_50, is real. -/
theorem real_v341 :
    AllReal (s := S100000) (val_main_v341 (F := Ideal)) := by
  unfold val_main_v341
  exact allReal_broadcastInDim _ _ real_cst_50

/-- Stage %342, %340 to the power %341, is real. -/
theorem real_v342 :
    AllReal (s := S100000) (val_main_v342 (F := Ideal) x1) := by
  unfold val_main_v342
  exact allReal_powf (real_v340 x1) real_v341

/-- Stage %349, entries gathered from %342, is real. -/
theorem real_v349 :
    AllReal (s := S1700000) (val_main_v349 (F := Ideal) x1) := by
  unfold val_main_v349
  exact allReal_gather _ _ (real_v342 x1)

/-- Stage %356, entries gathered from %342, is real. -/
theorem real_v356 :
    AllReal (s := S1700000) (val_main_v356 (F := Ideal) x1) := by
  unfold val_main_v356
  exact allReal_gather _ _ (real_v342 x1)

/-- Stage %357, %349 times %356, is real. -/
theorem real_v357 :
    AllReal (s := S1700000) (val_main_v357 (F := Ideal) x1) := by
  unfold val_main_v357
  exact allReal_mulf (real_v349 x1) (real_v356 x1)

/-- Stage %358, the contraction of %329 with argument 14, is real. -/
theorem real_v358 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h14 : AllReal (s := S256x10) x14) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S100000x10) (val_main_v358 (F := Ideal) x0 x1 x2 x3 x4 x5 x6 x7 x8 x9 x10 x11 x12 x13 x14 x16 x17
      x18 x19 x20 x21) := by
  unfold val_main_v358
  exact allReal_dotGeneral _ _
    (real_v329 x0 x1 x2 x3 x4 x5 x6 x7 x8 x9 x10 x11 x12 x13 x16 x17 x18 x19 x20 x21 h0 h6 h7 h8 h9 h10 h11 h12 h13
      h16 h17 h18 h19 h20 h21)
    h14

/-- Stage %359, a broadcast of %357, is real. -/
theorem real_v359 :
    AllReal (s := S1700000x1) (val_main_v359 (F := Ideal) x1) := by
  unfold val_main_v359
  exact allReal_broadcastInDim _ _ (real_v357 x1)

/-- Stage %366, entries gathered from %358, is real. -/
theorem real_v366 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h14 : AllReal (s := S256x10) x14) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S1700000x10) (val_main_v366 (F := Ideal) x0 x1 x2 x3 x4 x5 x6 x7 x8 x9 x10 x11 x12 x13 x14 x16 x17
      x18 x19 x20 x21) := by
  unfold val_main_v366
  exact allReal_gather _ _
    (real_v358 x0 x1 x2 x3 x4 x5 x6 x7 x8 x9 x10 x11 x12 x13 x14 x16 x17 x18 x19 x20 x21 h0 h6 h7 h8 h9 h10 h11 h12
      h13 h14 h16 h17 h18 h19 h20 h21)

/-- Stage %367, a broadcast of %359, is real. -/
theorem real_v367 :
    AllReal (s := S1700000x10) (val_main_v367 (F := Ideal) x1) := by
  unfold val_main_v367
  exact allReal_broadcastInDim _ _ (real_v359 x1)

/-- Stage %368, %367 times %366, is real. -/
theorem real_v368 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h14 : AllReal (s := S256x10) x14) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S1700000x10) (val_main_v368 (F := Ideal) x0 x1 x2 x3 x4 x5 x6 x7 x8 x9 x10 x11 x12 x13 x14 x16 x17
      x18 x19 x20 x21) := by
  unfold val_main_v368
  exact allReal_mulf (real_v367 x1)
    (real_v366 x0 x1 x2 x3 x4 x5 x6 x7 x8 x9 x10 x11 x12 x13 x14 x16 x17 x18 x19 x20 x21 h0 h6 h7 h8 h9 h10 h11 h12
      h13 h14 h16 h17 h18 h19 h20 h21)

/-- Stage %cst_57, the constant 0, is real. -/
theorem real_cst_57 :
    AllReal (s := S_) (val_main_cst_57 (F := Ideal)) := by
  unfold val_main_cst_57
  exact allReal_constant _ ⟨_, ofBits_zero⟩

/-- Stage %369, a broadcast of %cst_57, is real. -/
theorem real_v369 :
    AllReal (s := S100000x10) (val_main_v369 (F := Ideal)) := by
  unfold val_main_v369
  exact allReal_broadcastInDim _ _ real_cst_57

/-- Stage %371, %369 plus scattered sums of entries of %368, is real. -/
theorem real_v371 (h0 : AllReal (s := S100000x128) x0) (h6 : AllReal (s := S128x128) x6)
    (h7 : AllReal (s := S128) x7) (h8 : AllReal (s := S128x128) x8) (h9 : AllReal (s := S128) x9)
    (h10 : AllReal (s := S128x128) x10) (h11 : AllReal (s := S128) x11) (h12 : AllReal (s := S256x128) x12)
    (h13 : AllReal (s := S128) x13) (h14 : AllReal (s := S256x10) x14) (h16 : AllReal (s := S4x128x128) x16)
    (h17 : AllReal (s := S4x128) x17) (h18 : AllReal (s := S4x128) x18) (h19 : AllReal (s := S4x128) x19)
    (h20 : AllReal (s := S4x128) x20) (h21 : AllNonneg (s := S4x128) x21) :
    AllReal (s := S100000x10) (val_main_v371 (F := Ideal) x0 x1 x2 x3 x4 x5 x6 x7 x8 x9 x10 x11 x12 x13 x14 x16 x17
      x18 x19 x20 x21) := by
  unfold val_main_v371
  exact allReal_scatterAdd _ _ real_v369
    (real_v368 x0 x1 x2 x3 x4 x5 x6 x7 x8 x9 x10 x11 x12 x13 x14 x16 x17 x18 x19 x20 x21 h0 h6 h7 h8 h9 h10 h11 h12
      h13 h14 h16 h17 h18 h19 h20 h21)

/-! ### The stages the comparison with the kernel uses -/

/-- The scale `g` of the first pooling layer is real. -/
theorem pgamma0_real (h18 : AllReal (s := S4x128) x18) :
    AllReal (s := S128) (val_main_v54 (F := Ideal) x18) :=
  real_v54 x18 h18

/-- The scale `g` of the second pooling layer is real. -/
theorem pgamma1_real (h18 : AllReal (s := S4x128) x18) :
    AllReal (s := S128) (val_main_v134 (F := Ideal) x18) :=
  real_v134 x18 h18

/-- The scale `g` of the third pooling layer is real. -/
theorem pgamma2_real (h18 : AllReal (s := S4x128) x18) :
    AllReal (s := S128) (val_main_v218 (F := Ideal) x18) :=
  real_v218 x18 h18

/-- The scale `g` of the fourth pooling layer is real. -/
theorem pgamma3_real (h18 : AllReal (s := S4x128) x18) :
    AllReal (s := S128) (val_main_v303 (F := Ideal) x18) :=
  real_v303 x18 h18

/-- The variance of the first pooling layer is a nonnegative real. -/
theorem pvar0_nonneg (h21 : ∀ i, ∃ r : ℝ, 0 ≤ r ∧ x21 i = (r : EReal)) :
    ∀ i, ∃ r : ℝ, 0 ≤ r ∧ val_main_v60 (F := Ideal) x21 i = (r : EReal) :=
  nonneg_v60 x21 h21

/-- The variance of the second pooling layer is a nonnegative real. -/
theorem pvar1_nonneg (h21 : ∀ i, ∃ r : ℝ, 0 ≤ r ∧ x21 i = (r : EReal)) :
    ∀ i, ∃ r : ℝ, 0 ≤ r ∧ val_main_v140 (F := Ideal) x21 i = (r : EReal) :=
  nonneg_v140 x21 h21

/-- The variance of the third pooling layer is a nonnegative real. -/
theorem pvar2_nonneg (h21 : ∀ i, ∃ r : ℝ, 0 ≤ r ∧ x21 i = (r : EReal)) :
    ∀ i, ∃ r : ℝ, 0 ≤ r ∧ val_main_v224 (F := Ideal) x21 i = (r : EReal) :=
  nonneg_v224 x21 h21

/-- The variance of the fourth pooling layer is a nonnegative real. -/
theorem pvar3_nonneg (h21 : ∀ i, ∃ r : ℝ, 0 ≤ r ∧ x21 i = (r : EReal)) :
    ∀ i, ∃ r : ℝ, 0 ≤ r ∧ val_main_v309 (F := Ideal) x21 i = (r : EReal) :=
  nonneg_v309 x21 h21

/-- The input of the final bias and log-softmax is real. -/
theorem main_v371_real (h0 : AllReal (s := S100000x128) x0) (h6 : AllReal (s := S128x128) x6) (h7 : AllReal (s := S128) x7) (h8 : AllReal (s := S128x128) x8) (h9 : AllReal (s := S128) x9) (h10 : AllReal (s := S128x128) x10) (h11 : AllReal (s := S128) x11) (h12 : AllReal (s := S256x128) x12) (h13 : AllReal (s := S128) x13) (h14 : AllReal (s := S256x10) x14) (h16 : AllReal (s := S4x128x128) x16) (h17 : AllReal (s := S4x128) x17) (h18 : AllReal (s := S4x128) x18) (h19 : AllReal (s := S4x128) x19) (h20 : AllReal (s := S4x128) x20) (h21 : ∀ i, ∃ r : ℝ, 0 ≤ r ∧ x21 i = (r : EReal)) :
    AllReal (s := S100000x10) (val_main_v371 (F := Ideal) x0 x1 x2 x3 x4 x5 x6 x7 x8 x9 x10 x11 x12 x13 x14 x16 x17 x18 x19 x20 x21) :=
  real_v371 x0 x1 x2 x3 x4 x5 x6 x7 x8 x9 x10 x11 x12 x13 x14 x16 x17 x18 x19 x20 x21 h0 h6 h7 h8 h9 h10 h11 h12 h13 h14 h16 h17 h18 h19 h20 h21

end Cert.RefReal

end
-- ==== Proof.PreFacts.lean ====
/-
  The precondition, read back as facts about the argument arrays.

  The predicate is a conjunction of eighteen statements: for each of the seventeen float arrays `A`
  (arguments 0 and 6 to 21), `|A[i]| < +∞` at every index `i`, and for the last array (the running
  variance) `A[i] ≥ 0` at every index. On the extended reals `|x| = max x (-x)`, and `max x (-x) < ⊤`
  excludes both `x = ⊤` and `x = ⊥`, so `x` is a real number; `x ≥ 0` together with `x = r` real gives
  `0 ≤ r`. A conjunction over a whole array that evaluates to 1 gives the statement at every index, and a
  conjunction of two one-bit words is 1 exactly when both are.
-/
import proofs.«124761_j84988812853303_1_alg».proof.Pre_finite_inputs
import proofs.«124761_j84988812853303_1_alg».proof.Proof.Spec
import Idealize.ShloMosaic.Lib.ReduceAll
import Idealize.ShloMosaic.PureOps.Ideal
import Idealize.ShloMosaic.PureOps.Ideal.Laws
import Idealize.ShloMosaic.Lib.ValueIdx

noncomputable section

namespace Cert.PreFacts

open Idealize.ShloMosaic Idealize.ShloMosaic.ValueIdx Cert.Pre_finite_inputs

/-- The rank-0 shape has a single index. -/
local instance : Subsingleton S_.Idx := ⟨fun a b => funext fun d => d.elim0⟩

/-- An extended real whose absolute value lies strictly below `+∞` is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- An extended real that compares `≥` the constant zero is nonnegative. -/
theorem nonneg_of_ge (x : EReal)
    (h : Ideal.cmp .oge x (Ideal.ofBits .f32 0x00000000#32) = 1#1) : 0 ≤ x := by
  rw [Ideal.ofBits_zero_f32] at h
  by_contra hx
  simp [Ideal.cmp, hx] at h

/-- If the conjunction over a whole array of `|a[i]| < +∞` holds, every entry of the array is real. -/
theorem allReal_of_all {s : Shape} {axes : List (Fin s.rank)} (a : FVec Ideal s .f32)
    (bc : S_.BroadcastsInDim s (![] : Fin 0 → Fin s.rank)) (h : s.ReducesTo axes S_) (hu : 0 < S_.numel) (j : S_.Idx)
    (e : Host.reduce IntOp.andi (cmpf .olt (Host.absf a) (broadcastInDim s ![] bc (constant S_ .f32 0x7F800000#32)))
      (constantI S_ 1 1#1) h hu j = 1#1) : Cert.Net.AllReal a := by
  intro i
  exact real_of_abs_lt (a i) (Host.reduce_andi_all _ _ h hu j e i)

/-- If the conjunction over a whole array of `a[i] ≥ 0` holds, every entry of the array is nonnegative. -/
theorem nonneg_of_all {s : Shape} {axes : List (Fin s.rank)} (a : FVec Ideal s .f32)
    (bc : S_.BroadcastsInDim s (![] : Fin 0 → Fin s.rank)) (h : s.ReducesTo axes S_) (hu : 0 < S_.numel) (j : S_.Idx)
    (e : Host.reduce IntOp.andi (cmpf .oge a (broadcastInDim s ![] bc (constant S_ .f32 0x00000000#32)))
      (constantI S_ 1 1#1) h hu j = 1#1) : ∀ i, (0 : EReal) ≤ a i := by
  intro i
  exact nonneg_of_ge (a i) (Host.reduce_andi_all _ _ h hu j e i)

/-- What the predicate says of the seventeen float arrays: all entries real, and the last array's entries nonnegative. -/
structure Finite (a0 : FVec Ideal S100000x128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S256x128 .f32) (a13 : FVec Ideal S128 .f32) (a14 : FVec Ideal S256x10 .f32) (a15 : FVec Ideal S10 .f32) (a16 : FVec Ideal S4x128x128 .f32) (a17 : FVec Ideal S4x128 .f32) (a18 : FVec Ideal S4x128 .f32) (a19 : FVec Ideal S4x128 .f32) (a20 : FVec Ideal S4x128 .f32) (a21 : FVec Ideal S4x128 .f32) : Prop where
  /-- every entry of argument 0 is a real number -/
  r0 : Cert.Net.AllReal a0
  /-- every entry of argument 6 is a real number -/
  r6 : Cert.Net.AllReal a6
  /-- every entry of argument 7 is a real number -/
  r7 : Cert.Net.AllReal a7
  /-- every entry of argument 8 is a real number -/
  r8 : Cert.Net.AllReal a8
  /-- every entry of argument 9 is a real number -/
  r9 : Cert.Net.AllReal a9
  /-- every entry of argument 10 is a real number -/
  r10 : Cert.Net.AllReal a10
  /-- every entry of argument 11 is a real number -/
  r11 : Cert.Net.AllReal a11
  /-- every entry of argument 12 is a real number -/
  r12 : Cert.Net.AllReal a12
  /-- every entry of argument 13 is a real number -/
  r13 : Cert.Net.AllReal a13
  /-- every entry of argument 14 is a real number -/
  r14 : Cert.Net.AllReal a14
  /-- every entry of argument 15 is a real number -/
  r15 : Cert.Net.AllReal a15
  /-- every entry of argument 16 is a real number -/
  r16 : Cert.Net.AllReal a16
  /-- every entry of argument 17 is a real number -/
  r17 : Cert.Net.AllReal a17
  /-- every entry of argument 18 is a real number -/
  r18 : Cert.Net.AllReal a18
  /-- every entry of argument 19 is a real number -/
  r19 : Cert.Net.AllReal a19
  /-- every entry of argument 20 is a real number -/
  r20 : Cert.Net.AllReal a20
  /-- every entry of argument 21 is a real number -/
  r21 : Cert.Net.AllReal a21
  /-- every entry of argument 21 is a nonnegative real number -/
  nn21 : ∀ i, ∃ r : ℝ, 0 ≤ r ∧ a21 i = (r : EReal)

/-- The printed predicate, when it holds, says: each of the seventeen float arrays has only real entries, and the last
    one (the running variance) has only nonnegative entries. -/
theorem decode [Facts] (a0 : FVec Ideal S100000x128 .f32) (a1 : IVec S2x1600000 32) (a2 : IVec S2x320000 32) (a3 : IVec S2x64000 32) (a4 : IVec S100000 32) (a5 : IVec S20000 32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S256x128 .f32) (a13 : FVec Ideal S128 .f32) (a14 : FVec Ideal S256x10 .f32) (a15 : FVec Ideal S10 .f32) (a16 : FVec Ideal S4x128x128 .f32) (a17 : FVec Ideal S4x128 .f32) (a18 : FVec Ideal S4x128 .f32) (a19 : FVec Ideal S4x128 .f32) (a20 : FVec Ideal S4x128 .f32) (a21 : FVec Ideal S4x128 .f32)
    (h : fn (F := Ideal) a0 a1 a2 a3 a4 a5 a6 a7 a8 a9 a10 a11 a12 a13 a14 a15 a16 a17 a18 a19 a20 a21 = (fun _ => 1#1)) :
    Finite a0 a6 a7 a8 a9 a10 a11 a12 a13 a14 a15 a16 a17 a18 a19 a20 a21 := by
  have e := congrFun h ix0
  simp only [fn, fn_part1, fn_part2, fn_part3, fn_part4, fn_part5, andi, IntOp.andi_eq_one] at e
  obtain ⟨⟨⟨⟨⟨⟨⟨⟨⟨⟨⟨⟨⟨⟨⟨⟨⟨h0, h6⟩, h7⟩, h8⟩, h9⟩, h10⟩, h11⟩, h12⟩, h13⟩, h14⟩, h15⟩, h16⟩, h17⟩, h18⟩, h19⟩, h20⟩, h21⟩, hge⟩ := e
  have r21 : Cert.Net.AllReal a21 := allReal_of_all a21 _ _ _ _ h21
  refine ⟨allReal_of_all a0 _ _ _ _ h0, allReal_of_all a6 _ _ _ _ h6, allReal_of_all a7 _ _ _ _ h7, allReal_of_all a8 _ _ _ _ h8, allReal_of_all a9 _ _ _ _ h9, allReal_of_all a10 _ _ _ _ h10, allReal_of_all a11 _ _ _ _ h11, allReal_of_all a12 _ _ _ _ h12, allReal_of_all a13 _ _ _ _ h13, allReal_of_all a14 _ _ _ _ h14, allReal_of_all a15 _ _ _ _ h15, allReal_of_all a16 _ _ _ _ h16, allReal_of_all a17 _ _ _ _ h17, allReal_of_all a18 _ _ _ _ h18, allReal_of_all a19 _ _ _ _ h19, allReal_of_all a20 _ _ _ _ h20, r21, fun i => ?_⟩
  obtain ⟨r, hr⟩ := r21 i
  have hp := nonneg_of_all a21 _ _ _ _ hge i
  rw [hr] at hp
  exact ⟨r, EReal.coe_nonneg.mp hp, hr⟩

end Cert.PreFacts

end
-- ==== Proof.Region0.lean ====
/-
  The matrix-product kernel of region 0: the array its output window holds after the whole grid.

  The grid has 25 points; point t reads rows 4000·t … 4000·t + 3999 of the left operand and the whole right operand,
  and stores, at row r and column c of its block, the sum over k of left[r, k] · right[k, c] (on the extended reals the
  rounding of the operands is the identity and the accumulator starts at zero). Row i of the output is written by point
  i / 4000, so every index is covered and the output array is the matrix product of the two input arrays.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen

/-! ## The stored value at an index of the block -/

/-- Row coordinate of the left operand's index: the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- Column coordinate of the right operand's index: the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The left operand's index of the product at output index (r, c) and contraction coordinate k is (r, k). -/
theorem lhs_idx (r : Fin 4000) (c : Fin 128) (k : Fin 128) :
    dot_S4000x128_S128x128_S4000x128_1_0_0_1_n_n.lhsIdx (ix2 r c)
      ((contrEquiv1 dot_S4000x128_S128x128_S4000x128_1_0_0_1_n_n 128 rfl rfl).symm k) = ix2 r k := by
  have hk := contrEquiv1_symm_val dot_S4000x128_S128x128_S4000x128_1_0_0_1_n_n 128 rfl rfl k
  exact funext fun a => Fin.ext (by
    match a with
    | ⟨0, _⟩ => exact lhs_row _ _
    | ⟨1, _⟩ => exact (dot_S4000x128_S128x128_S4000x128_1_0_0_1_n_n.lhsIdx_val_of_single rfl _ _).trans hk)

/-- The right operand's index is (k, c). -/
theorem rhs_idx (r : Fin 4000) (c : Fin 128) (k : Fin 128) :
    dot_S4000x128_S128x128_S4000x128_1_0_0_1_n_n.rhsIdx (ix2 r c)
      ((contrEquiv1 dot_S4000x128_S128x128_S4000x128_1_0_0_1_n_n 128 rfl rfl).symm k) = ix2 k c := by
  have hk := contrEquiv1_symm_val dot_S4000x128_S128x128_S4000x128_1_0_0_1_n_n 128 rfl rfl k
  exact funext fun a => Fin.ext (by
    match a with
    | ⟨0, _⟩ => exact (dot_S4000x128_S128x128_S4000x128_1_0_0_1_n_n.rhsIdx_val_of_single rfl _ _).trans hk
    | ⟨1, _⟩ => exact rhs_col _ _)

/-- The body's stored value at row r, column c: the sum over k of the left block at (r, k) times the right at (k, c). -/
theorem pay_apply (x0 : Vec Ideal S4000x128 .f32) (x1 : Vec Ideal S128x128 .f32) (r : Fin 4000) (c : Fin 128) :
    k0_pay1 x0 x1 (ix2 r c) = ∑ k : Fin 128, x0 (ix2 r k) * x1 (ix2 k c) := by
  unfold k0_pay1
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  rw [lhs_idx, rhs_idx]
  rfl

/-- When the left block holds rows 4000·T … of A and the right block is W, the stored value at a block index y is the
    product A·W at the array index i whose row is 4000·T + y's row and whose column is y's. -/
theorem pay_block (A : Net.Arr2 100000 128) (W : Net.Arr2 128 128) (x0 : Vec Ideal S4000x128 .f32) (x1 : Vec Ideal S128x128 .f32)
    (T : Nat) (hT : T < 25)
    (h0 : ∀ (r : Fin 4000) (k : Fin 128), x0 (ix2 r k) = A (ix2 ⟨T * 4000 + r.val, by omega⟩ k))
    (h1 : ∀ (k : Fin 128) (c : Fin 128), x1 (ix2 k c) = W (ix2 k c))
    (y : S4000x128.Idx) (i : S100000x128.Idx)
    (hi0 : (i 0).val = T * 4000 + (y 0).val) (hi1 : (i 1).val = (y 1).val) :
    k0_pay1 x0 x1 y = Net.mm A W i := by
  obtain ⟨r, c, rfl⟩ : ∃ (r : Fin 4000) (c : Fin 128), y = ix2 r c := ⟨y 0, y 1, eq_ix2 y⟩
  obtain ⟨p, q, rfl⟩ : ∃ (p : Fin 100000) (q : Fin 128), i = ix2 p q := ⟨i 0, i 1, eq_ix2 i⟩
  have hp : p = ⟨T * 4000 + r.val, by omega⟩ := Fin.ext hi0
  have hq : q = c := Fin.ext hi1
  subst hq
  rw [hp, pay_apply]
  unfold Net.mm
  exact Finset.sum_congr rfl fun k _ => congrArg₂ (· * ·) (h0 r k) (h1 k q)

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's and the output's row block index is the point,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 4000·t … of its array. -/
theorem lhs_block (c : Dev nD) (t : Fin cfg0.N) (ht : t.val < 25) (r : Fin 4000) (k : Fin 128) :
    (iblk0 V c 0 t : Vec Ideal S4000x128 .f32) (ix2 r k)
      = (V c main_arg0 : S100000x128.Idx → EReal) (ix2 ⟨t.val * 4000 + r.val, by omega⟩ k) := by
  obtain ⟨e0, e1, -, -, -, -⟩ := idx_facts t
  show (V c main_arg0 : S100000x128.Idx → EReal) (((cfg0.win 0).blk t).view.emb (ix2 r k)) = _
  refine congrArg _ (funext fun a => Fin.ext ?_)
  match a with
  | ⟨0, _⟩ => show win0_0.index t (0 : Fin 2) * 4000 + 1 * r.val = t.val * 4000 + r.val; omega
  | ⟨1, _⟩ => show win0_0.index t (1 : Fin 2) * 128 + 1 * k.val = k.val; omega

/-- The right operand's block at every point is its whole array. -/
theorem rhs_block (c : Dev nD) (t : Fin cfg0.N) (k : Fin 128) (j : Fin 128) :
    (iblk0 V c 1 t : Vec Ideal S128x128 .f32) (ix2 k j) = (V c main_arg6 : S128x128.Idx → EReal) (ix2 k j) := by
  obtain ⟨-, -, e2, e3, -, -⟩ := idx_facts t
  show (V c main_arg6 : S128x128.Idx → EReal) (((cfg0.win 1).blk t).view.emb (ix2 k j)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- What point t writes back is block t of the matrix product of the two input arrays. -/
theorem flushed_eq (c : Dev nD) (t : Fin cfg0.N) :
    (dat0 V c).flushed 2 t
      = ((cfg0.win 2).blk t).view.read (Elt Ideal) (Net.mm (V c main_arg0) (V c main_arg6)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  obtain ⟨-, -, -, -, e4, e5⟩ := idx_facts t
  have ht : t.val < 25 := by have h := t.isLt; have hN : cfg0.N = 25 := N_0; omega
  funext j
  show k0_pay1 (iblk0 V c 0 t) (iblk0 V c 1 t) ((cfg0.win 2).xinj (grid0.coords t) j)
    = Net.mm (V c main_arg0) (V c main_arg6) (((cfg0.win 2).blk t).view.emb j)
  refine pay_block (V c main_arg0) (V c main_arg6) (iblk0 V c 0 t) (iblk0 V c 1 t) t.val ht
    (lhs_block V c t ht) (rhs_block V c t) _ _ ?_ ?_
  · show win0_2.index t (0 : Fin 2) * 4000 + 1 * (j 0).val = t.val * 4000 + (j 0).val; omega
  · show win0_2.index t (1 : Fin 2) * 128 + 1 * (j 1).val = (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0).slice (win0_2.rect t)).set ↔ _
  rw [View.set_slice_whole, Rect.mem_set_unit]
  exact Iff.rfl

/-- Row i of the output lies in the block of point i / 4000, which writes its block back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by have hN : cfg0.N = 25 := N_0; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- The output array after the whole grid is the matrix product of the two input arrays as the region finds them. -/
theorem closed (c : Dev nD) :
    (dat0 (F := Ideal) V c).arrAt 2 cfg0.N = Net.mm (V c main_arg0) (V c main_arg6) :=
  (dat0 V c).arrAt_eq_of_cover 2 (Net.mm (V c main_arg0) (V c main_arg6)) (fun t _ => flushed_eq V c t) (cover)

end Cert.KernelIdeal.Region0

end
-- ==== Proof.Region1.lean ====
/-
  The first bias-and-rectifier kernel, as one function of its arrays.

  The kernel walks the 100000 rows of its operand in 25 tiles of 4000 rows. At tile `t` it loads rows
  `4000·t … 4000·t + 3999` of the operand and the whole bias row, adds the bias to every row of the tile, takes the
  maximum with zero, and stores the tile of the result. A tile's entry `(p, q)` is therefore
  `max (s[4000·t + p, q] + b[q]) 0`, which is the entry `(4000·t + p, q)` of `Cert.Net.biasRelu s b`: each tile written
  back is the matching block of that one array. Row `r` lies in tile `r / 4000`, so the 25 tiles cover the result,
  and after the last tile the result array is `Cert.Net.biasRelu s b` everywhere.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The origin of a rank-2 buffer. -/
theorem origin2 : (![0, 0] : Fin 2 → Nat) = fun _ => 0 := funext fun a => by fin_cases a <;> rfl
/-- The origin of a rank-1 buffer. -/
theorem origin1 : (![0] : Fin 1 → Nat) = fun _ => 0 := funext fun a => by fin_cases a; rfl

/-- One tile's result at `(p, q)`: the tile's operand entry plus the bias at column `q`, cut off below at zero. -/
theorem tile_apply (x0 : Vec Ideal S4000x128 .f32) (x1 : Vec Ideal S128 .f32) (p : Fin 4000) (q : Fin 128) :
    k1_pay1 x0 x1 (ix2 p q) = max (x0 (ix2 p q) + x1 (ix1 q)) 0 := by
  unfold k1_pay1
  rw [maximumf_apply, addf_apply, broadcast_apply, shapeCast_self, broadcastTo_1b_ab_apply, shapeCast_a_1a_apply]
  exact congrArg (max _) Ideal.ofBits_zero_f32

/-- A tile whose operand block is the rows of `s` that `e` names, with the bias row `b`, is the block of
    `biasRelu s b` that `e` names, provided `e` keeps the column. -/
theorem tile_eq (s : Cert.Net.Arr2 100000 128) (b : Cert.Net.Arr1 128) (x0 : Vec Ideal S4000x128 .f32) (x1 : Vec Ideal S128 .f32)
    (e : S4000x128.Idx → S100000x128.Idx) (h0 : ∀ y, x0 y = s (e y)) (h1 : ∀ y, x1 y = b y)
    (hcol : ∀ y, (e y 1).val = (y 1).val) (y : S4000x128.Idx) :
    k1_pay1 x0 x1 y = Cert.Net.biasRelu s b (e y) := by
  obtain ⟨p, q, rfl⟩ : ∃ (p : Fin 4000) (q : Fin 128), y = ix2 p q := ⟨y 0, y 1, eq_ix2 y⟩
  rw [tile_apply, h0, h1]
  unfold Cert.Net.biasRelu
  have hq : (ix1 (e (ix2 p q) 1) : (⟨1, ![128]⟩ : Shape).Idx) = ix1 q :=
    funext fun d => by match d with | ⟨0, _⟩ => exact Fin.ext (hcol (ix2 p q))
  rw [hq]

/-- Where each window's block sits at tile `t`, decided over the 25 tiles: the operand's and the result's blocks are
    row block `t`, column block 0; the bias is always its one block. -/
theorem tile_index : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What tile `t` writes back is block `t` of `biasRelu` of the operand and the bias as the region finds them. -/
theorem flushed_eq (c : Dev nD) (t : Fin cfg1.N) :
    (dat1 (F := Ideal) V c).flushed 2 t
      = ((cfg1.win 2).blk t).view.read (Elt Ideal) (Cert.Net.biasRelu (V c main_v41) (V c main_arg7)) := by
  show (cfg1.win 2).cut (grid1.coords t) ((dat1 (F := Ideal) V c).after 2 t) = _
  rw [after1_2]
  unfold out1_2
  rw [View.canon_unit_zero origin2]
  simp only [View.ld_unit_zero (S := S4000x128) origin2, View.ld_unit_zero (S := S128) origin1]
  obtain ⟨e0, e1, e2, e3, e4⟩ := tile_index t
  funext j
  show k1_pay1 (iblk1 V c 0 t) (iblk1 V c 1 t) j
    = Cert.Net.biasRelu (V c main_v41) (V c main_arg7) (((cfg1.win 2).blk t).view.emb j)
  refine tile_eq (V c main_v41) (V c main_arg7) (iblk1 V c 0 t) (iblk1 V c 1 t) (((cfg1.win 2).blk t).view.emb)
    (fun y => ?_) (fun y => ?_) (fun y => ?_) j
  · show V c main_v41 (((cfg1.win 0).blk t).view.emb y) = V c main_v41 (((cfg1.win 2).blk t).view.emb y)
    refine congrArg (V c main_v41) (funext fun a => Fin.ext ?_)
    match a with
    | ⟨0, _⟩ => show win1_0.index t (0 : Fin 2) * 4000 + 1 * (y 0).val = win1_2.index t (0 : Fin 2) * 4000 + 1 * (y 0).val; omega
    | ⟨1, _⟩ => show win1_0.index t (1 : Fin 2) * 128 + 1 * (y 1).val = win1_2.index t (1 : Fin 2) * 128 + 1 * (y 1).val; omega
  · show V c main_arg7 (((cfg1.win 1).blk t).view.emb y) = V c main_arg7 y
    refine congrArg (V c main_arg7) (funext fun a => Fin.ext ?_)
    match a with
    | ⟨0, _⟩ => show win1_1.index t (0 : Fin 1) * 128 + 1 * (y 0).val = (y 0).val; omega
  · show win1_2.index t (1 : Fin 2) * 128 + 1 * (y 1).val = (y 1).val
    omega

/-- An index of the result is in tile `t`'s block iff each coordinate is in the block's range on its axis. -/
theorem mem_blk (t : Fin cfg1.N) (i : S100000x128.Idx) :
    i ∈ ((cfg1.win 2).blk t).view.set
      ↔ ∀ a : Fin 2, win1_2.index t a * S4000x128.size a ≤ (i a).val ∧ (i a).val < win1_2.index t a * S4000x128.size a + S4000x128.size a := by
  show i ∈ ((View.whole main_v42).slice (win1_2.rect t)).set ↔ _
  rw [View.set_slice_whole, Rect.mem_set_unit]
  exact Iff.rfl

/-- Every entry of the result lies in some tile's block: row `r` in tile `r / 4000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e0, e1, e2, e3, e4⟩ := tile_index t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- After its 25 tiles the kernel's result array is `biasRelu` of its operand and its bias as the region finds them. -/
theorem closed (c : Dev nD) :
    (dat1 (F := Ideal) V c).arrAt 2 cfg1.N = Cert.Net.biasRelu (V c main_v41) (V c main_arg7) :=
  (dat1 (F := Ideal) V c).arrAt_eq_of_cover 2 (Cert.Net.biasRelu (V c main_v41) (V c main_arg7))
    (fun t _ => flushed_eq V c t) covered

end Cert.KernelIdeal.Region1

end
-- ==== Proof.Region2.lean ====
/-
  The pooling layer on 20000 rows, computed tile by tile, is the pooling layer of the whole arrays.

  The program runs over 5 tiles of 4000 rows. At tile t it reads rows 4000·t … 4000·t + 3999 of y and the whole of
  w, b, g, β, μ, var, and writes, at row r and column c of the tile,
    max ((max ((y·w)[r, c] + b[c]) 0 − μ[c]) · (g[c] · (var[c] + ε)^(-1/2)) + β[c]) 0,
  where (y·w)[r, c] = ∑ₖ y[r, k] · w[k, c] is taken over the tile's rows. That is the value of `Cert.Net.poolK` of the
  whole arrays at row 4000·t + r and column c (`pay_apply`, `spec_at`, and the reads of each block in the arrays).
  The tiles' row ranges cover every row (row ρ lies in tile ρ / 4000), so after the last tile the result array is
  `Cert.Net.poolK` of the arrays as they were when the region was entered (`closed`).
-/
import proofs.«124761_j84988812853303_1_alg».proof.Proof.Gen.KernelIdeal.Frame
import proofs.«124761_j84988812853303_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region2

open Cert.KernelIdeal Cert.KernelIdeal.Gen Idealize.ShloMosaic Idealize.ShloMosaic.ValueIdx
open Idealize.ShloMosaic.TcCoe Idealize.SL.Sem
open Idealize.ShloMosaic.Pipeline (Dat)

/-! ## The body's result at an index -/

/-- The product's left operand index at output index i and contraction index q: its row is the output's row. -/
theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column is the contraction coordinate. -/
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand index: its row is the contraction coordinate. -/
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column is the output's column. -/
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix product of a row block with the weight, read at row r and column c: the sum over the
    contraction coordinate k of block[r, k] · weight[k, c]. -/
theorem mm_apply (x0 : FVec Ideal S4000x128 .bf16) (x1 : FVec Ideal S128x128 .bf16) (r : Fin 4000) (c : Fin 128) :
    matmul dot_S4000x128_S128x128_S4000x128_1_0_0_1_n_n none x0 x1 (constant S4000x128 .f32 0x00000000#32) (ix2 r c)
      = ∑ k : Fin 128, x0 (ix2 r k) * x1 (ix2 k c) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r c) ((contrEquiv1 dot_S4000x128_S128x128_S4000x128_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 r c) ((contrEquiv1 dot_S4000x128_S128x128_S4000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-- The reciprocal square root of a vector, read at an index. -/
theorem rsqrt_apply {s : Shape} {φ : FTy} (a : FVec Ideal s φ) (i : s.Idx) : rsqrt a i = Ideal.rsqrt (a i) := rfl

/-- A scalar constant on the extended reals is the number its word encodes. -/
theorem scalar_ofBits (b : BitVec (FTy.bits .f32)) : Scalar.ofBits (F := Ideal) .f32 b = Ideal.ofBits .f32 b := rfl

/-- A vector of 128 entries, made a row and repeated over 4000 rows, reads its entry at the column. -/
theorem row_apply (v : FVec Ideal S128 .f32) (r : Fin 4000) (c : Fin 128) :
    broadcastTo S4000x128 (shapeCast S1x128 v shapeCasts_S128_S1x128) broadcasts_S1x128_S4000x128 (ix2 r c) = v (ix1 c) := by
  rw [broadcastTo_1b_ab_apply, shapeCast_a_1a_apply]

/-- THE BODY'S RESULT AT ROW r AND COLUMN c of a row block: the linear layer, the rectifier, the normalisation
    with the scale g · (var + ε)^(-1/2), and the second rectifier, of the loaded blocks. -/
theorem pay_apply (x0 : Vec Ideal S4000x128 .f32) (x1 : Vec Ideal S128x128 .f32) (xb xg xv xm xbeta : Vec Ideal S128 .f32)
    (r : Fin 4000) (c : Fin 128) :
    k2_pay1 x0 x1 xb xg xv xm xbeta (ix2 r c)
      = max ((max ((∑ k : Fin 128, x0 (ix2 r k) * x1 (ix2 k c)) + xb (ix1 c)) 0 - xm (ix1 c))
          * (xg (ix1 c) * Ideal.rsqrt (xv (ix1 c) + Ideal.ofBits .f32 0x3727C5AC#32)) + xbeta (ix1 c)) 0 := by
  unfold k2_pay1
  simp only [shapeCast_self]
  rw [maximumf_apply, addf_apply, mulf_apply, subf_apply, maximumf_apply, addf_apply, mm_apply,
    row_apply, row_apply, row_apply, row_apply, mulf_apply, rsqrt_apply, addf_apply]
  simp only [broadcast_apply, truncf_apply, scalar_ofBits, Ideal.ofBits_zero_f32]

/-- The pooling layer of whole arrays, read at row R and column c. -/
theorem spec_at (Y : Cert.Net.Arr2 20000 128) (W : Cert.Net.Arr2 128 128) (B G Beta Mean Var : Cert.Net.Arr1 128) (eps : EReal)
    (R : Fin 20000) (c : Fin 128) :
    Cert.Net.poolK Y W B G Beta Mean Var eps (ix2 R c)
      = max ((max ((∑ k : Fin 128, Y (ix2 R k) * W (ix2 k c)) + B (ix1 c)) 0 - Mean (ix1 c))
          * (G (ix1 c) * Ideal.rsqrt (Var (ix1 c) + eps)) + Beta (ix1 c)) 0 := rfl

/-! ## The grid's blocks -/

theorem hz : (![0, 0] : Fin 2 → Nat) = fun _ => 0 := funext fun a => by fin_cases a <;> rfl
theorem hz1 : (![0] : Fin 1 → Nat) = fun _ => 0 := funext fun a => by fin_cases a <;> rfl

/-- The index maps, decided over the grid: the row operand and the result move together, one block of 4000 rows
    per point, and every other operand stays at its one block. -/
theorem idx_facts : ∀ t : Fin cfg2.N, win2_7.index t (0 : Fin 2) = t.val ∧ win2_7.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 1) = 0 ∧ win2_6.index t (0 : Fin 1) = 0 :=
  (by decide +kernel : ∀ t : Fin grid2.N, _)

/-- An index of the result array is in point t's block iff each coordinate is in the block's range on its axis. -/
theorem mem_blk (t : Fin cfg2.N) (i : S20000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v58).slice (win2_7.rect t)).set ↔ _
  rw [View.set_slice_whole, Rect.mem_set_unit]
  exact Iff.rfl

/-- Every index of the result array is in the block of the point its row falls in: row ρ is in block ρ / 4000. -/
theorem cover (i : S20000x128.Idx) : ∃ t : Fin cfg2.N, (cfg2.win 7).flush t = true ∧ i ∈ ((cfg2.win 7).blk t).view.set := by
  have hi0 : (i 0).val < 20000 := (i 0).isLt
  have hi1 : (i 1).val < 128 := (i 1).isLt
  have hN : cfg2.N = 5 := N_2
  have ht : (i 0).val / 4000 < cfg2.N := by rw [hN]; omega
  obtain ⟨e0, e1, -⟩ := idx_facts ⟨(i 0).val / 4000, ht⟩
  refine ⟨⟨(i 0).val / 4000, ht⟩, flush2_7 _, ?_⟩
  rw [mem_blk]
  intro a
  match a with
  | ⟨0, _⟩ =>
    show win2_7.index ⟨(i 0).val / 4000, ht⟩ (0 : Fin 2) * 4000 ≤ (i 0).val ∧ (i 0).val < win2_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_7.index ⟨(i 0).val / 4000, ht⟩ (1 : Fin 2) * 128 ≤ (i 1).val ∧ (i 1).val < win2_7.index ⟨(i 0).val / 4000, ht⟩ (1 : Fin 2) * 128 + 128
    rw [e1]; omega

/-! ## Each window's block as the array read where the block sits -/

variable (V : (c : Dev nD) → (b : Ref sig .tc) → Buf (Elt Ideal) ((c : Thread nD τ).loc b))

/-- Row block t of the first operand: its row r is row t·4000 + r of the array. -/
theorem rows_read (c : Dev nD) (t : Fin cfg2.N) (r : Fin 4000) (k : Fin 128) (R : Fin 20000) (hR : R.val = t.val * 4000 + r.val) :
    (iblk2 V c 0 t : Vec Ideal S4000x128 .f32) (ix2 r k) = (V c main_v45 : S20000x128.Idx → EReal) (ix2 R k) := by
  obtain ⟨-, -, e0, e1, -⟩ := idx_facts t
  show V c main_v45 (((cfg2.win 0).blk t).view.emb (ix2 r k)) = _
  refine congrArg _ (funext fun a => Fin.ext ?_)
  match a with
  | ⟨0, _⟩ => show win2_0.index t (0 : Fin 2) * 4000 + 1 * r.val = R.val; omega
  | ⟨1, _⟩ => show win2_0.index t (1 : Fin 2) * 128 + 1 * k.val = k.val; omega

/-- The weight's one block is the whole weight. -/
theorem weight_read (c : Dev nD) (t : Fin cfg2.N) :
    (iblk2 V c 1 t : Vec Ideal S128x128 .f32) = (V c main_v47 : S128x128.Idx → EReal) := by
  obtain ⟨-, -, -, -, e0, e1, -⟩ := idx_facts t
  funext y
  show V c main_v47 (((cfg2.win 1).blk t).view.emb y) = V c main_v47 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias's one block is the whole vector. -/
theorem vec2_read (c : Dev nD) (t : Fin cfg2.N) :
    (iblk2 V c 2 t : Vec Ideal S128 .f32) = (V c main_v49 : S128.Idx → EReal) := by
  obtain ⟨-, -, -, -, -, -, e, -⟩ := idx_facts t
  funext y
  show V c main_v49 (((cfg2.win 2).blk t).view.emb y) = V c main_v49 y
  refine congrArg _ (funext fun a => Fin.ext ?_)
  match a with
  | ⟨0, _⟩ => show win2_2.index t (0 : Fin 1) * 128 + 1 * (y 0).val = (y 0).val; omega

/-- The gain's one block is the whole vector. -/
theorem vec3_read (c : Dev nD) (t : Fin cfg2.N) :
    (iblk2 V c 3 t : Vec Ideal S128 .f32) = (V c main_v51 : S128.Idx → EReal) := by
  obtain ⟨-, -, -, -, -, -, -, e, -⟩ := idx_facts t
  funext y
  show V c main_v51 (((cfg2.win 3).blk t).view.emb y) = V c main_v51 y
  refine congrArg _ (funext fun a => Fin.ext ?_)
  match a with
  | ⟨0, _⟩ => show win2_3.index t (0 : Fin 1) * 128 + 1 * (y 0).val = (y 0).val; omega

/-- The shift's one block is the whole vector. -/
theorem vec4_read (c : Dev nD) (t : Fin cfg2.N) :
    (iblk2 V c 4 t : Vec Ideal S128 .f32) = (V c main_v53 : S128.Idx → EReal) := by
  obtain ⟨-, -, -, -, -, -, -, -, e, -⟩ := idx_facts t
  funext y
  show V c main_v53 (((cfg2.win 4).blk t).view.emb y) = V c main_v53 y
  refine congrArg _ (funext fun a => Fin.ext ?_)
  match a with
  | ⟨0, _⟩ => show win2_4.index t (0 : Fin 1) * 128 + 1 * (y 0).val = (y 0).val; omega

/-- The mean's one block is the whole vector. -/
theorem vec5_read (c : Dev nD) (t : Fin cfg2.N) :
    (iblk2 V c 5 t : Vec Ideal S128 .f32) = (V c main_v55 : S128.Idx → EReal) := by
  obtain ⟨-, -, -, -, -, -, -, -, -, e, -⟩ := idx_facts t
  funext y
  show V c main_v55 (((cfg2.win 5).blk t).view.emb y) = V c main_v55 y
  refine congrArg _ (funext fun a => Fin.ext ?_)
  match a with
  | ⟨0, _⟩ => show win2_5.index t (0 : Fin 1) * 128 + 1 * (y 0).val = (y 0).val; omega

/-- The variance's one block is the whole vector. -/
theorem vec6_read (c : Dev nD) (t : Fin cfg2.N) :
    (iblk2 V c 6 t : Vec Ideal S128 .f32) = (V c main_v57 : S128.Idx → EReal) := by
  obtain ⟨-, -, -, -, -, -, -, -, -, -, e⟩ := idx_facts t
  funext y
  show V c main_v57 (((cfg2.win 6).blk t).view.emb y) = V c main_v57 y
  refine congrArg _ (funext fun a => Fin.ext ?_)
  match a with
  | ⟨0, _⟩ => show win2_6.index t (0 : Fin 1) * 128 + 1 * (y 0).val = (y 0).val; omega

/-- The result's block t, read at row r and column c, sits at row t·4000 + r and column c of the array. -/
theorem out_emb (t : Fin cfg2.N) (r : Fin 4000) (c' : Fin 128) (R : Fin 20000) (hR : R.val = t.val * 4000 + r.val) :
    ((cfg2.win 7).blk t).view.emb (ix2 r c') = (ix2 R c' : S20000x128.Idx) := by
  obtain ⟨e0, e1, -⟩ := idx_facts t
  funext a; apply Fin.ext
  match a with
  | ⟨0, _⟩ => show win2_7.index t (0 : Fin 2) * 4000 + 1 * r.val = R.val; omega
  | ⟨1, _⟩ => show win2_7.index t (1 : Fin 2) * 128 + 1 * c'.val = c'.val; omega

/-! ## From the blocks to the array -/

/-- What the result array holds after the region: the pooling layer of the arrays the region finds. -/
abbrev result (c : Dev nD) : S20000x128.Idx → EReal :=
  Cert.Net.poolK (V c main_v45) (V c main_v47) (V c main_v49) (V c main_v51) (V c main_v53) (V c main_v55) (V c main_v57)
    (Ideal.ofBits .f32 0x3727C5AC#32)

/-- WHAT POINT t WRITES BACK is block t of the pooling layer of the arrays the region finds. -/
theorem flushed_eq (c : Dev nD) (t : Fin cfg2.N) :
    (dat2 V c).flushed 7 t = ((cfg2.win 7).blk t).view.read (Elt Ideal) (result V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S128x128) hz, View.ld_unit_zero (S := S128) hz1]
  funext j
  obtain ⟨r, c', rfl⟩ : ∃ (r : Fin 4000) (c' : Fin 128), j = ix2 r c' := ⟨j 0, j 1, eq_ix2 j⟩
  have hN : cfg2.N = 5 := N_2
  have hlt : t.val * 4000 + r.val < 20000 := by have := t.isLt; omega
  show k2_pay1 (iblk2 V c 0 t) (iblk2 V c 1 t) (iblk2 V c 2 t) (iblk2 V c 3 t) (iblk2 V c 6 t) (iblk2 V c 5 t) (iblk2 V c 4 t) (ix2 r c')
    = result V c (((cfg2.win 7).blk t).view.emb (ix2 r c'))
  rw [out_emb t r c' ⟨t.val * 4000 + r.val, hlt⟩ rfl]
  refine (pay_apply (iblk2 V c 0 t) (iblk2 V c 1 t) (iblk2 V c 2 t) (iblk2 V c 3 t) (iblk2 V c 6 t) (iblk2 V c 5 t) (iblk2 V c 4 t) r c').trans ?_
  rw [weight_read V c t, vec2_read V c t, vec3_read V c t, vec4_read V c t, vec5_read V c t, vec6_read V c t]
  simp only [rows_read V c t r _ ⟨t.val * 4000 + r.val, hlt⟩ rfl]
  exact (spec_at _ _ _ _ _ _ _ _ _ _).symm

/-- THE RESULT ARRAY after the region's 5 grid points is the pooling layer of the arrays the region finds. -/
theorem closed (c : Dev nD) :
    (dat2 (F := Ideal) V c).arrAt 7 cfg2.N
      = Cert.Net.poolK (V c main_v45) (V c main_v47) (V c main_v49) (V c main_v51) (V c main_v53) (V c main_v55) (V c main_v57)
          (Ideal.ofBits .f32 0x3727C5AC#32) :=
  (dat2 V c).arrAt_eq_of_cover 7 (result V c) (fun t _ => flushed_eq V c t) cover

end Cert.KernelIdeal.Region2

end
-- ==== Proof.Region3.lean ====
/-
  The matrix-product kernel of region 3: the array its output window holds after the whole grid.

  The grid has 5 points; point t reads rows 4000·t … 4000·t + 3999 of the left operand and the whole right operand,
  and stores, at row r and column c of its block, the sum over k of left[r, k] · right[k, c] (on the extended reals the
  rounding of the operands is the identity and the accumulator starts at zero). Row i of the output is written by point
  i / 4000, so every index is covered and the output array is the matrix product of the two input arrays.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region3

open Cert.KernelIdeal Cert.KernelIdeal.Gen

/-! ## The stored value at an index of the block -/

/-- Row coordinate of the left operand's index: the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- Column coordinate of the right operand's index: the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The left operand's index of the product at output index (r, c) and contraction coordinate k is (r, k). -/
theorem lhs_idx (r : Fin 4000) (c : Fin 128) (k : Fin 128) :
    dot_S4000x128_S128x128_S4000x128_1_0_0_1_n_n.lhsIdx (ix2 r c)
      ((contrEquiv1 dot_S4000x128_S128x128_S4000x128_1_0_0_1_n_n 128 rfl rfl).symm k) = ix2 r k := by
  have hk := contrEquiv1_symm_val dot_S4000x128_S128x128_S4000x128_1_0_0_1_n_n 128 rfl rfl k
  exact funext fun a => Fin.ext (by
    match a with
    | ⟨0, _⟩ => exact lhs_row _ _
    | ⟨1, _⟩ => exact (dot_S4000x128_S128x128_S4000x128_1_0_0_1_n_n.lhsIdx_val_of_single rfl _ _).trans hk)

/-- The right operand's index is (k, c). -/
theorem rhs_idx (r : Fin 4000) (c : Fin 128) (k : Fin 128) :
    dot_S4000x128_S128x128_S4000x128_1_0_0_1_n_n.rhsIdx (ix2 r c)
      ((contrEquiv1 dot_S4000x128_S128x128_S4000x128_1_0_0_1_n_n 128 rfl rfl).symm k) = ix2 k c := by
  have hk := contrEquiv1_symm_val dot_S4000x128_S128x128_S4000x128_1_0_0_1_n_n 128 rfl rfl k
  exact funext fun a => Fin.ext (by
    match a with
    | ⟨0, _⟩ => exact (dot_S4000x128_S128x128_S4000x128_1_0_0_1_n_n.rhsIdx_val_of_single rfl _ _).trans hk
    | ⟨1, _⟩ => exact rhs_col _ _)

/-- The body's stored value at row r, column c: the sum over k of the left block at (r, k) times the right at (k, c). -/
theorem pay_apply (x0 : Vec Ideal S4000x128 .f32) (x1 : Vec Ideal S128x128 .f32) (r : Fin 4000) (c : Fin 128) :
    k3_pay1 x0 x1 (ix2 r c) = ∑ k : Fin 128, x0 (ix2 r k) * x1 (ix2 k c) := by
  unfold k3_pay1
  simp only [matmul, shapeCast_self]
  rw [Ideal.matmul_constant_zero_apply,
    ← Equiv.sum_comp (contrEquiv1 dot_S4000x128_S128x128_S4000x128_1_0_0_1_n_n 128 rfl rfl).symm]
  refine Finset.sum_congr rfl fun k _ => ?_
  rw [lhs_idx, rhs_idx]
  rfl

/-- When the left block holds rows 4000·T … of A and the right block is W, the stored value at a block index y is the
    product A·W at the array index i whose row is 4000·T + y's row and whose column is y's. -/
theorem pay_block (A : Net.Arr2 20000 128) (W : Net.Arr2 128 128) (x0 : Vec Ideal S4000x128 .f32) (x1 : Vec Ideal S128x128 .f32)
    (T : Nat) (hT : T < 5)
    (h0 : ∀ (r : Fin 4000) (k : Fin 128), x0 (ix2 r k) = A (ix2 ⟨T * 4000 + r.val, by omega⟩ k))
    (h1 : ∀ (k : Fin 128) (c : Fin 128), x1 (ix2 k c) = W (ix2 k c))
    (y : S4000x128.Idx) (i : S20000x128.Idx)
    (hi0 : (i 0).val = T * 4000 + (y 0).val) (hi1 : (i 1).val = (y 1).val) :
    k3_pay1 x0 x1 y = Net.mm A W i := by
  obtain ⟨r, c, rfl⟩ : ∃ (r : Fin 4000) (c : Fin 128), y = ix2 r c := ⟨y 0, y 1, eq_ix2 y⟩
  obtain ⟨p, q, rfl⟩ : ∃ (p : Fin 20000) (q : Fin 128), i = ix2 p q := ⟨i 0, i 1, eq_ix2 i⟩
  have hp : p = ⟨T * 4000 + r.val, by omega⟩ := Fin.ext hi0
  have hq : q = c := Fin.ext hi1
  subst hq
  rw [hp, pay_apply]
  unfold Net.mm
  exact Finset.sum_congr rfl fun k _ => congrArg₂ (· * ·) (h0 r k) (h1 k q)

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's and the output's row block index is the point,
    every other block index is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t is rows 4000·t … of its array. -/
theorem lhs_block (c : Dev nD) (t : Fin cfg3.N) (ht : t.val < 5) (r : Fin 4000) (k : Fin 128) :
    (iblk3 V c 0 t : Vec Ideal S4000x128 .f32) (ix2 r k)
      = (V c main_v58 : S20000x128.Idx → EReal) (ix2 ⟨t.val * 4000 + r.val, by omega⟩ k) := by
  obtain ⟨e0, e1, -, -, -, -⟩ := idx_facts t
  show (V c main_v58 : S20000x128.Idx → EReal) (((cfg3.win 0).blk t).view.emb (ix2 r k)) = _
  refine congrArg _ (funext fun a => Fin.ext ?_)
  match a with
  | ⟨0, _⟩ => show win3_0.index t (0 : Fin 2) * 4000 + 1 * r.val = t.val * 4000 + r.val; omega
  | ⟨1, _⟩ => show win3_0.index t (1 : Fin 2) * 128 + 1 * k.val = k.val; omega

/-- The right operand's block at every point is its whole array. -/
theorem rhs_block (c : Dev nD) (t : Fin cfg3.N) (k : Fin 128) (j : Fin 128) :
    (iblk3 V c 1 t : Vec Ideal S128x128 .f32) (ix2 k j) = (V c main_arg8 : S128x128.Idx → EReal) (ix2 k j) := by
  obtain ⟨-, -, e2, e3, -, -⟩ := idx_facts t
  show (V c main_arg8 : S128x128.Idx → EReal) (((cfg3.win 1).blk t).view.emb (ix2 k j)) = _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * j.val = j.val; omega

/-- What point t writes back is block t of the matrix product of the two input arrays. -/
theorem flushed_eq (c : Dev nD) (t : Fin cfg3.N) :
    (dat3 V c).flushed 2 t
      = ((cfg3.win 2).blk t).view.read (Elt Ideal) (Net.mm (V c main_v58) (V c main_arg8)) := by
  show (cfg3.win 2).cut (grid3.coords t) ((dat3 V c).after 2 t) = _
  rw [after3_2]
  unfold out3_2
  rw [View.canon_unit_zero zero_offsets]
  simp only [View.ld_unit_zero (S := S4000x128) zero_offsets, View.ld_unit_zero (S := S128x128) zero_offsets]
  obtain ⟨-, -, -, -, e4, e5⟩ := idx_facts t
  have ht : t.val < 5 := by have h := t.isLt; have hN : cfg3.N = 5 := N_3; omega
  funext j
  show k3_pay1 (iblk3 V c 0 t) (iblk3 V c 1 t) ((cfg3.win 2).xinj (grid3.coords t) j)
    = Net.mm (V c main_v58) (V c main_arg8) (((cfg3.win 2).blk t).view.emb j)
  refine pay_block (V c main_v58) (V c main_arg8) (iblk3 V c 0 t) (iblk3 V c 1 t) t.val ht
    (lhs_block V c t ht) (rhs_block V c t) _ _ ?_ ?_
  · show win3_2.index t (0 : Fin 2) * 4000 + 1 * (j 0).val = t.val * 4000 + (j 0).val; omega
  · show win3_2.index t (1 : Fin 2) * 128 + 1 * (j 1).val = (j 1).val; omega

/-- An index of the output array is in point t's block iff each coordinate is in the block's range on its axis. -/
theorem mem_blk (t : Fin cfg3.N) (i : S20000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v59).slice (win3_2.rect t)).set ↔ _
  rw [View.set_slice_whole, Rect.mem_set_unit]
  exact Iff.rfl

/-- Row i of the output lies in the block of point i / 4000, which writes its block back. -/
theorem cover (i : S20000x128.Idx) :
    ∃ t : Fin cfg3.N, (cfg3.win 2).flush t = true ∧ i ∈ ((cfg3.win 2).blk t).view.set := by
  have hi0 : (i 0).val < 20000 := (i 0).isLt
  have hi1 : (i 1).val < 128 := (i 1).isLt
  obtain ⟨t, ht⟩ : ∃ t : Fin cfg3.N, t.val = (i 0).val / 4000 :=
    ⟨⟨(i 0).val / 4000, by have hN : cfg3.N = 5 := N_3; omega⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 4000 ≤ (i 0).val ∧ (i 0).val < win3_2.index t (0 : Fin 2) * 4000 + 4000
    omega
  | ⟨1, _⟩ =>
    show win3_2.index t (1 : Fin 2) * 128 ≤ (i 1).val ∧ (i 1).val < win3_2.index t (1 : Fin 2) * 128 + 128
    omega

/-- The output array after the whole grid is the matrix product of the two input arrays as the region finds them. -/
theorem closed (c : Dev nD) :
    (dat3 (F := Ideal) V c).arrAt 2 cfg3.N = Net.mm (V c main_v58) (V c main_arg8) :=
  (dat3 V c).arrAt_eq_of_cover 2 (Net.mm (V c main_v58) (V c main_arg8)) (fun t _ => flushed_eq V c t) (cover)

end Cert.KernelIdeal.Region3

end
-- ==== Proof.Region4.lean ====
/-
  The second bias-and-rectifier kernel, as one function of its arrays.

  The kernel walks the 20000 rows of its operand in 5 tiles of 4000 rows. At tile `t` it loads rows
  `4000·t … 4000·t + 3999` of the operand and the whole bias row, adds the bias to every row of the tile, takes the
  maximum with zero, and stores the tile of the result. A tile's entry `(p, q)` is therefore
  `max (s[4000·t + p, q] + b[q]) 0`, which is the entry `(4000·t + p, q)` of `Cert.Net.biasRelu s b`: each tile written
  back is the matching block of that one array. Row `r` lies in tile `r / 4000`, so the 5 tiles cover the result,
  and after the last tile the result array is `Cert.Net.biasRelu s b` everywhere.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The origin of a rank-2 buffer. -/
theorem origin2 : (![0, 0] : Fin 2 → Nat) = fun _ => 0 := funext fun a => by fin_cases a <;> rfl
/-- The origin of a rank-1 buffer. -/
theorem origin1 : (![0] : Fin 1 → Nat) = fun _ => 0 := funext fun a => by fin_cases a; rfl

/-- One tile's result at `(p, q)`: the tile's operand entry plus the bias at column `q`, cut off below at zero. -/
theorem tile_apply (x0 : Vec Ideal S4000x128 .f32) (x1 : Vec Ideal S128 .f32) (p : Fin 4000) (q : Fin 128) :
    k4_pay1 x0 x1 (ix2 p q) = max (x0 (ix2 p q) + x1 (ix1 q)) 0 := by
  unfold k4_pay1
  rw [maximumf_apply, addf_apply, broadcast_apply, shapeCast_self, broadcastTo_1b_ab_apply, shapeCast_a_1a_apply]
  exact congrArg (max _) Ideal.ofBits_zero_f32

/-- A tile whose operand block is the rows of `s` that `e` names, with the bias row `b`, is the block of
    `biasRelu s b` that `e` names, provided `e` keeps the column. -/
theorem tile_eq (s : Cert.Net.Arr2 20000 128) (b : Cert.Net.Arr1 128) (x0 : Vec Ideal S4000x128 .f32) (x1 : Vec Ideal S128 .f32)
    (e : S4000x128.Idx → S20000x128.Idx) (h0 : ∀ y, x0 y = s (e y)) (h1 : ∀ y, x1 y = b y)
    (hcol : ∀ y, (e y 1).val = (y 1).val) (y : S4000x128.Idx) :
    k4_pay1 x0 x1 y = Cert.Net.biasRelu s b (e y) := by
  obtain ⟨p, q, rfl⟩ : ∃ (p : Fin 4000) (q : Fin 128), y = ix2 p q := ⟨y 0, y 1, eq_ix2 y⟩
  rw [tile_apply, h0, h1]
  unfold Cert.Net.biasRelu
  have hq : (ix1 (e (ix2 p q) 1) : (⟨1, ![128]⟩ : Shape).Idx) = ix1 q :=
    funext fun d => by match d with | ⟨0, _⟩ => exact Fin.ext (hcol (ix2 p q))
  rw [hq]

/-- Where each window's block sits at tile `t`, decided over the 5 tiles: the operand's and the result's blocks are
    row block `t`, column block 0; the bias is always its one block. -/
theorem tile_index : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

/-- What tile `t` writes back is block `t` of `biasRelu` of the operand and the bias as the region finds them. -/
theorem flushed_eq (c : Dev nD) (t : Fin cfg4.N) :
    (dat4 (F := Ideal) V c).flushed 2 t
      = ((cfg4.win 2).blk t).view.read (Elt Ideal) (Cert.Net.biasRelu (V c main_v100) (V c main_arg9)) := by
  show (cfg4.win 2).cut (grid4.coords t) ((dat4 (F := Ideal) V c).after 2 t) = _
  rw [after4_2]
  unfold out4_2
  rw [View.canon_unit_zero origin2]
  simp only [View.ld_unit_zero (S := S4000x128) origin2, View.ld_unit_zero (S := S128) origin1]
  obtain ⟨e0, e1, e2, e3, e4⟩ := tile_index t
  funext j
  show k4_pay1 (iblk4 V c 0 t) (iblk4 V c 1 t) j
    = Cert.Net.biasRelu (V c main_v100) (V c main_arg9) (((cfg4.win 2).blk t).view.emb j)
  refine tile_eq (V c main_v100) (V c main_arg9) (iblk4 V c 0 t) (iblk4 V c 1 t) (((cfg4.win 2).blk t).view.emb)
    (fun y => ?_) (fun y => ?_) (fun y => ?_) j
  · show V c main_v100 (((cfg4.win 0).blk t).view.emb y) = V c main_v100 (((cfg4.win 2).blk t).view.emb y)
    refine congrArg (V c main_v100) (funext fun a => Fin.ext ?_)
    match a with
    | ⟨0, _⟩ => show win4_0.index t (0 : Fin 2) * 4000 + 1 * (y 0).val = win4_2.index t (0 : Fin 2) * 4000 + 1 * (y 0).val; omega
    | ⟨1, _⟩ => show win4_0.index t (1 : Fin 2) * 128 + 1 * (y 1).val = win4_2.index t (1 : Fin 2) * 128 + 1 * (y 1).val; omega
  · show V c main_arg9 (((cfg4.win 1).blk t).view.emb y) = V c main_arg9 y
    refine congrArg (V c main_arg9) (funext fun a => Fin.ext ?_)
    match a with
    | ⟨0, _⟩ => show win4_1.index t (0 : Fin 1) * 128 + 1 * (y 0).val = (y 0).val; omega
  · show win4_2.index t (1 : Fin 2) * 128 + 1 * (y 1).val = (y 1).val
    omega

/-- An index of the result is in tile `t`'s block iff each coordinate is in the block's range on its axis. -/
theorem mem_blk (t : Fin cfg4.N) (i : S20000x128.Idx) :
    i ∈ ((cfg4.win 2).blk t).view.set
      ↔ ∀ a : Fin 2, win4_2.index t a * S4000x128.size a ≤ (i a).val ∧ (i a).val < win4_2.index t a * S4000x128.size a + S4000x128.size a := by
  show i ∈ ((View.whole main_v101).slice (win4_2.rect t)).set ↔ _
  rw [View.set_slice_whole, Rect.mem_set_unit]
  exact Iff.rfl

/-- Every entry of the result lies in some tile's block: row `r` in tile `r / 4000`. -/
theorem covered (i : S20000x128.Idx) :
    ∃ t : Fin cfg4.N, (cfg4.win 2).flush t = true ∧ i ∈ ((cfg4.win 2).blk t).view.set := by
  have hi0 : (i 0).val < 20000 := (i 0).isLt
  have hi1 : (i 1).val < 128 := (i 1).isLt
  have hN : cfg4.N = 5 := N_4
  let t : Fin cfg4.N := ⟨(i 0).val / 4000, by rw [hN]; omega⟩
  obtain ⟨e0, e1, e2, e3, e4⟩ := tile_index t
  have ht : t.val = (i 0).val / 4000 := rfl
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- After its 5 tiles the kernel's result array is `biasRelu` of its operand and its bias as the region finds them. -/
theorem closed (c : Dev nD) :
    (dat4 (F := Ideal) V c).arrAt 2 cfg4.N = Cert.Net.biasRelu (V c main_v100) (V c main_arg9) :=
  (dat4 (F := Ideal) V c).arrAt_eq_of_cover 2 (Cert.Net.biasRelu (V c main_v100) (V c main_arg9))
    (fun t _ => flushed_eq V c t) covered

end Cert.KernelIdeal.Region4

end
-- ==== Proof.Region5.lean ====
/-
  The pooling layer on 4000 rows, computed tile by tile, is the pooling layer of the whole arrays.

  The program runs over 1 tile of 4000 rows. At tile t it reads rows 4000·t … 4000·t + 3999 of y and the whole of
  w, b, g, β, μ, var, and writes, at row r and column c of the tile,
    max ((max ((y·w)[r, c] + b[c]) 0 − μ[c]) · (g[c] · (var[c] + ε)^(-1/2)) + β[c]) 0,
  where (y·w)[r, c] = ∑ₖ y[r, k] · w[k, c] is taken over the tile's rows. That is the value of `Cert.Net.poolK` of the
  whole arrays at row 4000·t + r and column c (`pay_apply`, `spec_at`, and the reads of each block in the arrays).
  The tiles' row ranges cover every row (row ρ lies in tile ρ / 4000), so after the last tile the result array is
  `Cert.Net.poolK` of the arrays as they were when the region was entered (`closed`).
-/
import proofs.«124761_j84988812853303_1_alg».proof.Proof.Gen.KernelIdeal.Frame
import proofs.«124761_j84988812853303_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region5

open Cert.KernelIdeal Cert.KernelIdeal.Gen Idealize.ShloMosaic Idealize.ShloMosaic.ValueIdx
open Idealize.ShloMosaic.TcCoe Idealize.SL.Sem
open Idealize.ShloMosaic.Pipeline (Dat)

/-! ## The body's result at an index -/

/-- The product's left operand index at output index i and contraction index q: its row is the output's row. -/
theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column is the contraction coordinate. -/
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand index: its row is the contraction coordinate. -/
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column is the output's column. -/
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix product of a row block with the weight, read at row r and column c: the sum over the
    contraction coordinate k of block[r, k] · weight[k, c]. -/
theorem mm_apply (x0 : FVec Ideal S4000x128 .bf16) (x1 : FVec Ideal S128x128 .bf16) (r : Fin 4000) (c : Fin 128) :
    matmul dot_S4000x128_S128x128_S4000x128_1_0_0_1_n_n none x0 x1 (constant S4000x128 .f32 0x00000000#32) (ix2 r c)
      = ∑ k : Fin 128, x0 (ix2 r k) * x1 (ix2 k c) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r c) ((contrEquiv1 dot_S4000x128_S128x128_S4000x128_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 r c) ((contrEquiv1 dot_S4000x128_S128x128_S4000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-- The reciprocal square root of a vector, read at an index. -/
theorem rsqrt_apply {s : Shape} {φ : FTy} (a : FVec Ideal s φ) (i : s.Idx) : rsqrt a i = Ideal.rsqrt (a i) := rfl

/-- A scalar constant on the extended reals is the number its word encodes. -/
theorem scalar_ofBits (b : BitVec (FTy.bits .f32)) : Scalar.ofBits (F := Ideal) .f32 b = Ideal.ofBits .f32 b := rfl

/-- A vector of 128 entries, made a row and repeated over 4000 rows, reads its entry at the column. -/
theorem row_apply (v : FVec Ideal S128 .f32) (r : Fin 4000) (c : Fin 128) :
    broadcastTo S4000x128 (shapeCast S1x128 v shapeCasts_S128_S1x128) broadcasts_S1x128_S4000x128 (ix2 r c) = v (ix1 c) := by
  rw [broadcastTo_1b_ab_apply, shapeCast_a_1a_apply]

/-- THE BODY'S RESULT AT ROW r AND COLUMN c of a row block: the linear layer, the rectifier, the normalisation
    with the scale g · (var + ε)^(-1/2), and the second rectifier, of the loaded blocks. -/
theorem pay_apply (x0 : Vec Ideal S4000x128 .f32) (x1 : Vec Ideal S128x128 .f32) (xb xg xv xm xbeta : Vec Ideal S128 .f32)
    (r : Fin 4000) (c : Fin 128) :
    k5_pay1 x0 x1 xb xg xv xm xbeta (ix2 r c)
      = max ((max ((∑ k : Fin 128, x0 (ix2 r k) * x1 (ix2 k c)) + xb (ix1 c)) 0 - xm (ix1 c))
          * (xg (ix1 c) * Ideal.rsqrt (xv (ix1 c) + Ideal.ofBits .f32 0x3727C5AC#32)) + xbeta (ix1 c)) 0 := by
  unfold k5_pay1
  simp only [shapeCast_self]
  rw [maximumf_apply, addf_apply, mulf_apply, subf_apply, maximumf_apply, addf_apply, mm_apply,
    row_apply, row_apply, row_apply, row_apply, mulf_apply, rsqrt_apply, addf_apply]
  simp only [broadcast_apply, truncf_apply, scalar_ofBits, Ideal.ofBits_zero_f32]

/-- The pooling layer of whole arrays, read at row R and column c. -/
theorem spec_at (Y : Cert.Net.Arr2 4000 128) (W : Cert.Net.Arr2 128 128) (B G Beta Mean Var : Cert.Net.Arr1 128) (eps : EReal)
    (R : Fin 4000) (c : Fin 128) :
    Cert.Net.poolK Y W B G Beta Mean Var eps (ix2 R c)
      = max ((max ((∑ k : Fin 128, Y (ix2 R k) * W (ix2 k c)) + B (ix1 c)) 0 - Mean (ix1 c))
          * (G (ix1 c) * Ideal.rsqrt (Var (ix1 c) + eps)) + Beta (ix1 c)) 0 := rfl

/-! ## The grid's blocks -/

theorem hz : (![0, 0] : Fin 2 → Nat) = fun _ => 0 := funext fun a => by fin_cases a <;> rfl
theorem hz1 : (![0] : Fin 1 → Nat) = fun _ => 0 := funext fun a => by fin_cases a <;> rfl

/-- The index maps, decided over the grid: the row operand and the result move together, one block of 4000 rows
    per point, and every other operand stays at its one block. -/
theorem idx_facts : ∀ t : Fin cfg5.N, win5_7.index t (0 : Fin 2) = t.val ∧ win5_7.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 1) = 0 ∧ win5_3.index t (0 : Fin 1) = 0 ∧ win5_4.index t (0 : Fin 1) = 0
    ∧ win5_5.index t (0 : Fin 1) = 0 ∧ win5_6.index t (0 : Fin 1) = 0 :=
  (by decide +kernel : ∀ t : Fin grid5.N, _)

/-- An index of the result array is in point t's block iff each coordinate is in the block's range on its axis. -/
theorem mem_blk (t : Fin cfg5.N) (i : S4000x128.Idx) :
    i ∈ ((cfg5.win 7).blk t).view.set ↔ ∀ a : Fin 2, win5_7.index t a * S4000x128.size a ≤ (i a).val ∧ (i a).val < win5_7.index t a * S4000x128.size a + S4000x128.size a := by
  show i ∈ ((View.whole main_v117).slice (win5_7.rect t)).set ↔ _
  rw [View.set_slice_whole, Rect.mem_set_unit]
  exact Iff.rfl

/-- Every index of the result array is in the block of the point its row falls in: row ρ is in block ρ / 4000. -/
theorem cover (i : S4000x128.Idx) : ∃ t : Fin cfg5.N, (cfg5.win 7).flush t = true ∧ i ∈ ((cfg5.win 7).blk t).view.set := by
  have hi0 : (i 0).val < 4000 := (i 0).isLt
  have hi1 : (i 1).val < 128 := (i 1).isLt
  have hN : cfg5.N = 1 := N_5
  have ht : (i 0).val / 4000 < cfg5.N := by rw [hN]; omega
  obtain ⟨e0, e1, -⟩ := idx_facts ⟨(i 0).val / 4000, ht⟩
  refine ⟨⟨(i 0).val / 4000, ht⟩, flush5_7 _, ?_⟩
  rw [mem_blk]
  intro a
  match a with
  | ⟨0, _⟩ =>
    show win5_7.index ⟨(i 0).val / 4000, ht⟩ (0 : Fin 2) * 4000 ≤ (i 0).val ∧ (i 0).val < win5_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win5_7.index ⟨(i 0).val / 4000, ht⟩ (1 : Fin 2) * 128 ≤ (i 1).val ∧ (i 1).val < win5_7.index ⟨(i 0).val / 4000, ht⟩ (1 : Fin 2) * 128 + 128
    rw [e1]; omega

/-! ## Each window's block as the array read where the block sits -/

variable (V : (c : Dev nD) → (b : Ref sig .tc) → Buf (Elt Ideal) ((c : Thread nD τ).loc b))

/-- Row block t of the first operand: its row r is row t·4000 + r of the array. -/
theorem rows_read (c : Dev nD) (t : Fin cfg5.N) (r : Fin 4000) (k : Fin 128) (R : Fin 4000) (hR : R.val = t.val * 4000 + r.val) :
    (iblk5 V c 0 t : Vec Ideal S4000x128 .f32) (ix2 r k) = (V c main_v104 : S4000x128.Idx → EReal) (ix2 R k) := by
  obtain ⟨-, -, e0, e1, -⟩ := idx_facts t
  show V c main_v104 (((cfg5.win 0).blk t).view.emb (ix2 r k)) = _
  refine congrArg _ (funext fun a => Fin.ext ?_)
  match a with
  | ⟨0, _⟩ => show win5_0.index t (0 : Fin 2) * 4000 + 1 * r.val = R.val; omega
  | ⟨1, _⟩ => show win5_0.index t (1 : Fin 2) * 128 + 1 * k.val = k.val; omega

/-- The weight's one block is the whole weight. -/
theorem weight_read (c : Dev nD) (t : Fin cfg5.N) :
    (iblk5 V c 1 t : Vec Ideal S128x128 .f32) = (V c main_v106 : S128x128.Idx → EReal) := by
  obtain ⟨-, -, -, -, e0, e1, -⟩ := idx_facts t
  funext y
  show V c main_v106 (((cfg5.win 1).blk t).view.emb y) = V c main_v106 y
  refine congrArg _ (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- The bias's one block is the whole vector. -/
theorem vec2_read (c : Dev nD) (t : Fin cfg5.N) :
    (iblk5 V c 2 t : Vec Ideal S128 .f32) = (V c main_v108 : S128.Idx → EReal) := by
  obtain ⟨-, -, -, -, -, -, e, -⟩ := idx_facts t
  funext y
  show V c main_v108 (((cfg5.win 2).blk t).view.emb y) = V c main_v108 y
  refine congrArg _ (funext fun a => Fin.ext ?_)
  match a with
  | ⟨0, _⟩ => show win5_2.index t (0 : Fin 1) * 128 + 1 * (y 0).val = (y 0).val; omega

/-- The gain's one block is the whole vector. -/
theorem vec3_read (c : Dev nD) (t : Fin cfg5.N) :
    (iblk5 V c 3 t : Vec Ideal S128 .f32) = (V c main_v110 : S128.Idx → EReal) := by
  obtain ⟨-, -, -, -, -, -, -, e, -⟩ := idx_facts t
  funext y
  show V c main_v110 (((cfg5.win 3).blk t).view.emb y) = V c main_v110 y
  refine congrArg _ (funext fun a => Fin.ext ?_)
  match a with
  | ⟨0, _⟩ => show win5_3.index t (0 : Fin 1) * 128 + 1 * (y 0).val = (y 0).val; omega

/-- The shift's one block is the whole vector. -/
theorem vec4_read (c : Dev nD) (t : Fin cfg5.N) :
    (iblk5 V c 4 t : Vec Ideal S128 .f32) = (V c main_v112 : S128.Idx → EReal) := by
  obtain ⟨-, -, -, -, -, -, -, -, e, -⟩ := idx_facts t
  funext y
  show V c main_v112 (((cfg5.win 4).blk t).view.emb y) = V c main_v112 y
  refine congrArg _ (funext fun a => Fin.ext ?_)
  match a with
  | ⟨0, _⟩ => show win5_4.index t (0 : Fin 1) * 128 + 1 * (y 0).val = (y 0).val; omega

/-- The mean's one block is the whole vector. -/
theorem vec5_read (c : Dev nD) (t : Fin cfg5.N) :
    (iblk5 V c 5 t : Vec Ideal S128 .f32) = (V c main_v114 : S128.Idx → EReal) := by
  obtain ⟨-, -, -, -, -, -, -, -, -, e, -⟩ := idx_facts t
  funext y
  show V c main_v114 (((cfg5.win 5).blk t).view.emb y) = V c main_v114 y
  refine congrArg _ (funext fun a => Fin.ext ?_)
  match a with
  | ⟨0, _⟩ => show win5_5.index t (0 : Fin 1) * 128 + 1 * (y 0).val = (y 0).val; omega

/-- The variance's one block is the whole vector. -/
theorem vec6_read (c : Dev nD) (t : Fin cfg5.N) :
    (iblk5 V c 6 t : Vec Ideal S128 .f32) = (V c main_v116 : S128.Idx → EReal) := by
  obtain ⟨-, -, -, -, -, -, -, -, -, -, e⟩ := idx_facts t
  funext y
  show V c main_v116 (((cfg5.win 6).blk t).view.emb y) = V c main_v116 y
  refine congrArg _ (funext fun a => Fin.ext ?_)
  match a with
  | ⟨0, _⟩ => show win5_6.index t (0 : Fin 1) * 128 + 1 * (y 0).val = (y 0).val; omega

/-- The result's block t, read at row r and column c, sits at row t·4000 + r and column c of the array. -/
theorem out_emb (t : Fin cfg5.N) (r : Fin 4000) (c' : Fin 128) (R : Fin 4000) (hR : R.val = t.val * 4000 + r.val) :
    ((cfg5.win 7).blk t).view.emb (ix2 r c') = (ix2 R c' : S4000x128.Idx) := by
  obtain ⟨e0, e1, -⟩ := idx_facts t
  funext a; apply Fin.ext
  match a with
  | ⟨0, _⟩ => show win5_7.index t (0 : Fin 2) * 4000 + 1 * r.val = R.val; omega
  | ⟨1, _⟩ => show win5_7.index t (1 : Fin 2) * 128 + 1 * c'.val = c'.val; omega

/-! ## From the blocks to the array -/

/-- What the result array holds after the region: the pooling layer of the arrays the region finds. -/
abbrev result (c : Dev nD) : S4000x128.Idx → EReal :=
  Cert.Net.poolK (V c main_v104) (V c main_v106) (V c main_v108) (V c main_v110) (V c main_v112) (V c main_v114) (V c main_v116)
    (Ideal.ofBits .f32 0x3727C5AC#32)

/-- WHAT POINT t WRITES BACK is block t of the pooling layer of the arrays the region finds. -/
theorem flushed_eq (c : Dev nD) (t : Fin cfg5.N) :
    (dat5 V c).flushed 7 t = ((cfg5.win 7).blk t).view.read (Elt Ideal) (result V c) := by
  show (cfg5.win 7).cut (grid5.coords t) ((dat5 V c).after 7 t) = _
  rw [after5_7]
  unfold out5_7
  rw [View.canon_unit_zero hz]
  simp only [View.ld_unit_zero (S := S4000x128) hz, View.ld_unit_zero (S := S128x128) hz, View.ld_unit_zero (S := S128) hz1]
  funext j
  obtain ⟨r, c', rfl⟩ : ∃ (r : Fin 4000) (c' : Fin 128), j = ix2 r c' := ⟨j 0, j 1, eq_ix2 j⟩
  have hN : cfg5.N = 1 := N_5
  have hlt : t.val * 4000 + r.val < 4000 := by have := t.isLt; omega
  show k5_pay1 (iblk5 V c 0 t) (iblk5 V c 1 t) (iblk5 V c 2 t) (iblk5 V c 3 t) (iblk5 V c 6 t) (iblk5 V c 5 t) (iblk5 V c 4 t) (ix2 r c')
    = result V c (((cfg5.win 7).blk t).view.emb (ix2 r c'))
  rw [out_emb t r c' ⟨t.val * 4000 + r.val, hlt⟩ rfl]
  refine (pay_apply (iblk5 V c 0 t) (iblk5 V c 1 t) (iblk5 V c 2 t) (iblk5 V c 3 t) (iblk5 V c 6 t) (iblk5 V c 5 t) (iblk5 V c 4 t) r c').trans ?_
  rw [weight_read V c t, vec2_read V c t, vec3_read V c t, vec4_read V c t, vec5_read V c t, vec6_read V c t]
  simp only [rows_read V c t r _ ⟨t.val * 4000 + r.val, hlt⟩ rfl]
  exact (spec_at _ _ _ _ _ _ _ _ _ _).symm

/-- THE RESULT ARRAY after the region's 1 grid point is the pooling layer of the arrays the region finds. -/
theorem closed (c : Dev nD) :
    (dat5 (F := Ideal) V c).arrAt 7 cfg5.N
      = Cert.Net.poolK (V c main_v104) (V c main_v106) (V c main_v108) (V c main_v110) (V c main_v112) (V c main_v114) (V c main_v116)
          (Ideal.ofBits .f32 0x3727C5AC#32) :=
  (dat5 V c).arrAt_eq_of_cover 7 (result V c) (fun t _ => flushed_eq V c t) cover

end Cert.KernelIdeal.Region5

end
-- ==== Proof.Region6.lean ====
/-
  The matrix-product kernel of region 6: the array its output window holds after the whole grid.

  The grid has 1 point; point t reads rows 4000·t … 4000·t + 3999 of the left operand and the whole right operand,
  and stores, at row r and column c of its block, the sum over k of left[r, k] · right[k, c] (on the extended reals the
  rounding of the operands is the identity and the accumulator starts at zero). Row i of the output is written by point
  i / 4000, so every index is covered and the output array is the matrix product of the two input arrays.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region6

open Cert.KernelIdeal Cert.KernelIdeal.Gen

/-! ## The stored value at an index of the block -/

/-- Row coordinate of the left operand's index: the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- Column coordinate of the right operand's index: the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The left operand's index of the product at output index (r, c) and contraction coordinate k is (r, k). -/
theorem lhs_idx (r : Fin 4000) (c : Fin 128) (k : Fin 128) :
    dot_S4000x128_S128x128_S4000x128_1_0_0_1_n_n.lhsIdx (ix2 r c)
      ((contrEquiv1 dot_S4000x128_S128x128_S4000x128_1_0_0_1_n_n 128 rfl rfl).symm k) = ix2 r k := by
  have hk := contrEquiv1_symm_val dot_S4000x128_S128x128_S4000x128_1_0_0_1_n_n 128 rfl rfl k
  exact funext fun a => Fin.ext (by
    match a with
    | ⟨0, _⟩ => exact lhs_row _ _
    | ⟨1, _⟩ => exact (dot_S4000x128_S128x128_S4000x128_1_0_0_1_n_n.lhsIdx_val_of_single rfl _ _).trans hk)

/-- The right operand's index is (k, c). -/
theorem rhs_idx (r : Fin 4000) (c : Fin 128) (k : Fin 128) :
    dot_S4000x128_S128x128_S4000x128_1_0_0_1_n_n.rhsIdx (ix2 r c)
      ((contrEquiv1 dot_S4000x128_S128x128_S4000x128_1_0_0_1_n_n 128 rfl rfl).symm k) = ix2 k c := by
  have hk := contrEquiv1_symm_val dot_S4000x128_S128x128_S4000x128_1_0_0_1_n_n 128 rfl rfl k
  exact funext fun a => Fin.ext (by
    match a with
    | ⟨0, _⟩ => exact (dot_S4000x128_S128x128_S4000x128_1_0_0_1_n_n.rhsIdx_val_of_single rfl _ _).trans hk
    | ⟨1, _⟩ => exact rhs_col _ _)

/-- The body's stored value at row r, column c: the sum over k of the left block at (r, k) times the right at (k, c). -/
theorem pay_apply (x0 : Vec Ideal S4000x128 .f32) (x1 : Vec Ideal S128x128 .f32) (r : Fin 4000) (c : Fin 128) :
    k6_pay1 x0 x1 (ix2 r c) = ∑ k : Fin 128, x0 (ix2 r k) * x1 (ix2 k c) := by
  unfold k6_pay1
  simp only [matmul, shapeCast_self]
  rw [Ideal.matmul_constant_zero_apply,
    ← Equiv.sum_comp (contrEquiv1 dot_S4000x128_S128x128_S4000x128_1_0_0_1_n_n 128 rfl rfl).symm]
  refine Finset.sum_congr rfl fun k _ => ?_
  rw [lhs_idx, rhs_idx]
  rfl

/-- When the left block holds rows 4000·T … of A and the right block is W, the stored value at a block index y is the
    product A·W at the array index i whose row is 4000·T + y's row and whose column is y's. -/
theorem pay_block (A : Net.Arr2 4000 128) (W : Net.Arr2 128 128) (x0 : Vec Ideal S4000x128 .f32) (x1 : Vec Ideal S128x128 .f32)
    (T : Nat) (hT : T < 1)
    (h0 : ∀ (r : Fin 4000) (k : Fin 128), x0 (ix2 r k) = A (ix2 ⟨T * 4000 + r.val, by omega⟩ k))
    (h1 : ∀ (k : Fin 128) (c : Fin 128), x1 (ix2 k c) = W (ix2 k c))
    (y : S4000x128.Idx) (i : S4000x128.Idx)
    (hi0 : (i 0).val = T * 4000 + (y 0).val) (hi1 : (i 1).val = (y 1).val) :
    k6_pay1 x0 x1 y = Net.mm A W i := by
  obtain ⟨r, c, rfl⟩ : ∃ (r : Fin 4000) (c : Fin 128), y = ix2 r c := ⟨y 0, y 1, eq_ix2 y⟩
  obtain ⟨p, q, rfl⟩ : ∃ (p : Fin 4000) (q : Fin 128), i = ix2 p q := ⟨i 0, i 1, eq_ix2 i⟩
  have hp : p = ⟨T * 4000 + r.val, by omega⟩ := Fin.ext hi0
  have hq : q = c := Fin.ext hi1
  subst hq
  rw [hp, pay_apply]
  unfold Net.mm
  exact Finset.sum_congr rfl fun k _ => congrArg₂ (· * ·) (h0 r k) (h1 k q)

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's and the output's row block index is the point,
    every other block index is zero. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left operand's block at point t is rows 4000·t … of its array. -/
theorem lhs_block (c : Dev nD) (t : Fin cfg6.N) (ht : t.val < 1) (r : Fin 4000) (k : Fin 128) :
    (iblk6 V c 0 t : Vec Ideal S4000x128 .f32) (ix2 r k)
      = (V c main_v117 : S4000x128.Idx → EReal) (ix2 ⟨t.val * 4000 + r.val, by omega⟩ k) := by
  obtain ⟨e0, e1, -, -, -, -⟩ := idx_facts t
  show (V c main_v117 : S4000x128.Idx → EReal) (((cfg6.win 0).blk t).view.emb (ix2 r k)) = _
  refine congrArg _ (funext fun a => Fin.ext ?_)
  match a with
  | ⟨0, _⟩ => show win6_0.index t (0 : Fin 2) * 4000 + 1 * r.val = t.val * 4000 + r.val; omega
  | ⟨1, _⟩ => show win6_0.index t (1 : Fin 2) * 128 + 1 * k.val = k.val; omega

/-- The right operand's block at every point is its whole array. -/
theorem rhs_block (c : Dev nD) (t : Fin cfg6.N) (k : Fin 128) (j : Fin 128) :
    (iblk6 V c 1 t : Vec Ideal S128x128 .f32) (ix2 k j) = (V c main_arg10 : S128x128.Idx → EReal) (ix2 k j) := by
  obtain ⟨-, -, e2, e3, -, -⟩ := idx_facts t
  show (V c main_arg10 : S128x128.Idx → EReal) (((cfg6.win 1).blk t).view.emb (ix2 k j)) = _
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * j.val = j.val; omega

/-- What point t writes back is block t of the matrix product of the two input arrays. -/
theorem flushed_eq (c : Dev nD) (t : Fin cfg6.N) :
    (dat6 V c).flushed 2 t
      = ((cfg6.win 2).blk t).view.read (Elt Ideal) (Net.mm (V c main_v117) (V c main_arg10)) := by
  show (cfg6.win 2).cut (grid6.coords t) ((dat6 V c).after 2 t) = _
  rw [after6_2]
  unfold out6_2
  rw [View.canon_unit_zero zero_offsets]
  simp only [View.ld_unit_zero (S := S4000x128) zero_offsets, View.ld_unit_zero (S := S128x128) zero_offsets]
  obtain ⟨-, -, -, -, e4, e5⟩ := idx_facts t
  have ht : t.val < 1 := by have h := t.isLt; have hN : cfg6.N = 1 := N_6; omega
  funext j
  show k6_pay1 (iblk6 V c 0 t) (iblk6 V c 1 t) ((cfg6.win 2).xinj (grid6.coords t) j)
    = Net.mm (V c main_v117) (V c main_arg10) (((cfg6.win 2).blk t).view.emb j)
  refine pay_block (V c main_v117) (V c main_arg10) (iblk6 V c 0 t) (iblk6 V c 1 t) t.val ht
    (lhs_block V c t ht) (rhs_block V c t) _ _ ?_ ?_
  · show win6_2.index t (0 : Fin 2) * 4000 + 1 * (j 0).val = t.val * 4000 + (j 0).val; omega
  · show win6_2.index t (1 : Fin 2) * 128 + 1 * (j 1).val = (j 1).val; omega

/-- An index of the output array is in point t's block iff each coordinate is in the block's range on its axis. -/
theorem mem_blk (t : Fin cfg6.N) (i : S4000x128.Idx) :
    i ∈ ((cfg6.win 2).blk t).view.set ↔ ∀ a : Fin 2, win6_2.index t a * S4000x128.size a ≤ (i a).val
      ∧ (i a).val < win6_2.index t a * S4000x128.size a + S4000x128.size a := by
  show i ∈ ((View.whole main_v118).slice (win6_2.rect t)).set ↔ _
  rw [View.set_slice_whole, Rect.mem_set_unit]
  exact Iff.rfl

/-- Row i of the output lies in the block of point i / 4000, which writes its block back. -/
theorem cover (i : S4000x128.Idx) :
    ∃ t : Fin cfg6.N, (cfg6.win 2).flush t = true ∧ i ∈ ((cfg6.win 2).blk t).view.set := by
  have hi0 : (i 0).val < 4000 := (i 0).isLt
  have hi1 : (i 1).val < 128 := (i 1).isLt
  obtain ⟨t, ht⟩ : ∃ t : Fin cfg6.N, t.val = (i 0).val / 4000 :=
    ⟨⟨(i 0).val / 4000, by have hN : cfg6.N = 1 := N_6; omega⟩, rfl⟩
  obtain ⟨-, -, -, -, e4, e5⟩ := idx_facts t
  refine ⟨t, flush6_2 t, ?_⟩
  rw [mem_blk]
  intro a
  match a with
  | ⟨0, _⟩ =>
    show win6_2.index t (0 : Fin 2) * 4000 ≤ (i 0).val ∧ (i 0).val < win6_2.index t (0 : Fin 2) * 4000 + 4000
    omega
  | ⟨1, _⟩ =>
    show win6_2.index t (1 : Fin 2) * 128 ≤ (i 1).val ∧ (i 1).val < win6_2.index t (1 : Fin 2) * 128 + 128
    omega

/-- The output array after the whole grid is the matrix product of the two input arrays as the region finds them. -/
theorem closed (c : Dev nD) :
    (dat6 (F := Ideal) V c).arrAt 2 cfg6.N = Net.mm (V c main_v117) (V c main_arg10) :=
  (dat6 V c).arrAt_eq_of_cover 2 (Net.mm (V c main_v117) (V c main_arg10)) (fun t _ => flushed_eq V c t) (cover)

end Cert.KernelIdeal.Region6

end
-- ==== Proof.Region7.lean ====
/-
  The third bias-and-rectifier kernel, as one function of its arrays.

  The kernel walks the 4000 rows of its operand in one tile of 4000 rows. At tile `t` it loads rows
  `4000·t … 4000·t + 3999` of the operand and the whole bias row, adds the bias to every row of the tile, takes the
  maximum with zero, and stores the tile of the result. A tile's entry `(p, q)` is therefore
  `max (s[4000·t + p, q] + b[q]) 0`, which is the entry `(4000·t + p, q)` of `Cert.Net.biasRelu s b`: each tile written
  back is the matching block of that one array. Row `r` lies in tile `r / 4000`, so the one tile covers the result,
  and after it the result array is `Cert.Net.biasRelu s b` everywhere.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region7

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The origin of a rank-2 buffer. -/
theorem origin2 : (![0, 0] : Fin 2 → Nat) = fun _ => 0 := funext fun a => by fin_cases a <;> rfl
/-- The origin of a rank-1 buffer. -/
theorem origin1 : (![0] : Fin 1 → Nat) = fun _ => 0 := funext fun a => by fin_cases a; rfl

/-- One tile's result at `(p, q)`: the tile's operand entry plus the bias at column `q`, cut off below at zero. -/
theorem tile_apply (x0 : Vec Ideal S4000x128 .f32) (x1 : Vec Ideal S128 .f32) (p : Fin 4000) (q : Fin 128) :
    k7_pay1 x0 x1 (ix2 p q) = max (x0 (ix2 p q) + x1 (ix1 q)) 0 := by
  unfold k7_pay1
  rw [maximumf_apply, addf_apply, broadcast_apply, shapeCast_self, broadcastTo_1b_ab_apply, shapeCast_a_1a_apply]
  exact congrArg (max _) Ideal.ofBits_zero_f32

/-- A tile whose operand block is the rows of `s` that `e` names, with the bias row `b`, is the block of
    `biasRelu s b` that `e` names, provided `e` keeps the column. -/
theorem tile_eq (s : Cert.Net.Arr2 4000 128) (b : Cert.Net.Arr1 128) (x0 : Vec Ideal S4000x128 .f32) (x1 : Vec Ideal S128 .f32)
    (e : S4000x128.Idx → S4000x128.Idx) (h0 : ∀ y, x0 y = s (e y)) (h1 : ∀ y, x1 y = b y)
    (hcol : ∀ y, (e y 1).val = (y 1).val) (y : S4000x128.Idx) :
    k7_pay1 x0 x1 y = Cert.Net.biasRelu s b (e y) := by
  obtain ⟨p, q, rfl⟩ : ∃ (p : Fin 4000) (q : Fin 128), y = ix2 p q := ⟨y 0, y 1, eq_ix2 y⟩
  rw [tile_apply, h0, h1]
  unfold Cert.Net.biasRelu
  have hq : (ix1 (e (ix2 p q) 1) : (⟨1, ![128]⟩ : Shape).Idx) = ix1 q :=
    funext fun d => by match d with | ⟨0, _⟩ => exact Fin.ext (hcol (ix2 p q))
  rw [hq]

/-- Where each window's block sits at tile `t`, decided at the one tile: the operand's and the result's blocks are
    row block `t`, column block 0; the bias is always its one block. -/
theorem tile_index : ∀ t : Fin cfg7.N, win7_0.index t (0 : Fin 2) = t.val ∧ win7_0.index t (1 : Fin 2) = 0
    ∧ win7_1.index t (0 : Fin 1) = 0
    ∧ win7_2.index t (0 : Fin 2) = t.val ∧ win7_2.index t (1 : Fin 2) = 0 :=
  (by decide +kernel : ∀ t : Fin grid7.N, _)

/-- What tile `t` writes back is block `t` of `biasRelu` of the operand and the bias as the region finds them. -/
theorem flushed_eq (c : Dev nD) (t : Fin cfg7.N) :
    (dat7 (F := Ideal) V c).flushed 2 t
      = ((cfg7.win 2).blk t).view.read (Elt Ideal) (Cert.Net.biasRelu (V c main_v159) (V c main_arg11)) := by
  show (cfg7.win 2).cut (grid7.coords t) ((dat7 (F := Ideal) V c).after 2 t) = _
  rw [after7_2]
  unfold out7_2
  rw [View.canon_unit_zero origin2]
  simp only [View.ld_unit_zero (S := S4000x128) origin2, View.ld_unit_zero (S := S128) origin1]
  obtain ⟨e0, e1, e2, e3, e4⟩ := tile_index t
  funext j
  show k7_pay1 (iblk7 V c 0 t) (iblk7 V c 1 t) j
    = Cert.Net.biasRelu (V c main_v159) (V c main_arg11) (((cfg7.win 2).blk t).view.emb j)
  refine tile_eq (V c main_v159) (V c main_arg11) (iblk7 V c 0 t) (iblk7 V c 1 t) (((cfg7.win 2).blk t).view.emb)
    (fun y => ?_) (fun y => ?_) (fun y => ?_) j
  · show V c main_v159 (((cfg7.win 0).blk t).view.emb y) = V c main_v159 (((cfg7.win 2).blk t).view.emb y)
    refine congrArg (V c main_v159) (funext fun a => Fin.ext ?_)
    match a with
    | ⟨0, _⟩ => show win7_0.index t (0 : Fin 2) * 4000 + 1 * (y 0).val = win7_2.index t (0 : Fin 2) * 4000 + 1 * (y 0).val; omega
    | ⟨1, _⟩ => show win7_0.index t (1 : Fin 2) * 128 + 1 * (y 1).val = win7_2.index t (1 : Fin 2) * 128 + 1 * (y 1).val; omega
  · show V c main_arg11 (((cfg7.win 1).blk t).view.emb y) = V c main_arg11 y
    refine congrArg (V c main_arg11) (funext fun a => Fin.ext ?_)
    match a with
    | ⟨0, _⟩ => show win7_1.index t (0 : Fin 1) * 128 + 1 * (y 0).val = (y 0).val; omega
  · show win7_2.index t (1 : Fin 2) * 128 + 1 * (y 1).val = (y 1).val
    omega

/-- An index of the result is in tile `t`'s block iff each coordinate is in the block's range on its axis. -/
theorem mem_blk (t : Fin cfg7.N) (i : S4000x128.Idx) :
    i ∈ ((cfg7.win 2).blk t).view.set
      ↔ ∀ a : Fin 2, win7_2.index t a * S4000x128.size a ≤ (i a).val ∧ (i a).val < win7_2.index t a * S4000x128.size a + S4000x128.size a := by
  show i ∈ ((View.whole main_v160).slice (win7_2.rect t)).set ↔ _
  rw [View.set_slice_whole, Rect.mem_set_unit]
  exact Iff.rfl

/-- Every entry of the result lies in some tile's block: row `r` in tile `r / 4000`. -/
theorem covered (i : S4000x128.Idx) :
    ∃ t : Fin cfg7.N, (cfg7.win 2).flush t = true ∧ i ∈ ((cfg7.win 2).blk t).view.set := by
  have hi0 : (i 0).val < 4000 := (i 0).isLt
  have hi1 : (i 1).val < 128 := (i 1).isLt
  have hN : cfg7.N = 1 := N_7
  let t : Fin cfg7.N := ⟨(i 0).val / 4000, by rw [hN]; omega⟩
  obtain ⟨e0, e1, e2, e3, e4⟩ := tile_index t
  have ht : t.val = (i 0).val / 4000 := rfl
  refine ⟨t, flush7_2 t, ?_⟩
  rw [mem_blk]
  intro a
  match a with
  | ⟨0, _⟩ => show win7_2.index t (0 : Fin 2) * 4000 ≤ (i 0).val ∧ (i 0).val < win7_2.index t (0 : Fin 2) * 4000 + 4000; omega
  | ⟨1, _⟩ => show win7_2.index t (1 : Fin 2) * 128 ≤ (i 1).val ∧ (i 1).val < win7_2.index t (1 : Fin 2) * 128 + 128; omega

/-- After its one tile the kernel's result array is `biasRelu` of its operand and its bias as the region finds them. -/
theorem closed (c : Dev nD) :
    (dat7 (F := Ideal) V c).arrAt 2 cfg7.N = Cert.Net.biasRelu (V c main_v159) (V c main_arg11) :=
  (dat7 (F := Ideal) V c).arrAt_eq_of_cover 2 (Cert.Net.biasRelu (V c main_v159) (V c main_arg11))
    (fun t _ => flushed_eq V c t) covered

end Cert.KernelIdeal.Region7

end
-- ==== Proof.Region8.lean ====
/-
  The pooling layer on 20000 rows, computed tile by tile, is the pooling layer of the whole arrays.

  The program runs over 5 tiles of 4000 rows. At tile t it reads rows 4000·t … 4000·t + 3999 of y and the whole of
  w, b, g, β, μ, var, and writes, at row r and column c of the tile,
    max ((max ((y·w)[r, c] + b[c]) 0 − μ[c]) · (g[c] · (var[c] + ε)^(-1/2)) + β[c]) 0,
  where (y·w)[r, c] = ∑ₖ y[r, k] · w[k, c] is taken over the tile's rows. That is the value of `Cert.Net.poolK` of the
  whole arrays at row 4000·t + r and column c (`pay_apply`, `spec_at`, and the reads of each block in the arrays).
  The tiles' row ranges cover every row (row ρ lies in tile ρ / 4000), so after the last tile the result array is
  `Cert.Net.poolK` of the arrays as they were when the region was entered (`closed`).
-/
import proofs.«124761_j84988812853303_1_alg».proof.Proof.Gen.KernelIdeal.Frame
import proofs.«124761_j84988812853303_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region8

open Cert.KernelIdeal Cert.KernelIdeal.Gen Idealize.ShloMosaic Idealize.ShloMosaic.ValueIdx
open Idealize.ShloMosaic.TcCoe Idealize.SL.Sem
open Idealize.ShloMosaic.Pipeline (Dat)

/-! ## The body's result at an index -/

/-- The product's left operand index at output index i and contraction index q: its row is the output's row. -/
theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column is the contraction coordinate. -/
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand index: its row is the contraction coordinate. -/
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column is the output's column. -/
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix product of a row block with the weight, read at row r and column c: the sum over the
    contraction coordinate k of block[r, k] · weight[k, c]. -/
theorem mm_apply (x0 : FVec Ideal S4000x128 .bf16) (x1 : FVec Ideal S128x128 .bf16) (r : Fin 4000) (c : Fin 128) :
    matmul dot_S4000x128_S128x128_S4000x128_1_0_0_1_n_n none x0 x1 (constant S4000x128 .f32 0x00000000#32) (ix2 r c)
      = ∑ k : Fin 128, x0 (ix2 r k) * x1 (ix2 k c) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r c) ((contrEquiv1 dot_S4000x128_S128x128_S4000x128_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 r c) ((contrEquiv1 dot_S4000x128_S128x128_S4000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-- The reciprocal square root of a vector, read at an index. -/
theorem rsqrt_apply {s : Shape} {φ : FTy} (a : FVec Ideal s φ) (i : s.Idx) : rsqrt a i = Ideal.rsqrt (a i) := rfl

/-- A scalar constant on the extended reals is the number its word encodes. -/
theorem scalar_ofBits (b : BitVec (FTy.bits .f32)) : Scalar.ofBits (F := Ideal) .f32 b = Ideal.ofBits .f32 b := rfl

/-- A vector of 128 entries, made a row and repeated over 4000 rows, reads its entry at the column. -/
theorem row_apply (v : FVec Ideal S128 .f32) (r : Fin 4000) (c : Fin 128) :
    broadcastTo S4000x128 (shapeCast S1x128 v shapeCasts_S128_S1x128) broadcasts_S1x128_S4000x128 (ix2 r c) = v (ix1 c) := by
  rw [broadcastTo_1b_ab_apply, shapeCast_a_1a_apply]

/-- THE BODY'S RESULT AT ROW r AND COLUMN c of a row block: the linear layer, the rectifier, the normalisation
    with the scale g · (var + ε)^(-1/2), and the second rectifier, of the loaded blocks. -/
theorem pay_apply (x0 : Vec Ideal S4000x128 .f32) (x1 : Vec Ideal S128x128 .f32) (xb xg xv xm xbeta : Vec Ideal S128 .f32)
    (r : Fin 4000) (c : Fin 128) :
    k8_pay1 x0 x1 xb xg xv xm xbeta (ix2 r c)
      = max ((max ((∑ k : Fin 128, x0 (ix2 r k) * x1 (ix2 k c)) + xb (ix1 c)) 0 - xm (ix1 c))
          * (xg (ix1 c) * Ideal.rsqrt (xv (ix1 c) + Ideal.ofBits .f32 0x3727C5AC#32)) + xbeta (ix1 c)) 0 := by
  unfold k8_pay1
  simp only [shapeCast_self]
  rw [maximumf_apply, addf_apply, mulf_apply, subf_apply, maximumf_apply, addf_apply, mm_apply,
    row_apply, row_apply, row_apply, row_apply, mulf_apply, rsqrt_apply, addf_apply]
  simp only [broadcast_apply, truncf_apply, scalar_ofBits, Ideal.ofBits_zero_f32]

/-- The pooling layer of whole arrays, read at row R and column c. -/
theorem spec_at (Y : Cert.Net.Arr2 20000 128) (W : Cert.Net.Arr2 128 128) (B G Beta Mean Var : Cert.Net.Arr1 128) (eps : EReal)
    (R : Fin 20000) (c : Fin 128) :
    Cert.Net.poolK Y W B G Beta Mean Var eps (ix2 R c)
      = max ((max ((∑ k : Fin 128, Y (ix2 R k) * W (ix2 k c)) + B (ix1 c)) 0 - Mean (ix1 c))
          * (G (ix1 c) * Ideal.rsqrt (Var (ix1 c) + eps)) + Beta (ix1 c)) 0 := rfl

/-! ## The grid's blocks -/

theorem hz : (![0, 0] : Fin 2 → Nat) = fun _ => 0 := funext fun a => by fin_cases a <;> rfl
theorem hz1 : (![0] : Fin 1 → Nat) = fun _ => 0 := funext fun a => by fin_cases a <;> rfl

/-- The index maps, decided over the grid: the row operand and the result move together, one block of 4000 rows
    per point, and every other operand stays at its one block. -/
theorem idx_facts : ∀ t : Fin cfg8.N, win8_7.index t (0 : Fin 2) = t.val ∧ win8_7.index t (1 : Fin 2) = 0
    ∧ win8_0.index t (0 : Fin 2) = t.val ∧ win8_0.index t (1 : Fin 2) = 0
    ∧ win8_1.index t (0 : Fin 2) = 0 ∧ win8_1.index t (1 : Fin 2) = 0
    ∧ win8_2.index t (0 : Fin 1) = 0 ∧ win8_3.index t (0 : Fin 1) = 0 ∧ win8_4.index t (0 : Fin 1) = 0
    ∧ win8_5.index t (0 : Fin 1) = 0 ∧ win8_6.index t (0 : Fin 1) = 0 :=
  (by decide +kernel : ∀ t : Fin grid8.N, _)

/-- An index of the result array is in point t's block iff each coordinate is in the block's range on its axis. -/
theorem mem_blk (t : Fin cfg8.N) (i : S20000x128.Idx) :
    i ∈ ((cfg8.win 7).blk t).view.set ↔ ∀ a : Fin 2, win8_7.index t a * S4000x128.size a ≤ (i a).val ∧ (i a).val < win8_7.index t a * S4000x128.size a + S4000x128.size a := by
  show i ∈ ((View.whole main_v180).slice (win8_7.rect t)).set ↔ _
  rw [View.set_slice_whole, Rect.mem_set_unit]
  exact Iff.rfl

/-- Every index of the result array is in the block of the point its row falls in: row ρ is in block ρ / 4000. -/
theorem cover (i : S20000x128.Idx) : ∃ t : Fin cfg8.N, (cfg8.win 7).flush t = true ∧ i ∈ ((cfg8.win 7).blk t).view.set := by
  have hi0 : (i 0).val < 20000 := (i 0).isLt
  have hi1 : (i 1).val < 128 := (i 1).isLt
  have hN : cfg8.N = 5 := N_8
  have ht : (i 0).val / 4000 < cfg8.N := by rw [hN]; omega
  obtain ⟨e0, e1, -⟩ := idx_facts ⟨(i 0).val / 4000, ht⟩
  refine ⟨⟨(i 0).val / 4000, ht⟩, flush8_7 _, ?_⟩
  rw [mem_blk]
  intro a
  match a with
  | ⟨0, _⟩ =>
    show win8_7.index ⟨(i 0).val / 4000, ht⟩ (0 : Fin 2) * 4000 ≤ (i 0).val ∧ (i 0).val < win8_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win8_7.index ⟨(i 0).val / 4000, ht⟩ (1 : Fin 2) * 128 ≤ (i 1).val ∧ (i 1).val < win8_7.index ⟨(i 0).val / 4000, ht⟩ (1 : Fin 2) * 128 + 128
    rw [e1]; omega

/-! ## Each window's block as the array read where the block sits -/

variable (V : (c : Dev nD) → (b : Ref sig .tc) → Buf (Elt Ideal) ((c : Thread nD τ).loc b))

/-- Row block t of the first operand: its row r is row t·4000 + r of the array. -/
theorem rows_read (c : Dev nD) (t : Fin cfg8.N) (r : Fin 4000) (k : Fin 128) (R : Fin 20000) (hR : R.val = t.val * 4000 + r.val) :
    (iblk8 V c 0 t : Vec Ideal S4000x128 .f32) (ix2 r k) = (V c main_v167 : S20000x128.Idx → EReal) (ix2 R k) := by
  obtain ⟨-, -, e0, e1, -⟩ := idx_facts t
  show V c main_v167 (((cfg8.win 0).blk t).view.emb (ix2 r k)) = _
  refine congrArg _ (funext fun a => Fin.ext ?_)
  match a with
  | ⟨0, _⟩ => show win8_0.index t (0 : Fin 2) * 4000 + 1 * r.val = R.val; omega
  | ⟨1, _⟩ => show win8_0.index t (1 : Fin 2) * 128 + 1 * k.val = k.val; omega

/-- The weight's one block is the whole weight. -/
theorem weight_read (c : Dev nD) (t : Fin cfg8.N) :
    (iblk8 V c 1 t : Vec Ideal S128x128 .f32) = (V c main_v169 : S128x128.Idx → EReal) := by
  obtain ⟨-, -, -, -, e0, e1, -⟩ := idx_facts t
  funext y
  show V c main_v169 (((cfg8.win 1).blk t).view.emb y) = V c main_v169 y
  refine congrArg _ (funext fun a => Fin.ext ?_)
  match a with
  | ⟨0, _⟩ => show win8_1.index t (0 : Fin 2) * 128 + 1 * (y 0).val = (y 0).val; omega
  | ⟨1, _⟩ => show win8_1.index t (1 : Fin 2) * 128 + 1 * (y 1).val = (y 1).val; omega

/-- The bias's one block is the whole vector. -/
theorem vec2_read (c : Dev nD) (t : Fin cfg8.N) :
    (iblk8 V c 2 t : Vec Ideal S128 .f32) = (V c main_v171 : S128.Idx → EReal) := by
  obtain ⟨-, -, -, -, -, -, e, -⟩ := idx_facts t
  funext y
  show V c main_v171 (((cfg8.win 2).blk t).view.emb y) = V c main_v171 y
  refine congrArg _ (funext fun a => Fin.ext ?_)
  match a with
  | ⟨0, _⟩ => show win8_2.index t (0 : Fin 1) * 128 + 1 * (y 0).val = (y 0).val; omega

/-- The gain's one block is the whole vector. -/
theorem vec3_read (c : Dev nD) (t : Fin cfg8.N) :
    (iblk8 V c 3 t : Vec Ideal S128 .f32) = (V c main_v173 : S128.Idx → EReal) := by
  obtain ⟨-, -, -, -, -, -, -, e, -⟩ := idx_facts t
  funext y
  show V c main_v173 (((cfg8.win 3).blk t).view.emb y) = V c main_v173 y
  refine congrArg _ (funext fun a => Fin.ext ?_)
  match a with
  | ⟨0, _⟩ => show win8_3.index t (0 : Fin 1) * 128 + 1 * (y 0).val = (y 0).val; omega

/-- The shift's one block is the whole vector. -/
theorem vec4_read (c : Dev nD) (t : Fin cfg8.N) :
    (iblk8 V c 4 t : Vec Ideal S128 .f32) = (V c main_v175 : S128.Idx → EReal) := by
  obtain ⟨-, -, -, -, -, -, -, -, e, -⟩ := idx_facts t
  funext y
  show V c main_v175 (((cfg8.win 4).blk t).view.emb y) = V c main_v175 y
  refine congrArg _ (funext fun a => Fin.ext ?_)
  match a with
  | ⟨0, _⟩ => show win8_4.index t (0 : Fin 1) * 128 + 1 * (y 0).val = (y 0).val; omega

/-- The mean's one block is the whole vector. -/
theorem vec5_read (c : Dev nD) (t : Fin cfg8.N) :
    (iblk8 V c 5 t : Vec Ideal S128 .f32) = (V c main_v177 : S128.Idx → EReal) := by
  obtain ⟨-, -, -, -, -, -, -, -, -, e, -⟩ := idx_facts t
  funext y
  show V c main_v177 (((cfg8.win 5).blk t).view.emb y) = V c main_v177 y
  refine congrArg _ (funext fun a => Fin.ext ?_)
  match a with
  | ⟨0, _⟩ => show win8_5.index t (0 : Fin 1) * 128 + 1 * (y 0).val = (y 0).val; omega

/-- The variance's one block is the whole vector. -/
theorem vec6_read (c : Dev nD) (t : Fin cfg8.N) :
    (iblk8 V c 6 t : Vec Ideal S128 .f32) = (V c main_v179 : S128.Idx → EReal) := by
  obtain ⟨-, -, -, -, -, -, -, -, -, -, e⟩ := idx_facts t
  funext y
  show V c main_v179 (((cfg8.win 6).blk t).view.emb y) = V c main_v179 y
  refine congrArg _ (funext fun a => Fin.ext ?_)
  match a with
  | ⟨0, _⟩ => show win8_6.index t (0 : Fin 1) * 128 + 1 * (y 0).val = (y 0).val; omega

/-- The result's block t, read at row r and column c, sits at row t·4000 + r and column c of the array. -/
theorem out_emb (t : Fin cfg8.N) (r : Fin 4000) (c' : Fin 128) (R : Fin 20000) (hR : R.val = t.val * 4000 + r.val) :
    ((cfg8.win 7).blk t).view.emb (ix2 r c') = (ix2 R c' : S20000x128.Idx) := by
  obtain ⟨e0, e1, -⟩ := idx_facts t
  funext a; apply Fin.ext
  match a with
  | ⟨0, _⟩ => show win8_7.index t (0 : Fin 2) * 4000 + 1 * r.val = R.val; omega
  | ⟨1, _⟩ => show win8_7.index t (1 : Fin 2) * 128 + 1 * c'.val = c'.val; omega

/-! ## From the blocks to the array -/

/-- What the result array holds after the region: the pooling layer of the arrays the region finds. -/
abbrev result (c : Dev nD) : S20000x128.Idx → EReal :=
  Cert.Net.poolK (V c main_v167) (V c main_v169) (V c main_v171) (V c main_v173) (V c main_v175) (V c main_v177) (V c main_v179)
    (Ideal.ofBits .f32 0x3727C5AC#32)

/-- WHAT POINT t WRITES BACK is block t of the pooling layer of the arrays the region finds. -/
theorem flushed_eq (c : Dev nD) (t : Fin cfg8.N) :
    (dat8 V c).flushed 7 t = ((cfg8.win 7).blk t).view.read (Elt Ideal) (result V c) := by
  show (cfg8.win 7).cut (grid8.coords t) ((dat8 V c).after 7 t) = _
  rw [after8_7]
  unfold out8_7
  rw [View.canon_unit_zero hz]
  simp only [View.ld_unit_zero (S := S4000x128) hz, View.ld_unit_zero (S := S128x128) hz, View.ld_unit_zero (S := S128) hz1]
  funext j
  obtain ⟨r, c', rfl⟩ : ∃ (r : Fin 4000) (c' : Fin 128), j = ix2 r c' := ⟨j 0, j 1, eq_ix2 j⟩
  have hN : cfg8.N = 5 := N_8
  have hlt : t.val * 4000 + r.val < 20000 := by have := t.isLt; omega
  show k8_pay1 (iblk8 V c 0 t) (iblk8 V c 1 t) (iblk8 V c 2 t) (iblk8 V c 3 t) (iblk8 V c 6 t) (iblk8 V c 5 t) (iblk8 V c 4 t) (ix2 r c')
    = result V c (((cfg8.win 7).blk t).view.emb (ix2 r c'))
  rw [out_emb t r c' ⟨t.val * 4000 + r.val, hlt⟩ rfl]
  refine (pay_apply (iblk8 V c 0 t) (iblk8 V c 1 t) (iblk8 V c 2 t) (iblk8 V c 3 t) (iblk8 V c 6 t) (iblk8 V c 5 t) (iblk8 V c 4 t) r c').trans ?_
  rw [weight_read V c t, vec2_read V c t, vec3_read V c t, vec4_read V c t, vec5_read V c t, vec6_read V c t]
  simp only [rows_read V c t r _ ⟨t.val * 4000 + r.val, hlt⟩ rfl]
  exact (spec_at _ _ _ _ _ _ _ _ _ _).symm

/-- THE RESULT ARRAY after the region's 5 grid points is the pooling layer of the arrays the region finds. -/
theorem closed (c : Dev nD) :
    (dat8 (F := Ideal) V c).arrAt 7 cfg8.N
      = Cert.Net.poolK (V c main_v167) (V c main_v169) (V c main_v171) (V c main_v173) (V c main_v175) (V c main_v177) (V c main_v179)
          (Ideal.ofBits .f32 0x3727C5AC#32) :=
  (dat8 V c).arrAt_eq_of_cover 7 (result V c) (fun t _ => flushed_eq V c t) cover

end Cert.KernelIdeal.Region8

end
-- ==== Proof.Region9.lean ====
/-
  The matrix-product kernel of region 9: the array its output window holds after the whole grid.

  The grid has 5 points; point t reads rows 4000·t … 4000·t + 3999 of the left operand and the whole right operand,
  and stores, at row r and column c of its block, the sum over k of left[r, k] · right[k, c] (on the extended reals the
  rounding of the operands is the identity and the accumulator starts at zero). Row i of the output is written by point
  i / 4000, so every index is covered and the output array is the matrix product of the two input arrays.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region9

open Cert.KernelIdeal Cert.KernelIdeal.Gen

/-! ## The stored value at an index of the block -/

/-- Row coordinate of the left operand's index: the output's row. -/
theorem lhs_row (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide),
    dif_pos (show (0 : Fin S4000x256.rank) ∈ dot_S4000x256_S256x128_S4000x128_1_0_0_1_n_n.lhsNonContracting by decide)]
  rfl

/-- Column coordinate of the right operand's index: the output's column. -/
theorem rhs_col (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide),
    dif_pos (show (1 : Fin S256x128.rank) ∈ dot_S4000x256_S256x128_S4000x128_1_0_0_1_n_n.rhsNonContracting by decide)]
  rfl

/-- The left operand's index of the product at output index (r, c) and contraction coordinate k is (r, k). -/
theorem lhs_idx (r : Fin 4000) (c : Fin 128) (k : Fin 256) :
    dot_S4000x256_S256x128_S4000x128_1_0_0_1_n_n.lhsIdx (ix2 r c)
      ((contrEquiv1 dot_S4000x256_S256x128_S4000x128_1_0_0_1_n_n 256 rfl rfl).symm k) = ix2 r k := by
  have hk := contrEquiv1_symm_val dot_S4000x256_S256x128_S4000x128_1_0_0_1_n_n 256 rfl rfl k
  exact funext fun a => Fin.ext (by
    match a with
    | ⟨0, _⟩ => exact lhs_row _ _
    | ⟨1, _⟩ => exact (dot_S4000x256_S256x128_S4000x128_1_0_0_1_n_n.lhsIdx_val_of_single rfl _ _).trans hk)

/-- The right operand's index is (k, c). -/
theorem rhs_idx (r : Fin 4000) (c : Fin 128) (k : Fin 256) :
    dot_S4000x256_S256x128_S4000x128_1_0_0_1_n_n.rhsIdx (ix2 r c)
      ((contrEquiv1 dot_S4000x256_S256x128_S4000x128_1_0_0_1_n_n 256 rfl rfl).symm k) = ix2 k c := by
  have hk := contrEquiv1_symm_val dot_S4000x256_S256x128_S4000x128_1_0_0_1_n_n 256 rfl rfl k
  exact funext fun a => Fin.ext (by
    match a with
    | ⟨0, _⟩ => exact (dot_S4000x256_S256x128_S4000x128_1_0_0_1_n_n.rhsIdx_val_of_single rfl _ _).trans hk
    | ⟨1, _⟩ => exact rhs_col _ _)

/-- The body's stored value at row r, column c: the sum over k of the left block at (r, k) times the right at (k, c). -/
theorem pay_apply (x0 : Vec Ideal S4000x256 .f32) (x1 : Vec Ideal S256x128 .f32) (r : Fin 4000) (c : Fin 128) :
    k9_pay1 x0 x1 (ix2 r c) = ∑ k : Fin 256, x0 (ix2 r k) * x1 (ix2 k c) := by
  unfold k9_pay1
  simp only [matmul, shapeCast_self]
  rw [Ideal.matmul_constant_zero_apply,
    ← Equiv.sum_comp (contrEquiv1 dot_S4000x256_S256x128_S4000x128_1_0_0_1_n_n 256 rfl rfl).symm]
  refine Finset.sum_congr rfl fun k _ => ?_
  rw [lhs_idx, rhs_idx]
  rfl

/-- When the left block holds rows 4000·T … of A and the right block is W, the stored value at a block index y is the
    product A·W at the array index i whose row is 4000·T + y's row and whose column is y's. -/
theorem pay_block (A : Net.Arr2 20000 256) (W : Net.Arr2 256 128) (x0 : Vec Ideal S4000x256 .f32) (x1 : Vec Ideal S256x128 .f32)
    (T : Nat) (hT : T < 5)
    (h0 : ∀ (r : Fin 4000) (k : Fin 256), x0 (ix2 r k) = A (ix2 ⟨T * 4000 + r.val, by omega⟩ k))
    (h1 : ∀ (k : Fin 256) (c : Fin 128), x1 (ix2 k c) = W (ix2 k c))
    (y : S4000x128.Idx) (i : S20000x128.Idx)
    (hi0 : (i 0).val = T * 4000 + (y 0).val) (hi1 : (i 1).val = (y 1).val) :
    k9_pay1 x0 x1 y = Net.mm A W i := by
  obtain ⟨r, c, rfl⟩ : ∃ (r : Fin 4000) (c : Fin 128), y = ix2 r c := ⟨y 0, y 1, eq_ix2 y⟩
  obtain ⟨p, q, rfl⟩ : ∃ (p : Fin 20000) (q : Fin 128), i = ix2 p q := ⟨i 0, i 1, eq_ix2 i⟩
  have hp : p = ⟨T * 4000 + r.val, by omega⟩ := Fin.ext hi0
  have hq : q = c := Fin.ext hi1
  subst hq
  rw [hp, pay_apply]
  unfold Net.mm
  exact Finset.sum_congr rfl fun k _ => congrArg₂ (· * ·) (h0 r k) (h1 k q)

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's and the output's row block index is the point,
    every other block index is zero. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The left operand's block at point t is rows 4000·t … of its array. -/
theorem lhs_block (c : Dev nD) (t : Fin cfg9.N) (ht : t.val < 5) (r : Fin 4000) (k : Fin 256) :
    (iblk9 V c 0 t : Vec Ideal S4000x256 .f32) (ix2 r k)
      = (V c main_v181 : S20000x256.Idx → EReal) (ix2 ⟨t.val * 4000 + r.val, by omega⟩ k) := by
  obtain ⟨e0, e1, -, -, -, -⟩ := idx_facts t
  show (V c main_v181 : S20000x256.Idx → EReal) (((cfg9.win 0).blk t).view.emb (ix2 r k)) = _
  refine congrArg _ (funext fun a => Fin.ext ?_)
  match a with
  | ⟨0, _⟩ => show win9_0.index t (0 : Fin 2) * 4000 + 1 * r.val = t.val * 4000 + r.val; omega
  | ⟨1, _⟩ => show win9_0.index t (1 : Fin 2) * 256 + 1 * k.val = k.val; omega

/-- The right operand's block at every point is its whole array. -/
theorem rhs_block (c : Dev nD) (t : Fin cfg9.N) (k : Fin 256) (j : Fin 128) :
    (iblk9 V c 1 t : Vec Ideal S256x128 .f32) (ix2 k j) = (V c main_arg12 : S256x128.Idx → EReal) (ix2 k j) := by
  obtain ⟨-, -, e2, e3, -, -⟩ := idx_facts t
  show (V c main_arg12 : S256x128.Idx → EReal) (((cfg9.win 1).blk t).view.emb (ix2 k j)) = _
  refine congrArg _ (funext fun a => Fin.ext ?_)
  match a with
  | ⟨0, _⟩ => show win9_1.index t (0 : Fin 2) * 256 + 1 * k.val = k.val; omega
  | ⟨1, _⟩ => show win9_1.index t (1 : Fin 2) * 128 + 1 * j.val = j.val; omega

/-- What point t writes back is block t of the matrix product of the two input arrays. -/
theorem flushed_eq (c : Dev nD) (t : Fin cfg9.N) :
    (dat9 V c).flushed 2 t
      = ((cfg9.win 2).blk t).view.read (Elt Ideal) (Net.mm (V c main_v181) (V c main_arg12)) := by
  show (cfg9.win 2).cut (grid9.coords t) ((dat9 V c).after 2 t) = _
  rw [after9_2]
  unfold out9_2
  rw [View.canon_unit_zero zero_offsets]
  simp only [View.ld_unit_zero (S := S4000x256) zero_offsets, View.ld_unit_zero (S := S256x128) zero_offsets]
  obtain ⟨-, -, -, -, e4, e5⟩ := idx_facts t
  have ht : t.val < 5 := by have h := t.isLt; have hN : cfg9.N = 5 := N_9; omega
  funext j
  show k9_pay1 (iblk9 V c 0 t) (iblk9 V c 1 t) ((cfg9.win 2).xinj (grid9.coords t) j)
    = Net.mm (V c main_v181) (V c main_arg12) (((cfg9.win 2).blk t).view.emb j)
  refine pay_block (V c main_v181) (V c main_arg12) (iblk9 V c 0 t) (iblk9 V c 1 t) t.val ht
    (lhs_block V c t ht) (rhs_block V c t) _ _ ?_ ?_
  · show win9_2.index t (0 : Fin 2) * 4000 + 1 * (j 0).val = t.val * 4000 + (j 0).val; omega
  · show win9_2.index t (1 : Fin 2) * 128 + 1 * (j 1).val = (j 1).val; omega

/-- An index of the output array is in point t's block iff each coordinate is in the block's range on its axis. -/
theorem mem_blk (t : Fin cfg9.N) (i : S20000x128.Idx) :
    i ∈ ((cfg9.win 2).blk t).view.set ↔ ∀ a : Fin 2, win9_2.index t a * S4000x128.size a ≤ (i a).val
      ∧ (i a).val < win9_2.index t a * S4000x128.size a + S4000x128.size a := by
  show i ∈ ((View.whole main_v182).slice (win9_2.rect t)).set ↔ _
  rw [View.set_slice_whole, Rect.mem_set_unit]
  exact Iff.rfl

/-- Row i of the output lies in the block of point i / 4000, which writes its block back. -/
theorem cover (i : S20000x128.Idx) :
    ∃ t : Fin cfg9.N, (cfg9.win 2).flush t = true ∧ i ∈ ((cfg9.win 2).blk t).view.set := by
  have hi0 : (i 0).val < 20000 := (i 0).isLt
  have hi1 : (i 1).val < 128 := (i 1).isLt
  obtain ⟨t, ht⟩ : ∃ t : Fin cfg9.N, t.val = (i 0).val / 4000 :=
    ⟨⟨(i 0).val / 4000, by have hN : cfg9.N = 5 := N_9; omega⟩, rfl⟩
  obtain ⟨-, -, -, -, e4, e5⟩ := idx_facts t
  refine ⟨t, flush9_2 t, ?_⟩
  rw [mem_blk]
  intro a
  match a with
  | ⟨0, _⟩ =>
    show win9_2.index t (0 : Fin 2) * 4000 ≤ (i 0).val ∧ (i 0).val < win9_2.index t (0 : Fin 2) * 4000 + 4000
    omega
  | ⟨1, _⟩ =>
    show win9_2.index t (1 : Fin 2) * 128 ≤ (i 1).val ∧ (i 1).val < win9_2.index t (1 : Fin 2) * 128 + 128
    omega

/-- The output array after the whole grid is the matrix product of the two input arrays as the region finds them. -/
theorem closed (c : Dev nD) :
    (dat9 (F := Ideal) V c).arrAt 2 cfg9.N = Net.mm (V c main_v181) (V c main_arg12) :=
  (dat9 V c).arrAt_eq_of_cover 2 (Net.mm (V c main_v181) (V c main_arg12)) (fun t _ => flushed_eq V c t) (cover)

end Cert.KernelIdeal.Region9

end
-- ==== Proof.Region10.lean ====
/-
  The fourth bias-and-rectifier kernel, as one function of its arrays.

  The kernel walks the 20000 rows of its operand in 5 tiles of 4000 rows. At tile `t` it loads rows
  `4000·t … 4000·t + 3999` of the operand and the whole bias row, adds the bias to every row of the tile, takes the
  maximum with zero, and stores the tile of the result. A tile's entry `(p, q)` is therefore
  `max (s[4000·t + p, q] + b[q]) 0`, which is the entry `(4000·t + p, q)` of `Cert.Net.biasRelu s b`: each tile written
  back is the matching block of that one array. Row `r` lies in tile `r / 4000`, so the 5 tiles cover the result,
  and after the last tile the result array is `Cert.Net.biasRelu s b` everywhere.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region10

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The origin of a rank-2 buffer. -/
theorem origin2 : (![0, 0] : Fin 2 → Nat) = fun _ => 0 := funext fun a => by fin_cases a <;> rfl
/-- The origin of a rank-1 buffer. -/
theorem origin1 : (![0] : Fin 1 → Nat) = fun _ => 0 := funext fun a => by fin_cases a; rfl

/-- One tile's result at `(p, q)`: the tile's operand entry plus the bias at column `q`, cut off below at zero. -/
theorem tile_apply (x0 : Vec Ideal S4000x128 .f32) (x1 : Vec Ideal S128 .f32) (p : Fin 4000) (q : Fin 128) :
    k10_pay1 x0 x1 (ix2 p q) = max (x0 (ix2 p q) + x1 (ix1 q)) 0 := by
  unfold k10_pay1
  rw [maximumf_apply, addf_apply, broadcast_apply, shapeCast_self, broadcastTo_1b_ab_apply, shapeCast_a_1a_apply]
  exact congrArg (max _) Ideal.ofBits_zero_f32

/-- A tile whose operand block is the rows of `s` that `e` names, with the bias row `b`, is the block of
    `biasRelu s b` that `e` names, provided `e` keeps the column. -/
theorem tile_eq (s : Cert.Net.Arr2 20000 128) (b : Cert.Net.Arr1 128) (x0 : Vec Ideal S4000x128 .f32) (x1 : Vec Ideal S128 .f32)
    (e : S4000x128.Idx → S20000x128.Idx) (h0 : ∀ y, x0 y = s (e y)) (h1 : ∀ y, x1 y = b y)
    (hcol : ∀ y, (e y 1).val = (y 1).val) (y : S4000x128.Idx) :
    k10_pay1 x0 x1 y = Cert.Net.biasRelu s b (e y) := by
  obtain ⟨p, q, rfl⟩ : ∃ (p : Fin 4000) (q : Fin 128), y = ix2 p q := ⟨y 0, y 1, eq_ix2 y⟩
  rw [tile_apply, h0, h1]
  unfold Cert.Net.biasRelu
  have hq : (ix1 (e (ix2 p q) 1) : (⟨1, ![128]⟩ : Shape).Idx) = ix1 q :=
    funext fun d => by match d with | ⟨0, _⟩ => exact Fin.ext (hcol (ix2 p q))
  rw [hq]

/-- Where each window's block sits at tile `t`, decided over the 5 tiles: the operand's and the result's blocks are
    row block `t`, column block 0; the bias is always its one block. -/
theorem tile_index : ∀ t : Fin cfg10.N, win10_0.index t (0 : Fin 2) = t.val ∧ win10_0.index t (1 : Fin 2) = 0
    ∧ win10_1.index t (0 : Fin 1) = 0
    ∧ win10_2.index t (0 : Fin 2) = t.val ∧ win10_2.index t (1 : Fin 2) = 0 :=
  (by decide +kernel : ∀ t : Fin grid10.N, _)

/-- What tile `t` writes back is block `t` of `biasRelu` of the operand and the bias as the region finds them. -/
theorem flushed_eq (c : Dev nD) (t : Fin cfg10.N) :
    (dat10 (F := Ideal) V c).flushed 2 t
      = ((cfg10.win 2).blk t).view.read (Elt Ideal) (Cert.Net.biasRelu (V c main_v223) (V c main_arg13)) := by
  show (cfg10.win 2).cut (grid10.coords t) ((dat10 (F := Ideal) V c).after 2 t) = _
  rw [after10_2]
  unfold out10_2
  rw [View.canon_unit_zero origin2]
  simp only [View.ld_unit_zero (S := S4000x128) origin2, View.ld_unit_zero (S := S128) origin1]
  obtain ⟨e0, e1, e2, e3, e4⟩ := tile_index t
  funext j
  show k10_pay1 (iblk10 V c 0 t) (iblk10 V c 1 t) j
    = Cert.Net.biasRelu (V c main_v223) (V c main_arg13) (((cfg10.win 2).blk t).view.emb j)
  refine tile_eq (V c main_v223) (V c main_arg13) (iblk10 V c 0 t) (iblk10 V c 1 t) (((cfg10.win 2).blk t).view.emb)
    (fun y => ?_) (fun y => ?_) (fun y => ?_) j
  · show V c main_v223 (((cfg10.win 0).blk t).view.emb y) = V c main_v223 (((cfg10.win 2).blk t).view.emb y)
    refine congrArg (V c main_v223) (funext fun a => Fin.ext ?_)
    match a with
    | ⟨0, _⟩ => show win10_0.index t (0 : Fin 2) * 4000 + 1 * (y 0).val = win10_2.index t (0 : Fin 2) * 4000 + 1 * (y 0).val; omega
    | ⟨1, _⟩ => show win10_0.index t (1 : Fin 2) * 128 + 1 * (y 1).val = win10_2.index t (1 : Fin 2) * 128 + 1 * (y 1).val; omega
  · show V c main_arg13 (((cfg10.win 1).blk t).view.emb y) = V c main_arg13 y
    refine congrArg (V c main_arg13) (funext fun a => Fin.ext ?_)
    match a with
    | ⟨0, _⟩ => show win10_1.index t (0 : Fin 1) * 128 + 1 * (y 0).val = (y 0).val; omega
  · show win10_2.index t (1 : Fin 2) * 128 + 1 * (y 1).val = (y 1).val
    omega

/-- An index of the result is in tile `t`'s block iff each coordinate is in the block's range on its axis. -/
theorem mem_blk (t : Fin cfg10.N) (i : S20000x128.Idx) :
    i ∈ ((cfg10.win 2).blk t).view.set
      ↔ ∀ a : Fin 2, win10_2.index t a * S4000x128.size a ≤ (i a).val ∧ (i a).val < win10_2.index t a * S4000x128.size a + S4000x128.size a := by
  show i ∈ ((View.whole main_v224).slice (win10_2.rect t)).set ↔ _
  rw [View.set_slice_whole, Rect.mem_set_unit]
  exact Iff.rfl

/-- Every entry of the result lies in some tile's block: row `r` in tile `r / 4000`. -/
theorem covered (i : S20000x128.Idx) :
    ∃ t : Fin cfg10.N, (cfg10.win 2).flush t = true ∧ i ∈ ((cfg10.win 2).blk t).view.set := by
  have hi0 : (i 0).val < 20000 := (i 0).isLt
  have hi1 : (i 1).val < 128 := (i 1).isLt
  have hN : cfg10.N = 5 := N_10
  let t : Fin cfg10.N := ⟨(i 0).val / 4000, by rw [hN]; omega⟩
  obtain ⟨e0, e1, e2, e3, e4⟩ := tile_index t
  have ht : t.val = (i 0).val / 4000 := rfl
  refine ⟨t, flush10_2 t, ?_⟩
  rw [mem_blk]
  intro a
  match a with
  | ⟨0, _⟩ => show win10_2.index t (0 : Fin 2) * 4000 ≤ (i 0).val ∧ (i 0).val < win10_2.index t (0 : Fin 2) * 4000 + 4000; omega
  | ⟨1, _⟩ => show win10_2.index t (1 : Fin 2) * 128 ≤ (i 1).val ∧ (i 1).val < win10_2.index t (1 : Fin 2) * 128 + 128; omega

/-- After its 5 tiles the kernel's result array is `biasRelu` of its operand and its bias as the region finds them. -/
theorem closed (c : Dev nD) :
    (dat10 (F := Ideal) V c).arrAt 2 cfg10.N = Cert.Net.biasRelu (V c main_v223) (V c main_arg13) :=
  (dat10 (F := Ideal) V c).arrAt_eq_of_cover 2 (Cert.Net.biasRelu (V c main_v223) (V c main_arg13))
    (fun t _ => flushed_eq V c t) covered

end Cert.KernelIdeal.Region10

end
-- ==== Proof.Region11.lean ====
/-
  The pooling layer on 100000 rows, computed tile by tile, is the pooling layer of the whole arrays.

  The program runs over 25 tiles of 4000 rows. At tile t it reads rows 4000·t … 4000·t + 3999 of y and the whole of
  w, b, g, β, μ, var, and writes, at row r and column c of the tile,
    max ((max ((y·w)[r, c] + b[c]) 0 − μ[c]) · (g[c] · (var[c] + ε)^(-1/2)) + β[c]) 0,
  where (y·w)[r, c] = ∑ₖ y[r, k] · w[k, c] is taken over the tile's rows. That is the value of `Cert.Net.poolK` of the
  whole arrays at row 4000·t + r and column c (`pay_apply`, `spec_at`, and the reads of each block in the arrays).
  The tiles' row ranges cover every row (row ρ lies in tile ρ / 4000), so after the last tile the result array is
  `Cert.Net.poolK` of the arrays as they were when the region was entered (`closed`).
-/
import proofs.«124761_j84988812853303_1_alg».proof.Proof.Gen.KernelIdeal.Frame
import proofs.«124761_j84988812853303_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region11

open Cert.KernelIdeal Cert.KernelIdeal.Gen Idealize.ShloMosaic Idealize.ShloMosaic.ValueIdx
open Idealize.ShloMosaic.TcCoe Idealize.SL.Sem
open Idealize.ShloMosaic.Pipeline (Dat)

/-! ## The body's result at an index -/

/-- The product's left operand index at output index i and contraction index q: its row is the output's row. -/
theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column is the contraction coordinate. -/
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand index: its row is the contraction coordinate. -/
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column is the output's column. -/
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix product of a row block with the weight, read at row r and column c: the sum over the
    contraction coordinate k of block[r, k] · weight[k, c]. -/
theorem mm_apply (x0 : FVec Ideal S4000x128 .bf16) (x1 : FVec Ideal S128x128 .bf16) (r : Fin 4000) (c : Fin 128) :
    matmul dot_S4000x128_S128x128_S4000x128_1_0_0_1_n_n none x0 x1 (constant S4000x128 .f32 0x00000000#32) (ix2 r c)
      = ∑ k : Fin 128, x0 (ix2 r k) * x1 (ix2 k c) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r c) ((contrEquiv1 dot_S4000x128_S128x128_S4000x128_1_0_0_1_n_n 128 rfl rfl).symm k) = ix2 r k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 r c) ((contrEquiv1 dot_S4000x128_S128x128_S4000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-- The reciprocal square root of a vector, read at an index. -/
theorem rsqrt_apply {s : Shape} {φ : FTy} (a : FVec Ideal s φ) (i : s.Idx) : rsqrt a i = Ideal.rsqrt (a i) := rfl

/-- A scalar constant on the extended reals is the number its word encodes. -/
theorem scalar_ofBits (b : BitVec (FTy.bits .f32)) : Scalar.ofBits (F := Ideal) .f32 b = Ideal.ofBits .f32 b := rfl

/-- A vector of 128 entries, made a row and repeated over 4000 rows, reads its entry at the column. -/
theorem row_apply (v : FVec Ideal S128 .f32) (r : Fin 4000) (c : Fin 128) :
    broadcastTo S4000x128 (shapeCast S1x128 v shapeCasts_S128_S1x128) broadcasts_S1x128_S4000x128 (ix2 r c) = v (ix1 c) := by
  rw [broadcastTo_1b_ab_apply, shapeCast_a_1a_apply]

/-- THE BODY'S RESULT AT ROW r AND COLUMN c of a row block: the linear layer, the rectifier, the normalisation
    with the scale g · (var + ε)^(-1/2), and the second rectifier, of the loaded blocks. -/
theorem pay_apply (x0 : Vec Ideal S4000x128 .f32) (x1 : Vec Ideal S128x128 .f32) (xb xg xv xm xbeta : Vec Ideal S128 .f32)
    (r : Fin 4000) (c : Fin 128) :
    k11_pay1 x0 x1 xb xg xv xm xbeta (ix2 r c)
      = max ((max ((∑ k : Fin 128, x0 (ix2 r k) * x1 (ix2 k c)) + xb (ix1 c)) 0 - xm (ix1 c))
          * (xg (ix1 c) * Ideal.rsqrt (xv (ix1 c) + Ideal.ofBits .f32 0x3727C5AC#32)) + xbeta (ix1 c)) 0 := by
  unfold k11_pay1
  simp only [shapeCast_self]
  rw [maximumf_apply, addf_apply, mulf_apply, subf_apply, maximumf_apply, addf_apply, mm_apply,
    row_apply, row_apply, row_apply, row_apply, mulf_apply, rsqrt_apply, addf_apply]
  simp only [broadcast_apply, truncf_apply, scalar_ofBits, Ideal.ofBits_zero_f32]

/-- The pooling layer of whole arrays, read at row R and column c. -/
theorem spec_at (Y : Cert.Net.Arr2 100000 128) (W : Cert.Net.Arr2 128 128) (B G Beta Mean Var : Cert.Net.Arr1 128) (eps : EReal)
    (R : Fin 100000) (c : Fin 128) :
    Cert.Net.poolK Y W B G Beta Mean Var eps (ix2 R c)
      = max ((max ((∑ k : Fin 128, Y (ix2 R k) * W (ix2 k c)) + B (ix1 c)) 0 - Mean (ix1 c))
          * (G (ix1 c) * Ideal.rsqrt (Var (ix1 c) + eps)) + Beta (ix1 c)) 0 := rfl

/-! ## The grid's blocks -/

theorem hz : (![0, 0] : Fin 2 → Nat) = fun _ => 0 := funext fun a => by fin_cases a <;> rfl
theorem hz1 : (![0] : Fin 1 → Nat) = fun _ => 0 := funext fun a => by fin_cases a <;> rfl

/-- The index maps, decided over the grid: the row operand and the result move together, one block of 4000 rows
    per point, and every other operand stays at its one block. -/
theorem idx_facts : ∀ t : Fin cfg11.N, win11_7.index t (0 : Fin 2) = t.val ∧ win11_7.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 1) = 0 ∧ win11_3.index t (0 : Fin 1) = 0 ∧ win11_4.index t (0 : Fin 1) = 0
    ∧ win11_5.index t (0 : Fin 1) = 0 ∧ win11_6.index t (0 : Fin 1) = 0 :=
  (by decide +kernel : ∀ t : Fin grid11.N, _)

/-- An index of the result array is in point t's block iff each coordinate is in the block's range on its axis. -/
theorem mem_blk (t : Fin cfg11.N) (i : S100000x128.Idx) :
    i ∈ ((cfg11.win 7).blk t).view.set ↔ ∀ a : Fin 2, win11_7.index t a * S4000x128.size a ≤ (i a).val ∧ (i a).val < win11_7.index t a * S4000x128.size a + S4000x128.size a := by
  show i ∈ ((View.whole main_v244).slice (win11_7.rect t)).set ↔ _
  rw [View.set_slice_whole, Rect.mem_set_unit]
  exact Iff.rfl

/-- Every index of the result array is in the block of the point its row falls in: row ρ is in block ρ / 4000. -/
theorem cover (i : S100000x128.Idx) : ∃ t : Fin cfg11.N, (cfg11.win 7).flush t = true ∧ i ∈ ((cfg11.win 7).blk t).view.set := by
  have hi0 : (i 0).val < 100000 := (i 0).isLt
  have hi1 : (i 1).val < 128 := (i 1).isLt
  have hN : cfg11.N = 25 := N_11
  have ht : (i 0).val / 4000 < cfg11.N := by rw [hN]; omega
  obtain ⟨e0, e1, -⟩ := idx_facts ⟨(i 0).val / 4000, ht⟩
  refine ⟨⟨(i 0).val / 4000, ht⟩, flush11_7 _, ?_⟩
  rw [mem_blk]
  intro a
  match a with
  | ⟨0, _⟩ =>
    show win11_7.index ⟨(i 0).val / 4000, ht⟩ (0 : Fin 2) * 4000 ≤ (i 0).val ∧ (i 0).val < win11_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win11_7.index ⟨(i 0).val / 4000, ht⟩ (1 : Fin 2) * 128 ≤ (i 1).val ∧ (i 1).val < win11_7.index ⟨(i 0).val / 4000, ht⟩ (1 : Fin 2) * 128 + 128
    rw [e1]; omega

/-! ## Each window's block as the array read where the block sits -/

variable (V : (c : Dev nD) → (b : Ref sig .tc) → Buf (Elt Ideal) ((c : Thread nD τ).loc b))

/-- Row block t of the first operand: its row r is row t·4000 + r of the array. -/
theorem rows_read (c : Dev nD) (t : Fin cfg11.N) (r : Fin 4000) (k : Fin 128) (R : Fin 100000) (hR : R.val = t.val * 4000 + r.val) :
    (iblk11 V c 0 t : Vec Ideal S4000x128 .f32) (ix2 r k) = (V c main_v231 : S100000x128.Idx → EReal) (ix2 R k) := by
  obtain ⟨-, -, e0, e1, -⟩ := idx_facts t
  show V c main_v231 (((cfg11.win 0).blk t).view.emb (ix2 r k)) = _
  refine congrArg _ (funext fun a => Fin.ext ?_)
  match a with
  | ⟨0, _⟩ => show win11_0.index t (0 : Fin 2) * 4000 + 1 * r.val = R.val; omega
  | ⟨1, _⟩ => show win11_0.index t (1 : Fin 2) * 128 + 1 * k.val = k.val; omega

/-- The weight's one block is the whole weight. -/
theorem weight_read (c : Dev nD) (t : Fin cfg11.N) :
    (iblk11 V c 1 t : Vec Ideal S128x128 .f32) = (V c main_v233 : S128x128.Idx → EReal) := by
  obtain ⟨-, -, -, -, e0, e1, -⟩ := idx_facts t
  funext y
  show V c main_v233 (((cfg11.win 1).blk t).view.emb y) = V c main_v233 y
  refine congrArg _ (funext fun a => Fin.ext ?_)
  match a with
  | ⟨0, _⟩ => show win11_1.index t (0 : Fin 2) * 128 + 1 * (y 0).val = (y 0).val; omega
  | ⟨1, _⟩ => show win11_1.index t (1 : Fin 2) * 128 + 1 * (y 1).val = (y 1).val; omega

/-- The bias's one block is the whole vector. -/
theorem vec2_read (c : Dev nD) (t : Fin cfg11.N) :
    (iblk11 V c 2 t : Vec Ideal S128 .f32) = (V c main_v235 : S128.Idx → EReal) := by
  obtain ⟨-, -, -, -, -, -, e, -⟩ := idx_facts t
  funext y
  show V c main_v235 (((cfg11.win 2).blk t).view.emb y) = V c main_v235 y
  refine congrArg _ (funext fun a => Fin.ext ?_)
  match a with
  | ⟨0, _⟩ => show win11_2.index t (0 : Fin 1) * 128 + 1 * (y 0).val = (y 0).val; omega

/-- The gain's one block is the whole vector. -/
theorem vec3_read (c : Dev nD) (t : Fin cfg11.N) :
    (iblk11 V c 3 t : Vec Ideal S128 .f32) = (V c main_v237 : S128.Idx → EReal) := by
  obtain ⟨-, -, -, -, -, -, -, e, -⟩ := idx_facts t
  funext y
  show V c main_v237 (((cfg11.win 3).blk t).view.emb y) = V c main_v237 y
  refine congrArg _ (funext fun a => Fin.ext ?_)
  match a with
  | ⟨0, _⟩ => show win11_3.index t (0 : Fin 1) * 128 + 1 * (y 0).val = (y 0).val; omega

/-- The shift's one block is the whole vector. -/
theorem vec4_read (c : Dev nD) (t : Fin cfg11.N) :
    (iblk11 V c 4 t : Vec Ideal S128 .f32) = (V c main_v239 : S128.Idx → EReal) := by
  obtain ⟨-, -, -, -, -, -, -, -, e, -⟩ := idx_facts t
  funext y
  show V c main_v239 (((cfg11.win 4).blk t).view.emb y) = V c main_v239 y
  refine congrArg _ (funext fun a => Fin.ext ?_)
  match a with
  | ⟨0, _⟩ => show win11_4.index t (0 : Fin 1) * 128 + 1 * (y 0).val = (y 0).val; omega

/-- The mean's one block is the whole vector. -/
theorem vec5_read (c : Dev nD) (t : Fin cfg11.N) :
    (iblk11 V c 5 t : Vec Ideal S128 .f32) = (V c main_v241 : S128.Idx → EReal) := by
  obtain ⟨-, -, -, -, -, -, -, -, -, e, -⟩ := idx_facts t
  funext y
  show V c main_v241 (((cfg11.win 5).blk t).view.emb y) = V c main_v241 y
  refine congrArg _ (funext fun a => Fin.ext ?_)
  match a with
  | ⟨0, _⟩ => show win11_5.index t (0 : Fin 1) * 128 + 1 * (y 0).val = (y 0).val; omega

/-- The variance's one block is the whole vector. -/
theorem vec6_read (c : Dev nD) (t : Fin cfg11.N) :
    (iblk11 V c 6 t : Vec Ideal S128 .f32) = (V c main_v243 : S128.Idx → EReal) := by
  obtain ⟨-, -, -, -, -, -, -, -, -, -, e⟩ := idx_facts t
  funext y
  show V c main_v243 (((cfg11.win 6).blk t).view.emb y) = V c main_v243 y
  refine congrArg _ (funext fun a => Fin.ext ?_)
  match a with
  | ⟨0, _⟩ => show win11_6.index t (0 : Fin 1) * 128 + 1 * (y 0).val = (y 0).val; omega

/-- The result's block t, read at row r and column c, sits at row t·4000 + r and column c of the array. -/
theorem out_emb (t : Fin cfg11.N) (r : Fin 4000) (c' : Fin 128) (R : Fin 100000) (hR : R.val = t.val * 4000 + r.val) :
    ((cfg11.win 7).blk t).view.emb (ix2 r c') = (ix2 R c' : S100000x128.Idx) := by
  obtain ⟨e0, e1, -⟩ := idx_facts t
  funext a; apply Fin.ext
  match a with
  | ⟨0, _⟩ => show win11_7.index t (0 : Fin 2) * 4000 + 1 * r.val = R.val; omega
  | ⟨1, _⟩ => show win11_7.index t (1 : Fin 2) * 128 + 1 * c'.val = c'.val; omega

/-! ## From the blocks to the array -/

/-- What the result array holds after the region: the pooling layer of the arrays the region finds. -/
abbrev result (c : Dev nD) : S100000x128.Idx → EReal :=
  Cert.Net.poolK (V c main_v231) (V c main_v233) (V c main_v235) (V c main_v237) (V c main_v239) (V c main_v241) (V c main_v243)
    (Ideal.ofBits .f32 0x3727C5AC#32)

/-- WHAT POINT t WRITES BACK is block t of the pooling layer of the arrays the region finds. -/
theorem flushed_eq (c : Dev nD) (t : Fin cfg11.N) :
    (dat11 V c).flushed 7 t = ((cfg11.win 7).blk t).view.read (Elt Ideal) (result V c) := by
  show (cfg11.win 7).cut (grid11.coords t) ((dat11 V c).after 7 t) = _
  rw [after11_7]
  unfold out11_7
  rw [View.canon_unit_zero hz]
  simp only [View.ld_unit_zero (S := S4000x128) hz, View.ld_unit_zero (S := S128x128) hz, View.ld_unit_zero (S := S128) hz1]
  funext j
  obtain ⟨r, c', rfl⟩ : ∃ (r : Fin 4000) (c' : Fin 128), j = ix2 r c' := ⟨j 0, j 1, eq_ix2 j⟩
  have hN : cfg11.N = 25 := N_11
  have hlt : t.val * 4000 + r.val < 100000 := by have := t.isLt; omega
  show k11_pay1 (iblk11 V c 0 t) (iblk11 V c 1 t) (iblk11 V c 2 t) (iblk11 V c 3 t) (iblk11 V c 6 t) (iblk11 V c 5 t) (iblk11 V c 4 t) (ix2 r c')
    = result V c (((cfg11.win 7).blk t).view.emb (ix2 r c'))
  rw [out_emb t r c' ⟨t.val * 4000 + r.val, hlt⟩ rfl]
  refine (pay_apply (iblk11 V c 0 t) (iblk11 V c 1 t) (iblk11 V c 2 t) (iblk11 V c 3 t) (iblk11 V c 6 t) (iblk11 V c 5 t) (iblk11 V c 4 t) r c').trans ?_
  rw [weight_read V c t, vec2_read V c t, vec3_read V c t, vec4_read V c t, vec5_read V c t, vec6_read V c t]
  simp only [rows_read V c t r _ ⟨t.val * 4000 + r.val, hlt⟩ rfl]
  exact (spec_at _ _ _ _ _ _ _ _ _ _).symm

/-- THE RESULT ARRAY after the region's 25 grid points is the pooling layer of the arrays the region finds. -/
theorem closed (c : Dev nD) :
    (dat11 (F := Ideal) V c).arrAt 7 cfg11.N
      = Cert.Net.poolK (V c main_v231) (V c main_v233) (V c main_v235) (V c main_v237) (V c main_v239) (V c main_v241) (V c main_v243)
          (Ideal.ofBits .f32 0x3727C5AC#32) :=
  (dat11 V c).arrAt_eq_of_cover 7 (result V c) (fun t _ => flushed_eq V c t) cover

end Cert.KernelIdeal.Region11

end
-- ==== Proof.Region12.lean ====
/-
  The matrix-product kernel of region 12: the array its output window holds after the whole grid.

  The grid has 25 points; point t reads rows 4000·t … 4000·t + 3999 of the left operand and the whole right operand,
  and stores, at row r and column c of its block, the sum over k of left[r, k] · right[k, c] (on the extended reals the
  rounding of the operands is the identity and the accumulator starts at zero). Row i of the output is written by point
  i / 4000, so every index is covered and the output array is the matrix product of the two input arrays.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region12

open Cert.KernelIdeal Cert.KernelIdeal.Gen

/-! ## The stored value at an index of the block -/

/-- Row coordinate of the left operand's index: the output's row. -/
theorem lhs_row (i : S4000x10.Idx) (q : dot_S4000x256_S256x10_S4000x10_1_0_0_1_n_n.contr.Idx) :
    (dot_S4000x256_S256x10_S4000x10_1_0_0_1_n_n.lhsIdx i q 0).val = (i 0).val := by
  unfold DotDims.lhsIdx
  rw [dif_neg (show ¬(0 : Fin S4000x256.rank) ∈ dot_S4000x256_S256x10_S4000x10_1_0_0_1_n_n.lhsBatch by decide),
    dif_pos (show (0 : Fin S4000x256.rank) ∈ dot_S4000x256_S256x10_S4000x10_1_0_0_1_n_n.lhsNonContracting by decide)]
  rfl

/-- Column coordinate of the right operand's index: the output's column. -/
theorem rhs_col (i : S4000x10.Idx) (q : dot_S4000x256_S256x10_S4000x10_1_0_0_1_n_n.contr.Idx) :
    (dot_S4000x256_S256x10_S4000x10_1_0_0_1_n_n.rhsIdx i q 1).val = (i 1).val := by
  unfold DotDims.rhsIdx
  rw [dif_neg (show ¬(1 : Fin S256x10.rank) ∈ dot_S4000x256_S256x10_S4000x10_1_0_0_1_n_n.rhsBatch by decide),
    dif_pos (show (1 : Fin S256x10.rank) ∈ dot_S4000x256_S256x10_S4000x10_1_0_0_1_n_n.rhsNonContracting by decide)]
  rfl

/-- The left operand's index of the product at output index (r, c) and contraction coordinate k is (r, k). -/
theorem lhs_idx (r : Fin 4000) (c : Fin 10) (k : Fin 256) :
    dot_S4000x256_S256x10_S4000x10_1_0_0_1_n_n.lhsIdx (ix2 r c)
      ((contrEquiv1 dot_S4000x256_S256x10_S4000x10_1_0_0_1_n_n 256 rfl rfl).symm k) = ix2 r k := by
  have hk := contrEquiv1_symm_val dot_S4000x256_S256x10_S4000x10_1_0_0_1_n_n 256 rfl rfl k
  exact funext fun a => Fin.ext (by
    match a with
    | ⟨0, _⟩ => exact lhs_row _ _
    | ⟨1, _⟩ => exact (dot_S4000x256_S256x10_S4000x10_1_0_0_1_n_n.lhsIdx_val_of_single rfl _ _).trans hk)

/-- The right operand's index is (k, c). -/
theorem rhs_idx (r : Fin 4000) (c : Fin 10) (k : Fin 256) :
    dot_S4000x256_S256x10_S4000x10_1_0_0_1_n_n.rhsIdx (ix2 r c)
      ((contrEquiv1 dot_S4000x256_S256x10_S4000x10_1_0_0_1_n_n 256 rfl rfl).symm k) = ix2 k c := by
  have hk := contrEquiv1_symm_val dot_S4000x256_S256x10_S4000x10_1_0_0_1_n_n 256 rfl rfl k
  exact funext fun a => Fin.ext (by
    match a with
    | ⟨0, _⟩ => exact (dot_S4000x256_S256x10_S4000x10_1_0_0_1_n_n.rhsIdx_val_of_single rfl _ _).trans hk
    | ⟨1, _⟩ => exact rhs_col _ _)

/-- The body's stored value at row r, column c: the sum over k of the left block at (r, k) times the right at (k, c). -/
theorem pay_apply (x0 : Vec Ideal S4000x256 .f32) (x1 : Vec Ideal S256x10 .f32) (r : Fin 4000) (c : Fin 10) :
    k12_pay1 x0 x1 (ix2 r c) = ∑ k : Fin 256, x0 (ix2 r k) * x1 (ix2 k c) := by
  unfold k12_pay1
  simp only [matmul, shapeCast_self]
  rw [Ideal.matmul_constant_zero_apply,
    ← Equiv.sum_comp (contrEquiv1 dot_S4000x256_S256x10_S4000x10_1_0_0_1_n_n 256 rfl rfl).symm]
  refine Finset.sum_congr rfl fun k _ => ?_
  rw [lhs_idx, rhs_idx]
  rfl

/-- When the left block holds rows 4000·T … of A and the right block is W, the stored value at a block index y is the
    product A·W at the array index i whose row is 4000·T + y's row and whose column is y's. -/
theorem pay_block (A : Net.Arr2 100000 256) (W : Net.Arr2 256 10) (x0 : Vec Ideal S4000x256 .f32) (x1 : Vec Ideal S256x10 .f32)
    (T : Nat) (hT : T < 25)
    (h0 : ∀ (r : Fin 4000) (k : Fin 256), x0 (ix2 r k) = A (ix2 ⟨T * 4000 + r.val, by omega⟩ k))
    (h1 : ∀ (k : Fin 256) (c : Fin 10), x1 (ix2 k c) = W (ix2 k c))
    (y : S4000x10.Idx) (i : S100000x10.Idx)
    (hi0 : (i 0).val = T * 4000 + (y 0).val) (hi1 : (i 1).val = (y 1).val) :
    k12_pay1 x0 x1 y = Net.mm A W i := by
  obtain ⟨r, c, rfl⟩ : ∃ (r : Fin 4000) (c : Fin 10), y = ix2 r c := ⟨y 0, y 1, eq_ix2 y⟩
  obtain ⟨p, q, rfl⟩ : ∃ (p : Fin 100000) (q : Fin 10), i = ix2 p q := ⟨i 0, i 1, eq_ix2 i⟩
  have hp : p = ⟨T * 4000 + r.val, by omega⟩ := Fin.ext hi0
  have hq : q = c := Fin.ext hi1
  subst hq
  rw [hp, pay_apply]
  unfold Net.mm
  exact Finset.sum_congr rfl fun k _ => congrArg₂ (· * ·) (h0 r k) (h1 k q)

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's and the output's row block index is the point,
    every other block index is zero. -/
theorem idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- The left operand's block at point t is rows 4000·t … of its array. -/
theorem lhs_block (c : Dev nD) (t : Fin cfg12.N) (ht : t.val < 25) (r : Fin 4000) (k : Fin 256) :
    (iblk12 V c 0 t : Vec Ideal S4000x256 .f32) (ix2 r k)
      = (V c main_v245 : S100000x256.Idx → EReal) (ix2 ⟨t.val * 4000 + r.val, by omega⟩ k) := by
  obtain ⟨e0, e1, -, -, -, -⟩ := idx_facts t
  show (V c main_v245 : S100000x256.Idx → EReal) (((cfg12.win 0).blk t).view.emb (ix2 r k)) = _
  refine congrArg _ (funext fun a => Fin.ext ?_)
  match a with
  | ⟨0, _⟩ => show win12_0.index t (0 : Fin 2) * 4000 + 1 * r.val = t.val * 4000 + r.val; omega
  | ⟨1, _⟩ => show win12_0.index t (1 : Fin 2) * 256 + 1 * k.val = k.val; omega

/-- The right operand's block at every point is its whole array. -/
theorem rhs_block (c : Dev nD) (t : Fin cfg12.N) (k : Fin 256) (j : Fin 10) :
    (iblk12 V c 1 t : Vec Ideal S256x10 .f32) (ix2 k j) = (V c main_arg14 : S256x10.Idx → EReal) (ix2 k j) := by
  obtain ⟨-, -, e2, e3, -, -⟩ := idx_facts t
  show (V c main_arg14 : S256x10.Idx → EReal) (((cfg12.win 1).blk t).view.emb (ix2 k j)) = _
  refine congrArg _ (funext fun a => Fin.ext ?_)
  match a with
  | ⟨0, _⟩ => show win12_1.index t (0 : Fin 2) * 256 + 1 * k.val = k.val; omega
  | ⟨1, _⟩ => show win12_1.index t (1 : Fin 2) * 10 + 1 * j.val = j.val; omega

/-- What point t writes back is block t of the matrix product of the two input arrays. -/
theorem flushed_eq (c : Dev nD) (t : Fin cfg12.N) :
    (dat12 V c).flushed 2 t
      = ((cfg12.win 2).blk t).view.read (Elt Ideal) (Net.mm (V c main_v245) (V c main_arg14)) := by
  show (cfg12.win 2).cut (grid12.coords t) ((dat12 V c).after 2 t) = _
  rw [after12_2]
  unfold out12_2
  rw [View.canon_unit_zero zero_offsets]
  simp only [View.ld_unit_zero (S := S4000x256) zero_offsets, View.ld_unit_zero (S := S256x10) zero_offsets]
  obtain ⟨-, -, -, -, e4, e5⟩ := idx_facts t
  have ht : t.val < 25 := by have h := t.isLt; have hN : cfg12.N = 25 := N_12; omega
  funext j
  show k12_pay1 (iblk12 V c 0 t) (iblk12 V c 1 t) ((cfg12.win 2).xinj (grid12.coords t) j)
    = Net.mm (V c main_v245) (V c main_arg14) (((cfg12.win 2).blk t).view.emb j)
  refine pay_block (V c main_v245) (V c main_arg14) (iblk12 V c 0 t) (iblk12 V c 1 t) t.val ht
    (lhs_block V c t ht) (rhs_block V c t) _ _ ?_ ?_
  · show win12_2.index t (0 : Fin 2) * 4000 + 1 * (j 0).val = t.val * 4000 + (j 0).val; omega
  · show win12_2.index t (1 : Fin 2) * 10 + 1 * (j 1).val = (j 1).val; omega

/-- An index of the output array is in point t's block iff each coordinate is in the block's range on its axis. -/
theorem mem_blk (t : Fin cfg12.N) (i : S100000x10.Idx) :
    i ∈ ((cfg12.win 2).blk t).view.set ↔ ∀ a : Fin 2, win12_2.index t a * S4000x10.size a ≤ (i a).val
      ∧ (i a).val < win12_2.index t a * S4000x10.size a + S4000x10.size a := by
  show i ∈ ((View.whole main_v246).slice (win12_2.rect t)).set ↔ _
  rw [View.set_slice_whole, Rect.mem_set_unit]
  exact Iff.rfl

/-- Row i of the output lies in the block of point i / 4000, which writes its block back. -/
theorem cover (i : S100000x10.Idx) :
    ∃ t : Fin cfg12.N, (cfg12.win 2).flush t = true ∧ i ∈ ((cfg12.win 2).blk t).view.set := by
  have hi0 : (i 0).val < 100000 := (i 0).isLt
  have hi1 : (i 1).val < 10 := (i 1).isLt
  obtain ⟨t, ht⟩ : ∃ t : Fin cfg12.N, t.val = (i 0).val / 4000 :=
    ⟨⟨(i 0).val / 4000, by have hN : cfg12.N = 25 := N_12; omega⟩, rfl⟩
  obtain ⟨-, -, -, -, e4, e5⟩ := idx_facts t
  refine ⟨t, flush12_2 t, ?_⟩
  rw [mem_blk]
  intro a
  match a with
  | ⟨0, _⟩ =>
    show win12_2.index t (0 : Fin 2) * 4000 ≤ (i 0).val ∧ (i 0).val < win12_2.index t (0 : Fin 2) * 4000 + 4000
    omega
  | ⟨1, _⟩ =>
    show win12_2.index t (1 : Fin 2) * 10 ≤ (i 1).val ∧ (i 1).val < win12_2.index t (1 : Fin 2) * 10 + 10
    omega

/-- The output array after the whole grid is the matrix product of the two input arrays as the region finds them. -/
theorem closed (c : Dev nD) :
    (dat12 (F := Ideal) V c).arrAt 2 cfg12.N = Net.mm (V c main_v245) (V c main_arg14) :=
  (dat12 V c).arrAt_eq_of_cover 2 (Net.mm (V c main_v245) (V c main_arg14)) (fun t _ => flushed_eq V c t) (cover)

end Cert.KernelIdeal.Region12

end
-- ==== Proof.Region13.lean ====
/-
  The bias-and-log-softmax kernel, as one function of its arrays.

  The kernel walks the 100000 rows of its operand in 25 tiles of 4000 rows. At tile `t` it loads rows
  `4000·t … 4000·t + 3999` of the operand and the whole bias row of 10 entries. In each row of the tile it forms the
  biased row `z[j] = s[4000·t + p, j] + b[j]`, its largest entry `m` (a maximum over the 10 lanes started from `-∞`), the sum
  of `exp (z[j] − m)` over the 10 lanes, the logarithm `L` of that sum, and stores `z[q] − (m + L)`. All of this reads one
  row only, so a tile's entry `(p, q)` is the entry `(4000·t + p, q)` of `Cert.Net.lsmK s b`: each tile written back is the
  matching block of that one array. Row `r` lies in tile `r / 4000`, so the 25 tiles cover the result, and after the
  last tile the result array is `Cert.Net.lsmK s b` everywhere.
-/
import proofs.«124761_j84988812853303_1_alg».proof.Proof.Gen.KernelIdeal.Frame
import proofs.«124761_j84988812853303_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region13

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The origin of a rank-2 buffer. -/
theorem origin2 : (![0, 0] : Fin 2 → Nat) = fun _ => 0 := funext fun a => by fin_cases a <;> rfl
/-- The origin of a rank-1 buffer. -/
theorem origin1 : (![0] : Fin 1 → Nat) = fun _ => 0 := funext fun a => by fin_cases a; rfl

/-! ## Layout operations and lane reductions read at an index -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry of row `r` of the reduced vector comes from the entries `(r, k)` of the tile, `k` over the 10 lanes. -/
theorem lift_row (h : S4000x10.Reduces [1] S4000) (r : Fin 4000) (k : Fin 10) : h.lift (ix1 r) k = ix2 r k := by
  funext c; apply Fin.ext
  match c with
  | ⟨0, _⟩ => rfl
  | ⟨1, _⟩ => rfl

/-- The word `0xFF800000` is `-∞`. -/
theorem neg_inf_word : Ideal.ofBits .f32 0xFF800000#32 = (⊥ : EReal) := by simp [Ideal.ofBits, Ideal.ieee]

/-- The lane maximum of a tile at row `r`: the largest of the row's 10 entries, `-∞` the start. -/
theorem rowmax_apply (src : FVec Ideal S4000x10 .f32) (h : S4000x10.Reduces [1] S4000) (hφ : FKind.Formats .f32)
    (hacc : (0xFF800000#32 : BitVec 32) = FKind.maximumf.neutral .f32 hφ) (r : Fin 4000) :
    multiReduction .maximumf [1] S4000 src 0xFF800000#32 h hφ hacc (ix1 r)
      = (Finset.univ : Finset (Fin 10)).fold max ⊥ (fun j => src (ix2 r j)) := by
  refine (Ideal.multiReduction_maximumf_single src _ h hφ hacc (ix1 r)).trans ?_
  show Finset.fold max (Ideal.ofBits .f32 0xFF800000#32) (fun k : Fin 10 => src (h.lift (ix1 r) k)) Finset.univ = _
  rw [neg_inf_word]
  exact congrArg (fun f => Finset.fold max ⊥ f Finset.univ) (funext fun k => congrArg src (lift_row h r k))

/-- The lane sum of a tile at row `r`: the sum of the row's 10 entries. -/
theorem rowsum_apply (src : FVec Ideal S4000x10 .f32) (h : S4000x10.Reduces [1] S4000) (hφ : FKind.Formats .f32)
    (hacc : (0x00000000#32 : BitVec 32) = FKind.add.neutral .f32 hφ) (r : Fin 4000) :
    multiReduction .add [1] S4000 src 0x00000000#32 h hφ hacc (ix1 r) = ∑ j : Fin 10, src (ix2 r j) := by
  refine (Ideal.multiReduction_add_single src _ h hφ hacc (ix1 r)).trans ?_
  show ∑ k : Fin 10, src (h.lift (ix1 r) k) = _
  exact Finset.sum_congr rfl fun k _ => congrArg src (lift_row h r k)

/-! ## One tile -/

/-- The biased tile at `(r, j)`: the operand's entry plus the bias at lane `j`. -/
theorem bias_apply (x0 : Vec Ideal S4000x10 .f32) (x1 : Vec Ideal S10 .f32) (r : Fin 4000) (j : Fin 10) :
    addf (F := Ideal) (φ := .f32) (shapeCast S4000x10 x0 shapeCasts_S4000x10_S4000x10)
      (broadcastTo S4000x10 (shapeCast S1x10 x1 shapeCasts_S10_S1x10) broadcasts_S1x10_S4000x10) (ix2 r j)
      = x0 (ix2 r j) + x1 (ix1 j) := by
  rw [addf_apply, shapeCast_self, broadcastTo_1b_ab_apply, shapeCast_a_1a_apply]

/-- One tile's result at `(r, c)`: with `z` the biased row `r`, `m` its largest entry and `L` the logarithm of the sum
    of `exp (z[j] − m)`, it is `z[c] − (m + L)`. -/
theorem tile_apply (x0 : Vec Ideal S4000x10 .f32) (x1 : Vec Ideal S10 .f32) (r : Fin 4000) (c : Fin 10) :
    k13_pay1 x0 x1 (ix2 r c)
      = (x0 (ix2 r c) + x1 (ix1 c))
        - (Cert.Net.rowMax (fun j : Fin 10 => x0 (ix2 r j) + x1 (ix1 j))
          + Cert.Net.rowLse (fun j : Fin 10 => x0 (ix2 r j) + x1 (ix1 j))
              (Cert.Net.rowMax (fun j : Fin 10 => x0 (ix2 r j) + x1 (ix1 j)))) := by
  unfold Cert.Net.rowLse Cert.Net.rowMax
  unfold k13_pay1
  generalize hv5 : addf (F := Ideal) (φ := .f32) (shapeCast S4000x10 x0 shapeCasts_S4000x10_S4000x10)
      (broadcastTo S4000x10 (shapeCast S1x10 x1 shapeCasts_S10_S1x10) broadcasts_S1x10_S4000x10) = v5
  have e5 : ∀ j : Fin 10, v5 (ix2 r j) = x0 (ix2 r j) + x1 (ix1 j) := fun j => by rw [← hv5]; exact bias_apply x0 x1 r j
  rw [subf_apply, broadcastTo_a1_ab_apply, addf_apply, shapeCast_a_a1_apply]
  have hM : ∀ (hφ : FKind.Formats .f32) (hacc : (0xFF800000#32 : BitVec 32) = FKind.maximumf.neutral .f32 hφ),
      multiReduction .maximumf [1] S4000 v5 0xFF800000#32 reduces_S4000x10_S4000 hφ hacc (ix1 r)
        = (Finset.univ : Finset (Fin 10)).fold max ⊥ (fun j => x0 (ix2 r j) + x1 (ix1 j)) := fun hφ hacc =>
    (rowmax_apply v5 _ hφ hacc r).trans (congrArg (fun f => Finset.fold max ⊥ f Finset.univ) (funext e5))
  refine congrArg₂ (· - ·) (e5 c) (congrArg₂ (· + ·) (hM _ _) ?_)
  show Ideal.log (shapeCast S4000x1 _ shapeCasts_S4000_S4000x1 (ix2 r (0 : Fin 1))) = _
  refine congrArg Ideal.log ((shapeCast_a_a1_apply _ _ r 0).trans ((rowsum_apply _ _ _ _ r).trans (Finset.sum_congr rfl fun j _ => ?_)))
  show Ideal.exp (v5 (ix2 r j) - broadcastTo S4000x10 _ broadcasts_S4000x1_S4000x10 (ix2 r j)) = _
  exact congrArg Ideal.exp (congrArg₂ (· - ·) (e5 j)
    ((broadcastTo_a1_ab_apply _ _ r j).trans ((shapeCast_a_a1_apply _ _ r 0).trans (hM _ _))))

/-- A tile whose operand block is the rows of `s` that `e` names — row `p` of the tile being row `ρ p` of `s`, columns
    kept — with the bias row `b`, is the block of `lsmK s b` that `e` names. -/
theorem tile_eq (s : Cert.Net.Arr2 100000 10) (b : Cert.Net.Arr1 10) (x0 : Vec Ideal S4000x10 .f32) (x1 : Vec Ideal S10 .f32)
    (e : S4000x10.Idx → S100000x10.Idx) (ρ : Fin 4000 → Fin 100000)
    (h0 : ∀ y, x0 y = s (e y)) (h1 : ∀ y, x1 y = b y)
    (he : ∀ (p : Fin 4000) (q : Fin 10), e (ix2 p q) = ix2 (ρ p) q) (y : S4000x10.Idx) :
    k13_pay1 x0 x1 y = Cert.Net.lsmK s b (e y) := by
  obtain ⟨p, q, rfl⟩ : ∃ (p : Fin 4000) (q : Fin 10), y = ix2 p q := ⟨y 0, y 1, eq_ix2 y⟩
  have hz : (fun j : Fin 10 => x0 (ix2 p j) + x1 (ix1 j)) = Cert.Net.biasedRow s b (ρ p) :=
    funext fun j => by unfold Cert.Net.biasedRow; rw [h0, h1, he]
  rw [tile_apply, hz, he, show x0 (ix2 p q) + x1 (ix1 q) = Cert.Net.biasedRow s b (ρ p) q from congrFun hz q]
  rfl

/-- Where each window's block sits at tile `t`, decided over the 25 tiles: the operand's and the result's blocks are
    row block `t`, column block 0; the bias is always its one block. -/
theorem tile_index : ∀ t : Fin cfg13.N, win13_0.index t (0 : Fin 2) = t.val ∧ win13_0.index t (1 : Fin 2) = 0
    ∧ win13_1.index t (0 : Fin 1) = 0
    ∧ win13_2.index t (0 : Fin 2) = t.val ∧ win13_2.index t (1 : Fin 2) = 0 :=
  (by decide +kernel : ∀ t : Fin grid13.N, _)

/-- What tile `t` writes back is block `t` of `lsmK` of the operand and the bias as the region finds them. -/
theorem flushed_eq (c : Dev nD) (t : Fin cfg13.N) :
    (dat13 (F := Ideal) V c).flushed 2 t
      = ((cfg13.win 2).blk t).view.read (Elt Ideal) (Cert.Net.lsmK (V c main_v287) (V c main_arg15)) := by
  show (cfg13.win 2).cut (grid13.coords t) ((dat13 (F := Ideal) V c).after 2 t) = _
  rw [after13_2]
  unfold out13_2
  rw [View.canon_unit_zero origin2]
  simp only [View.ld_unit_zero (S := S4000x10) origin2, View.ld_unit_zero (S := S10) origin1]
  obtain ⟨e0, e1, e2, e3, e4⟩ := tile_index t
  have hN : cfg13.N = 25 := N_13
  have htN : t.val < 25 := hN ▸ t.isLt
  funext j
  show k13_pay1 (iblk13 V c 0 t) (iblk13 V c 1 t) j
    = Cert.Net.lsmK (V c main_v287) (V c main_arg15) (((cfg13.win 2).blk t).view.emb j)
  refine tile_eq (V c main_v287) (V c main_arg15) (iblk13 V c 0 t) (iblk13 V c 1 t) (((cfg13.win 2).blk t).view.emb)
    (fun p => ⟨t.val * 4000 + p.val, by have := p.isLt; omega⟩) (fun y => ?_) (fun y => ?_) (fun p q => ?_) j
  · show V c main_v287 (((cfg13.win 0).blk t).view.emb y) = V c main_v287 (((cfg13.win 2).blk t).view.emb y)
    refine congrArg (V c main_v287) (funext fun a => Fin.ext ?_)
    match a with
    | ⟨0, _⟩ => show win13_0.index t (0 : Fin 2) * 4000 + 1 * (y 0).val = win13_2.index t (0 : Fin 2) * 4000 + 1 * (y 0).val; omega
    | ⟨1, _⟩ => show win13_0.index t (1 : Fin 2) * 10 + 1 * (y 1).val = win13_2.index t (1 : Fin 2) * 10 + 1 * (y 1).val; omega
  · show V c main_arg15 (((cfg13.win 1).blk t).view.emb y) = V c main_arg15 y
    refine congrArg (V c main_arg15) (funext fun a => Fin.ext ?_)
    match a with
    | ⟨0, _⟩ => show win13_1.index t (0 : Fin 1) * 10 + 1 * (y 0).val = (y 0).val; omega
  · funext a; apply Fin.ext
    match a with
    | ⟨0, _⟩ => show win13_2.index t (0 : Fin 2) * 4000 + 1 * p.val = t.val * 4000 + p.val; omega
    | ⟨1, _⟩ => show win13_2.index t (1 : Fin 2) * 10 + 1 * q.val = q.val; omega

/-- An index of the result is in tile `t`'s block iff each coordinate is in the block's range on its axis. -/
theorem mem_blk (t : Fin cfg13.N) (i : S100000x10.Idx) :
    i ∈ ((cfg13.win 2).blk t).view.set
      ↔ ∀ a : Fin 2, win13_2.index t a * S4000x10.size a ≤ (i a).val ∧ (i a).val < win13_2.index t a * S4000x10.size a + S4000x10.size a := by
  show i ∈ ((View.whole main_v288).slice (win13_2.rect t)).set ↔ _
  rw [View.set_slice_whole, Rect.mem_set_unit]
  exact Iff.rfl

/-- Every entry of the result lies in some tile's block: row `r` in tile `r / 4000`. -/
theorem covered (i : S100000x10.Idx) :
    ∃ t : Fin cfg13.N, (cfg13.win 2).flush t = true ∧ i ∈ ((cfg13.win 2).blk t).view.set := by
  have hi0 : (i 0).val < 100000 := (i 0).isLt
  have hi1 : (i 1).val < 10 := (i 1).isLt
  have hN : cfg13.N = 25 := N_13
  let t : Fin cfg13.N := ⟨(i 0).val / 4000, by rw [hN]; omega⟩
  obtain ⟨e0, e1, e2, e3, e4⟩ := tile_index t
  have ht : t.val = (i 0).val / 4000 := rfl
  refine ⟨t, flush13_2 t, ?_⟩
  rw [mem_blk]
  intro a
  match a with
  | ⟨0, _⟩ => show win13_2.index t (0 : Fin 2) * 4000 ≤ (i 0).val ∧ (i 0).val < win13_2.index t (0 : Fin 2) * 4000 + 4000; omega
  | ⟨1, _⟩ => show win13_2.index t (1 : Fin 2) * 10 ≤ (i 1).val ∧ (i 1).val < win13_2.index t (1 : Fin 2) * 10 + 10; omega

/-- After its 25 tiles the kernel's result array is `lsmK` of its operand and its bias as the region finds them. -/
theorem closed (c : Dev nD) :
    (dat13 (F := Ideal) V c).arrAt 2 cfg13.N = Cert.Net.lsmK (V c main_v287) (V c main_arg15) :=
  (dat13 (F := Ideal) V c).arrAt_eq_of_cover 2 (Cert.Net.lsmK (V c main_v287) (V c main_arg15))
    (fun t _ => flushed_eq V c t) covered

end Cert.KernelIdeal.Region13

end
-- ==== Proof.Chain.lean ====
/-
  The kernel's result is the reference's, stage by stage.

  The kernel's program is a spine of 25 segments: a tiled region for every dense stage (five matrix products, four
  bias-and-rectifier stages, four pooling layers, the final bias and log-softmax) and, between them, stretches of array
  operations that both programs spell alike (the graph convolution's gather / scale / scatter, the pooling's scatter-add or
  gather by parent index, the slices of the stacked pooling parameters, two concatenations with the skip connections).
  Walking the spine from the launch memory, the buffer each segment writes is shown equal to the reference's stage of the
  same arguments:
  * a region's output array is the stage's function of its input arrays (the region's closed form), which is the reference's
    stage (the same function read off the reference's operations); for a pooling layer the two programs scale by
    `g · (var + ε)^(-1/2)` and by `g / √(var + ε)`, equal because `g` is real, `var` a nonnegative real and `ε > 0`; for the
    log-softmax they subtract `m + L` and `m`, then `L`, equal because the pre-activations are real (every float stage of the
    network is real when the float arguments are, the degree being at least one by the self loops and `var + ε` positive);
  * a stretch's output is the same composition of array operations in both programs, applied to equal operands; the one
    difference, the order of the two factors of the product that scales the gathered rows, is commutativity of the product
    of extended reals.
-/
import proofs.«124761_j84988812853303_1_alg».proof.Proof.HostsA
import proofs.«124761_j84988812853303_1_alg».proof.Proof.HostsB
import proofs.«124761_j84988812853303_1_alg».proof.Proof.HostsC
import proofs.«124761_j84988812853303_1_alg».proof.Proof.HostsD
import proofs.«124761_j84988812853303_1_alg».proof.Proof.Keep
import proofs.«124761_j84988812853303_1_alg».proof.Proof.RefStages
import proofs.«124761_j84988812853303_1_alg».proof.Proof.RefStagesLsm
import proofs.«124761_j84988812853303_1_alg».proof.Proof.RefReal
import proofs.«124761_j84988812853303_1_alg».proof.Proof.PreFacts
import proofs.«124761_j84988812853303_1_alg».proof.Proof.Region0
import proofs.«124761_j84988812853303_1_alg».proof.Proof.Region1
import proofs.«124761_j84988812853303_1_alg».proof.Proof.Region2
import proofs.«124761_j84988812853303_1_alg».proof.Proof.Region3
import proofs.«124761_j84988812853303_1_alg».proof.Proof.Region4
import proofs.«124761_j84988812853303_1_alg».proof.Proof.Region5
import proofs.«124761_j84988812853303_1_alg».proof.Proof.Region6
import proofs.«124761_j84988812853303_1_alg».proof.Proof.Region7
import proofs.«124761_j84988812853303_1_alg».proof.Proof.Region8
import proofs.«124761_j84988812853303_1_alg».proof.Proof.Region9
import proofs.«124761_j84988812853303_1_alg».proof.Proof.Region10
import proofs.«124761_j84988812853303_1_alg».proof.Proof.Region11
import proofs.«124761_j84988812853303_1_alg».proof.Proof.Region12
import proofs.«124761_j84988812853303_1_alg».proof.Proof.Region13

set_option maxRecDepth 16384

noncomputable section

namespace Cert.Chain

open Idealize.ShloMosaic Idealize.ShloMosaic.TcCoe
open Idealize.SL Idealize.SL.Sem
open Cert.KernelIdeal Cert.KernelIdeal.Gen
open Cert.ReferenceIdeal.Read
open Cert.Net

variable (m : (ℓ : Loc nD τ sig) → Buf (Elt Ideal) ℓ) (ρ : Dev nD → PrngReg) (c : Dev nD)

/-- The product of two arrays of extended reals does not depend on the order of its factors. -/
theorem mulf_comm_vec {s : Shape} (a b : FVec Ideal s .f32) : mulf a b = mulf b a :=
  funext fun i => mul_comm (a i) (b i)

variable (hpre : Cert.PreFacts.Finite (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))

include hpre

/-- Level 0: the features times the first weight matrix. -/
theorem s_v0 : (V1 m ρ c main_v0 : FVec Ideal S100000x128 .f32) = val_main_v28 (F := Ideal) (m ((c : Thread nD τ).loc main_arg0)) (m ((c : Thread nD τ).loc main_arg6)) := by
  have h := Cert.KernelIdeal.Region0.closed (V0 m ρ) c
  exact ((hF0 m ρ c 2).symm.trans h).trans (Cert.RefStages.v28_eq (m ((c : Thread nD τ).loc main_arg0)) (m ((c : Thread nD τ).loc main_arg6))).symm

/-- Level 0: the normalised aggregation over the edges and self loops. -/
theorem s_v41 : (V2 m ρ c main_v41 : FVec Ideal S100000x128 .f32) = val_main_v41 (F := Ideal) (m ((c : Thread nD τ).loc main_arg0)) (m ((c : Thread nD τ).loc main_arg1)) (m ((c : Thread nD τ).loc main_arg6)) := by
  rw [Cert.KernelIdeal.Hosts.host1 m ρ c, s_v0 m ρ c hpre, (show V1 m ρ c main_arg1 = (m ((c : Thread nD τ).loc main_arg1)) from Cert.KernelIdeal.Keep.arg1_W1 m ρ c), mulf_comm_vec]
  rfl

/-- Level 0: bias and rectifier — the first skip connection. -/
theorem s_v42 : (V3 m ρ c main_v42 : FVec Ideal S100000x128 .f32) = val_main_v45 (F := Ideal) (m ((c : Thread nD τ).loc main_arg0)) (m ((c : Thread nD τ).loc main_arg1)) (m ((c : Thread nD τ).loc main_arg6)) (m ((c : Thread nD τ).loc main_arg7)) := by
  have h := Cert.KernelIdeal.Region1.closed (V2 m ρ) c
  rw [s_v41 m ρ c hpre, (show V2 m ρ c main_arg7 = (m ((c : Thread nD τ).loc main_arg7)) from Cert.KernelIdeal.Keep.arg7_W2 m ρ c)] at h
  exact ((hF1 m ρ c 2).symm.trans h).trans (Cert.RefStages.v45_eq (m ((c : Thread nD τ).loc main_arg0)) (m ((c : Thread nD τ).loc main_arg1)) (m ((c : Thread nD τ).loc main_arg6)) (m ((c : Thread nD τ).loc main_arg7))).symm

/-- Level 0 → 1: children's features summed into their parents. -/
theorem s_v45 : (V4 m ρ c main_v45 : FVec Ideal S20000x128 .f32) = val_main_v48 (F := Ideal) (m ((c : Thread nD τ).loc main_arg0)) (m ((c : Thread nD τ).loc main_arg1)) (m ((c : Thread nD τ).loc main_arg4)) (m ((c : Thread nD τ).loc main_arg6)) (m ((c : Thread nD τ).loc main_arg7)) := by
  rw [Cert.KernelIdeal.Hosts.host2 m ρ c, s_v42 m ρ c hpre, (show V3 m ρ c main_arg4 = (m ((c : Thread nD τ).loc main_arg4)) from Cert.KernelIdeal.Keep.arg4_W3 m ρ c)]
  rfl

/-! The first pooling layer's parameters: slice 0 of each stacked array. -/
theorem sl_v47 : (V4 m ρ c main_v47 : FVec Ideal S128x128 .f32) = val_main_v50 (F := Ideal) (m ((c : Thread nD τ).loc main_arg16)) := by
  rw [Cert.KernelIdeal.Hosts.host2_v47 m ρ c, (show V3 m ρ c main_arg16 = (m ((c : Thread nD τ).loc main_arg16)) from Cert.KernelIdeal.Keep.arg16_W3 m ρ c)]
theorem sl_v49 : (V4 m ρ c main_v49 : FVec Ideal S128 .f32) = val_main_v52 (F := Ideal) (m ((c : Thread nD τ).loc main_arg17)) := by
  rw [Cert.KernelIdeal.Hosts.host2_v49 m ρ c, (show V3 m ρ c main_arg17 = (m ((c : Thread nD τ).loc main_arg17)) from Cert.KernelIdeal.Keep.arg17_W3 m ρ c)]
theorem sl_v51 : (V4 m ρ c main_v51 : FVec Ideal S128 .f32) = val_main_v54 (F := Ideal) (m ((c : Thread nD τ).loc main_arg18)) := by
  rw [Cert.KernelIdeal.Hosts.host2_v51 m ρ c, (show V3 m ρ c main_arg18 = (m ((c : Thread nD τ).loc main_arg18)) from Cert.KernelIdeal.Keep.arg18_W3 m ρ c)]
theorem sl_v53 : (V4 m ρ c main_v53 : FVec Ideal S128 .f32) = val_main_v56 (F := Ideal) (m ((c : Thread nD τ).loc main_arg19)) := by
  rw [Cert.KernelIdeal.Hosts.host2_v53 m ρ c, (show V3 m ρ c main_arg19 = (m ((c : Thread nD τ).loc main_arg19)) from Cert.KernelIdeal.Keep.arg19_W3 m ρ c)]
theorem sl_v55 : (V4 m ρ c main_v55 : FVec Ideal S128 .f32) = val_main_v58 (F := Ideal) (m ((c : Thread nD τ).loc main_arg20)) := by
  rw [Cert.KernelIdeal.Hosts.host2_v55 m ρ c, (show V3 m ρ c main_arg20 = (m ((c : Thread nD τ).loc main_arg20)) from Cert.KernelIdeal.Keep.arg20_W3 m ρ c)]
theorem sl_v57 : (V4 m ρ c main_v57 : FVec Ideal S128 .f32) = val_main_v60 (F := Ideal) (m ((c : Thread nD τ).loc main_arg21)) := by
  rw [Cert.KernelIdeal.Hosts.host2_v57 m ρ c, (show V3 m ρ c main_arg21 = (m ((c : Thread nD τ).loc main_arg21)) from Cert.KernelIdeal.Keep.arg21_W3 m ρ c)]

/-- Level 1: the first pooling layer. -/
theorem s_v58 : (V5 m ρ c main_v58 : FVec Ideal S20000x128 .f32) = val_main_v79 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region2.closed (V4 m ρ) c
  rw [s_v45 m ρ c hpre, sl_v47 m ρ c hpre, sl_v49 m ρ c hpre, sl_v51 m ρ c hpre, sl_v53 m ρ c hpre, sl_v55 m ρ c hpre, sl_v57 m ρ c hpre] at h
  rw [poolK_eq_poolR (M := 20000) (K := 128) (N := 128) _ _ _ _ _ _ _ _ (Cert.RefReal.pgamma0_real (m ((c : Thread nD τ).loc main_arg18)) hpre.r18) (Cert.RefReal.pvar0_nonneg (m ((c : Thread nD τ).loc main_arg21)) hpre.nn21) Cert.LibReal.ofBits_eps] at h
  exact ((hF2 m ρ c 7).symm.trans h).trans (Cert.RefStages.v79_eq (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 1: the pooled features times the second weight matrix. -/
theorem s_v59 : (V6 m ρ c main_v59 : FVec Ideal S20000x128 .f32) = val_main_v108 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region3.closed (V5 m ρ) c
  rw [s_v58 m ρ c hpre, (show V5 m ρ c main_arg8 = (m ((c : Thread nD τ).loc main_arg8)) from Cert.KernelIdeal.Keep.arg8_W5 m ρ c)] at h
  exact ((hF3 m ρ c 2).symm.trans h).trans (Cert.RefStages.v108_eq (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 1: the normalised aggregation. -/
theorem s_v100 : (V7 m ρ c main_v100 : FVec Ideal S20000x128 .f32) = val_main_v121 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host4 m ρ c, s_v59 m ρ c hpre, (show V6 m ρ c main_arg2 = (m ((c : Thread nD τ).loc main_arg2)) from Cert.KernelIdeal.Keep.arg2_W6 m ρ c), mulf_comm_vec]
  rfl

/-- Level 1: bias and rectifier — the second skip connection. -/
theorem s_v101 : (V8 m ρ c main_v101 : FVec Ideal S20000x128 .f32) = val_main_v125 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region4.closed (V7 m ρ) c
  rw [s_v100 m ρ c hpre, (show V7 m ρ c main_arg9 = (m ((c : Thread nD τ).loc main_arg9)) from Cert.KernelIdeal.Keep.arg9_W7 m ρ c)] at h
  exact ((hF4 m ρ c 2).symm.trans h).trans (Cert.RefStages.v125_eq (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 1 → 2: children's features summed into their parents. -/
theorem s_v104 : (V9 m ρ c main_v104 : FVec Ideal S4000x128 .f32) = val_main_v128 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host5 m ρ c, s_v101 m ρ c hpre, (show V8 m ρ c main_arg5 = (m ((c : Thread nD τ).loc main_arg5)) from Cert.KernelIdeal.Keep.arg5_W8 m ρ c)]
  rfl

/-! The second pooling layer's parameters: slice 1 of each stacked array. -/
theorem sl_v106 : (V9 m ρ c main_v106 : FVec Ideal S128x128 .f32) = val_main_v130 (F := Ideal) (m ((c : Thread nD τ).loc main_arg16)) := by
  rw [Cert.KernelIdeal.Hosts.host5_v106 m ρ c, (show V8 m ρ c main_arg16 = (m ((c : Thread nD τ).loc main_arg16)) from Cert.KernelIdeal.Keep.arg16_W8 m ρ c)]
theorem sl_v108 : (V9 m ρ c main_v108 : FVec Ideal S128 .f32) = val_main_v132 (F := Ideal) (m ((c : Thread nD τ).loc main_arg17)) := by
  rw [Cert.KernelIdeal.Hosts.host5_v108 m ρ c, (show V8 m ρ c main_arg17 = (m ((c : Thread nD τ).loc main_arg17)) from Cert.KernelIdeal.Keep.arg17_W8 m ρ c)]
theorem sl_v110 : (V9 m ρ c main_v110 : FVec Ideal S128 .f32) = val_main_v134 (F := Ideal) (m ((c : Thread nD τ).loc main_arg18)) := by
  rw [Cert.KernelIdeal.Hosts.host5_v110 m ρ c, (show V8 m ρ c main_arg18 = (m ((c : Thread nD τ).loc main_arg18)) from Cert.KernelIdeal.Keep.arg18_W8 m ρ c)]
theorem sl_v112 : (V9 m ρ c main_v112 : FVec Ideal S128 .f32) = val_main_v136 (F := Ideal) (m ((c : Thread nD τ).loc main_arg19)) := by
  rw [Cert.KernelIdeal.Hosts.host5_v112 m ρ c, (show V8 m ρ c main_arg19 = (m ((c : Thread nD τ).loc main_arg19)) from Cert.KernelIdeal.Keep.arg19_W8 m ρ c)]
theorem sl_v114 : (V9 m ρ c main_v114 : FVec Ideal S128 .f32) = val_main_v138 (F := Ideal) (m ((c : Thread nD τ).loc main_arg20)) := by
  rw [Cert.KernelIdeal.Hosts.host5_v114 m ρ c, (show V8 m ρ c main_arg20 = (m ((c : Thread nD τ).loc main_arg20)) from Cert.KernelIdeal.Keep.arg20_W8 m ρ c)]
theorem sl_v116 : (V9 m ρ c main_v116 : FVec Ideal S128 .f32) = val_main_v140 (F := Ideal) (m ((c : Thread nD τ).loc main_arg21)) := by
  rw [Cert.KernelIdeal.Hosts.host5_v116 m ρ c, (show V8 m ρ c main_arg21 = (m ((c : Thread nD τ).loc main_arg21)) from Cert.KernelIdeal.Keep.arg21_W8 m ρ c)]

/-- Level 2: the second pooling layer. -/
theorem s_v117 : (V10 m ρ c main_v117 : FVec Ideal S4000x128 .f32) = val_main_v159 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region5.closed (V9 m ρ) c
  rw [s_v104 m ρ c hpre, sl_v106 m ρ c hpre, sl_v108 m ρ c hpre, sl_v110 m ρ c hpre, sl_v112 m ρ c hpre, sl_v114 m ρ c hpre, sl_v116 m ρ c hpre] at h
  rw [poolK_eq_poolR (M := 4000) (K := 128) (N := 128) _ _ _ _ _ _ _ _ (Cert.RefReal.pgamma1_real (m ((c : Thread nD τ).loc main_arg18)) hpre.r18) (Cert.RefReal.pvar1_nonneg (m ((c : Thread nD τ).loc main_arg21)) hpre.nn21) Cert.LibReal.ofBits_eps] at h
  exact ((hF5 m ρ c 7).symm.trans h).trans (Cert.RefStages.v159_eq (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 2: the pooled features times the third weight matrix. -/
theorem s_v118 : (V11 m ρ c main_v118 : FVec Ideal S4000x128 .f32) = val_main_v188 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region6.closed (V10 m ρ) c
  rw [s_v117 m ρ c hpre, (show V10 m ρ c main_arg10 = (m ((c : Thread nD τ).loc main_arg10)) from Cert.KernelIdeal.Keep.arg10_W10 m ρ c)] at h
  exact ((hF6 m ρ c 2).symm.trans h).trans (Cert.RefStages.v188_eq (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 2: the normalised aggregation. -/
theorem s_v159 : (V12 m ρ c main_v159 : FVec Ideal S4000x128 .f32) = val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host7 m ρ c, s_v118 m ρ c hpre, (show V11 m ρ c main_arg3 = (m ((c : Thread nD τ).loc main_arg3)) from Cert.KernelIdeal.Keep.arg3_W11 m ρ c), mulf_comm_vec]
  rfl

/-- Level 2: bias and rectifier. -/
theorem s_v160 : (V13 m ρ c main_v160 : FVec Ideal S4000x128 .f32) = val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region7.closed (V12 m ρ) c
  rw [s_v159 m ρ c hpre, (show V12 m ρ c main_arg11 = (m ((c : Thread nD τ).loc main_arg11)) from Cert.KernelIdeal.Keep.arg11_W12 m ρ c)] at h
  exact ((hF7 m ρ c 2).symm.trans h).trans (Cert.RefStages.v205_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 2 → 1: every child takes its parent's features. -/
theorem s_v167 : (V14 m ρ c main_v167 : FVec Ideal S20000x128 .f32) = val_main_v212 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host8 m ρ c, s_v160 m ρ c hpre, (show V13 m ρ c main_arg5 = (m ((c : Thread nD τ).loc main_arg5)) from Cert.KernelIdeal.Keep.arg5_W13 m ρ c)]
  rfl

/-! The third pooling layer's parameters: slice 2 of each stacked array. -/
theorem sl_v169 : (V14 m ρ c main_v169 : FVec Ideal S128x128 .f32) = val_main_v214 (F := Ideal) (m ((c : Thread nD τ).loc main_arg16)) := by
  rw [Cert.KernelIdeal.Hosts.host8_v169 m ρ c, (show V13 m ρ c main_arg16 = (m ((c : Thread nD τ).loc main_arg16)) from Cert.KernelIdeal.Keep.arg16_W13 m ρ c)]
theorem sl_v171 : (V14 m ρ c main_v171 : FVec Ideal S128 .f32) = val_main_v216 (F := Ideal) (m ((c : Thread nD τ).loc main_arg17)) := by
  rw [Cert.KernelIdeal.Hosts.host8_v171 m ρ c, (show V13 m ρ c main_arg17 = (m ((c : Thread nD τ).loc main_arg17)) from Cert.KernelIdeal.Keep.arg17_W13 m ρ c)]
theorem sl_v173 : (V14 m ρ c main_v173 : FVec Ideal S128 .f32) = val_main_v218 (F := Ideal) (m ((c : Thread nD τ).loc main_arg18)) := by
  rw [Cert.KernelIdeal.Hosts.host8_v173 m ρ c, (show V13 m ρ c main_arg18 = (m ((c : Thread nD τ).loc main_arg18)) from Cert.KernelIdeal.Keep.arg18_W13 m ρ c)]
theorem sl_v175 : (V14 m ρ c main_v175 : FVec Ideal S128 .f32) = val_main_v220 (F := Ideal) (m ((c : Thread nD τ).loc main_arg19)) := by
  rw [Cert.KernelIdeal.Hosts.host8_v175 m ρ c, (show V13 m ρ c main_arg19 = (m ((c : Thread nD τ).loc main_arg19)) from Cert.KernelIdeal.Keep.arg19_W13 m ρ c)]
theorem sl_v177 : (V14 m ρ c main_v177 : FVec Ideal S128 .f32) = val_main_v222 (F := Ideal) (m ((c : Thread nD τ).loc main_arg20)) := by
  rw [Cert.KernelIdeal.Hosts.host8_v177 m ρ c, (show V13 m ρ c main_arg20 = (m ((c : Thread nD τ).loc main_arg20)) from Cert.KernelIdeal.Keep.arg20_W13 m ρ c)]
theorem sl_v179 : (V14 m ρ c main_v179 : FVec Ideal S128 .f32) = val_main_v224 (F := Ideal) (m ((c : Thread nD τ).loc main_arg21)) := by
  rw [Cert.KernelIdeal.Hosts.host8_v179 m ρ c, (show V13 m ρ c main_arg21 = (m ((c : Thread nD τ).loc main_arg21)) from Cert.KernelIdeal.Keep.arg21_W13 m ρ c)]

/-- Level 1: the third pooling layer, on the unpooled features. -/
theorem s_v180 : (V15 m ρ c main_v180 : FVec Ideal S20000x128 .f32) = val_main_v243 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region8.closed (V14 m ρ) c
  rw [s_v167 m ρ c hpre, sl_v169 m ρ c hpre, sl_v171 m ρ c hpre, sl_v173 m ρ c hpre, sl_v175 m ρ c hpre, sl_v177 m ρ c hpre, sl_v179 m ρ c hpre] at h
  rw [poolK_eq_poolR (M := 20000) (K := 128) (N := 128) _ _ _ _ _ _ _ _ (Cert.RefReal.pgamma2_real (m ((c : Thread nD τ).loc main_arg18)) hpre.r18) (Cert.RefReal.pvar2_nonneg (m ((c : Thread nD τ).loc main_arg21)) hpre.nn21) Cert.LibReal.ofBits_eps] at h
  exact ((hF8 m ρ c 7).symm.trans h).trans (Cert.RefStages.v243_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- The second skip connection is still in its buffer when the concatenation reads it. -/
theorem keep_v101 : (V15 m ρ c main_v101 : FVec Ideal S20000x128 .f32) = val_main_v125 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (show V15 m ρ c main_v101 = V8 m ρ c main_v101 from Cert.KernelIdeal.Keep.v101_W15 m ρ c).trans (s_v101 m ρ c hpre)

/-- Level 1: the unpooled features beside the skip connection. -/
theorem s_v181 : (V16 m ρ c main_v181 : FVec Ideal S20000x256 .f32) = val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host9 m ρ c, s_v180 m ρ c hpre, keep_v101 m ρ c hpre]
  rfl

/-- Level 1: the concatenated features times the fourth weight matrix. -/
theorem s_v182 : (V17 m ρ c main_v182 : FVec Ideal S20000x128 .f32) = val_main_v273 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region9.closed (V16 m ρ) c
  rw [s_v181 m ρ c hpre, (show V16 m ρ c main_arg12 = (m ((c : Thread nD τ).loc main_arg12)) from Cert.KernelIdeal.Keep.arg12_W16 m ρ c)] at h
  exact ((hF9 m ρ c 2).symm.trans h).trans (Cert.RefStages.v273_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 1: the normalised aggregation. -/
theorem s_v223 : (V18 m ρ c main_v223 : FVec Ideal S20000x128 .f32) = val_main_v286 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host10 m ρ c, s_v182 m ρ c hpre, (show V17 m ρ c main_arg2 = (m ((c : Thread nD τ).loc main_arg2)) from Cert.KernelIdeal.Keep.arg2_W17 m ρ c), mulf_comm_vec]
  rfl

/-- Level 1: bias and rectifier. -/
theorem s_v224 : (V19 m ρ c main_v224 : FVec Ideal S20000x128 .f32) = val_main_v290 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region10.closed (V18 m ρ) c
  rw [s_v223 m ρ c hpre, (show V18 m ρ c main_arg13 = (m ((c : Thread nD τ).loc main_arg13)) from Cert.KernelIdeal.Keep.arg13_W18 m ρ c)] at h
  exact ((hF10 m ρ c 2).symm.trans h).trans (Cert.RefStages.v290_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 1 → 0: every child takes its parent's features. -/
theorem s_v231 : (V20 m ρ c main_v231 : FVec Ideal S100000x128 .f32) = val_main_v297 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host11 m ρ c, s_v224 m ρ c hpre, (show V19 m ρ c main_arg4 = (m ((c : Thread nD τ).loc main_arg4)) from Cert.KernelIdeal.Keep.arg4_W19 m ρ c)]
  rfl

/-! The fourth pooling layer's parameters: slice 3 of each stacked array. -/
theorem sl_v233 : (V20 m ρ c main_v233 : FVec Ideal S128x128 .f32) = val_main_v299 (F := Ideal) (m ((c : Thread nD τ).loc main_arg16)) := by
  rw [Cert.KernelIdeal.Hosts.host11_v233 m ρ c, (show V19 m ρ c main_arg16 = (m ((c : Thread nD τ).loc main_arg16)) from Cert.KernelIdeal.Keep.arg16_W19 m ρ c)]
theorem sl_v235 : (V20 m ρ c main_v235 : FVec Ideal S128 .f32) = val_main_v301 (F := Ideal) (m ((c : Thread nD τ).loc main_arg17)) := by
  rw [Cert.KernelIdeal.Hosts.host11_v235 m ρ c, (show V19 m ρ c main_arg17 = (m ((c : Thread nD τ).loc main_arg17)) from Cert.KernelIdeal.Keep.arg17_W19 m ρ c)]
theorem sl_v237 : (V20 m ρ c main_v237 : FVec Ideal S128 .f32) = val_main_v303 (F := Ideal) (m ((c : Thread nD τ).loc main_arg18)) := by
  rw [Cert.KernelIdeal.Hosts.host11_v237 m ρ c, (show V19 m ρ c main_arg18 = (m ((c : Thread nD τ).loc main_arg18)) from Cert.KernelIdeal.Keep.arg18_W19 m ρ c)]
theorem sl_v239 : (V20 m ρ c main_v239 : FVec Ideal S128 .f32) = val_main_v305 (F := Ideal) (m ((c : Thread nD τ).loc main_arg19)) := by
  rw [Cert.KernelIdeal.Hosts.host11_v239 m ρ c, (show V19 m ρ c main_arg19 = (m ((c : Thread nD τ).loc main_arg19)) from Cert.KernelIdeal.Keep.arg19_W19 m ρ c)]
theorem sl_v241 : (V20 m ρ c main_v241 : FVec Ideal S128 .f32) = val_main_v307 (F := Ideal) (m ((c : Thread nD τ).loc main_arg20)) := by
  rw [Cert.KernelIdeal.Hosts.host11_v241 m ρ c, (show V19 m ρ c main_arg20 = (m ((c : Thread nD τ).loc main_arg20)) from Cert.KernelIdeal.Keep.arg20_W19 m ρ c)]
theorem sl_v243 : (V20 m ρ c main_v243 : FVec Ideal S128 .f32) = val_main_v309 (F := Ideal) (m ((c : Thread nD τ).loc main_arg21)) := by
  rw [Cert.KernelIdeal.Hosts.host11_v243 m ρ c, (show V19 m ρ c main_arg21 = (m ((c : Thread nD τ).loc main_arg21)) from Cert.KernelIdeal.Keep.arg21_W19 m ρ c)]

/-- Level 0: the fourth pooling layer, on the unpooled features. -/
theorem s_v244 : (V21 m ρ c main_v244 : FVec Ideal S100000x128 .f32) = val_main_v328 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region11.closed (V20 m ρ) c
  rw [s_v231 m ρ c hpre, sl_v233 m ρ c hpre, sl_v235 m ρ c hpre, sl_v237 m ρ c hpre, sl_v239 m ρ c hpre, sl_v241 m ρ c hpre, sl_v243 m ρ c hpre] at h
  rw [poolK_eq_poolR (M := 100000) (K := 128) (N := 128) _ _ _ _ _ _ _ _ (Cert.RefReal.pgamma3_real (m ((c : Thread nD τ).loc main_arg18)) hpre.r18) (Cert.RefReal.pvar3_nonneg (m ((c : Thread nD τ).loc main_arg21)) hpre.nn21) Cert.LibReal.ofBits_eps] at h
  exact ((hF11 m ρ c 7).symm.trans h).trans (Cert.RefStages.v328_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- The first skip connection is still in its buffer when the concatenation reads it. -/
theorem keep_v42 : (V21 m ρ c main_v42 : FVec Ideal S100000x128 .f32) = val_main_v45 (F := Ideal) (m ((c : Thread nD τ).loc main_arg0)) (m ((c : Thread nD τ).loc main_arg1)) (m ((c : Thread nD τ).loc main_arg6)) (m ((c : Thread nD τ).loc main_arg7)) :=
  (show V21 m ρ c main_v42 = V3 m ρ c main_v42 from Cert.KernelIdeal.Keep.v42_W21 m ρ c).trans (s_v42 m ρ c hpre)

/-- Level 0: the unpooled features beside the skip connection. -/
theorem s_v245 : (V22 m ρ c main_v245 : FVec Ideal S100000x256 .f32) = val_main_v329 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host12 m ρ c, s_v244 m ρ c hpre, keep_v42 m ρ c hpre]
  rfl

/-- Level 0: the concatenated features times the last weight matrix. -/
theorem s_v246 : (V23 m ρ c main_v246 : FVec Ideal S100000x10 .f32) = val_main_v358 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region12.closed (V22 m ρ) c
  rw [s_v245 m ρ c hpre, (show V22 m ρ c main_arg14 = (m ((c : Thread nD τ).loc main_arg14)) from Cert.KernelIdeal.Keep.arg14_W22 m ρ c)] at h
  exact ((hF12 m ρ c 2).symm.trans h).trans (Cert.RefStages.v358_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- Level 0: the normalised aggregation — the class scores before the bias. -/
theorem s_v287 : (V24 m ρ c main_v287 : FVec Ideal S100000x10 .f32) = val_main_v371 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KernelIdeal.Hosts.host13 m ρ c, s_v246 m ρ c hpre, (show V23 m ρ c main_arg1 = (m ((c : Thread nD τ).loc main_arg1)) from Cert.KernelIdeal.Keep.arg1_W23 m ρ c), mulf_comm_vec]
  rfl

/-- The result: bias and log-softmax of the class scores. -/
theorem s_v288 : (V25 m ρ c main_v288 : FVec Ideal S100000x10 .f32) = val_main_v375 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := Cert.KernelIdeal.Region13.closed (V24 m ρ) c
  rw [s_v287 m ρ c hpre, (show V24 m ρ c main_arg15 = (m ((c : Thread nD τ).loc main_arg15)) from Cert.KernelIdeal.Keep.arg15_W24 m ρ c)] at h
  have hz : ∀ r j, ∃ x : ℝ, biasedRow (M := 100000) (N := 10) (val_main_v371 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) (m ((c : Thread nD τ).loc main_arg15)) r j = (x : EReal) := fun r j => by
    obtain ⟨a, ha⟩ := Cert.RefReal.main_v371_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) hpre.r0 hpre.r6 hpre.r7 hpre.r8 hpre.r9 hpre.r10 hpre.r11 hpre.r12 hpre.r13 hpre.r14 hpre.r16 hpre.r17 hpre.r18 hpre.r19 hpre.r20 hpre.nn21 (ValueIdx.ix2 r j)
    obtain ⟨b, hb⟩ := hpre.r15 (ValueIdx.ix1 j)
    exact ⟨a + b, by unfold biasedRow; rw [ha, hb, EReal.coe_add]⟩
  rw [lsmK_eq_lsmR (M := 100000) (N := 10) (by norm_num) _ _ hz] at h
  exact ((hF13 m ρ c 2).symm.trans h).trans (Cert.RefStages.v375_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- The kernel's result buffer after its last segment holds the reference's result. -/
theorem result_eq : W25 m ρ c (Proc.devRef .tc main_v288) = val_main_v375 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  s_v288 m ρ c hpre

end Cert.Chain

end
-- ==== Proof.lean ====
/-
  The certificate of the hierarchical graph network: the tiled kernel program against its array-language reference.

  The network is a U-shaped stack over a three-level node hierarchy: on each level a graph convolution (a matrix product,
  the symmetric-normalised aggregation over the edges and self loops, a bias and a rectifier), between levels a pooling
  layer (children summed into parents on the way down, parents copied to children on the way up; a linear layer, a
  rectifier, a batch normalisation with running statistics and a second rectifier), skip connections by concatenation on
  the way up, and a final row-wise log-softmax over ten classes. The kernel program computes every dense stage in a tiled
  region and keeps the index-driven gathers and scatters as array operations; the reference computes everything with array
  operations.

  * The three frames: each program runs to the end without a fault and leaves its arguments unchanged (the kernel programs'
    frames region by region; the reference's from its run).
  * The idealisation rewrote nothing, so its claim is trivial.
  * The value claim, on the extended reals, from memories agreeing on the arguments, under finite float arguments and a
    nonnegative running variance: the kernel's result buffer holds the reference's result, shown stage by stage along the
    program (`Cert.Chain.result_eq`); the two dense-stage forms that differ — the batch-norm scale
    `g · (var + ε)^(-1/2)` against `g / √(var + ε)`, and the log-softmax's `z − (m + L)` against `(z − m) − L` — agree
    because `var + ε` is a positive real and every pre-activation is real.
-/
import proofs.«124761_j84988812853303_1_alg».proof.Defs
import proofs.«124761_j84988812853303_1_alg».proof.Proof.Gen.Kernel
import proofs.«124761_j84988812853303_1_alg».proof.Proof.Gen.Kernel.Skeleton
import proofs.«124761_j84988812853303_1_alg».proof.Proof.Gen.Kernel.Launch
import proofs.«124761_j84988812853303_1_alg».proof.Proof.Gen.Kernel.Points
import proofs.«124761_j84988812853303_1_alg».proof.Proof.Gen.Kernel.Frame
import proofs.«124761_j84988812853303_1_alg».proof.Proof.Gen.KernelIdeal
import proofs.«124761_j84988812853303_1_alg».proof.Proof.Gen.KernelIdeal.Skeleton
import proofs.«124761_j84988812853303_1_alg».proof.Proof.Gen.KernelIdeal.Launch
import proofs.«124761_j84988812853303_1_alg».proof.Proof.Gen.KernelIdeal.Points
import proofs.«124761_j84988812853303_1_alg».proof.Proof.Gen.KernelIdeal.Frame
import proofs.«124761_j84988812853303_1_alg».proof.Proof.Gen.ReferenceIdeal
import proofs.«124761_j84988812853303_1_alg».proof.Proof.Gen.Pre_finite_inputs
import proofs.«124761_j84988812853303_1_alg».proof.Proof.RefRead
import proofs.«124761_j84988812853303_1_alg».proof.Proof.RefRunSeg
import proofs.«124761_j84988812853303_1_alg».proof.Proof.KernelRun
import proofs.«124761_j84988812853303_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunSeg.run m ρ)

theorem preserves : Cert.preserves_Kernel_KernelIdeal := trivial

/-- Both programs end with the reference's result term of the (shared) arguments. -/
theorem algebraic : Cert.algebraic_KernelIdeal_ReferenceIdeal := by
  intro m ρ m' ρ' hpre hagree
  refine ⟨fun c => Cert.ReferenceIdeal.Read.val_main_v375 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.Chain.result_eq m ρ c (Cert.PreFacts.decode _ _ _ _ _ _ _ _ _ _ _ _ _ _ _ _ _ _ _ _ _ _ (hpre c))), (h c).2⟩)
      (Cert.KernelIdeal.RunValue.run m ρ)
  · refine (θ_run Cert.ReferenceIdeal.defs _ _).mono (fun r h c => ⟨(h c).1.trans ?_, (h c).2⟩) (Cert.ReferenceIdeal.RunSeg.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
